-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v246)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v246) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v329) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x625000 : Shape := ⟨2, ![2, 625000]⟩
abbrev S10000 : Shape := ⟨1, ![10000]⟩
abbrev S128x128 : Shape := ⟨2, ![128, 128]⟩
abbrev S128 : Shape := ⟨1, ![128]⟩
abbrev S4x128x128 : Shape := ⟨3, ![4, 128, 128]⟩
abbrev S4x128 : Shape := ⟨2, ![4, 128]⟩
abbrev S10x128 : Shape := ⟨2, ![10, 128]⟩
abbrev S10 : Shape := ⟨1, ![10]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_
  bcast_S_S10x128 : S_.BroadcastsInDim S10x128 (![] : Fin 0 → Fin S10x128.rank)
  reducesTo_S10x128_S_d0_1 : S10x128.ReducesTo [0, 1] S_
  bcast_S_S10 : S_.BroadcastsInDim S10 (![] : Fin 0 → Fin S10.rank)
  reducesTo_S10_S_d0 : S10.ReducesTo [0] S_

variable [Facts]

def fn_part3 {F : FTy → Type} [FloatOps F] (main_arg13 : FVec F S10x128 .f32) (main_arg14 : FVec F S10 .f32) (main_v48 : IVec S_ 1) (main_v49 : FVec F S4x128 .f32) (main_v50 : FVec F S4x128 .f32) : IVec S_ 1 :=
  let main_v51 : IVec S4x128 1 := cmpf .olt main_v49 main_v50
  let main_c_19 : IVec S_ 1 := constantI S_ 1 1#1
  let main_v52 : IVec S_ 1 := (fun x v => Host.reduce IntOp.andi x v reducesTo_S4x128_S_d0_1 h_S_) main_v51 main_c_19
  let main_v53 : IVec S_ 1 := andi main_v48 main_v52
  let main_v54 : FVec F S10x128 .f32 := Host.absf main_arg13
  let main_cst_20 : FVec F S_ .f32 := constant S_ .f32 0x7F800000#32
  let main_v55 : FVec F S10x128 .f32 := broadcastInDim S10x128 ![] bcast_S_S10x128 main_cst_20
  let main_v56 : IVec S10x128 1 := cmpf .olt main_v54 main_v55
  let main_c_21 : IVec S_ 1 := constantI S_ 1 1#1
  let main_v57 : IVec S_ 1 := (fun x v => Host.reduce IntOp.andi x v reducesTo_S10x128_S_d0_1 h_S_) main_v56 main_c_21
  let main_v58 : IVec S_ 1 := andi main_v53 main_v57
  let main_v59 : FVec F S10 .f32 := Host.absf main_arg14
  let main_cst_22 : FVec F S_ .f32 := constant S_ .f32 0x7F800000#32
  let main_v60 : FVec F S10 .f32 := broadcastInDim S10 ![] bcast_S_S10 main_cst_22
  let main_v61 : IVec S10 1 := cmpf .olt main_v59 main_v60
  let main_c_23 : IVec S_ 1 := constantI S_ 1 1#1
  let main_v62 : IVec S_ 1 := (fun x v => Host.reduce IntOp.andi x v reducesTo_S10_S_d0 h_S_) main_v61 main_c_23
  let main_v63 : IVec S_ 1 := andi main_v58 main_v62
  main_v63

def fn_part2 {F : FTy → Type} [FloatOps F] (main_arg9 : FVec F S4x128x128 .f32) (main_arg10 : FVec F S4x128 .f32) (main_arg11 : FVec F S4x128 .f32) (main_arg12 : FVec F S4x128 .f32) (main_arg13 : FVec F S10x128 .f32) (main_arg14 : FVec F S10 .f32) (main_v33 : IVec S_ 1) : IVec S_ 1 :=
  let main_v34 : FVec F S4x128x128 .f32 := Host.absf main_arg9
  let main_cst_12 : FVec F S_ .f32 := constant S_ .f32 0x7F800000#32
  let main_v35 : FVec F S4x128x128 .f32 := broadcastInDim S4x128x128 ![] bcast_S_S4x128x128 main_cst_12
  let main_v36 : IVec S4x128x128 1 := cmpf .olt main_v34 main_v35
  let main_c_13 : IVec S_ 1 := constantI S_ 1 1#1
  let main_v37 : IVec S_ 1 := (fun x v => Host.reduce IntOp.andi x v reducesTo_S4x128x128_S_d0_1_2 h_S_) main_v36 main_c_13
  let main_v38 : IVec S_ 1 := andi main_v33 main_v37
  let main_v39 : FVec F S4x128 .f32 := Host.absf main_arg10
  let main_cst_14 : FVec F S_ .f32 := constant S_ .f32 0x7F800000#32
  let main_v40 : FVec F S4x128 .f32 := broadcastInDim S4x128 ![] bcast_S_S4x128 main_cst_14
  let main_v41 : IVec S4x128 1 := cmpf .olt main_v39 main_v40
  let main_c_15 : IVec S_ 1 := constantI S_ 1 1#1
  let main_v42 : IVec S_ 1 := (fun x v => Host.reduce IntOp.andi x v reducesTo_S4x128_S_d0_1 h_S_) main_v41 main_c_15
  let main_v43 : IVec S_ 1 := andi main_v38 main_v42
  let main_v44 : FVec F S4x128 .f32 := Host.absf main_arg11
  let main_cst_16 : FVec F S_ .f32 := constant S_ .f32 0x7F800000#32
  let main_v45 : FVec F S4x128 .f32 := broadcastInDim S4x128 ![] bcast_S_S4x128 main_cst_16
  let main_v46 : IVec S4x128 1 := cmpf .olt main_v44 main_v45
  let main_c_17 : IVec S_ 1 := constantI S_ 1 1#1
  let main_v47 : IVec S_ 1 := (fun x v => Host.reduce IntOp.andi x v reducesTo_S4x128_S_d0_1 h_S_) main_v46 main_c_17
  let main_v48 : IVec S_ 1 := andi main_v43 main_v47
  let main_v49 : FVec F S4x128 .f32 := Host.absf main_arg12
  let main_cst_18 : FVec F S_ .f32 := constant S_ .f32 0x7F800000#32
  let main_v50 : FVec F S4x128 .f32 := broadcastInDim S4x128 ![] bcast_S_S4x128 main_cst_18
  fn_part3 (F := F) main_arg13 main_arg14 main_v48 main_v49 main_v50

def fn_part1 {F : FTy → Type} [FloatOps F] (main_arg6 : FVec F S4x128 .f32) (main_arg7 : FVec F S4x128 .f32) (main_arg8 : FVec F S4x128 .f32) (main_arg9 : FVec F S4x128x128 .f32) (main_arg10 : FVec F S4x128 .f32) (main_arg11 : FVec F S4x128 .f32) (main_arg12 : FVec F S4x128 .f32) (main_arg13 : FVec F S10x128 .f32) (main_arg14 : FVec F S10 .f32) (main_v13 : IVec S_ 1) (main_v16 : IVec S4x128x128 1) : IVec S_ 1 :=
  let main_c_5 : IVec S_ 1 := constantI S_ 1 1#1
  let main_v17 : IVec S_ 1 := (fun x v => Host.reduce IntOp.andi x v reducesTo_S4x128x128_S_d0_1_2 h_S_) main_v16 main_c_5
  let main_v18 : IVec S_ 1 := andi main_v13 main_v17
  let main_v19 : FVec F S4x128 .f32 := Host.absf main_arg6
  let main_cst_6 : FVec F S_ .f32 := constant S_ .f32 0x7F800000#32
  let main_v20 : FVec F S4x128 .f32 := broadcastInDim S4x128 ![] bcast_S_S4x128 main_cst_6
  let main_v21 : IVec S4x128 1 := cmpf .olt main_v19 main_v20
  let main_c_7 : IVec S_ 1 := constantI S_ 1 1#1
  let main_v22 : IVec S_ 1 := (fun x v => Host.reduce IntOp.andi x v reducesTo_S4x128_S_d0_1 h_S_) main_v21 main_c_7
  let main_v23 : IVec S_ 1 := andi main_v18 main_v22
  let main_v24 : FVec F S4x128 .f32 := Host.absf main_arg7
  let main_cst_8 : FVec F S_ .f32 := constant S_ .f32 0x7F800000#32
  let main_v25 : FVec F S4x128 .f32 := broadcastInDim S4x128 ![] bcast_S_S4x128 main_cst_8
  let main_v26 : IVec S4x128 1 := cmpf .olt main_v24 main_v25
  let main_c_9 : IVec S_ 1 := constantI S_ 1 1#1
  let main_v27 : IVec S_ 1 := (fun x v => Host.reduce IntOp.andi x v reducesTo_S4x128_S_d0_1 h_S_) main_v26 main_c_9
  let main_v28 : IVec S_ 1 := andi main_v23 main_v27
  let main_v29 : FVec F S4x128 .f32 := Host.absf main_arg8
  let main_cst_10 : FVec F S_ .f32 := constant S_ .f32 0x7F800000#32
  let main_v30 : FVec F S4x128 .f32 := broadcastInDim S4x128 ![] bcast_S_S4x128 main_cst_10
  let main_v31 : IVec S4x128 1 := cmpf .olt main_v29 main_v30
  let main_c_11 : IVec S_ 1 := constantI S_ 1 1#1
  let main_v32 : IVec S_ 1 := (fun x v => Host.reduce IntOp.andi x v reducesTo_S4x128_S_d0_1 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S100000x128 .f32) (main_arg1 : IVec S2x625000 32) (main_arg2 : IVec S10000 32) (main_arg3 : FVec F S128x128 .f32) (main_arg4 : FVec F S128 .f32) (main_arg5 : FVec F S4x128x128 .f32) (main_arg6 : FVec F S4x128 .f32) (main_arg7 : FVec F S4x128 .f32) (main_arg8 : FVec F S4x128 .f32) (main_arg9 : FVec F S4x128x128 .f32) (main_arg10 : FVec F S4x128 .f32) (main_arg11 : FVec F S4x128 .f32) (main_arg12 : FVec F S4x128 .f32) (main_arg13 : FVec F S10x128 .f32) (main_arg14 : FVec F S10 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S4x128x128 .f32 := Host.absf main_arg5
  let main_cst_4 : FVec F S_ .f32 := constant S_ .f32 0x7F800000#32
  let main_v15 : FVec F S4x128x128 .f32 := broadcastInDim S4x128x128 ![] bcast_S_S4x128x128 main_cst_4
  let main_v16 : IVec S4x128x128 1 := cmpf .olt main_v14 main_v15
  fn_part1 (F := F) main_arg6 main_arg7 main_arg8 main_arg9 main_arg10 main_arg11 main_arg12 main_arg13 main_arg14 main_v13 main_v16
-- ==== Kernel.lean ====
abbrev S100000x128 : Shape := ⟨2, ![100000, 128]⟩
abbrev S2x625000 : Shape := ⟨2, ![2, 625000]⟩
abbrev S10000 : Shape := ⟨1, ![10000]⟩
abbrev S128x128 : Shape := ⟨2, ![128, 128]⟩
abbrev S128 : Shape := ⟨1, ![128]⟩
abbrev S4x128x128 : Shape := ⟨3, ![4, 128, 128]⟩
abbrev S4x128 : Shape := ⟨2, ![4, 128]⟩
abbrev S10x128 : Shape := ⟨2, ![10, 128]⟩
abbrev S10 : Shape := ⟨1, ![10]⟩
abbrev S1x625000 : Shape := ⟨2, ![1, 625000]⟩
abbrev S625000 : Shape := ⟨1, ![625000]⟩
abbrev S1x128 : Shape := ⟨2, ![1, 128]⟩
abbrev S10000x128 : Shape := ⟨2, ![10000, 128]⟩
abbrev S_ : Shape := ⟨0, ![]⟩
abbrev S625000x1 : Shape := ⟨2, ![625000, 1]⟩
abbrev S625000x128 : Shape := ⟨2, ![625000, 128]⟩
abbrev S1x128x128 : Shape := ⟨3, ![1, 128, 128]⟩
abbrev S10x1x128 : Shape := ⟨3, ![10, 1, 128]⟩
abbrev S1x1x128 : Shape := ⟨3, ![1, 1, 128]⟩
abbrev S10000x1 : Shape := ⟨2, ![10000, 1]⟩
abbrev S128x10 : Shape := ⟨2, ![128, 10]⟩
abbrev S10000x10 : Shape := ⟨2, ![10000, 10]⟩
abbrev S1x10 : Shape := ⟨2, ![1, 10]⟩

abbrev nBuf : Space → Nat
  | .hbm => 332
  | .vmem => 142
  | .smem => 0
  | _ => 0

abbrev hbmTy0_0 (i : Nat) : BufTy := match i % 128 with
  | 0 => ⟨S100000x128, .f32⟩
  | 1 => ⟨S2x625000, .i32⟩
  | 2 => ⟨S10000, .i32⟩
  | 3 => ⟨S128x128, .f32⟩
  | 4 => ⟨S128, .f32⟩
  | 5 => ⟨S4x128x128, .f32⟩
  | 6 => ⟨S4x128, .f32⟩
  | 7 => ⟨S4x128, .f32⟩
  | 8 => ⟨S4x128, .f32⟩
  | 9 => ⟨S4x128x128, .f32⟩
  | 10 => ⟨S4x128, .f32⟩
  | 11 => ⟨S4x128, .f32⟩
  | 12 => ⟨S4x128, .f32⟩
  | 13 => ⟨S10x128, .f32⟩
  | 14 => ⟨S10, .f32⟩
  | 15 => ⟨S1x625000, .i32⟩
  | 16 => ⟨S625000, .i32⟩
  | 17 => ⟨S1x625000, .i32⟩
  | 18 => ⟨S625000, .i32⟩
  | 19 => ⟨S128x128, .f32⟩
  | 20 => ⟨S1x128, .f32⟩
  | 21 => ⟨S100000x128, .f32⟩
  | 22 => ⟨S_, .i32⟩
  | 23 => ⟨S625000, .i32⟩
  | 24 => ⟨S625000, .i1⟩
  | 25 => ⟨S_, .i32⟩
  | 26 => ⟨S625000, .i32⟩
  | 27 => ⟨S625000, .i32⟩
  | 28 => ⟨S625000, .i32⟩
  | 29 => ⟨S625000x1, .i32⟩
  | 30 => ⟨S625000x128, .f32⟩
  | 31 => ⟨S_, .f32⟩
  | 32 => ⟨S100000x128, .f32⟩
  | 33 => ⟨S625000x1, .i32⟩
  | 34 => ⟨S100000x128, .f32⟩
  | 35 => ⟨S1x128x128, .f32⟩
  | 36 => ⟨S128x128, .f32⟩
  | 37 => ⟨S1x128, .f32⟩
  | 38 => ⟨S128, .f32⟩
  | 39 => ⟨S128x128, .f32⟩
  | 40 => ⟨S1x128, .f32⟩
  | 41 => ⟨S100000x128, .f32⟩
  | 42 => ⟨S10x1x128, .f32⟩
  | 43 => ⟨S10x1x128, .f32⟩
  | 44 => ⟨S_, .f32⟩
  | 45 => ⟨S1x128, .f32⟩
  | 46 => ⟨S_, .f32⟩
  | 47 => ⟨S1x128, .f32⟩
  | 48 => ⟨S_, .f32⟩
  | 49 => ⟨S1x128, .f32⟩
  | 50 => ⟨S1x128, .f32⟩
  | 51 => ⟨S_, .f32⟩
  | 52 => ⟨S1x128, .f32⟩
  | 53 => ⟨S1x128, .f32⟩
  | 54 => ⟨S1x128, .f32⟩
  | 55 => ⟨S1x128, .f32⟩
  | 56 => ⟨S_, .f32⟩
  | 57 => ⟨S1x128, .f32⟩
  | 58 => ⟨S1x128, .f32⟩
  | 59 => ⟨S1x128, .f32⟩
  | 60 => ⟨S128, .f32⟩
  | 61 => ⟨S1x128, .f32⟩
  | 62 => ⟨S128, .f32⟩
  | 63 => ⟨S1x128x128, .f32⟩
  | 64 => ⟨S128x128, .f32⟩
  | 65 => ⟨S1x128, .f32⟩
  | 66 => ⟨S128, .f32⟩
  | 67 => ⟨S128x128, .f32⟩
  | 68 => ⟨S1x128, .f32⟩
  | 69 => ⟨S1x128, .f32⟩
  | 70 => ⟨S1x128, .f32⟩
  | 71 => ⟨S100000x128, .f32⟩
  | 72 => ⟨S10x1x128, .f32⟩
  | 73 => ⟨S10x1x128, .f32⟩
  | 74 => ⟨S_, .f32⟩
  | 75 => ⟨S1x128, .f32⟩
  | 76 => ⟨S_, .f32⟩
  | 77 => ⟨S1x128, .f32⟩
  | 78 => ⟨S_, .f32⟩
  | 79 => ⟨S1x128, .f32⟩
  | 80 => ⟨S1x128, .f32⟩
  | 81 => ⟨S_, .f32⟩
  | 82 => ⟨S1x128, .f32⟩
  | 83 => ⟨S1x128, .f32⟩
  | 84 => ⟨S1x128, .f32⟩
  | 85 => ⟨S1x128, .f32⟩
  | 86 => ⟨S_, .f32⟩
  | 87 => ⟨S1x128, .f32⟩
  | 88 => ⟨S1x128, .f32⟩
  | 89 => ⟨S1x128, .f32⟩
  | 90 => ⟨S128, .f32⟩
  | 91 => ⟨S1x128, .f32⟩
  | 92 => ⟨S128, .f32⟩
  | 93 => ⟨S1x128, .f32⟩
  | 94 => ⟨S1x128, .f32⟩
  | 95 => ⟨S100000x128, .f32⟩
  | 96 => ⟨S_, .i32⟩
  | 97 => ⟨S625000, .i32⟩
  | 98 => ⟨S625000, .i1⟩
  | 99 => ⟨S_, .i32⟩
  | 100 => ⟨S625000, .i32⟩
  | 101 => ⟨S625000, .i32⟩
  | 102 => ⟨S625000, .i32⟩
  | 103 => ⟨S625000x1, .i32⟩
  | 104 => ⟨S625000x128, .f32⟩
  | 105 => ⟨S_, .f32⟩
  | 106 => ⟨S100000x128, .f32⟩
  | 107 => ⟨S625000x1, .i32⟩
  | 108 => ⟨S100000x128, .f32⟩
  | 109 => ⟨S1x128x128, .f32⟩
  | 110 => ⟨S128x128, .f32⟩
  | 111 => ⟨S1x128, .f32⟩
  | 112 => ⟨S128, .f32⟩
  | 113 => ⟨S128x128, .f32⟩
  | 114 => ⟨S1x128, .f32⟩
  | 115 => ⟨S100000x128, .f32⟩
  | 116 => ⟨S10x1x128, .f32⟩
  | 117 => ⟨S10x1x128, .f32⟩
  | 118 => ⟨S_, .f32⟩
  | 119 => ⟨S1x128, .f32⟩
  | 120 => ⟨S_, .f32⟩
  | 121 => ⟨S1x128, .f32⟩
  | 122 => ⟨S_, .f32⟩
  | 123 => ⟨S1x128, .f32⟩
  | 124 => ⟨S1x128, .f32⟩
  | 125 => ⟨S_, .f32⟩
  | 126 => ⟨S1x128, .f32⟩
  | 127 => ⟨S1x128, .f32⟩
  | _ => ⟨S100000x128, .f32⟩

abbrev hbmTy0_1 (i : Nat) : BufTy := match i % 128 with
  | 0 => ⟨S1x128, .f32⟩
  | 1 => ⟨S1x128, .f32⟩
  | 2 => ⟨S_, .f32⟩
  | 3 => ⟨S1x128, .f32⟩
  | 4 => ⟨S1x128, .f32⟩
  | 5 => ⟨S1x128, .f32⟩
  | 6 => ⟨S128, .f32⟩
  | 7 => ⟨S1x128, .f32⟩
  | 8 => ⟨S128, .f32⟩
  | 9 => ⟨S1x128x128, .f32⟩
  | 10 => ⟨S128x128, .f32⟩
  | 11 => ⟨S1x128, .f32⟩
  | 12 => ⟨S128, .f32⟩
  | 13 => ⟨S128x128, .f32⟩
  | 14 => ⟨S1x128, .f32⟩
  | 15 => ⟨S1x128, .f32⟩
  | 16 => ⟨S1x128, .f32⟩
  | 17 => ⟨S100000x128, .f32⟩
  | 18 => ⟨S10x1x128, .f32⟩
  | 19 => ⟨S10x1x128, .f32⟩
  | 20 => ⟨S_, .f32⟩
  | 21 => ⟨S1x128, .f32⟩
  | 22 => ⟨S_, .f32⟩
  | 23 => ⟨S1x128, .f32⟩
  | 24 => ⟨S_, .f32⟩
  | 25 => ⟨S1x128, .f32⟩
  | 26 => ⟨S1x128, .f32⟩
  | 27 => ⟨S_, .f32⟩
  | 28 => ⟨S1x128, .f32⟩
  | 29 => ⟨S1x128, .f32⟩
  | 30 => ⟨S1x128, .f32⟩
  | 31 => ⟨S1x128, .f32⟩
  | 32 => ⟨S_, .f32⟩
  | 33 => ⟨S1x128, .f32⟩
  | 34 => ⟨S1x128, .f32⟩
  | 35 => ⟨S1x128, .f32⟩
  | 36 => ⟨S128, .f32⟩
  | 37 => ⟨S1x128, .f32⟩
  | 38 => ⟨S128, .f32⟩
  | 39 => ⟨S1x128, .f32⟩
  | 40 => ⟨S1x128, .f32⟩
  | 41 => ⟨S100000x128, .f32⟩
  | 42 => ⟨S_, .i32⟩
  | 43 => ⟨S625000, .i32⟩
  | 44 => ⟨S625000, .i1⟩
  | 45 => ⟨S_, .i32⟩
  | 46 => ⟨S625000, .i32⟩
  | 47 => ⟨S625000, .i32⟩
  | 48 => ⟨S625000, .i32⟩
  | 49 => ⟨S625000x1, .i32⟩
  | 50 => ⟨S625000x128, .f32⟩
  | 51 => ⟨S_, .f32⟩
  | 52 => ⟨S100000x128, .f32⟩
  | 53 => ⟨S625000x1, .i32⟩
  | 54 => ⟨S100000x128, .f32⟩
  | 55 => ⟨S1x128x128, .f32⟩
  | 56 => ⟨S128x128, .f32⟩
  | 57 => ⟨S1x128, .f32⟩
  | 58 => ⟨S128, .f32⟩
  | 59 => ⟨S128x128, .f32⟩
  | 60 => ⟨S1x128, .f32⟩
  | 61 => ⟨S100000x128, .f32⟩
  | 62 => ⟨S10x1x128, .f32⟩
  | 63 => ⟨S10x1x128, .f32⟩
  | 64 => ⟨S_, .f32⟩
  | 65 => ⟨S1x128, .f32⟩
  | 66 => ⟨S_, .f32⟩
  | 67 => ⟨S1x128, .f32⟩
  | 68 => ⟨S_, .f32⟩
  | 69 => ⟨S1x128, .f32⟩
  | 70 => ⟨S1x128, .f32⟩
  | 71 => ⟨S_, .f32⟩
  | 72 => ⟨S1x128, .f32⟩
  | 73 => ⟨S1x128, .f32⟩
  | 74 => ⟨S1x128, .f32⟩
  | 75 => ⟨S1x128, .f32⟩
  | 76 => ⟨S_, .f32⟩
  | 77 => ⟨S1x128, .f32⟩
  | 78 => ⟨S1x128, .f32⟩
  | 79 => ⟨S1x128, .f32⟩
  | 80 => ⟨S128, .f32⟩
  | 81 => ⟨S1x128, .f32⟩
  | 82 => ⟨S128, .f32⟩
  | 83 => ⟨S1x128x128, .f32⟩
  | 84 => ⟨S128x128, .f32⟩
  | 85 => ⟨S1x128, .f32⟩
  | 86 => ⟨S128, .f32⟩
  | 87 => ⟨S128x128, .f32⟩
  | 88 => ⟨S1x128, .f32⟩
  | 89 => ⟨S1x128, .f32⟩
  | 90 => ⟨S1x128, .f32⟩
  | 91 => ⟨S100000x128, .f32⟩
  | 92 => ⟨S10x1x128, .f32⟩
  | 93 => ⟨S10x1x128, .f32⟩
  | 94 => ⟨S_, .f32⟩
  | 95 => ⟨S1x128, .f32⟩
  | 96 => ⟨S_, .f32⟩
  | 97 => ⟨S1x128, .f32⟩
  | 98 => ⟨S_, .f32⟩
  | 99 => ⟨S1x128, .f32⟩
  | 100 => ⟨S1x128, .f32⟩
  | 101 => ⟨S_, .f32⟩
  | 102 => ⟨S1x128, .f32⟩
  | 103 => ⟨S1x128, .f32⟩
  | 104 => ⟨S1x128, .f32⟩
  | 105 => ⟨S1x128, .f32⟩
  | 106 => ⟨S_, .f32⟩
  | 107 => ⟨S1x128, .f32⟩
  | 108 => ⟨S1x128, .f32⟩
  | 109 => ⟨S1x128, .f32⟩
  | 110 => ⟨S128, .f32⟩
  | 111 => ⟨S1x128, .f32⟩
  | 112 => ⟨S128, .f32⟩
  | 113 => ⟨S1x128, .f32⟩
  | 114 => ⟨S1x128, .f32⟩
  | 115 => ⟨S100000x128, .f32⟩
  | 116 => ⟨S_, .i32⟩
  | 117 => ⟨S625000, .i32⟩
  | 118 => ⟨S625000, .i1⟩
  | 119 => ⟨S_, .i32⟩
  | 120 => ⟨S625000, .i32⟩
  | 121 => ⟨S625000, .i32⟩
  | 122 => ⟨S625000, .i32⟩
  | 123 => ⟨S625000x1, .i32⟩
  | 124 => ⟨S625000x128, .f32⟩
  | 125 => ⟨S_, .f32⟩
  | 126 => ⟨S100000x128, .f32⟩
  | 127 => ⟨S625000x1, .i32⟩
  | _ => ⟨S100000x128, .f32⟩

abbrev hbmTy0_2 (i : Nat) : BufTy := match i % 128 with
  | 0 => ⟨S100000x128, .f32⟩
  | 1 => ⟨S1x128x128, .f32⟩
  | 2 => ⟨S128x128, .f32⟩
  | 3 => ⟨S1x128, .f32⟩
  | 4 => ⟨S128, .f32⟩
  | 5 => ⟨S128x128, .f32⟩
  | 6 => ⟨S1x128, .f32⟩
  | 7 => ⟨S100000x128, .f32⟩
  | 8 => ⟨S10x1x128, .f32⟩
  | 9 => ⟨S10x1x128, .f32⟩
  | 10 => ⟨S_, .f32⟩
  | 11 => ⟨S1x128, .f32⟩
  | 12 => ⟨S_, .f32⟩
  | 13 => ⟨S1x128, .f32⟩
  | 14 => ⟨S_, .f32⟩
  | 15 => ⟨S1x128, .f32⟩
  | 16 => ⟨S1x128, .f32⟩
  | 17 => ⟨S_, .f32⟩
  | 18 => ⟨S1x128, .f32⟩
  | 19 => ⟨S1x128, .f32⟩
  | 20 => ⟨S1x128, .f32⟩
  | 21 => ⟨S1x128, .f32⟩
  | 22 => ⟨S_, .f32⟩
  | 23 => ⟨S1x128, .f32⟩
  | 24 => ⟨S1x128, .f32⟩
  | 25 => ⟨S1x128, .f32⟩
  | 26 => ⟨S128, .f32⟩
  | 27 => ⟨S1x128, .f32⟩
  | 28 => ⟨S128, .f32⟩
  | 29 => ⟨S1x128x128, .f32⟩
  | 30 => ⟨S128x128, .f32⟩
  | 31 => ⟨S1x128, .f32⟩
  | 32 => ⟨S128, .f32⟩
  | 33 => ⟨S128x128, .f32⟩
  | 34 => ⟨S1x128, .f32⟩
  | 35 => ⟨S1x128, .f32⟩
  | 36 => ⟨S1x128, .f32⟩
  | 37 => ⟨S100000x128, .f32⟩
  | 38 => ⟨S10x1x128, .f32⟩
  | 39 => ⟨S10x1x128, .f32⟩
  | 40 => ⟨S_, .f32⟩
  | 41 => ⟨S1x128, .f32⟩
  | 42 => ⟨S_, .f32⟩
  | 43 => ⟨S1x128, .f32⟩
  | 44 => ⟨S_, .f32⟩
  | 45 => ⟨S1x128, .f32⟩
  | 46 => ⟨S1x128, .f32⟩
  | 47 => ⟨S_, .f32⟩
  | 48 => ⟨S1x128, .f32⟩
  | 49 => ⟨S1x128, .f32⟩
  | 50 => ⟨S1x128, .f32⟩
  | 51 => ⟨S1x128, .f32⟩
  | 52 => ⟨S_, .f32⟩
  | 53 => ⟨S1x128, .f32⟩
  | 54 => ⟨S1x128, .f32⟩
  | 55 => ⟨S1x128, .f32⟩
  | 56 => ⟨S128, .f32⟩
  | 57 => ⟨S1x128, .f32⟩
  | 58 => ⟨S128, .f32⟩
  | 59 => ⟨S1x128, .f32⟩
  | 60 => ⟨S1x128, .f32⟩
  | 61 => ⟨S100000x128, .f32⟩
  | 62 => ⟨S_, .i32⟩
  | 63 => ⟨S10000, .i32⟩
  | 64 => ⟨S10000, .i1⟩
  | 65 => ⟨S_, .i32⟩
  | 66 => ⟨S10000, .i32⟩
  | 67 => ⟨S10000, .i32⟩
  | 68 => ⟨S10000, .i32⟩
  | 69 => ⟨S10000x1, .i32⟩
  | 70 => ⟨S10000x128, .f32⟩
  | 71 => ⟨S128x10, .f32⟩
  | 72 => ⟨S10000x10, .f32⟩
  | 73 => ⟨S1x10, .f32⟩
  | 74 => ⟨S10000x10, .f32⟩
  | 75 => ⟨S10000x10, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev vmemTy0_0 (i : Nat) : BufTy := match i % 128 with
  | 0 => ⟨S10000x128, .f32⟩
  | 1 => ⟨S10000x128, .f32⟩
  | 2 => ⟨S128x128, .f32⟩
  | 3 => ⟨S1x128, .f32⟩
  | 4 => ⟨S10000x128, .f32⟩
  | 5 => ⟨S10000x128, .f32⟩
  | 6 => ⟨S10000x128, .f32⟩
  | 7 => ⟨S10000x128, .f32⟩
  | 8 => ⟨S10000x128, .f32⟩
  | 9 => ⟨S10000x128, .f32⟩
  | 10 => ⟨S128x128, .f32⟩
  | 11 => ⟨S1x128, .f32⟩
  | 12 => ⟨S10000x128, .f32⟩
  | 13 => ⟨S10000x128, .f32⟩
  | 14 => ⟨S1x1x128, .f32⟩
  | 15 => ⟨S1x1x128, .f32⟩
  | 16 => ⟨S1x1x128, .f32⟩
  | 17 => ⟨S1x1x128, .f32⟩
  | 18 => ⟨S10000x128, .f32⟩
  | 19 => ⟨S10000x128, .f32⟩
  | 20 => ⟨S1x128, .f32⟩
  | 21 => ⟨S1x128, .f32⟩
  | 22 => ⟨S1x128, .f32⟩
  | 23 => ⟨S1x128, .f32⟩
  | 24 => ⟨S128x128, .f32⟩
  | 25 => ⟨S1x128, .f32⟩
  | 26 => ⟨S10000x128, .f32⟩
  | 27 => ⟨S10000x128, .f32⟩
  | 28 => ⟨S1x1x128, .f32⟩
  | 29 => ⟨S1x1x128, .f32⟩
  | 30 => ⟨S1x1x128, .f32⟩
  | 31 => ⟨S1x1x128, .f32⟩
  | 32 => ⟨S10000x128, .f32⟩
  | 33 => ⟨S10000x128, .f32⟩
  | 34 => ⟨S1x128, .f32⟩
  | 35 => ⟨S1x128, .f32⟩
  | 36 => ⟨S1x128, .f32⟩
  | 37 => ⟨S1x128, .f32⟩
  | 38 => ⟨S10000x128, .f32⟩
  | 39 => ⟨S10000x128, .f32⟩
  | 40 => ⟨S10000x128, .f32⟩
  | 41 => ⟨S10000x128, .f32⟩
  | 42 => ⟨S10000x128, .f32⟩
  | 43 => ⟨S10000x128, .f32⟩
  | 44 => ⟨S128x128, .f32⟩
  | 45 => ⟨S1x128, .f32⟩
  | 46 => ⟨S10000x128, .f32⟩
  | 47 => ⟨S10000x128, .f32⟩
  | 48 => ⟨S1x1x128, .f32⟩
  | 49 => ⟨S1x1x128, .f32⟩
  | 50 => ⟨S1x1x128, .f32⟩
  | 51 => ⟨S1x1x128, .f32⟩
  | 52 => ⟨S10000x128, .f32⟩
  | 53 => ⟨S10000x128, .f32⟩
  | 54 => ⟨S1x128, .f32⟩
  | 55 => ⟨S1x128, .f32⟩
  | 56 => ⟨S1x128, .f32⟩
  | 57 => ⟨S1x128, .f32⟩
  | 58 => ⟨S128x128, .f32⟩
  | 59 => ⟨S1x128, .f32⟩
  | 60 => ⟨S10000x128, .f32⟩
  | 61 => ⟨S10000x128, .f32⟩
  | 62 => ⟨S1x1x128, .f32⟩
  | 63 => ⟨S1x1x128, .f32⟩
  | 64 => ⟨S1x1x128, .f32⟩
  | 65 => ⟨S1x1x128, .f32⟩
  | 66 => ⟨S10000x128, .f32⟩
  | 67 => ⟨S10000x128, .f32⟩
  | 68 => ⟨S1x128, .f32⟩
  | 69 => ⟨S1x128, .f32⟩
  | 70 => ⟨S1x128, .f32⟩
  | 71 => ⟨S1x128, .f32⟩
  | 72 => ⟨S10000x128, .f32⟩
  | 73 => ⟨S10000x128, .f32⟩
  | 74 => ⟨S10000x128, .f32⟩
  | 75 => ⟨S10000x128, .f32⟩
  | 76 => ⟨S10000x128, .f32⟩
  | 77 => ⟨S10000x128, .f32⟩
  | 78 => ⟨S128x128, .f32⟩
  | 79 => ⟨S1x128, .f32⟩
  | 80 => ⟨S10000x128, .f32⟩
  | 81 => ⟨S10000x128, .f32⟩
  | 82 => ⟨S1x1x128, .f32⟩
  | 83 => ⟨S1x1x128, .f32⟩
  | 84 => ⟨S1x1x128, .f32⟩
  | 85 => ⟨S1x1x128, .f32⟩
  | 86 => ⟨S10000x128, .f32⟩
  | 87 => ⟨S10000x128, .f32⟩
  | 88 => ⟨S1x128, .f32⟩
  | 89 => ⟨S1x128, .f32⟩
  | 90 => ⟨S1x128, .f32⟩
  | 91 => ⟨S1x128, .f32⟩
  | 92 => ⟨S128x128, .f32⟩
  | 93 => ⟨S1x128, .f32⟩
  | 94 => ⟨S10000x128, .f32⟩
  | 95 => ⟨S10000x128, .f32⟩
  | 96 => ⟨S1x1x128, .f32⟩
  | 97 => ⟨S1x1x128, .f32⟩
  | 98 => ⟨S1x1x128, .f32⟩
  | 99 => ⟨S1x1x128, .f32⟩
  | 100 => ⟨S10000x128, .f32⟩
  | 101 => ⟨S10000x128, .f32⟩
  | 102 => ⟨S1x128, .f32⟩
  | 103 => ⟨S1x128, .f32⟩
  | 104 => ⟨S1x128, .f32⟩
  | 105 => ⟨S1x128, .f32⟩
  | 106 => ⟨S10000x128, .f32⟩
  | 107 => ⟨S10000x128, .f32⟩
  | 108 => ⟨S10000x128, .f32⟩
  | 109 => ⟨S10000x128, .f32⟩
  | 110 => ⟨S10000x128, .f32⟩
  | 111 => ⟨S10000x128, .f32⟩
  | 112 => ⟨S128x128, .f32⟩
  | 113 => ⟨S1x128, .f32⟩
  | 114 => ⟨S10000x128, .f32⟩
  | 115 => ⟨S10000x128, .f32⟩
  | 116 => ⟨S1x1x128, .f32⟩
  | 117 => ⟨S1x1x128, .f32⟩
  | 118 => ⟨S1x1x128, .f32⟩
  | 119 => ⟨S1x1x128, .f32⟩
  | 120 => ⟨S10000x128, .f32⟩
  | 121 => ⟨S10000x128, .f32⟩
  | 122 => ⟨S1x128, .f32⟩
  | 123 => ⟨S1x128, .f32⟩
  | 124 => ⟨S1x128, .f32⟩
  | 125 => ⟨S1x128, .f32⟩
  | 126 => ⟨S128x128, .f32⟩
  | 127 => ⟨S1x128, .f32⟩
  | _ => ⟨S100000x128, .f32⟩

abbrev vmemTy0_1 (i : Nat) : BufTy := match i % 128 with
  | 0 => ⟨S10000x128, .f32⟩
  | 1 => ⟨S10000x128, .f32⟩
  | 2 => ⟨S1x1x128, .f32⟩
  | 3 => ⟨S1x1x128, .f32⟩
  | 4 => ⟨S1x1x128, .f32⟩
  | 5 => ⟨S1x1x128, .f32⟩
  | 6 => ⟨S10000x128, .f32⟩
  | 7 => ⟨S10000x128, .f32⟩
  | 8 => ⟨S1x128, .f32⟩
  | 9 => ⟨S1x128, .f32⟩
  | 10 => ⟨S1x128, .f32⟩
  | 11 => ⟨S1x128, .f32⟩
  | 12 => ⟨S10000x128, .f32⟩
  | 13 => ⟨S10000x128, .f32⟩
  | _ => ⟨S100000x128, .f32⟩

abbrev vmemTy (i : Nat) : BufTy := match i / 128 with
  | 0 => vmemTy0_0 i
  | 1 => vmemTy0_1 i
  | _ => ⟨S100000x128, .f32⟩

abbrev bufTy : (tb : Table) → Fin (tcTables nBuf tb) → BufTy
  | .hbm, ⟨i, _⟩ => hbmTy i
  | .local _ .vmem, ⟨i, _⟩ => vmemTy i
  | _, _ => ⟨S100000x128, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 142 → Bool
  | ⟨i, _⟩ => dmaSemScopedAt i

abbrev sig : RefSig :=
  ofTc nBuf bufTy 0 142 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_c : Ref sig .tc := ⟨.hbm, 22, rfl⟩
abbrev main_v7 : Ref sig .tc := ⟨.hbm, 23, rfl⟩
abbrev main_v8 : Ref sig .tc := ⟨.hbm, 24, rfl⟩
abbrev main_c_0 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23_0 : Ref sig .tc := ⟨.hbm, 41, rfl⟩
abbrev main_v23_1 : Ref sig .tc := ⟨.hbm, 42, rfl⟩
abbrev main_v23_2 : Ref sig .tc := ⟨.hbm, 43, rfl⟩
abbrev main_cst_1 : Ref sig .tc := ⟨.hbm, 44, rfl⟩
abbrev main_v24 : Ref sig .tc := ⟨.hbm, 45, rfl⟩
abbrev main_cst_2 : Ref sig .tc := ⟨.hbm, 46, rfl⟩
abbrev main_v25 : Ref sig .tc := ⟨.hbm, 47, rfl⟩
abbrev main_cst_3 : Ref sig .tc := ⟨.hbm, 48, rfl⟩
abbrev main_v26 : Ref sig .tc := ⟨.hbm, 49, rfl⟩
abbrev main_v27 : Ref sig .tc := ⟨.hbm, 50, rfl⟩
abbrev main_cst_4 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_5 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46_0 : Ref sig .tc := ⟨.hbm, 71, rfl⟩
abbrev main_v46_1 : Ref sig .tc := ⟨.hbm, 72, rfl⟩
abbrev main_v46_2 : Ref sig .tc := ⟨.hbm, 73, rfl⟩
abbrev main_cst_6 : Ref sig .tc := ⟨.hbm, 74, rfl⟩
abbrev main_v47 : Ref sig .tc := ⟨.hbm, 75, rfl⟩
abbrev main_cst_7 : Ref sig .tc := ⟨.hbm, 76, rfl⟩
abbrev main_v48 : Ref sig .tc := ⟨.hbm, 77, rfl⟩
abbrev main_cst_8 : Ref sig .tc := ⟨.hbm, 78, rfl⟩
abbrev main_v49 : Ref sig .tc := ⟨.hbm, 79, rfl⟩
abbrev main_v50 : Ref sig .tc := ⟨.hbm, 80, rfl⟩
abbrev main_cst_9 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_cst_10 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_c_11 : Ref sig .tc := ⟨.hbm, 96, rfl⟩
abbrev main_v64 : Ref sig .tc := ⟨.hbm, 97, rfl⟩
abbrev main_v65 : Ref sig .tc := ⟨.hbm, 98, rfl⟩
abbrev main_c_12 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_cst_13 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80_0 : Ref sig .tc := ⟨.hbm, 115, rfl⟩
abbrev main_v80_1 : Ref sig .tc := ⟨.hbm, 116, rfl⟩
abbrev main_v80_2 : Ref sig .tc := ⟨.hbm, 117, rfl⟩
abbrev main_cst_14 : Ref sig .tc := ⟨.hbm, 118, rfl⟩
abbrev main_v81 : Ref sig .tc := ⟨.hbm, 119, rfl⟩
abbrev main_cst_15 : Ref sig .tc := ⟨.hbm, 120, rfl⟩
abbrev main_v82 : Ref sig .tc := ⟨.hbm, 121, rfl⟩
abbrev main_cst_16 : Ref sig .tc := ⟨.hbm, 122, rfl⟩
abbrev main_v83 : Ref sig .tc := ⟨.hbm, 123, rfl⟩
abbrev main_v84 : Ref sig .tc := ⟨.hbm, 124, rfl⟩
abbrev main_cst_17 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_cst_18 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103_0 : Ref sig .tc := ⟨.hbm, 145, rfl⟩
abbrev main_v103_1 : Ref sig .tc := ⟨.hbm, 146, rfl⟩
abbrev main_v103_2 : Ref sig .tc := ⟨.hbm, 147, rfl⟩
abbrev main_cst_19 : Ref sig .tc := ⟨.hbm, 148, rfl⟩
abbrev main_v104 : Ref sig .tc := ⟨.hbm, 149, rfl⟩
abbrev main_cst_20 : Ref sig .tc := ⟨.hbm, 150, rfl⟩
abbrev main_v105 : Ref sig .tc := ⟨.hbm, 151, rfl⟩
abbrev main_cst_21 : Ref sig .tc := ⟨.hbm, 152, rfl⟩
abbrev main_v106 : Ref sig .tc := ⟨.hbm, 153, rfl⟩
abbrev main_v107 : Ref sig .tc := ⟨.hbm, 154, rfl⟩
abbrev main_cst_22 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_cst_23 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_c_24 : Ref sig .tc := ⟨.hbm, 170, rfl⟩
abbrev main_v121 : Ref sig .tc := ⟨.hbm, 171, rfl⟩
abbrev main_v122 : Ref sig .tc := ⟨.hbm, 172, rfl⟩
abbrev main_c_25 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_cst_26 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_v136 : Ref sig .tc := ⟨.hbm, 188, rfl⟩
abbrev main_v137_0 : Ref sig .tc := ⟨.hbm, 189, rfl⟩
abbrev main_v137_1 : Ref sig .tc := ⟨.hbm, 190, rfl⟩
abbrev main_v137_2 : Ref sig .tc := ⟨.hbm, 191, rfl⟩
abbrev main_cst_27 : Ref sig .tc := ⟨.hbm, 192, rfl⟩
abbrev main_v138 : Ref sig .tc := ⟨.hbm, 193, rfl⟩
abbrev main_cst_28 : Ref sig .tc := ⟨.hbm, 194, rfl⟩
abbrev main_v139 : Ref sig .tc := ⟨.hbm, 195, rfl⟩
abbrev main_cst_29 : Ref sig .tc := ⟨.hbm, 196, rfl⟩
abbrev main_v140 : Ref sig .tc := ⟨.hbm, 197, rfl⟩
abbrev main_v141 : Ref sig .tc := ⟨.hbm, 198, rfl⟩
abbrev main_cst_30 : Ref sig .tc := ⟨.hbm, 199, rfl⟩
abbrev main_v142 : Ref sig .tc := ⟨.hbm, 200, rfl⟩
abbrev main_v143 : Ref sig .tc := ⟨.hbm, 201, rfl⟩
abbrev main_v144 : Ref sig .tc := ⟨.hbm, 202, rfl⟩
abbrev main_v145 : Ref sig .tc := ⟨.hbm, 203, rfl⟩
abbrev main_cst_31 : Ref sig .tc := ⟨.hbm, 204, rfl⟩
abbrev main_v146 : Ref sig .tc := ⟨.hbm, 205, rfl⟩
abbrev main_v147 : Ref sig .tc := ⟨.hbm, 206, rfl⟩
abbrev main_v148 : Ref sig .tc := ⟨.hbm, 207, rfl⟩
abbrev main_v149 : Ref sig .tc := ⟨.hbm, 208, rfl⟩
abbrev main_v150 : Ref sig .tc := ⟨.hbm, 209, rfl⟩
abbrev main_v151 : Ref sig .tc := ⟨.hbm, 210, rfl⟩
abbrev main_v152 : Ref sig .tc := ⟨.hbm, 211, rfl⟩
abbrev main_v153 : Ref sig .tc := ⟨.hbm, 212, rfl⟩
abbrev main_v154 : Ref sig .tc := ⟨.hbm, 213, rfl⟩
abbrev main_v155 : Ref sig .tc := ⟨.hbm, 214, rfl⟩
abbrev main_v156 : Ref sig .tc := ⟨.hbm, 215, rfl⟩
abbrev main_v157 : Ref sig .tc := ⟨.hbm, 216, rfl⟩
abbrev main_v158 : Ref sig .tc := ⟨.hbm, 217, rfl⟩
abbrev main_v159 : Ref sig .tc := ⟨.hbm, 218, rfl⟩
abbrev main_v160_0 : Ref sig .tc := ⟨.hbm, 219, rfl⟩
abbrev main_v160_1 : Ref sig .tc := ⟨.hbm, 220, rfl⟩
abbrev main_v160_2 : Ref sig .tc := ⟨.hbm, 221, rfl⟩
abbrev main_cst_32 : Ref sig .tc := ⟨.hbm, 222, rfl⟩
abbrev main_v161 : Ref sig .tc := ⟨.hbm, 223, rfl⟩
abbrev main_cst_33 : Ref sig .tc := ⟨.hbm, 224, rfl⟩
abbrev main_v162 : Ref sig .tc := ⟨.hbm, 225, rfl⟩
abbrev main_cst_34 : Ref sig .tc := ⟨.hbm, 226, rfl⟩
abbrev main_v163 : Ref sig .tc := ⟨.hbm, 227, rfl⟩
abbrev main_v164 : Ref sig .tc := ⟨.hbm, 228, rfl⟩
abbrev main_cst_35 : Ref sig .tc := ⟨.hbm, 229, rfl⟩
abbrev main_v165 : Ref sig .tc := ⟨.hbm, 230, rfl⟩
abbrev main_v166 : Ref sig .tc := ⟨.hbm, 231, rfl⟩
abbrev main_v167 : Ref sig .tc := ⟨.hbm, 232, rfl⟩
abbrev main_v168 : Ref sig .tc := ⟨.hbm, 233, rfl⟩
abbrev main_cst_36 : Ref sig .tc := ⟨.hbm, 234, rfl⟩
abbrev main_v169 : Ref sig .tc := ⟨.hbm, 235, rfl⟩
abbrev main_v170 : Ref sig .tc := ⟨.hbm, 236, rfl⟩
abbrev main_v171 : Ref sig .tc := ⟨.hbm, 237, rfl⟩
abbrev main_v172 : Ref sig .tc := ⟨.hbm, 238, rfl⟩
abbrev main_v173 : Ref sig .tc := ⟨.hbm, 239, rfl⟩
abbrev main_v174 : Ref sig .tc := ⟨.hbm, 240, rfl⟩
abbrev main_v175 : Ref sig .tc := ⟨.hbm, 241, rfl⟩
abbrev main_v176 : Ref sig .tc := ⟨.hbm, 242, rfl⟩
abbrev main_v177 : Ref sig .tc := ⟨.hbm, 243, rfl⟩
abbrev main_c_37 : Ref sig .tc := ⟨.hbm, 244, rfl⟩
abbrev main_v178 : Ref sig .tc := ⟨.hbm, 245, rfl⟩
abbrev main_v179 : Ref sig .tc := ⟨.hbm, 246, rfl⟩
abbrev main_c_38 : Ref sig .tc := ⟨.hbm, 247, rfl⟩
abbrev main_v180 : Ref sig .tc := ⟨.hbm, 248, rfl⟩
abbrev main_v181 : Ref sig .tc := ⟨.hbm, 249, rfl⟩
abbrev main_v182 : Ref sig .tc := ⟨.hbm, 250, rfl⟩
abbrev main_v183 : Ref sig .tc := ⟨.hbm, 251, rfl⟩
abbrev main_v184 : Ref sig .tc := ⟨.hbm, 252, rfl⟩
abbrev main_cst_39 : Ref sig .tc := ⟨.hbm, 253, rfl⟩
abbrev main_v185 : Ref sig .tc := ⟨.hbm, 254, rfl⟩
abbrev main_v186 : Ref sig .tc := ⟨.hbm, 255, rfl⟩
abbrev main_v187 : Ref sig .tc := ⟨.hbm, 256, rfl⟩
abbrev main_v188 : Ref sig .tc := ⟨.hbm, 257, rfl⟩
abbrev main_v189 : Ref sig .tc := ⟨.hbm, 258, rfl⟩
abbrev main_v190 : Ref sig .tc := ⟨.hbm, 259, rfl⟩
abbrev main_v191 : Ref sig .tc := ⟨.hbm, 260, rfl⟩
abbrev main_v192 : Ref sig .tc := ⟨.hbm, 261, rfl⟩
abbrev main_v193 : Ref sig .tc := ⟨.hbm, 262, rfl⟩
abbrev main_v194_0 : Ref sig .tc := ⟨.hbm, 263, rfl⟩
abbrev main_v194_1 : Ref sig .tc := ⟨.hbm, 264, rfl⟩
abbrev main_v194_2 : Ref sig .tc := ⟨.hbm, 265, rfl⟩
abbrev main_cst_40 : Ref sig .tc := ⟨.hbm, 266, rfl⟩
abbrev main_v195 : Ref sig .tc := ⟨.hbm, 267, rfl⟩
abbrev main_cst_41 : Ref sig .tc := ⟨.hbm, 268, rfl⟩
abbrev main_v196 : Ref sig .tc := ⟨.hbm, 269, rfl⟩
abbrev main_cst_42 : Ref sig .tc := ⟨.hbm, 270, rfl⟩
abbrev main_v197 : Ref sig .tc := ⟨.hbm, 271, rfl⟩
abbrev main_v198 : Ref sig .tc := ⟨.hbm, 272, rfl⟩
abbrev main_cst_43 : Ref sig .tc := ⟨.hbm, 273, rfl⟩
abbrev main_v199 : Ref sig .tc := ⟨.hbm, 274, rfl⟩
abbrev main_v200 : Ref sig .tc := ⟨.hbm, 275, rfl⟩
abbrev main_v201 : Ref sig .tc := ⟨.hbm, 276, rfl⟩
abbrev main_v202 : Ref sig .tc := ⟨.hbm, 277, rfl⟩
abbrev main_cst_44 : Ref sig .tc := ⟨.hbm, 278, rfl⟩
abbrev main_v203 : Ref sig .tc := ⟨.hbm, 279, rfl⟩
abbrev main_v204 : Ref sig .tc := ⟨.hbm, 280, rfl⟩
abbrev main_v205 : Ref sig .tc := ⟨.hbm, 281, rfl⟩
abbrev main_v206 : Ref sig .tc := ⟨.hbm, 282, rfl⟩
abbrev main_v207 : Ref sig .tc := ⟨.hbm, 283, rfl⟩
abbrev main_v208 : Ref sig .tc := ⟨.hbm, 284, rfl⟩
abbrev main_v209 : Ref sig .tc := ⟨.hbm, 285, rfl⟩
abbrev main_v210 : Ref sig .tc := ⟨.hbm, 286, rfl⟩
abbrev main_v211 : Ref sig .tc := ⟨.hbm, 287, rfl⟩
abbrev main_v212 : Ref sig .tc := ⟨.hbm, 288, rfl⟩
abbrev main_v213 : Ref sig .tc := ⟨.hbm, 289, rfl⟩
abbrev main_v214 : Ref sig .tc := ⟨.hbm, 290, rfl⟩
abbrev main_v215 : Ref sig .tc := ⟨.hbm, 291, rfl⟩
abbrev main_v216 : Ref sig .tc := ⟨.hbm, 292, rfl⟩
abbrev main_v217_0 : Ref sig .tc := ⟨.hbm, 293, rfl⟩
abbrev main_v217_1 : Ref sig .tc := ⟨.hbm, 294, rfl⟩
abbrev main_v217_2 : Ref sig .tc := ⟨.hbm, 295, rfl⟩
abbrev main_cst_45 : Ref sig .tc := ⟨.hbm, 296, rfl⟩
abbrev main_v218 : Ref sig .tc := ⟨.hbm, 297, rfl⟩
abbrev main_cst_46 : Ref sig .tc := ⟨.hbm, 298, rfl⟩
abbrev main_v219 : Ref sig .tc := ⟨.hbm, 299, rfl⟩
abbrev main_cst_47 : Ref sig .tc := ⟨.hbm, 300, rfl⟩
abbrev main_v220 : Ref sig .tc := ⟨.hbm, 301, rfl⟩
abbrev main_v221 : Ref sig .tc := ⟨.hbm, 302, rfl⟩
abbrev main_cst_48 : Ref sig .tc := ⟨.hbm, 303, rfl⟩
abbrev main_v222 : Ref sig .tc := ⟨.hbm, 304, rfl⟩
abbrev main_v223 : Ref sig .tc := ⟨.hbm, 305, rfl⟩
abbrev main_v224 : Ref sig .tc := ⟨.hbm, 306, rfl⟩
abbrev main_v225 : Ref sig .tc := ⟨.hbm, 307, rfl⟩
abbrev main_cst_49 : Ref sig .tc := ⟨.hbm, 308, rfl⟩
abbrev main_v226 : Ref sig .tc := ⟨.hbm, 309, rfl⟩
abbrev main_v227 : Ref sig .tc := ⟨.hbm, 310, rfl⟩
abbrev main_v228 : Ref sig .tc := ⟨.hbm, 311, rfl⟩
abbrev main_v229 : Ref sig .tc := ⟨.hbm, 312, rfl⟩
abbrev main_v230 : Ref sig .tc := ⟨.hbm, 313, rfl⟩
abbrev main_v231 : Ref sig .tc := ⟨.hbm, 314, rfl⟩
abbrev main_v232 : Ref sig .tc := ⟨.hbm, 315, rfl⟩
abbrev main_v233 : Ref sig .tc := ⟨.hbm, 316, rfl⟩
abbrev main_v234 : Ref sig .tc := ⟨.hbm, 317, rfl⟩
abbrev main_c_50 : Ref sig .tc := ⟨.hbm, 318, rfl⟩
abbrev main_v235 : Ref sig .tc := ⟨.hbm, 319, rfl⟩
abbrev main_v236 : Ref sig .tc := ⟨.hbm, 320, rfl⟩
abbrev main_c_51 : Ref sig .tc := ⟨.hbm, 321, rfl⟩
abbrev main_v237 : Ref sig .tc := ⟨.hbm, 322, rfl⟩
abbrev main_v238 : Ref sig .tc := ⟨.hbm, 323, rfl⟩
abbrev main_v239 : Ref sig .tc := ⟨.hbm, 324, rfl⟩
abbrev main_v240 : Ref sig .tc := ⟨.hbm, 325, rfl⟩
abbrev main_v241 : Ref sig .tc := ⟨.hbm, 326, rfl⟩
abbrev main_v242 : Ref sig .tc := ⟨.hbm, 327, rfl⟩
abbrev main_v243 : Ref sig .tc := ⟨.hbm, 328, rfl⟩
abbrev main_v244 : Ref sig .tc := ⟨.hbm, 329, rfl⟩
abbrev main_v245 : Ref sig .tc := ⟨.hbm, 330, rfl⟩
abbrev main_v246 : Ref sig .tc := ⟨.hbm, 331, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_stg6_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg6_0 : Ref sig .tc := ⟨.vmem, 25, rfl⟩
abbrev cc2_stg7_0 : Ref sig .tc := ⟨.vmem, 26, rfl⟩
abbrev cc2_stg7_1 : Ref sig .tc := ⟨.vmem, 27, rfl⟩
abbrev cc2_stg8_0 : Ref sig .tc := ⟨.vmem, 28, rfl⟩
abbrev cc2_stg8_1 : Ref sig .tc := ⟨.vmem, 29, rfl⟩
abbrev cc2_stg9_0 : Ref sig .tc := ⟨.vmem, 30, rfl⟩
abbrev cc2_stg9_1 : Ref sig .tc := ⟨.vmem, 31, rfl⟩
abbrev cc3_stg0_0 : Ref sig .tc := ⟨.vmem, 32, rfl⟩
abbrev cc3_stg0_1 : Ref sig .tc := ⟨.vmem, 33, rfl⟩
abbrev cc3_stg1_0 : Ref sig .tc := ⟨.vmem, 34, rfl⟩
abbrev cc3_stg2_0 : Ref sig .tc := ⟨.vmem, 35, rfl⟩
abbrev cc3_stg3_0 : Ref sig .tc := ⟨.vmem, 36, rfl⟩
abbrev cc3_stg4_0 : Ref sig .tc := ⟨.vmem, 37, rfl⟩
abbrev cc3_stg5_0 : Ref sig .tc := ⟨.vmem, 38, rfl⟩
abbrev cc3_stg5_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg1_1 : Ref sig .tc := ⟨.vmem, 43, rfl⟩
abbrev cc4_stg2_0 : Ref sig .tc := ⟨.vmem, 44, rfl⟩
abbrev cc4_stg3_0 : Ref sig .tc := ⟨.vmem, 45, rfl⟩
abbrev cc4_stg4_0 : Ref sig .tc := ⟨.vmem, 46, rfl⟩
abbrev cc4_stg4_1 : Ref sig .tc := ⟨.vmem, 47, rfl⟩
abbrev cc4_stg5_0 : Ref sig .tc := ⟨.vmem, 48, rfl⟩
abbrev cc4_stg5_1 : Ref sig .tc := ⟨.vmem, 49, rfl⟩
abbrev cc4_stg6_0 : Ref sig .tc := ⟨.vmem, 50, rfl⟩
abbrev cc4_stg6_1 : Ref sig .tc := ⟨.vmem, 51, rfl⟩
abbrev cc5_stg0_0 : Ref sig .tc := ⟨.vmem, 52, rfl⟩
abbrev cc5_stg0_1 : Ref sig .tc := ⟨.vmem, 53, rfl⟩
abbrev cc5_stg1_0 : Ref sig .tc := ⟨.vmem, 54, rfl⟩
abbrev cc5_stg2_0 : Ref sig .tc := ⟨.vmem, 55, rfl⟩
abbrev cc5_stg3_0 : Ref sig .tc := ⟨.vmem, 56, rfl⟩
abbrev cc5_stg4_0 : Ref sig .tc := ⟨.vmem, 57, rfl⟩
abbrev cc5_stg5_0 : Ref sig .tc := ⟨.vmem, 58, rfl⟩
abbrev cc5_stg6_0 : Ref sig .tc := ⟨.vmem, 59, rfl⟩
abbrev cc5_stg7_0 : Ref sig .tc := ⟨.vmem, 60, rfl⟩
abbrev cc5_stg7_1 : Ref sig .tc := ⟨.vmem, 61, rfl⟩
abbrev cc5_stg8_0 : Ref sig .tc := ⟨.vmem, 62, rfl⟩
abbrev cc5_stg8_1 : Ref sig .tc := ⟨.vmem, 63, rfl⟩
abbrev cc5_stg9_0 : Ref sig .tc := ⟨.vmem, 64, rfl⟩
abbrev cc5_stg9_1 : Ref sig .tc := ⟨.vmem, 65, rfl⟩
abbrev cc6_stg0_0 : Ref sig .tc := ⟨.vmem, 66, rfl⟩
abbrev cc6_stg0_1 : Ref sig .tc := ⟨.vmem, 67, rfl⟩
abbrev cc6_stg1_0 : Ref sig .tc := ⟨.vmem, 68, rfl⟩
abbrev cc6_stg2_0 : Ref sig .tc := ⟨.vmem, 69, rfl⟩
abbrev cc6_stg3_0 : Ref sig .tc := ⟨.vmem, 70, rfl⟩
abbrev cc6_stg4_0 : Ref sig .tc := ⟨.vmem, 71, rfl⟩
abbrev cc6_stg5_0 : Ref sig .tc := ⟨.vmem, 72, rfl⟩
abbrev cc6_stg5_1 : Ref sig .tc := ⟨.vmem, 73, rfl⟩
abbrev cc7_stg0_0 : Ref sig .tc := ⟨.vmem, 74, rfl⟩
abbrev cc7_stg0_1 : Ref sig .tc := ⟨.vmem, 75, rfl⟩
abbrev cc7_stg1_0 : Ref sig .tc := ⟨.vmem, 76, rfl⟩
abbrev cc7_stg1_1 : Ref sig .tc := ⟨.vmem, 77, rfl⟩
abbrev cc7_stg2_0 : Ref sig .tc := ⟨.vmem, 78, rfl⟩
abbrev cc7_stg3_0 : Ref sig .tc := ⟨.vmem, 79, rfl⟩
abbrev cc7_stg4_0 : Ref sig .tc := ⟨.vmem, 80, rfl⟩
abbrev cc7_stg4_1 : Ref sig .tc := ⟨.vmem, 81, rfl⟩
abbrev cc7_stg5_0 : Ref sig .tc := ⟨.vmem, 82, rfl⟩
abbrev cc7_stg5_1 : Ref sig .tc := ⟨.vmem, 83, rfl⟩
abbrev cc7_stg6_0 : Ref sig .tc := ⟨.vmem, 84, rfl⟩
abbrev cc7_stg6_1 : Ref sig .tc := ⟨.vmem, 85, rfl⟩
abbrev cc8_stg0_0 : Ref sig .tc := ⟨.vmem, 86, rfl⟩
abbrev cc8_stg0_1 : Ref sig .tc := ⟨.vmem, 87, rfl⟩
abbrev cc8_stg1_0 : Ref sig .tc := ⟨.vmem, 88, rfl⟩
abbrev cc8_stg2_0 : Ref sig .tc := ⟨.vmem, 89, rfl⟩
abbrev cc8_stg3_0 : Ref sig .tc := ⟨.vmem, 90, rfl⟩
abbrev cc8_stg4_0 : Ref sig .tc := ⟨.vmem, 91, rfl⟩
abbrev cc8_stg5_0 : Ref sig .tc := ⟨.vmem, 92, rfl⟩
abbrev cc8_stg6_0 : Ref sig .tc := ⟨.vmem, 93, rfl⟩
abbrev cc8_stg7_0 : Ref sig .tc := ⟨.vmem, 94, rfl⟩
abbrev cc8_stg7_1 : Ref sig .tc := ⟨.vmem, 95, rfl⟩
abbrev cc8_stg8_0 : Ref sig .tc := ⟨.vmem, 96, rfl⟩
abbrev cc8_stg8_1 : Ref sig .tc := ⟨.vmem, 97, rfl⟩
abbrev cc8_stg9_0 : Ref sig .tc := ⟨.vmem, 98, rfl⟩
abbrev cc8_stg9_1 : Ref sig .tc := ⟨.vmem, 99, rfl⟩
abbrev cc9_stg0_0 : Ref sig .tc := ⟨.vmem, 100, rfl⟩
abbrev cc9_stg0_1 : Ref sig .tc := ⟨.vmem, 101, rfl⟩
abbrev cc9_stg1_0 : Ref sig .tc := ⟨.vmem, 102, rfl⟩
abbrev cc9_stg2_0 : Ref sig .tc := ⟨.vmem, 103, rfl⟩
abbrev cc9_stg3_0 : Ref sig .tc := ⟨.vmem, 104, rfl⟩
abbrev cc9_stg4_0 : Ref sig .tc := ⟨.vmem, 105, rfl⟩
abbrev cc9_stg5_0 : Ref sig .tc := ⟨.vmem, 106, rfl⟩
abbrev cc9_stg5_1 : Ref sig .tc := ⟨.vmem, 107, rfl⟩
abbrev cc10_stg0_0 : Ref sig .tc := ⟨.vmem, 108, rfl⟩
abbrev cc10_stg0_1 : Ref sig .tc := ⟨.vmem, 109, rfl⟩
abbrev cc10_stg1_0 : Ref sig .tc := ⟨.vmem, 110, rfl⟩
abbrev cc10_stg1_1 : Ref sig .tc := ⟨.vmem, 111, rfl⟩
abbrev cc10_stg2_0 : Ref sig .tc := ⟨.vmem, 112, rfl⟩
abbrev cc10_stg3_0 : Ref sig .tc := ⟨.vmem, 113, rfl⟩
abbrev cc10_stg4_0 : Ref sig .tc := ⟨.vmem, 114, rfl⟩
abbrev cc10_stg4_1 : Ref sig .tc := ⟨.vmem, 115, rfl⟩
abbrev cc10_stg5_0 : Ref sig .tc := ⟨.vmem, 116, rfl⟩
abbrev cc10_stg5_1 : Ref sig .tc := ⟨.vmem, 117, rfl⟩
abbrev cc10_stg6_0 : Ref sig .tc := ⟨.vmem, 118, rfl⟩
abbrev cc10_stg6_1 : Ref sig .tc := ⟨.vmem, 119, rfl⟩
abbrev cc11_stg0_0 : Ref sig .tc := ⟨.vmem, 120, rfl⟩
abbrev cc11_stg0_1 : Ref sig .tc := ⟨.vmem, 121, rfl⟩
abbrev cc11_stg1_0 : Ref sig .tc := ⟨.vmem, 122, rfl⟩
abbrev cc11_stg2_0 : Ref sig .tc := ⟨.vmem, 123, rfl⟩
abbrev cc11_stg3_0 : Ref sig .tc := ⟨.vmem, 124, rfl⟩
abbrev cc11_stg4_0 : Ref sig .tc := ⟨.vmem, 125, rfl⟩
abbrev cc11_stg5_0 : Ref sig .tc := ⟨.vmem, 126, rfl⟩
abbrev cc11_stg6_0 : Ref sig .tc := ⟨.vmem, 127, rfl⟩
abbrev cc11_stg7_0 : Ref sig .tc := ⟨.vmem, 128, rfl⟩
abbrev cc11_stg7_1 : Ref sig .tc := ⟨.vmem, 129, rfl⟩
abbrev cc11_stg8_0 : Ref sig .tc := ⟨.vmem, 130, rfl⟩
abbrev cc11_stg8_1 : Ref sig .tc := ⟨.vmem, 131, rfl⟩
abbrev cc11_stg9_0 : Ref sig .tc := ⟨.vmem, 132, rfl⟩
abbrev cc11_stg9_1 : Ref sig .tc := ⟨.vmem, 133, rfl⟩
abbrev cc12_stg0_0 : Ref sig .tc := ⟨.vmem, 134, rfl⟩
abbrev cc12_stg0_1 : Ref sig .tc := ⟨.vmem, 135, rfl⟩
abbrev cc12_stg1_0 : Ref sig .tc := ⟨.vmem, 136, rfl⟩
abbrev cc12_stg2_0 : Ref sig .tc := ⟨.vmem, 137, rfl⟩
abbrev cc12_stg3_0 : Ref sig .tc := ⟨.vmem, 138, rfl⟩
abbrev cc12_stg4_0 : Ref sig .tc := ⟨.vmem, 139, rfl⟩
abbrev cc12_stg5_0 : Ref sig .tc := ⟨.vmem, 140, rfl⟩
abbrev cc12_stg5_1 : Ref sig .tc := ⟨.vmem, 141, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13
abbrev cc1_sem5_0 : DmaSem sig := 14
abbrev cc1_sem5_1 : DmaSem sig := 15
abbrev cc1_sem6_0 : DmaSem sig := 16
abbrev cc1_sem6_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem6_0 : DmaSem sig := 25
abbrev cc2_sem7_0 : DmaSem sig := 26
abbrev cc2_sem7_1 : DmaSem sig := 27
abbrev cc2_sem8_0 : DmaSem sig := 28
abbrev cc2_sem8_1 : DmaSem sig := 29
abbrev cc2_sem9_0 : DmaSem sig := 30
abbrev cc2_sem9_1 : DmaSem sig := 31
abbrev cc3_sem0_0 : DmaSem sig := 32
abbrev cc3_sem0_1 : DmaSem sig := 33
abbrev cc3_sem1_0 : DmaSem sig := 34
abbrev cc3_sem2_0 : DmaSem sig := 35
abbrev cc3_sem3_0 : DmaSem sig := 36
abbrev cc3_sem4_0 : DmaSem sig := 37
abbrev cc3_sem5_0 : DmaSem sig := 38
abbrev cc3_sem5_1 : DmaSem sig := 39
abbrev cc4_sem0_0 : DmaSem sig := 40
abbrev cc4_sem0_1 : DmaSem sig := 41
abbrev cc4_sem1_0 : DmaSem sig := 42
abbrev cc4_sem1_1 : DmaSem sig := 43
abbrev cc4_sem2_0 : DmaSem sig := 44
abbrev cc4_sem3_0 : DmaSem sig := 45
abbrev cc4_sem4_0 : DmaSem sig := 46
abbrev cc4_sem4_1 : DmaSem sig := 47
abbrev cc4_sem5_0 : DmaSem sig := 48
abbrev cc4_sem5_1 : DmaSem sig := 49
abbrev cc4_sem6_0 : DmaSem sig := 50
abbrev cc4_sem6_1 : DmaSem sig := 51
abbrev cc5_sem0_0 : DmaSem sig := 52
abbrev cc5_sem0_1 : DmaSem sig := 53
abbrev cc5_sem1_0 : DmaSem sig := 54
abbrev cc5_sem2_0 : DmaSem sig := 55
abbrev cc5_sem3_0 : DmaSem sig := 56
abbrev cc5_sem4_0 : DmaSem sig := 57
abbrev cc5_sem5_0 : DmaSem sig := 58
abbrev cc5_sem6_0 : DmaSem sig := 59
abbrev cc5_sem7_0 : DmaSem sig := 60
abbrev cc5_sem7_1 : DmaSem sig := 61
abbrev cc5_sem8_0 : DmaSem sig := 62
abbrev cc5_sem8_1 : DmaSem sig := 63
abbrev cc5_sem9_0 : DmaSem sig := 64
abbrev cc5_sem9_1 : DmaSem sig := 65
abbrev cc6_sem0_0 : DmaSem sig := 66
abbrev cc6_sem0_1 : DmaSem sig := 67
abbrev cc6_sem1_0 : DmaSem sig := 68
abbrev cc6_sem2_0 : DmaSem sig := 69
abbrev cc6_sem3_0 : DmaSem sig := 70
abbrev cc6_sem4_0 : DmaSem sig := 71
abbrev cc6_sem5_0 : DmaSem sig := 72
abbrev cc6_sem5_1 : DmaSem sig := 73
abbrev cc7_sem0_0 : DmaSem sig := 74
abbrev cc7_sem0_1 : DmaSem sig := 75
abbrev cc7_sem1_0 : DmaSem sig := 76
abbrev cc7_sem1_1 : DmaSem sig := 77
abbrev cc7_sem2_0 : DmaSem sig := 78
abbrev cc7_sem3_0 : DmaSem sig := 79
abbrev cc7_sem4_0 : DmaSem sig := 80
abbrev cc7_sem4_1 : DmaSem sig := 81
abbrev cc7_sem5_0 : DmaSem sig := 82
abbrev cc7_sem5_1 : DmaSem sig := 83
abbrev cc7_sem6_0 : DmaSem sig := 84
abbrev cc7_sem6_1 : DmaSem sig := 85
abbrev cc8_sem0_0 : DmaSem sig := 86
abbrev cc8_sem0_1 : DmaSem sig := 87
abbrev cc8_sem1_0 : DmaSem sig := 88
abbrev cc8_sem2_0 : DmaSem sig := 89
abbrev cc8_sem3_0 : DmaSem sig := 90
abbrev cc8_sem4_0 : DmaSem sig := 91
abbrev cc8_sem5_0 : DmaSem sig := 92
abbrev cc8_sem6_0 : DmaSem sig := 93
abbrev cc8_sem7_0 : DmaSem sig := 94
abbrev cc8_sem7_1 : DmaSem sig := 95
abbrev cc8_sem8_0 : DmaSem sig := 96
abbrev cc8_sem8_1 : DmaSem sig := 97
abbrev cc8_sem9_0 : DmaSem sig := 98
abbrev cc8_sem9_1 : DmaSem sig := 99
abbrev cc9_sem0_0 : DmaSem sig := 100
abbrev cc9_sem0_1 : DmaSem sig := 101
abbrev cc9_sem1_0 : DmaSem sig := 102
abbrev cc9_sem2_0 : DmaSem sig := 103
abbrev cc9_sem3_0 : DmaSem sig := 104
abbrev cc9_sem4_0 : DmaSem sig := 105
abbrev cc9_sem5_0 : DmaSem sig := 106
abbrev cc9_sem5_1 : DmaSem sig := 107
abbrev cc10_sem0_0 : DmaSem sig := 108
abbrev cc10_sem0_1 : DmaSem sig := 109
abbrev cc10_sem1_0 : DmaSem sig := 110
abbrev cc10_sem1_1 : DmaSem sig := 111
abbrev cc10_sem2_0 : DmaSem sig := 112
abbrev cc10_sem3_0 : DmaSem sig := 113
abbrev cc10_sem4_0 : DmaSem sig := 114
abbrev cc10_sem4_1 : DmaSem sig := 115
abbrev cc10_sem5_0 : DmaSem sig := 116
abbrev cc10_sem5_1 : DmaSem sig := 117
abbrev cc10_sem6_0 : DmaSem sig := 118
abbrev cc10_sem6_1 : DmaSem sig := 119
abbrev cc11_sem0_0 : DmaSem sig := 120
abbrev cc11_sem0_1 : DmaSem sig := 121
abbrev cc11_sem1_0 : DmaSem sig := 122
abbrev cc11_sem2_0 : DmaSem sig := 123
abbrev cc11_sem3_0 : DmaSem sig := 124
abbrev cc11_sem4_0 : DmaSem sig := 125
abbrev cc11_sem5_0 : DmaSem sig := 126
abbrev cc11_sem6_0 : DmaSem sig := 127
abbrev cc11_sem7_0 : DmaSem sig := 128
abbrev cc11_sem7_1 : DmaSem sig := 129
abbrev cc11_sem8_0 : DmaSem sig := 130
abbrev cc11_sem8_1 : DmaSem sig := 131
abbrev cc11_sem9_0 : DmaSem sig := 132
abbrev cc11_sem9_1 : DmaSem sig := 133
abbrev cc12_sem0_0 : DmaSem sig := 134
abbrev cc12_sem0_1 : DmaSem sig := 135
abbrev cc12_sem1_0 : DmaSem sig := 136
abbrev cc12_sem2_0 : DmaSem sig := 137
abbrev cc12_sem3_0 : DmaSem sig := 138
abbrev cc12_sem4_0 : DmaSem sig := 139
abbrev cc12_sem5_0 : DmaSem sig := 140
abbrev cc12_sem5_1 : DmaSem sig := 141

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x1x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x1x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_9 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S10000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S1x1x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 2 → Memref sig .tc .vmem S1x1x128 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S10000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_6 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S10000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S1x1x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S1x1x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_8 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc5_transform_9 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage5_0 : Fin 2 → Memref sig .tc .vmem S10000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S128x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x128 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 2 → Memref sig .tc .vmem S10000x128 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

abbrev stage5_8 : Fin 2 → Memref sig .tc .vmem S1x1x128 .f32 := fun | 0 => Memref.whole cc5_stg8_0 | 1 => Memref.whole cc5_stg8_1 | ⟨_ + 2, h⟩ => absurd h (Nat.not_lt.2 (Nat.le_add_left _ _))
abbrev sem5_8 : Fin 2 → DmaSem sig := fun | 0 => cc5_sem8_0 | 1 => cc5_sem8_1 | ⟨_ + 2, h⟩ => absurd h (Nat.not_lt.2 (Nat.le_add_left _ _))
abbrev reads5_8 : Fin grid5.rank → Bool := ![true]

abbrev stage5_9 : Fin 2 → Memref sig .tc .vmem S1x1x128 .f32 := fun | 0 => Memref.whole cc5_stg9_0 | 1 => Memref.whole cc5_stg9_1 | ⟨_ + 2, h⟩ => absurd h (Nat.not_lt.2 (Nat.le_add_left _ _))
abbrev sem5_9 : Fin 2 → DmaSem sig := fun | 0 => cc5_sem9_0 | 1 => cc5_sem9_1 | ⟨_ + 2, h⟩ => absurd h (Nat.not_lt.2 (Nat.le_add_left _ _))
abbrev reads5_9 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S10000x128 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_5 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc7_transform_6 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage7_0 : Fin 2 → Memref sig .tc .vmem S10000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S10000x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S128x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 2 → Memref sig .tc .vmem S10000x128 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev stage7_5 : Fin 2 → Memref sig .tc .vmem S1x1x128 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev stage7_6 : Fin 2 → Memref sig .tc .vmem S1x1x128 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_7 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_8 (i : grid8.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc8_transform_9 (i : grid8.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage8_0 : Fin 2 → Memref sig .tc .vmem S10000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S128x128 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 1 → Memref sig .tc .vmem S1x128 .f32 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))
abbrev reads8_6 : Fin grid8.rank → Bool := ![false]

abbrev stage8_7 : Fin 2 → Memref sig .tc .vmem S10000x128 .f32 := fun | 0 => Memref.whole cc8_stg7_0 | 1 => Memref.whole cc8_stg7_1 | ⟨_ + 2, h⟩ => absurd h (Nat.not_lt.2 (Nat.le_add_left _ _))
abbrev sem8_7 : Fin 2 → DmaSem sig := fun | 0 => cc8_sem7_0 | 1 => cc8_sem7_1 | ⟨_ + 2, h⟩ => absurd h (Nat.not_lt.2 (Nat.le_add_left _ _))
abbrev reads8_7 : Fin grid8.rank → Bool := ![true]

abbrev stage8_8 : Fin 2 → Memref sig .tc .vmem S1x1x128 .f32 := fun | 0 => Memref.whole cc8_stg8_0 | 1 => Memref.whole cc8_stg8_1 | ⟨_ + 2, h⟩ => absurd h (Nat.not_lt.2 (Nat.le_add_left _ _))
abbrev sem8_8 : Fin 2 → DmaSem sig := fun | 0 => cc8_sem8_0 | 1 => cc8_sem8_1 | ⟨_ + 2, h⟩ => absurd h (Nat.not_lt.2 (Nat.le_add_left _ _))
abbrev reads8_8 : Fin grid8.rank → Bool := ![true]

abbrev stage8_9 : Fin 2 → Memref sig .tc .vmem S1x1x128 .f32 := fun | 0 => Memref.whole cc8_stg9_0 | 1 => Memref.whole cc8_stg9_1 | ⟨_ + 2, h⟩ => absurd h (Nat.not_lt.2 (Nat.le_add_left _ _))
abbrev sem8_9 : Fin 2 → DmaSem sig := fun | 0 => cc8_sem9_0 | 1 => cc8_sem9_1 | ⟨_ + 2, h⟩ => absurd h (Nat.not_lt.2 (Nat.le_add_left _ _))
abbrev reads8_9 : Fin grid8.rank → Bool := ![true]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S10000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1x128 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x128 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 2 → Memref sig .tc .vmem S10000x128 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

abbrev grid10 : Pipeline.Grid := ⟨1, ![10], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_5 (i : grid10.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc10_transform_6 (i : grid10.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage10_0 : Fin 2 → Memref sig .tc .vmem S10000x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S10000x128 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 1 → Memref sig .tc .vmem S128x128 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S1x128 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 2 → Memref sig .tc .vmem S10000x128 .f32 := fun | 0 => Memref.whole cc10_stg4_0 | 1 => Memref.whole cc10_stg4_1 | ⟨_ + 2, h⟩ => absurd h (Nat.not_lt.2 (Nat.le_add_left _ _))
abbrev sem10_4 : Fin 2 → DmaSem sig := fun | 0 => cc10_sem4_0 | 1 => cc10_sem4_1 | ⟨_ + 2, h⟩ => absurd h (Nat.not_lt.2 (Nat.le_add_left _ _))
abbrev reads10_4 : Fin grid10.rank → Bool := ![true]

abbrev stage10_5 : Fin 2 → Memref sig .tc .vmem S1x1x128 .f32 := fun | 0 => Memref.whole cc10_stg5_0 | 1 => Memref.whole cc10_stg5_1 | ⟨_ + 2, h⟩ => absurd h (Nat.not_lt.2 (Nat.le_add_left _ _))
abbrev sem10_5 : Fin 2 → DmaSem sig := fun | 0 => cc10_sem5_0 | 1 => cc10_sem5_1 | ⟨_ + 2, h⟩ => absurd h (Nat.not_lt.2 (Nat.le_add_left _ _))
abbrev reads10_5 : Fin grid10.rank → Bool := ![true]

abbrev stage10_6 : Fin 2 → Memref sig .tc .vmem S1x1x128 .f32 := fun | 0 => Memref.whole cc10_stg6_0 | 1 => Memref.whole cc10_stg6_1 | ⟨_ + 2, h⟩ => absurd h (Nat.not_lt.2 (Nat.le_add_left _ _))
abbrev sem10_6 : Fin 2 → DmaSem sig := fun | 0 => cc10_sem6_0 | 1 => cc10_sem6_1 | ⟨_ + 2, h⟩ => absurd h (Nat.not_lt.2 (Nat.le_add_left _ _))
abbrev reads10_6 : Fin grid10.rank → Bool := ![true]

abbrev grid11 : Pipeline.Grid := ⟨1, ![10], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_6 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_7 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_8 (i : grid11.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc11_transform_9 (i : grid11.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage11_0 : Fin 2 → Memref sig .tc .vmem S10000x128 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S1x128 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x128 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S1x128 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S1x128 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 1 → Memref sig .tc .vmem S128x128 .f32 := fun | 0 => Memref.whole cc11_stg5_0 | ⟨_ + 1, h⟩ => absurd h (Nat.not_lt.2 (Nat.le_add_left _ _))
abbrev sem11_5 : Fin 1 → DmaSem sig := fun | 0 => cc11_sem5_0 | ⟨_ + 1, h⟩ => absurd h (Nat.not_lt.2 (Nat.le_add_left _ _))
abbrev reads11_5 : Fin grid11.rank → Bool := ![false]

abbrev stage11_6 : Fin 1 → Memref sig .tc .vmem S1x128 .f32 := fun | 0 => Memref.whole cc11_stg6_0 | ⟨_ + 1, h⟩ => absurd h (Nat.not_lt.2 (Nat.le_add_left _ _))
abbrev sem11_6 : Fin 1 → DmaSem sig := fun | 0 => cc11_sem6_0 | ⟨_ + 1, h⟩ => absurd h (Nat.not_lt.2 (Nat.le_add_left _ _))
abbrev reads11_6 : Fin grid11.rank → Bool := ![false]

abbrev stage11_7 : Fin 2 → Memref sig .tc .vmem S10000x128 .f32 := fun | 0 => Memref.whole cc11_stg7_0 | 1 => Memref.whole cc11_stg7_1 | ⟨_ + 2, h⟩ => absurd h (Nat.not_lt.2 (Nat.le_add_left _ _))
abbrev sem11_7 : Fin 2 → DmaSem sig := fun | 0 => cc11_sem7_0 | 1 => cc11_sem7_1 | ⟨_ + 2, h⟩ => absurd h (Nat.not_lt.2 (Nat.le_add_left _ _))
abbrev reads11_7 : Fin grid11.rank → Bool := ![true]

abbrev stage11_8 : Fin 2 → Memref sig .tc .vmem S1x1x128 .f32 := fun | 0 => Memref.whole cc11_stg8_0 | 1 => Memref.whole cc11_stg8_1 | ⟨_ + 2, h⟩ => absurd h (Nat.not_lt.2 (Nat.le_add_left _ _))
abbrev sem11_8 : Fin 2 → DmaSem sig := fun | 0 => cc11_sem8_0 | 1 => cc11_sem8_1 | ⟨_ + 2, h⟩ => absurd h (Nat.not_lt.2 (Nat.le_add_left _ _))
abbrev reads11_8 : Fin grid11.rank → Bool := ![true]

abbrev stage11_9 : Fin 2 → Memref sig .tc .vmem S1x1x128 .f32 := fun | 0 => Memref.whole cc11_stg9_0 | 1 => Memref.whole cc11_stg9_1 | ⟨_ + 2, h⟩ => absurd h (Nat.not_lt.2 (Nat.le_add_left _ _))
abbrev sem11_9 : Fin 2 → DmaSem sig := fun | 0 => cc11_sem9_0 | 1 => cc11_sem9_1 | ⟨_ + 2, h⟩ => absurd h (Nat.not_lt.2 (Nat.le_add_left _ _))
abbrev reads11_9 : Fin grid11.rank → Bool := ![true]

abbrev grid12 : Pipeline.Grid := ⟨1, ![10], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_4 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_5 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S10000x128 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S1x128 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 1 → Memref sig .tc .vmem S1x128 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 1 → Memref sig .tc .vmem S1x128 .f32 := fun | 0 => Memref.whole cc12_stg3_0 | ⟨_ + 1, h⟩ => absurd h (Nat.not_lt.2 (Nat.le_add_left _ _))
abbrev sem12_3 : Fin 1 → DmaSem sig := fun | 0 => cc12_sem3_0 | ⟨_ + 1, h⟩ => absurd h (Nat.not_lt.2 (Nat.le_add_left _ _))
abbrev reads12_3 : Fin grid12.rank → Bool := ![false]

abbrev stage12_4 : Fin 1 → Memref sig .tc .vmem S1x128 .f32 := fun | 0 => Memref.whole cc12_stg4_0 | ⟨_ + 1, h⟩ => absurd h (Nat.not_lt.2 (Nat.le_add_left _ _))
abbrev sem12_4 : Fin 1 → DmaSem sig := fun | 0 => cc12_sem4_0 | ⟨_ + 1, h⟩ => absurd h (Nat.not_lt.2 (Nat.le_add_left _ _))
abbrev reads12_4 : Fin grid12.rank → Bool := ![false]

abbrev stage12_5 : Fin 2 → Memref sig .tc .vmem S10000x128 .f32 := fun | 0 => Memref.whole cc12_stg5_0 | 1 => Memref.whole cc12_stg5_1 | ⟨_ + 2, h⟩ => absurd h (Nat.not_lt.2 (Nat.le_add_left _ _))
abbrev sem12_5 : Fin 2 → DmaSem sig := fun | 0 => cc12_sem5_0 | 1 => cc12_sem5_1 | ⟨_ + 2, h⟩ => absurd h (Nat.not_lt.2 (Nat.le_add_left _ _))
abbrev reads12_5 : Fin grid12.rank → Bool := ![true]

class Facts₀ : Prop where
  slices_S2x625000_S1x625000_0_0 : S2x625000.Slices ![0, 0] S1x625000
  shapeCasts_S1x625000_S625000 : S1x625000.ShapeCasts S625000
  slices_S2x625000_S1x625000_1_0 : S2x625000.Slices ![1, 0] S1x625000
  transposes_S128x128_S128x128_1_0 : S128x128.Transposes [1, 0] S128x128
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  bcast_S_S625000 : S_.BroadcastsInDim S625000 (![] : Fin 0 → Fin S625000.rank)
  bcast_S625000_S625000x1_0 : S625000.BroadcastsInDim S625000x1 (![0] : Fin 1 → Fin S625000x1.rank)
  bcast_S_S100000x128 : S_.BroadcastsInDim S100000x128 (![] : Fin 0 → Fin S100000x128.rank)
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  shapeCasts_S10000x128_S10000x128 : S10000x128.ShapeCasts S10000x128
  reduces_S10000x128_S128 : S10000x128.Reduces [0] S128
  shapeCasts_S1x128_S1x1x128 : S1x128.ShapeCasts S1x1x128
  inb_S1x1x128_S1x1x128_0_0_0 : ∀ a, (![0, 0, 0] : Fin 3 → Nat) a + S1x1x128.size a ≤ S1x1x128.size a
  h_S1x1x128 : 0 < S1x1x128.numel
  reducesTo_S10x1x128_S1x128_d0 : S10x1x128.ReducesTo [0] S1x128
  h_S_ : 0 < S_.numel
  bcast_S_S1x128 : S_.BroadcastsInDim S1x128 (![] : Fin 0 → Fin S1x128.rank)
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  bcast_S_S10000 : S_.BroadcastsInDim S10000 (![] : Fin 0 → Fin S10000.rank)
  bcast_S10000_S10000x1_0 : S10000.BroadcastsInDim S10000x1 (![0] : Fin 1 → Fin S10000x1.rank)
  transposes_S10x128_S128x10_1_0 : S10x128.Transposes [1, 0] S128x10
  bcast_S10_S1x10_1 : S10.BroadcastsInDim S1x10 (![1] : Fin 1 → Fin S1x10.rank)
  bcast_S1x10_S10000x10_0_1 : S1x10.BroadcastsInDim S10000x10 (![0, 1] : Fin 2 → Fin S10000x10.rank)
  dot_S10000x128_S128x128_S10000x128_1_0_0_1_n_n_wf : DotDims.WF S10000x128 S128x128 S10000x128 [1] [0] [0] [1] [] []
  gather_S100000x128_S625000x1_S625000x128_1_0_n_n_0_1_1128_wf : GatherDims.WF S100000x128 S625000x1 S625000x128 [1] [0] [] [0] [] 1 ![1, 128]
  scatter_S100000x128_S625000x1_S625000x128_1_0_0_1_wf : ScatterDims.WF S100000x128 S625000x1 S625000x128 [1] [0] [0] 1
  gather_S100000x128_S10000x1_S10000x128_1_0_n_n_0_1_1128_wf : GatherDims.WF S100000x128 S10000x1 S10000x128 [1] [0] [] [0] [] 1 ![1, 128]
  dot_S10000x128_S128x10_S10000x10_1_0_0_1_n_n_wf : DotDims.WF S10000x128 S128x10 S10000x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S100000x128.size a
  hwx0_3 : ∀ i : grid0.Coords, EltTy.bits .f32 = 32 ∨ (Rect.block (s := S100000x128) S10000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S100000x128.size a
  hwx1_1 : ∀ i : grid1.Coords, EltTy.bits .f32 = 32 ∨ (Rect.block (s := S100000x128) S10000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x128.size a ≤ S100000x128.size a
  hwx1_4 : ∀ i : grid1.Coords, EltTy.bits .f32 = 32 ∨ (Rect.block (s := S100000x128) S10000x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x1x128.size a ≤ S10x1x128.size a
  hwx1_5 : ∀ i : grid1.Coords, EltTy.bits .f32 = 32 ∨ (Rect.block (s := S10x1x128) S1x1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x1x128.size a ≤ S10x1x128.size a
  hwx1_6 : ∀ i : grid1.Coords, EltTy.bits .f32 = 32 ∨ (Rect.block (s := S10x1x128) S1x1x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S10000x128.size a ≤ S100000x128.size a
  hwx2_7 : ∀ i : grid2.Coords, EltTy.bits .f32 = 32 ∨ (Rect.block (s := S100000x128) S10000x128.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S1x1x128.size a ≤ S10x1x128.size a
  hwx2_8 : ∀ i : grid2.Coords, EltTy.bits .f32 = 32 ∨ (Rect.block (s := S10x1x128) S1x1x128.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S1x1x128.size a ≤ S10x1x128.size a
  hwx2_9 : ∀ i : grid2.Coords, EltTy.bits .f32 = 32 ∨ (Rect.block (s := S10x1x128) S1x1x128.size (cc2_transform_9 i) (hinb2_9 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S10000x128.size a ≤ S100000x128.size a
  hwx3_5 : ∀ i : grid3.Coords, EltTy.bits .f32 = 32 ∨ (Rect.block (s := S100000x128) S10000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S100000x128.size a
  hwx4_0 : ∀ i : grid4.Coords, EltTy.bits .f32 = 32 ∨ (Rect.block (s := S100000x128) S10000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x128.size a ≤ S100000x128.size a
  hwx4_1 : ∀ i : grid4.Coords, EltTy.bits .f32 = 32 ∨ (Rect.block (s := S100000x128) S10000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S10000x128.size a ≤ S100000x128.size a
  hwx4_4 : ∀ i : grid4.Coords, EltTy.bits .f32 = 32 ∨ (Rect.block (s := S100000x128) S10000x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S1x1x128.size a ≤ S10x1x128.size a
  hwx4_5 : ∀ i : grid4.Coords, EltTy.bits .f32 = 32 ∨ (Rect.block (s := S10x1x128) S1x1x128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S1x1x128.size a ≤ S10x1x128.size a
  hwx4_6 : ∀ i : grid4.Coords, EltTy.bits .f32 = 32 ∨ (Rect.block (s := S10x1x128) S1x1x128.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x128.size a ≤ S100000x128.size a
  hwx5_0 : ∀ i : grid5.Coords, EltTy.bits .f32 = 32 ∨ (Rect.block (s := S100000x128) S10000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S128x128.size a ≤ S128x128.size a
  hwx5_5 : ∀ i : grid5.Coords, EltTy.bits .f32 = 32 ∨ (Rect.block (s := S128x128) S128x128.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x128.size a ≤ S1x128.size a
  hwx5_6 : ∀ i : grid5.Coords, EltTy.bits .f32 = 32 ∨ (Rect.block (s := S1x128) S1x128.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S10000x128.size a ≤ S100000x128.size a
  hwx5_7 : ∀ i : grid5.Coords, EltTy.bits .f32 = 32 ∨ (Rect.block (s := S100000x128) S10000x128.size (cc5_transform_7 i) (hinb5_7 i)).WholeWords (EltTy.packing .f32)
  hstage5_8 : ∀ j, (stage5_8 j).IsWhole
  nbuf5_8 : grid5.bufCount reads5_8 false = 2
  hreads5_8 : ∀ i i' : grid5.Coords, (∀ a, reads5_8 a = true → i a = i' a) → cc5_transform_8 i = cc5_transform_8 i'
  hinb5_8 : ∀ (i : grid5.Coords) a, (cc5_transform_8 i a + 1) * S1x1x128.size a ≤ S10x1x128.size a
  hwx5_8 : ∀ i : grid5.Coords, EltTy.bits .f32 = 32 ∨ (Rect.block (s := S10x1x128) S1x1x128.size (cc5_transform_8 i) (hinb5_8 i)).WholeWords (EltTy.packing .f32)
  hstage5_9 : ∀ j, (stage5_9 j).IsWhole
  nbuf5_9 : grid5.bufCount reads5_9 false = 2
  hreads5_9 : ∀ i i' : grid5.Coords, (∀ a, reads5_9 a = true → i a = i' a) → cc5_transform_9 i = cc5_transform_9 i'
  hinb5_9 : ∀ (i : grid5.Coords) a, (cc5_transform_9 i a + 1) * S1x1x128.size a ≤ S10x1x128.size a
  hwx5_9 : ∀ i : grid5.Coords, EltTy.bits .f32 = 32 ∨ (Rect.block (s := S10x1x128) S1x1x128.size (cc5_transform_9 i) (hinb5_9 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x128.size a ≤ S100000x128.size a
  hwx6_0 : ∀ i : grid6.Coords, EltTy.bits .f32 = 32 ∨ (Rect.block (s := S100000x128) S10000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x128.size a ≤ S1x128.size a
  hwx6_1 : ∀ i : grid6.Coords, EltTy.bits .f32 = 32 ∨ (Rect.block (s := S1x128) S1x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S10000x128.size a ≤ S100000x128.size a
  hwx6_5 : ∀ i : grid6.Coords, EltTy.bits .f32 = 32 ∨ (Rect.block (s := S100000x128) S10000x128.size (cc6_transform_5 i) (hinb6_5 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x128.size a ≤ S100000x128.size a
  hwx7_0 : ∀ i : grid7.Coords, EltTy.bits .f32 = 32 ∨ (Rect.block (s := S100000x128) S10000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S10000x128.size a ≤ S100000x128.size a
  hwx7_1 : ∀ i : grid7.Coords, EltTy.bits .f32 = 32 ∨ (Rect.block (s := S100000x128) S10000x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S128x128.size a ≤ S128x128.size a
  hwx7_2 : ∀ i : grid7.Coords, EltTy.bits .f32 = 32 ∨ (Rect.block (s := S128x128) S128x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S10000x128.size a ≤ S100000x128.size a
  hwx7_4 : ∀ i : grid7.Coords, EltTy.bits .f32 = 32 ∨ (Rect.block (s := S100000x128) S10000x128.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S1x1x128.size a ≤ S10x1x128.size a
  hwx7_5 : ∀ i : grid7.Coords, EltTy.bits .f32 = 32 ∨ (Rect.block (s := S10x1x128) S1x1x128.size (cc7_transform_5 i) (hinb7_5 i)).WholeWords (EltTy.packing .f32)
  hstage7_6 : ∀ j, (stage7_6 j).IsWhole
  nbuf7_6 : grid7.bufCount reads7_6 false = 2
  hreads7_6 : ∀ i i' : grid7.Coords, (∀ a, reads7_6 a = true → i a = i' a) → cc7_transform_6 i = cc7_transform_6 i'
  hinb7_6 : ∀ (i : grid7.Coords) a, (cc7_transform_6 i a + 1) * S1x1x128.size a ≤ S10x1x128.size a
  hwx7_6 : ∀ i : grid7.Coords, EltTy.bits .f32 = 32 ∨ (Rect.block (s := S10x1x128) S1x1x128.size (cc7_transform_6 i) (hinb7_6 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S10000x128.size a ≤ S100000x128.size a
  hwx8_0 : ∀ i : grid8.Coords, EltTy.bits .f32 = 32 ∨ (Rect.block (s := S100000x128) S10000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x128.size a ≤ S1x128.size a
  hwx8_1 : ∀ i : grid8.Coords, EltTy.bits .f32 = 32 ∨ (Rect.block (s := S1x128) S1x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x128.size a ≤ S1x128.size a
  hwx8_2 : ∀ i : grid8.Coords, EltTy.bits .f32 = 32 ∨ (Rect.block (s := S1x128) S1x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x128.size a ≤ S1x128.size a
  hwx8_3 : ∀ i : grid8.Coords, EltTy.bits .f32 = 32 ∨ (Rect.block (s := S1x128) S1x128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x128.size a ≤ S1x128.size a
  hwx8_4 : ∀ i : grid8.Coords, EltTy.bits .f32 = 32 ∨ (Rect.block (s := S1x128) S1x128.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S128x128.size a ≤ S128x128.size a
  hwx8_5 : ∀ i : grid8.Coords, EltTy.bits .f32 = 32 ∨ (Rect.block (s := S128x128) S128x128.size (cc8_transform_5 i) (hinb8_5 i)).WholeWords (EltTy.packing .f32)
  hstage8_6 : ∀ j, (stage8_6 j).IsWhole
  nbuf8_6 : grid8.bufCount reads8_6 true = 1
  hreads8_6 : ∀ i i' : grid8.Coords, (∀ a, reads8_6 a = true → i a = i' a) → cc8_transform_6 i = cc8_transform_6 i'
  hinb8_6 : ∀ (i : grid8.Coords) a, (cc8_transform_6 i a + 1) * S1x128.size a ≤ S1x128.size a
  hwx8_6 : ∀ i : grid8.Coords, EltTy.bits .f32 = 32 ∨ (Rect.block (s := S1x128) S1x128.size (cc8_transform_6 i) (hinb8_6 i)).WholeWords (EltTy.packing .f32)
  hstage8_7 : ∀ j, (stage8_7 j).IsWhole
  nbuf8_7 : grid8.bufCount reads8_7 false = 2
  hreads8_7 : ∀ i i' : grid8.Coords, (∀ a, reads8_7 a = true → i a = i' a) → cc8_transform_7 i = cc8_transform_7 i'
  hinb8_7 : ∀ (i : grid8.Coords) a, (cc8_transform_7 i a + 1) * S10000x128.size a ≤ S100000x128.size a
  hwx8_7 : ∀ i : grid8.Coords, EltTy.bits .f32 = 32 ∨ (Rect.block (s := S100000x128) S10000x128.size (cc8_transform_7 i) (hinb8_7 i)).WholeWords (EltTy.packing .f32)
  hstage8_8 : ∀ j, (stage8_8 j).IsWhole
  nbuf8_8 : grid8.bufCount reads8_8 false = 2
  hreads8_8 : ∀ i i' : grid8.Coords, (∀ a, reads8_8 a = true → i a = i' a) → cc8_transform_8 i = cc8_transform_8 i'
  hinb8_8 : ∀ (i : grid8.Coords) a, (cc8_transform_8 i a + 1) * S1x1x128.size a ≤ S10x1x128.size a
  hwx8_8 : ∀ i : grid8.Coords, EltTy.bits .f32 = 32 ∨ (Rect.block (s := S10x1x128) S1x1x128.size (cc8_transform_8 i) (hinb8_8 i)).WholeWords (EltTy.packing .f32)
  hstage8_9 : ∀ j, (stage8_9 j).IsWhole
  nbuf8_9 : grid8.bufCount reads8_9 false = 2
  hreads8_9 : ∀ i i' : grid8.Coords, (∀ a, reads8_9 a = true → i a = i' a) → cc8_transform_9 i = cc8_transform_9 i'
  hinb8_9 : ∀ (i : grid8.Coords) a, (cc8_transform_9 i a + 1) * S1x1x128.size a ≤ S10x1x128.size a
  hwx8_9 : ∀ i : grid8.Coords, EltTy.bits .f32 = 32 ∨ (Rect.block (s := S10x1x128) S1x1x128.size (cc8_transform_9 i) (hinb8_9 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S10000x128.size a ≤ S100000x128.size a
  hwx9_0 : ∀ i : grid9.Coords, EltTy.bits .f32 = 32 ∨ (Rect.block (s := S100000x128) S10000x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S1x128.size a ≤ S1x128.size a
  hwx9_1 : ∀ i : grid9.Coords, EltTy.bits .f32 = 32 ∨ (Rect.block (s := S1x128) S1x128.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x128.size a ≤ S1x128.size a
  hwx9_2 : ∀ i : grid9.Coords, EltTy.bits .f32 = 32 ∨ (Rect.block (s := S1x128) S1x128.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x128.size a ≤ S1x128.size a
  hwx9_3 : ∀ i : grid9.Coords, EltTy.bits .f32 = 32 ∨ (Rect.block (s := S1x128) S1x128.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x128.size a ≤ S1x128.size a
  hwx9_4 : ∀ i : grid9.Coords, EltTy.bits .f32 = 32 ∨ (Rect.block (s := S1x128) S1x128.size (cc9_transform_4 i) (hinb9_4 i)).WholeWords (EltTy.packing .f32)
  hstage9_5 : ∀ j, (stage9_5 j).IsWhole
  nbuf9_5 : grid9.bufCount reads9_5 false = 2
  hreads9_5 : ∀ i i' : grid9.Coords, (∀ a, reads9_5 a = true → i a = i' a) → cc9_transform_5 i = cc9_transform_5 i'
  hinb9_5 : ∀ (i : grid9.Coords) a, (cc9_transform_5 i a + 1) * S10000x128.size a ≤ S100000x128.size a
  hwx9_5 : ∀ i : grid9.Coords, EltTy.bits .f32 = 32 ∨ (Rect.block (s := S100000x128) S10000x128.size (cc9_transform_5 i) (hinb9_5 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S10000x128.size a ≤ S100000x128.size a
  hwx10_0 : ∀ i : grid10.Coords, EltTy.bits .f32 = 32 ∨ (Rect.block (s := S100000x128) S10000x128.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S10000x128.size a ≤ S100000x128.size a
  hwx10_1 : ∀ i : grid10.Coords, EltTy.bits .f32 = 32 ∨ (Rect.block (s := S100000x128) S10000x128.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S128x128.size a ≤ S128x128.size a
  hwx10_2 : ∀ i : grid10.Coords, EltTy.bits .f32 = 32 ∨ (Rect.block (s := S128x128) S128x128.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S1x128.size a ≤ S1x128.size a
  hwx10_3 : ∀ i : grid10.Coords, EltTy.bits .f32 = 32 ∨ (Rect.block (s := S1x128) S1x128.size (cc10_transform_3 i) (hinb10_3 i)).WholeWords (EltTy.packing .f32)
  hstage10_4 : ∀ j, (stage10_4 j).IsWhole
  nbuf10_4 : grid10.bufCount reads10_4 false = 2
  hreads10_4 : ∀ i i' : grid10.Coords, (∀ a, reads10_4 a = true → i a = i' a) → cc10_transform_4 i = cc10_transform_4 i'
  hinb10_4 : ∀ (i : grid10.Coords) a, (cc10_transform_4 i a + 1) * S10000x128.size a ≤ S100000x128.size a
  hwx10_4 : ∀ i : grid10.Coords, EltTy.bits .f32 = 32 ∨ (Rect.block (s := S100000x128) S10000x128.size (cc10_transform_4 i) (hinb10_4 i)).WholeWords (EltTy.packing .f32)
  hstage10_5 : ∀ j, (stage10_5 j).IsWhole
  nbuf10_5 : grid10.bufCount reads10_5 false = 2
  hreads10_5 : ∀ i i' : grid10.Coords, (∀ a, reads10_5 a = true → i a = i' a) → cc10_transform_5 i = cc10_transform_5 i'
  hinb10_5 : ∀ (i : grid10.Coords) a, (cc10_transform_5 i a + 1) * S1x1x128.size a ≤ S10x1x128.size a
  hwx10_5 : ∀ i : grid10.Coords, EltTy.bits .f32 = 32 ∨ (Rect.block (s := S10x1x128) S1x1x128.size (cc10_transform_5 i) (hinb10_5 i)).WholeWords (EltTy.packing .f32)
  hstage10_6 : ∀ j, (stage10_6 j).IsWhole
  nbuf10_6 : grid10.bufCount reads10_6 false = 2
  hreads10_6 : ∀ i i' : grid10.Coords, (∀ a, reads10_6 a = true → i a = i' a) → cc10_transform_6 i = cc10_transform_6 i'
  hinb10_6 : ∀ (i : grid10.Coords) a, (cc10_transform_6 i a + 1) * S1x1x128.size a ≤ S10x1x128.size a
  hwx10_6 : ∀ i : grid10.Coords, EltTy.bits .f32 = 32 ∨ (Rect.block (s := S10x1x128) S1x1x128.size (cc10_transform_6 i) (hinb10_6 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S10000x128.size a ≤ S100000x128.size a
  hwx11_0 : ∀ i : grid11.Coords, EltTy.bits .f32 = 32 ∨ (Rect.block (s := S100000x128) S10000x128.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S1x128.size a ≤ S1x128.size a
  hwx11_1 : ∀ i : grid11.Coords, EltTy.bits .f32 = 32 ∨ (Rect.block (s := S1x128) S1x128.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x128.size a ≤ S1x128.size a
  hwx11_2 : ∀ i : grid11.Coords, EltTy.bits .f32 = 32 ∨ (Rect.block (s := S1x128) S1x128.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S1x128.size a ≤ S1x128.size a
  hwx11_3 : ∀ i : grid11.Coords, EltTy.bits .f32 = 32 ∨ (Rect.block (s := S1x128) S1x128.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S1x128.size a ≤ S1x128.size a
  hwx11_4 : ∀ i : grid11.Coords, EltTy.bits .f32 = 32 ∨ (Rect.block (s := S1x128) S1x128.size (cc11_transform_4 i) (hinb11_4 i)).WholeWords (EltTy.packing .f32)
  hstage11_5 : ∀ j, (stage11_5 j).IsWhole
  nbuf11_5 : grid11.bufCount reads11_5 true = 1
  hreads11_5 : ∀ i i' : grid11.Coords, (∀ a, reads11_5 a = true → i a = i' a) → cc11_transform_5 i = cc11_transform_5 i'
  hinb11_5 : ∀ (i : grid11.Coords) a, (cc11_transform_5 i a + 1) * S128x128.size a ≤ S128x128.size a
  hwx11_5 : ∀ i : grid11.Coords, EltTy.bits .f32 = 32 ∨ (Rect.block (s := S128x128) S128x128.size (cc11_transform_5 i) (hinb11_5 i)).WholeWords (EltTy.packing .f32)
  hstage11_6 : ∀ j, (stage11_6 j).IsWhole
  nbuf11_6 : grid11.bufCount reads11_6 true = 1
  hreads11_6 : ∀ i i' : grid11.Coords, (∀ a, reads11_6 a = true → i a = i' a) → cc11_transform_6 i = cc11_transform_6 i'
  hinb11_6 : ∀ (i : grid11.Coords) a, (cc11_transform_6 i a + 1) * S1x128.size a ≤ S1x128.size a
  hwx11_6 : ∀ i : grid11.Coords, EltTy.bits .f32 = 32 ∨ (Rect.block (s := S1x128) S1x128.size (cc11_transform_6 i) (hinb11_6 i)).WholeWords (EltTy.packing .f32)
  hstage11_7 : ∀ j, (stage11_7 j).IsWhole
  nbuf11_7 : grid11.bufCount reads11_7 false = 2
  hreads11_7 : ∀ i i' : grid11.Coords, (∀ a, reads11_7 a = true → i a = i' a) → cc11_transform_7 i = cc11_transform_7 i'
  hinb11_7 : ∀ (i : grid11.Coords) a, (cc11_transform_7 i a + 1) * S10000x128.size a ≤ S100000x128.size a
  hwx11_7 : ∀ i : grid11.Coords, EltTy.bits .f32 = 32 ∨ (Rect.block (s := S100000x128) S10000x128.size (cc11_transform_7 i) (hinb11_7 i)).WholeWords (EltTy.packing .f32)
  hstage11_8 : ∀ j, (stage11_8 j).IsWhole
  nbuf11_8 : grid11.bufCount reads11_8 false = 2
  hreads11_8 : ∀ i i' : grid11.Coords, (∀ a, reads11_8 a = true → i a = i' a) → cc11_transform_8 i = cc11_transform_8 i'
  hinb11_8 : ∀ (i : grid11.Coords) a, (cc11_transform_8 i a + 1) * S1x1x128.size a ≤ S10x1x128.size a
  hwx11_8 : ∀ i : grid11.Coords, EltTy.bits .f32 = 32 ∨ (Rect.block (s := S10x1x128) S1x1x128.size (cc11_transform_8 i) (hinb11_8 i)).WholeWords (EltTy.packing .f32)
  hstage11_9 : ∀ j, (stage11_9 j).IsWhole
  nbuf11_9 : grid11.bufCount reads11_9 false = 2
  hreads11_9 : ∀ i i' : grid11.Coords, (∀ a, reads11_9 a = true → i a = i' a) → cc11_transform_9 i = cc11_transform_9 i'
  hinb11_9 : ∀ (i : grid11.Coords) a, (cc11_transform_9 i a + 1) * S1x1x128.size a ≤ S10x1x128.size a
  hwx11_9 : ∀ i : grid11.Coords, EltTy.bits .f32 = 32 ∨ (Rect.block (s := S10x1x128) S1x1x128.size (cc11_transform_9 i) (hinb11_9 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S10000x128.size a ≤ S100000x128.size a
  hwx12_0 : ∀ i : grid12.Coords, EltTy.bits .f32 = 32 ∨ (Rect.block (s := S100000x128) S10000x128.size (cc12_transform_0 i) (hinb12_0 i)).WholeWords (EltTy.packing .f32)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S1x128.size a ≤ S1x128.size a
  hwx12_1 : ∀ i : grid12.Coords, EltTy.bits .f32 = 32 ∨ (Rect.block (s := S1x128) S1x128.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S1x128.size a ≤ S1x128.size a
  hwx12_2 : ∀ i : grid12.Coords, EltTy.bits .f32 = 32 ∨ (Rect.block (s := S1x128) S1x128.size (cc12_transform_2 i) (hinb12_2 i)).WholeWords (EltTy.packing .f32)
  hstage12_3 : ∀ j, (stage12_3 j).IsWhole
  nbuf12_3 : grid12.bufCount reads12_3 true = 1
  hreads12_3 : ∀ i i' : grid12.Coords, (∀ a, reads12_3 a = true → i a = i' a) → cc12_transform_3 i = cc12_transform_3 i'
  hinb12_3 : ∀ (i : grid12.Coords) a, (cc12_transform_3 i a + 1) * S1x128.size a ≤ S1x128.size a
  hwx12_3 : ∀ i : grid12.Coords, EltTy.bits .f32 = 32 ∨ (Rect.block (s := S1x128) S1x128.size (cc12_transform_3 i) (hinb12_3 i)).WholeWords (EltTy.packing .f32)
  hstage12_4 : ∀ j, (stage12_4 j).IsWhole
  nbuf12_4 : grid12.bufCount reads12_4 true = 1
  hreads12_4 : ∀ i i' : grid12.Coords, (∀ a, reads12_4 a = true → i a = i' a) → cc12_transform_4 i = cc12_transform_4 i'
  hinb12_4 : ∀ (i : grid12.Coords) a, (cc12_transform_4 i a + 1) * S1x128.size a ≤ S1x128.size a
  hwx12_4 : ∀ i : grid12.Coords, EltTy.bits .f32 = 32 ∨ (Rect.block (s := S1x128) S1x128.size (cc12_transform_4 i) (hinb12_4 i)).WholeWords (EltTy.packing .f32)
  hstage12_5 : ∀ j, (stage12_5 j).IsWhole
  nbuf12_5 : grid12.bufCount reads12_5 false = 2
  hreads12_5 : ∀ i i' : grid12.Coords, (∀ a, reads12_5 a = true → i a = i' a) → cc12_transform_5 i = cc12_transform_5 i'
  hinb12_5 : ∀ (i : grid12.Coords) a, (cc12_transform_5 i a + 1) * S10000x128.size a ≤ S100000x128.size a
  hwx12_5 : ∀ i : grid12.Coords, EltTy.bits .f32 = 32 ∨ (Rect.block (s := S100000x128) S10000x128.size (cc12_transform_5 i) (hinb12_5 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S625000x1_S625000x128_1_0_n_n_0_1_1128 : GatherDims S100000x128 S625000x1 S625000x128 where
  offsetDims := [1]
  collapsedSliceDims := [0]
  operandBatchingDims := []
  startIndicesBatchingDims := []
  startIndexMap := [0]
  indexVectorDim := 1
  sliceSizes := ![1, 128]
  wf := gather_S100000x128_S625000x1_S625000x128_1_0_n_n_0_1_1128_wf
def scatter_S100000x128_S625000x1_S625000x128_1_0_0_1 : ScatterDims S100000x128 S625000x1 S625000x128 where
  updateWindowDims := [1]
  insertedWindowDims := [0]
  scatterDimsToOperandDims := [0]
  indexVectorDim := 1
  wf := scatter_S100000x128_S625000x1_S625000x128_1_0_0_1_wf
def gather_S100000x128_S10000x1_S10000x128_1_0_n_n_0_1_1128 : GatherDims S100000x128 S10000x1 S10000x128 where
  offsetDims := [1]
  collapsedSliceDims := [0]
  operandBatchingDims := []
  startIndicesBatchingDims := []
  startIndexMap := [0]
  indexVectorDim := 1
  sliceSizes := ![1, 128]
  wf := gather_S100000x128_S10000x1_S10000x128_1_0_n_n_0_1_1128_wf
def dot_S10000x128_S128x10_S10000x10_1_0_0_1_n_n : DotDims S10000x128 S128x10 S10000x10 where
  lhsContracting := [1]
  rhsContracting := [0]
  lhsNonContracting := [0]
  rhsNonContracting := [1]
  lhsBatch := []
  rhsBatch := []
  wf := dot_S10000x128_S128x10_S10000x10_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v6) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S10000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v21) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v22) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v23_0) S10000x128.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v23_1) S1x1x128.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v23_2) S1x1x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v23_0) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v27) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v33) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v43) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v44) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v42) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v45) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v46_0) S10000x128.size cc2_transform_7 reads2_7 true false 2 stage2_7 sem2_7
    hrank2 hreads2_7 hinb2_7 nbuf2_7 (Memref.isWhole_whole _) hwx2_7 hstage2_7

abbrev win2_8 : Pipeline.Window sig grid2 :=
  Pipeline.Window.ofSpec (Memref.whole main_v46_1) S1x1x128.size cc2_transform_8 reads2_8 true false 2 stage2_8 sem2_8
    hrank2 hreads2_8 hinb2_8 nbuf2_8 (Memref.isWhole_whole _) hwx2_8 hstage2_8

abbrev win2_9 : Pipeline.Window sig grid2 :=
  Pipeline.Window.ofSpec (Memref.whole main_v46_2) S1x1x128.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev win3_0 : Pipeline.Window sig grid3 :=
  Pipeline.Window.ofSpec (Memref.whole main_v46_0) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v50) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v56) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v61) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v62) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v63) S10000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v63) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v73) S10000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v78) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v79) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v80_0) S10000x128.size cc4_transform_4 reads4_4 true false 2 stage4_4 sem4_4
    hrank4 hreads4_4 hinb4_4 nbuf4_4 (Memref.isWhole_whole _) hwx4_4 hstage4_4

abbrev win4_5 : Pipeline.Window sig grid4 :=
  Pipeline.Window.ofSpec (Memref.whole main_v80_1) S1x1x128.size cc4_transform_5 reads4_5 true false 2 stage4_5 sem4_5
    hrank4 hreads4_5 hinb4_5 nbuf4_5 (Memref.isWhole_whole _) hwx4_5 hstage4_5

abbrev win4_6 : Pipeline.Window sig grid4 :=
  Pipeline.Window.ofSpec (Memref.whole main_v80_2) S1x1x128.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v80_0) S10000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v84) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v90) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v100) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v101) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v99) S128x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v102) S1x128.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v103_0) S10000x128.size cc5_transform_7 reads5_7 true false 2 stage5_7 sem5_7
    hrank5 hreads5_7 hinb5_7 nbuf5_7 (Memref.isWhole_whole _) hwx5_7 hstage5_7

abbrev win5_8 : Pipeline.Window sig grid5 :=
  Pipeline.Window.ofSpec (Memref.whole main_v103_1) S1x1x128.size cc5_transform_8 reads5_8 true false 2 stage5_8 sem5_8
    hrank5 hreads5_8 hinb5_8 nbuf5_8 (Memref.isWhole_whole _) hwx5_8 hstage5_8

abbrev win5_9 : Pipeline.Window sig grid5 :=
  Pipeline.Window.ofSpec (Memref.whole main_v103_2) S1x1x128.size cc5_transform_9 reads5_9 true false 2 stage5_9 sem5_9
    hrank5 hreads5_9 hinb5_9 nbuf5_9 (Memref.isWhole_whole _) hwx5_9 hstage5_9

abbrev win5 : Fin 10 → Pipeline.Window sig grid5 := fun | 0 => win5_0 | 1 => win5_1 | 2 => win5_2 | 3 => win5_3 | 4 => win5_4 | 5 => win5_5 | 6 => win5_6 | 7 => win5_7 | 8 => win5_8 | 9 => win5_9 | ⟨_ + 10, h⟩ => absurd h (Nat.not_lt.2 (Nat.le_add_left _ _))
abbrev spec5 : Fin 10 → Pipeline.WinSpec sig grid5.rank := fun w => (win5 w).toWinSpec

abbrev win6_0 : Pipeline.Window sig grid6 :=
  Pipeline.Window.ofSpec (Memref.whole main_v103_0) S10000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v107) S1x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v113) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v118) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v119) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v120) S10000x128.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v120) S10000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v130) S10000x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v135) S128x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v136) S1x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v137_0) S10000x128.size cc7_transform_4 reads7_4 true false 2 stage7_4 sem7_4
    hrank7 hreads7_4 hinb7_4 nbuf7_4 (Memref.isWhole_whole _) hwx7_4 hstage7_4

abbrev win7_5 : Pipeline.Window sig grid7 :=
  Pipeline.Window.ofSpec (Memref.whole main_v137_1) S1x1x128.size cc7_transform_5 reads7_5 true false 2 stage7_5 sem7_5
    hrank7 hreads7_5 hinb7_5 nbuf7_5 (Memref.isWhole_whole _) hwx7_5 hstage7_5

abbrev win7_6 : Pipeline.Window sig grid7 :=
  Pipeline.Window.ofSpec (Memref.whole main_v137_2) S1x1x128.size cc7_transform_6 reads7_6 true false 2 stage7_6 sem7_6
    hrank7 hreads7_6 hinb7_6 nbuf7_6 (Memref.isWhole_whole _) hwx7_6 hstage7_6

abbrev win7 : Fin 7 → Pipeline.Window sig grid7 := fun | 0 => win7_0 | 1 => win7_1 | 2 => win7_2 | 3 => win7_3 | 4 => win7_4 | 5 => win7_5 | 6 => win7_6 | ⟨_ + 7, h⟩ => absurd h (Nat.not_lt.2 (Nat.le_add_left _ _))
abbrev spec7 : Fin 7 → Pipeline.WinSpec sig grid7.rank := fun w => (win7 w).toWinSpec

abbrev win8_0 : Pipeline.Window sig grid8 :=
  Pipeline.Window.ofSpec (Memref.whole main_v137_0) S10000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v141) S1x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v147) S1x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v157) S1x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v158) S1x128.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v156) S128x128.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_v159) S1x128.size cc8_transform_6 reads8_6 false true 1 stage8_6 sem8_6
    hrank8 hreads8_6 hinb8_6 nbuf8_6 (Memref.isWhole_whole _) hwx8_6 hstage8_6

abbrev win8_7 : Pipeline.Window sig grid8 :=
  Pipeline.Window.ofSpec (Memref.whole main_v160_0) S10000x128.size cc8_transform_7 reads8_7 true false 2 stage8_7 sem8_7
    hrank8 hreads8_7 hinb8_7 nbuf8_7 (Memref.isWhole_whole _) hwx8_7 hstage8_7

abbrev win8_8 : Pipeline.Window sig grid8 :=
  Pipeline.Window.ofSpec (Memref.whole main_v160_1) S1x1x128.size cc8_transform_8 reads8_8 true false 2 stage8_8 sem8_8
    hrank8 hreads8_8 hinb8_8 nbuf8_8 (Memref.isWhole_whole _) hwx8_8 hstage8_8

abbrev win8_9 : Pipeline.Window sig grid8 :=
  Pipeline.Window.ofSpec (Memref.whole main_v160_2) S1x1x128.size cc8_transform_9 reads8_9 true false 2 stage8_9 sem8_9
    hrank8 hreads8_9 hinb8_9 nbuf8_9 (Memref.isWhole_whole _) hwx8_9 hstage8_9

abbrev win8 : Fin 10 → Pipeline.Window sig grid8 := fun | 0 => win8_0 | 1 => win8_1 | 2 => win8_2 | 3 => win8_3 | 4 => win8_4 | 5 => win8_5 | 6 => win8_6 | 7 => win8_7 | 8 => win8_8 | 9 => win8_9 | ⟨_ + 10, h⟩ => absurd h (Nat.not_lt.2 (Nat.le_add_left _ _))
abbrev spec8 : Fin 10 → Pipeline.WinSpec sig grid8.rank := fun w => (win8 w).toWinSpec

abbrev win9_0 : Pipeline.Window sig grid9 :=
  Pipeline.Window.ofSpec (Memref.whole main_v160_0) S10000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v164) S1x128.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v170) S1x128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v175) S1x128.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v176) S1x128.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v177) S10000x128.size cc9_transform_5 reads9_5 true false 2 stage9_5 sem9_5
    hrank9 hreads9_5 hinb9_5 nbuf9_5 (Memref.isWhole_whole _) hwx9_5 hstage9_5

abbrev win9 : Fin 6 → Pipeline.Window sig grid9 := fun | 0 => win9_0 | 1 => win9_1 | 2 => win9_2 | 3 => win9_3 | 4 => win9_4 | 5 => win9_5 | ⟨_ + 6, h⟩ => absurd h (Nat.not_lt.2 (Nat.le_add_left _ _))
abbrev spec9 : Fin 6 → Pipeline.WinSpec sig grid9.rank := fun w => (win9 w).toWinSpec

abbrev win10_0 : Pipeline.Window sig grid10 :=
  Pipeline.Window.ofSpec (Memref.whole main_v177) S10000x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v187) S10000x128.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v192) S128x128.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v193) S1x128.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v194_0) S10000x128.size cc10_transform_4 reads10_4 true false 2 stage10_4 sem10_4
    hrank10 hreads10_4 hinb10_4 nbuf10_4 (Memref.isWhole_whole _) hwx10_4 hstage10_4

abbrev win10_5 : Pipeline.Window sig grid10 :=
  Pipeline.Window.ofSpec (Memref.whole main_v194_1) S1x1x128.size cc10_transform_5 reads10_5 true false 2 stage10_5 sem10_5
    hrank10 hreads10_5 hinb10_5 nbuf10_5 (Memref.isWhole_whole _) hwx10_5 hstage10_5

abbrev win10_6 : Pipeline.Window sig grid10 :=
  Pipeline.Window.ofSpec (Memref.whole main_v194_2) S1x1x128.size cc10_transform_6 reads10_6 true false 2 stage10_6 sem10_6
    hrank10 hreads10_6 hinb10_6 nbuf10_6 (Memref.isWhole_whole _) hwx10_6 hstage10_6

abbrev win10 : Fin 7 → Pipeline.Window sig grid10 := fun | 0 => win10_0 | 1 => win10_1 | 2 => win10_2 | 3 => win10_3 | 4 => win10_4 | 5 => win10_5 | 6 => win10_6 | ⟨_ + 7, h⟩ => absurd h (Nat.not_lt.2 (Nat.le_add_left _ _))
abbrev spec10 : Fin 7 → Pipeline.WinSpec sig grid10.rank := fun w => (win10 w).toWinSpec

abbrev win11_0 : Pipeline.Window sig grid11 :=
  Pipeline.Window.ofSpec (Memref.whole main_v194_0) S10000x128.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v198) S1x128.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v204) S1x128.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v214) S1x128.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v215) S1x128.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_v213) S128x128.size cc11_transform_5 reads11_5 false true 1 stage11_5 sem11_5
    hrank11 hreads11_5 hinb11_5 nbuf11_5 (Memref.isWhole_whole _) hwx11_5 hstage11_5

abbrev win11_6 : Pipeline.Window sig grid11 :=
  Pipeline.Window.ofSpec (Memref.whole main_v216) S1x128.size cc11_transform_6 reads11_6 false true 1 stage11_6 sem11_6
    hrank11 hreads11_6 hinb11_6 nbuf11_6 (Memref.isWhole_whole _) hwx11_6 hstage11_6

abbrev win11_7 : Pipeline.Window sig grid11 :=
  Pipeline.Window.ofSpec (Memref.whole main_v217_0) S10000x128.size cc11_transform_7 reads11_7 true false 2 stage11_7 sem11_7
    hrank11 hreads11_7 hinb11_7 nbuf11_7 (Memref.isWhole_whole _) hwx11_7 hstage11_7

abbrev win11_8 : Pipeline.Window sig grid11 :=
  Pipeline.Window.ofSpec (Memref.whole main_v217_1) S1x1x128.size cc11_transform_8 reads11_8 true false 2 stage11_8 sem11_8
    hrank11 hreads11_8 hinb11_8 nbuf11_8 (Memref.isWhole_whole _) hwx11_8 hstage11_8

abbrev win11_9 : Pipeline.Window sig grid11 :=
  Pipeline.Window.ofSpec (Memref.whole main_v217_2) S1x1x128.size cc11_transform_9 reads11_9 true false 2 stage11_9 sem11_9
    hrank11 hreads11_9 hinb11_9 nbuf11_9 (Memref.isWhole_whole _) hwx11_9 hstage11_9

abbrev win11 : Fin 10 → Pipeline.Window sig grid11 := fun | 0 => win11_0 | 1 => win11_1 | 2 => win11_2 | 3 => win11_3 | 4 => win11_4 | 5 => win11_5 | 6 => win11_6 | 7 => win11_7 | 8 => win11_8 | 9 => win11_9 | ⟨_ + 10, h⟩ => absurd h (Nat.not_lt.2 (Nat.le_add_left _ _))
abbrev spec11 : Fin 10 → Pipeline.WinSpec sig grid11.rank := fun w => (win11 w).toWinSpec

abbrev win12_0 : Pipeline.Window sig grid12 :=
  Pipeline.Window.ofSpec (Memref.whole main_v217_0) S10000x128.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v221) S1x128.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v227) S1x128.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_v232) S1x128.size cc12_transform_3 reads12_3 false true 1 stage12_3 sem12_3
    hrank12 hreads12_3 hinb12_3 nbuf12_3 (Memref.isWhole_whole _) hwx12_3 hstage12_3

abbrev win12_4 : Pipeline.Window sig grid12 :=
  Pipeline.Window.ofSpec (Memref.whole main_v233) S1x128.size cc12_transform_4 reads12_4 false true 1 stage12_4 sem12_4
    hrank12 hreads12_4 hinb12_4 nbuf12_4 (Memref.isWhole_whole _) hwx12_4 hstage12_4

abbrev win12_5 : Pipeline.Window sig grid12 :=
  Pipeline.Window.ofSpec (Memref.whole main_v234) S10000x128.size cc12_transform_5 reads12_5 true false 2 stage12_5 sem12_5
    hrank12 hreads12_5 hinb12_5 nbuf12_5 (Memref.isWhole_whole _) hwx12_5 hstage12_5

abbrev win12 : Fin 6 → Pipeline.Window sig grid12 := fun | 0 => win12_0 | 1 => win12_1 | 2 => win12_2 | 3 => win12_3 | 4 => win12_4 | 5 => win12_5 | ⟨_ + 6, h⟩ => absurd h (Nat.not_lt.2 (Nat.le_add_left _ _))
abbrev spec12 : Fin 6 → Pipeline.WinSpec sig grid12.rank := fun w => (win12 w).toWinSpec

class Facts : Prop extends Facts₀ where

variable [Facts]
-- ==== ReferenceIdeal.lean ====
abbrev S100000x128 : Shape := ⟨2, ![100000, 128]⟩
abbrev S2x625000 : Shape := ⟨2, ![2, 625000]⟩
abbrev S10000 : Shape := ⟨1, ![10000]⟩
abbrev S128x128 : Shape := ⟨2, ![128, 128]⟩
abbrev S128 : Shape := ⟨1, ![128]⟩
abbrev S4x128x128 : Shape := ⟨3, ![4, 128, 128]⟩
abbrev S4x128 : Shape := ⟨2, ![4, 128]⟩
abbrev S10x128 : Shape := ⟨2, ![10, 128]⟩
abbrev S10 : Shape := ⟨1, ![10]⟩
abbrev S1x625000 : Shape := ⟨2, ![1, 625000]⟩
abbrev S625000 : Shape := ⟨1, ![625000]⟩
abbrev S1x128 : Shape := ⟨2, ![1, 128]⟩
abbrev S_ : Shape := ⟨0, ![]⟩
abbrev S625000x1 : Shape := ⟨2, ![625000, 1]⟩
abbrev S625000x128 : Shape := ⟨2, ![625000, 128]⟩
abbrev S1x128x128 : Shape := ⟨3, ![1, 128, 128]⟩
abbrev S10000x1 : Shape := ⟨2, ![10000, 1]⟩
abbrev S10000x128 : Shape := ⟨2, ![10000, 128]⟩
abbrev S128x10 : Shape := ⟨2, ![128, 10]⟩
abbrev S10000x10 : Shape := ⟨2, ![10000, 10]⟩
abbrev S1x10 : Shape := ⟨2, ![1, 10]⟩

abbrev nBuf : Space → Nat
  | .hbm => 577
  | .vmem => 0
  | .smem => 0
  | _ => 0

abbrev hbmTy0_0 (i : Nat) : BufTy := match i % 128 with
  | 0 => ⟨S100000x128, .f32⟩
  | 1 => ⟨S2x625000, .i32⟩
  | 2 => ⟨S10000, .i32⟩
  | 3 => ⟨S128x128, .f32⟩
  | 4 => ⟨S128, .f32⟩
  | 5 => ⟨S4x128x128, .f32⟩
  | 6 => ⟨S4x128, .f32⟩
  | 7 => ⟨S4x128, .f32⟩
  | 8 => ⟨S4x128, .f32⟩
  | 9 => ⟨S4x128x128, .f32⟩
  | 10 => ⟨S4x128, .f32⟩
  | 11 => ⟨S4x128, .f32⟩
  | 12 => ⟨S4x128, .f32⟩
  | 13 => ⟨S10x128, .f32⟩
  | 14 => ⟨S10, .f32⟩
  | 15 => ⟨S1x625000, .i32⟩
  | 16 => ⟨S625000, .i32⟩
  | 17 => ⟨S1x625000, .i32⟩
  | 18 => ⟨S625000, .i32⟩
  | 19 => ⟨S128x128, .f32⟩
  | 20 => ⟨S100000x128, .f32⟩
  | 21 => ⟨S1x128, .f32⟩
  | 22 => ⟨S100000x128, .f32⟩
  | 23 => ⟨S100000x128, .f32⟩
  | 24 => ⟨S_, .i32⟩
  | 25 => ⟨S625000, .i32⟩
  | 26 => ⟨S625000, .i1⟩
  | 27 => ⟨S_, .i32⟩
  | 28 => ⟨S625000, .i32⟩
  | 29 => ⟨S625000, .i32⟩
  | 30 => ⟨S625000, .i32⟩
  | 31 => ⟨S625000x1, .i32⟩
  | 32 => ⟨S625000x128, .f32⟩
  | 33 => ⟨S_, .f32⟩
  | 34 => ⟨S100000x128, .f32⟩
  | 35 => ⟨S625000x1, .i32⟩
  | 36 => ⟨S100000x128, .f32⟩
  | 37 => ⟨S100000x128, .f32⟩
  | 38 => ⟨S1x128x128, .f32⟩
  | 39 => ⟨S128x128, .f32⟩
  | 40 => ⟨S128x128, .f32⟩
  | 41 => ⟨S100000x128, .f32⟩
  | 42 => ⟨S1x128, .f32⟩
  | 43 => ⟨S128, .f32⟩
  | 44 => ⟨S1x128, .f32⟩
  | 45 => ⟨S100000x128, .f32⟩
  | 46 => ⟨S100000x128, .f32⟩
  | 47 => ⟨S1x128, .f32⟩
  | 48 => ⟨S128, .f32⟩
  | 49 => ⟨S1x128, .f32⟩
  | 50 => ⟨S128, .f32⟩
  | 51 => ⟨S_, .f32⟩
  | 52 => ⟨S128, .f32⟩
  | 53 => ⟨S_, .f32⟩
  | 54 => ⟨S128, .f32⟩
  | 55 => ⟨S128, .f32⟩
  | 56 => ⟨S_, .i32⟩
  | 57 => ⟨S_, .f32⟩
  | 58 => ⟨S128, .f32⟩
  | 59 => ⟨S1x128, .f32⟩
  | 60 => ⟨S_, .f32⟩
  | 61 => ⟨S1x128, .f32⟩
  | 62 => ⟨S1x128, .f32⟩
  | 63 => ⟨S100000x128, .f32⟩
  | 64 => ⟨S100000x128, .f32⟩
  | 65 => ⟨S100000x128, .f32⟩
  | 66 => ⟨S_, .f32⟩
  | 67 => ⟨S_, .f32⟩
  | 68 => ⟨S_, .f32⟩
  | 69 => ⟨S_, .f32⟩
  | 70 => ⟨S128, .f32⟩
  | 71 => ⟨S128, .f32⟩
  | 72 => ⟨S128, .f32⟩
  | 73 => ⟨S_, .f32⟩
  | 74 => ⟨S_, .i1⟩
  | 75 => ⟨S_, .f32⟩
  | 76 => ⟨S_, .f32⟩
  | 77 => ⟨S128, .f32⟩
  | 78 => ⟨S128, .f32⟩
  | 79 => ⟨S1x128, .f32⟩
  | 80 => ⟨S100000x128, .f32⟩
  | 81 => ⟨S100000x128, .f32⟩
  | 82 => ⟨S1x128, .f32⟩
  | 83 => ⟨S100000x128, .f32⟩
  | 84 => ⟨S100000x128, .f32⟩
  | 85 => ⟨S_, .f32⟩
  | 86 => ⟨S128, .f32⟩
  | 87 => ⟨S128, .f32⟩
  | 88 => ⟨S128, .f32⟩
  | 89 => ⟨S1x128, .f32⟩
  | 90 => ⟨S100000x128, .f32⟩
  | 91 => ⟨S100000x128, .f32⟩
  | 92 => ⟨S1x128, .f32⟩
  | 93 => ⟨S100000x128, .f32⟩
  | 94 => ⟨S100000x128, .f32⟩
  | 95 => ⟨S_, .f32⟩
  | 96 => ⟨S100000x128, .f32⟩
  | 97 => ⟨S100000x128, .f32⟩
  | 98 => ⟨S1x128x128, .f32⟩
  | 99 => ⟨S128x128, .f32⟩
  | 100 => ⟨S128x128, .f32⟩
  | 101 => ⟨S100000x128, .f32⟩
  | 102 => ⟨S1x128, .f32⟩
  | 103 => ⟨S128, .f32⟩
  | 104 => ⟨S1x128, .f32⟩
  | 105 => ⟨S100000x128, .f32⟩
  | 106 => ⟨S100000x128, .f32⟩
  | 107 => ⟨S1x128, .f32⟩
  | 108 => ⟨S128, .f32⟩
  | 109 => ⟨S1x128, .f32⟩
  | 110 => ⟨S128, .f32⟩
  | 111 => ⟨S_, .f32⟩
  | 112 => ⟨S128, .f32⟩
  | 113 => ⟨S_, .f32⟩
  | 114 => ⟨S128, .f32⟩
  | 115 => ⟨S128, .f32⟩
  | 116 => ⟨S_, .i32⟩
  | 117 => ⟨S_, .f32⟩
  | 118 => ⟨S128, .f32⟩
  | 119 => ⟨S1x128, .f32⟩
  | 120 => ⟨S_, .f32⟩
  | 121 => ⟨S1x128, .f32⟩
  | 122 => ⟨S1x128, .f32⟩
  | 123 => ⟨S100000x128, .f32⟩
  | 124 => ⟨S100000x128, .f32⟩
  | 125 => ⟨S100000x128, .f32⟩
  | 126 => ⟨S_, .f32⟩
  | 127 => ⟨S_, .f32⟩
  | _ => ⟨S100000x128, .f32⟩

abbrev hbmTy0_1 (i : Nat) : BufTy := match i % 128 with
  | 0 => ⟨S_, .f32⟩
  | 1 => ⟨S_, .f32⟩
  | 2 => ⟨S128, .f32⟩
  | 3 => ⟨S128, .f32⟩
  | 4 => ⟨S128, .f32⟩
  | 5 => ⟨S_, .f32⟩
  | 6 => ⟨S_, .i1⟩
  | 7 => ⟨S_, .f32⟩
  | 8 => ⟨S_, .f32⟩
  | 9 => ⟨S128, .f32⟩
  | 10 => ⟨S128, .f32⟩
  | 11 => ⟨S1x128, .f32⟩
  | 12 => ⟨S100000x128, .f32⟩
  | 13 => ⟨S100000x128, .f32⟩
  | 14 => ⟨S1x128, .f32⟩
  | 15 => ⟨S100000x128, .f32⟩
  | 16 => ⟨S100000x128, .f32⟩
  | 17 => ⟨S_, .f32⟩
  | 18 => ⟨S128, .f32⟩
  | 19 => ⟨S128, .f32⟩
  | 20 => ⟨S128, .f32⟩
  | 21 => ⟨S1x128, .f32⟩
  | 22 => ⟨S100000x128, .f32⟩
  | 23 => ⟨S100000x128, .f32⟩
  | 24 => ⟨S1x128, .f32⟩
  | 25 => ⟨S100000x128, .f32⟩
  | 26 => ⟨S100000x128, .f32⟩
  | 27 => ⟨S_, .f32⟩
  | 28 => ⟨S100000x128, .f32⟩
  | 29 => ⟨S100000x128, .f32⟩
  | 30 => ⟨S_, .f32⟩
  | 31 => ⟨S100000x128, .f32⟩
  | 32 => ⟨S100000x128, .f32⟩
  | 33 => ⟨S_, .i32⟩
  | 34 => ⟨S625000, .i32⟩
  | 35 => ⟨S625000, .i1⟩
  | 36 => ⟨S_, .i32⟩
  | 37 => ⟨S625000, .i32⟩
  | 38 => ⟨S625000, .i32⟩
  | 39 => ⟨S625000, .i32⟩
  | 40 => ⟨S625000x1, .i32⟩
  | 41 => ⟨S625000x128, .f32⟩
  | 42 => ⟨S_, .f32⟩
  | 43 => ⟨S100000x128, .f32⟩
  | 44 => ⟨S625000x1, .i32⟩
  | 45 => ⟨S100000x128, .f32⟩
  | 46 => ⟨S100000x128, .f32⟩
  | 47 => ⟨S1x128x128, .f32⟩
  | 48 => ⟨S128x128, .f32⟩
  | 49 => ⟨S128x128, .f32⟩
  | 50 => ⟨S100000x128, .f32⟩
  | 51 => ⟨S1x128, .f32⟩
  | 52 => ⟨S128, .f32⟩
  | 53 => ⟨S1x128, .f32⟩
  | 54 => ⟨S100000x128, .f32⟩
  | 55 => ⟨S100000x128, .f32⟩
  | 56 => ⟨S1x128, .f32⟩
  | 57 => ⟨S128, .f32⟩
  | 58 => ⟨S1x128, .f32⟩
  | 59 => ⟨S128, .f32⟩
  | 60 => ⟨S_, .f32⟩
  | 61 => ⟨S128, .f32⟩
  | 62 => ⟨S_, .f32⟩
  | 63 => ⟨S128, .f32⟩
  | 64 => ⟨S128, .f32⟩
  | 65 => ⟨S_, .i32⟩
  | 66 => ⟨S_, .f32⟩
  | 67 => ⟨S128, .f32⟩
  | 68 => ⟨S1x128, .f32⟩
  | 69 => ⟨S_, .f32⟩
  | 70 => ⟨S1x128, .f32⟩
  | 71 => ⟨S1x128, .f32⟩
  | 72 => ⟨S100000x128, .f32⟩
  | 73 => ⟨S100000x128, .f32⟩
  | 74 => ⟨S100000x128, .f32⟩
  | 75 => ⟨S_, .f32⟩
  | 76 => ⟨S_, .f32⟩
  | 77 => ⟨S_, .f32⟩
  | 78 => ⟨S_, .f32⟩
  | 79 => ⟨S128, .f32⟩
  | 80 => ⟨S128, .f32⟩
  | 81 => ⟨S128, .f32⟩
  | 82 => ⟨S_, .f32⟩
  | 83 => ⟨S_, .i1⟩
  | 84 => ⟨S_, .f32⟩
  | 85 => ⟨S_, .f32⟩
  | 86 => ⟨S128, .f32⟩
  | 87 => ⟨S128, .f32⟩
  | 88 => ⟨S1x128, .f32⟩
  | 89 => ⟨S100000x128, .f32⟩
  | 90 => ⟨S100000x128, .f32⟩
  | 91 => ⟨S1x128, .f32⟩
  | 92 => ⟨S100000x128, .f32⟩
  | 93 => ⟨S100000x128, .f32⟩
  | 94 => ⟨S_, .f32⟩
  | 95 => ⟨S128, .f32⟩
  | 96 => ⟨S128, .f32⟩
  | 97 => ⟨S128, .f32⟩
  | 98 => ⟨S1x128, .f32⟩
  | 99 => ⟨S100000x128, .f32⟩
  | 100 => ⟨S100000x128, .f32⟩
  | 101 => ⟨S1x128, .f32⟩
  | 102 => ⟨S100000x128, .f32⟩
  | 103 => ⟨S100000x128, .f32⟩
  | 104 => ⟨S_, .f32⟩
  | 105 => ⟨S100000x128, .f32⟩
  | 106 => ⟨S100000x128, .f32⟩
  | 107 => ⟨S1x128x128, .f32⟩
  | 108 => ⟨S128x128, .f32⟩
  | 109 => ⟨S128x128, .f32⟩
  | 110 => ⟨S100000x128, .f32⟩
  | 111 => ⟨S1x128, .f32⟩
  | 112 => ⟨S128, .f32⟩
  | 113 => ⟨S1x128, .f32⟩
  | 114 => ⟨S100000x128, .f32⟩
  | 115 => ⟨S100000x128, .f32⟩
  | 116 => ⟨S1x128, .f32⟩
  | 117 => ⟨S128, .f32⟩
  | 118 => ⟨S1x128, .f32⟩
  | 119 => ⟨S128, .f32⟩
  | 120 => ⟨S_, .f32⟩
  | 121 => ⟨S128, .f32⟩
  | 122 => ⟨S_, .f32⟩
  | 123 => ⟨S128, .f32⟩
  | 124 => ⟨S128, .f32⟩
  | 125 => ⟨S_, .i32⟩
  | 126 => ⟨S_, .f32⟩
  | 127 => ⟨S128, .f32⟩
  | _ => ⟨S100000x128, .f32⟩

abbrev hbmTy0_2 (i : Nat) : BufTy := match i % 128 with
  | 0 => ⟨S1x128, .f32⟩
  | 1 => ⟨S_, .f32⟩
  | 2 => ⟨S1x128, .f32⟩
  | 3 => ⟨S1x128, .f32⟩
  | 4 => ⟨S100000x128, .f32⟩
  | 5 => ⟨S100000x128, .f32⟩
  | 6 => ⟨S100000x128, .f32⟩
  | 7 => ⟨S_, .f32⟩
  | 8 => ⟨S_, .f32⟩
  | 9 => ⟨S_, .f32⟩
  | 10 => ⟨S_, .f32⟩
  | 11 => ⟨S128, .f32⟩
  | 12 => ⟨S128, .f32⟩
  | 13 => ⟨S128, .f32⟩
  | 14 => ⟨S_, .f32⟩
  | 15 => ⟨S_, .i1⟩
  | 16 => ⟨S_, .f32⟩
  | 17 => ⟨S_, .f32⟩
  | 18 => ⟨S128, .f32⟩
  | 19 => ⟨S128, .f32⟩
  | 20 => ⟨S1x128, .f32⟩
  | 21 => ⟨S100000x128, .f32⟩
  | 22 => ⟨S100000x128, .f32⟩
  | 23 => ⟨S1x128, .f32⟩
  | 24 => ⟨S100000x128, .f32⟩
  | 25 => ⟨S100000x128, .f32⟩
  | 26 => ⟨S_, .f32⟩
  | 27 => ⟨S128, .f32⟩
  | 28 => ⟨S128, .f32⟩
  | 29 => ⟨S128, .f32⟩
  | 30 => ⟨S1x128, .f32⟩
  | 31 => ⟨S100000x128, .f32⟩
  | 32 => ⟨S100000x128, .f32⟩
  | 33 => ⟨S1x128, .f32⟩
  | 34 => ⟨S100000x128, .f32⟩
  | 35 => ⟨S100000x128, .f32⟩
  | 36 => ⟨S_, .f32⟩
  | 37 => ⟨S100000x128, .f32⟩
  | 38 => ⟨S100000x128, .f32⟩
  | 39 => ⟨S_, .i32⟩
  | 40 => ⟨S625000, .i32⟩
  | 41 => ⟨S625000, .i1⟩
  | 42 => ⟨S_, .i32⟩
  | 43 => ⟨S625000, .i32⟩
  | 44 => ⟨S625000, .i32⟩
  | 45 => ⟨S625000, .i32⟩
  | 46 => ⟨S625000x1, .i32⟩
  | 47 => ⟨S625000x128, .f32⟩
  | 48 => ⟨S_, .f32⟩
  | 49 => ⟨S100000x128, .f32⟩
  | 50 => ⟨S625000x1, .i32⟩
  | 51 => ⟨S100000x128, .f32⟩
  | 52 => ⟨S100000x128, .f32⟩
  | 53 => ⟨S1x128x128, .f32⟩
  | 54 => ⟨S128x128, .f32⟩
  | 55 => ⟨S128x128, .f32⟩
  | 56 => ⟨S100000x128, .f32⟩
  | 57 => ⟨S1x128, .f32⟩
  | 58 => ⟨S128, .f32⟩
  | 59 => ⟨S1x128, .f32⟩
  | 60 => ⟨S100000x128, .f32⟩
  | 61 => ⟨S100000x128, .f32⟩
  | 62 => ⟨S1x128, .f32⟩
  | 63 => ⟨S128, .f32⟩
  | 64 => ⟨S1x128, .f32⟩
  | 65 => ⟨S128, .f32⟩
  | 66 => ⟨S_, .f32⟩
  | 67 => ⟨S128, .f32⟩
  | 68 => ⟨S_, .f32⟩
  | 69 => ⟨S128, .f32⟩
  | 70 => ⟨S128, .f32⟩
  | 71 => ⟨S_, .i32⟩
  | 72 => ⟨S_, .f32⟩
  | 73 => ⟨S128, .f32⟩
  | 74 => ⟨S1x128, .f32⟩
  | 75 => ⟨S_, .f32⟩
  | 76 => ⟨S1x128, .f32⟩
  | 77 => ⟨S1x128, .f32⟩
  | 78 => ⟨S100000x128, .f32⟩
  | 79 => ⟨S100000x128, .f32⟩
  | 80 => ⟨S100000x128, .f32⟩
  | 81 => ⟨S_, .f32⟩
  | 82 => ⟨S_, .f32⟩
  | 83 => ⟨S_, .f32⟩
  | 84 => ⟨S_, .f32⟩
  | 85 => ⟨S128, .f32⟩
  | 86 => ⟨S128, .f32⟩
  | 87 => ⟨S128, .f32⟩
  | 88 => ⟨S_, .f32⟩
  | 89 => ⟨S_, .i1⟩
  | 90 => ⟨S_, .f32⟩
  | 91 => ⟨S_, .f32⟩
  | 92 => ⟨S128, .f32⟩
  | 93 => ⟨S128, .f32⟩
  | 94 => ⟨S1x128, .f32⟩
  | 95 => ⟨S100000x128, .f32⟩
  | 96 => ⟨S100000x128, .f32⟩
  | 97 => ⟨S1x128, .f32⟩
  | 98 => ⟨S100000x128, .f32⟩
  | 99 => ⟨S100000x128, .f32⟩
  | 100 => ⟨S_, .f32⟩
  | 101 => ⟨S128, .f32⟩
  | 102 => ⟨S128, .f32⟩
  | 103 => ⟨S128, .f32⟩
  | 104 => ⟨S1x128, .f32⟩
  | 105 => ⟨S100000x128, .f32⟩
  | 106 => ⟨S100000x128, .f32⟩
  | 107 => ⟨S1x128, .f32⟩
  | 108 => ⟨S100000x128, .f32⟩
  | 109 => ⟨S100000x128, .f32⟩
  | 110 => ⟨S_, .f32⟩
  | 111 => ⟨S100000x128, .f32⟩
  | 112 => ⟨S100000x128, .f32⟩
  | 113 => ⟨S1x128x128, .f32⟩
  | 114 => ⟨S128x128, .f32⟩
  | 115 => ⟨S128x128, .f32⟩
  | 116 => ⟨S100000x128, .f32⟩
  | 117 => ⟨S1x128, .f32⟩
  | 118 => ⟨S128, .f32⟩
  | 119 => ⟨S1x128, .f32⟩
  | 120 => ⟨S100000x128, .f32⟩
  | 121 => ⟨S100000x128, .f32⟩
  | 122 => ⟨S1x128, .f32⟩
  | 123 => ⟨S128, .f32⟩
  | 124 => ⟨S1x128, .f32⟩
  | 125 => ⟨S128, .f32⟩
  | 126 => ⟨S_, .f32⟩
  | 127 => ⟨S128, .f32⟩
  | _ => ⟨S100000x128, .f32⟩

abbrev hbmTy0_3 (i : Nat) : BufTy := match i % 128 with
  | 0 => ⟨S_, .f32⟩
  | 1 => ⟨S128, .f32⟩
  | 2 => ⟨S128, .f32⟩
  | 3 => ⟨S_, .i32⟩
  | 4 => ⟨S_, .f32⟩
  | 5 => ⟨S128, .f32⟩
  | 6 => ⟨S1x128, .f32⟩
  | 7 => ⟨S_, .f32⟩
  | 8 => ⟨S1x128, .f32⟩
  | 9 => ⟨S1x128, .f32⟩
  | 10 => ⟨S100000x128, .f32⟩
  | 11 => ⟨S100000x128, .f32⟩
  | 12 => ⟨S100000x128, .f32⟩
  | 13 => ⟨S_, .f32⟩
  | 14 => ⟨S_, .f32⟩
  | 15 => ⟨S_, .f32⟩
  | 16 => ⟨S_, .f32⟩
  | 17 => ⟨S128, .f32⟩
  | 18 => ⟨S128, .f32⟩
  | 19 => ⟨S128, .f32⟩
  | 20 => ⟨S_, .f32⟩
  | 21 => ⟨S_, .i1⟩
  | 22 => ⟨S_, .f32⟩
  | 23 => ⟨S_, .f32⟩
  | 24 => ⟨S128, .f32⟩
  | 25 => ⟨S128, .f32⟩
  | 26 => ⟨S1x128, .f32⟩
  | 27 => ⟨S100000x128, .f32⟩
  | 28 => ⟨S100000x128, .f32⟩
  | 29 => ⟨S1x128, .f32⟩
  | 30 => ⟨S100000x128, .f32⟩
  | 31 => ⟨S100000x128, .f32⟩
  | 32 => ⟨S_, .f32⟩
  | 33 => ⟨S128, .f32⟩
  | 34 => ⟨S128, .f32⟩
  | 35 => ⟨S128, .f32⟩
  | 36 => ⟨S1x128, .f32⟩
  | 37 => ⟨S100000x128, .f32⟩
  | 38 => ⟨S100000x128, .f32⟩
  | 39 => ⟨S1x128, .f32⟩
  | 40 => ⟨S100000x128, .f32⟩
  | 41 => ⟨S100000x128, .f32⟩
  | 42 => ⟨S_, .f32⟩
  | 43 => ⟨S100000x128, .f32⟩
  | 44 => ⟨S100000x128, .f32⟩
  | 45 => ⟨S_, .i32⟩
  | 46 => ⟨S625000, .i32⟩
  | 47 => ⟨S625000, .i1⟩
  | 48 => ⟨S_, .i32⟩
  | 49 => ⟨S625000, .i32⟩
  | 50 => ⟨S625000, .i32⟩
  | 51 => ⟨S625000, .i32⟩
  | 52 => ⟨S625000x1, .i32⟩
  | 53 => ⟨S625000x128, .f32⟩
  | 54 => ⟨S_, .f32⟩
  | 55 => ⟨S100000x128, .f32⟩
  | 56 => ⟨S625000x1, .i32⟩
  | 57 => ⟨S100000x128, .f32⟩
  | 58 => ⟨S100000x128, .f32⟩
  | 59 => ⟨S1x128x128, .f32⟩
  | 60 => ⟨S128x128, .f32⟩
  | 61 => ⟨S128x128, .f32⟩
  | 62 => ⟨S100000x128, .f32⟩
  | 63 => ⟨S1x128, .f32⟩
  | 64 => ⟨S128, .f32⟩
  | 65 => ⟨S1x128, .f32⟩
  | 66 => ⟨S100000x128, .f32⟩
  | 67 => ⟨S100000x128, .f32⟩
  | 68 => ⟨S1x128, .f32⟩
  | 69 => ⟨S128, .f32⟩
  | 70 => ⟨S1x128, .f32⟩
  | 71 => ⟨S128, .f32⟩
  | 72 => ⟨S_, .f32⟩
  | 73 => ⟨S128, .f32⟩
  | 74 => ⟨S_, .f32⟩
  | 75 => ⟨S128, .f32⟩
  | 76 => ⟨S128, .f32⟩
  | 77 => ⟨S_, .i32⟩
  | 78 => ⟨S_, .f32⟩
  | 79 => ⟨S128, .f32⟩
  | 80 => ⟨S1x128, .f32⟩
  | 81 => ⟨S_, .f32⟩
  | 82 => ⟨S1x128, .f32⟩
  | 83 => ⟨S1x128, .f32⟩
  | 84 => ⟨S100000x128, .f32⟩
  | 85 => ⟨S100000x128, .f32⟩
  | 86 => ⟨S100000x128, .f32⟩
  | 87 => ⟨S_, .f32⟩
  | 88 => ⟨S_, .f32⟩
  | 89 => ⟨S_, .f32⟩
  | 90 => ⟨S_, .f32⟩
  | 91 => ⟨S128, .f32⟩
  | 92 => ⟨S128, .f32⟩
  | 93 => ⟨S128, .f32⟩
  | 94 => ⟨S_, .f32⟩
  | 95 => ⟨S_, .i1⟩
  | 96 => ⟨S_, .f32⟩
  | 97 => ⟨S_, .f32⟩
  | 98 => ⟨S128, .f32⟩
  | 99 => ⟨S128, .f32⟩
  | 100 => ⟨S1x128, .f32⟩
  | 101 => ⟨S100000x128, .f32⟩
  | 102 => ⟨S100000x128, .f32⟩
  | 103 => ⟨S1x128, .f32⟩
  | 104 => ⟨S100000x128, .f32⟩
  | 105 => ⟨S100000x128, .f32⟩
  | 106 => ⟨S_, .f32⟩
  | 107 => ⟨S128, .f32⟩
  | 108 => ⟨S128, .f32⟩
  | 109 => ⟨S128, .f32⟩
  | 110 => ⟨S1x128, .f32⟩
  | 111 => ⟨S100000x128, .f32⟩
  | 112 => ⟨S100000x128, .f32⟩
  | 113 => ⟨S1x128, .f32⟩
  | 114 => ⟨S100000x128, .f32⟩
  | 115 => ⟨S100000x128, .f32⟩
  | 116 => ⟨S_, .f32⟩
  | 117 => ⟨S100000x128, .f32⟩
  | 118 => ⟨S100000x128, .f32⟩
  | 119 => ⟨S1x128x128, .f32⟩
  | 120 => ⟨S128x128, .f32⟩
  | 121 => ⟨S128x128, .f32⟩
  | 122 => ⟨S100000x128, .f32⟩
  | 123 => ⟨S1x128, .f32⟩
  | 124 => ⟨S128, .f32⟩
  | 125 => ⟨S1x128, .f32⟩
  | 126 => ⟨S100000x128, .f32⟩
  | 127 => ⟨S100000x128, .f32⟩
  | _ => ⟨S100000x128, .f32⟩

abbrev hbmTy0_4 (i : Nat) : BufTy := match i % 128 with
  | 0 => ⟨S1x128, .f32⟩
  | 1 => ⟨S128, .f32⟩
  | 2 => ⟨S1x128, .f32⟩
  | 3 => ⟨S128, .f32⟩
  | 4 => ⟨S_, .f32⟩
  | 5 => ⟨S128, .f32⟩
  | 6 => ⟨S_, .f32⟩
  | 7 => ⟨S128, .f32⟩
  | 8 => ⟨S128, .f32⟩
  | 9 => ⟨S_, .i32⟩
  | 10 => ⟨S_, .f32⟩
  | 11 => ⟨S128, .f32⟩
  | 12 => ⟨S1x128, .f32⟩
  | 13 => ⟨S_, .f32⟩
  | 14 => ⟨S1x128, .f32⟩
  | 15 => ⟨S1x128, .f32⟩
  | 16 => ⟨S100000x128, .f32⟩
  | 17 => ⟨S100000x128, .f32⟩
  | 18 => ⟨S100000x128, .f32⟩
  | 19 => ⟨S_, .f32⟩
  | 20 => ⟨S_, .f32⟩
  | 21 => ⟨S_, .f32⟩
  | 22 => ⟨S_, .f32⟩
  | 23 => ⟨S128, .f32⟩
  | 24 => ⟨S128, .f32⟩
  | 25 => ⟨S128, .f32⟩
  | 26 => ⟨S_, .f32⟩
  | 27 => ⟨S_, .i1⟩
  | 28 => ⟨S_, .f32⟩
  | 29 => ⟨S_, .f32⟩
  | 30 => ⟨S128, .f32⟩
  | 31 => ⟨S128, .f32⟩
  | 32 => ⟨S1x128, .f32⟩
  | 33 => ⟨S100000x128, .f32⟩
  | 34 => ⟨S100000x128, .f32⟩
  | 35 => ⟨S1x128, .f32⟩
  | 36 => ⟨S100000x128, .f32⟩
  | 37 => ⟨S100000x128, .f32⟩
  | 38 => ⟨S_, .f32⟩
  | 39 => ⟨S128, .f32⟩
  | 40 => ⟨S128, .f32⟩
  | 41 => ⟨S128, .f32⟩
  | 42 => ⟨S1x128, .f32⟩
  | 43 => ⟨S100000x128, .f32⟩
  | 44 => ⟨S100000x128, .f32⟩
  | 45 => ⟨S1x128, .f32⟩
  | 46 => ⟨S100000x128, .f32⟩
  | 47 => ⟨S100000x128, .f32⟩
  | 48 => ⟨S_, .f32⟩
  | 49 => ⟨S100000x128, .f32⟩
  | 50 => ⟨S100000x128, .f32⟩
  | 51 => ⟨S_, .i32⟩
  | 52 => ⟨S10000, .i32⟩
  | 53 => ⟨S10000, .i1⟩
  | 54 => ⟨S_, .i32⟩
  | 55 => ⟨S10000, .i32⟩
  | 56 => ⟨S10000, .i32⟩
  | 57 => ⟨S10000, .i32⟩
  | 58 => ⟨S10000x1, .i32⟩
  | 59 => ⟨S10000x128, .f32⟩
  | 60 => ⟨S128x10, .f32⟩
  | 61 => ⟨S10000x10, .f32⟩
  | 62 => ⟨S1x10, .f32⟩
  | 63 => ⟨S10000x10, .f32⟩
  | 64 => ⟨S10000x10, .f32⟩
  | _ => ⟨S100000x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_c : Ref sig .tc := ⟨.hbm, 24, rfl⟩
abbrev main_v9 : Ref sig .tc := ⟨.hbm, 25, rfl⟩
abbrev main_v10 : Ref sig .tc := ⟨.hbm, 26, rfl⟩
abbrev main_c_0 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_1 : Ref sig .tc := ⟨.hbm, 51, rfl⟩
abbrev main_v33 : Ref sig .tc := ⟨.hbm, 52, rfl⟩
abbrev main_cst_2 : Ref sig .tc := ⟨.hbm, 53, rfl⟩
abbrev main_v34 : Ref sig .tc := ⟨.hbm, 54, rfl⟩
abbrev main_v35 : Ref sig .tc := ⟨.hbm, 55, rfl⟩
abbrev main_c_3 : Ref sig .tc := ⟨.hbm, 56, rfl⟩
abbrev main_call0_cst : Ref sig .tc := ⟨.hbm, 57, rfl⟩
abbrev main_call0_v0 : Ref sig .tc := ⟨.hbm, 58, rfl⟩
abbrev main_call0_v1 : Ref sig .tc := ⟨.hbm, 59, rfl⟩
abbrev main_call0_cst_0 : Ref sig .tc := ⟨.hbm, 60, rfl⟩
abbrev main_call0_v2 : Ref sig .tc := ⟨.hbm, 61, rfl⟩
abbrev main_call0_v3 : Ref sig .tc := ⟨.hbm, 62, rfl⟩
abbrev main_call0_v4 : Ref sig .tc := ⟨.hbm, 63, rfl⟩
abbrev main_call0_v5 : Ref sig .tc := ⟨.hbm, 64, rfl⟩
abbrev main_call0_v6 : Ref sig .tc := ⟨.hbm, 65, rfl⟩
abbrev main_call0_v7 : Ref sig .tc := ⟨.hbm, 66, rfl⟩
abbrev main_call0_cst_1 : Ref sig .tc := ⟨.hbm, 67, rfl⟩
abbrev main_call0_v8 : Ref sig .tc := ⟨.hbm, 68, rfl⟩
abbrev main_call0_cst_2 : Ref sig .tc := ⟨.hbm, 69, rfl⟩
abbrev main_call0_v9 : Ref sig .tc := ⟨.hbm, 70, rfl⟩
abbrev main_call0_v10 : Ref sig .tc := ⟨.hbm, 71, rfl⟩
abbrev main_call0_v11 : Ref sig .tc := ⟨.hbm, 72, rfl⟩
abbrev main_call0_cst_3 : Ref sig .tc := ⟨.hbm, 73, rfl⟩
abbrev main_call0_v12 : Ref sig .tc := ⟨.hbm, 74, rfl⟩
abbrev main_call0_cst_4 : Ref sig .tc := ⟨.hbm, 75, rfl⟩
abbrev main_call0_call0_v0 : Ref sig .tc := ⟨.hbm, 76, rfl⟩
abbrev main_call0_call0_v1 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_cst_4 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_call1_cst : Ref sig .tc := ⟨.hbm, 95, rfl⟩
abbrev main_call1_v0 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_cst_5 : Ref sig .tc := ⟨.hbm, 111, rfl⟩
abbrev main_v66 : Ref sig .tc := ⟨.hbm, 112, rfl⟩
abbrev main_cst_6 : Ref sig .tc := ⟨.hbm, 113, rfl⟩
abbrev main_v67 : Ref sig .tc := ⟨.hbm, 114, rfl⟩
abbrev main_v68 : Ref sig .tc := ⟨.hbm, 115, rfl⟩
abbrev main_c_7 : Ref sig .tc := ⟨.hbm, 116, rfl⟩
abbrev main_call2_cst : Ref sig .tc := ⟨.hbm, 117, rfl⟩
abbrev main_call2_v0 : Ref sig .tc := ⟨.hbm, 118, rfl⟩
abbrev main_call2_v1 : Ref sig .tc := ⟨.hbm, 119, rfl⟩
abbrev main_call2_cst_0 : Ref sig .tc := ⟨.hbm, 120, rfl⟩
abbrev main_call2_v2 : Ref sig .tc := ⟨.hbm, 121, rfl⟩
abbrev main_call2_v3 : Ref sig .tc := ⟨.hbm, 122, rfl⟩
abbrev main_call2_v4 : Ref sig .tc := ⟨.hbm, 123, rfl⟩
abbrev main_call2_v5 : Ref sig .tc := ⟨.hbm, 124, rfl⟩
abbrev main_call2_v6 : Ref sig .tc := ⟨.hbm, 125, rfl⟩
abbrev main_call2_v7 : Ref sig .tc := ⟨.hbm, 126, rfl⟩
abbrev main_call2_cst_1 : Ref sig .tc := ⟨.hbm, 127, rfl⟩
abbrev main_call2_v8 : Ref sig .tc := ⟨.hbm, 128, rfl⟩
abbrev main_call2_cst_2 : Ref sig .tc := ⟨.hbm, 129, rfl⟩
abbrev main_call2_v9 : Ref sig .tc := ⟨.hbm, 130, rfl⟩
abbrev main_call2_v10 : Ref sig .tc := ⟨.hbm, 131, rfl⟩
abbrev main_call2_v11 : Ref sig .tc := ⟨.hbm, 132, rfl⟩
abbrev main_call2_cst_3 : Ref sig .tc := ⟨.hbm, 133, rfl⟩
abbrev main_call2_v12 : Ref sig .tc := ⟨.hbm, 134, rfl⟩
abbrev main_call2_cst_4 : Ref sig .tc := ⟨.hbm, 135, rfl⟩
abbrev main_call2_call0_v0 : Ref sig .tc := ⟨.hbm, 136, rfl⟩
abbrev main_call2_call0_v1 : Ref sig .tc := ⟨.hbm, 137, rfl⟩
abbrev main_v69 : Ref sig .tc := ⟨.hbm, 138, rfl⟩
abbrev main_v70 : Ref sig .tc := ⟨.hbm, 139, rfl⟩
abbrev main_v71 : Ref sig .tc := ⟨.hbm, 140, rfl⟩
abbrev main_v72 : Ref sig .tc := ⟨.hbm, 141, rfl⟩
abbrev main_v73 : Ref sig .tc := ⟨.hbm, 142, rfl⟩
abbrev main_v74 : Ref sig .tc := ⟨.hbm, 143, rfl⟩
abbrev main_v75 : Ref sig .tc := ⟨.hbm, 144, rfl⟩
abbrev main_cst_8 : Ref sig .tc := ⟨.hbm, 145, rfl⟩
abbrev main_v76 : Ref sig .tc := ⟨.hbm, 146, rfl⟩
abbrev main_v77 : Ref sig .tc := ⟨.hbm, 147, rfl⟩
abbrev main_v78 : Ref sig .tc := ⟨.hbm, 148, rfl⟩
abbrev main_v79 : Ref sig .tc := ⟨.hbm, 149, rfl⟩
abbrev main_v80 : Ref sig .tc := ⟨.hbm, 150, rfl⟩
abbrev main_v81 : Ref sig .tc := ⟨.hbm, 151, rfl⟩
abbrev main_v82 : Ref sig .tc := ⟨.hbm, 152, rfl⟩
abbrev main_v83 : Ref sig .tc := ⟨.hbm, 153, rfl⟩
abbrev main_v84 : Ref sig .tc := ⟨.hbm, 154, rfl⟩
abbrev main_call3_cst : Ref sig .tc := ⟨.hbm, 155, rfl⟩
abbrev main_call3_v0 : Ref sig .tc := ⟨.hbm, 156, rfl⟩
abbrev main_v85 : Ref sig .tc := ⟨.hbm, 157, rfl⟩
abbrev main_call4_cst : Ref sig .tc := ⟨.hbm, 158, rfl⟩
abbrev main_call4_v0 : Ref sig .tc := ⟨.hbm, 159, rfl⟩
abbrev main_v86 : Ref sig .tc := ⟨.hbm, 160, rfl⟩
abbrev main_c_9 : Ref sig .tc := ⟨.hbm, 161, rfl⟩
abbrev main_v87 : Ref sig .tc := ⟨.hbm, 162, rfl⟩
abbrev main_v88 : Ref sig .tc := ⟨.hbm, 163, rfl⟩
abbrev main_c_10 : Ref sig .tc := ⟨.hbm, 164, rfl⟩
abbrev main_v89 : Ref sig .tc := ⟨.hbm, 165, rfl⟩
abbrev main_v90 : Ref sig .tc := ⟨.hbm, 166, rfl⟩
abbrev main_v91 : Ref sig .tc := ⟨.hbm, 167, rfl⟩
abbrev main_v92 : Ref sig .tc := ⟨.hbm, 168, rfl⟩
abbrev main_v93 : Ref sig .tc := ⟨.hbm, 169, rfl⟩
abbrev main_cst_11 : Ref sig .tc := ⟨.hbm, 170, rfl⟩
abbrev main_v94 : Ref sig .tc := ⟨.hbm, 171, rfl⟩
abbrev main_v95 : Ref sig .tc := ⟨.hbm, 172, rfl⟩
abbrev main_v96 : Ref sig .tc := ⟨.hbm, 173, rfl⟩
abbrev main_v97 : Ref sig .tc := ⟨.hbm, 174, rfl⟩
abbrev main_v98 : Ref sig .tc := ⟨.hbm, 175, rfl⟩
abbrev main_v99 : Ref sig .tc := ⟨.hbm, 176, rfl⟩
abbrev main_v100 : Ref sig .tc := ⟨.hbm, 177, rfl⟩
abbrev main_v101 : Ref sig .tc := ⟨.hbm, 178, rfl⟩
abbrev main_v102 : Ref sig .tc := ⟨.hbm, 179, rfl⟩
abbrev main_v103 : Ref sig .tc := ⟨.hbm, 180, rfl⟩
abbrev main_v104 : Ref sig .tc := ⟨.hbm, 181, rfl⟩
abbrev main_v105 : Ref sig .tc := ⟨.hbm, 182, rfl⟩
abbrev main_v106 : Ref sig .tc := ⟨.hbm, 183, rfl⟩
abbrev main_v107 : Ref sig .tc := ⟨.hbm, 184, rfl⟩
abbrev main_v108 : Ref sig .tc := ⟨.hbm, 185, rfl⟩
abbrev main_v109 : Ref sig .tc := ⟨.hbm, 186, rfl⟩
abbrev main_v110 : Ref sig .tc := ⟨.hbm, 187, rfl⟩
abbrev main_cst_12 : Ref sig .tc := ⟨.hbm, 188, rfl⟩
abbrev main_v111 : Ref sig .tc := ⟨.hbm, 189, rfl⟩
abbrev main_cst_13 : Ref sig .tc := ⟨.hbm, 190, rfl⟩
abbrev main_v112 : Ref sig .tc := ⟨.hbm, 191, rfl⟩
abbrev main_v113 : Ref sig .tc := ⟨.hbm, 192, rfl⟩
abbrev main_c_14 : Ref sig .tc := ⟨.hbm, 193, rfl⟩
abbrev main_call5_cst : Ref sig .tc := ⟨.hbm, 194, rfl⟩
abbrev main_call5_v0 : Ref sig .tc := ⟨.hbm, 195, rfl⟩
abbrev main_call5_v1 : Ref sig .tc := ⟨.hbm, 196, rfl⟩
abbrev main_call5_cst_0 : Ref sig .tc := ⟨.hbm, 197, rfl⟩
abbrev main_call5_v2 : Ref sig .tc := ⟨.hbm, 198, rfl⟩
abbrev main_call5_v3 : Ref sig .tc := ⟨.hbm, 199, rfl⟩
abbrev main_call5_v4 : Ref sig .tc := ⟨.hbm, 200, rfl⟩
abbrev main_call5_v5 : Ref sig .tc := ⟨.hbm, 201, rfl⟩
abbrev main_call5_v6 : Ref sig .tc := ⟨.hbm, 202, rfl⟩
abbrev main_call5_v7 : Ref sig .tc := ⟨.hbm, 203, rfl⟩
abbrev main_call5_cst_1 : Ref sig .tc := ⟨.hbm, 204, rfl⟩
abbrev main_call5_v8 : Ref sig .tc := ⟨.hbm, 205, rfl⟩
abbrev main_call5_cst_2 : Ref sig .tc := ⟨.hbm, 206, rfl⟩
abbrev main_call5_v9 : Ref sig .tc := ⟨.hbm, 207, rfl⟩
abbrev main_call5_v10 : Ref sig .tc := ⟨.hbm, 208, rfl⟩
abbrev main_call5_v11 : Ref sig .tc := ⟨.hbm, 209, rfl⟩
abbrev main_call5_cst_3 : Ref sig .tc := ⟨.hbm, 210, rfl⟩
abbrev main_call5_v12 : Ref sig .tc := ⟨.hbm, 211, rfl⟩
abbrev main_call5_cst_4 : Ref sig .tc := ⟨.hbm, 212, rfl⟩
abbrev main_call5_call0_v0 : Ref sig .tc := ⟨.hbm, 213, rfl⟩
abbrev main_call5_call0_v1 : Ref sig .tc := ⟨.hbm, 214, rfl⟩
abbrev main_v114 : Ref sig .tc := ⟨.hbm, 215, rfl⟩
abbrev main_v115 : Ref sig .tc := ⟨.hbm, 216, rfl⟩
abbrev main_v116 : Ref sig .tc := ⟨.hbm, 217, rfl⟩
abbrev main_v117 : Ref sig .tc := ⟨.hbm, 218, rfl⟩
abbrev main_v118 : Ref sig .tc := ⟨.hbm, 219, rfl⟩
abbrev main_v119 : Ref sig .tc := ⟨.hbm, 220, rfl⟩
abbrev main_v120 : Ref sig .tc := ⟨.hbm, 221, rfl⟩
abbrev main_cst_15 : Ref sig .tc := ⟨.hbm, 222, rfl⟩
abbrev main_v121 : Ref sig .tc := ⟨.hbm, 223, rfl⟩
abbrev main_v122 : Ref sig .tc := ⟨.hbm, 224, rfl⟩
abbrev main_v123 : Ref sig .tc := ⟨.hbm, 225, rfl⟩
abbrev main_v124 : Ref sig .tc := ⟨.hbm, 226, rfl⟩
abbrev main_v125 : Ref sig .tc := ⟨.hbm, 227, rfl⟩
abbrev main_v126 : Ref sig .tc := ⟨.hbm, 228, rfl⟩
abbrev main_v127 : Ref sig .tc := ⟨.hbm, 229, rfl⟩
abbrev main_v128 : Ref sig .tc := ⟨.hbm, 230, rfl⟩
abbrev main_v129 : Ref sig .tc := ⟨.hbm, 231, rfl⟩
abbrev main_call6_cst : Ref sig .tc := ⟨.hbm, 232, rfl⟩
abbrev main_call6_v0 : Ref sig .tc := ⟨.hbm, 233, rfl⟩
abbrev main_v130 : Ref sig .tc := ⟨.hbm, 234, rfl⟩
abbrev main_v131 : Ref sig .tc := ⟨.hbm, 235, rfl⟩
abbrev main_v132 : Ref sig .tc := ⟨.hbm, 236, rfl⟩
abbrev main_v133 : Ref sig .tc := ⟨.hbm, 237, rfl⟩
abbrev main_v134 : Ref sig .tc := ⟨.hbm, 238, rfl⟩
abbrev main_v135 : Ref sig .tc := ⟨.hbm, 239, rfl⟩
abbrev main_v136 : Ref sig .tc := ⟨.hbm, 240, rfl⟩
abbrev main_v137 : Ref sig .tc := ⟨.hbm, 241, rfl⟩
abbrev main_v138 : Ref sig .tc := ⟨.hbm, 242, rfl⟩
abbrev main_v139 : Ref sig .tc := ⟨.hbm, 243, rfl⟩
abbrev main_v140 : Ref sig .tc := ⟨.hbm, 244, rfl⟩
abbrev main_v141 : Ref sig .tc := ⟨.hbm, 245, rfl⟩
abbrev main_v142 : Ref sig .tc := ⟨.hbm, 246, rfl⟩
abbrev main_v143 : Ref sig .tc := ⟨.hbm, 247, rfl⟩
abbrev main_cst_16 : Ref sig .tc := ⟨.hbm, 248, rfl⟩
abbrev main_v144 : Ref sig .tc := ⟨.hbm, 249, rfl⟩
abbrev main_cst_17 : Ref sig .tc := ⟨.hbm, 250, rfl⟩
abbrev main_v145 : Ref sig .tc := ⟨.hbm, 251, rfl⟩
abbrev main_v146 : Ref sig .tc := ⟨.hbm, 252, rfl⟩
abbrev main_c_18 : Ref sig .tc := ⟨.hbm, 253, rfl⟩
abbrev main_call7_cst : Ref sig .tc := ⟨.hbm, 254, rfl⟩
abbrev main_call7_v0 : Ref sig .tc := ⟨.hbm, 255, rfl⟩
abbrev main_call7_v1 : Ref sig .tc := ⟨.hbm, 256, rfl⟩
abbrev main_call7_cst_0 : Ref sig .tc := ⟨.hbm, 257, rfl⟩
abbrev main_call7_v2 : Ref sig .tc := ⟨.hbm, 258, rfl⟩
abbrev main_call7_v3 : Ref sig .tc := ⟨.hbm, 259, rfl⟩
abbrev main_call7_v4 : Ref sig .tc := ⟨.hbm, 260, rfl⟩
abbrev main_call7_v5 : Ref sig .tc := ⟨.hbm, 261, rfl⟩
abbrev main_call7_v6 : Ref sig .tc := ⟨.hbm, 262, rfl⟩
abbrev main_call7_v7 : Ref sig .tc := ⟨.hbm, 263, rfl⟩
abbrev main_call7_cst_1 : Ref sig .tc := ⟨.hbm, 264, rfl⟩
abbrev main_call7_v8 : Ref sig .tc := ⟨.hbm, 265, rfl⟩
abbrev main_call7_cst_2 : Ref sig .tc := ⟨.hbm, 266, rfl⟩
abbrev main_call7_v9 : Ref sig .tc := ⟨.hbm, 267, rfl⟩
abbrev main_call7_v10 : Ref sig .tc := ⟨.hbm, 268, rfl⟩
abbrev main_call7_v11 : Ref sig .tc := ⟨.hbm, 269, rfl⟩
abbrev main_call7_cst_3 : Ref sig .tc := ⟨.hbm, 270, rfl⟩
abbrev main_call7_v12 : Ref sig .tc := ⟨.hbm, 271, rfl⟩
abbrev main_call7_cst_4 : Ref sig .tc := ⟨.hbm, 272, rfl⟩
abbrev main_call7_call0_v0 : Ref sig .tc := ⟨.hbm, 273, rfl⟩
abbrev main_call7_call0_v1 : Ref sig .tc := ⟨.hbm, 274, rfl⟩
abbrev main_v147 : Ref sig .tc := ⟨.hbm, 275, rfl⟩
abbrev main_v148 : Ref sig .tc := ⟨.hbm, 276, rfl⟩
abbrev main_v149 : Ref sig .tc := ⟨.hbm, 277, rfl⟩
abbrev main_v150 : Ref sig .tc := ⟨.hbm, 278, rfl⟩
abbrev main_v151 : Ref sig .tc := ⟨.hbm, 279, rfl⟩
abbrev main_v152 : Ref sig .tc := ⟨.hbm, 280, rfl⟩
abbrev main_v153 : Ref sig .tc := ⟨.hbm, 281, rfl⟩
abbrev main_cst_19 : Ref sig .tc := ⟨.hbm, 282, rfl⟩
abbrev main_v154 : Ref sig .tc := ⟨.hbm, 283, rfl⟩
abbrev main_v155 : Ref sig .tc := ⟨.hbm, 284, rfl⟩
abbrev main_v156 : Ref sig .tc := ⟨.hbm, 285, rfl⟩
abbrev main_v157 : Ref sig .tc := ⟨.hbm, 286, rfl⟩
abbrev main_v158 : Ref sig .tc := ⟨.hbm, 287, rfl⟩
abbrev main_v159 : Ref sig .tc := ⟨.hbm, 288, rfl⟩
abbrev main_v160 : Ref sig .tc := ⟨.hbm, 289, rfl⟩
abbrev main_v161 : Ref sig .tc := ⟨.hbm, 290, rfl⟩
abbrev main_v162 : Ref sig .tc := ⟨.hbm, 291, rfl⟩
abbrev main_call8_cst : Ref sig .tc := ⟨.hbm, 292, rfl⟩
abbrev main_call8_v0 : Ref sig .tc := ⟨.hbm, 293, rfl⟩
abbrev main_v163 : Ref sig .tc := ⟨.hbm, 294, rfl⟩
abbrev main_c_20 : Ref sig .tc := ⟨.hbm, 295, rfl⟩
abbrev main_v164 : Ref sig .tc := ⟨.hbm, 296, rfl⟩
abbrev main_v165 : Ref sig .tc := ⟨.hbm, 297, rfl⟩
abbrev main_c_21 : Ref sig .tc := ⟨.hbm, 298, rfl⟩
abbrev main_v166 : Ref sig .tc := ⟨.hbm, 299, rfl⟩
abbrev main_v167 : Ref sig .tc := ⟨.hbm, 300, rfl⟩
abbrev main_v168 : Ref sig .tc := ⟨.hbm, 301, rfl⟩
abbrev main_v169 : Ref sig .tc := ⟨.hbm, 302, rfl⟩
abbrev main_v170 : Ref sig .tc := ⟨.hbm, 303, rfl⟩
abbrev main_cst_22 : Ref sig .tc := ⟨.hbm, 304, rfl⟩
abbrev main_v171 : Ref sig .tc := ⟨.hbm, 305, rfl⟩
abbrev main_v172 : Ref sig .tc := ⟨.hbm, 306, rfl⟩
abbrev main_v173 : Ref sig .tc := ⟨.hbm, 307, rfl⟩
abbrev main_v174 : Ref sig .tc := ⟨.hbm, 308, rfl⟩
abbrev main_v175 : Ref sig .tc := ⟨.hbm, 309, rfl⟩
abbrev main_v176 : Ref sig .tc := ⟨.hbm, 310, rfl⟩
abbrev main_v177 : Ref sig .tc := ⟨.hbm, 311, rfl⟩
abbrev main_v178 : Ref sig .tc := ⟨.hbm, 312, rfl⟩
abbrev main_v179 : Ref sig .tc := ⟨.hbm, 313, rfl⟩
abbrev main_v180 : Ref sig .tc := ⟨.hbm, 314, rfl⟩
abbrev main_v181 : Ref sig .tc := ⟨.hbm, 315, rfl⟩
abbrev main_v182 : Ref sig .tc := ⟨.hbm, 316, rfl⟩
abbrev main_v183 : Ref sig .tc := ⟨.hbm, 317, rfl⟩
abbrev main_v184 : Ref sig .tc := ⟨.hbm, 318, rfl⟩
abbrev main_v185 : Ref sig .tc := ⟨.hbm, 319, rfl⟩
abbrev main_v186 : Ref sig .tc := ⟨.hbm, 320, rfl⟩
abbrev main_v187 : Ref sig .tc := ⟨.hbm, 321, rfl⟩
abbrev main_cst_23 : Ref sig .tc := ⟨.hbm, 322, rfl⟩
abbrev main_v188 : Ref sig .tc := ⟨.hbm, 323, rfl⟩
abbrev main_cst_24 : Ref sig .tc := ⟨.hbm, 324, rfl⟩
abbrev main_v189 : Ref sig .tc := ⟨.hbm, 325, rfl⟩
abbrev main_v190 : Ref sig .tc := ⟨.hbm, 326, rfl⟩
abbrev main_c_25 : Ref sig .tc := ⟨.hbm, 327, rfl⟩
abbrev main_call9_cst : Ref sig .tc := ⟨.hbm, 328, rfl⟩
abbrev main_call9_v0 : Ref sig .tc := ⟨.hbm, 329, rfl⟩
abbrev main_call9_v1 : Ref sig .tc := ⟨.hbm, 330, rfl⟩
abbrev main_call9_cst_0 : Ref sig .tc := ⟨.hbm, 331, rfl⟩
abbrev main_call9_v2 : Ref sig .tc := ⟨.hbm, 332, rfl⟩
abbrev main_call9_v3 : Ref sig .tc := ⟨.hbm, 333, rfl⟩
abbrev main_call9_v4 : Ref sig .tc := ⟨.hbm, 334, rfl⟩
abbrev main_call9_v5 : Ref sig .tc := ⟨.hbm, 335, rfl⟩
abbrev main_call9_v6 : Ref sig .tc := ⟨.hbm, 336, rfl⟩
abbrev main_call9_v7 : Ref sig .tc := ⟨.hbm, 337, rfl⟩
abbrev main_call9_cst_1 : Ref sig .tc := ⟨.hbm, 338, rfl⟩
abbrev main_call9_v8 : Ref sig .tc := ⟨.hbm, 339, rfl⟩
abbrev main_call9_cst_2 : Ref sig .tc := ⟨.hbm, 340, rfl⟩
abbrev main_call9_v9 : Ref sig .tc := ⟨.hbm, 341, rfl⟩
abbrev main_call9_v10 : Ref sig .tc := ⟨.hbm, 342, rfl⟩
abbrev main_call9_v11 : Ref sig .tc := ⟨.hbm, 343, rfl⟩
abbrev main_call9_cst_3 : Ref sig .tc := ⟨.hbm, 344, rfl⟩
abbrev main_call9_v12 : Ref sig .tc := ⟨.hbm, 345, rfl⟩
abbrev main_call9_cst_4 : Ref sig .tc := ⟨.hbm, 346, rfl⟩
abbrev main_call9_call0_v0 : Ref sig .tc := ⟨.hbm, 347, rfl⟩
abbrev main_call9_call0_v1 : Ref sig .tc := ⟨.hbm, 348, rfl⟩
abbrev main_v191 : Ref sig .tc := ⟨.hbm, 349, rfl⟩
abbrev main_v192 : Ref sig .tc := ⟨.hbm, 350, rfl⟩
abbrev main_v193 : Ref sig .tc := ⟨.hbm, 351, rfl⟩
abbrev main_v194 : Ref sig .tc := ⟨.hbm, 352, rfl⟩
abbrev main_v195 : Ref sig .tc := ⟨.hbm, 353, rfl⟩
abbrev main_v196 : Ref sig .tc := ⟨.hbm, 354, rfl⟩
abbrev main_v197 : Ref sig .tc := ⟨.hbm, 355, rfl⟩
abbrev main_cst_26 : Ref sig .tc := ⟨.hbm, 356, rfl⟩
abbrev main_v198 : Ref sig .tc := ⟨.hbm, 357, rfl⟩
abbrev main_v199 : Ref sig .tc := ⟨.hbm, 358, rfl⟩
abbrev main_v200 : Ref sig .tc := ⟨.hbm, 359, rfl⟩
abbrev main_v201 : Ref sig .tc := ⟨.hbm, 360, rfl⟩
abbrev main_v202 : Ref sig .tc := ⟨.hbm, 361, rfl⟩
abbrev main_v203 : Ref sig .tc := ⟨.hbm, 362, rfl⟩
abbrev main_v204 : Ref sig .tc := ⟨.hbm, 363, rfl⟩
abbrev main_v205 : Ref sig .tc := ⟨.hbm, 364, rfl⟩
abbrev main_v206 : Ref sig .tc := ⟨.hbm, 365, rfl⟩
abbrev main_call10_cst : Ref sig .tc := ⟨.hbm, 366, rfl⟩
abbrev main_call10_v0 : Ref sig .tc := ⟨.hbm, 367, rfl⟩
abbrev main_v207 : Ref sig .tc := ⟨.hbm, 368, rfl⟩
abbrev main_v208 : Ref sig .tc := ⟨.hbm, 369, rfl⟩
abbrev main_v209 : Ref sig .tc := ⟨.hbm, 370, rfl⟩
abbrev main_v210 : Ref sig .tc := ⟨.hbm, 371, rfl⟩
abbrev main_v211 : Ref sig .tc := ⟨.hbm, 372, rfl⟩
abbrev main_v212 : Ref sig .tc := ⟨.hbm, 373, rfl⟩
abbrev main_v213 : Ref sig .tc := ⟨.hbm, 374, rfl⟩
abbrev main_v214 : Ref sig .tc := ⟨.hbm, 375, rfl⟩
abbrev main_v215 : Ref sig .tc := ⟨.hbm, 376, rfl⟩
abbrev main_v216 : Ref sig .tc := ⟨.hbm, 377, rfl⟩
abbrev main_v217 : Ref sig .tc := ⟨.hbm, 378, rfl⟩
abbrev main_v218 : Ref sig .tc := ⟨.hbm, 379, rfl⟩
abbrev main_v219 : Ref sig .tc := ⟨.hbm, 380, rfl⟩
abbrev main_v220 : Ref sig .tc := ⟨.hbm, 381, rfl⟩
abbrev main_cst_27 : Ref sig .tc := ⟨.hbm, 382, rfl⟩
abbrev main_v221 : Ref sig .tc := ⟨.hbm, 383, rfl⟩
abbrev main_cst_28 : Ref sig .tc := ⟨.hbm, 384, rfl⟩
abbrev main_v222 : Ref sig .tc := ⟨.hbm, 385, rfl⟩
abbrev main_v223 : Ref sig .tc := ⟨.hbm, 386, rfl⟩
abbrev main_c_29 : Ref sig .tc := ⟨.hbm, 387, rfl⟩
abbrev main_call11_cst : Ref sig .tc := ⟨.hbm, 388, rfl⟩
abbrev main_call11_v0 : Ref sig .tc := ⟨.hbm, 389, rfl⟩
abbrev main_call11_v1 : Ref sig .tc := ⟨.hbm, 390, rfl⟩
abbrev main_call11_cst_0 : Ref sig .tc := ⟨.hbm, 391, rfl⟩
abbrev main_call11_v2 : Ref sig .tc := ⟨.hbm, 392, rfl⟩
abbrev main_call11_v3 : Ref sig .tc := ⟨.hbm, 393, rfl⟩
abbrev main_call11_v4 : Ref sig .tc := ⟨.hbm, 394, rfl⟩
abbrev main_call11_v5 : Ref sig .tc := ⟨.hbm, 395, rfl⟩
abbrev main_call11_v6 : Ref sig .tc := ⟨.hbm, 396, rfl⟩
abbrev main_call11_v7 : Ref sig .tc := ⟨.hbm, 397, rfl⟩
abbrev main_call11_cst_1 : Ref sig .tc := ⟨.hbm, 398, rfl⟩
abbrev main_call11_v8 : Ref sig .tc := ⟨.hbm, 399, rfl⟩
abbrev main_call11_cst_2 : Ref sig .tc := ⟨.hbm, 400, rfl⟩
abbrev main_call11_v9 : Ref sig .tc := ⟨.hbm, 401, rfl⟩
abbrev main_call11_v10 : Ref sig .tc := ⟨.hbm, 402, rfl⟩
abbrev main_call11_v11 : Ref sig .tc := ⟨.hbm, 403, rfl⟩
abbrev main_call11_cst_3 : Ref sig .tc := ⟨.hbm, 404, rfl⟩
abbrev main_call11_v12 : Ref sig .tc := ⟨.hbm, 405, rfl⟩
abbrev main_call11_cst_4 : Ref sig .tc := ⟨.hbm, 406, rfl⟩
abbrev main_call11_call0_v0 : Ref sig .tc := ⟨.hbm, 407, rfl⟩
abbrev main_call11_call0_v1 : Ref sig .tc := ⟨.hbm, 408, rfl⟩
abbrev main_v224 : Ref sig .tc := ⟨.hbm, 409, rfl⟩
abbrev main_v225 : Ref sig .tc := ⟨.hbm, 410, rfl⟩
abbrev main_v226 : Ref sig .tc := ⟨.hbm, 411, rfl⟩
abbrev main_v227 : Ref sig .tc := ⟨.hbm, 412, rfl⟩
abbrev main_v228 : Ref sig .tc := ⟨.hbm, 413, rfl⟩
abbrev main_v229 : Ref sig .tc := ⟨.hbm, 414, rfl⟩
abbrev main_v230 : Ref sig .tc := ⟨.hbm, 415, rfl⟩
abbrev main_cst_30 : Ref sig .tc := ⟨.hbm, 416, rfl⟩
abbrev main_v231 : Ref sig .tc := ⟨.hbm, 417, rfl⟩
abbrev main_v232 : Ref sig .tc := ⟨.hbm, 418, rfl⟩
abbrev main_v233 : Ref sig .tc := ⟨.hbm, 419, rfl⟩
abbrev main_v234 : Ref sig .tc := ⟨.hbm, 420, rfl⟩
abbrev main_v235 : Ref sig .tc := ⟨.hbm, 421, rfl⟩
abbrev main_v236 : Ref sig .tc := ⟨.hbm, 422, rfl⟩
abbrev main_v237 : Ref sig .tc := ⟨.hbm, 423, rfl⟩
abbrev main_v238 : Ref sig .tc := ⟨.hbm, 424, rfl⟩
abbrev main_v239 : Ref sig .tc := ⟨.hbm, 425, rfl⟩
abbrev main_call12_cst : Ref sig .tc := ⟨.hbm, 426, rfl⟩
abbrev main_call12_v0 : Ref sig .tc := ⟨.hbm, 427, rfl⟩
abbrev main_v240 : Ref sig .tc := ⟨.hbm, 428, rfl⟩
abbrev main_c_31 : Ref sig .tc := ⟨.hbm, 429, rfl⟩
abbrev main_v241 : Ref sig .tc := ⟨.hbm, 430, rfl⟩
abbrev main_v242 : Ref sig .tc := ⟨.hbm, 431, rfl⟩
abbrev main_c_32 : Ref sig .tc := ⟨.hbm, 432, rfl⟩
abbrev main_v243 : Ref sig .tc := ⟨.hbm, 433, rfl⟩
abbrev main_v244 : Ref sig .tc := ⟨.hbm, 434, rfl⟩
abbrev main_v245 : Ref sig .tc := ⟨.hbm, 435, rfl⟩
abbrev main_v246 : Ref sig .tc := ⟨.hbm, 436, rfl⟩
abbrev main_v247 : Ref sig .tc := ⟨.hbm, 437, rfl⟩
abbrev main_cst_33 : Ref sig .tc := ⟨.hbm, 438, rfl⟩
abbrev main_v248 : Ref sig .tc := ⟨.hbm, 439, rfl⟩
abbrev main_v249 : Ref sig .tc := ⟨.hbm, 440, rfl⟩
abbrev main_v250 : Ref sig .tc := ⟨.hbm, 441, rfl⟩
abbrev main_v251 : Ref sig .tc := ⟨.hbm, 442, rfl⟩
abbrev main_v252 : Ref sig .tc := ⟨.hbm, 443, rfl⟩
abbrev main_v253 : Ref sig .tc := ⟨.hbm, 444, rfl⟩
abbrev main_v254 : Ref sig .tc := ⟨.hbm, 445, rfl⟩
abbrev main_v255 : Ref sig .tc := ⟨.hbm, 446, rfl⟩
abbrev main_v256 : Ref sig .tc := ⟨.hbm, 447, rfl⟩
abbrev main_v257 : Ref sig .tc := ⟨.hbm, 448, rfl⟩
abbrev main_v258 : Ref sig .tc := ⟨.hbm, 449, rfl⟩
abbrev main_v259 : Ref sig .tc := ⟨.hbm, 450, rfl⟩
abbrev main_v260 : Ref sig .tc := ⟨.hbm, 451, rfl⟩
abbrev main_v261 : Ref sig .tc := ⟨.hbm, 452, rfl⟩
abbrev main_v262 : Ref sig .tc := ⟨.hbm, 453, rfl⟩
abbrev main_v263 : Ref sig .tc := ⟨.hbm, 454, rfl⟩
abbrev main_v264 : Ref sig .tc := ⟨.hbm, 455, rfl⟩
abbrev main_cst_34 : Ref sig .tc := ⟨.hbm, 456, rfl⟩
abbrev main_v265 : Ref sig .tc := ⟨.hbm, 457, rfl⟩
abbrev main_cst_35 : Ref sig .tc := ⟨.hbm, 458, rfl⟩
abbrev main_v266 : Ref sig .tc := ⟨.hbm, 459, rfl⟩
abbrev main_v267 : Ref sig .tc := ⟨.hbm, 460, rfl⟩
abbrev main_c_36 : Ref sig .tc := ⟨.hbm, 461, rfl⟩
abbrev main_call13_cst : Ref sig .tc := ⟨.hbm, 462, rfl⟩
abbrev main_call13_v0 : Ref sig .tc := ⟨.hbm, 463, rfl⟩
abbrev main_call13_v1 : Ref sig .tc := ⟨.hbm, 464, rfl⟩
abbrev main_call13_cst_0 : Ref sig .tc := ⟨.hbm, 465, rfl⟩
abbrev main_call13_v2 : Ref sig .tc := ⟨.hbm, 466, rfl⟩
abbrev main_call13_v3 : Ref sig .tc := ⟨.hbm, 467, rfl⟩
abbrev main_call13_v4 : Ref sig .tc := ⟨.hbm, 468, rfl⟩
abbrev main_call13_v5 : Ref sig .tc := ⟨.hbm, 469, rfl⟩
abbrev main_call13_v6 : Ref sig .tc := ⟨.hbm, 470, rfl⟩
abbrev main_call13_v7 : Ref sig .tc := ⟨.hbm, 471, rfl⟩
abbrev main_call13_cst_1 : Ref sig .tc := ⟨.hbm, 472, rfl⟩
abbrev main_call13_v8 : Ref sig .tc := ⟨.hbm, 473, rfl⟩
abbrev main_call13_cst_2 : Ref sig .tc := ⟨.hbm, 474, rfl⟩
abbrev main_call13_v9 : Ref sig .tc := ⟨.hbm, 475, rfl⟩
abbrev main_call13_v10 : Ref sig .tc := ⟨.hbm, 476, rfl⟩
abbrev main_call13_v11 : Ref sig .tc := ⟨.hbm, 477, rfl⟩
abbrev main_call13_cst_3 : Ref sig .tc := ⟨.hbm, 478, rfl⟩
abbrev main_call13_v12 : Ref sig .tc := ⟨.hbm, 479, rfl⟩
abbrev main_call13_cst_4 : Ref sig .tc := ⟨.hbm, 480, rfl⟩
abbrev main_call13_call0_v0 : Ref sig .tc := ⟨.hbm, 481, rfl⟩
abbrev main_call13_call0_v1 : Ref sig .tc := ⟨.hbm, 482, rfl⟩
abbrev main_v268 : Ref sig .tc := ⟨.hbm, 483, rfl⟩
abbrev main_v269 : Ref sig .tc := ⟨.hbm, 484, rfl⟩
abbrev main_v270 : Ref sig .tc := ⟨.hbm, 485, rfl⟩
abbrev main_v271 : Ref sig .tc := ⟨.hbm, 486, rfl⟩
abbrev main_v272 : Ref sig .tc := ⟨.hbm, 487, rfl⟩
abbrev main_v273 : Ref sig .tc := ⟨.hbm, 488, rfl⟩
abbrev main_v274 : Ref sig .tc := ⟨.hbm, 489, rfl⟩
abbrev main_cst_37 : Ref sig .tc := ⟨.hbm, 490, rfl⟩
abbrev main_v275 : Ref sig .tc := ⟨.hbm, 491, rfl⟩
abbrev main_v276 : Ref sig .tc := ⟨.hbm, 492, rfl⟩
abbrev main_v277 : Ref sig .tc := ⟨.hbm, 493, rfl⟩
abbrev main_v278 : Ref sig .tc := ⟨.hbm, 494, rfl⟩
abbrev main_v279 : Ref sig .tc := ⟨.hbm, 495, rfl⟩
abbrev main_v280 : Ref sig .tc := ⟨.hbm, 496, rfl⟩
abbrev main_v281 : Ref sig .tc := ⟨.hbm, 497, rfl⟩
abbrev main_v282 : Ref sig .tc := ⟨.hbm, 498, rfl⟩
abbrev main_v283 : Ref sig .tc := ⟨.hbm, 499, rfl⟩
abbrev main_call14_cst : Ref sig .tc := ⟨.hbm, 500, rfl⟩
abbrev main_call14_v0 : Ref sig .tc := ⟨.hbm, 501, rfl⟩
abbrev main_v284 : Ref sig .tc := ⟨.hbm, 502, rfl⟩
abbrev main_v285 : Ref sig .tc := ⟨.hbm, 503, rfl⟩
abbrev main_v286 : Ref sig .tc := ⟨.hbm, 504, rfl⟩
abbrev main_v287 : Ref sig .tc := ⟨.hbm, 505, rfl⟩
abbrev main_v288 : Ref sig .tc := ⟨.hbm, 506, rfl⟩
abbrev main_v289 : Ref sig .tc := ⟨.hbm, 507, rfl⟩
abbrev main_v290 : Ref sig .tc := ⟨.hbm, 508, rfl⟩
abbrev main_v291 : Ref sig .tc := ⟨.hbm, 509, rfl⟩
abbrev main_v292 : Ref sig .tc := ⟨.hbm, 510, rfl⟩
abbrev main_v293 : Ref sig .tc := ⟨.hbm, 511, rfl⟩
abbrev main_v294 : Ref sig .tc := ⟨.hbm, 512, rfl⟩
abbrev main_v295 : Ref sig .tc := ⟨.hbm, 513, rfl⟩
abbrev main_v296 : Ref sig .tc := ⟨.hbm, 514, rfl⟩
abbrev main_v297 : Ref sig .tc := ⟨.hbm, 515, rfl⟩
abbrev main_cst_38 : Ref sig .tc := ⟨.hbm, 516, rfl⟩
abbrev main_v298 : Ref sig .tc := ⟨.hbm, 517, rfl⟩
abbrev main_cst_39 : Ref sig .tc := ⟨.hbm, 518, rfl⟩
abbrev main_v299 : Ref sig .tc := ⟨.hbm, 519, rfl⟩
abbrev main_v300 : Ref sig .tc := ⟨.hbm, 520, rfl⟩
abbrev main_c_40 : Ref sig .tc := ⟨.hbm, 521, rfl⟩
abbrev main_call15_cst : Ref sig .tc := ⟨.hbm, 522, rfl⟩
abbrev main_call15_v0 : Ref sig .tc := ⟨.hbm, 523, rfl⟩
abbrev main_call15_v1 : Ref sig .tc := ⟨.hbm, 524, rfl⟩
abbrev main_call15_cst_0 : Ref sig .tc := ⟨.hbm, 525, rfl⟩
abbrev main_call15_v2 : Ref sig .tc := ⟨.hbm, 526, rfl⟩
abbrev main_call15_v3 : Ref sig .tc := ⟨.hbm, 527, rfl⟩
abbrev main_call15_v4 : Ref sig .tc := ⟨.hbm, 528, rfl⟩
abbrev main_call15_v5 : Ref sig .tc := ⟨.hbm, 529, rfl⟩
abbrev main_call15_v6 : Ref sig .tc := ⟨.hbm, 530, rfl⟩
abbrev main_call15_v7 : Ref sig .tc := ⟨.hbm, 531, rfl⟩
abbrev main_call15_cst_1 : Ref sig .tc := ⟨.hbm, 532, rfl⟩
abbrev main_call15_v8 : Ref sig .tc := ⟨.hbm, 533, rfl⟩
abbrev main_call15_cst_2 : Ref sig .tc := ⟨.hbm, 534, rfl⟩
abbrev main_call15_v9 : Ref sig .tc := ⟨.hbm, 535, rfl⟩
abbrev main_call15_v10 : Ref sig .tc := ⟨.hbm, 536, rfl⟩
abbrev main_call15_v11 : Ref sig .tc := ⟨.hbm, 537, rfl⟩
abbrev main_call15_cst_3 : Ref sig .tc := ⟨.hbm, 538, rfl⟩
abbrev main_call15_v12 : Ref sig .tc := ⟨.hbm, 539, rfl⟩
abbrev main_call15_cst_4 : Ref sig .tc := ⟨.hbm, 540, rfl⟩
abbrev main_call15_call0_v0 : Ref sig .tc := ⟨.hbm, 541, rfl⟩
abbrev main_call15_call0_v1 : Ref sig .tc := ⟨.hbm, 542, rfl⟩
abbrev main_v301 : Ref sig .tc := ⟨.hbm, 543, rfl⟩
abbrev main_v302 : Ref sig .tc := ⟨.hbm, 544, rfl⟩
abbrev main_v303 : Ref sig .tc := ⟨.hbm, 545, rfl⟩
abbrev main_v304 : Ref sig .tc := ⟨.hbm, 546, rfl⟩
abbrev main_v305 : Ref sig .tc := ⟨.hbm, 547, rfl⟩
abbrev main_v306 : Ref sig .tc := ⟨.hbm, 548, rfl⟩
abbrev main_v307 : Ref sig .tc := ⟨.hbm, 549, rfl⟩
abbrev main_cst_41 : Ref sig .tc := ⟨.hbm, 550, rfl⟩
abbrev main_v308 : Ref sig .tc := ⟨.hbm, 551, rfl⟩
abbrev main_v309 : Ref sig .tc := ⟨.hbm, 552, rfl⟩
abbrev main_v310 : Ref sig .tc := ⟨.hbm, 553, rfl⟩
abbrev main_v311 : Ref sig .tc := ⟨.hbm, 554, rfl⟩
abbrev main_v312 : Ref sig .tc := ⟨.hbm, 555, rfl⟩
abbrev main_v313 : Ref sig .tc := ⟨.hbm, 556, rfl⟩
abbrev main_v314 : Ref sig .tc := ⟨.hbm, 557, rfl⟩
abbrev main_v315 : Ref sig .tc := ⟨.hbm, 558, rfl⟩
abbrev main_v316 : Ref sig .tc := ⟨.hbm, 559, rfl⟩
abbrev main_call16_cst : Ref sig .tc := ⟨.hbm, 560, rfl⟩
abbrev main_call16_v0 : Ref sig .tc := ⟨.hbm, 561, rfl⟩
abbrev main_v317 : Ref sig .tc := ⟨.hbm, 562, rfl⟩
abbrev main_c_42 : Ref sig .tc := ⟨.hbm, 563, rfl⟩
abbrev main_v318 : Ref sig .tc := ⟨.hbm, 564, rfl⟩
abbrev main_v319 : Ref sig .tc := ⟨.hbm, 565, rfl⟩
abbrev main_c_43 : Ref sig .tc := ⟨.hbm, 566, rfl⟩
abbrev main_v320 : Ref sig .tc := ⟨.hbm, 567, rfl⟩
abbrev main_v321 : Ref sig .tc := ⟨.hbm, 568, rfl⟩
abbrev main_v322 : Ref sig .tc := ⟨.hbm, 569, rfl⟩
abbrev main_v323 : Ref sig .tc := ⟨.hbm, 570, rfl⟩
abbrev main_v324 : Ref sig .tc := ⟨.hbm, 571, rfl⟩
abbrev main_v325 : Ref sig .tc := ⟨.hbm, 572, rfl⟩
abbrev main_v326 : Ref sig .tc := ⟨.hbm, 573, rfl⟩
abbrev main_v327 : Ref sig .tc := ⟨.hbm, 574, rfl⟩
abbrev main_v328 : Ref sig .tc := ⟨.hbm, 575, rfl⟩
abbrev main_v329 : Ref sig .tc := ⟨.hbm, 576, rfl⟩

abbrev nD : Nat := 1
abbrev τ : Topo := Topo.v7x

variable {F : FTy → Type} [FloatOps F]

class Facts₀ : Prop where
  slices_S2x625000_S1x625000_0_0 : S2x625000.Slices ![0, 0] S1x625000
  shapeCasts_S1x625000_S625000 : S1x625000.ShapeCasts S625000
  slices_S2x625000_S1x625000_1_0 : S2x625000.Slices ![1, 0] S1x625000
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S625000 : S_.BroadcastsInDim S625000 (![] : Fin 0 → Fin S625000.rank)
  bcast_S625000_S625000x1_0 : S625000.BroadcastsInDim S625000x1 (![0] : Fin 1 → Fin S625000x1.rank)
  bcast_S_S100000x128 : S_.BroadcastsInDim S100000x128 (![] : Fin 0 → Fin S100000x128.rank)
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  bcast_S_S10000 : S_.BroadcastsInDim S10000 (![] : Fin 0 → Fin S10000.rank)
  bcast_S10000_S10000x1_0 : S10000.BroadcastsInDim S10000x1 (![0] : Fin 1 → Fin S10000x1.rank)
  transposes_S10x128_S128x10_1_0 : S10x128.Transposes [1, 0] S128x10
  bcast_S10_S1x10_1 : S10.BroadcastsInDim S1x10 (![1] : Fin 1 → Fin S1x10.rank)
  bcast_S1x10_S10000x10_0_1 : S1x10.BroadcastsInDim S10000x10 (![0, 1] : Fin 2 → Fin S10000x10.rank)
  dot_S100000x128_S128x128_S100000x128_1_0_0_1_n_n_wf : DotDims.WF S100000x128 S128x128 S100000x128 [1] [0] [0] [1] [] []
  gather_S100000x128_S625000x1_S625000x128_1_0_n_n_0_1_1128_wf : GatherDims.WF S100000x128 S625000x1 S625000x128 [1] [0] [] [0] [] 1 ![1, 128]
  scatter_S100000x128_S625000x1_S625000x128_1_0_0_1_wf : ScatterDims.WF S100000x128 S625000x1 S625000x128 [1] [0] [0] 1
  gather_S100000x128_S10000x1_S10000x128_1_0_n_n_0_1_1128_wf : GatherDims.WF S100000x128 S10000x1 S10000x128 [1] [0] [] [0] [] 1 ![1, 128]
  dot_S10000x128_S128x10_S10000x10_1_0_0_1_n_n_wf : DotDims.WF S10000x128 S128x10 S10000x10 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S625000x1_S625000x128_1_0_n_n_0_1_1128 : GatherDims S100000x128 S625000x1 S625000x128 where
  offsetDims := [1]
  collapsedSliceDims := [0]
  operandBatchingDims := []
  startIndicesBatchingDims := []
  startIndexMap := [0]
  indexVectorDim := 1
  sliceSizes := ![1, 128]
  wf := gather_S100000x128_S625000x1_S625000x128_1_0_n_n_0_1_1128_wf
def scatter_S100000x128_S625000x1_S625000x128_1_0_0_1 : ScatterDims S100000x128 S625000x1 S625000x128 where
  updateWindowDims := [1]
  insertedWindowDims := [0]
  scatterDimsToOperandDims := [0]
  indexVectorDim := 1
  wf := scatter_S100000x128_S625000x1_S625000x128_1_0_0_1_wf
def gather_S100000x128_S10000x1_S10000x128_1_0_n_n_0_1_1128 : GatherDims S100000x128 S10000x1 S10000x128 where
  offsetDims := [1]
  collapsedSliceDims := [0]
  operandBatchingDims := []
  startIndicesBatchingDims := []
  startIndexMap := [0]
  indexVectorDim := 1
  sliceSizes := ![1, 128]
  wf := gather_S100000x128_S10000x1_S10000x128_1_0_n_n_0_1_1128_wf
def dot_S10000x128_S128x10_S10000x10_1_0_0_1_n_n : DotDims S10000x128 S128x10 S10000x10 where
  lhsContracting := [1]
  rhsContracting := [0]
  lhsNonContracting := [0]
  rhsNonContracting := [1]
  lhsBatch := []
  rhsBatch := []
  wf := dot_S10000x128_S128x10_S10000x10_1_0_0_1_n_n_wf

class Facts : Prop extends Facts₀ where

variable [Facts]
-- ==== Proof.KRun.lean ====
/-
  The idealized kernel program's run with its RESULT named. Every weakly fair execution of @main terminates without a
  fault; in the final state the result buffer holds what the last boundary of the run's fold through @main holds there
  (thirteen regions among fourteen stretches of host operations: a stretch rewrites the buffers its operations name, a
  region leaves each of its arrays at what its write-backs leave), and the fifteen argument arrays are as launched.
  The launch is the one the frame uses, over the same segments; only what is read off the last thread state differs:
  one more buffer, the result's.
-/
import proofs.«119304_j10247791968545_2_alg».proof.Proof.Gen.KernelIdeal.Frame

set_option maxRecDepth 16384

noncomputable section

namespace Cert.KernelIdeal.HandRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result buffer at the last boundary's contents and the arguments as launched. -/
theorem run_value : θ_run defs (onTc (τ := τ) (main (F := F))) ⟨m, fun _ => 0, ρ⟩ (fun r => ∀ c : Dev nD,
      r.2.mem ((c.tc : Thread nD τ).loc main_v246) = W27 m ρ c (Proc.devRef .tc main_v246)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W27 m ρ c b)
    (hfin := fun c s' => by
      iintro ⟨⟨Hh, -⟩, HSI⟩
      unfold StableHlo.held
      imodintro
      iapply (pointsTo_read_all (Pipeline.ucRefs τ sig) (fun b => (((c : Thread nD τ)).1, b)) (W27 m ρ c) s')
      isplitl [Hh] <;> iassumption)
    (hQ := fun s h c =>
      ⟨h c _ (mem_uc main_v246 (by decide)),
       (h c _ (mem_uc main_arg0 (by decide))).trans (W27_main_arg0 m ρ c),
       (h c _ (mem_uc main_arg1 (by decide))).trans (W27_main_arg1 m ρ c),
       (h c _ (mem_uc main_arg2 (by decide))).trans (W27_main_arg2 m ρ c),
       (h c _ (mem_uc main_arg3 (by decide))).trans (W27_main_arg3 m ρ c),
       (h c _ (mem_uc main_arg4 (by decide))).trans (W27_main_arg4 m ρ c),
       (h c _ (mem_uc main_arg5 (by decide))).trans (W27_main_arg5 m ρ c),
       (h c _ (mem_uc main_arg6 (by decide))).trans (W27_main_arg6 m ρ c),
       (h c _ (mem_uc main_arg7 (by decide))).trans (W27_main_arg7 m ρ c),
       (h c _ (mem_uc main_arg8 (by decide))).trans (W27_main_arg8 m ρ c),
       (h c _ (mem_uc main_arg9 (by decide))).trans (W27_main_arg9 m ρ c),
       (h c _ (mem_uc main_arg10 (by decide))).trans (W27_main_arg10 m ρ c),
       (h c _ (mem_uc main_arg11 (by decide))).trans (W27_main_arg11 m ρ c),
       (h c _ (mem_uc main_arg12 (by decide))).trans (W27_main_arg12 m ρ c),
       (h c _ (mem_uc main_arg13 (by decide))).trans (W27_main_arg13 m ρ c),
       (h c _ (mem_uc main_arg14 (by decide))).trans (W27_main_arg14 m ρ c)⟩)

end Cert.KernelIdeal.HandRun

end
-- ==== Proof.RefRun0.lean ====
/- Window 0 of the reference program's @main (`main_part0`) as a list of host operations, in program order.
   An outlined function's call is replaced by the callee's operations at the call's own buffers (the call record's
   fields), each spelt with the typed-reference builder at the literal buffer, so that the window is one straight
   line: `main_part0 c = seq ops0`. Beside the list: every operation touches TensorCore references only, the list
   of the buffers the window writes, and that a buffer outside that list keeps its contents through the window. -/
import proofs.«119304_j10247791968545_2_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- @main's operations 1 … 83 of 562 (window `main_part0`), a called function's operations in its call's place. -/
abbrev ops0 : List (HloOp τ sig (Elt F)) :=
  [ unary main_arg1 main_v0 ((extractStridedSlice S1x625000 ![0, 0] · slices_S2x625000_S1x625000_0_0) : (⟨S2x625000, .i32⟩ : BufTy).Contents (Elt F) → (⟨S1x625000, .i32⟩ : BufTy).Contents (Elt F)),
    reshape main_v0 main_v1 rfl shapeCasts_S1x625000_S625000,
    unary main_arg1 main_v2 ((extractStridedSlice S1x625000 ![1, 0] · slices_S2x625000_S1x625000_1_0) : (⟨S2x625000, .i32⟩ : BufTy).Contents (Elt F) → (⟨S1x625000, .i32⟩ : BufTy).Contents (Elt F)),
    reshape main_v2 main_v3 rfl shapeCasts_S1x625000_S625000,
    unary main_arg3 main_v4 ((transpose S128x128 [1, 0] · transposes_S128x128_S128x128_1_0) : (⟨S128x128, .f32⟩ : BufTy).Contents (Elt F) → (⟨S128x128, .f32⟩ : BufTy).Contents (Elt F)),
    binary main_arg0 main_v4 main_v5 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg4 main_v6 (broadcastInDim S1x128 ![1] bcast_S128_S1x128_1 : (⟨S128, .f32⟩ : BufTy).Contents (Elt F) → (⟨S1x128, .f32⟩ : BufTy).Contents (Elt F)),
    unary main_v6 main_v7 (broadcastInDim S100000x128 ![0, 1] bcast_S1x128_S100000x128_0_1 : (⟨S1x128, .f32⟩ : BufTy).Contents (Elt F) → (⟨S100000x128, .f32⟩ : BufTy).Contents (Elt F)),
    binary main_v5 main_v7 main_v8 (addf : (⟨S100000x128, .f32⟩ : BufTy).Contents (Elt F) → (⟨S100000x128, .f32⟩ : BufTy).Contents (Elt F) → (⟨S100000x128, .f32⟩ : BufTy).Contents (Elt F)),
    nullary main_c (constantI S_ 32 0#32),
    unary main_c main_v9 (broadcastInDim S625000 ![] bcast_S_S625000 : (⟨S_, .i32⟩ : BufTy).Contents (Elt F) → (⟨S625000, .i32⟩ : BufTy).Contents (Elt F)),
    binary main_v1 main_v9 main_v10 (cmpi .slt : (⟨S625000, .i32⟩ : BufTy).Contents (Elt F) → (⟨S625000, .i32⟩ : BufTy).Contents (Elt F) → (⟨S625000, .i1⟩ : BufTy).Contents (Elt F)),
    nullary main_c_0 (constantI S_ 32 100000#32),
    unary main_c_0 main_v11 (broadcastInDim S625000 ![] bcast_S_S625000 : (⟨S_, .i32⟩ : BufTy).Contents (Elt F) → (⟨S625000, .i32⟩ : BufTy).Contents (Elt F)),
    binary main_v1 main_v11 main_v12 (addi : (⟨S625000, .i32⟩ : BufTy).Contents (Elt F) → (⟨S625000, .i32⟩ : BufTy).Contents (Elt F) → (⟨S625000, .i32⟩ : BufTy).Contents (Elt F)),
    ternary main_v10 main_v12 main_v1 main_v13 (select : (⟨S625000, .i1⟩ : BufTy).Contents (Elt F) → (⟨S625000, .i32⟩ : BufTy).Contents (Elt F) → (⟨S625000, .i32⟩ : BufTy).Contents (Elt F) → (⟨S625000, .i32⟩ : BufTy).Contents (Elt F)),
    unary main_v13 main_v14 (broadcastInDim S625000x1 ![0] bcast_S625000_S625000x1_0 : (⟨S625000, .i32⟩ : BufTy).Contents (Elt F) → (⟨S625000x1, .i32⟩ : BufTy).Contents (Elt F)),
    binary main_v8 main_v14 main_v15 ((fun x i => Host.gather gather_S100000x128_S625000x1_S625000x128_1_0_n_n_0_1_1128 x i) : (⟨S100000x128, .f32⟩ : BufTy).Contents (Elt F) → (⟨S625000x1, .i32⟩ : BufTy).Contents (Elt F) → (⟨S625000x128, .f32⟩ : BufTy).Contents (Elt F)),
    nullary main_cst (constant S_ .f32 0x00000000#32),
    unary main_cst main_v16 (broadcastInDim S100000x128 ![] bcast_S_S100000x128 : (⟨S_, .f32⟩ : BufTy).Contents (Elt F) → (⟨S100000x128, .f32⟩ : BufTy).Contents (Elt F)),
    unary main_v3 main_v17 (broadcastInDim S625000x1 ![0] bcast_S625000_S625000x1_0 : (⟨S625000, .i32⟩ : BufTy).Contents (Elt F) → (⟨S625000x1, .i32⟩ : BufTy).Contents (Elt F)),
    ternary main_v16 main_v17 main_v15 main_v18 ((fun x i u => Host.scatterAdd scatter_S100000x128_S625000x1_S625000x128_1_0_0_1 x i u) : (⟨S100000x128, .f32⟩ : BufTy).Contents (Elt F) → (⟨S625000x1, .i32⟩ : BufTy).Contents (Elt F) → (⟨S625000x128, .f32⟩ : BufTy).Contents (Elt F) → (⟨S100000x128, .f32⟩ : BufTy).Contents (Elt F)),
    binary main_v8 main_v18 main_v19 (addf : (⟨S100000x128, .f32⟩ : BufTy).Contents (Elt F) → (⟨S100000x128, .f32⟩ : BufTy).Contents (Elt F) → (⟨S100000x128, .f32⟩ : BufTy).Contents (Elt F)),
    unary main_arg5 main_v20 ((extractStridedSlice S1x128x128 ![0, 0, 0] · slices_S4x128x128_S1x128x128_0_0_0) : (⟨S4x128x128, .f32⟩ : BufTy).Contents (Elt F) → (⟨S1x128x128, .f32⟩ : BufTy).Contents (Elt F)),
    reshape main_v20 main_v21 rfl shapeCasts_S1x128x128_S128x128,
    unary main_v21 main_v22 ((transpose S128x128 [1, 0] · transposes_S128x128_S128x128_1_0) : (⟨S128x128, .f32⟩ : BufTy).Contents (Elt F) → (⟨S128x128, .f32⟩ : BufTy).Contents (Elt F)),
    binary main_v19 main_v22 main_v23 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg6 main_v24 ((extractStridedSlice S1x128 ![0, 0] · slices_S4x128_S1x128_0_0) : (⟨S4x128, .f32⟩ : BufTy).Contents (Elt F) → (⟨S1x128, .f32⟩ : BufTy).Contents (Elt F)),
    reshape main_v24 main_v25 rfl shapeCasts_S1x128_S128,
    unary main_v25 main_v26 (broadcastInDim S1x128 ![1] bcast_S128_S1x128_1 : (⟨S128, .f32⟩ : BufTy).Contents (Elt F) → (⟨S1x128, .f32⟩ : BufTy).Contents (Elt F)),
    unary main_v26 main_v27 (broadcastInDim S100000x128 ![0, 1] bcast_S1x128_S100000x128_0_1 : (⟨S1x128, .f32⟩ : BufTy).Contents (Elt F) → (⟨S100000x128, .f32⟩ : BufTy).Contents (Elt F)),
    binary main_v23 main_v27 main_v28 (addf : (⟨S100000x128, .f32⟩ : BufTy).Contents (Elt F) → (⟨S100000x128, .f32⟩ : BufTy).Contents (Elt F) → (⟨S100000x128, .f32⟩ : BufTy).Contents (Elt F)),
    unary main_arg7 main_v29 ((extractStridedSlice S1x128 ![0, 0] · slices_S4x128_S1x128_0_0) : (⟨S4x128, .f32⟩ : BufTy).Contents (Elt F) → (⟨S1x128, .f32⟩ : BufTy).Contents (Elt F)),
    reshape main_v29 main_v30 rfl shapeCasts_S1x128_S128,
    unary main_arg8 main_v31 ((extractStridedSlice S1x128 ![0, 0] · slices_S4x128_S1x128_0_0) : (⟨S4x128, .f32⟩ : BufTy).Contents (Elt F) → (⟨S1x128, .f32⟩ : BufTy).Contents (Elt F)),
    reshape main_v31 main_v32 rfl shapeCasts_S1x128_S128,
    nullary main_cst_1 (constant S_ .f32 0x00000000#32),
    binary main_v28 main_cst_1 main_v33 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_2 (constant S_ .f32 0x47C35000#32),
    unary main_cst_2 main_v34 (broadcastInDim S128 ![] bcast_S_S128 : (⟨S_, .f32⟩ : BufTy).Contents (Elt F) → (⟨S128, .f32⟩ : BufTy).Contents (Elt F)),
    binary main_v33 main_v34 main_v35 (Host.divf : (⟨S128, .f32⟩ : BufTy).Contents (Elt F) → (⟨S128, .f32⟩ : BufTy).Contents (Elt F) → (⟨S128, .f32⟩ : BufTy).Contents (Elt F)),
    nullary main_c_3 (constantI S_ 32 0#32),
    TRef.nullary (TRef.of (T := ⟨S_, .f32⟩) main_call0_cst) (constant S_ .f32 0x00000000#32),
    TRef.binary (TRef.of (T := ⟨S100000x128, .f32⟩) main_v28) (TRef.of (T := ⟨S_, .f32⟩) main_call0_cst) (TRef.of (T := ⟨S128, .f32⟩) main_call0_v0) (fun x v => Host.reduceAdd x v reducesTo_S100000x128_S128_d0 h_S_),
    TRef.unary (TRef.of (T := ⟨S128, .f32⟩) main_call0_v0) (TRef.of (T := ⟨S1x128, .f32⟩) main_call0_v1) (broadcastInDim S1x128 ![1] bcast_S128_S1x128_1),
    TRef.nullary (TRef.of (T := ⟨S_, .f32⟩) main_call0_cst_0) (constant S_ .f32 0x47C35000#32),
    TRef.unary (TRef.of (T := ⟨S_, .f32⟩) main_call0_cst_0) (TRef.of (T := ⟨S1x128, .f32⟩) main_call0_v2) (broadcastInDim S1x128 ![] bcast_S_S1x128),
    TRef.binary (TRef.of (T := ⟨S1x128, .f32⟩) main_call0_v1) (TRef.of (T := ⟨S1x128, .f32⟩) main_call0_v2) (TRef.of (T := ⟨S1x128, .f32⟩) main_call0_v3) Host.divf,
    TRef.unary (TRef.of (T := ⟨S1x128, .f32⟩) main_call0_v3) (TRef.of (T := ⟨S100000x128, .f32⟩) main_call0_v4) (broadcastInDim S100000x128 ![0, 1] bcast_S1x128_S100000x128_0_1),
    TRef.binary (TRef.of (T := ⟨S100000x128, .f32⟩) main_v28) (TRef.of (T := ⟨S100000x128, .f32⟩) main_call0_v4) (TRef.of (T := ⟨S100000x128, .f32⟩) main_call0_v5) subf,
    TRef.binary (TRef.of (T := ⟨S100000x128, .f32⟩) main_call0_v5) (TRef.of (T := ⟨S100000x128, .f32⟩) main_call0_v5) (TRef.of (T := ⟨S100000x128, .f32⟩) main_call0_v6) mulf,
    TRef.unary (TRef.of (T := ⟨S_, .i32⟩) main_c_3) (TRef.of (T := ⟨S_, .f32⟩) main_call0_v7) (sitofp .f32),
    TRef.nullary (TRef.of (T := ⟨S_, .f32⟩) main_call0_cst_1) (constant S_ .f32 0x47C35000#32),
    TRef.binary (TRef.of (T := ⟨S_, .f32⟩) main_call0_cst_1) (TRef.of (T := ⟨S_, .f32⟩) main_call0_v7) (TRef.of (T := ⟨S_, .f32⟩) main_call0_v8) subf,
    TRef.nullary (TRef.of (T := ⟨S_, .f32⟩) main_call0_cst_2) (constant S_ .f32 0x00000000#32),
    TRef.binary (TRef.of (T := ⟨S100000x128, .f32⟩) main_call0_v6) (TRef.of (T := ⟨S_, .f32⟩) main_call0_cst_2) (TRef.of (T := ⟨S128, .f32⟩) main_call0_v9) (fun x v => Host.reduceAdd x v reducesTo_S100000x128_S128_d0 h_S_),
    TRef.unary (TRef.of (T := ⟨S_, .f32⟩) main_call0_v8) (TRef.of (T := ⟨S128, .f32⟩) main_call0_v10) (broadcastInDim S128 ![] bcast_S_S128),
    TRef.binary (TRef.of (T := ⟨S128, .f32⟩) main_call0_v9) (TRef.of (T := ⟨S128, .f32⟩) main_call0_v10) (TRef.of (T := ⟨S128, .f32⟩) main_call0_v11) Host.divf,
    TRef.nullary (TRef.of (T := ⟨S_, .f32⟩) main_call0_cst_3) (constant S_ .f32 0x00000000#32),
    TRef.binary (TRef.of (T := ⟨S_, .f32⟩) main_call0_v8) (TRef.of (T := ⟨S_, .f32⟩) main_call0_cst_3) (TRef.of (T := ⟨S_, .i1⟩) main_call0_v12) (cmpf .ogt),
    TRef.nullary (TRef.of (T := ⟨S_, .f32⟩) main_call0_cst_4) (constant S_ .f32 0x7FC00000#32),
    TRef.unary (TRef.of (T := ⟨S_, .f32⟩) main_call0_cst_4) (TRef.of (T := ⟨S_, .f32⟩) main_call0_call0_v0) id,
    TRef.unary (TRef.of (T := ⟨S_, .f32⟩) main_call0_call0_v0) (TRef.of (T := ⟨S128, .f32⟩) main_call0_call0_v1) (broadcastInDim S128 ![] bcast_S_S128),
    TRef.ternary (TRef.of (T := ⟨S_, .i1⟩) main_call0_v12) (TRef.of (T := ⟨S128, .f32⟩) main_call0_v11) (TRef.of (T := ⟨S128, .f32⟩) main_call0_call0_v1) (TRef.of (T := ⟨S128, .f32⟩) main_v36) (fun p a b => select (broadcastInDim S128 ![] bcast_S_S128 p) a b),
    unary main_v35 main_v37 (broadcastInDim S1x128 ![1] bcast_S128_S1x128_1 : (⟨S128, .f32⟩ : BufTy).Contents (Elt F) → (⟨S1x128, .f32⟩ : BufTy).Contents (Elt F)),
    unary main_v37 main_v38 (broadcastInDim S100000x128 ![0, 1] bcast_S1x128_S100000x128_0_1 : (⟨S1x128, .f32⟩ : BufTy).Contents (Elt F) → (⟨S100000x128, .f32⟩ : BufTy).Contents (Elt F)),
    binary main_v28 main_v38 main_v39 (subf : (⟨S100000x128, .f32⟩ : BufTy).Contents (Elt F) → (⟨S100000x128, .f32⟩ : BufTy).Contents (Elt F) → (⟨S100000x128, .f32⟩ : BufTy).Contents (Elt F)),
    unary main_v30 main_v40 (broadcastInDim S1x128 ![1] bcast_S128_S1x128_1 : (⟨S128, .f32⟩ : BufTy).Contents (Elt F) → (⟨S1x128, .f32⟩ : BufTy).Contents (Elt F)),
    unary main_v40 main_v41 (broadcastInDim S100000x128 ![0, 1] bcast_S1x128_S100000x128_0_1 : (⟨S1x128, .f32⟩ : BufTy).Contents (Elt F) → (⟨S100000x128, .f32⟩ : BufTy).Contents (Elt F)),
    binary main_v41 main_v39 main_v42 (mulf : (⟨S100000x128, .f32⟩ : BufTy).Contents (Elt F) → (⟨S100000x128, .f32⟩ : BufTy).Contents (Elt F) → (⟨S100000x128, .f32⟩ : BufTy).Contents (Elt F)),
    nullary main_cst_4 (constant S_ .f32 0x3727C5AC#32),
    unary main_cst_4 main_v43 (broadcastInDim S128 ![] bcast_S_S128 : (⟨S_, .f32⟩ : BufTy).Contents (Elt F) → (⟨S128, .f32⟩ : BufTy).Contents (Elt F)),
    binary main_v36 main_v43 main_v44 (addf : (⟨S128, .f32⟩ : BufTy).Contents (Elt F) → (⟨S128, .f32⟩ : BufTy).Contents (Elt F) → (⟨S128, .f32⟩ : BufTy).Contents (Elt F)),
    unary main_v44 main_v45 (Host.rsqrt : (⟨S128, .f32⟩ : BufTy).Contents (Elt F) → (⟨S128, .f32⟩ : BufTy).Contents (Elt F)),
    unary main_v45 main_v46 (broadcastInDim S1x128 ![1] bcast_S128_S1x128_1 : (⟨S128, .f32⟩ : BufTy).Contents (Elt F) → (⟨S1x128, .f32⟩ : BufTy).Contents (Elt F)),
    unary main_v46 main_v47 (broadcastInDim S100000x128 ![0, 1] bcast_S1x128_S100000x128_0_1 : (⟨S1x128, .f32⟩ : BufTy).Contents (Elt F) → (⟨S100000x128, .f32⟩ : BufTy).Contents (Elt F)),
    binary main_v42 main_v47 main_v48 (mulf : (⟨S100000x128, .f32⟩ : BufTy).Contents (Elt F) → (⟨S100000x128, .f32⟩ : BufTy).Contents (Elt F) → (⟨S100000x128, .f32⟩ : BufTy).Contents (Elt F)),
    unary main_v32 main_v49 (broadcastInDim S1x128 ![1] bcast_S128_S1x128_1 : (⟨S128, .f32⟩ : BufTy).Contents (Elt F) → (⟨S1x128, .f32⟩ : BufTy).Contents (Elt F)),
    unary main_v49 main_v50 (broadcastInDim S100000x128 ![0, 1] bcast_S1x128_S100000x128_0_1 : (⟨S1x128, .f32⟩ : BufTy).Contents (Elt F) → (⟨S100000x128, .f32⟩ : BufTy).Contents (Elt F)),
    binary main_v48 main_v50 main_v51 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v51) (TRef.of (T := ⟨S100000x128, .f32⟩) main_call1_v0) (TRef.of (T := ⟨S100000x128, .f32⟩) main_v52) maximumf ]

set_option maxRecDepth 16384 in
set_option maxHeartbeats 4000000 in
/-- The window is that straight line: the callees' definitions unfold at their calls, the records at their fields. -/
theorem main_part0_eq (c : Dev nD) : main_part0 (F := F) c = seq ops0 := rfl

set_option maxRecDepth 16384 in
/-- Every operation of the window touches TensorCore references only. -/
theorem ops0_sub : (ops0 : List (HloOp τ sig (Elt F))).Forall fun op => op.bufs ⊆ tcRefs τ sig :=
  ⟨unary_bufs_sub .., reshape_bufs_sub .., unary_bufs_sub .., reshape_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., unary_bufs_sub .., reshape_bufs_sub .., unary_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub ..⟩

/-- Every operation of the window determines its results: none leaves a buffer at contents not chosen. -/
theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers the window's operations write, in order. -/
abbrev ops0_W : List (Ref sig .tc) := [main_v0, main_v1, main_v2, main_v3, main_v4, main_v5, main_v6, main_v7, main_v8, main_c, main_v9, main_v10, main_c_0, main_v11, main_v12, main_v13, main_v14, main_v15, main_cst, main_v16, main_v17, main_v18, main_v19, main_v20, main_v21, main_v22, main_v23, main_v24, main_v25, main_v26, main_v27, main_v28, main_v29, main_v30, main_v31, main_v32, main_cst_1, main_v33, main_cst_2, main_v34, main_v35, main_c_3, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v36, main_v37, main_v38, main_v39, main_v40, main_v41, main_v42, main_cst_4, main_v43, main_v44, main_v45, main_v46, main_v47, main_v48, main_v49, main_v50, main_v51, main_call1_cst, main_call1_v0, main_v52]

set_option maxRecDepth 16384 in
set_option maxHeartbeats 4000000 in
/-- Each operation writes exactly its result buffer, which is in the list. -/
theorem ops0_writes : (ops0 : List (HloOp τ sig (Elt F))).Forall fun op => op.writes ⊆ (ops0_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- A buffer the window does not write keeps its contents through it. -/
theorem keep0 (V : Valuation τ sig (Elt F)) (r : Ref sig .tc) (h : r ∉ ops0_W) :
    after ops0 V (Proc.devRef .tc r) = V (Proc.devRef .tc r) :=
  after_of_writes_sub ops0 V ops0_writes h

end Cert.ReferenceIdeal.HandRun

end
-- ==== Proof.RefRun1.lean ====
/- Window 1 of the reference program's @main (`main_part1`) as a list of host operations, in program order.
   An outlined function's call is replaced by the callee's operations at the call's own buffers (the call record's
   fields), each spelt with the typed-reference builder at the literal buffer, so that the window is one straight
   line: `main_part1 c = seq ops1`. Beside the list: every operation touches TensorCore references only, the list
   of the buffers the window writes, and that a buffer outside that list keeps its contents through the window. -/
import proofs.«119304_j10247791968545_2_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- @main's operations 84 … 168 of 562 (window `main_part1`), a called function's operations in its call's place. -/
abbrev ops1 : List (HloOp τ sig (Elt F)) :=
  [ unary main_arg9 main_v53 ((extractStridedSlice S1x128x128 ![0, 0, 0] · slices_S4x128x128_S1x128x128_0_0_0) : (⟨S4x128x128, .f32⟩ : BufTy).Contents (Elt F) → (⟨S1x128x128, .f32⟩ : BufTy).Contents (Elt F)),
    reshape main_v53 main_v54 rfl shapeCasts_S1x128x128_S128x128,
    unary main_v54 main_v55 ((transpose S128x128 [1, 0] · transposes_S128x128_S128x128_1_0) : (⟨S128x128, .f32⟩ : BufTy).Contents (Elt F) → (⟨S128x128, .f32⟩ : BufTy).Contents (Elt F)),
    binary main_v52 main_v55 main_v56 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg10 main_v57 ((extractStridedSlice S1x128 ![0, 0] · slices_S4x128_S1x128_0_0) : (⟨S4x128, .f32⟩ : BufTy).Contents (Elt F) → (⟨S1x128, .f32⟩ : BufTy).Contents (Elt F)),
    reshape main_v57 main_v58 rfl shapeCasts_S1x128_S128,
    unary main_v58 main_v59 (broadcastInDim S1x128 ![1] bcast_S128_S1x128_1 : (⟨S128, .f32⟩ : BufTy).Contents (Elt F) → (⟨S1x128, .f32⟩ : BufTy).Contents (Elt F)),
    unary main_v59 main_v60 (broadcastInDim S100000x128 ![0, 1] bcast_S1x128_S100000x128_0_1 : (⟨S1x128, .f32⟩ : BufTy).Contents (Elt F) → (⟨S100000x128, .f32⟩ : BufTy).Contents (Elt F)),
    binary main_v56 main_v60 main_v61 (addf : (⟨S100000x128, .f32⟩ : BufTy).Contents (Elt F) → (⟨S100000x128, .f32⟩ : BufTy).Contents (Elt F) → (⟨S100000x128, .f32⟩ : BufTy).Contents (Elt F)),
    unary main_arg11 main_v62 ((extractStridedSlice S1x128 ![0, 0] · slices_S4x128_S1x128_0_0) : (⟨S4x128, .f32⟩ : BufTy).Contents (Elt F) → (⟨S1x128, .f32⟩ : BufTy).Contents (Elt F)),
    reshape main_v62 main_v63 rfl shapeCasts_S1x128_S128,
    unary main_arg12 main_v64 ((extractStridedSlice S1x128 ![0, 0] · slices_S4x128_S1x128_0_0) : (⟨S4x128, .f32⟩ : BufTy).Contents (Elt F) → (⟨S1x128, .f32⟩ : BufTy).Contents (Elt F)),
    reshape main_v64 main_v65 rfl shapeCasts_S1x128_S128,
    nullary main_cst_5 (constant S_ .f32 0x00000000#32),
    binary main_v61 main_cst_5 main_v66 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_6 (constant S_ .f32 0x47C35000#32),
    unary main_cst_6 main_v67 (broadcastInDim S128 ![] bcast_S_S128 : (⟨S_, .f32⟩ : BufTy).Contents (Elt F) → (⟨S128, .f32⟩ : BufTy).Contents (Elt F)),
    binary main_v66 main_v67 main_v68 (Host.divf : (⟨S128, .f32⟩ : BufTy).Contents (Elt F) → (⟨S128, .f32⟩ : BufTy).Contents (Elt F) → (⟨S128, .f32⟩ : BufTy).Contents (Elt F)),
    nullary main_c_7 (constantI S_ 32 0#32),
    TRef.nullary (TRef.of (T := ⟨S_, .f32⟩) main_call2_cst) (constant S_ .f32 0x00000000#32),
    TRef.binary (TRef.of (T := ⟨S100000x128, .f32⟩) main_v61) (TRef.of (T := ⟨S_, .f32⟩) main_call2_cst) (TRef.of (T := ⟨S128, .f32⟩) main_call2_v0) (fun x v => Host.reduceAdd x v reducesTo_S100000x128_S128_d0 h_S_),
    TRef.unary (TRef.of (T := ⟨S128, .f32⟩) main_call2_v0) (TRef.of (T := ⟨S1x128, .f32⟩) main_call2_v1) (broadcastInDim S1x128 ![1] bcast_S128_S1x128_1),
    TRef.nullary (TRef.of (T := ⟨S_, .f32⟩) main_call2_cst_0) (constant S_ .f32 0x47C35000#32),
    TRef.unary (TRef.of (T := ⟨S_, .f32⟩) main_call2_cst_0) (TRef.of (T := ⟨S1x128, .f32⟩) main_call2_v2) (broadcastInDim S1x128 ![] bcast_S_S1x128),
    TRef.binary (TRef.of (T := ⟨S1x128, .f32⟩) main_call2_v1) (TRef.of (T := ⟨S1x128, .f32⟩) main_call2_v2) (TRef.of (T := ⟨S1x128, .f32⟩) main_call2_v3) Host.divf,
    TRef.unary (TRef.of (T := ⟨S1x128, .f32⟩) main_call2_v3) (TRef.of (T := ⟨S100000x128, .f32⟩) main_call2_v4) (broadcastInDim S100000x128 ![0, 1] bcast_S1x128_S100000x128_0_1),
    TRef.binary (TRef.of (T := ⟨S100000x128, .f32⟩) main_v61) (TRef.of (T := ⟨S100000x128, .f32⟩) main_call2_v4) (TRef.of (T := ⟨S100000x128, .f32⟩) main_call2_v5) subf,
    TRef.binary (TRef.of (T := ⟨S100000x128, .f32⟩) main_call2_v5) (TRef.of (T := ⟨S100000x128, .f32⟩) main_call2_v5) (TRef.of (T := ⟨S100000x128, .f32⟩) main_call2_v6) mulf,
    TRef.unary (TRef.of (T := ⟨S_, .i32⟩) main_c_7) (TRef.of (T := ⟨S_, .f32⟩) main_call2_v7) (sitofp .f32),
    TRef.nullary (TRef.of (T := ⟨S_, .f32⟩) main_call2_cst_1) (constant S_ .f32 0x47C35000#32),
    TRef.binary (TRef.of (T := ⟨S_, .f32⟩) main_call2_cst_1) (TRef.of (T := ⟨S_, .f32⟩) main_call2_v7) (TRef.of (T := ⟨S_, .f32⟩) main_call2_v8) subf,
    TRef.nullary (TRef.of (T := ⟨S_, .f32⟩) main_call2_cst_2) (constant S_ .f32 0x00000000#32),
    TRef.binary (TRef.of (T := ⟨S100000x128, .f32⟩) main_call2_v6) (TRef.of (T := ⟨S_, .f32⟩) main_call2_cst_2) (TRef.of (T := ⟨S128, .f32⟩) main_call2_v9) (fun x v => Host.reduceAdd x v reducesTo_S100000x128_S128_d0 h_S_),
    TRef.unary (TRef.of (T := ⟨S_, .f32⟩) main_call2_v8) (TRef.of (T := ⟨S128, .f32⟩) main_call2_v10) (broadcastInDim S128 ![] bcast_S_S128),
    TRef.binary (TRef.of (T := ⟨S128, .f32⟩) main_call2_v9) (TRef.of (T := ⟨S128, .f32⟩) main_call2_v10) (TRef.of (T := ⟨S128, .f32⟩) main_call2_v11) Host.divf,
    TRef.nullary (TRef.of (T := ⟨S_, .f32⟩) main_call2_cst_3) (constant S_ .f32 0x00000000#32),
    TRef.binary (TRef.of (T := ⟨S_, .f32⟩) main_call2_v8) (TRef.of (T := ⟨S_, .f32⟩) main_call2_cst_3) (TRef.of (T := ⟨S_, .i1⟩) main_call2_v12) (cmpf .ogt),
    TRef.nullary (TRef.of (T := ⟨S_, .f32⟩) main_call2_cst_4) (constant S_ .f32 0x7FC00000#32),
    TRef.unary (TRef.of (T := ⟨S_, .f32⟩) main_call2_cst_4) (TRef.of (T := ⟨S_, .f32⟩) main_call2_call0_v0) id,
    TRef.unary (TRef.of (T := ⟨S_, .f32⟩) main_call2_call0_v0) (TRef.of (T := ⟨S128, .f32⟩) main_call2_call0_v1) (broadcastInDim S128 ![] bcast_S_S128),
    TRef.ternary (TRef.of (T := ⟨S_, .i1⟩) main_call2_v12) (TRef.of (T := ⟨S128, .f32⟩) main_call2_v11) (TRef.of (T := ⟨S128, .f32⟩) main_call2_call0_v1) (TRef.of (T := ⟨S128, .f32⟩) main_v69) (fun p a b => select (broadcastInDim S128 ![] bcast_S_S128 p) a b),
    unary main_v68 main_v70 (broadcastInDim S1x128 ![1] bcast_S128_S1x128_1 : (⟨S128, .f32⟩ : BufTy).Contents (Elt F) → (⟨S1x128, .f32⟩ : BufTy).Contents (Elt F)),
    unary main_v70 main_v71 (broadcastInDim S100000x128 ![0, 1] bcast_S1x128_S100000x128_0_1 : (⟨S1x128, .f32⟩ : BufTy).Contents (Elt F) → (⟨S100000x128, .f32⟩ : BufTy).Contents (Elt F)),
    binary main_v61 main_v71 main_v72 (subf : (⟨S100000x128, .f32⟩ : BufTy).Contents (Elt F) → (⟨S100000x128, .f32⟩ : BufTy).Contents (Elt F) → (⟨S100000x128, .f32⟩ : BufTy).Contents (Elt F)),
    unary main_v63 main_v73 (broadcastInDim S1x128 ![1] bcast_S128_S1x128_1 : (⟨S128, .f32⟩ : BufTy).Contents (Elt F) → (⟨S1x128, .f32⟩ : BufTy).Contents (Elt F)),
    unary main_v73 main_v74 (broadcastInDim S100000x128 ![0, 1] bcast_S1x128_S100000x128_0_1 : (⟨S1x128, .f32⟩ : BufTy).Contents (Elt F) → (⟨S100000x128, .f32⟩ : BufTy).Contents (Elt F)),
    binary main_v74 main_v72 main_v75 (mulf : (⟨S100000x128, .f32⟩ : BufTy).Contents (Elt F) → (⟨S100000x128, .f32⟩ : BufTy).Contents (Elt F) → (⟨S100000x128, .f32⟩ : BufTy).Contents (Elt F)),
    nullary main_cst_8 (constant S_ .f32 0x3727C5AC#32),
    unary main_cst_8 main_v76 (broadcastInDim S128 ![] bcast_S_S128 : (⟨S_, .f32⟩ : BufTy).Contents (Elt F) → (⟨S128, .f32⟩ : BufTy).Contents (Elt F)),
    binary main_v69 main_v76 main_v77 (addf : (⟨S128, .f32⟩ : BufTy).Contents (Elt F) → (⟨S128, .f32⟩ : BufTy).Contents (Elt F) → (⟨S128, .f32⟩ : BufTy).Contents (Elt F)),
    unary main_v77 main_v78 (Host.rsqrt : (⟨S128, .f32⟩ : BufTy).Contents (Elt F) → (⟨S128, .f32⟩ : BufTy).Contents (Elt F)),
    unary main_v78 main_v79 (broadcastInDim S1x128 ![1] bcast_S128_S1x128_1 : (⟨S128, .f32⟩ : BufTy).Contents (Elt F) → (⟨S1x128, .f32⟩ : BufTy).Contents (Elt F)),
    unary main_v79 main_v80 (broadcastInDim S100000x128 ![0, 1] bcast_S1x128_S100000x128_0_1 : (⟨S1x128, .f32⟩ : BufTy).Contents (Elt F) → (⟨S100000x128, .f32⟩ : BufTy).Contents (Elt F)),
    binary main_v75 main_v80 main_v81 (mulf : (⟨S100000x128, .f32⟩ : BufTy).Contents (Elt F) → (⟨S100000x128, .f32⟩ : BufTy).Contents (Elt F) → (⟨S100000x128, .f32⟩ : BufTy).Contents (Elt F)),
    unary main_v65 main_v82 (broadcastInDim S1x128 ![1] bcast_S128_S1x128_1 : (⟨S128, .f32⟩ : BufTy).Contents (Elt F) → (⟨S1x128, .f32⟩ : BufTy).Contents (Elt F)),
    unary main_v82 main_v83 (broadcastInDim S100000x128 ![0, 1] bcast_S1x128_S100000x128_0_1 : (⟨S1x128, .f32⟩ : BufTy).Contents (Elt F) → (⟨S100000x128, .f32⟩ : BufTy).Contents (Elt F)),
    binary main_v81 main_v83 main_v84 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S100000x128, .f32⟩) main_call3_v0) (broadcastInDim S100000x128 ![] bcast_S_S100000x128),
    TRef.binary (TRef.of (T := ⟨S100000x128, .f32⟩) main_v84) (TRef.of (T := ⟨S100000x128, .f32⟩) main_call3_v0) (TRef.of (T := ⟨S100000x128, .f32⟩) main_v85) maximumf,
    TRef.nullary (TRef.of (T := ⟨S_, .f32⟩) main_call4_cst) (constant S_ .f32 0x00000000#32),
    TRef.unary (TRef.of (T := ⟨S_, .f32⟩) main_call4_cst) (TRef.of (T := ⟨S100000x128, .f32⟩) main_call4_v0) (broadcastInDim S100000x128 ![] bcast_S_S100000x128),
    TRef.binary (TRef.of (T := ⟨S100000x128, .f32⟩) main_v85) (TRef.of (T := ⟨S100000x128, .f32⟩) main_call4_v0) (TRef.of (T := ⟨S100000x128, .f32⟩) main_v86) maximumf,
    nullary main_c_9 (constantI S_ 32 0#32),
    unary main_c_9 main_v87 (broadcastInDim S625000 ![] bcast_S_S625000 : (⟨S_, .i32⟩ : BufTy).Contents (Elt F) → (⟨S625000, .i32⟩ : BufTy).Contents (Elt F)),
    binary main_v1 main_v87 main_v88 (cmpi .slt : (⟨S625000, .i32⟩ : BufTy).Contents (Elt F) → (⟨S625000, .i32⟩ : BufTy).Contents (Elt F) → (⟨S625000, .i1⟩ : BufTy).Contents (Elt F)),
    nullary main_c_10 (constantI S_ 32 100000#32),
    unary main_c_10 main_v89 (broadcastInDim S625000 ![] bcast_S_S625000 : (⟨S_, .i32⟩ : BufTy).Contents (Elt F) → (⟨S625000, .i32⟩ : BufTy).Contents (Elt F)),
    binary main_v1 main_v89 main_v90 (addi : (⟨S625000, .i32⟩ : BufTy).Contents (Elt F) → (⟨S625000, .i32⟩ : BufTy).Contents (Elt F) → (⟨S625000, .i32⟩ : BufTy).Contents (Elt F)),
    ternary main_v88 main_v90 main_v1 main_v91 (select : (⟨S625000, .i1⟩ : BufTy).Contents (Elt F) → (⟨S625000, .i32⟩ : BufTy).Contents (Elt F) → (⟨S625000, .i32⟩ : BufTy).Contents (Elt F) → (⟨S625000, .i32⟩ : BufTy).Contents (Elt F)),
    unary main_v91 main_v92 (broadcastInDim S625000x1 ![0] bcast_S625000_S625000x1_0 : (⟨S625000, .i32⟩ : BufTy).Contents (Elt F) → (⟨S625000x1, .i32⟩ : BufTy).Contents (Elt F)),
    binary main_v86 main_v92 main_v93 ((fun x i => Host.gather gather_S100000x128_S625000x1_S625000x128_1_0_n_n_0_1_1128 x i) : (⟨S100000x128, .f32⟩ : BufTy).Contents (Elt F) → (⟨S625000x1, .i32⟩ : BufTy).Contents (Elt F) → (⟨S625000x128, .f32⟩ : BufTy).Contents (Elt F)),
    nullary main_cst_11 (constant S_ .f32 0x00000000#32),
    unary main_cst_11 main_v94 (broadcastInDim S100000x128 ![] bcast_S_S100000x128 : (⟨S_, .f32⟩ : BufTy).Contents (Elt F) → (⟨S100000x128, .f32⟩ : BufTy).Contents (Elt F)),
    unary main_v3 main_v95 (broadcastInDim S625000x1 ![0] bcast_S625000_S625000x1_0 : (⟨S625000, .i32⟩ : BufTy).Contents (Elt F) → (⟨S625000x1, .i32⟩ : BufTy).Contents (Elt F)),
    ternary main_v94 main_v95 main_v93 main_v96 ((fun x i u => Host.scatterAdd scatter_S100000x128_S625000x1_S625000x128_1_0_0_1 x i u) : (⟨S100000x128, .f32⟩ : BufTy).Contents (Elt F) → (⟨S625000x1, .i32⟩ : BufTy).Contents (Elt F) → (⟨S625000x128, .f32⟩ : BufTy).Contents (Elt F) → (⟨S100000x128, .f32⟩ : BufTy).Contents (Elt F)),
    binary main_v86 main_v96 main_v97 (addf : (⟨S100000x128, .f32⟩ : BufTy).Contents (Elt F) → (⟨S100000x128, .f32⟩ : BufTy).Contents (Elt F) → (⟨S100000x128, .f32⟩ : BufTy).Contents (Elt F)),
    unary main_arg5 main_v98 ((extractStridedSlice S1x128x128 ![1, 0, 0] · slices_S4x128x128_S1x128x128_1_0_0) : (⟨S4x128x128, .f32⟩ : BufTy).Contents (Elt F) → (⟨S1x128x128, .f32⟩ : BufTy).Contents (Elt F)),
    reshape main_v98 main_v99 rfl shapeCasts_S1x128x128_S128x128,
    unary main_v99 main_v100 ((transpose S128x128 [1, 0] · transposes_S128x128_S128x128_1_0) : (⟨S128x128, .f32⟩ : BufTy).Contents (Elt F) → (⟨S128x128, .f32⟩ : BufTy).Contents (Elt F)),
    binary main_v97 main_v100 main_v101 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg6 main_v102 ((extractStridedSlice S1x128 ![1, 0] · slices_S4x128_S1x128_1_0) : (⟨S4x128, .f32⟩ : BufTy).Contents (Elt F) → (⟨S1x128, .f32⟩ : BufTy).Contents (Elt F)),
    reshape main_v102 main_v103 rfl shapeCasts_S1x128_S128,
    unary main_v103 main_v104 (broadcastInDim S1x128 ![1] bcast_S128_S1x128_1 : (⟨S128, .f32⟩ : BufTy).Contents (Elt F) → (⟨S1x128, .f32⟩ : BufTy).Contents (Elt F)),
    unary main_v104 main_v105 (broadcastInDim S100000x128 ![0, 1] bcast_S1x128_S100000x128_0_1 : (⟨S1x128, .f32⟩ : BufTy).Contents (Elt F) → (⟨S100000x128, .f32⟩ : BufTy).Contents (Elt F)) ]

set_option maxRecDepth 16384 in
set_option maxHeartbeats 4000000 in
/-- The window is that straight line: the callees' definitions unfold at their calls, the records at their fields. -/
theorem main_part1_eq (c : Dev nD) : main_part1 (F := F) c = seq ops1 := rfl

set_option maxRecDepth 16384 in
/-- Every operation of the window touches TensorCore references only. -/
theorem ops1_sub : (ops1 : List (HloOp τ sig (Elt F))).Forall fun op => op.bufs ⊆ tcRefs τ sig :=
  ⟨unary_bufs_sub .., reshape_bufs_sub .., unary_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., unary_bufs_sub .., reshape_bufs_sub .., unary_bufs_sub .., binary_bufs_sub .., unary_bufs_sub .., reshape_bufs_sub .., unary_bufs_sub .., unary_bufs_sub ..⟩

/-- Every operation of the window determines its results: none leaves a buffer at contents not chosen. -/
theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers the window's operations write, in order. -/
abbrev ops1_W : List (Ref sig .tc) := [main_v53, main_v54, main_v55, main_v56, main_v57, main_v58, main_v59, main_v60, main_v61, main_v62, main_v63, main_v64, main_v65, main_cst_5, main_v66, main_cst_6, main_v67, main_v68, main_c_7, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v69, main_v70, main_v71, main_v72, main_v73, main_v74, main_v75, main_cst_8, main_v76, main_v77, main_v78, main_v79, main_v80, main_v81, main_v82, main_v83, main_v84, main_call3_cst, main_call3_v0, main_v85, main_call4_cst, main_call4_v0, main_v86, main_c_9, main_v87, main_v88, main_c_10, main_v89, main_v90, main_v91, main_v92, main_v93, main_cst_11, main_v94, main_v95, main_v96, main_v97, main_v98, main_v99, main_v100, main_v101, main_v102, main_v103, main_v104, main_v105]

set_option maxRecDepth 16384 in
set_option maxHeartbeats 4000000 in
/-- Each operation writes exactly its result buffer, which is in the list. -/
theorem ops1_writes : (ops1 : List (HloOp τ sig (Elt F))).Forall fun op => op.writes ⊆ (ops1_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- A buffer the window does not write keeps its contents through it. -/
theorem keep1 (V : Valuation τ sig (Elt F)) (r : Ref sig .tc) (h : r ∉ ops1_W) :
    after ops1 V (Proc.devRef .tc r) = V (Proc.devRef .tc r) :=
  after_of_writes_sub ops1 V ops1_writes h

end Cert.ReferenceIdeal.HandRun

end
-- ==== Proof.RefRun2.lean ====
/- Window 2 of the reference program's @main (`main_part2`) as a list of host operations, in program order.
   An outlined function's call is replaced by the callee's operations at the call's own buffers (the call record's
   fields), each spelt with the typed-reference builder at the literal buffer, so that the window is one straight
   line: `main_part2 c = seq ops2`. Beside the list: every operation touches TensorCore references only, the list
   of the buffers the window writes, and that a buffer outside that list keeps its contents through the window. -/
import proofs.«119304_j10247791968545_2_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- @main's operations 169 … 272 of 562 (window `main_part2`), a called function's operations in its call's place. -/
abbrev ops2 : List (HloOp τ sig (Elt F)) :=
  [ binary main_v101 main_v105 main_v106 (addf : (⟨S100000x128, .f32⟩ : BufTy).Contents (Elt F) → (⟨S100000x128, .f32⟩ : BufTy).Contents (Elt F) → (⟨S100000x128, .f32⟩ : BufTy).Contents (Elt F)),
    unary main_arg7 main_v107 ((extractStridedSlice S1x128 ![1, 0] · slices_S4x128_S1x128_1_0) : (⟨S4x128, .f32⟩ : BufTy).Contents (Elt F) → (⟨S1x128, .f32⟩ : BufTy).Contents (Elt F)),
    reshape main_v107 main_v108 rfl shapeCasts_S1x128_S128,
    unary main_arg8 main_v109 ((extractStridedSlice S1x128 ![1, 0] · slices_S4x128_S1x128_1_0) : (⟨S4x128, .f32⟩ : BufTy).Contents (Elt F) → (⟨S1x128, .f32⟩ : BufTy).Contents (Elt F)),
    reshape main_v109 main_v110 rfl shapeCasts_S1x128_S128,
    nullary main_cst_12 (constant S_ .f32 0x00000000#32),
    binary main_v106 main_cst_12 main_v111 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_13 (constant S_ .f32 0x47C35000#32),
    unary main_cst_13 main_v112 (broadcastInDim S128 ![] bcast_S_S128 : (⟨S_, .f32⟩ : BufTy).Contents (Elt F) → (⟨S128, .f32⟩ : BufTy).Contents (Elt F)),
    binary main_v111 main_v112 main_v113 (Host.divf : (⟨S128, .f32⟩ : BufTy).Contents (Elt F) → (⟨S128, .f32⟩ : BufTy).Contents (Elt F) → (⟨S128, .f32⟩ : BufTy).Contents (Elt F)),
    nullary main_c_14 (constantI S_ 32 0#32),
    TRef.nullary (TRef.of (T := ⟨S_, .f32⟩) main_call5_cst) (constant S_ .f32 0x00000000#32),
    TRef.binary (TRef.of (T := ⟨S100000x128, .f32⟩) main_v106) (TRef.of (T := ⟨S_, .f32⟩) main_call5_cst) (TRef.of (T := ⟨S128, .f32⟩) main_call5_v0) (fun x v => Host.reduceAdd x v reducesTo_S100000x128_S128_d0 h_S_),
    TRef.unary (TRef.of (T := ⟨S128, .f32⟩) main_call5_v0) (TRef.of (T := ⟨S1x128, .f32⟩) main_call5_v1) (broadcastInDim S1x128 ![1] bcast_S128_S1x128_1),
    TRef.nullary (TRef.of (T := ⟨S_, .f32⟩) main_call5_cst_0) (constant S_ .f32 0x47C35000#32),
    TRef.unary (TRef.of (T := ⟨S_, .f32⟩) main_call5_cst_0) (TRef.of (T := ⟨S1x128, .f32⟩) main_call5_v2) (broadcastInDim S1x128 ![] bcast_S_S1x128),
    TRef.binary (TRef.of (T := ⟨S1x128, .f32⟩) main_call5_v1) (TRef.of (T := ⟨S1x128, .f32⟩) main_call5_v2) (TRef.of (T := ⟨S1x128, .f32⟩) main_call5_v3) Host.divf,
    TRef.unary (TRef.of (T := ⟨S1x128, .f32⟩) main_call5_v3) (TRef.of (T := ⟨S100000x128, .f32⟩) main_call5_v4) (broadcastInDim S100000x128 ![0, 1] bcast_S1x128_S100000x128_0_1),
    TRef.binary (TRef.of (T := ⟨S100000x128, .f32⟩) main_v106) (TRef.of (T := ⟨S100000x128, .f32⟩) main_call5_v4) (TRef.of (T := ⟨S100000x128, .f32⟩) main_call5_v5) subf,
    TRef.binary (TRef.of (T := ⟨S100000x128, .f32⟩) main_call5_v5) (TRef.of (T := ⟨S100000x128, .f32⟩) main_call5_v5) (TRef.of (T := ⟨S100000x128, .f32⟩) main_call5_v6) mulf,
    TRef.unary (TRef.of (T := ⟨S_, .i32⟩) main_c_14) (TRef.of (T := ⟨S_, .f32⟩) main_call5_v7) (sitofp .f32),
    TRef.nullary (TRef.of (T := ⟨S_, .f32⟩) main_call5_cst_1) (constant S_ .f32 0x47C35000#32),
    TRef.binary (TRef.of (T := ⟨S_, .f32⟩) main_call5_cst_1) (TRef.of (T := ⟨S_, .f32⟩) main_call5_v7) (TRef.of (T := ⟨S_, .f32⟩) main_call5_v8) subf,
    TRef.nullary (TRef.of (T := ⟨S_, .f32⟩) main_call5_cst_2) (constant S_ .f32 0x00000000#32),
    TRef.binary (TRef.of (T := ⟨S100000x128, .f32⟩) main_call5_v6) (TRef.of (T := ⟨S_, .f32⟩) main_call5_cst_2) (TRef.of (T := ⟨S128, .f32⟩) main_call5_v9) (fun x v => Host.reduceAdd x v reducesTo_S100000x128_S128_d0 h_S_),
    TRef.unary (TRef.of (T := ⟨S_, .f32⟩) main_call5_v8) (TRef.of (T := ⟨S128, .f32⟩) main_call5_v10) (broadcastInDim S128 ![] bcast_S_S128),
    TRef.binary (TRef.of (T := ⟨S128, .f32⟩) main_call5_v9) (TRef.of (T := ⟨S128, .f32⟩) main_call5_v10) (TRef.of (T := ⟨S128, .f32⟩) main_call5_v11) Host.divf,
    TRef.nullary (TRef.of (T := ⟨S_, .f32⟩) main_call5_cst_3) (constant S_ .f32 0x00000000#32),
    TRef.binary (TRef.of (T := ⟨S_, .f32⟩) main_call5_v8) (TRef.of (T := ⟨S_, .f32⟩) main_call5_cst_3) (TRef.of (T := ⟨S_, .i1⟩) main_call5_v12) (cmpf .ogt),
    TRef.nullary (TRef.of (T := ⟨S_, .f32⟩) main_call5_cst_4) (constant S_ .f32 0x7FC00000#32),
    TRef.unary (TRef.of (T := ⟨S_, .f32⟩) main_call5_cst_4) (TRef.of (T := ⟨S_, .f32⟩) main_call5_call0_v0) id,
    TRef.unary (TRef.of (T := ⟨S_, .f32⟩) main_call5_call0_v0) (TRef.of (T := ⟨S128, .f32⟩) main_call5_call0_v1) (broadcastInDim S128 ![] bcast_S_S128),
    TRef.ternary (TRef.of (T := ⟨S_, .i1⟩) main_call5_v12) (TRef.of (T := ⟨S128, .f32⟩) main_call5_v11) (TRef.of (T := ⟨S128, .f32⟩) main_call5_call0_v1) (TRef.of (T := ⟨S128, .f32⟩) main_v114) (fun p a b => select (broadcastInDim S128 ![] bcast_S_S128 p) a b),
    unary main_v113 main_v115 (broadcastInDim S1x128 ![1] bcast_S128_S1x128_1 : (⟨S128, .f32⟩ : BufTy).Contents (Elt F) → (⟨S1x128, .f32⟩ : BufTy).Contents (Elt F)),
    unary main_v115 main_v116 (broadcastInDim S100000x128 ![0, 1] bcast_S1x128_S100000x128_0_1 : (⟨S1x128, .f32⟩ : BufTy).Contents (Elt F) → (⟨S100000x128, .f32⟩ : BufTy).Contents (Elt F)),
    binary main_v106 main_v116 main_v117 (subf : (⟨S100000x128, .f32⟩ : BufTy).Contents (Elt F) → (⟨S100000x128, .f32⟩ : BufTy).Contents (Elt F) → (⟨S100000x128, .f32⟩ : BufTy).Contents (Elt F)),
    unary main_v108 main_v118 (broadcastInDim S1x128 ![1] bcast_S128_S1x128_1 : (⟨S128, .f32⟩ : BufTy).Contents (Elt F) → (⟨S1x128, .f32⟩ : BufTy).Contents (Elt F)),
    unary main_v118 main_v119 (broadcastInDim S100000x128 ![0, 1] bcast_S1x128_S100000x128_0_1 : (⟨S1x128, .f32⟩ : BufTy).Contents (Elt F) → (⟨S100000x128, .f32⟩ : BufTy).Contents (Elt F)),
    binary main_v119 main_v117 main_v120 (mulf : (⟨S100000x128, .f32⟩ : BufTy).Contents (Elt F) → (⟨S100000x128, .f32⟩ : BufTy).Contents (Elt F) → (⟨S100000x128, .f32⟩ : BufTy).Contents (Elt F)),
    nullary main_cst_15 (constant S_ .f32 0x3727C5AC#32),
    unary main_cst_15 main_v121 (broadcastInDim S128 ![] bcast_S_S128 : (⟨S_, .f32⟩ : BufTy).Contents (Elt F) → (⟨S128, .f32⟩ : BufTy).Contents (Elt F)),
    binary main_v114 main_v121 main_v122 (addf : (⟨S128, .f32⟩ : BufTy).Contents (Elt F) → (⟨S128, .f32⟩ : BufTy).Contents (Elt F) → (⟨S128, .f32⟩ : BufTy).Contents (Elt F)),
    unary main_v122 main_v123 (Host.rsqrt : (⟨S128, .f32⟩ : BufTy).Contents (Elt F) → (⟨S128, .f32⟩ : BufTy).Contents (Elt F)),
    unary main_v123 main_v124 (broadcastInDim S1x128 ![1] bcast_S128_S1x128_1 : (⟨S128, .f32⟩ : BufTy).Contents (Elt F) → (⟨S1x128, .f32⟩ : BufTy).Contents (Elt F)),
    unary main_v124 main_v125 (broadcastInDim S100000x128 ![0, 1] bcast_S1x128_S100000x128_0_1 : (⟨S1x128, .f32⟩ : BufTy).Contents (Elt F) → (⟨S100000x128, .f32⟩ : BufTy).Contents (Elt F)),
    binary main_v120 main_v125 main_v126 (mulf : (⟨S100000x128, .f32⟩ : BufTy).Contents (Elt F) → (⟨S100000x128, .f32⟩ : BufTy).Contents (Elt F) → (⟨S100000x128, .f32⟩ : BufTy).Contents (Elt F)),
    unary main_v110 main_v127 (broadcastInDim S1x128 ![1] bcast_S128_S1x128_1 : (⟨S128, .f32⟩ : BufTy).Contents (Elt F) → (⟨S1x128, .f32⟩ : BufTy).Contents (Elt F)),
    unary main_v127 main_v128 (broadcastInDim S100000x128 ![0, 1] bcast_S1x128_S100000x128_0_1 : (⟨S1x128, .f32⟩ : BufTy).Contents (Elt F) → (⟨S100000x128, .f32⟩ : BufTy).Contents (Elt F)),
    binary main_v126 main_v128 main_v129 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S100000x128, .f32⟩) main_call6_v0) (broadcastInDim S100000x128 ![] bcast_S_S100000x128),
    TRef.binary (TRef.of (T := ⟨S100000x128, .f32⟩) main_v129) (TRef.of (T := ⟨S100000x128, .f32⟩) main_call6_v0) (TRef.of (T := ⟨S100000x128, .f32⟩) main_v130) maximumf,
    unary main_arg9 main_v131 ((extractStridedSlice S1x128x128 ![1, 0, 0] · slices_S4x128x128_S1x128x128_1_0_0) : (⟨S4x128x128, .f32⟩ : BufTy).Contents (Elt F) → (⟨S1x128x128, .f32⟩ : BufTy).Contents (Elt F)),
    reshape main_v131 main_v132 rfl shapeCasts_S1x128x128_S128x128,
    unary main_v132 main_v133 ((transpose S128x128 [1, 0] · transposes_S128x128_S128x128_1_0) : (⟨S128x128, .f32⟩ : BufTy).Contents (Elt F) → (⟨S128x128, .f32⟩ : BufTy).Contents (Elt F)),
    binary main_v130 main_v133 main_v134 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg10 main_v135 ((extractStridedSlice S1x128 ![1, 0] · slices_S4x128_S1x128_1_0) : (⟨S4x128, .f32⟩ : BufTy).Contents (Elt F) → (⟨S1x128, .f32⟩ : BufTy).Contents (Elt F)),
    reshape main_v135 main_v136 rfl shapeCasts_S1x128_S128,
    unary main_v136 main_v137 (broadcastInDim S1x128 ![1] bcast_S128_S1x128_1 : (⟨S128, .f32⟩ : BufTy).Contents (Elt F) → (⟨S1x128, .f32⟩ : BufTy).Contents (Elt F)),
    unary main_v137 main_v138 (broadcastInDim S100000x128 ![0, 1] bcast_S1x128_S100000x128_0_1 : (⟨S1x128, .f32⟩ : BufTy).Contents (Elt F) → (⟨S100000x128, .f32⟩ : BufTy).Contents (Elt F)),
    binary main_v134 main_v138 main_v139 (addf : (⟨S100000x128, .f32⟩ : BufTy).Contents (Elt F) → (⟨S100000x128, .f32⟩ : BufTy).Contents (Elt F) → (⟨S100000x128, .f32⟩ : BufTy).Contents (Elt F)),
    unary main_arg11 main_v140 ((extractStridedSlice S1x128 ![1, 0] · slices_S4x128_S1x128_1_0) : (⟨S4x128, .f32⟩ : BufTy).Contents (Elt F) → (⟨S1x128, .f32⟩ : BufTy).Contents (Elt F)),
    reshape main_v140 main_v141 rfl shapeCasts_S1x128_S128,
    unary main_arg12 main_v142 ((extractStridedSlice S1x128 ![1, 0] · slices_S4x128_S1x128_1_0) : (⟨S4x128, .f32⟩ : BufTy).Contents (Elt F) → (⟨S1x128, .f32⟩ : BufTy).Contents (Elt F)),
    reshape main_v142 main_v143 rfl shapeCasts_S1x128_S128,
    nullary main_cst_16 (constant S_ .f32 0x00000000#32),
    binary main_v139 main_cst_16 main_v144 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_17 (constant S_ .f32 0x47C35000#32),
    unary main_cst_17 main_v145 (broadcastInDim S128 ![] bcast_S_S128 : (⟨S_, .f32⟩ : BufTy).Contents (Elt F) → (⟨S128, .f32⟩ : BufTy).Contents (Elt F)),
    binary main_v144 main_v145 main_v146 (Host.divf : (⟨S128, .f32⟩ : BufTy).Contents (Elt F) → (⟨S128, .f32⟩ : BufTy).Contents (Elt F) → (⟨S128, .f32⟩ : BufTy).Contents (Elt F)),
    nullary main_c_18 (constantI S_ 32 0#32),
    TRef.nullary (TRef.of (T := ⟨S_, .f32⟩) main_call7_cst) (constant S_ .f32 0x00000000#32),
    TRef.binary (TRef.of (T := ⟨S100000x128, .f32⟩) main_v139) (TRef.of (T := ⟨S_, .f32⟩) main_call7_cst) (TRef.of (T := ⟨S128, .f32⟩) main_call7_v0) (fun x v => Host.reduceAdd x v reducesTo_S100000x128_S128_d0 h_S_),
    TRef.unary (TRef.of (T := ⟨S128, .f32⟩) main_call7_v0) (TRef.of (T := ⟨S1x128, .f32⟩) main_call7_v1) (broadcastInDim S1x128 ![1] bcast_S128_S1x128_1),
    TRef.nullary (TRef.of (T := ⟨S_, .f32⟩) main_call7_cst_0) (constant S_ .f32 0x47C35000#32),
    TRef.unary (TRef.of (T := ⟨S_, .f32⟩) main_call7_cst_0) (TRef.of (T := ⟨S1x128, .f32⟩) main_call7_v2) (broadcastInDim S1x128 ![] bcast_S_S1x128),
    TRef.binary (TRef.of (T := ⟨S1x128, .f32⟩) main_call7_v1) (TRef.of (T := ⟨S1x128, .f32⟩) main_call7_v2) (TRef.of (T := ⟨S1x128, .f32⟩) main_call7_v3) Host.divf,
    TRef.unary (TRef.of (T := ⟨S1x128, .f32⟩) main_call7_v3) (TRef.of (T := ⟨S100000x128, .f32⟩) main_call7_v4) (broadcastInDim S100000x128 ![0, 1] bcast_S1x128_S100000x128_0_1),
    TRef.binary (TRef.of (T := ⟨S100000x128, .f32⟩) main_v139) (TRef.of (T := ⟨S100000x128, .f32⟩) main_call7_v4) (TRef.of (T := ⟨S100000x128, .f32⟩) main_call7_v5) subf,
    TRef.binary (TRef.of (T := ⟨S100000x128, .f32⟩) main_call7_v5) (TRef.of (T := ⟨S100000x128, .f32⟩) main_call7_v5) (TRef.of (T := ⟨S100000x128, .f32⟩) main_call7_v6) mulf,
    TRef.unary (TRef.of (T := ⟨S_, .i32⟩) main_c_18) (TRef.of (T := ⟨S_, .f32⟩) main_call7_v7) (sitofp .f32),
    TRef.nullary (TRef.of (T := ⟨S_, .f32⟩) main_call7_cst_1) (constant S_ .f32 0x47C35000#32),
    TRef.binary (TRef.of (T := ⟨S_, .f32⟩) main_call7_cst_1) (TRef.of (T := ⟨S_, .f32⟩) main_call7_v7) (TRef.of (T := ⟨S_, .f32⟩) main_call7_v8) subf,
    TRef.nullary (TRef.of (T := ⟨S_, .f32⟩) main_call7_cst_2) (constant S_ .f32 0x00000000#32),
    TRef.binary (TRef.of (T := ⟨S100000x128, .f32⟩) main_call7_v6) (TRef.of (T := ⟨S_, .f32⟩) main_call7_cst_2) (TRef.of (T := ⟨S128, .f32⟩) main_call7_v9) (fun x v => Host.reduceAdd x v reducesTo_S100000x128_S128_d0 h_S_),
    TRef.unary (TRef.of (T := ⟨S_, .f32⟩) main_call7_v8) (TRef.of (T := ⟨S128, .f32⟩) main_call7_v10) (broadcastInDim S128 ![] bcast_S_S128),
    TRef.binary (TRef.of (T := ⟨S128, .f32⟩) main_call7_v9) (TRef.of (T := ⟨S128, .f32⟩) main_call7_v10) (TRef.of (T := ⟨S128, .f32⟩) main_call7_v11) Host.divf,
    TRef.nullary (TRef.of (T := ⟨S_, .f32⟩) main_call7_cst_3) (constant S_ .f32 0x00000000#32),
    TRef.binary (TRef.of (T := ⟨S_, .f32⟩) main_call7_v8) (TRef.of (T := ⟨S_, .f32⟩) main_call7_cst_3) (TRef.of (T := ⟨S_, .i1⟩) main_call7_v12) (cmpf .ogt),
    TRef.nullary (TRef.of (T := ⟨S_, .f32⟩) main_call7_cst_4) (constant S_ .f32 0x7FC00000#32),
    TRef.unary (TRef.of (T := ⟨S_, .f32⟩) main_call7_cst_4) (TRef.of (T := ⟨S_, .f32⟩) main_call7_call0_v0) id,
    TRef.unary (TRef.of (T := ⟨S_, .f32⟩) main_call7_call0_v0) (TRef.of (T := ⟨S128, .f32⟩) main_call7_call0_v1) (broadcastInDim S128 ![] bcast_S_S128),
    TRef.ternary (TRef.of (T := ⟨S_, .i1⟩) main_call7_v12) (TRef.of (T := ⟨S128, .f32⟩) main_call7_v11) (TRef.of (T := ⟨S128, .f32⟩) main_call7_call0_v1) (TRef.of (T := ⟨S128, .f32⟩) main_v147) (fun p a b => select (broadcastInDim S128 ![] bcast_S_S128 p) a b),
    unary main_v146 main_v148 (broadcastInDim S1x128 ![1] bcast_S128_S1x128_1 : (⟨S128, .f32⟩ : BufTy).Contents (Elt F) → (⟨S1x128, .f32⟩ : BufTy).Contents (Elt F)),
    unary main_v148 main_v149 (broadcastInDim S100000x128 ![0, 1] bcast_S1x128_S100000x128_0_1 : (⟨S1x128, .f32⟩ : BufTy).Contents (Elt F) → (⟨S100000x128, .f32⟩ : BufTy).Contents (Elt F)),
    binary main_v139 main_v149 main_v150 (subf : (⟨S100000x128, .f32⟩ : BufTy).Contents (Elt F) → (⟨S100000x128, .f32⟩ : BufTy).Contents (Elt F) → (⟨S100000x128, .f32⟩ : BufTy).Contents (Elt F)),
    unary main_v141 main_v151 (broadcastInDim S1x128 ![1] bcast_S128_S1x128_1 : (⟨S128, .f32⟩ : BufTy).Contents (Elt F) → (⟨S1x128, .f32⟩ : BufTy).Contents (Elt F)),
    unary main_v151 main_v152 (broadcastInDim S100000x128 ![0, 1] bcast_S1x128_S100000x128_0_1 : (⟨S1x128, .f32⟩ : BufTy).Contents (Elt F) → (⟨S100000x128, .f32⟩ : BufTy).Contents (Elt F)),
    binary main_v152 main_v150 main_v153 (mulf : (⟨S100000x128, .f32⟩ : BufTy).Contents (Elt F) → (⟨S100000x128, .f32⟩ : BufTy).Contents (Elt F) → (⟨S100000x128, .f32⟩ : BufTy).Contents (Elt F)),
    nullary main_cst_19 (constant S_ .f32 0x3727C5AC#32),
    unary main_cst_19 main_v154 (broadcastInDim S128 ![] bcast_S_S128 : (⟨S_, .f32⟩ : BufTy).Contents (Elt F) → (⟨S128, .f32⟩ : BufTy).Contents (Elt F)),
    binary main_v147 main_v154 main_v155 (addf : (⟨S128, .f32⟩ : BufTy).Contents (Elt F) → (⟨S128, .f32⟩ : BufTy).Contents (Elt F) → (⟨S128, .f32⟩ : BufTy).Contents (Elt F)),
    unary main_v155 main_v156 (Host.rsqrt : (⟨S128, .f32⟩ : BufTy).Contents (Elt F) → (⟨S128, .f32⟩ : BufTy).Contents (Elt F)),
    unary main_v156 main_v157 (broadcastInDim S1x128 ![1] bcast_S128_S1x128_1 : (⟨S128, .f32⟩ : BufTy).Contents (Elt F) → (⟨S1x128, .f32⟩ : BufTy).Contents (Elt F)) ]

set_option maxRecDepth 16384 in
set_option maxHeartbeats 4000000 in
/-- The window is that straight line: the callees' definitions unfold at their calls, the records at their fields. -/
theorem main_part2_eq (c : Dev nD) : main_part2 (F := F) c = seq ops2 := rfl

set_option maxRecDepth 16384 in
/-- Every operation of the window touches TensorCore references only. -/
theorem ops2_sub : (ops2 : List (HloOp τ sig (Elt F))).Forall fun op => op.bufs ⊆ tcRefs τ sig :=
  ⟨binary_bufs_sub .., unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub .., unary_bufs_sub .., reshape_bufs_sub .., unary_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub ..⟩

/-- Every operation of the window determines its results: none leaves a buffer at contents not chosen. -/
theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers the window's operations write, in order. -/
abbrev ops2_W : List (Ref sig .tc) := [main_v106, main_v107, main_v108, main_v109, main_v110, main_cst_12, main_v111, main_cst_13, main_v112, main_v113, main_c_14, main_call5_cst, main_call5_v0, main_call5_v1, main_call5_cst_0, main_call5_v2, main_call5_v3, main_call5_v4, main_call5_v5, main_call5_v6, main_call5_v7, main_call5_cst_1, main_call5_v8, main_call5_cst_2, main_call5_v9, main_call5_v10, main_call5_v11, main_call5_cst_3, main_call5_v12, main_call5_cst_4, main_call5_call0_v0, main_call5_call0_v1, main_v114, main_v115, main_v116, main_v117, main_v118, main_v119, main_v120, main_cst_15, main_v121, main_v122, main_v123, main_v124, main_v125, main_v126, main_v127, main_v128, main_v129, main_call6_cst, main_call6_v0, main_v130, main_v131, main_v132, main_v133, main_v134, main_v135, main_v136, main_v137, main_v138, main_v139, main_v140, main_v141, main_v142, main_v143, main_cst_16, main_v144, main_cst_17, main_v145, main_v146, main_c_18, main_call7_cst, main_call7_v0, main_call7_v1, main_call7_cst_0, main_call7_v2, main_call7_v3, main_call7_v4, main_call7_v5, main_call7_v6, main_call7_v7, main_call7_cst_1, main_call7_v8, main_call7_cst_2, main_call7_v9, main_call7_v10, main_call7_v11, main_call7_cst_3, main_call7_v12, main_call7_cst_4, main_call7_call0_v0, main_call7_call0_v1, main_v147, main_v148, main_v149, main_v150, main_v151, main_v152, main_v153, main_cst_19, main_v154, main_v155, main_v156, main_v157]

set_option maxRecDepth 16384 in
set_option maxHeartbeats 4000000 in
/-- Each operation writes exactly its result buffer, which is in the list. -/
theorem ops2_writes : (ops2 : List (HloOp τ sig (Elt F))).Forall fun op => op.writes ⊆ (ops2_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- A buffer the window does not write keeps its contents through it. -/
theorem keep2 (V : Valuation τ sig (Elt F)) (r : Ref sig .tc) (h : r ∉ ops2_W) :
    after ops2 V (Proc.devRef .tc r) = V (Proc.devRef .tc r) :=
  after_of_writes_sub ops2 V ops2_writes h

end Cert.ReferenceIdeal.HandRun

end
-- ==== Proof.RefRun3.lean ====
/- Window 3 of the reference program's @main (`main_part3`) as a list of host operations, in program order.
   An outlined function's call is replaced by the callee's operations at the call's own buffers (the call record's
   fields), each spelt with the typed-reference builder at the literal buffer, so that the window is one straight
   line: `main_part3 c = seq ops3`. Beside the list: every operation touches TensorCore references only, the list
   of the buffers the window writes, and that a buffer outside that list keeps its contents through the window. -/
import proofs.«119304_j10247791968545_2_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- @main's operations 273 … 357 of 562 (window `main_part3`), a called function's operations in its call's place. -/
abbrev ops3 : List (HloOp τ sig (Elt F)) :=
  [ unary main_v157 main_v158 (broadcastInDim S100000x128 ![0, 1] bcast_S1x128_S100000x128_0_1 : (⟨S1x128, .f32⟩ : BufTy).Contents (Elt F) → (⟨S100000x128, .f32⟩ : BufTy).Contents (Elt F)),
    binary main_v153 main_v158 main_v159 (mulf : (⟨S100000x128, .f32⟩ : BufTy).Contents (Elt F) → (⟨S100000x128, .f32⟩ : BufTy).Contents (Elt F) → (⟨S100000x128, .f32⟩ : BufTy).Contents (Elt F)),
    unary main_v143 main_v160 (broadcastInDim S1x128 ![1] bcast_S128_S1x128_1 : (⟨S128, .f32⟩ : BufTy).Contents (Elt F) → (⟨S1x128, .f32⟩ : BufTy).Contents (Elt F)),
    unary main_v160 main_v161 (broadcastInDim S100000x128 ![0, 1] bcast_S1x128_S100000x128_0_1 : (⟨S1x128, .f32⟩ : BufTy).Contents (Elt F) → (⟨S100000x128, .f32⟩ : BufTy).Contents (Elt F)),
    binary main_v159 main_v161 main_v162 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call8_cst) (constant S_ .f32 0x00000000#32),
    TRef.unary (TRef.of (T := ⟨S_, .f32⟩) main_call8_cst) (TRef.of (T := ⟨S100000x128, .f32⟩) main_call8_v0) (broadcastInDim S100000x128 ![] bcast_S_S100000x128),
    TRef.binary (TRef.of (T := ⟨S100000x128, .f32⟩) main_v162) (TRef.of (T := ⟨S100000x128, .f32⟩) main_call8_v0) (TRef.of (T := ⟨S100000x128, .f32⟩) main_v163) maximumf,
    nullary main_c_20 (constantI S_ 32 0#32),
    unary main_c_20 main_v164 (broadcastInDim S625000 ![] bcast_S_S625000 : (⟨S_, .i32⟩ : BufTy).Contents (Elt F) → (⟨S625000, .i32⟩ : BufTy).Contents (Elt F)),
    binary main_v1 main_v164 main_v165 (cmpi .slt : (⟨S625000, .i32⟩ : BufTy).Contents (Elt F) → (⟨S625000, .i32⟩ : BufTy).Contents (Elt F) → (⟨S625000, .i1⟩ : BufTy).Contents (Elt F)),
    nullary main_c_21 (constantI S_ 32 100000#32),
    unary main_c_21 main_v166 (broadcastInDim S625000 ![] bcast_S_S625000 : (⟨S_, .i32⟩ : BufTy).Contents (Elt F) → (⟨S625000, .i32⟩ : BufTy).Contents (Elt F)),
    binary main_v1 main_v166 main_v167 (addi : (⟨S625000, .i32⟩ : BufTy).Contents (Elt F) → (⟨S625000, .i32⟩ : BufTy).Contents (Elt F) → (⟨S625000, .i32⟩ : BufTy).Contents (Elt F)),
    ternary main_v165 main_v167 main_v1 main_v168 (select : (⟨S625000, .i1⟩ : BufTy).Contents (Elt F) → (⟨S625000, .i32⟩ : BufTy).Contents (Elt F) → (⟨S625000, .i32⟩ : BufTy).Contents (Elt F) → (⟨S625000, .i32⟩ : BufTy).Contents (Elt F)),
    unary main_v168 main_v169 (broadcastInDim S625000x1 ![0] bcast_S625000_S625000x1_0 : (⟨S625000, .i32⟩ : BufTy).Contents (Elt F) → (⟨S625000x1, .i32⟩ : BufTy).Contents (Elt F)),
    binary main_v163 main_v169 main_v170 ((fun x i => Host.gather gather_S100000x128_S625000x1_S625000x128_1_0_n_n_0_1_1128 x i) : (⟨S100000x128, .f32⟩ : BufTy).Contents (Elt F) → (⟨S625000x1, .i32⟩ : BufTy).Contents (Elt F) → (⟨S625000x128, .f32⟩ : BufTy).Contents (Elt F)),
    nullary main_cst_22 (constant S_ .f32 0x00000000#32),
    unary main_cst_22 main_v171 (broadcastInDim S100000x128 ![] bcast_S_S100000x128 : (⟨S_, .f32⟩ : BufTy).Contents (Elt F) → (⟨S100000x128, .f32⟩ : BufTy).Contents (Elt F)),
    unary main_v3 main_v172 (broadcastInDim S625000x1 ![0] bcast_S625000_S625000x1_0 : (⟨S625000, .i32⟩ : BufTy).Contents (Elt F) → (⟨S625000x1, .i32⟩ : BufTy).Contents (Elt F)),
    ternary main_v171 main_v172 main_v170 main_v173 ((fun x i u => Host.scatterAdd scatter_S100000x128_S625000x1_S625000x128_1_0_0_1 x i u) : (⟨S100000x128, .f32⟩ : BufTy).Contents (Elt F) → (⟨S625000x1, .i32⟩ : BufTy).Contents (Elt F) → (⟨S625000x128, .f32⟩ : BufTy).Contents (Elt F) → (⟨S100000x128, .f32⟩ : BufTy).Contents (Elt F)),
    binary main_v163 main_v173 main_v174 (addf : (⟨S100000x128, .f32⟩ : BufTy).Contents (Elt F) → (⟨S100000x128, .f32⟩ : BufTy).Contents (Elt F) → (⟨S100000x128, .f32⟩ : BufTy).Contents (Elt F)),
    unary main_arg5 main_v175 ((extractStridedSlice S1x128x128 ![2, 0, 0] · slices_S4x128x128_S1x128x128_2_0_0) : (⟨S4x128x128, .f32⟩ : BufTy).Contents (Elt F) → (⟨S1x128x128, .f32⟩ : BufTy).Contents (Elt F)),
    reshape main_v175 main_v176 rfl shapeCasts_S1x128x128_S128x128,
    unary main_v176 main_v177 ((transpose S128x128 [1, 0] · transposes_S128x128_S128x128_1_0) : (⟨S128x128, .f32⟩ : BufTy).Contents (Elt F) → (⟨S128x128, .f32⟩ : BufTy).Contents (Elt F)),
    binary main_v174 main_v177 main_v178 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg6 main_v179 ((extractStridedSlice S1x128 ![2, 0] · slices_S4x128_S1x128_2_0) : (⟨S4x128, .f32⟩ : BufTy).Contents (Elt F) → (⟨S1x128, .f32⟩ : BufTy).Contents (Elt F)),
    reshape main_v179 main_v180 rfl shapeCasts_S1x128_S128,
    unary main_v180 main_v181 (broadcastInDim S1x128 ![1] bcast_S128_S1x128_1 : (⟨S128, .f32⟩ : BufTy).Contents (Elt F) → (⟨S1x128, .f32⟩ : BufTy).Contents (Elt F)),
    unary main_v181 main_v182 (broadcastInDim S100000x128 ![0, 1] bcast_S1x128_S100000x128_0_1 : (⟨S1x128, .f32⟩ : BufTy).Contents (Elt F) → (⟨S100000x128, .f32⟩ : BufTy).Contents (Elt F)),
    binary main_v178 main_v182 main_v183 (addf : (⟨S100000x128, .f32⟩ : BufTy).Contents (Elt F) → (⟨S100000x128, .f32⟩ : BufTy).Contents (Elt F) → (⟨S100000x128, .f32⟩ : BufTy).Contents (Elt F)),
    unary main_arg7 main_v184 ((extractStridedSlice S1x128 ![2, 0] · slices_S4x128_S1x128_2_0) : (⟨S4x128, .f32⟩ : BufTy).Contents (Elt F) → (⟨S1x128, .f32⟩ : BufTy).Contents (Elt F)),
    reshape main_v184 main_v185 rfl shapeCasts_S1x128_S128,
    unary main_arg8 main_v186 ((extractStridedSlice S1x128 ![2, 0] · slices_S4x128_S1x128_2_0) : (⟨S4x128, .f32⟩ : BufTy).Contents (Elt F) → (⟨S1x128, .f32⟩ : BufTy).Contents (Elt F)),
    reshape main_v186 main_v187 rfl shapeCasts_S1x128_S128,
    nullary main_cst_23 (constant S_ .f32 0x00000000#32),
    binary main_v183 main_cst_23 main_v188 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_24 (constant S_ .f32 0x47C35000#32),
    unary main_cst_24 main_v189 (broadcastInDim S128 ![] bcast_S_S128 : (⟨S_, .f32⟩ : BufTy).Contents (Elt F) → (⟨S128, .f32⟩ : BufTy).Contents (Elt F)),
    binary main_v188 main_v189 main_v190 (Host.divf : (⟨S128, .f32⟩ : BufTy).Contents (Elt F) → (⟨S128, .f32⟩ : BufTy).Contents (Elt F) → (⟨S128, .f32⟩ : BufTy).Contents (Elt F)),
    nullary main_c_25 (constantI S_ 32 0#32),
    TRef.nullary (TRef.of (T := ⟨S_, .f32⟩) main_call9_cst) (constant S_ .f32 0x00000000#32),
    TRef.binary (TRef.of (T := ⟨S100000x128, .f32⟩) main_v183) (TRef.of (T := ⟨S_, .f32⟩) main_call9_cst) (TRef.of (T := ⟨S128, .f32⟩) main_call9_v0) (fun x v => Host.reduceAdd x v reducesTo_S100000x128_S128_d0 h_S_),
    TRef.unary (TRef.of (T := ⟨S128, .f32⟩) main_call9_v0) (TRef.of (T := ⟨S1x128, .f32⟩) main_call9_v1) (broadcastInDim S1x128 ![1] bcast_S128_S1x128_1),
    TRef.nullary (TRef.of (T := ⟨S_, .f32⟩) main_call9_cst_0) (constant S_ .f32 0x47C35000#32),
    TRef.unary (TRef.of (T := ⟨S_, .f32⟩) main_call9_cst_0) (TRef.of (T := ⟨S1x128, .f32⟩) main_call9_v2) (broadcastInDim S1x128 ![] bcast_S_S1x128),
    TRef.binary (TRef.of (T := ⟨S1x128, .f32⟩) main_call9_v1) (TRef.of (T := ⟨S1x128, .f32⟩) main_call9_v2) (TRef.of (T := ⟨S1x128, .f32⟩) main_call9_v3) Host.divf,
    TRef.unary (TRef.of (T := ⟨S1x128, .f32⟩) main_call9_v3) (TRef.of (T := ⟨S100000x128, .f32⟩) main_call9_v4) (broadcastInDim S100000x128 ![0, 1] bcast_S1x128_S100000x128_0_1),
    TRef.binary (TRef.of (T := ⟨S100000x128, .f32⟩) main_v183) (TRef.of (T := ⟨S100000x128, .f32⟩) main_call9_v4) (TRef.of (T := ⟨S100000x128, .f32⟩) main_call9_v5) subf,
    TRef.binary (TRef.of (T := ⟨S100000x128, .f32⟩) main_call9_v5) (TRef.of (T := ⟨S100000x128, .f32⟩) main_call9_v5) (TRef.of (T := ⟨S100000x128, .f32⟩) main_call9_v6) mulf,
    TRef.unary (TRef.of (T := ⟨S_, .i32⟩) main_c_25) (TRef.of (T := ⟨S_, .f32⟩) main_call9_v7) (sitofp .f32),
    TRef.nullary (TRef.of (T := ⟨S_, .f32⟩) main_call9_cst_1) (constant S_ .f32 0x47C35000#32),
    TRef.binary (TRef.of (T := ⟨S_, .f32⟩) main_call9_cst_1) (TRef.of (T := ⟨S_, .f32⟩) main_call9_v7) (TRef.of (T := ⟨S_, .f32⟩) main_call9_v8) subf,
    TRef.nullary (TRef.of (T := ⟨S_, .f32⟩) main_call9_cst_2) (constant S_ .f32 0x00000000#32),
    TRef.binary (TRef.of (T := ⟨S100000x128, .f32⟩) main_call9_v6) (TRef.of (T := ⟨S_, .f32⟩) main_call9_cst_2) (TRef.of (T := ⟨S128, .f32⟩) main_call9_v9) (fun x v => Host.reduceAdd x v reducesTo_S100000x128_S128_d0 h_S_),
    TRef.unary (TRef.of (T := ⟨S_, .f32⟩) main_call9_v8) (TRef.of (T := ⟨S128, .f32⟩) main_call9_v10) (broadcastInDim S128 ![] bcast_S_S128),
    TRef.binary (TRef.of (T := ⟨S128, .f32⟩) main_call9_v9) (TRef.of (T := ⟨S128, .f32⟩) main_call9_v10) (TRef.of (T := ⟨S128, .f32⟩) main_call9_v11) Host.divf,
    TRef.nullary (TRef.of (T := ⟨S_, .f32⟩) main_call9_cst_3) (constant S_ .f32 0x00000000#32),
    TRef.binary (TRef.of (T := ⟨S_, .f32⟩) main_call9_v8) (TRef.of (T := ⟨S_, .f32⟩) main_call9_cst_3) (TRef.of (T := ⟨S_, .i1⟩) main_call9_v12) (cmpf .ogt),
    TRef.nullary (TRef.of (T := ⟨S_, .f32⟩) main_call9_cst_4) (constant S_ .f32 0x7FC00000#32),
    TRef.unary (TRef.of (T := ⟨S_, .f32⟩) main_call9_cst_4) (TRef.of (T := ⟨S_, .f32⟩) main_call9_call0_v0) id,
    TRef.unary (TRef.of (T := ⟨S_, .f32⟩) main_call9_call0_v0) (TRef.of (T := ⟨S128, .f32⟩) main_call9_call0_v1) (broadcastInDim S128 ![] bcast_S_S128),
    TRef.ternary (TRef.of (T := ⟨S_, .i1⟩) main_call9_v12) (TRef.of (T := ⟨S128, .f32⟩) main_call9_v11) (TRef.of (T := ⟨S128, .f32⟩) main_call9_call0_v1) (TRef.of (T := ⟨S128, .f32⟩) main_v191) (fun p a b => select (broadcastInDim S128 ![] bcast_S_S128 p) a b),
    unary main_v190 main_v192 (broadcastInDim S1x128 ![1] bcast_S128_S1x128_1 : (⟨S128, .f32⟩ : BufTy).Contents (Elt F) → (⟨S1x128, .f32⟩ : BufTy).Contents (Elt F)),
    unary main_v192 main_v193 (broadcastInDim S100000x128 ![0, 1] bcast_S1x128_S100000x128_0_1 : (⟨S1x128, .f32⟩ : BufTy).Contents (Elt F) → (⟨S100000x128, .f32⟩ : BufTy).Contents (Elt F)),
    binary main_v183 main_v193 main_v194 (subf : (⟨S100000x128, .f32⟩ : BufTy).Contents (Elt F) → (⟨S100000x128, .f32⟩ : BufTy).Contents (Elt F) → (⟨S100000x128, .f32⟩ : BufTy).Contents (Elt F)),
    unary main_v185 main_v195 (broadcastInDim S1x128 ![1] bcast_S128_S1x128_1 : (⟨S128, .f32⟩ : BufTy).Contents (Elt F) → (⟨S1x128, .f32⟩ : BufTy).Contents (Elt F)),
    unary main_v195 main_v196 (broadcastInDim S100000x128 ![0, 1] bcast_S1x128_S100000x128_0_1 : (⟨S1x128, .f32⟩ : BufTy).Contents (Elt F) → (⟨S100000x128, .f32⟩ : BufTy).Contents (Elt F)),
    binary main_v196 main_v194 main_v197 (mulf : (⟨S100000x128, .f32⟩ : BufTy).Contents (Elt F) → (⟨S100000x128, .f32⟩ : BufTy).Contents (Elt F) → (⟨S100000x128, .f32⟩ : BufTy).Contents (Elt F)),
    nullary main_cst_26 (constant S_ .f32 0x3727C5AC#32),
    unary main_cst_26 main_v198 (broadcastInDim S128 ![] bcast_S_S128 : (⟨S_, .f32⟩ : BufTy).Contents (Elt F) → (⟨S128, .f32⟩ : BufTy).Contents (Elt F)),
    binary main_v191 main_v198 main_v199 (addf : (⟨S128, .f32⟩ : BufTy).Contents (Elt F) → (⟨S128, .f32⟩ : BufTy).Contents (Elt F) → (⟨S128, .f32⟩ : BufTy).Contents (Elt F)),
    unary main_v199 main_v200 (Host.rsqrt : (⟨S128, .f32⟩ : BufTy).Contents (Elt F) → (⟨S128, .f32⟩ : BufTy).Contents (Elt F)),
    unary main_v200 main_v201 (broadcastInDim S1x128 ![1] bcast_S128_S1x128_1 : (⟨S128, .f32⟩ : BufTy).Contents (Elt F) → (⟨S1x128, .f32⟩ : BufTy).Contents (Elt F)),
    unary main_v201 main_v202 (broadcastInDim S100000x128 ![0, 1] bcast_S1x128_S100000x128_0_1 : (⟨S1x128, .f32⟩ : BufTy).Contents (Elt F) → (⟨S100000x128, .f32⟩ : BufTy).Contents (Elt F)),
    binary main_v197 main_v202 main_v203 (mulf : (⟨S100000x128, .f32⟩ : BufTy).Contents (Elt F) → (⟨S100000x128, .f32⟩ : BufTy).Contents (Elt F) → (⟨S100000x128, .f32⟩ : BufTy).Contents (Elt F)),
    unary main_v187 main_v204 (broadcastInDim S1x128 ![1] bcast_S128_S1x128_1 : (⟨S128, .f32⟩ : BufTy).Contents (Elt F) → (⟨S1x128, .f32⟩ : BufTy).Contents (Elt F)),
    unary main_v204 main_v205 (broadcastInDim S100000x128 ![0, 1] bcast_S1x128_S100000x128_0_1 : (⟨S1x128, .f32⟩ : BufTy).Contents (Elt F) → (⟨S100000x128, .f32⟩ : BufTy).Contents (Elt F)),
    binary main_v203 main_v205 main_v206 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call10_cst) (constant S_ .f32 0x00000000#32),
    TRef.unary (TRef.of (T := ⟨S_, .f32⟩) main_call10_cst) (TRef.of (T := ⟨S100000x128, .f32⟩) main_call10_v0) (broadcastInDim S100000x128 ![] bcast_S_S100000x128),
    TRef.binary (TRef.of (T := ⟨S100000x128, .f32⟩) main_v206) (TRef.of (T := ⟨S100000x128, .f32⟩) main_call10_v0) (TRef.of (T := ⟨S100000x128, .f32⟩) main_v207) maximumf,
    unary main_arg9 main_v208 ((extractStridedSlice S1x128x128 ![2, 0, 0] · slices_S4x128x128_S1x128x128_2_0_0) : (⟨S4x128x128, .f32⟩ : BufTy).Contents (Elt F) → (⟨S1x128x128, .f32⟩ : BufTy).Contents (Elt F)),
    reshape main_v208 main_v209 rfl shapeCasts_S1x128x128_S128x128,
    unary main_v209 main_v210 ((transpose S128x128 [1, 0] · transposes_S128x128_S128x128_1_0) : (⟨S128x128, .f32⟩ : BufTy).Contents (Elt F) → (⟨S128x128, .f32⟩ : BufTy).Contents (Elt F)) ]

set_option maxRecDepth 16384 in
set_option maxHeartbeats 4000000 in
/-- The window is that straight line: the callees' definitions unfold at their calls, the records at their fields. -/
theorem main_part3_eq (c : Dev nD) : main_part3 (F := F) c = seq ops3 := rfl

set_option maxRecDepth 16384 in
/-- Every operation of the window touches TensorCore references only. -/
theorem ops3_sub : (ops3 : List (HloOp τ sig (Elt F))).Forall fun op => op.bufs ⊆ tcRefs τ sig :=
  ⟨unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., unary_bufs_sub .., reshape_bufs_sub .., unary_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub .., unary_bufs_sub .., reshape_bufs_sub .., unary_bufs_sub ..⟩

/-- Every operation of the window determines its results: none leaves a buffer at contents not chosen. -/
theorem ops3_fresh : (ops3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers the window's operations write, in order. -/
abbrev ops3_W : List (Ref sig .tc) := [main_v158, main_v159, main_v160, main_v161, main_v162, main_call8_cst, main_call8_v0, main_v163, main_c_20, main_v164, main_v165, main_c_21, main_v166, main_v167, main_v168, main_v169, main_v170, main_cst_22, main_v171, main_v172, main_v173, main_v174, main_v175, main_v176, main_v177, main_v178, main_v179, main_v180, main_v181, main_v182, main_v183, main_v184, main_v185, main_v186, main_v187, main_cst_23, main_v188, main_cst_24, main_v189, main_v190, main_c_25, main_call9_cst, main_call9_v0, main_call9_v1, main_call9_cst_0, main_call9_v2, main_call9_v3, main_call9_v4, main_call9_v5, main_call9_v6, main_call9_v7, main_call9_cst_1, main_call9_v8, main_call9_cst_2, main_call9_v9, main_call9_v10, main_call9_v11, main_call9_cst_3, main_call9_v12, main_call9_cst_4, main_call9_call0_v0, main_call9_call0_v1, main_v191, main_v192, main_v193, main_v194, main_v195, main_v196, main_v197, main_cst_26, main_v198, main_v199, main_v200, main_v201, main_v202, main_v203, main_v204, main_v205, main_v206, main_call10_cst, main_call10_v0, main_v207, main_v208, main_v209, main_v210]

set_option maxRecDepth 16384 in
set_option maxHeartbeats 4000000 in
/-- Each operation writes exactly its result buffer, which is in the list. -/
theorem ops3_writes : (ops3 : List (HloOp τ sig (Elt F))).Forall fun op => op.writes ⊆ (ops3_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- A buffer the window does not write keeps its contents through it. -/
theorem keep3 (V : Valuation τ sig (Elt F)) (r : Ref sig .tc) (h : r ∉ ops3_W) :
    after ops3 V (Proc.devRef .tc r) = V (Proc.devRef .tc r) :=
  after_of_writes_sub ops3 V ops3_writes h

end Cert.ReferenceIdeal.HandRun

end
-- ==== Proof.RefRun4.lean ====
/- Window 4 of the reference program's @main (`main_part4`) as a list of host operations, in program order.
   An outlined function's call is replaced by the callee's operations at the call's own buffers (the call record's
   fields), each spelt with the typed-reference builder at the literal buffer, so that the window is one straight
   line: `main_part4 c = seq ops4`. Beside the list: every operation touches TensorCore references only, the list
   of the buffers the window writes, and that a buffer outside that list keeps its contents through the window. -/
import proofs.«119304_j10247791968545_2_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- @main's operations 358 … 440 of 562 (window `main_part4`), a called function's operations in its call's place. -/
abbrev ops4 : List (HloOp τ sig (Elt F)) :=
  [ binary main_v207 main_v210 main_v211 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg10 main_v212 ((extractStridedSlice S1x128 ![2, 0] · slices_S4x128_S1x128_2_0) : (⟨S4x128, .f32⟩ : BufTy).Contents (Elt F) → (⟨S1x128, .f32⟩ : BufTy).Contents (Elt F)),
    reshape main_v212 main_v213 rfl shapeCasts_S1x128_S128,
    unary main_v213 main_v214 (broadcastInDim S1x128 ![1] bcast_S128_S1x128_1 : (⟨S128, .f32⟩ : BufTy).Contents (Elt F) → (⟨S1x128, .f32⟩ : BufTy).Contents (Elt F)),
    unary main_v214 main_v215 (broadcastInDim S100000x128 ![0, 1] bcast_S1x128_S100000x128_0_1 : (⟨S1x128, .f32⟩ : BufTy).Contents (Elt F) → (⟨S100000x128, .f32⟩ : BufTy).Contents (Elt F)),
    binary main_v211 main_v215 main_v216 (addf : (⟨S100000x128, .f32⟩ : BufTy).Contents (Elt F) → (⟨S100000x128, .f32⟩ : BufTy).Contents (Elt F) → (⟨S100000x128, .f32⟩ : BufTy).Contents (Elt F)),
    unary main_arg11 main_v217 ((extractStridedSlice S1x128 ![2, 0] · slices_S4x128_S1x128_2_0) : (⟨S4x128, .f32⟩ : BufTy).Contents (Elt F) → (⟨S1x128, .f32⟩ : BufTy).Contents (Elt F)),
    reshape main_v217 main_v218 rfl shapeCasts_S1x128_S128,
    unary main_arg12 main_v219 ((extractStridedSlice S1x128 ![2, 0] · slices_S4x128_S1x128_2_0) : (⟨S4x128, .f32⟩ : BufTy).Contents (Elt F) → (⟨S1x128, .f32⟩ : BufTy).Contents (Elt F)),
    reshape main_v219 main_v220 rfl shapeCasts_S1x128_S128,
    nullary main_cst_27 (constant S_ .f32 0x00000000#32),
    binary main_v216 main_cst_27 main_v221 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_28 (constant S_ .f32 0x47C35000#32),
    unary main_cst_28 main_v222 (broadcastInDim S128 ![] bcast_S_S128 : (⟨S_, .f32⟩ : BufTy).Contents (Elt F) → (⟨S128, .f32⟩ : BufTy).Contents (Elt F)),
    binary main_v221 main_v222 main_v223 (Host.divf : (⟨S128, .f32⟩ : BufTy).Contents (Elt F) → (⟨S128, .f32⟩ : BufTy).Contents (Elt F) → (⟨S128, .f32⟩ : BufTy).Contents (Elt F)),
    nullary main_c_29 (constantI S_ 32 0#32),
    TRef.nullary (TRef.of (T := ⟨S_, .f32⟩) main_call11_cst) (constant S_ .f32 0x00000000#32),
    TRef.binary (TRef.of (T := ⟨S100000x128, .f32⟩) main_v216) (TRef.of (T := ⟨S_, .f32⟩) main_call11_cst) (TRef.of (T := ⟨S128, .f32⟩) main_call11_v0) (fun x v => Host.reduceAdd x v reducesTo_S100000x128_S128_d0 h_S_),
    TRef.unary (TRef.of (T := ⟨S128, .f32⟩) main_call11_v0) (TRef.of (T := ⟨S1x128, .f32⟩) main_call11_v1) (broadcastInDim S1x128 ![1] bcast_S128_S1x128_1),
    TRef.nullary (TRef.of (T := ⟨S_, .f32⟩) main_call11_cst_0) (constant S_ .f32 0x47C35000#32),
    TRef.unary (TRef.of (T := ⟨S_, .f32⟩) main_call11_cst_0) (TRef.of (T := ⟨S1x128, .f32⟩) main_call11_v2) (broadcastInDim S1x128 ![] bcast_S_S1x128),
    TRef.binary (TRef.of (T := ⟨S1x128, .f32⟩) main_call11_v1) (TRef.of (T := ⟨S1x128, .f32⟩) main_call11_v2) (TRef.of (T := ⟨S1x128, .f32⟩) main_call11_v3) Host.divf,
    TRef.unary (TRef.of (T := ⟨S1x128, .f32⟩) main_call11_v3) (TRef.of (T := ⟨S100000x128, .f32⟩) main_call11_v4) (broadcastInDim S100000x128 ![0, 1] bcast_S1x128_S100000x128_0_1),
    TRef.binary (TRef.of (T := ⟨S100000x128, .f32⟩) main_v216) (TRef.of (T := ⟨S100000x128, .f32⟩) main_call11_v4) (TRef.of (T := ⟨S100000x128, .f32⟩) main_call11_v5) subf,
    TRef.binary (TRef.of (T := ⟨S100000x128, .f32⟩) main_call11_v5) (TRef.of (T := ⟨S100000x128, .f32⟩) main_call11_v5) (TRef.of (T := ⟨S100000x128, .f32⟩) main_call11_v6) mulf,
    TRef.unary (TRef.of (T := ⟨S_, .i32⟩) main_c_29) (TRef.of (T := ⟨S_, .f32⟩) main_call11_v7) (sitofp .f32),
    TRef.nullary (TRef.of (T := ⟨S_, .f32⟩) main_call11_cst_1) (constant S_ .f32 0x47C35000#32),
    TRef.binary (TRef.of (T := ⟨S_, .f32⟩) main_call11_cst_1) (TRef.of (T := ⟨S_, .f32⟩) main_call11_v7) (TRef.of (T := ⟨S_, .f32⟩) main_call11_v8) subf,
    TRef.nullary (TRef.of (T := ⟨S_, .f32⟩) main_call11_cst_2) (constant S_ .f32 0x00000000#32),
    TRef.binary (TRef.of (T := ⟨S100000x128, .f32⟩) main_call11_v6) (TRef.of (T := ⟨S_, .f32⟩) main_call11_cst_2) (TRef.of (T := ⟨S128, .f32⟩) main_call11_v9) (fun x v => Host.reduceAdd x v reducesTo_S100000x128_S128_d0 h_S_),
    TRef.unary (TRef.of (T := ⟨S_, .f32⟩) main_call11_v8) (TRef.of (T := ⟨S128, .f32⟩) main_call11_v10) (broadcastInDim S128 ![] bcast_S_S128),
    TRef.binary (TRef.of (T := ⟨S128, .f32⟩) main_call11_v9) (TRef.of (T := ⟨S128, .f32⟩) main_call11_v10) (TRef.of (T := ⟨S128, .f32⟩) main_call11_v11) Host.divf,
    TRef.nullary (TRef.of (T := ⟨S_, .f32⟩) main_call11_cst_3) (constant S_ .f32 0x00000000#32),
    TRef.binary (TRef.of (T := ⟨S_, .f32⟩) main_call11_v8) (TRef.of (T := ⟨S_, .f32⟩) main_call11_cst_3) (TRef.of (T := ⟨S_, .i1⟩) main_call11_v12) (cmpf .ogt),
    TRef.nullary (TRef.of (T := ⟨S_, .f32⟩) main_call11_cst_4) (constant S_ .f32 0x7FC00000#32),
    TRef.unary (TRef.of (T := ⟨S_, .f32⟩) main_call11_cst_4) (TRef.of (T := ⟨S_, .f32⟩) main_call11_call0_v0) id,
    TRef.unary (TRef.of (T := ⟨S_, .f32⟩) main_call11_call0_v0) (TRef.of (T := ⟨S128, .f32⟩) main_call11_call0_v1) (broadcastInDim S128 ![] bcast_S_S128),
    TRef.ternary (TRef.of (T := ⟨S_, .i1⟩) main_call11_v12) (TRef.of (T := ⟨S128, .f32⟩) main_call11_v11) (TRef.of (T := ⟨S128, .f32⟩) main_call11_call0_v1) (TRef.of (T := ⟨S128, .f32⟩) main_v224) (fun p a b => select (broadcastInDim S128 ![] bcast_S_S128 p) a b),
    unary main_v223 main_v225 (broadcastInDim S1x128 ![1] bcast_S128_S1x128_1 : (⟨S128, .f32⟩ : BufTy).Contents (Elt F) → (⟨S1x128, .f32⟩ : BufTy).Contents (Elt F)),
    unary main_v225 main_v226 (broadcastInDim S100000x128 ![0, 1] bcast_S1x128_S100000x128_0_1 : (⟨S1x128, .f32⟩ : BufTy).Contents (Elt F) → (⟨S100000x128, .f32⟩ : BufTy).Contents (Elt F)),
    binary main_v216 main_v226 main_v227 (subf : (⟨S100000x128, .f32⟩ : BufTy).Contents (Elt F) → (⟨S100000x128, .f32⟩ : BufTy).Contents (Elt F) → (⟨S100000x128, .f32⟩ : BufTy).Contents (Elt F)),
    unary main_v218 main_v228 (broadcastInDim S1x128 ![1] bcast_S128_S1x128_1 : (⟨S128, .f32⟩ : BufTy).Contents (Elt F) → (⟨S1x128, .f32⟩ : BufTy).Contents (Elt F)),
    unary main_v228 main_v229 (broadcastInDim S100000x128 ![0, 1] bcast_S1x128_S100000x128_0_1 : (⟨S1x128, .f32⟩ : BufTy).Contents (Elt F) → (⟨S100000x128, .f32⟩ : BufTy).Contents (Elt F)),
    binary main_v229 main_v227 main_v230 (mulf : (⟨S100000x128, .f32⟩ : BufTy).Contents (Elt F) → (⟨S100000x128, .f32⟩ : BufTy).Contents (Elt F) → (⟨S100000x128, .f32⟩ : BufTy).Contents (Elt F)),
    nullary main_cst_30 (constant S_ .f32 0x3727C5AC#32),
    unary main_cst_30 main_v231 (broadcastInDim S128 ![] bcast_S_S128 : (⟨S_, .f32⟩ : BufTy).Contents (Elt F) → (⟨S128, .f32⟩ : BufTy).Contents (Elt F)),
    binary main_v224 main_v231 main_v232 (addf : (⟨S128, .f32⟩ : BufTy).Contents (Elt F) → (⟨S128, .f32⟩ : BufTy).Contents (Elt F) → (⟨S128, .f32⟩ : BufTy).Contents (Elt F)),
    unary main_v232 main_v233 (Host.rsqrt : (⟨S128, .f32⟩ : BufTy).Contents (Elt F) → (⟨S128, .f32⟩ : BufTy).Contents (Elt F)),
    unary main_v233 main_v234 (broadcastInDim S1x128 ![1] bcast_S128_S1x128_1 : (⟨S128, .f32⟩ : BufTy).Contents (Elt F) → (⟨S1x128, .f32⟩ : BufTy).Contents (Elt F)),
    unary main_v234 main_v235 (broadcastInDim S100000x128 ![0, 1] bcast_S1x128_S100000x128_0_1 : (⟨S1x128, .f32⟩ : BufTy).Contents (Elt F) → (⟨S100000x128, .f32⟩ : BufTy).Contents (Elt F)),
    binary main_v230 main_v235 main_v236 (mulf : (⟨S100000x128, .f32⟩ : BufTy).Contents (Elt F) → (⟨S100000x128, .f32⟩ : BufTy).Contents (Elt F) → (⟨S100000x128, .f32⟩ : BufTy).Contents (Elt F)),
    unary main_v220 main_v237 (broadcastInDim S1x128 ![1] bcast_S128_S1x128_1 : (⟨S128, .f32⟩ : BufTy).Contents (Elt F) → (⟨S1x128, .f32⟩ : BufTy).Contents (Elt F)),
    unary main_v237 main_v238 (broadcastInDim S100000x128 ![0, 1] bcast_S1x128_S100000x128_0_1 : (⟨S1x128, .f32⟩ : BufTy).Contents (Elt F) → (⟨S100000x128, .f32⟩ : BufTy).Contents (Elt F)),
    binary main_v236 main_v238 main_v239 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call12_cst) (constant S_ .f32 0x00000000#32),
    TRef.unary (TRef.of (T := ⟨S_, .f32⟩) main_call12_cst) (TRef.of (T := ⟨S100000x128, .f32⟩) main_call12_v0) (broadcastInDim S100000x128 ![] bcast_S_S100000x128),
    TRef.binary (TRef.of (T := ⟨S100000x128, .f32⟩) main_v239) (TRef.of (T := ⟨S100000x128, .f32⟩) main_call12_v0) (TRef.of (T := ⟨S100000x128, .f32⟩) main_v240) maximumf,
    nullary main_c_31 (constantI S_ 32 0#32),
    unary main_c_31 main_v241 (broadcastInDim S625000 ![] bcast_S_S625000 : (⟨S_, .i32⟩ : BufTy).Contents (Elt F) → (⟨S625000, .i32⟩ : BufTy).Contents (Elt F)),
    binary main_v1 main_v241 main_v242 (cmpi .slt : (⟨S625000, .i32⟩ : BufTy).Contents (Elt F) → (⟨S625000, .i32⟩ : BufTy).Contents (Elt F) → (⟨S625000, .i1⟩ : BufTy).Contents (Elt F)),
    nullary main_c_32 (constantI S_ 32 100000#32),
    unary main_c_32 main_v243 (broadcastInDim S625000 ![] bcast_S_S625000 : (⟨S_, .i32⟩ : BufTy).Contents (Elt F) → (⟨S625000, .i32⟩ : BufTy).Contents (Elt F)),
    binary main_v1 main_v243 main_v244 (addi : (⟨S625000, .i32⟩ : BufTy).Contents (Elt F) → (⟨S625000, .i32⟩ : BufTy).Contents (Elt F) → (⟨S625000, .i32⟩ : BufTy).Contents (Elt F)),
    ternary main_v242 main_v244 main_v1 main_v245 (select : (⟨S625000, .i1⟩ : BufTy).Contents (Elt F) → (⟨S625000, .i32⟩ : BufTy).Contents (Elt F) → (⟨S625000, .i32⟩ : BufTy).Contents (Elt F) → (⟨S625000, .i32⟩ : BufTy).Contents (Elt F)),
    unary main_v245 main_v246 (broadcastInDim S625000x1 ![0] bcast_S625000_S625000x1_0 : (⟨S625000, .i32⟩ : BufTy).Contents (Elt F) → (⟨S625000x1, .i32⟩ : BufTy).Contents (Elt F)),
    binary main_v240 main_v246 main_v247 ((fun x i => Host.gather gather_S100000x128_S625000x1_S625000x128_1_0_n_n_0_1_1128 x i) : (⟨S100000x128, .f32⟩ : BufTy).Contents (Elt F) → (⟨S625000x1, .i32⟩ : BufTy).Contents (Elt F) → (⟨S625000x128, .f32⟩ : BufTy).Contents (Elt F)),
    nullary main_cst_33 (constant S_ .f32 0x00000000#32),
    unary main_cst_33 main_v248 (broadcastInDim S100000x128 ![] bcast_S_S100000x128 : (⟨S_, .f32⟩ : BufTy).Contents (Elt F) → (⟨S100000x128, .f32⟩ : BufTy).Contents (Elt F)),
    unary main_v3 main_v249 (broadcastInDim S625000x1 ![0] bcast_S625000_S625000x1_0 : (⟨S625000, .i32⟩ : BufTy).Contents (Elt F) → (⟨S625000x1, .i32⟩ : BufTy).Contents (Elt F)),
    ternary main_v248 main_v249 main_v247 main_v250 ((fun x i u => Host.scatterAdd scatter_S100000x128_S625000x1_S625000x128_1_0_0_1 x i u) : (⟨S100000x128, .f32⟩ : BufTy).Contents (Elt F) → (⟨S625000x1, .i32⟩ : BufTy).Contents (Elt F) → (⟨S625000x128, .f32⟩ : BufTy).Contents (Elt F) → (⟨S100000x128, .f32⟩ : BufTy).Contents (Elt F)),
    binary main_v240 main_v250 main_v251 (addf : (⟨S100000x128, .f32⟩ : BufTy).Contents (Elt F) → (⟨S100000x128, .f32⟩ : BufTy).Contents (Elt F) → (⟨S100000x128, .f32⟩ : BufTy).Contents (Elt F)),
    unary main_arg5 main_v252 ((extractStridedSlice S1x128x128 ![3, 0, 0] · slices_S4x128x128_S1x128x128_3_0_0) : (⟨S4x128x128, .f32⟩ : BufTy).Contents (Elt F) → (⟨S1x128x128, .f32⟩ : BufTy).Contents (Elt F)),
    reshape main_v252 main_v253 rfl shapeCasts_S1x128x128_S128x128,
    unary main_v253 main_v254 ((transpose S128x128 [1, 0] · transposes_S128x128_S128x128_1_0) : (⟨S128x128, .f32⟩ : BufTy).Contents (Elt F) → (⟨S128x128, .f32⟩ : BufTy).Contents (Elt F)),
    binary main_v251 main_v254 main_v255 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg6 main_v256 ((extractStridedSlice S1x128 ![3, 0] · slices_S4x128_S1x128_3_0) : (⟨S4x128, .f32⟩ : BufTy).Contents (Elt F) → (⟨S1x128, .f32⟩ : BufTy).Contents (Elt F)),
    reshape main_v256 main_v257 rfl shapeCasts_S1x128_S128,
    unary main_v257 main_v258 (broadcastInDim S1x128 ![1] bcast_S128_S1x128_1 : (⟨S128, .f32⟩ : BufTy).Contents (Elt F) → (⟨S1x128, .f32⟩ : BufTy).Contents (Elt F)),
    unary main_v258 main_v259 (broadcastInDim S100000x128 ![0, 1] bcast_S1x128_S100000x128_0_1 : (⟨S1x128, .f32⟩ : BufTy).Contents (Elt F) → (⟨S100000x128, .f32⟩ : BufTy).Contents (Elt F)),
    binary main_v255 main_v259 main_v260 (addf : (⟨S100000x128, .f32⟩ : BufTy).Contents (Elt F) → (⟨S100000x128, .f32⟩ : BufTy).Contents (Elt F) → (⟨S100000x128, .f32⟩ : BufTy).Contents (Elt F)),
    unary main_arg7 main_v261 ((extractStridedSlice S1x128 ![3, 0] · slices_S4x128_S1x128_3_0) : (⟨S4x128, .f32⟩ : BufTy).Contents (Elt F) → (⟨S1x128, .f32⟩ : BufTy).Contents (Elt F)),
    reshape main_v261 main_v262 rfl shapeCasts_S1x128_S128,
    unary main_arg8 main_v263 ((extractStridedSlice S1x128 ![3, 0] · slices_S4x128_S1x128_3_0) : (⟨S4x128, .f32⟩ : BufTy).Contents (Elt F) → (⟨S1x128, .f32⟩ : BufTy).Contents (Elt F)) ]

set_option maxRecDepth 16384 in
set_option maxHeartbeats 4000000 in
/-- The window is that straight line: the callees' definitions unfold at their calls, the records at their fields. -/
theorem main_part4_eq (c : Dev nD) : main_part4 (F := F) c = seq ops4 := rfl

set_option maxRecDepth 16384 in
/-- Every operation of the window touches TensorCore references only. -/
theorem ops4_sub : (ops4 : List (HloOp τ sig (Elt F))).Forall fun op => op.bufs ⊆ tcRefs τ sig :=
  ⟨binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., unary_bufs_sub .., reshape_bufs_sub .., unary_bufs_sub .., binary_bufs_sub .., unary_bufs_sub .., reshape_bufs_sub .., unary_bufs_sub .., unary_bufs_sub .., binary_bufs_sub .., unary_bufs_sub .., reshape_bufs_sub .., unary_bufs_sub ..⟩

/-- Every operation of the window determines its results: none leaves a buffer at contents not chosen. -/
theorem ops4_fresh : (ops4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers the window's operations write, in order. -/
abbrev ops4_W : List (Ref sig .tc) := [main_v211, main_v212, main_v213, main_v214, main_v215, main_v216, main_v217, main_v218, main_v219, main_v220, main_cst_27, main_v221, main_cst_28, main_v222, main_v223, main_c_29, main_call11_cst, main_call11_v0, main_call11_v1, main_call11_cst_0, main_call11_v2, main_call11_v3, main_call11_v4, main_call11_v5, main_call11_v6, main_call11_v7, main_call11_cst_1, main_call11_v8, main_call11_cst_2, main_call11_v9, main_call11_v10, main_call11_v11, main_call11_cst_3, main_call11_v12, main_call11_cst_4, main_call11_call0_v0, main_call11_call0_v1, main_v224, main_v225, main_v226, main_v227, main_v228, main_v229, main_v230, main_cst_30, main_v231, main_v232, main_v233, main_v234, main_v235, main_v236, main_v237, main_v238, main_v239, main_call12_cst, main_call12_v0, main_v240, main_c_31, main_v241, main_v242, main_c_32, main_v243, main_v244, main_v245, main_v246, main_v247, main_cst_33, main_v248, main_v249, main_v250, main_v251, main_v252, main_v253, main_v254, main_v255, main_v256, main_v257, main_v258, main_v259, main_v260, main_v261, main_v262, main_v263]

set_option maxRecDepth 16384 in
set_option maxHeartbeats 4000000 in
/-- Each operation writes exactly its result buffer, which is in the list. -/
theorem ops4_writes : (ops4 : List (HloOp τ sig (Elt F))).Forall fun op => op.writes ⊆ (ops4_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- A buffer the window does not write keeps its contents through it. -/
theorem keep4 (V : Valuation τ sig (Elt F)) (r : Ref sig .tc) (h : r ∉ ops4_W) :
    after ops4 V (Proc.devRef .tc r) = V (Proc.devRef .tc r) :=
  after_of_writes_sub ops4 V ops4_writes h

end Cert.ReferenceIdeal.HandRun

end
-- ==== Proof.RefRun5.lean ====
/- Window 5 of the reference program's @main (`main_part5`) as a list of host operations, in program order.
   An outlined function's call is replaced by the callee's operations at the call's own buffers (the call record's
   fields), each spelt with the typed-reference builder at the literal buffer, so that the window is one straight
   line: `main_part5 c = seq ops5`. Beside the list: every operation touches TensorCore references only, the list
   of the buffers the window writes, and that a buffer outside that list keeps its contents through the window. -/
import proofs.«119304_j10247791968545_2_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- @main's operations 441 … 544 of 562 (window `main_part5`), a called function's operations in its call's place. -/
abbrev ops5 : List (HloOp τ sig (Elt F)) :=
  [ reshape main_v263 main_v264 rfl shapeCasts_S1x128_S128,
    nullary main_cst_34 (constant S_ .f32 0x00000000#32),
    binary main_v260 main_cst_34 main_v265 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_35 (constant S_ .f32 0x47C35000#32),
    unary main_cst_35 main_v266 (broadcastInDim S128 ![] bcast_S_S128 : (⟨S_, .f32⟩ : BufTy).Contents (Elt F) → (⟨S128, .f32⟩ : BufTy).Contents (Elt F)),
    binary main_v265 main_v266 main_v267 (Host.divf : (⟨S128, .f32⟩ : BufTy).Contents (Elt F) → (⟨S128, .f32⟩ : BufTy).Contents (Elt F) → (⟨S128, .f32⟩ : BufTy).Contents (Elt F)),
    nullary main_c_36 (constantI S_ 32 0#32),
    TRef.nullary (TRef.of (T := ⟨S_, .f32⟩) main_call13_cst) (constant S_ .f32 0x00000000#32),
    TRef.binary (TRef.of (T := ⟨S100000x128, .f32⟩) main_v260) (TRef.of (T := ⟨S_, .f32⟩) main_call13_cst) (TRef.of (T := ⟨S128, .f32⟩) main_call13_v0) (fun x v => Host.reduceAdd x v reducesTo_S100000x128_S128_d0 h_S_),
    TRef.unary (TRef.of (T := ⟨S128, .f32⟩) main_call13_v0) (TRef.of (T := ⟨S1x128, .f32⟩) main_call13_v1) (broadcastInDim S1x128 ![1] bcast_S128_S1x128_1),
    TRef.nullary (TRef.of (T := ⟨S_, .f32⟩) main_call13_cst_0) (constant S_ .f32 0x47C35000#32),
    TRef.unary (TRef.of (T := ⟨S_, .f32⟩) main_call13_cst_0) (TRef.of (T := ⟨S1x128, .f32⟩) main_call13_v2) (broadcastInDim S1x128 ![] bcast_S_S1x128),
    TRef.binary (TRef.of (T := ⟨S1x128, .f32⟩) main_call13_v1) (TRef.of (T := ⟨S1x128, .f32⟩) main_call13_v2) (TRef.of (T := ⟨S1x128, .f32⟩) main_call13_v3) Host.divf,
    TRef.unary (TRef.of (T := ⟨S1x128, .f32⟩) main_call13_v3) (TRef.of (T := ⟨S100000x128, .f32⟩) main_call13_v4) (broadcastInDim S100000x128 ![0, 1] bcast_S1x128_S100000x128_0_1),
    TRef.binary (TRef.of (T := ⟨S100000x128, .f32⟩) main_v260) (TRef.of (T := ⟨S100000x128, .f32⟩) main_call13_v4) (TRef.of (T := ⟨S100000x128, .f32⟩) main_call13_v5) subf,
    TRef.binary (TRef.of (T := ⟨S100000x128, .f32⟩) main_call13_v5) (TRef.of (T := ⟨S100000x128, .f32⟩) main_call13_v5) (TRef.of (T := ⟨S100000x128, .f32⟩) main_call13_v6) mulf,
    TRef.unary (TRef.of (T := ⟨S_, .i32⟩) main_c_36) (TRef.of (T := ⟨S_, .f32⟩) main_call13_v7) (sitofp .f32),
    TRef.nullary (TRef.of (T := ⟨S_, .f32⟩) main_call13_cst_1) (constant S_ .f32 0x47C35000#32),
    TRef.binary (TRef.of (T := ⟨S_, .f32⟩) main_call13_cst_1) (TRef.of (T := ⟨S_, .f32⟩) main_call13_v7) (TRef.of (T := ⟨S_, .f32⟩) main_call13_v8) subf,
    TRef.nullary (TRef.of (T := ⟨S_, .f32⟩) main_call13_cst_2) (constant S_ .f32 0x00000000#32),
    TRef.binary (TRef.of (T := ⟨S100000x128, .f32⟩) main_call13_v6) (TRef.of (T := ⟨S_, .f32⟩) main_call13_cst_2) (TRef.of (T := ⟨S128, .f32⟩) main_call13_v9) (fun x v => Host.reduceAdd x v reducesTo_S100000x128_S128_d0 h_S_),
    TRef.unary (TRef.of (T := ⟨S_, .f32⟩) main_call13_v8) (TRef.of (T := ⟨S128, .f32⟩) main_call13_v10) (broadcastInDim S128 ![] bcast_S_S128),
    TRef.binary (TRef.of (T := ⟨S128, .f32⟩) main_call13_v9) (TRef.of (T := ⟨S128, .f32⟩) main_call13_v10) (TRef.of (T := ⟨S128, .f32⟩) main_call13_v11) Host.divf,
    TRef.nullary (TRef.of (T := ⟨S_, .f32⟩) main_call13_cst_3) (constant S_ .f32 0x00000000#32),
    TRef.binary (TRef.of (T := ⟨S_, .f32⟩) main_call13_v8) (TRef.of (T := ⟨S_, .f32⟩) main_call13_cst_3) (TRef.of (T := ⟨S_, .i1⟩) main_call13_v12) (cmpf .ogt),
    TRef.nullary (TRef.of (T := ⟨S_, .f32⟩) main_call13_cst_4) (constant S_ .f32 0x7FC00000#32),
    TRef.unary (TRef.of (T := ⟨S_, .f32⟩) main_call13_cst_4) (TRef.of (T := ⟨S_, .f32⟩) main_call13_call0_v0) id,
    TRef.unary (TRef.of (T := ⟨S_, .f32⟩) main_call13_call0_v0) (TRef.of (T := ⟨S128, .f32⟩) main_call13_call0_v1) (broadcastInDim S128 ![] bcast_S_S128),
    TRef.ternary (TRef.of (T := ⟨S_, .i1⟩) main_call13_v12) (TRef.of (T := ⟨S128, .f32⟩) main_call13_v11) (TRef.of (T := ⟨S128, .f32⟩) main_call13_call0_v1) (TRef.of (T := ⟨S128, .f32⟩) main_v268) (fun p a b => select (broadcastInDim S128 ![] bcast_S_S128 p) a b),
    unary main_v267 main_v269 (broadcastInDim S1x128 ![1] bcast_S128_S1x128_1 : (⟨S128, .f32⟩ : BufTy).Contents (Elt F) → (⟨S1x128, .f32⟩ : BufTy).Contents (Elt F)),
    unary main_v269 main_v270 (broadcastInDim S100000x128 ![0, 1] bcast_S1x128_S100000x128_0_1 : (⟨S1x128, .f32⟩ : BufTy).Contents (Elt F) → (⟨S100000x128, .f32⟩ : BufTy).Contents (Elt F)),
    binary main_v260 main_v270 main_v271 (subf : (⟨S100000x128, .f32⟩ : BufTy).Contents (Elt F) → (⟨S100000x128, .f32⟩ : BufTy).Contents (Elt F) → (⟨S100000x128, .f32⟩ : BufTy).Contents (Elt F)),
    unary main_v262 main_v272 (broadcastInDim S1x128 ![1] bcast_S128_S1x128_1 : (⟨S128, .f32⟩ : BufTy).Contents (Elt F) → (⟨S1x128, .f32⟩ : BufTy).Contents (Elt F)),
    unary main_v272 main_v273 (broadcastInDim S100000x128 ![0, 1] bcast_S1x128_S100000x128_0_1 : (⟨S1x128, .f32⟩ : BufTy).Contents (Elt F) → (⟨S100000x128, .f32⟩ : BufTy).Contents (Elt F)),
    binary main_v273 main_v271 main_v274 (mulf : (⟨S100000x128, .f32⟩ : BufTy).Contents (Elt F) → (⟨S100000x128, .f32⟩ : BufTy).Contents (Elt F) → (⟨S100000x128, .f32⟩ : BufTy).Contents (Elt F)),
    nullary main_cst_37 (constant S_ .f32 0x3727C5AC#32),
    unary main_cst_37 main_v275 (broadcastInDim S128 ![] bcast_S_S128 : (⟨S_, .f32⟩ : BufTy).Contents (Elt F) → (⟨S128, .f32⟩ : BufTy).Contents (Elt F)),
    binary main_v268 main_v275 main_v276 (addf : (⟨S128, .f32⟩ : BufTy).Contents (Elt F) → (⟨S128, .f32⟩ : BufTy).Contents (Elt F) → (⟨S128, .f32⟩ : BufTy).Contents (Elt F)),
    unary main_v276 main_v277 (Host.rsqrt : (⟨S128, .f32⟩ : BufTy).Contents (Elt F) → (⟨S128, .f32⟩ : BufTy).Contents (Elt F)),
    unary main_v277 main_v278 (broadcastInDim S1x128 ![1] bcast_S128_S1x128_1 : (⟨S128, .f32⟩ : BufTy).Contents (Elt F) → (⟨S1x128, .f32⟩ : BufTy).Contents (Elt F)),
    unary main_v278 main_v279 (broadcastInDim S100000x128 ![0, 1] bcast_S1x128_S100000x128_0_1 : (⟨S1x128, .f32⟩ : BufTy).Contents (Elt F) → (⟨S100000x128, .f32⟩ : BufTy).Contents (Elt F)),
    binary main_v274 main_v279 main_v280 (mulf : (⟨S100000x128, .f32⟩ : BufTy).Contents (Elt F) → (⟨S100000x128, .f32⟩ : BufTy).Contents (Elt F) → (⟨S100000x128, .f32⟩ : BufTy).Contents (Elt F)),
    unary main_v264 main_v281 (broadcastInDim S1x128 ![1] bcast_S128_S1x128_1 : (⟨S128, .f32⟩ : BufTy).Contents (Elt F) → (⟨S1x128, .f32⟩ : BufTy).Contents (Elt F)),
    unary main_v281 main_v282 (broadcastInDim S100000x128 ![0, 1] bcast_S1x128_S100000x128_0_1 : (⟨S1x128, .f32⟩ : BufTy).Contents (Elt F) → (⟨S100000x128, .f32⟩ : BufTy).Contents (Elt F)),
    binary main_v280 main_v282 main_v283 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call14_cst) (constant S_ .f32 0x00000000#32),
    TRef.unary (TRef.of (T := ⟨S_, .f32⟩) main_call14_cst) (TRef.of (T := ⟨S100000x128, .f32⟩) main_call14_v0) (broadcastInDim S100000x128 ![] bcast_S_S100000x128),
    TRef.binary (TRef.of (T := ⟨S100000x128, .f32⟩) main_v283) (TRef.of (T := ⟨S100000x128, .f32⟩) main_call14_v0) (TRef.of (T := ⟨S100000x128, .f32⟩) main_v284) maximumf,
    unary main_arg9 main_v285 ((extractStridedSlice S1x128x128 ![3, 0, 0] · slices_S4x128x128_S1x128x128_3_0_0) : (⟨S4x128x128, .f32⟩ : BufTy).Contents (Elt F) → (⟨S1x128x128, .f32⟩ : BufTy).Contents (Elt F)),
    reshape main_v285 main_v286 rfl shapeCasts_S1x128x128_S128x128,
    unary main_v286 main_v287 ((transpose S128x128 [1, 0] · transposes_S128x128_S128x128_1_0) : (⟨S128x128, .f32⟩ : BufTy).Contents (Elt F) → (⟨S128x128, .f32⟩ : BufTy).Contents (Elt F)),
    binary main_v284 main_v287 main_v288 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg10 main_v289 ((extractStridedSlice S1x128 ![3, 0] · slices_S4x128_S1x128_3_0) : (⟨S4x128, .f32⟩ : BufTy).Contents (Elt F) → (⟨S1x128, .f32⟩ : BufTy).Contents (Elt F)),
    reshape main_v289 main_v290 rfl shapeCasts_S1x128_S128,
    unary main_v290 main_v291 (broadcastInDim S1x128 ![1] bcast_S128_S1x128_1 : (⟨S128, .f32⟩ : BufTy).Contents (Elt F) → (⟨S1x128, .f32⟩ : BufTy).Contents (Elt F)),
    unary main_v291 main_v292 (broadcastInDim S100000x128 ![0, 1] bcast_S1x128_S100000x128_0_1 : (⟨S1x128, .f32⟩ : BufTy).Contents (Elt F) → (⟨S100000x128, .f32⟩ : BufTy).Contents (Elt F)),
    binary main_v288 main_v292 main_v293 (addf : (⟨S100000x128, .f32⟩ : BufTy).Contents (Elt F) → (⟨S100000x128, .f32⟩ : BufTy).Contents (Elt F) → (⟨S100000x128, .f32⟩ : BufTy).Contents (Elt F)),
    unary main_arg11 main_v294 ((extractStridedSlice S1x128 ![3, 0] · slices_S4x128_S1x128_3_0) : (⟨S4x128, .f32⟩ : BufTy).Contents (Elt F) → (⟨S1x128, .f32⟩ : BufTy).Contents (Elt F)),
    reshape main_v294 main_v295 rfl shapeCasts_S1x128_S128,
    unary main_arg12 main_v296 ((extractStridedSlice S1x128 ![3, 0] · slices_S4x128_S1x128_3_0) : (⟨S4x128, .f32⟩ : BufTy).Contents (Elt F) → (⟨S1x128, .f32⟩ : BufTy).Contents (Elt F)),
    reshape main_v296 main_v297 rfl shapeCasts_S1x128_S128,
    nullary main_cst_38 (constant S_ .f32 0x00000000#32),
    binary main_v293 main_cst_38 main_v298 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_39 (constant S_ .f32 0x47C35000#32),
    unary main_cst_39 main_v299 (broadcastInDim S128 ![] bcast_S_S128 : (⟨S_, .f32⟩ : BufTy).Contents (Elt F) → (⟨S128, .f32⟩ : BufTy).Contents (Elt F)),
    binary main_v298 main_v299 main_v300 (Host.divf : (⟨S128, .f32⟩ : BufTy).Contents (Elt F) → (⟨S128, .f32⟩ : BufTy).Contents (Elt F) → (⟨S128, .f32⟩ : BufTy).Contents (Elt F)),
    nullary main_c_40 (constantI S_ 32 0#32),
    TRef.nullary (TRef.of (T := ⟨S_, .f32⟩) main_call15_cst) (constant S_ .f32 0x00000000#32),
    TRef.binary (TRef.of (T := ⟨S100000x128, .f32⟩) main_v293) (TRef.of (T := ⟨S_, .f32⟩) main_call15_cst) (TRef.of (T := ⟨S128, .f32⟩) main_call15_v0) (fun x v => Host.reduceAdd x v reducesTo_S100000x128_S128_d0 h_S_),
    TRef.unary (TRef.of (T := ⟨S128, .f32⟩) main_call15_v0) (TRef.of (T := ⟨S1x128, .f32⟩) main_call15_v1) (broadcastInDim S1x128 ![1] bcast_S128_S1x128_1),
    TRef.nullary (TRef.of (T := ⟨S_, .f32⟩) main_call15_cst_0) (constant S_ .f32 0x47C35000#32),
    TRef.unary (TRef.of (T := ⟨S_, .f32⟩) main_call15_cst_0) (TRef.of (T := ⟨S1x128, .f32⟩) main_call15_v2) (broadcastInDim S1x128 ![] bcast_S_S1x128),
    TRef.binary (TRef.of (T := ⟨S1x128, .f32⟩) main_call15_v1) (TRef.of (T := ⟨S1x128, .f32⟩) main_call15_v2) (TRef.of (T := ⟨S1x128, .f32⟩) main_call15_v3) Host.divf,
    TRef.unary (TRef.of (T := ⟨S1x128, .f32⟩) main_call15_v3) (TRef.of (T := ⟨S100000x128, .f32⟩) main_call15_v4) (broadcastInDim S100000x128 ![0, 1] bcast_S1x128_S100000x128_0_1),
    TRef.binary (TRef.of (T := ⟨S100000x128, .f32⟩) main_v293) (TRef.of (T := ⟨S100000x128, .f32⟩) main_call15_v4) (TRef.of (T := ⟨S100000x128, .f32⟩) main_call15_v5) subf,
    TRef.binary (TRef.of (T := ⟨S100000x128, .f32⟩) main_call15_v5) (TRef.of (T := ⟨S100000x128, .f32⟩) main_call15_v5) (TRef.of (T := ⟨S100000x128, .f32⟩) main_call15_v6) mulf,
    TRef.unary (TRef.of (T := ⟨S_, .i32⟩) main_c_40) (TRef.of (T := ⟨S_, .f32⟩) main_call15_v7) (sitofp .f32),
    TRef.nullary (TRef.of (T := ⟨S_, .f32⟩) main_call15_cst_1) (constant S_ .f32 0x47C35000#32),
    TRef.binary (TRef.of (T := ⟨S_, .f32⟩) main_call15_cst_1) (TRef.of (T := ⟨S_, .f32⟩) main_call15_v7) (TRef.of (T := ⟨S_, .f32⟩) main_call15_v8) subf,
    TRef.nullary (TRef.of (T := ⟨S_, .f32⟩) main_call15_cst_2) (constant S_ .f32 0x00000000#32),
    TRef.binary (TRef.of (T := ⟨S100000x128, .f32⟩) main_call15_v6) (TRef.of (T := ⟨S_, .f32⟩) main_call15_cst_2) (TRef.of (T := ⟨S128, .f32⟩) main_call15_v9) (fun x v => Host.reduceAdd x v reducesTo_S100000x128_S128_d0 h_S_),
    TRef.unary (TRef.of (T := ⟨S_, .f32⟩) main_call15_v8) (TRef.of (T := ⟨S128, .f32⟩) main_call15_v10) (broadcastInDim S128 ![] bcast_S_S128),
    TRef.binary (TRef.of (T := ⟨S128, .f32⟩) main_call15_v9) (TRef.of (T := ⟨S128, .f32⟩) main_call15_v10) (TRef.of (T := ⟨S128, .f32⟩) main_call15_v11) Host.divf,
    TRef.nullary (TRef.of (T := ⟨S_, .f32⟩) main_call15_cst_3) (constant S_ .f32 0x00000000#32),
    TRef.binary (TRef.of (T := ⟨S_, .f32⟩) main_call15_v8) (TRef.of (T := ⟨S_, .f32⟩) main_call15_cst_3) (TRef.of (T := ⟨S_, .i1⟩) main_call15_v12) (cmpf .ogt),
    TRef.nullary (TRef.of (T := ⟨S_, .f32⟩) main_call15_cst_4) (constant S_ .f32 0x7FC00000#32),
    TRef.unary (TRef.of (T := ⟨S_, .f32⟩) main_call15_cst_4) (TRef.of (T := ⟨S_, .f32⟩) main_call15_call0_v0) id,
    TRef.unary (TRef.of (T := ⟨S_, .f32⟩) main_call15_call0_v0) (TRef.of (T := ⟨S128, .f32⟩) main_call15_call0_v1) (broadcastInDim S128 ![] bcast_S_S128),
    TRef.ternary (TRef.of (T := ⟨S_, .i1⟩) main_call15_v12) (TRef.of (T := ⟨S128, .f32⟩) main_call15_v11) (TRef.of (T := ⟨S128, .f32⟩) main_call15_call0_v1) (TRef.of (T := ⟨S128, .f32⟩) main_v301) (fun p a b => select (broadcastInDim S128 ![] bcast_S_S128 p) a b),
    unary main_v300 main_v302 (broadcastInDim S1x128 ![1] bcast_S128_S1x128_1 : (⟨S128, .f32⟩ : BufTy).Contents (Elt F) → (⟨S1x128, .f32⟩ : BufTy).Contents (Elt F)),
    unary main_v302 main_v303 (broadcastInDim S100000x128 ![0, 1] bcast_S1x128_S100000x128_0_1 : (⟨S1x128, .f32⟩ : BufTy).Contents (Elt F) → (⟨S100000x128, .f32⟩ : BufTy).Contents (Elt F)),
    binary main_v293 main_v303 main_v304 (subf : (⟨S100000x128, .f32⟩ : BufTy).Contents (Elt F) → (⟨S100000x128, .f32⟩ : BufTy).Contents (Elt F) → (⟨S100000x128, .f32⟩ : BufTy).Contents (Elt F)),
    unary main_v295 main_v305 (broadcastInDim S1x128 ![1] bcast_S128_S1x128_1 : (⟨S128, .f32⟩ : BufTy).Contents (Elt F) → (⟨S1x128, .f32⟩ : BufTy).Contents (Elt F)),
    unary main_v305 main_v306 (broadcastInDim S100000x128 ![0, 1] bcast_S1x128_S100000x128_0_1 : (⟨S1x128, .f32⟩ : BufTy).Contents (Elt F) → (⟨S100000x128, .f32⟩ : BufTy).Contents (Elt F)),
    binary main_v306 main_v304 main_v307 (mulf : (⟨S100000x128, .f32⟩ : BufTy).Contents (Elt F) → (⟨S100000x128, .f32⟩ : BufTy).Contents (Elt F) → (⟨S100000x128, .f32⟩ : BufTy).Contents (Elt F)),
    nullary main_cst_41 (constant S_ .f32 0x3727C5AC#32),
    unary main_cst_41 main_v308 (broadcastInDim S128 ![] bcast_S_S128 : (⟨S_, .f32⟩ : BufTy).Contents (Elt F) → (⟨S128, .f32⟩ : BufTy).Contents (Elt F)),
    binary main_v301 main_v308 main_v309 (addf : (⟨S128, .f32⟩ : BufTy).Contents (Elt F) → (⟨S128, .f32⟩ : BufTy).Contents (Elt F) → (⟨S128, .f32⟩ : BufTy).Contents (Elt F)),
    unary main_v309 main_v310 (Host.rsqrt : (⟨S128, .f32⟩ : BufTy).Contents (Elt F) → (⟨S128, .f32⟩ : BufTy).Contents (Elt F)),
    unary main_v310 main_v311 (broadcastInDim S1x128 ![1] bcast_S128_S1x128_1 : (⟨S128, .f32⟩ : BufTy).Contents (Elt F) → (⟨S1x128, .f32⟩ : BufTy).Contents (Elt F)),
    unary main_v311 main_v312 (broadcastInDim S100000x128 ![0, 1] bcast_S1x128_S100000x128_0_1 : (⟨S1x128, .f32⟩ : BufTy).Contents (Elt F) → (⟨S100000x128, .f32⟩ : BufTy).Contents (Elt F)),
    binary main_v307 main_v312 main_v313 (mulf : (⟨S100000x128, .f32⟩ : BufTy).Contents (Elt F) → (⟨S100000x128, .f32⟩ : BufTy).Contents (Elt F) → (⟨S100000x128, .f32⟩ : BufTy).Contents (Elt F)),
    unary main_v297 main_v314 (broadcastInDim S1x128 ![1] bcast_S128_S1x128_1 : (⟨S128, .f32⟩ : BufTy).Contents (Elt F) → (⟨S1x128, .f32⟩ : BufTy).Contents (Elt F)),
    unary main_v314 main_v315 (broadcastInDim S100000x128 ![0, 1] bcast_S1x128_S100000x128_0_1 : (⟨S1x128, .f32⟩ : BufTy).Contents (Elt F) → (⟨S100000x128, .f32⟩ : BufTy).Contents (Elt F)) ]

set_option maxRecDepth 16384 in
set_option maxHeartbeats 4000000 in
/-- The window is that straight line: the callees' definitions unfold at their calls, the records at their fields. -/
theorem main_part5_eq (c : Dev nD) : main_part5 (F := F) c = seq ops5 := rfl

set_option maxRecDepth 16384 in
/-- Every operation of the window touches TensorCore references only. -/
theorem ops5_sub : (ops5 : List (HloOp τ sig (Elt F))).Forall fun op => op.bufs ⊆ tcRefs τ sig :=
  ⟨reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub .., unary_bufs_sub .., reshape_bufs_sub .., unary_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub ..⟩

/-- Every operation of the window determines its results: none leaves a buffer at contents not chosen. -/
theorem ops5_fresh : (ops5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers the window's operations write, in order. -/
abbrev ops5_W : List (Ref sig .tc) := [main_v264, main_cst_34, main_v265, main_cst_35, main_v266, main_v267, main_c_36, main_call13_cst, main_call13_v0, main_call13_v1, main_call13_cst_0, main_call13_v2, main_call13_v3, main_call13_v4, main_call13_v5, main_call13_v6, main_call13_v7, main_call13_cst_1, main_call13_v8, main_call13_cst_2, main_call13_v9, main_call13_v10, main_call13_v11, main_call13_cst_3, main_call13_v12, main_call13_cst_4, main_call13_call0_v0, main_call13_call0_v1, main_v268, main_v269, main_v270, main_v271, main_v272, main_v273, main_v274, main_cst_37, main_v275, main_v276, main_v277, main_v278, main_v279, main_v280, main_v281, main_v282, main_v283, main_call14_cst, main_call14_v0, main_v284, main_v285, main_v286, main_v287, main_v288, main_v289, main_v290, main_v291, main_v292, main_v293, main_v294, main_v295, main_v296, main_v297, main_cst_38, main_v298, main_cst_39, main_v299, main_v300, main_c_40, main_call15_cst, main_call15_v0, main_call15_v1, main_call15_cst_0, main_call15_v2, main_call15_v3, main_call15_v4, main_call15_v5, main_call15_v6, main_call15_v7, main_call15_cst_1, main_call15_v8, main_call15_cst_2, main_call15_v9, main_call15_v10, main_call15_v11, main_call15_cst_3, main_call15_v12, main_call15_cst_4, main_call15_call0_v0, main_call15_call0_v1, main_v301, main_v302, main_v303, main_v304, main_v305, main_v306, main_v307, main_cst_41, main_v308, main_v309, main_v310, main_v311, main_v312, main_v313, main_v314, main_v315]

set_option maxRecDepth 16384 in
set_option maxHeartbeats 4000000 in
/-- Each operation writes exactly its result buffer, which is in the list. -/
theorem ops5_writes : (ops5 : List (HloOp τ sig (Elt F))).Forall fun op => op.writes ⊆ (ops5_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- A buffer the window does not write keeps its contents through it. -/
theorem keep5 (V : Valuation τ sig (Elt F)) (r : Ref sig .tc) (h : r ∉ ops5_W) :
    after ops5 V (Proc.devRef .tc r) = V (Proc.devRef .tc r) :=
  after_of_writes_sub ops5 V ops5_writes h

end Cert.ReferenceIdeal.HandRun

end
-- ==== Proof.RefRun6.lean ====
/- Window 6 of the reference program's @main (`main_part6`) as a list of host operations, in program order.
   An outlined function's call is replaced by the callee's operations at the call's own buffers (the call record's
   fields), each spelt with the typed-reference builder at the literal buffer, so that the window is one straight
   line: `main_part6 c = seq ops6`. Beside the list: every operation touches TensorCore references only, the list
   of the buffers the window writes, and that a buffer outside that list keeps its contents through the window. -/
import proofs.«119304_j10247791968545_2_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- @main's operations 545 … 562 of 562 (window `main_part6`), a called function's operations in its call's place. -/
abbrev ops6 : List (HloOp τ sig (Elt F)) :=
  [ binary main_v313 main_v315 main_v316 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call16_cst) (constant S_ .f32 0x00000000#32),
    TRef.unary (TRef.of (T := ⟨S_, .f32⟩) main_call16_cst) (TRef.of (T := ⟨S100000x128, .f32⟩) main_call16_v0) (broadcastInDim S100000x128 ![] bcast_S_S100000x128),
    TRef.binary (TRef.of (T := ⟨S100000x128, .f32⟩) main_v316) (TRef.of (T := ⟨S100000x128, .f32⟩) main_call16_v0) (TRef.of (T := ⟨S100000x128, .f32⟩) main_v317) maximumf,
    nullary main_c_42 (constantI S_ 32 0#32),
    unary main_c_42 main_v318 (broadcastInDim S10000 ![] bcast_S_S10000 : (⟨S_, .i32⟩ : BufTy).Contents (Elt F) → (⟨S10000, .i32⟩ : BufTy).Contents (Elt F)),
    binary main_arg2 main_v318 main_v319 (cmpi .slt : (⟨S10000, .i32⟩ : BufTy).Contents (Elt F) → (⟨S10000, .i32⟩ : BufTy).Contents (Elt F) → (⟨S10000, .i1⟩ : BufTy).Contents (Elt F)),
    nullary main_c_43 (constantI S_ 32 100000#32),
    unary main_c_43 main_v320 (broadcastInDim S10000 ![] bcast_S_S10000 : (⟨S_, .i32⟩ : BufTy).Contents (Elt F) → (⟨S10000, .i32⟩ : BufTy).Contents (Elt F)),
    binary main_arg2 main_v320 main_v321 (addi : (⟨S10000, .i32⟩ : BufTy).Contents (Elt F) → (⟨S10000, .i32⟩ : BufTy).Contents (Elt F) → (⟨S10000, .i32⟩ : BufTy).Contents (Elt F)),
    ternary main_v319 main_v321 main_arg2 main_v322 (select : (⟨S10000, .i1⟩ : BufTy).Contents (Elt F) → (⟨S10000, .i32⟩ : BufTy).Contents (Elt F) → (⟨S10000, .i32⟩ : BufTy).Contents (Elt F) → (⟨S10000, .i32⟩ : BufTy).Contents (Elt F)),
    unary main_v322 main_v323 (broadcastInDim S10000x1 ![0] bcast_S10000_S10000x1_0 : (⟨S10000, .i32⟩ : BufTy).Contents (Elt F) → (⟨S10000x1, .i32⟩ : BufTy).Contents (Elt F)),
    binary main_v317 main_v323 main_v324 ((fun x i => Host.gather gather_S100000x128_S10000x1_S10000x128_1_0_n_n_0_1_1128 x i) : (⟨S100000x128, .f32⟩ : BufTy).Contents (Elt F) → (⟨S10000x1, .i32⟩ : BufTy).Contents (Elt F) → (⟨S10000x128, .f32⟩ : BufTy).Contents (Elt F)),
    unary main_arg13 main_v325 ((transpose S128x10 [1, 0] · transposes_S10x128_S128x10_1_0) : (⟨S10x128, .f32⟩ : BufTy).Contents (Elt F) → (⟨S128x10, .f32⟩ : BufTy).Contents (Elt F)),
    binary main_v324 main_v325 main_v326 ((fun l r => Host.dotGeneral dot_S10000x128_S128x10_S10000x10_1_0_0_1_n_n none l r) : (⟨S10000x128, .f32⟩ : BufTy).Contents (Elt F) → (⟨S128x10, .f32⟩ : BufTy).Contents (Elt F) → (⟨S10000x10, .f32⟩ : BufTy).Contents (Elt F)),
    unary main_arg14 main_v327 (broadcastInDim S1x10 ![1] bcast_S10_S1x10_1 : (⟨S10, .f32⟩ : BufTy).Contents (Elt F) → (⟨S1x10, .f32⟩ : BufTy).Contents (Elt F)),
    unary main_v327 main_v328 (broadcastInDim S10000x10 ![0, 1] bcast_S1x10_S10000x10_0_1 : (⟨S1x10, .f32⟩ : BufTy).Contents (Elt F) → (⟨S10000x10, .f32⟩ : BufTy).Contents (Elt F)),
    binary main_v326 main_v328 main_v329 (addf : (⟨S10000x10, .f32⟩ : BufTy).Contents (Elt F) → (⟨S10000x10, .f32⟩ : BufTy).Contents (Elt F) → (⟨S10000x10, .f32⟩ : BufTy).Contents (Elt F)) ]

set_option maxRecDepth 16384 in
set_option maxHeartbeats 4000000 in
/-- The window is that straight line: the callees' definitions unfold at their calls, the records at their fields. -/
theorem main_part6_eq (c : Dev nD) : main_part6 (F := F) c = seq ops6 := rfl

set_option maxRecDepth 16384 in
/-- Every operation of the window touches TensorCore references only. -/
theorem ops6_sub : (ops6 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., unary_bufs_sub .., unary_bufs_sub .., binary_bufs_sub ..⟩

/-- Every operation of the window determines its results: none leaves a buffer at contents not chosen. -/
theorem ops6_fresh : (ops6 : List (HloOp τ sig (Elt F))).Forall fun op => op.fresh = ∅ :=
  ⟨rfl, rfl, rfl, rfl, rfl, rfl, rfl, rfl, rfl, rfl, rfl, rfl, rfl, rfl, rfl, rfl, rfl, rfl⟩

/-- The buffers the window's operations write, in order. -/
abbrev ops6_W : List (Ref sig .tc) := [main_v316, main_call16_cst, main_call16_v0, main_v317, main_c_42, main_v318, main_v319, main_c_43, main_v320, main_v321, main_v322, main_v323, main_v324, main_v325, main_v326, main_v327, main_v328, main_v329]

set_option maxRecDepth 16384 in
set_option maxHeartbeats 4000000 in
/-- Each operation writes exactly its result buffer, which is in the list. -/
theorem ops6_writes : (ops6 : List (HloOp τ sig (Elt F))).Forall fun op => op.writes ⊆ (ops6_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- A buffer the window does not write keeps its contents through it. -/
theorem keep6 (V : Valuation τ sig (Elt F)) (r : Ref sig .tc) (h : r ∉ ops6_W) :
    after ops6 V (Proc.devRef .tc r) = V (Proc.devRef .tc r) :=
  after_of_writes_sub ops6 V ops6_writes h

end Cert.ReferenceIdeal.HandRun

end
-- ==== Proof.RefRun.lean ====
/- The reference program's run. @main runs its seven windows in turn and each window is a straight line of host
   operations (the window modules), so @main is the straight line of their concatenation `ops`. A straight line on a
   signature that scopes nothing runs to its end from any memory with zero counters, and leaves every buffer at the
   fold of the operations' results over the launch contents (`after ops`). A buffer that no operation writes — each
   of @main's fifteen arguments — is left as it was: it is outside every window's list of written buffers. -/
import proofs.«119304_j10247791968545_2_alg».proof.Proof.RefRun0
import proofs.«119304_j10247791968545_2_alg».proof.Proof.RefRun1
import proofs.«119304_j10247791968545_2_alg».proof.Proof.RefRun2
import proofs.«119304_j10247791968545_2_alg».proof.Proof.RefRun3
import proofs.«119304_j10247791968545_2_alg».proof.Proof.RefRun4
import proofs.«119304_j10247791968545_2_alg».proof.Proof.RefRun5
import proofs.«119304_j10247791968545_2_alg».proof.Proof.RefRun6
import Idealize.ShloMosaic.Lib.Pipeline.Frame

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- @main's 562 operations, in order (a called function's operations in its call's place): the windows' lists in turn. -/
abbrev ops : List (HloOp τ sig (Elt F)) :=
  ops0 ++ (ops1 ++ (ops2 ++ (ops3 ++ (ops4 ++ (ops5 ++ ops6)))))

/-- @main is that straight line: a line of two lists is the first run, then the second (`seq_append`), and each window
    is its own list's line. -/
theorem main_eq (c : Dev nD) : main (F := F) c = seq ops := by
  simp only [ops, seq_append, ← main_part0_eq c, ← main_part1_eq c, ← main_part2_eq c, ← main_part3_eq c, ← main_part4_eq c, ← main_part5_eq c, ← main_part6_eq c]
  rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only: it is an operation of one of the windows. -/
theorem ops_sub : (ops : List (HloOp τ sig (Elt F))).Forall fun op => op.bufs ⊆ tcRefs τ sig :=
  List.forall_iff_forall_mem.mpr fun op h => by
    simp only [ops, List.mem_append] at h
    rcases h with h | h | h | h | h | h | h
    exacts [List.forall_iff_forall_mem.mp ops0_sub op h, List.forall_iff_forall_mem.mp ops1_sub op h, List.forall_iff_forall_mem.mp ops2_sub op h, List.forall_iff_forall_mem.mp ops3_sub op h, List.forall_iff_forall_mem.mp ops4_sub op h, List.forall_iff_forall_mem.mp ops5_sub op h, List.forall_iff_forall_mem.mp ops6_sub op h]

/-- Every operation determines its results. -/
theorem ops_fresh : ∀ op ∈ (ops : List (HloOp τ sig (Elt F))), op.fresh = ∅ := fun op h => by
  simp only [ops, List.mem_append] at h
  rcases h with h | h | h | h | h | h | h
  exacts [List.forall_iff_forall_mem.mp ops0_fresh op h, List.forall_iff_forall_mem.mp ops1_fresh op h, List.forall_iff_forall_mem.mp ops2_fresh op h, List.forall_iff_forall_mem.mp ops3_fresh op h, List.forall_iff_forall_mem.mp ops4_fresh op h, List.forall_iff_forall_mem.mp ops5_fresh op h, List.forall_iff_forall_mem.mp ops6_fresh op h]

/-- A buffer that no window writes keeps its contents through the whole line: window by window, last first. -/
theorem keep (V : Valuation τ sig (Elt F)) (r : Ref sig .tc)
    (h0 : r ∉ ops0_W) (h1 : r ∉ ops1_W) (h2 : r ∉ ops2_W) (h3 : r ∉ ops3_W) (h4 : r ∉ ops4_W) (h5 : r ∉ ops5_W) (h6 : r ∉ ops6_W) :
    after ops V (Proc.devRef .tc r) = V (Proc.devRef .tc r) := by
  simp only [ops, after_append]
  exact (keep6 _ r h6).trans <| (keep5 _ r h5).trans <| (keep4 _ r h4).trans <| (keep3 _ r h3).trans <| (keep2 _ r h2).trans <| (keep1 _ r h1).trans <| (keep0 V r h0)

/-- On every device, for any float values, from any memory with zero counters: every weakly fair execution of @main
    terminates, with the result buffer at the fold of the operations' results over the launch contents and the
    fifteen arguments unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v329) = after ops (fun b => m (c, b)) (Proc.devRef .tc main_v329)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c => ⟨h c main_v329,
      (h c main_arg0).trans (keep _ main_arg0 (by decide) (by decide) (by decide) (by decide) (by decide) (by decide) (by decide)),
      (h c main_arg1).trans (keep _ main_arg1 (by decide) (by decide) (by decide) (by decide) (by decide) (by decide) (by decide)),
      (h c main_arg2).trans (keep _ main_arg2 (by decide) (by decide) (by decide) (by decide) (by decide) (by decide) (by decide)),
      (h c main_arg3).trans (keep _ main_arg3 (by decide) (by decide) (by decide) (by decide) (by decide) (by decide) (by decide)),
      (h c main_arg4).trans (keep _ main_arg4 (by decide) (by decide) (by decide) (by decide) (by decide) (by decide) (by decide)),
      (h c main_arg5).trans (keep _ main_arg5 (by decide) (by decide) (by decide) (by decide) (by decide) (by decide) (by decide)),
      (h c main_arg6).trans (keep _ main_arg6 (by decide) (by decide) (by decide) (by decide) (by decide) (by decide) (by decide)),
      (h c main_arg7).trans (keep _ main_arg7 (by decide) (by decide) (by decide) (by decide) (by decide) (by decide) (by decide)),
      (h c main_arg8).trans (keep _ main_arg8 (by decide) (by decide) (by decide) (by decide) (by decide) (by decide) (by decide)),
      (h c main_arg9).trans (keep _ main_arg9 (by decide) (by decide) (by decide) (by decide) (by decide) (by decide) (by decide)),
      (h c main_arg10).trans (keep _ main_arg10 (by decide) (by decide) (by decide) (by decide) (by decide) (by decide) (by decide)),
      (h c main_arg11).trans (keep _ main_arg11 (by decide) (by decide) (by decide) (by decide) (by decide) (by decide) (by decide)),
      (h c main_arg12).trans (keep _ main_arg12 (by decide) (by decide) (by decide) (by decide) (by decide) (by decide) (by decide)),
      (h c main_arg13).trans (keep _ main_arg13 (by decide) (by decide) (by decide) (by decide) (by decide) (by decide) (by decide)),
      (h c main_arg14).trans (keep _ main_arg14 (by decide) (by decide) (by decide) (by decide) (by decide) (by decide) (by decide))⟩)
    (run_seq scopedRefs_eq scopedSems_eq defs main (fun _ => ops) main_eq (fun _ => ops_sub) m ρ (fun _ => ops_fresh))

end Cert.ReferenceIdeal.HandRun

end
-- ==== Proof.RefStages.lean ====
/- The reference program's stages as pure functions of arrays, read at exact extended-real values.
   One GIN layer is: gather the source rows of the edge list and add them into the destination rows (`aggStage`), add the
   node's own row (`hStage`), then twice a linear map (`linStage`), a batch normalisation over the node axis with the
   biased variance (`bnStage`: `meanStage`, `varStage`) and a rectifier (`reluStage`). Before the layers one linear map of
   the input; after them the rows the mask selects, through the output linear map (`tailStage`). A layer's parameters are
   row `l` of the stacked parameter arrays (`matAt‹l›`, `rowAt‹l›`). -/
import proofs.«119304_j10247791968545_2_alg».proof.Proof.Gen.ReferenceIdeal
import Idealize.ShloMosaic.PureOps.Ideal

noncomputable section

namespace Cert.ReferenceIdeal.HandRun

open Cert.ReferenceIdeal Cert.ReferenceIdeal.Gen Idealize.ShloMosaic

/-- Node features: 100000 rows of 128. -/
abbrev TNode : Type := FVec Ideal S100000x128 .f32
/-- A 128 × 128 weight matrix. -/
abbrev TSq : Type := FVec Ideal S128x128 .f32
/-- A vector of 128 (a bias, a scale, a column statistic). -/
abbrev TVec : Type := FVec Ideal S128 .f32
/-- The edge list: row 0 the sources, row 1 the destinations. -/
abbrev TEdges : Type := IVec S2x625000 32
/-- One row index per edge, as a column. -/
abbrev TEdgeIdx : Type := IVec S625000x1 32
/-- Four stacked weight matrices, one per layer. -/
abbrev TSq4 : Type := FVec Ideal S4x128x128 .f32
/-- Four stacked vectors, one per layer. -/
abbrev TVec4 : Type := FVec Ideal S4x128 .f32
/-- The mask's 10000 row indices. -/
abbrev TMask : Type := IVec S10000 32
/-- The output weight matrix, 10 × 128. -/
abbrev TWout : Type := FVec Ideal S10x128 .f32
/-- The output bias, 10. -/
abbrev TBout : Type := FVec Ideal S10 .f32
/-- The result: 10000 rows of 10. -/
abbrev TOut : Type := FVec Ideal S10000x10 .f32

/-! ## A layer's parameters: row `l` of a stacked array -/

/-- Matrix 0 of four stacked 128 × 128 matrices. -/
def matAt0 (Ws : TSq4) : TSq :=
  shapeCast S128x128 (extractStridedSlice S1x128x128 ![0, 0, 0] Ws slices_S4x128x128_S1x128x128_0_0_0) shapeCasts_S1x128x128_S128x128
/-- Row 0 of four stacked vectors of 128. -/
def rowAt0 (bs : TVec4) : TVec :=
  shapeCast S128 (extractStridedSlice S1x128 ![0, 0] bs slices_S4x128_S1x128_0_0) shapeCasts_S1x128_S128
/-- Matrix 1 of four stacked 128 × 128 matrices. -/
def matAt1 (Ws : TSq4) : TSq :=
  shapeCast S128x128 (extractStridedSlice S1x128x128 ![1, 0, 0] Ws slices_S4x128x128_S1x128x128_1_0_0) shapeCasts_S1x128x128_S128x128
/-- Row 1 of four stacked vectors of 128. -/
def rowAt1 (bs : TVec4) : TVec :=
  shapeCast S128 (extractStridedSlice S1x128 ![1, 0] bs slices_S4x128_S1x128_1_0) shapeCasts_S1x128_S128
/-- Matrix 2 of four stacked 128 × 128 matrices. -/
def matAt2 (Ws : TSq4) : TSq :=
  shapeCast S128x128 (extractStridedSlice S1x128x128 ![2, 0, 0] Ws slices_S4x128x128_S1x128x128_2_0_0) shapeCasts_S1x128x128_S128x128
/-- Row 2 of four stacked vectors of 128. -/
def rowAt2 (bs : TVec4) : TVec :=
  shapeCast S128 (extractStridedSlice S1x128 ![2, 0] bs slices_S4x128_S1x128_2_0) shapeCasts_S1x128_S128
/-- Matrix 3 of four stacked 128 × 128 matrices. -/
def matAt3 (Ws : TSq4) : TSq :=
  shapeCast S128x128 (extractStridedSlice S1x128x128 ![3, 0, 0] Ws slices_S4x128x128_S1x128x128_3_0_0) shapeCasts_S1x128x128_S128x128
/-- Row 3 of four stacked vectors of 128. -/
def rowAt3 (bs : TVec4) : TVec :=
  shapeCast S128 (extractStridedSlice S1x128 ![3, 0] bs slices_S4x128_S1x128_3_0) shapeCasts_S1x128_S128

/-! ## The stages -/

/-- A vector of 128 repeated along all 100000 rows. -/
def rowsOf (v : TVec) : TNode :=
  broadcastInDim S100000x128 ![0, 1] bcast_S1x128_S100000x128_0_1 (broadcastInDim S1x128 ![1] bcast_S128_S1x128_1 v)

/-- `x @ W.T + b`: every row of `x` against every row of `W`, plus `b` along every row. -/
def linStage (x : TNode) (W : TSq) (b : TVec) : TNode :=
  addf (Host.dotGeneral (F := Ideal) dot_S100000x128_S128x128_S100000x128_1_0_0_1_n_n none x
      (transpose S128x128 [1, 0] W transposes_S128x128_S128x128_1_0))
    (rowsOf b)

/-- The edges' source rows (row 0 of the edge list). -/
def srcRow (ei : TEdges) : IVec S625000 32 :=
  shapeCast S625000 (extractStridedSlice S1x625000 ![0, 0] ei slices_S2x625000_S1x625000_0_0) shapeCasts_S1x625000_S625000
/-- The edges' destination rows (row 1 of the edge list). -/
def dstRow (ei : TEdges) : IVec S625000 32 :=
  shapeCast S625000 (extractStridedSlice S1x625000 ![1, 0] ei slices_S2x625000_S1x625000_1_0) shapeCasts_S1x625000_S625000

/-- The gather's index column from the source rows: each one, a negative one counted from the end (plus 100000). -/
def srcIdxOf (src : IVec S625000 32) : TEdgeIdx :=
  broadcastInDim S625000x1 ![0] bcast_S625000_S625000x1_0
    (select (cmpi .slt src (broadcastInDim S625000 ![] bcast_S_S625000 (constantI S_ 32 0#32)))
      (addi src (broadcastInDim S625000 ![] bcast_S_S625000 (constantI S_ 32 100000#32)))
      src)
/-- The scatter's index column from the destination rows. -/
def dstIdxOf (dst : IVec S625000 32) : TEdgeIdx :=
  broadcastInDim S625000x1 ![0] bcast_S625000_S625000x1_0 dst

/-- The aggregation over given source and destination rows: from all zeros, each edge adds its source's row of `x`
    into its destination's row. -/
def aggOf (x : TNode) (src dst : IVec S625000 32) : TNode :=
  Host.scatterAdd (F := Ideal) scatter_S100000x128_S625000x1_S625000x128_1_0_0_1
    (broadcastInDim S100000x128 ![] bcast_S_S100000x128 (constant (F := Ideal) S_ .f32 0x00000000#32))
    (dstIdxOf dst)
    (Host.gather gather_S100000x128_S625000x1_S625000x128_1_0_n_n_0_1_1128 x (srcIdxOf src))

/-- The aggregation over the edge list. -/
def aggStage (x : TNode) (ei : TEdges) : TNode :=
  aggOf x (srcRow ei) (dstRow ei)

/-- A node's own row plus its aggregated neighbours. -/
def hStage (x : TNode) (ei : TEdges) : TNode :=
  addf x (aggStage x ei)

/-- The column sums over the 100000 rows, from zero. -/
def colSum (y : TNode) : TVec :=
  Host.reduceAdd (F := Ideal) y (constant (F := Ideal) S_ .f32 0x00000000#32) reducesTo_S100000x128_S128_d0 h_S_

/-- The column means: the column sums over 100000. -/
def meanStage (y : TNode) : TVec :=
  Host.divf (F := Ideal) (colSum y) (broadcastInDim S128 ![] bcast_S_S128 (constant (F := Ideal) S_ .f32 0x47C35000#32))

/-- The variance's divisor: 100000 less the correction 0. -/
def varCount : FVec Ideal S_ .f32 :=
  subf (constant (F := Ideal) S_ .f32 0x47C35000#32) (sitofp (F := Ideal) .f32 (constantI S_ 32 0#32))

/-- `y` less its column means (the means computed as the variance computes them: sum, as a row, over 100000). -/
def centered (y : TNode) : TNode :=
  subf y (broadcastInDim S100000x128 ![0, 1] bcast_S1x128_S100000x128_0_1
    (Host.divf (F := Ideal) (broadcastInDim S1x128 ![1] bcast_S128_S1x128_1 (colSum y))
      (broadcastInDim S1x128 ![] bcast_S_S1x128 (constant (F := Ideal) S_ .f32 0x47C35000#32))))

/-- The biased column variances: the column sums of the squared centered entries over the divisor, where the
    divisor is positive, and not-a-number elsewhere. -/
def varStage (y : TNode) : TVec :=
  select (broadcastInDim S128 ![] bcast_S_S128 (cmpf .ogt varCount (constant (F := Ideal) S_ .f32 0x00000000#32)))
    (Host.divf (F := Ideal) (colSum (mulf (centered y) (centered y))) (broadcastInDim S128 ![] bcast_S_S128 varCount))
    (broadcastInDim S128 ![] bcast_S_S128 (id (constant (F := Ideal) S_ .f32 0x7FC00000#32)))

/-- The normalisation at given column means and variances: `g * (y - mu) * rsqrt (v + eps) + be`, column by column. -/
def bnOf (y : TNode) (mu v g be : TVec) : TNode :=
  addf (mulf (mulf (rowsOf g) (subf y (rowsOf mu)))
      (rowsOf (Host.rsqrt (F := Ideal)
        (addf v (broadcastInDim S128 ![] bcast_S_S128 (constant (F := Ideal) S_ .f32 0x3727C5AC#32))))))
    (rowsOf be)

/-- Batch normalisation over the rows, at the array's own column means and biased column variances. -/
def bnStage (y : TNode) (g be : TVec) : TNode :=
  bnOf y (meanStage y) (varStage y) g be

/-- The rectifier: the maximum with zero, entry by entry. -/
def reluStage (z : TNode) : TNode :=
  maximumf z (broadcastInDim S100000x128 ![] bcast_S_S100000x128 (constant (F := Ideal) S_ .f32 0x00000000#32))

/-- A layer's two blocks of linear map, normalisation and rectifier. -/
def mlpStage (h : TNode) (W1 : TSq) (b1 g1 be1 : TVec) (W2 : TSq) (b2 g2 be2 : TVec) : TNode :=
  reluStage (bnStage (linStage (reluStage (bnStage (linStage h W1 b1) g1 be1)) W2 b2) g2 be2)

/-- One layer: aggregation, then the two blocks. -/
def layerStage (x : TNode) (ei : TEdges) (W1 : TSq) (b1 g1 be1 : TVec) (W2 : TSq) (b2 g2 be2 : TVec) : TNode :=
  mlpStage (hStage x ei) W1 b1 g1 be1 W2 b2 g2 be2

/-- The mask's index column: each row index, a negative one counted from the end (plus 100000). -/
def maskIdx (mk : TMask) : IVec S10000x1 32 :=
  broadcastInDim S10000x1 ![0] bcast_S10000_S10000x1_0
    (select (cmpi .slt mk (broadcastInDim S10000 ![] bcast_S_S10000 (constantI S_ 32 0#32)))
      (addi mk (broadcastInDim S10000 ![] bcast_S_S10000 (constantI S_ 32 100000#32)))
      mk)

/-- The tail: the masked rows of `x`, against the rows of `Wout`, plus `bout` along every row. -/
def tailStage (x : TNode) (mk : TMask) (Wout : TWout) (bout : TBout) : TOut :=
  addf (Host.dotGeneral (F := Ideal) dot_S10000x128_S128x10_S10000x10_1_0_0_1_n_n none
      (Host.gather gather_S100000x128_S10000x1_S10000x128_1_0_n_n_0_1_1128 x (maskIdx mk))
      (transpose S128x10 [1, 0] Wout transposes_S10x128_S128x10_1_0))
    (broadcastInDim S10000x10 ![0, 1] bcast_S1x10_S10000x10_0_1 (broadcastInDim S1x10 ![1] bcast_S10_S1x10_1 bout))

end Cert.ReferenceIdeal.HandRun

end
-- ==== Proof.LibAfterSplit.lean ====
/- A straight line of host operations cut in three, `pre ++ (seg ++ post)`: what a buffer holds at the end is what it
   holds after `seg` when `post` does not write it, and what it holds after `pre` when neither `seg` nor `post` does.
   The buffers a line writes are listed as references (membership in such a list is decided by computation); the list
   of two lines in a row is the two lists in a row. General: no program is named here. -/
import Idealize.ShloMosaic.Lib.StableHlo.Run
import Idealize.ShloMosaic.Lib.Pipeline.Frame

namespace Cert.Lib.AfterSplit

open Idealize.ShloMosaic Idealize.ShloMosaic.StableHlo

variable {τ : Topo} {sig : RefSig} {Val : EltTy → Type}

/-- Every operation of the line writes only buffers of the list. -/
abbrev WritesIn (l : List (HloOp τ sig Val)) (W : List (Ref sig .tc)) : Prop :=
  l.Forall fun op => op.writes ⊆ (W.map (Proc.devRef (τ := τ) .tc)).toFinset

/-- The empty line writes nothing. -/
theorem writesIn_nil : WritesIn ([] : List (HloOp τ sig Val)) [] := trivial

/-- Two lines in a row write the buffers of the two lists in a row. -/
theorem writesIn_append {l₁ l₂ : List (HloOp τ sig Val)} {W₁ W₂ : List (Ref sig .tc)}
    (h₁ : WritesIn l₁ W₁) (h₂ : WritesIn l₂ W₂) : WritesIn (l₁ ++ l₂) (W₁ ++ W₂) := by
  unfold WritesIn at *
  rw [List.forall_iff_forall_mem] at *
  intro op hop x hx
  rw [List.map_append, List.toFinset_append, Finset.mem_union]
  rcases List.mem_append.mp hop with h | h
  · exact Or.inl (h₁ op h hx)
  · exact Or.inr (h₂ op h hx)

/-- A buffer that `post` does not write holds at the end of `pre ++ (seg ++ post)` what it holds after `seg`. -/
theorem after_mid (pre seg post : List (HloOp τ sig Val)) {Wp : List (Ref sig .tc)} (hp : WritesIn post Wp)
    (V : Valuation τ sig Val) {r : Ref sig .tc} (hr : r ∉ Wp) :
    after (pre ++ (seg ++ post)) V (Proc.devRef .tc r) = after seg (after pre V) (Proc.devRef .tc r) := by
  rw [after_append, after_append, after_of_writes_sub post _ hp hr]

/-- A buffer that `rest` does not write holds at the end of `pre ++ rest` what it holds after `pre`. -/
theorem after_pre (pre rest : List (HloOp τ sig Val)) {Wr : List (Ref sig .tc)} (hw : WritesIn rest Wr)
    (V : Valuation τ sig Val) {r : Ref sig .tc} (hr : r ∉ Wr) :
    after (pre ++ rest) V (Proc.devRef .tc r) = after pre V (Proc.devRef .tc r) := by
  rw [after_append, after_of_writes_sub rest _ hw hr]

end Cert.Lib.AfterSplit
-- ==== Proof.RefSegL0.lean ====
/- Layer 0 of the reference program, stage by stage: the operations of each stage as a list (a stage that @main's
   printed windows cut in two is two lists in a row), the buffers the list writes, and what the stage's result buffer
   holds after the list, from any contents before it, as the stage's pure function of the buffers it reads: the
   aggregation, the node's own row added, then twice the linear map, the column sums and means, the column variances,
   the normalisation and the rectifier; layer 0 ends with a second rectifier. -/
import proofs.«119304_j10247791968545_2_alg».proof.Proof.RefStages
import proofs.«119304_j10247791968545_2_alg».proof.Proof.LibAfterSplit
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo
open Cert.Lib.AfterSplit

variable {F : FTy → Type} [FloatOps F]

/-- @main's operations 10 … 22 of 562. -/
abbrev L0_A : List (HloOp τ sig (Elt F)) :=
  [ nullary main_c (constantI S_ 32 0#32),
    unary main_c main_v9 (broadcastInDim S625000 ![] bcast_S_S625000 : (⟨S_, .i32⟩ : BufTy).Contents (Elt F) → (⟨S625000, .i32⟩ : BufTy).Contents (Elt F)),
    binary main_v1 main_v9 main_v10 (cmpi .slt : (⟨S625000, .i32⟩ : BufTy).Contents (Elt F) → (⟨S625000, .i32⟩ : BufTy).Contents (Elt F) → (⟨S625000, .i1⟩ : BufTy).Contents (Elt F)),
    nullary main_c_0 (constantI S_ 32 100000#32),
    unary main_c_0 main_v11 (broadcastInDim S625000 ![] bcast_S_S625000 : (⟨S_, .i32⟩ : BufTy).Contents (Elt F) → (⟨S625000, .i32⟩ : BufTy).Contents (Elt F)),
    binary main_v1 main_v11 main_v12 (addi : (⟨S625000, .i32⟩ : BufTy).Contents (Elt F) → (⟨S625000, .i32⟩ : BufTy).Contents (Elt F) → (⟨S625000, .i32⟩ : BufTy).Contents (Elt F)),
    ternary main_v10 main_v12 main_v1 main_v13 (select : (⟨S625000, .i1⟩ : BufTy).Contents (Elt F) → (⟨S625000, .i32⟩ : BufTy).Contents (Elt F) → (⟨S625000, .i32⟩ : BufTy).Contents (Elt F) → (⟨S625000, .i32⟩ : BufTy).Contents (Elt F)),
    unary main_v13 main_v14 (broadcastInDim S625000x1 ![0] bcast_S625000_S625000x1_0 : (⟨S625000, .i32⟩ : BufTy).Contents (Elt F) → (⟨S625000x1, .i32⟩ : BufTy).Contents (Elt F)),
    binary main_v8 main_v14 main_v15 ((fun x i => Host.gather gather_S100000x128_S625000x1_S625000x128_1_0_n_n_0_1_1128 x i) : (⟨S100000x128, .f32⟩ : BufTy).Contents (Elt F) → (⟨S625000x1, .i32⟩ : BufTy).Contents (Elt F) → (⟨S625000x128, .f32⟩ : BufTy).Contents (Elt F)),
    nullary main_cst (constant S_ .f32 0x00000000#32),
    unary main_cst main_v16 (broadcastInDim S100000x128 ![] bcast_S_S100000x128 : (⟨S_, .f32⟩ : BufTy).Contents (Elt F) → (⟨S100000x128, .f32⟩ : BufTy).Contents (Elt F)),
    unary main_v3 main_v17 (broadcastInDim S625000x1 ![0] bcast_S625000_S625000x1_0 : (⟨S625000, .i32⟩ : BufTy).Contents (Elt F) → (⟨S625000x1, .i32⟩ : BufTy).Contents (Elt F)),
    ternary main_v16 main_v17 main_v15 main_v18 ((fun x i u => Host.scatterAdd scatter_S100000x128_S625000x1_S625000x128_1_0_0_1 x i u) : (⟨S100000x128, .f32⟩ : BufTy).Contents (Elt F) → (⟨S625000x1, .i32⟩ : BufTy).Contents (Elt F) → (⟨S625000x128, .f32⟩ : BufTy).Contents (Elt F) → (⟨S100000x128, .f32⟩ : BufTy).Contents (Elt F)) ]
/-- The buffers they write. -/
abbrev L0_A_W : List (Ref sig .tc) := [main_c, main_v9, main_v10, main_c_0, main_v11, main_v12, main_v13, main_v14, main_v15, main_cst, main_v16, main_v17, main_v18]
set_option maxRecDepth 16384 in
theorem L0_A_writes : WritesIn (L0_A : List (HloOp τ sig (Elt F))) L0_A_W := by
  simp only [WritesIn, List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

set_option maxRecDepth 16384 in
set_option maxHeartbeats 2000000 in
/-- After these operations, from any contents `W`, `main_v18` holds this stage of the contents before them. -/
theorem L0_A_agg (W : Valuation τ sig (Elt Ideal)) :
    after (L0_A (F := Ideal)) W (Proc.devRef .tc main_v18) = aggOf (W (Proc.devRef .tc main_v8)) (W (Proc.devRef .tc main_v1)) (W (Proc.devRef .tc main_v3)) := by
  simp only [L0_A]
  after_results_simp <;> rfl

/-- @main's operations 23 … 23 of 562. -/
abbrev L0_H : List (HloOp τ sig (Elt F)) :=
  [ binary main_v8 main_v18 main_v19 (addf : (⟨S100000x128, .f32⟩ : BufTy).Contents (Elt F) → (⟨S100000x128, .f32⟩ : BufTy).Contents (Elt F) → (⟨S100000x128, .f32⟩ : BufTy).Contents (Elt F)) ]
/-- The buffers they write. -/
abbrev L0_H_W : List (Ref sig .tc) := [main_v19]
set_option maxRecDepth 16384 in
theorem L0_H_writes : WritesIn (L0_H : List (HloOp τ sig (Elt F))) L0_H_W := by
  simp only [WritesIn, List.Forall]
  exact (by simp only [nullary_writes, unary_writes, binary_writes, ternary_writes, quaternary_writes, reshape_writes, Finset.singleton_subset_iff, List.mem_toFinset]; exact List.mem_map_of_mem (by decide))

set_option maxRecDepth 16384 in
set_option maxHeartbeats 2000000 in
/-- After these operations, from any contents `W`, `main_v19` holds this stage of the contents before them. -/
theorem L0_H_h (W : Valuation τ sig (Elt Ideal)) :
    after (L0_H (F := Ideal)) W (Proc.devRef .tc main_v19) = (addf ((W (Proc.devRef .tc main_v8)) : TNode) (W (Proc.devRef .tc main_v18)) : TNode) := by
  simp only [L0_H]
  after_results_simp <;> rfl

/-- @main's operations 24 … 32 of 562. -/
abbrev L0_L1 : List (HloOp τ sig (Elt F)) :=
  [ unary main_arg5 main_v20 ((extractStridedSlice S1x128x128 ![0, 0, 0] · slices_S4x128x128_S1x128x128_0_0_0) : (⟨S4x128x128, .f32⟩ : BufTy).Contents (Elt F) → (⟨S1x128x128, .f32⟩ : BufTy).Contents (Elt F)),
    reshape main_v20 main_v21 rfl shapeCasts_S1x128x128_S128x128,
    unary main_v21 main_v22 ((transpose S128x128 [1, 0] · transposes_S128x128_S128x128_1_0) : (⟨S128x128, .f32⟩ : BufTy).Contents (Elt F) → (⟨S128x128, .f32⟩ : BufTy).Contents (Elt F)),
    binary main_v19 main_v22 main_v23 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg6 main_v24 ((extractStridedSlice S1x128 ![0, 0] · slices_S4x128_S1x128_0_0) : (⟨S4x128, .f32⟩ : BufTy).Contents (Elt F) → (⟨S1x128, .f32⟩ : BufTy).Contents (Elt F)),
    reshape main_v24 main_v25 rfl shapeCasts_S1x128_S128,
    unary main_v25 main_v26 (broadcastInDim S1x128 ![1] bcast_S128_S1x128_1 : (⟨S128, .f32⟩ : BufTy).Contents (Elt F) → (⟨S1x128, .f32⟩ : BufTy).Contents (Elt F)),
    unary main_v26 main_v27 (broadcastInDim S100000x128 ![0, 1] bcast_S1x128_S100000x128_0_1 : (⟨S1x128, .f32⟩ : BufTy).Contents (Elt F) → (⟨S100000x128, .f32⟩ : BufTy).Contents (Elt F)),
    binary main_v23 main_v27 main_v28 (addf : (⟨S100000x128, .f32⟩ : BufTy).Contents (Elt F) → (⟨S100000x128, .f32⟩ : BufTy).Contents (Elt F) → (⟨S100000x128, .f32⟩ : BufTy).Contents (Elt F)) ]
/-- The buffers they write. -/
abbrev L0_L1_W : List (Ref sig .tc) := [main_v20, main_v21, main_v22, main_v23, main_v24, main_v25, main_v26, main_v27, main_v28]
set_option maxRecDepth 16384 in
theorem L0_L1_writes : WritesIn (L0_L1 : List (HloOp τ sig (Elt F))) L0_L1_W := by
  simp only [WritesIn, List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

set_option maxRecDepth 16384 in
set_option maxHeartbeats 2000000 in
/-- After these operations, from any contents `W`, `main_v28` holds this stage of the contents before them. -/
theorem L0_L1_y1 (W : Valuation τ sig (Elt Ideal)) :
    after (L0_L1 (F := Ideal)) W (Proc.devRef .tc main_v28) = linStage (W (Proc.devRef .tc main_v19)) (matAt0 (W (Proc.devRef .tc main_arg5))) (rowAt0 (W (Proc.devRef .tc main_arg6))) := by
  simp only [L0_L1]
  after_results_simp <;> rfl

/-- @main's operations 33 … 36 of 562. -/
abbrev L0_P1 : List (HloOp τ sig (Elt F)) :=
  [ unary main_arg7 main_v29 ((extractStridedSlice S1x128 ![0, 0] · slices_S4x128_S1x128_0_0) : (⟨S4x128, .f32⟩ : BufTy).Contents (Elt F) → (⟨S1x128, .f32⟩ : BufTy).Contents (Elt F)),
    reshape main_v29 main_v30 rfl shapeCasts_S1x128_S128,
    unary main_arg8 main_v31 ((extractStridedSlice S1x128 ![0, 0] · slices_S4x128_S1x128_0_0) : (⟨S4x128, .f32⟩ : BufTy).Contents (Elt F) → (⟨S1x128, .f32⟩ : BufTy).Contents (Elt F)),
    reshape main_v31 main_v32 rfl shapeCasts_S1x128_S128 ]
/-- The buffers they write. -/
abbrev L0_P1_W : List (Ref sig .tc) := [main_v29, main_v30, main_v31, main_v32]
set_option maxRecDepth 16384 in
theorem L0_P1_writes : WritesIn (L0_P1 : List (HloOp τ sig (Elt F))) L0_P1_W := by
  simp only [WritesIn, List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

set_option maxRecDepth 16384 in
set_option maxHeartbeats 2000000 in
/-- After these operations, from any contents `W`, `main_v30` holds this stage of the contents before them. -/
theorem L0_P1_g1 (W : Valuation τ sig (Elt Ideal)) :
    after (L0_P1 (F := Ideal)) W (Proc.devRef .tc main_v30) = rowAt0 (W (Proc.devRef .tc main_arg7)) := by
  simp only [L0_P1]
  after_results_simp <;> rfl

set_option maxRecDepth 16384 in
set_option maxHeartbeats 2000000 in
/-- After these operations, from any contents `W`, `main_v32` holds this stage of the contents before them. -/
theorem L0_P1_be1 (W : Valuation τ sig (Elt Ideal)) :
    after (L0_P1 (F := Ideal)) W (Proc.devRef .tc main_v32) = rowAt0 (W (Proc.devRef .tc main_arg8)) := by
  simp only [L0_P1]
  after_results_simp <;> rfl

/-- @main's operations 37 … 41 of 562. -/
abbrev L0_M1 : List (HloOp τ sig (Elt F)) :=
  [ nullary main_cst_1 (constant S_ .f32 0x00000000#32),
    binary main_v28 main_cst_1 main_v33 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_2 (constant S_ .f32 0x47C35000#32),
    unary main_cst_2 main_v34 (broadcastInDim S128 ![] bcast_S_S128 : (⟨S_, .f32⟩ : BufTy).Contents (Elt F) → (⟨S128, .f32⟩ : BufTy).Contents (Elt F)),
    binary main_v33 main_v34 main_v35 (Host.divf : (⟨S128, .f32⟩ : BufTy).Contents (Elt F) → (⟨S128, .f32⟩ : BufTy).Contents (Elt F) → (⟨S128, .f32⟩ : BufTy).Contents (Elt F)) ]
/-- The buffers they write. -/
abbrev L0_M1_W : List (Ref sig .tc) := [main_cst_1, main_v33, main_cst_2, main_v34, main_v35]
set_option maxRecDepth 16384 in
theorem L0_M1_writes : WritesIn (L0_M1 : List (HloOp τ sig (Elt F))) L0_M1_W := by
  simp only [WritesIn, List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

set_option maxRecDepth 16384 in
set_option maxHeartbeats 2000000 in
/-- After these operations, from any contents `W`, `main_v33` holds this stage of the contents before them. -/
theorem L0_M1_sum1 (W : Valuation τ sig (Elt Ideal)) :
    after (L0_M1 (F := Ideal)) W (Proc.devRef .tc main_v33) = colSum (W (Proc.devRef .tc main_v28)) := by
  simp only [L0_M1]
  after_results_simp <;> rfl

set_option maxRecDepth 16384 in
set_option maxHeartbeats 2000000 in
/-- After these operations, from any contents `W`, `main_v35` holds this stage of the contents before them. -/
theorem L0_M1_mean1 (W : Valuation τ sig (Elt Ideal)) :
    after (L0_M1 (F := Ideal)) W (Proc.devRef .tc main_v35) = meanStage (W (Proc.devRef .tc main_v28)) := by
  simp only [L0_M1]
  after_results_simp <;> rfl

/-- @main's operations 42 … 64 of 562. -/
abbrev L0_V1 : List (HloOp τ sig (Elt F)) :=
  [ nullary main_c_3 (constantI S_ 32 0#32),
    TRef.nullary (TRef.of (T := ⟨S_, .f32⟩) main_call0_cst) (constant S_ .f32 0x00000000#32),
    TRef.binary (TRef.of (T := ⟨S100000x128, .f32⟩) main_v28) (TRef.of (T := ⟨S_, .f32⟩) main_call0_cst) (TRef.of (T := ⟨S128, .f32⟩) main_call0_v0) (fun x v => Host.reduceAdd x v reducesTo_S100000x128_S128_d0 h_S_),
    TRef.unary (TRef.of (T := ⟨S128, .f32⟩) main_call0_v0) (TRef.of (T := ⟨S1x128, .f32⟩) main_call0_v1) (broadcastInDim S1x128 ![1] bcast_S128_S1x128_1),
    TRef.nullary (TRef.of (T := ⟨S_, .f32⟩) main_call0_cst_0) (constant S_ .f32 0x47C35000#32),
    TRef.unary (TRef.of (T := ⟨S_, .f32⟩) main_call0_cst_0) (TRef.of (T := ⟨S1x128, .f32⟩) main_call0_v2) (broadcastInDim S1x128 ![] bcast_S_S1x128),
    TRef.binary (TRef.of (T := ⟨S1x128, .f32⟩) main_call0_v1) (TRef.of (T := ⟨S1x128, .f32⟩) main_call0_v2) (TRef.of (T := ⟨S1x128, .f32⟩) main_call0_v3) Host.divf,
    TRef.unary (TRef.of (T := ⟨S1x128, .f32⟩) main_call0_v3) (TRef.of (T := ⟨S100000x128, .f32⟩) main_call0_v4) (broadcastInDim S100000x128 ![0, 1] bcast_S1x128_S100000x128_0_1),
    TRef.binary (TRef.of (T := ⟨S100000x128, .f32⟩) main_v28) (TRef.of (T := ⟨S100000x128, .f32⟩) main_call0_v4) (TRef.of (T := ⟨S100000x128, .f32⟩) main_call0_v5) subf,
    TRef.binary (TRef.of (T := ⟨S100000x128, .f32⟩) main_call0_v5) (TRef.of (T := ⟨S100000x128, .f32⟩) main_call0_v5) (TRef.of (T := ⟨S100000x128, .f32⟩) main_call0_v6) mulf,
    TRef.unary (TRef.of (T := ⟨S_, .i32⟩) main_c_3) (TRef.of (T := ⟨S_, .f32⟩) main_call0_v7) (sitofp .f32),
    TRef.nullary (TRef.of (T := ⟨S_, .f32⟩) main_call0_cst_1) (constant S_ .f32 0x47C35000#32),
    TRef.binary (TRef.of (T := ⟨S_, .f32⟩) main_call0_cst_1) (TRef.of (T := ⟨S_, .f32⟩) main_call0_v7) (TRef.of (T := ⟨S_, .f32⟩) main_call0_v8) subf,
    TRef.nullary (TRef.of (T := ⟨S_, .f32⟩) main_call0_cst_2) (constant S_ .f32 0x00000000#32),
    TRef.binary (TRef.of (T := ⟨S100000x128, .f32⟩) main_call0_v6) (TRef.of (T := ⟨S_, .f32⟩) main_call0_cst_2) (TRef.of (T := ⟨S128, .f32⟩) main_call0_v9) (fun x v => Host.reduceAdd x v reducesTo_S100000x128_S128_d0 h_S_),
    TRef.unary (TRef.of (T := ⟨S_, .f32⟩) main_call0_v8) (TRef.of (T := ⟨S128, .f32⟩) main_call0_v10) (broadcastInDim S128 ![] bcast_S_S128),
    TRef.binary (TRef.of (T := ⟨S128, .f32⟩) main_call0_v9) (TRef.of (T := ⟨S128, .f32⟩) main_call0_v10) (TRef.of (T := ⟨S128, .f32⟩) main_call0_v11) Host.divf,
    TRef.nullary (TRef.of (T := ⟨S_, .f32⟩) main_call0_cst_3) (constant S_ .f32 0x00000000#32),
    TRef.binary (TRef.of (T := ⟨S_, .f32⟩) main_call0_v8) (TRef.of (T := ⟨S_, .f32⟩) main_call0_cst_3) (TRef.of (T := ⟨S_, .i1⟩) main_call0_v12) (cmpf .ogt),
    TRef.nullary (TRef.of (T := ⟨S_, .f32⟩) main_call0_cst_4) (constant S_ .f32 0x7FC00000#32),
    TRef.unary (TRef.of (T := ⟨S_, .f32⟩) main_call0_cst_4) (TRef.of (T := ⟨S_, .f32⟩) main_call0_call0_v0) id,
    TRef.unary (TRef.of (T := ⟨S_, .f32⟩) main_call0_call0_v0) (TRef.of (T := ⟨S128, .f32⟩) main_call0_call0_v1) (broadcastInDim S128 ![] bcast_S_S128),
    TRef.ternary (TRef.of (T := ⟨S_, .i1⟩) main_call0_v12) (TRef.of (T := ⟨S128, .f32⟩) main_call0_v11) (TRef.of (T := ⟨S128, .f32⟩) main_call0_call0_v1) (TRef.of (T := ⟨S128, .f32⟩) main_v36) (fun p a b => select (broadcastInDim S128 ![] bcast_S_S128 p) a b) ]
/-- The buffers they write. -/
abbrev L0_V1_W : List (Ref sig .tc) := [main_c_3, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v36]
set_option maxRecDepth 16384 in
theorem L0_V1_writes : WritesIn (L0_V1 : List (HloOp τ sig (Elt F))) L0_V1_W := by
  simp only [WritesIn, List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

set_option maxRecDepth 16384 in
set_option maxHeartbeats 2000000 in
/-- After these operations, from any contents `W`, `main_v36` holds this stage of the contents before them. -/
theorem L0_V1_var1 (W : Valuation τ sig (Elt Ideal)) :
    after (L0_V1 (F := Ideal)) W (Proc.devRef .tc main_v36) = varStage (W (Proc.devRef .tc main_v28)) := by
  simp only [L0_V1]
  after_results_simp <;> rfl

/-- @main's operations 65 … 80 of 562. -/
abbrev L0_B1 : List (HloOp τ sig (Elt F)) :=
  [ unary main_v35 main_v37 (broadcastInDim S1x128 ![1] bcast_S128_S1x128_1 : (⟨S128, .f32⟩ : BufTy).Contents (Elt F) → (⟨S1x128, .f32⟩ : BufTy).Contents (Elt F)),
    unary main_v37 main_v38 (broadcastInDim S100000x128 ![0, 1] bcast_S1x128_S100000x128_0_1 : (⟨S1x128, .f32⟩ : BufTy).Contents (Elt F) → (⟨S100000x128, .f32⟩ : BufTy).Contents (Elt F)),
    binary main_v28 main_v38 main_v39 (subf : (⟨S100000x128, .f32⟩ : BufTy).Contents (Elt F) → (⟨S100000x128, .f32⟩ : BufTy).Contents (Elt F) → (⟨S100000x128, .f32⟩ : BufTy).Contents (Elt F)),
    unary main_v30 main_v40 (broadcastInDim S1x128 ![1] bcast_S128_S1x128_1 : (⟨S128, .f32⟩ : BufTy).Contents (Elt F) → (⟨S1x128, .f32⟩ : BufTy).Contents (Elt F)),
    unary main_v40 main_v41 (broadcastInDim S100000x128 ![0, 1] bcast_S1x128_S100000x128_0_1 : (⟨S1x128, .f32⟩ : BufTy).Contents (Elt F) → (⟨S100000x128, .f32⟩ : BufTy).Contents (Elt F)),
    binary main_v41 main_v39 main_v42 (mulf : (⟨S100000x128, .f32⟩ : BufTy).Contents (Elt F) → (⟨S100000x128, .f32⟩ : BufTy).Contents (Elt F) → (⟨S100000x128, .f32⟩ : BufTy).Contents (Elt F)),
    nullary main_cst_4 (constant S_ .f32 0x3727C5AC#32),
    unary main_cst_4 main_v43 (broadcastInDim S128 ![] bcast_S_S128 : (⟨S_, .f32⟩ : BufTy).Contents (Elt F) → (⟨S128, .f32⟩ : BufTy).Contents (Elt F)),
    binary main_v36 main_v43 main_v44 (addf : (⟨S128, .f32⟩ : BufTy).Contents (Elt F) → (⟨S128, .f32⟩ : BufTy).Contents (Elt F) → (⟨S128, .f32⟩ : BufTy).Contents (Elt F)),
    unary main_v44 main_v45 (Host.rsqrt : (⟨S128, .f32⟩ : BufTy).Contents (Elt F) → (⟨S128, .f32⟩ : BufTy).Contents (Elt F)),
    unary main_v45 main_v46 (broadcastInDim S1x128 ![1] bcast_S128_S1x128_1 : (⟨S128, .f32⟩ : BufTy).Contents (Elt F) → (⟨S1x128, .f32⟩ : BufTy).Contents (Elt F)),
    unary main_v46 main_v47 (broadcastInDim S100000x128 ![0, 1] bcast_S1x128_S100000x128_0_1 : (⟨S1x128, .f32⟩ : BufTy).Contents (Elt F) → (⟨S100000x128, .f32⟩ : BufTy).Contents (Elt F)),
    binary main_v42 main_v47 main_v48 (mulf : (⟨S100000x128, .f32⟩ : BufTy).Contents (Elt F) → (⟨S100000x128, .f32⟩ : BufTy).Contents (Elt F) → (⟨S100000x128, .f32⟩ : BufTy).Contents (Elt F)),
    unary main_v32 main_v49 (broadcastInDim S1x128 ![1] bcast_S128_S1x128_1 : (⟨S128, .f32⟩ : BufTy).Contents (Elt F) → (⟨S1x128, .f32⟩ : BufTy).Contents (Elt F)),
    unary main_v49 main_v50 (broadcastInDim S100000x128 ![0, 1] bcast_S1x128_S100000x128_0_1 : (⟨S1x128, .f32⟩ : BufTy).Contents (Elt F) → (⟨S100000x128, .f32⟩ : BufTy).Contents (Elt F)),
    binary main_v48 main_v50 main_v51 (addf : (⟨S100000x128, .f32⟩ : BufTy).Contents (Elt F) → (⟨S100000x128, .f32⟩ : BufTy).Contents (Elt F) → (⟨S100000x128, .f32⟩ : BufTy).Contents (Elt F)) ]
/-- The buffers they write. -/
abbrev L0_B1_W : List (Ref sig .tc) := [main_v37, main_v38, main_v39, main_v40, main_v41, main_v42, main_cst_4, main_v43, main_v44, main_v45, main_v46, main_v47, main_v48, main_v49, main_v50, main_v51]
set_option maxRecDepth 16384 in
theorem L0_B1_writes : WritesIn (L0_B1 : List (HloOp τ sig (Elt F))) L0_B1_W := by
  simp only [WritesIn, List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

set_option maxRecDepth 16384 in
set_option maxHeartbeats 2000000 in
/-- After these operations, from any contents `W`, `main_v51` holds this stage of the contents before them. -/
theorem L0_B1_bn1 (W : Valuation τ sig (Elt Ideal)) :
    after (L0_B1 (F := Ideal)) W (Proc.devRef .tc main_v51) = bnOf (W (Proc.devRef .tc main_v28)) (W (Proc.devRef .tc main_v35)) (W (Proc.devRef .tc main_v36)) (W (Proc.devRef .tc main_v30)) (W (Proc.devRef .tc main_v32)) := by
  simp only [L0_B1]
  after_results_simp <;> rfl

/-- @main's operations 81 … 83 of 562. -/
abbrev L0_R1 : List (HloOp τ sig (Elt F)) :=
  [ TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v51) (TRef.of (T := ⟨S100000x128, .f32⟩) main_call1_v0) (TRef.of (T := ⟨S100000x128, .f32⟩) main_v52) maximumf ]
/-- The buffers they write. -/
abbrev L0_R1_W : List (Ref sig .tc) := [main_call1_cst, main_call1_v0, main_v52]
set_option maxRecDepth 16384 in
theorem L0_R1_writes : WritesIn (L0_R1 : List (HloOp τ sig (Elt F))) L0_R1_W := by
  simp only [WritesIn, List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

set_option maxRecDepth 16384 in
set_option maxHeartbeats 2000000 in
/-- After these operations, from any contents `W`, `main_v52` holds this stage of the contents before them. -/
theorem L0_R1_z (W : Valuation τ sig (Elt Ideal)) :
    after (L0_R1 (F := Ideal)) W (Proc.devRef .tc main_v52) = reluStage (W (Proc.devRef .tc main_v51)) := by
  simp only [L0_R1]
  after_results_simp <;> rfl

/-- @main's operations 84 … 92 of 562. -/
abbrev L0_L2 : List (HloOp τ sig (Elt F)) :=
  [ unary main_arg9 main_v53 ((extractStridedSlice S1x128x128 ![0, 0, 0] · slices_S4x128x128_S1x128x128_0_0_0) : (⟨S4x128x128, .f32⟩ : BufTy).Contents (Elt F) → (⟨S1x128x128, .f32⟩ : BufTy).Contents (Elt F)),
    reshape main_v53 main_v54 rfl shapeCasts_S1x128x128_S128x128,
    unary main_v54 main_v55 ((transpose S128x128 [1, 0] · transposes_S128x128_S128x128_1_0) : (⟨S128x128, .f32⟩ : BufTy).Contents (Elt F) → (⟨S128x128, .f32⟩ : BufTy).Contents (Elt F)),
    binary main_v52 main_v55 main_v56 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg10 main_v57 ((extractStridedSlice S1x128 ![0, 0] · slices_S4x128_S1x128_0_0) : (⟨S4x128, .f32⟩ : BufTy).Contents (Elt F) → (⟨S1x128, .f32⟩ : BufTy).Contents (Elt F)),
    reshape main_v57 main_v58 rfl shapeCasts_S1x128_S128,
    unary main_v58 main_v59 (broadcastInDim S1x128 ![1] bcast_S128_S1x128_1 : (⟨S128, .f32⟩ : BufTy).Contents (Elt F) → (⟨S1x128, .f32⟩ : BufTy).Contents (Elt F)),
    unary main_v59 main_v60 (broadcastInDim S100000x128 ![0, 1] bcast_S1x128_S100000x128_0_1 : (⟨S1x128, .f32⟩ : BufTy).Contents (Elt F) → (⟨S100000x128, .f32⟩ : BufTy).Contents (Elt F)),
    binary main_v56 main_v60 main_v61 (addf : (⟨S100000x128, .f32⟩ : BufTy).Contents (Elt F) → (⟨S100000x128, .f32⟩ : BufTy).Contents (Elt F) → (⟨S100000x128, .f32⟩ : BufTy).Contents (Elt F)) ]
/-- The buffers they write. -/
abbrev L0_L2_W : List (Ref sig .tc) := [main_v53, main_v54, main_v55, main_v56, main_v57, main_v58, main_v59, main_v60, main_v61]
set_option maxRecDepth 16384 in
theorem L0_L2_writes : WritesIn (L0_L2 : List (HloOp τ sig (Elt F))) L0_L2_W := by
  simp only [WritesIn, List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

set_option maxRecDepth 16384 in
set_option maxHeartbeats 2000000 in
/-- After these operations, from any contents `W`, `main_v61` holds this stage of the contents before them. -/
theorem L0_L2_y2 (W : Valuation τ sig (Elt Ideal)) :
    after (L0_L2 (F := Ideal)) W (Proc.devRef .tc main_v61) = linStage (W (Proc.devRef .tc main_v52)) (matAt0 (W (Proc.devRef .tc main_arg9))) (rowAt0 (W (Proc.devRef .tc main_arg10))) := by
  simp only [L0_L2]
  after_results_simp <;> rfl

/-- @main's operations 93 … 96 of 562. -/
abbrev L0_P2 : List (HloOp τ sig (Elt F)) :=
  [ unary main_arg11 main_v62 ((extractStridedSlice S1x128 ![0, 0] · slices_S4x128_S1x128_0_0) : (⟨S4x128, .f32⟩ : BufTy).Contents (Elt F) → (⟨S1x128, .f32⟩ : BufTy).Contents (Elt F)),
    reshape main_v62 main_v63 rfl shapeCasts_S1x128_S128,
    unary main_arg12 main_v64 ((extractStridedSlice S1x128 ![0, 0] · slices_S4x128_S1x128_0_0) : (⟨S4x128, .f32⟩ : BufTy).Contents (Elt F) → (⟨S1x128, .f32⟩ : BufTy).Contents (Elt F)),
    reshape main_v64 main_v65 rfl shapeCasts_S1x128_S128 ]
/-- The buffers they write. -/
abbrev L0_P2_W : List (Ref sig .tc) := [main_v62, main_v63, main_v64, main_v65]
set_option maxRecDepth 16384 in
theorem L0_P2_writes : WritesIn (L0_P2 : List (HloOp τ sig (Elt F))) L0_P2_W := by
  simp only [WritesIn, List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

set_option maxRecDepth 16384 in
set_option maxHeartbeats 2000000 in
/-- After these operations, from any contents `W`, `main_v63` holds this stage of the contents before them. -/
theorem L0_P2_g2 (W : Valuation τ sig (Elt Ideal)) :
    after (L0_P2 (F := Ideal)) W (Proc.devRef .tc main_v63) = rowAt0 (W (Proc.devRef .tc main_arg11)) := by
  simp only [L0_P2]
  after_results_simp <;> rfl

set_option maxRecDepth 16384 in
set_option maxHeartbeats 2000000 in
/-- After these operations, from any contents `W`, `main_v65` holds this stage of the contents before them. -/
theorem L0_P2_be2 (W : Valuation τ sig (Elt Ideal)) :
    after (L0_P2 (F := Ideal)) W (Proc.devRef .tc main_v65) = rowAt0 (W (Proc.devRef .tc main_arg12)) := by
  simp only [L0_P2]
  after_results_simp <;> rfl

/-- @main's operations 97 … 101 of 562. -/
abbrev L0_M2 : List (HloOp τ sig (Elt F)) :=
  [ nullary main_cst_5 (constant S_ .f32 0x00000000#32),
    binary main_v61 main_cst_5 main_v66 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_6 (constant S_ .f32 0x47C35000#32),
    unary main_cst_6 main_v67 (broadcastInDim S128 ![] bcast_S_S128 : (⟨S_, .f32⟩ : BufTy).Contents (Elt F) → (⟨S128, .f32⟩ : BufTy).Contents (Elt F)),
    binary main_v66 main_v67 main_v68 (Host.divf : (⟨S128, .f32⟩ : BufTy).Contents (Elt F) → (⟨S128, .f32⟩ : BufTy).Contents (Elt F) → (⟨S128, .f32⟩ : BufTy).Contents (Elt F)) ]
/-- The buffers they write. -/
abbrev L0_M2_W : List (Ref sig .tc) := [main_cst_5, main_v66, main_cst_6, main_v67, main_v68]
set_option maxRecDepth 16384 in
theorem L0_M2_writes : WritesIn (L0_M2 : List (HloOp τ sig (Elt F))) L0_M2_W := by
  simp only [WritesIn, List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

set_option maxRecDepth 16384 in
set_option maxHeartbeats 2000000 in
/-- After these operations, from any contents `W`, `main_v66` holds this stage of the contents before them. -/
theorem L0_M2_sum2 (W : Valuation τ sig (Elt Ideal)) :
    after (L0_M2 (F := Ideal)) W (Proc.devRef .tc main_v66) = colSum (W (Proc.devRef .tc main_v61)) := by
  simp only [L0_M2]
  after_results_simp <;> rfl

set_option maxRecDepth 16384 in
set_option maxHeartbeats 2000000 in
/-- After these operations, from any contents `W`, `main_v68` holds this stage of the contents before them. -/
theorem L0_M2_mean2 (W : Valuation τ sig (Elt Ideal)) :
    after (L0_M2 (F := Ideal)) W (Proc.devRef .tc main_v68) = meanStage (W (Proc.devRef .tc main_v61)) := by
  simp only [L0_M2]
  after_results_simp <;> rfl

/-- @main's operations 102 … 124 of 562. -/
abbrev L0_V2 : List (HloOp τ sig (Elt F)) :=
  [ nullary main_c_7 (constantI S_ 32 0#32),
    TRef.nullary (TRef.of (T := ⟨S_, .f32⟩) main_call2_cst) (constant S_ .f32 0x00000000#32),
    TRef.binary (TRef.of (T := ⟨S100000x128, .f32⟩) main_v61) (TRef.of (T := ⟨S_, .f32⟩) main_call2_cst) (TRef.of (T := ⟨S128, .f32⟩) main_call2_v0) (fun x v => Host.reduceAdd x v reducesTo_S100000x128_S128_d0 h_S_),
    TRef.unary (TRef.of (T := ⟨S128, .f32⟩) main_call2_v0) (TRef.of (T := ⟨S1x128, .f32⟩) main_call2_v1) (broadcastInDim S1x128 ![1] bcast_S128_S1x128_1),
    TRef.nullary (TRef.of (T := ⟨S_, .f32⟩) main_call2_cst_0) (constant S_ .f32 0x47C35000#32),
    TRef.unary (TRef.of (T := ⟨S_, .f32⟩) main_call2_cst_0) (TRef.of (T := ⟨S1x128, .f32⟩) main_call2_v2) (broadcastInDim S1x128 ![] bcast_S_S1x128),
    TRef.binary (TRef.of (T := ⟨S1x128, .f32⟩) main_call2_v1) (TRef.of (T := ⟨S1x128, .f32⟩) main_call2_v2) (TRef.of (T := ⟨S1x128, .f32⟩) main_call2_v3) Host.divf,
    TRef.unary (TRef.of (T := ⟨S1x128, .f32⟩) main_call2_v3) (TRef.of (T := ⟨S100000x128, .f32⟩) main_call2_v4) (broadcastInDim S100000x128 ![0, 1] bcast_S1x128_S100000x128_0_1),
    TRef.binary (TRef.of (T := ⟨S100000x128, .f32⟩) main_v61) (TRef.of (T := ⟨S100000x128, .f32⟩) main_call2_v4) (TRef.of (T := ⟨S100000x128, .f32⟩) main_call2_v5) subf,
    TRef.binary (TRef.of (T := ⟨S100000x128, .f32⟩) main_call2_v5) (TRef.of (T := ⟨S100000x128, .f32⟩) main_call2_v5) (TRef.of (T := ⟨S100000x128, .f32⟩) main_call2_v6) mulf,
    TRef.unary (TRef.of (T := ⟨S_, .i32⟩) main_c_7) (TRef.of (T := ⟨S_, .f32⟩) main_call2_v7) (sitofp .f32),
    TRef.nullary (TRef.of (T := ⟨S_, .f32⟩) main_call2_cst_1) (constant S_ .f32 0x47C35000#32),
    TRef.binary (TRef.of (T := ⟨S_, .f32⟩) main_call2_cst_1) (TRef.of (T := ⟨S_, .f32⟩) main_call2_v7) (TRef.of (T := ⟨S_, .f32⟩) main_call2_v8) subf,
    TRef.nullary (TRef.of (T := ⟨S_, .f32⟩) main_call2_cst_2) (constant S_ .f32 0x00000000#32),
    TRef.binary (TRef.of (T := ⟨S100000x128, .f32⟩) main_call2_v6) (TRef.of (T := ⟨S_, .f32⟩) main_call2_cst_2) (TRef.of (T := ⟨S128, .f32⟩) main_call2_v9) (fun x v => Host.reduceAdd x v reducesTo_S100000x128_S128_d0 h_S_),
    TRef.unary (TRef.of (T := ⟨S_, .f32⟩) main_call2_v8) (TRef.of (T := ⟨S128, .f32⟩) main_call2_v10) (broadcastInDim S128 ![] bcast_S_S128),
    TRef.binary (TRef.of (T := ⟨S128, .f32⟩) main_call2_v9) (TRef.of (T := ⟨S128, .f32⟩) main_call2_v10) (TRef.of (T := ⟨S128, .f32⟩) main_call2_v11) Host.divf,
    TRef.nullary (TRef.of (T := ⟨S_, .f32⟩) main_call2_cst_3) (constant S_ .f32 0x00000000#32),
    TRef.binary (TRef.of (T := ⟨S_, .f32⟩) main_call2_v8) (TRef.of (T := ⟨S_, .f32⟩) main_call2_cst_3) (TRef.of (T := ⟨S_, .i1⟩) main_call2_v12) (cmpf .ogt),
    TRef.nullary (TRef.of (T := ⟨S_, .f32⟩) main_call2_cst_4) (constant S_ .f32 0x7FC00000#32),
    TRef.unary (TRef.of (T := ⟨S_, .f32⟩) main_call2_cst_4) (TRef.of (T := ⟨S_, .f32⟩) main_call2_call0_v0) id,
    TRef.unary (TRef.of (T := ⟨S_, .f32⟩) main_call2_call0_v0) (TRef.of (T := ⟨S128, .f32⟩) main_call2_call0_v1) (broadcastInDim S128 ![] bcast_S_S128),
    TRef.ternary (TRef.of (T := ⟨S_, .i1⟩) main_call2_v12) (TRef.of (T := ⟨S128, .f32⟩) main_call2_v11) (TRef.of (T := ⟨S128, .f32⟩) main_call2_call0_v1) (TRef.of (T := ⟨S128, .f32⟩) main_v69) (fun p a b => select (broadcastInDim S128 ![] bcast_S_S128 p) a b) ]
/-- The buffers they write. -/
abbrev L0_V2_W : List (Ref sig .tc) := [main_c_7, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v69]
set_option maxRecDepth 16384 in
theorem L0_V2_writes : WritesIn (L0_V2 : List (HloOp τ sig (Elt F))) L0_V2_W := by
  simp only [WritesIn, List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

set_option maxRecDepth 16384 in
set_option maxHeartbeats 2000000 in
/-- After these operations, from any contents `W`, `main_v69` holds this stage of the contents before them. -/
theorem L0_V2_var2 (W : Valuation τ sig (Elt Ideal)) :
    after (L0_V2 (F := Ideal)) W (Proc.devRef .tc main_v69) = varStage (W (Proc.devRef .tc main_v61)) := by
  simp only [L0_V2]
  after_results_simp <;> rfl

/-- @main's operations 125 … 140 of 562. -/
abbrev L0_B2 : List (HloOp τ sig (Elt F)) :=
  [ unary main_v68 main_v70 (broadcastInDim S1x128 ![1] bcast_S128_S1x128_1 : (⟨S128, .f32⟩ : BufTy).Contents (Elt F) → (⟨S1x128, .f32⟩ : BufTy).Contents (Elt F)),
    unary main_v70 main_v71 (broadcastInDim S100000x128 ![0, 1] bcast_S1x128_S100000x128_0_1 : (⟨S1x128, .f32⟩ : BufTy).Contents (Elt F) → (⟨S100000x128, .f32⟩ : BufTy).Contents (Elt F)),
    binary main_v61 main_v71 main_v72 (subf : (⟨S100000x128, .f32⟩ : BufTy).Contents (Elt F) → (⟨S100000x128, .f32⟩ : BufTy).Contents (Elt F) → (⟨S100000x128, .f32⟩ : BufTy).Contents (Elt F)),
    unary main_v63 main_v73 (broadcastInDim S1x128 ![1] bcast_S128_S1x128_1 : (⟨S128, .f32⟩ : BufTy).Contents (Elt F) → (⟨S1x128, .f32⟩ : BufTy).Contents (Elt F)),
    unary main_v73 main_v74 (broadcastInDim S100000x128 ![0, 1] bcast_S1x128_S100000x128_0_1 : (⟨S1x128, .f32⟩ : BufTy).Contents (Elt F) → (⟨S100000x128, .f32⟩ : BufTy).Contents (Elt F)),
    binary main_v74 main_v72 main_v75 (mulf : (⟨S100000x128, .f32⟩ : BufTy).Contents (Elt F) → (⟨S100000x128, .f32⟩ : BufTy).Contents (Elt F) → (⟨S100000x128, .f32⟩ : BufTy).Contents (Elt F)),
    nullary main_cst_8 (constant S_ .f32 0x3727C5AC#32),
    unary main_cst_8 main_v76 (broadcastInDim S128 ![] bcast_S_S128 : (⟨S_, .f32⟩ : BufTy).Contents (Elt F) → (⟨S128, .f32⟩ : BufTy).Contents (Elt F)),
    binary main_v69 main_v76 main_v77 (addf : (⟨S128, .f32⟩ : BufTy).Contents (Elt F) → (⟨S128, .f32⟩ : BufTy).Contents (Elt F) → (⟨S128, .f32⟩ : BufTy).Contents (Elt F)),
    unary main_v77 main_v78 (Host.rsqrt : (⟨S128, .f32⟩ : BufTy).Contents (Elt F) → (⟨S128, .f32⟩ : BufTy).Contents (Elt F)),
    unary main_v78 main_v79 (broadcastInDim S1x128 ![1] bcast_S128_S1x128_1 : (⟨S128, .f32⟩ : BufTy).Contents (Elt F) → (⟨S1x128, .f32⟩ : BufTy).Contents (Elt F)),
    unary main_v79 main_v80 (broadcastInDim S100000x128 ![0, 1] bcast_S1x128_S100000x128_0_1 : (⟨S1x128, .f32⟩ : BufTy).Contents (Elt F) → (⟨S100000x128, .f32⟩ : BufTy).Contents (Elt F)),
    binary main_v75 main_v80 main_v81 (mulf : (⟨S100000x128, .f32⟩ : BufTy).Contents (Elt F) → (⟨S100000x128, .f32⟩ : BufTy).Contents (Elt F) → (⟨S100000x128, .f32⟩ : BufTy).Contents (Elt F)),
    unary main_v65 main_v82 (broadcastInDim S1x128 ![1] bcast_S128_S1x128_1 : (⟨S128, .f32⟩ : BufTy).Contents (Elt F) → (⟨S1x128, .f32⟩ : BufTy).Contents (Elt F)),
    unary main_v82 main_v83 (broadcastInDim S100000x128 ![0, 1] bcast_S1x128_S100000x128_0_1 : (⟨S1x128, .f32⟩ : BufTy).Contents (Elt F) → (⟨S100000x128, .f32⟩ : BufTy).Contents (Elt F)),
    binary main_v81 main_v83 main_v84 (addf : (⟨S100000x128, .f32⟩ : BufTy).Contents (Elt F) → (⟨S100000x128, .f32⟩ : BufTy).Contents (Elt F) → (⟨S100000x128, .f32⟩ : BufTy).Contents (Elt F)) ]
/-- The buffers they write. -/
abbrev L0_B2_W : List (Ref sig .tc) := [main_v70, main_v71, main_v72, main_v73, main_v74, main_v75, main_cst_8, main_v76, main_v77, main_v78, main_v79, main_v80, main_v81, main_v82, main_v83, main_v84]
set_option maxRecDepth 16384 in
theorem L0_B2_writes : WritesIn (L0_B2 : List (HloOp τ sig (Elt F))) L0_B2_W := by
  simp only [WritesIn, List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

set_option maxRecDepth 16384 in
set_option maxHeartbeats 2000000 in
/-- After these operations, from any contents `W`, `main_v84` holds this stage of the contents before them. -/
theorem L0_B2_bn2 (W : Valuation τ sig (Elt Ideal)) :
    after (L0_B2 (F := Ideal)) W (Proc.devRef .tc main_v84) = bnOf (W (Proc.devRef .tc main_v61)) (W (Proc.devRef .tc main_v68)) (W (Proc.devRef .tc main_v69)) (W (Proc.devRef .tc main_v63)) (W (Proc.devRef .tc main_v65)) := by
  simp only [L0_B2]
  after_results_simp <;> rfl

/-- @main's operations 141 … 143 of 562. -/
abbrev L0_R2 : List (HloOp τ sig (Elt F)) :=
  [ TRef.nullary (TRef.of (T := ⟨S_, .f32⟩) main_call3_cst) (constant S_ .f32 0x00000000#32),
    TRef.unary (TRef.of (T := ⟨S_, .f32⟩) main_call3_cst) (TRef.of (T := ⟨S100000x128, .f32⟩) main_call3_v0) (broadcastInDim S100000x128 ![] bcast_S_S100000x128),
    TRef.binary (TRef.of (T := ⟨S100000x128, .f32⟩) main_v84) (TRef.of (T := ⟨S100000x128, .f32⟩) main_call3_v0) (TRef.of (T := ⟨S100000x128, .f32⟩) main_v85) maximumf ]
/-- The buffers they write. -/
abbrev L0_R2_W : List (Ref sig .tc) := [main_call3_cst, main_call3_v0, main_v85]
set_option maxRecDepth 16384 in
theorem L0_R2_writes : WritesIn (L0_R2 : List (HloOp τ sig (Elt F))) L0_R2_W := by
  simp only [WritesIn, List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

set_option maxRecDepth 16384 in
set_option maxHeartbeats 2000000 in
/-- After these operations, from any contents `W`, `main_v85` holds this stage of the contents before them. -/
theorem L0_R2_out (W : Valuation τ sig (Elt Ideal)) :
    after (L0_R2 (F := Ideal)) W (Proc.devRef .tc main_v85) = reluStage (W (Proc.devRef .tc main_v84)) := by
  simp only [L0_R2]
  after_results_simp <;> rfl

/-- @main's operations 144 … 146 of 562. -/
abbrev L0_R3 : List (HloOp τ sig (Elt F)) :=
  [ TRef.nullary (TRef.of (T := ⟨S_, .f32⟩) main_call4_cst) (constant S_ .f32 0x00000000#32),
    TRef.unary (TRef.of (T := ⟨S_, .f32⟩) main_call4_cst) (TRef.of (T := ⟨S100000x128, .f32⟩) main_call4_v0) (broadcastInDim S100000x128 ![] bcast_S_S100000x128),
    TRef.binary (TRef.of (T := ⟨S100000x128, .f32⟩) main_v85) (TRef.of (T := ⟨S100000x128, .f32⟩) main_call4_v0) (TRef.of (T := ⟨S100000x128, .f32⟩) main_v86) maximumf ]
/-- The buffers they write. -/
abbrev L0_R3_W : List (Ref sig .tc) := [main_call4_cst, main_call4_v0, main_v86]
set_option maxRecDepth 16384 in
theorem L0_R3_writes : WritesIn (L0_R3 : List (HloOp τ sig (Elt F))) L0_R3_W := by
  simp only [WritesIn, List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

set_option maxRecDepth 16384 in
set_option maxHeartbeats 2000000 in
/-- After these operations, from any contents `W`, `main_v86` holds this stage of the contents before them. -/
theorem L0_R3_out2 (W : Valuation τ sig (Elt Ideal)) :
    after (L0_R3 (F := Ideal)) W (Proc.devRef .tc main_v86) = reluStage (W (Proc.devRef .tc main_v85)) := by
  simp only [L0_R3]
  after_results_simp <;> rfl

end Cert.ReferenceIdeal.HandRun

end
-- ==== Proof.RefSegL1.lean ====
/- Layer 1 of the reference program, stage by stage: the operations of each stage as a list (a stage that @main's
   printed windows cut in two is two lists in a row), the buffers the list writes, and what the stage's result buffer
   holds after the list, from any contents before it, as the stage's pure function of the buffers it reads: the
   aggregation, the node's own row added, then twice the linear map, the column sums and means, the column variances,
   the normalisation and the rectifier. -/
import proofs.«119304_j10247791968545_2_alg».proof.Proof.RefStages
import proofs.«119304_j10247791968545_2_alg».proof.Proof.LibAfterSplit
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo
open Cert.Lib.AfterSplit

variable {F : FTy → Type} [FloatOps F]

/-- @main's operations 147 … 159 of 562. -/
abbrev L1_A : List (HloOp τ sig (Elt F)) :=
  [ nullary main_c_9 (constantI S_ 32 0#32),
    unary main_c_9 main_v87 (broadcastInDim S625000 ![] bcast_S_S625000 : (⟨S_, .i32⟩ : BufTy).Contents (Elt F) → (⟨S625000, .i32⟩ : BufTy).Contents (Elt F)),
    binary main_v1 main_v87 main_v88 (cmpi .slt : (⟨S625000, .i32⟩ : BufTy).Contents (Elt F) → (⟨S625000, .i32⟩ : BufTy).Contents (Elt F) → (⟨S625000, .i1⟩ : BufTy).Contents (Elt F)),
    nullary main_c_10 (constantI S_ 32 100000#32),
    unary main_c_10 main_v89 (broadcastInDim S625000 ![] bcast_S_S625000 : (⟨S_, .i32⟩ : BufTy).Contents (Elt F) → (⟨S625000, .i32⟩ : BufTy).Contents (Elt F)),
    binary main_v1 main_v89 main_v90 (addi : (⟨S625000, .i32⟩ : BufTy).Contents (Elt F) → (⟨S625000, .i32⟩ : BufTy).Contents (Elt F) → (⟨S625000, .i32⟩ : BufTy).Contents (Elt F)),
    ternary main_v88 main_v90 main_v1 main_v91 (select : (⟨S625000, .i1⟩ : BufTy).Contents (Elt F) → (⟨S625000, .i32⟩ : BufTy).Contents (Elt F) → (⟨S625000, .i32⟩ : BufTy).Contents (Elt F) → (⟨S625000, .i32⟩ : BufTy).Contents (Elt F)),
    unary main_v91 main_v92 (broadcastInDim S625000x1 ![0] bcast_S625000_S625000x1_0 : (⟨S625000, .i32⟩ : BufTy).Contents (Elt F) → (⟨S625000x1, .i32⟩ : BufTy).Contents (Elt F)),
    binary main_v86 main_v92 main_v93 ((fun x i => Host.gather gather_S100000x128_S625000x1_S625000x128_1_0_n_n_0_1_1128 x i) : (⟨S100000x128, .f32⟩ : BufTy).Contents (Elt F) → (⟨S625000x1, .i32⟩ : BufTy).Contents (Elt F) → (⟨S625000x128, .f32⟩ : BufTy).Contents (Elt F)),
    nullary main_cst_11 (constant S_ .f32 0x00000000#32),
    unary main_cst_11 main_v94 (broadcastInDim S100000x128 ![] bcast_S_S100000x128 : (⟨S_, .f32⟩ : BufTy).Contents (Elt F) → (⟨S100000x128, .f32⟩ : BufTy).Contents (Elt F)),
    unary main_v3 main_v95 (broadcastInDim S625000x1 ![0] bcast_S625000_S625000x1_0 : (⟨S625000, .i32⟩ : BufTy).Contents (Elt F) → (⟨S625000x1, .i32⟩ : BufTy).Contents (Elt F)),
    ternary main_v94 main_v95 main_v93 main_v96 ((fun x i u => Host.scatterAdd scatter_S100000x128_S625000x1_S625000x128_1_0_0_1 x i u) : (⟨S100000x128, .f32⟩ : BufTy).Contents (Elt F) → (⟨S625000x1, .i32⟩ : BufTy).Contents (Elt F) → (⟨S625000x128, .f32⟩ : BufTy).Contents (Elt F) → (⟨S100000x128, .f32⟩ : BufTy).Contents (Elt F)) ]
/-- The buffers they write. -/
abbrev L1_A_W : List (Ref sig .tc) := [main_c_9, main_v87, main_v88, main_c_10, main_v89, main_v90, main_v91, main_v92, main_v93, main_cst_11, main_v94, main_v95, main_v96]
set_option maxRecDepth 16384 in
theorem L1_A_writes : WritesIn (L1_A : List (HloOp τ sig (Elt F))) L1_A_W := by
  simp only [WritesIn, List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

set_option maxRecDepth 16384 in
set_option maxHeartbeats 2000000 in
/-- After these operations, from any contents `W`, `main_v96` holds this stage of the contents before them. -/
theorem L1_A_agg (W : Valuation τ sig (Elt Ideal)) :
    after (L1_A (F := Ideal)) W (Proc.devRef .tc main_v96) = aggOf (W (Proc.devRef .tc main_v86)) (W (Proc.devRef .tc main_v1)) (W (Proc.devRef .tc main_v3)) := by
  simp only [L1_A]
  after_results_simp <;> rfl

/-- @main's operations 160 … 160 of 562. -/
abbrev L1_H : List (HloOp τ sig (Elt F)) :=
  [ binary main_v86 main_v96 main_v97 (addf : (⟨S100000x128, .f32⟩ : BufTy).Contents (Elt F) → (⟨S100000x128, .f32⟩ : BufTy).Contents (Elt F) → (⟨S100000x128, .f32⟩ : BufTy).Contents (Elt F)) ]
/-- The buffers they write. -/
abbrev L1_H_W : List (Ref sig .tc) := [main_v97]
set_option maxRecDepth 16384 in
theorem L1_H_writes : WritesIn (L1_H : List (HloOp τ sig (Elt F))) L1_H_W := by
  simp only [WritesIn, List.Forall]
  exact (by simp only [nullary_writes, unary_writes, binary_writes, ternary_writes, quaternary_writes, reshape_writes, Finset.singleton_subset_iff, List.mem_toFinset]; exact List.mem_map_of_mem (by decide))

set_option maxRecDepth 16384 in
set_option maxHeartbeats 2000000 in
/-- After these operations, from any contents `W`, `main_v97` holds this stage of the contents before them. -/
theorem L1_H_h (W : Valuation τ sig (Elt Ideal)) :
    after (L1_H (F := Ideal)) W (Proc.devRef .tc main_v97) = (addf ((W (Proc.devRef .tc main_v86)) : TNode) (W (Proc.devRef .tc main_v96)) : TNode) := by
  simp only [L1_H]
  after_results_simp <;> rfl

/-- @main's operations 161 … 168 of 562. -/
abbrev L1_L1_a : List (HloOp τ sig (Elt F)) :=
  [ unary main_arg5 main_v98 ((extractStridedSlice S1x128x128 ![1, 0, 0] · slices_S4x128x128_S1x128x128_1_0_0) : (⟨S4x128x128, .f32⟩ : BufTy).Contents (Elt F) → (⟨S1x128x128, .f32⟩ : BufTy).Contents (Elt F)),
    reshape main_v98 main_v99 rfl shapeCasts_S1x128x128_S128x128,
    unary main_v99 main_v100 ((transpose S128x128 [1, 0] · transposes_S128x128_S128x128_1_0) : (⟨S128x128, .f32⟩ : BufTy).Contents (Elt F) → (⟨S128x128, .f32⟩ : BufTy).Contents (Elt F)),
    binary main_v97 main_v100 main_v101 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg6 main_v102 ((extractStridedSlice S1x128 ![1, 0] · slices_S4x128_S1x128_1_0) : (⟨S4x128, .f32⟩ : BufTy).Contents (Elt F) → (⟨S1x128, .f32⟩ : BufTy).Contents (Elt F)),
    reshape main_v102 main_v103 rfl shapeCasts_S1x128_S128,
    unary main_v103 main_v104 (broadcastInDim S1x128 ![1] bcast_S128_S1x128_1 : (⟨S128, .f32⟩ : BufTy).Contents (Elt F) → (⟨S1x128, .f32⟩ : BufTy).Contents (Elt F)),
    unary main_v104 main_v105 (broadcastInDim S100000x128 ![0, 1] bcast_S1x128_S100000x128_0_1 : (⟨S1x128, .f32⟩ : BufTy).Contents (Elt F) → (⟨S100000x128, .f32⟩ : BufTy).Contents (Elt F)) ]
/-- The buffers they write. -/
abbrev L1_L1_a_W : List (Ref sig .tc) := [main_v98, main_v99, main_v100, main_v101, main_v102, main_v103, main_v104, main_v105]
set_option maxRecDepth 16384 in
theorem L1_L1_a_writes : WritesIn (L1_L1_a : List (HloOp τ sig (Elt F))) L1_L1_a_W := by
  simp only [WritesIn, List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- @main's operations 169 … 169 of 562. -/
abbrev L1_L1_b : List (HloOp τ sig (Elt F)) :=
  [ binary main_v101 main_v105 main_v106 (addf : (⟨S100000x128, .f32⟩ : BufTy).Contents (Elt F) → (⟨S100000x128, .f32⟩ : BufTy).Contents (Elt F) → (⟨S100000x128, .f32⟩ : BufTy).Contents (Elt F)) ]
/-- The buffers they write. -/
abbrev L1_L1_b_W : List (Ref sig .tc) := [main_v106]
set_option maxRecDepth 16384 in
theorem L1_L1_b_writes : WritesIn (L1_L1_b : List (HloOp τ sig (Elt F))) L1_L1_b_W := by
  simp only [WritesIn, List.Forall]
  exact (by simp only [nullary_writes, unary_writes, binary_writes, ternary_writes, quaternary_writes, reshape_writes, Finset.singleton_subset_iff, List.mem_toFinset]; exact List.mem_map_of_mem (by decide))

/-- One stage's operations, 161 … 169 of 562: the two runs of them in a row. -/
abbrev L1_L1 : List (HloOp τ sig (Elt F)) := L1_L1_a ++ L1_L1_b
abbrev L1_L1_W : List (Ref sig .tc) := L1_L1_a_W ++ L1_L1_b_W
theorem L1_L1_writes : WritesIn (L1_L1 : List (HloOp τ sig (Elt F))) L1_L1_W :=
  writesIn_append L1_L1_a_writes L1_L1_b_writes

set_option maxRecDepth 16384 in
set_option maxHeartbeats 2000000 in
/-- After these operations, from any contents `W`, `main_v106` holds this stage of the contents before them. -/
theorem L1_L1_y1 (W : Valuation τ sig (Elt Ideal)) :
    after (L1_L1 (F := Ideal)) W (Proc.devRef .tc main_v106) = linStage (W (Proc.devRef .tc main_v97)) (matAt1 (W (Proc.devRef .tc main_arg5))) (rowAt1 (W (Proc.devRef .tc main_arg6))) := by
  simp only [L1_L1, L1_L1_a, L1_L1_b, List.cons_append, List.nil_append]
  after_results_simp <;> rfl

/-- @main's operations 170 … 173 of 562. -/
abbrev L1_P1 : List (HloOp τ sig (Elt F)) :=
  [ unary main_arg7 main_v107 ((extractStridedSlice S1x128 ![1, 0] · slices_S4x128_S1x128_1_0) : (⟨S4x128, .f32⟩ : BufTy).Contents (Elt F) → (⟨S1x128, .f32⟩ : BufTy).Contents (Elt F)),
    reshape main_v107 main_v108 rfl shapeCasts_S1x128_S128,
    unary main_arg8 main_v109 ((extractStridedSlice S1x128 ![1, 0] · slices_S4x128_S1x128_1_0) : (⟨S4x128, .f32⟩ : BufTy).Contents (Elt F) → (⟨S1x128, .f32⟩ : BufTy).Contents (Elt F)),
    reshape main_v109 main_v110 rfl shapeCasts_S1x128_S128 ]
/-- The buffers they write. -/
abbrev L1_P1_W : List (Ref sig .tc) := [main_v107, main_v108, main_v109, main_v110]
set_option maxRecDepth 16384 in
theorem L1_P1_writes : WritesIn (L1_P1 : List (HloOp τ sig (Elt F))) L1_P1_W := by
  simp only [WritesIn, List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

set_option maxRecDepth 16384 in
set_option maxHeartbeats 2000000 in
/-- After these operations, from any contents `W`, `main_v108` holds this stage of the contents before them. -/
theorem L1_P1_g1 (W : Valuation τ sig (Elt Ideal)) :
    after (L1_P1 (F := Ideal)) W (Proc.devRef .tc main_v108) = rowAt1 (W (Proc.devRef .tc main_arg7)) := by
  simp only [L1_P1]
  after_results_simp <;> rfl

set_option maxRecDepth 16384 in
set_option maxHeartbeats 2000000 in
/-- After these operations, from any contents `W`, `main_v110` holds this stage of the contents before them. -/
theorem L1_P1_be1 (W : Valuation τ sig (Elt Ideal)) :
    after (L1_P1 (F := Ideal)) W (Proc.devRef .tc main_v110) = rowAt1 (W (Proc.devRef .tc main_arg8)) := by
  simp only [L1_P1]
  after_results_simp <;> rfl

/-- @main's operations 174 … 178 of 562. -/
abbrev L1_M1 : List (HloOp τ sig (Elt F)) :=
  [ nullary main_cst_12 (constant S_ .f32 0x00000000#32),
    binary main_v106 main_cst_12 main_v111 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_13 (constant S_ .f32 0x47C35000#32),
    unary main_cst_13 main_v112 (broadcastInDim S128 ![] bcast_S_S128 : (⟨S_, .f32⟩ : BufTy).Contents (Elt F) → (⟨S128, .f32⟩ : BufTy).Contents (Elt F)),
    binary main_v111 main_v112 main_v113 (Host.divf : (⟨S128, .f32⟩ : BufTy).Contents (Elt F) → (⟨S128, .f32⟩ : BufTy).Contents (Elt F) → (⟨S128, .f32⟩ : BufTy).Contents (Elt F)) ]
/-- The buffers they write. -/
abbrev L1_M1_W : List (Ref sig .tc) := [main_cst_12, main_v111, main_cst_13, main_v112, main_v113]
set_option maxRecDepth 16384 in
theorem L1_M1_writes : WritesIn (L1_M1 : List (HloOp τ sig (Elt F))) L1_M1_W := by
  simp only [WritesIn, List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

set_option maxRecDepth 16384 in
set_option maxHeartbeats 2000000 in
/-- After these operations, from any contents `W`, `main_v111` holds this stage of the contents before them. -/
theorem L1_M1_sum1 (W : Valuation τ sig (Elt Ideal)) :
    after (L1_M1 (F := Ideal)) W (Proc.devRef .tc main_v111) = colSum (W (Proc.devRef .tc main_v106)) := by
  simp only [L1_M1]
  after_results_simp <;> rfl

set_option maxRecDepth 16384 in
set_option maxHeartbeats 2000000 in
/-- After these operations, from any contents `W`, `main_v113` holds this stage of the contents before them. -/
theorem L1_M1_mean1 (W : Valuation τ sig (Elt Ideal)) :
    after (L1_M1 (F := Ideal)) W (Proc.devRef .tc main_v113) = meanStage (W (Proc.devRef .tc main_v106)) := by
  simp only [L1_M1]
  after_results_simp <;> rfl

/-- @main's operations 179 … 201 of 562. -/
abbrev L1_V1 : List (HloOp τ sig (Elt F)) :=
  [ nullary main_c_14 (constantI S_ 32 0#32),
    TRef.nullary (TRef.of (T := ⟨S_, .f32⟩) main_call5_cst) (constant S_ .f32 0x00000000#32),
    TRef.binary (TRef.of (T := ⟨S100000x128, .f32⟩) main_v106) (TRef.of (T := ⟨S_, .f32⟩) main_call5_cst) (TRef.of (T := ⟨S128, .f32⟩) main_call5_v0) (fun x v => Host.reduceAdd x v reducesTo_S100000x128_S128_d0 h_S_),
    TRef.unary (TRef.of (T := ⟨S128, .f32⟩) main_call5_v0) (TRef.of (T := ⟨S1x128, .f32⟩) main_call5_v1) (broadcastInDim S1x128 ![1] bcast_S128_S1x128_1),
    TRef.nullary (TRef.of (T := ⟨S_, .f32⟩) main_call5_cst_0) (constant S_ .f32 0x47C35000#32),
    TRef.unary (TRef.of (T := ⟨S_, .f32⟩) main_call5_cst_0) (TRef.of (T := ⟨S1x128, .f32⟩) main_call5_v2) (broadcastInDim S1x128 ![] bcast_S_S1x128),
    TRef.binary (TRef.of (T := ⟨S1x128, .f32⟩) main_call5_v1) (TRef.of (T := ⟨S1x128, .f32⟩) main_call5_v2) (TRef.of (T := ⟨S1x128, .f32⟩) main_call5_v3) Host.divf,
    TRef.unary (TRef.of (T := ⟨S1x128, .f32⟩) main_call5_v3) (TRef.of (T := ⟨S100000x128, .f32⟩) main_call5_v4) (broadcastInDim S100000x128 ![0, 1] bcast_S1x128_S100000x128_0_1),
    TRef.binary (TRef.of (T := ⟨S100000x128, .f32⟩) main_v106) (TRef.of (T := ⟨S100000x128, .f32⟩) main_call5_v4) (TRef.of (T := ⟨S100000x128, .f32⟩) main_call5_v5) subf,
    TRef.binary (TRef.of (T := ⟨S100000x128, .f32⟩) main_call5_v5) (TRef.of (T := ⟨S100000x128, .f32⟩) main_call5_v5) (TRef.of (T := ⟨S100000x128, .f32⟩) main_call5_v6) mulf,
    TRef.unary (TRef.of (T := ⟨S_, .i32⟩) main_c_14) (TRef.of (T := ⟨S_, .f32⟩) main_call5_v7) (sitofp .f32),
    TRef.nullary (TRef.of (T := ⟨S_, .f32⟩) main_call5_cst_1) (constant S_ .f32 0x47C35000#32),
    TRef.binary (TRef.of (T := ⟨S_, .f32⟩) main_call5_cst_1) (TRef.of (T := ⟨S_, .f32⟩) main_call5_v7) (TRef.of (T := ⟨S_, .f32⟩) main_call5_v8) subf,
    TRef.nullary (TRef.of (T := ⟨S_, .f32⟩) main_call5_cst_2) (constant S_ .f32 0x00000000#32),
    TRef.binary (TRef.of (T := ⟨S100000x128, .f32⟩) main_call5_v6) (TRef.of (T := ⟨S_, .f32⟩) main_call5_cst_2) (TRef.of (T := ⟨S128, .f32⟩) main_call5_v9) (fun x v => Host.reduceAdd x v reducesTo_S100000x128_S128_d0 h_S_),
    TRef.unary (TRef.of (T := ⟨S_, .f32⟩) main_call5_v8) (TRef.of (T := ⟨S128, .f32⟩) main_call5_v10) (broadcastInDim S128 ![] bcast_S_S128),
    TRef.binary (TRef.of (T := ⟨S128, .f32⟩) main_call5_v9) (TRef.of (T := ⟨S128, .f32⟩) main_call5_v10) (TRef.of (T := ⟨S128, .f32⟩) main_call5_v11) Host.divf,
    TRef.nullary (TRef.of (T := ⟨S_, .f32⟩) main_call5_cst_3) (constant S_ .f32 0x00000000#32),
    TRef.binary (TRef.of (T := ⟨S_, .f32⟩) main_call5_v8) (TRef.of (T := ⟨S_, .f32⟩) main_call5_cst_3) (TRef.of (T := ⟨S_, .i1⟩) main_call5_v12) (cmpf .ogt),
    TRef.nullary (TRef.of (T := ⟨S_, .f32⟩) main_call5_cst_4) (constant S_ .f32 0x7FC00000#32),
    TRef.unary (TRef.of (T := ⟨S_, .f32⟩) main_call5_cst_4) (TRef.of (T := ⟨S_, .f32⟩) main_call5_call0_v0) id,
    TRef.unary (TRef.of (T := ⟨S_, .f32⟩) main_call5_call0_v0) (TRef.of (T := ⟨S128, .f32⟩) main_call5_call0_v1) (broadcastInDim S128 ![] bcast_S_S128),
    TRef.ternary (TRef.of (T := ⟨S_, .i1⟩) main_call5_v12) (TRef.of (T := ⟨S128, .f32⟩) main_call5_v11) (TRef.of (T := ⟨S128, .f32⟩) main_call5_call0_v1) (TRef.of (T := ⟨S128, .f32⟩) main_v114) (fun p a b => select (broadcastInDim S128 ![] bcast_S_S128 p) a b) ]
/-- The buffers they write. -/
abbrev L1_V1_W : List (Ref sig .tc) := [main_c_14, main_call5_cst, main_call5_v0, main_call5_v1, main_call5_cst_0, main_call5_v2, main_call5_v3, main_call5_v4, main_call5_v5, main_call5_v6, main_call5_v7, main_call5_cst_1, main_call5_v8, main_call5_cst_2, main_call5_v9, main_call5_v10, main_call5_v11, main_call5_cst_3, main_call5_v12, main_call5_cst_4, main_call5_call0_v0, main_call5_call0_v1, main_v114]
set_option maxRecDepth 16384 in
theorem L1_V1_writes : WritesIn (L1_V1 : List (HloOp τ sig (Elt F))) L1_V1_W := by
  simp only [WritesIn, List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

set_option maxRecDepth 16384 in
set_option maxHeartbeats 2000000 in
/-- After these operations, from any contents `W`, `main_v114` holds this stage of the contents before them. -/
theorem L1_V1_var1 (W : Valuation τ sig (Elt Ideal)) :
    after (L1_V1 (F := Ideal)) W (Proc.devRef .tc main_v114) = varStage (W (Proc.devRef .tc main_v106)) := by
  simp only [L1_V1]
  after_results_simp <;> rfl

/-- @main's operations 202 … 217 of 562. -/
abbrev L1_B1 : List (HloOp τ sig (Elt F)) :=
  [ unary main_v113 main_v115 (broadcastInDim S1x128 ![1] bcast_S128_S1x128_1 : (⟨S128, .f32⟩ : BufTy).Contents (Elt F) → (⟨S1x128, .f32⟩ : BufTy).Contents (Elt F)),
    unary main_v115 main_v116 (broadcastInDim S100000x128 ![0, 1] bcast_S1x128_S100000x128_0_1 : (⟨S1x128, .f32⟩ : BufTy).Contents (Elt F) → (⟨S100000x128, .f32⟩ : BufTy).Contents (Elt F)),
    binary main_v106 main_v116 main_v117 (subf : (⟨S100000x128, .f32⟩ : BufTy).Contents (Elt F) → (⟨S100000x128, .f32⟩ : BufTy).Contents (Elt F) → (⟨S100000x128, .f32⟩ : BufTy).Contents (Elt F)),
    unary main_v108 main_v118 (broadcastInDim S1x128 ![1] bcast_S128_S1x128_1 : (⟨S128, .f32⟩ : BufTy).Contents (Elt F) → (⟨S1x128, .f32⟩ : BufTy).Contents (Elt F)),
    unary main_v118 main_v119 (broadcastInDim S100000x128 ![0, 1] bcast_S1x128_S100000x128_0_1 : (⟨S1x128, .f32⟩ : BufTy).Contents (Elt F) → (⟨S100000x128, .f32⟩ : BufTy).Contents (Elt F)),
    binary main_v119 main_v117 main_v120 (mulf : (⟨S100000x128, .f32⟩ : BufTy).Contents (Elt F) → (⟨S100000x128, .f32⟩ : BufTy).Contents (Elt F) → (⟨S100000x128, .f32⟩ : BufTy).Contents (Elt F)),
    nullary main_cst_15 (constant S_ .f32 0x3727C5AC#32),
    unary main_cst_15 main_v121 (broadcastInDim S128 ![] bcast_S_S128 : (⟨S_, .f32⟩ : BufTy).Contents (Elt F) → (⟨S128, .f32⟩ : BufTy).Contents (Elt F)),
    binary main_v114 main_v121 main_v122 (addf : (⟨S128, .f32⟩ : BufTy).Contents (Elt F) → (⟨S128, .f32⟩ : BufTy).Contents (Elt F) → (⟨S128, .f32⟩ : BufTy).Contents (Elt F)),
    unary main_v122 main_v123 (Host.rsqrt : (⟨S128, .f32⟩ : BufTy).Contents (Elt F) → (⟨S128, .f32⟩ : BufTy).Contents (Elt F)),
    unary main_v123 main_v124 (broadcastInDim S1x128 ![1] bcast_S128_S1x128_1 : (⟨S128, .f32⟩ : BufTy).Contents (Elt F) → (⟨S1x128, .f32⟩ : BufTy).Contents (Elt F)),
    unary main_v124 main_v125 (broadcastInDim S100000x128 ![0, 1] bcast_S1x128_S100000x128_0_1 : (⟨S1x128, .f32⟩ : BufTy).Contents (Elt F) → (⟨S100000x128, .f32⟩ : BufTy).Contents (Elt F)),
    binary main_v120 main_v125 main_v126 (mulf : (⟨S100000x128, .f32⟩ : BufTy).Contents (Elt F) → (⟨S100000x128, .f32⟩ : BufTy).Contents (Elt F) → (⟨S100000x128, .f32⟩ : BufTy).Contents (Elt F)),
    unary main_v110 main_v127 (broadcastInDim S1x128 ![1] bcast_S128_S1x128_1 : (⟨S128, .f32⟩ : BufTy).Contents (Elt F) → (⟨S1x128, .f32⟩ : BufTy).Contents (Elt F)),
    unary main_v127 main_v128 (broadcastInDim S100000x128 ![0, 1] bcast_S1x128_S100000x128_0_1 : (⟨S1x128, .f32⟩ : BufTy).Contents (Elt F) → (⟨S100000x128, .f32⟩ : BufTy).Contents (Elt F)),
    binary main_v126 main_v128 main_v129 (addf : (⟨S100000x128, .f32⟩ : BufTy).Contents (Elt F) → (⟨S100000x128, .f32⟩ : BufTy).Contents (Elt F) → (⟨S100000x128, .f32⟩ : BufTy).Contents (Elt F)) ]
/-- The buffers they write. -/
abbrev L1_B1_W : List (Ref sig .tc) := [main_v115, main_v116, main_v117, main_v118, main_v119, main_v120, main_cst_15, main_v121, main_v122, main_v123, main_v124, main_v125, main_v126, main_v127, main_v128, main_v129]
set_option maxRecDepth 16384 in
theorem L1_B1_writes : WritesIn (L1_B1 : List (HloOp τ sig (Elt F))) L1_B1_W := by
  simp only [WritesIn, List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

set_option maxRecDepth 16384 in
set_option maxHeartbeats 2000000 in
/-- After these operations, from any contents `W`, `main_v129` holds this stage of the contents before them. -/
theorem L1_B1_bn1 (W : Valuation τ sig (Elt Ideal)) :
    after (L1_B1 (F := Ideal)) W (Proc.devRef .tc main_v129) = bnOf (W (Proc.devRef .tc main_v106)) (W (Proc.devRef .tc main_v113)) (W (Proc.devRef .tc main_v114)) (W (Proc.devRef .tc main_v108)) (W (Proc.devRef .tc main_v110)) := by
  simp only [L1_B1]
  after_results_simp <;> rfl

/-- @main's operations 218 … 220 of 562. -/
abbrev L1_R1 : List (HloOp τ sig (Elt F)) :=
  [ TRef.nullary (TRef.of (T := ⟨S_, .f32⟩) main_call6_cst) (constant S_ .f32 0x00000000#32),
    TRef.unary (TRef.of (T := ⟨S_, .f32⟩) main_call6_cst) (TRef.of (T := ⟨S100000x128, .f32⟩) main_call6_v0) (broadcastInDim S100000x128 ![] bcast_S_S100000x128),
    TRef.binary (TRef.of (T := ⟨S100000x128, .f32⟩) main_v129) (TRef.of (T := ⟨S100000x128, .f32⟩) main_call6_v0) (TRef.of (T := ⟨S100000x128, .f32⟩) main_v130) maximumf ]
/-- The buffers they write. -/
abbrev L1_R1_W : List (Ref sig .tc) := [main_call6_cst, main_call6_v0, main_v130]
set_option maxRecDepth 16384 in
theorem L1_R1_writes : WritesIn (L1_R1 : List (HloOp τ sig (Elt F))) L1_R1_W := by
  simp only [WritesIn, List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

set_option maxRecDepth 16384 in
set_option maxHeartbeats 2000000 in
/-- After these operations, from any contents `W`, `main_v130` holds this stage of the contents before them. -/
theorem L1_R1_z (W : Valuation τ sig (Elt Ideal)) :
    after (L1_R1 (F := Ideal)) W (Proc.devRef .tc main_v130) = reluStage (W (Proc.devRef .tc main_v129)) := by
  simp only [L1_R1]
  after_results_simp <;> rfl

/-- @main's operations 221 … 229 of 562. -/
abbrev L1_L2 : List (HloOp τ sig (Elt F)) :=
  [ unary main_arg9 main_v131 ((extractStridedSlice S1x128x128 ![1, 0, 0] · slices_S4x128x128_S1x128x128_1_0_0) : (⟨S4x128x128, .f32⟩ : BufTy).Contents (Elt F) → (⟨S1x128x128, .f32⟩ : BufTy).Contents (Elt F)),
    reshape main_v131 main_v132 rfl shapeCasts_S1x128x128_S128x128,
    unary main_v132 main_v133 ((transpose S128x128 [1, 0] · transposes_S128x128_S128x128_1_0) : (⟨S128x128, .f32⟩ : BufTy).Contents (Elt F) → (⟨S128x128, .f32⟩ : BufTy).Contents (Elt F)),
    binary main_v130 main_v133 main_v134 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg10 main_v135 ((extractStridedSlice S1x128 ![1, 0] · slices_S4x128_S1x128_1_0) : (⟨S4x128, .f32⟩ : BufTy).Contents (Elt F) → (⟨S1x128, .f32⟩ : BufTy).Contents (Elt F)),
    reshape main_v135 main_v136 rfl shapeCasts_S1x128_S128,
    unary main_v136 main_v137 (broadcastInDim S1x128 ![1] bcast_S128_S1x128_1 : (⟨S128, .f32⟩ : BufTy).Contents (Elt F) → (⟨S1x128, .f32⟩ : BufTy).Contents (Elt F)),
    unary main_v137 main_v138 (broadcastInDim S100000x128 ![0, 1] bcast_S1x128_S100000x128_0_1 : (⟨S1x128, .f32⟩ : BufTy).Contents (Elt F) → (⟨S100000x128, .f32⟩ : BufTy).Contents (Elt F)),
    binary main_v134 main_v138 main_v139 (addf : (⟨S100000x128, .f32⟩ : BufTy).Contents (Elt F) → (⟨S100000x128, .f32⟩ : BufTy).Contents (Elt F) → (⟨S100000x128, .f32⟩ : BufTy).Contents (Elt F)) ]
/-- The buffers they write. -/
abbrev L1_L2_W : List (Ref sig .tc) := [main_v131, main_v132, main_v133, main_v134, main_v135, main_v136, main_v137, main_v138, main_v139]
set_option maxRecDepth 16384 in
theorem L1_L2_writes : WritesIn (L1_L2 : List (HloOp τ sig (Elt F))) L1_L2_W := by
  simp only [WritesIn, List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

set_option maxRecDepth 16384 in
set_option maxHeartbeats 2000000 in
/-- After these operations, from any contents `W`, `main_v139` holds this stage of the contents before them. -/
theorem L1_L2_y2 (W : Valuation τ sig (Elt Ideal)) :
    after (L1_L2 (F := Ideal)) W (Proc.devRef .tc main_v139) = linStage (W (Proc.devRef .tc main_v130)) (matAt1 (W (Proc.devRef .tc main_arg9))) (rowAt1 (W (Proc.devRef .tc main_arg10))) := by
  simp only [L1_L2]
  after_results_simp <;> rfl

/-- @main's operations 230 … 233 of 562. -/
abbrev L1_P2 : List (HloOp τ sig (Elt F)) :=
  [ unary main_arg11 main_v140 ((extractStridedSlice S1x128 ![1, 0] · slices_S4x128_S1x128_1_0) : (⟨S4x128, .f32⟩ : BufTy).Contents (Elt F) → (⟨S1x128, .f32⟩ : BufTy).Contents (Elt F)),
    reshape main_v140 main_v141 rfl shapeCasts_S1x128_S128,
    unary main_arg12 main_v142 ((extractStridedSlice S1x128 ![1, 0] · slices_S4x128_S1x128_1_0) : (⟨S4x128, .f32⟩ : BufTy).Contents (Elt F) → (⟨S1x128, .f32⟩ : BufTy).Contents (Elt F)),
    reshape main_v142 main_v143 rfl shapeCasts_S1x128_S128 ]
/-- The buffers they write. -/
abbrev L1_P2_W : List (Ref sig .tc) := [main_v140, main_v141, main_v142, main_v143]
set_option maxRecDepth 16384 in
theorem L1_P2_writes : WritesIn (L1_P2 : List (HloOp τ sig (Elt F))) L1_P2_W := by
  simp only [WritesIn, List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

set_option maxRecDepth 16384 in
set_option maxHeartbeats 2000000 in
/-- After these operations, from any contents `W`, `main_v141` holds this stage of the contents before them. -/
theorem L1_P2_g2 (W : Valuation τ sig (Elt Ideal)) :
    after (L1_P2 (F := Ideal)) W (Proc.devRef .tc main_v141) = rowAt1 (W (Proc.devRef .tc main_arg11)) := by
  simp only [L1_P2]
  after_results_simp <;> rfl

set_option maxRecDepth 16384 in
set_option maxHeartbeats 2000000 in
/-- After these operations, from any contents `W`, `main_v143` holds this stage of the contents before them. -/
theorem L1_P2_be2 (W : Valuation τ sig (Elt Ideal)) :
    after (L1_P2 (F := Ideal)) W (Proc.devRef .tc main_v143) = rowAt1 (W (Proc.devRef .tc main_arg12)) := by
  simp only [L1_P2]
  after_results_simp <;> rfl

/-- @main's operations 234 … 238 of 562. -/
abbrev L1_M2 : List (HloOp τ sig (Elt F)) :=
  [ nullary main_cst_16 (constant S_ .f32 0x00000000#32),
    binary main_v139 main_cst_16 main_v144 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_17 (constant S_ .f32 0x47C35000#32),
    unary main_cst_17 main_v145 (broadcastInDim S128 ![] bcast_S_S128 : (⟨S_, .f32⟩ : BufTy).Contents (Elt F) → (⟨S128, .f32⟩ : BufTy).Contents (Elt F)),
    binary main_v144 main_v145 main_v146 (Host.divf : (⟨S128, .f32⟩ : BufTy).Contents (Elt F) → (⟨S128, .f32⟩ : BufTy).Contents (Elt F) → (⟨S128, .f32⟩ : BufTy).Contents (Elt F)) ]
/-- The buffers they write. -/
abbrev L1_M2_W : List (Ref sig .tc) := [main_cst_16, main_v144, main_cst_17, main_v145, main_v146]
set_option maxRecDepth 16384 in
theorem L1_M2_writes : WritesIn (L1_M2 : List (HloOp τ sig (Elt F))) L1_M2_W := by
  simp only [WritesIn, List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

set_option maxRecDepth 16384 in
set_option maxHeartbeats 2000000 in
/-- After these operations, from any contents `W`, `main_v144` holds this stage of the contents before them. -/
theorem L1_M2_sum2 (W : Valuation τ sig (Elt Ideal)) :
    after (L1_M2 (F := Ideal)) W (Proc.devRef .tc main_v144) = colSum (W (Proc.devRef .tc main_v139)) := by
  simp only [L1_M2]
  after_results_simp <;> rfl

set_option maxRecDepth 16384 in
set_option maxHeartbeats 2000000 in
/-- After these operations, from any contents `W`, `main_v146` holds this stage of the contents before them. -/
theorem L1_M2_mean2 (W : Valuation τ sig (Elt Ideal)) :
    after (L1_M2 (F := Ideal)) W (Proc.devRef .tc main_v146) = meanStage (W (Proc.devRef .tc main_v139)) := by
  simp only [L1_M2]
  after_results_simp <;> rfl

/-- @main's operations 239 … 261 of 562. -/
abbrev L1_V2 : List (HloOp τ sig (Elt F)) :=
  [ nullary main_c_18 (constantI S_ 32 0#32),
    TRef.nullary (TRef.of (T := ⟨S_, .f32⟩) main_call7_cst) (constant S_ .f32 0x00000000#32),
    TRef.binary (TRef.of (T := ⟨S100000x128, .f32⟩) main_v139) (TRef.of (T := ⟨S_, .f32⟩) main_call7_cst) (TRef.of (T := ⟨S128, .f32⟩) main_call7_v0) (fun x v => Host.reduceAdd x v reducesTo_S100000x128_S128_d0 h_S_),
    TRef.unary (TRef.of (T := ⟨S128, .f32⟩) main_call7_v0) (TRef.of (T := ⟨S1x128, .f32⟩) main_call7_v1) (broadcastInDim S1x128 ![1] bcast_S128_S1x128_1),
    TRef.nullary (TRef.of (T := ⟨S_, .f32⟩) main_call7_cst_0) (constant S_ .f32 0x47C35000#32),
    TRef.unary (TRef.of (T := ⟨S_, .f32⟩) main_call7_cst_0) (TRef.of (T := ⟨S1x128, .f32⟩) main_call7_v2) (broadcastInDim S1x128 ![] bcast_S_S1x128),
    TRef.binary (TRef.of (T := ⟨S1x128, .f32⟩) main_call7_v1) (TRef.of (T := ⟨S1x128, .f32⟩) main_call7_v2) (TRef.of (T := ⟨S1x128, .f32⟩) main_call7_v3) Host.divf,
    TRef.unary (TRef.of (T := ⟨S1x128, .f32⟩) main_call7_v3) (TRef.of (T := ⟨S100000x128, .f32⟩) main_call7_v4) (broadcastInDim S100000x128 ![0, 1] bcast_S1x128_S100000x128_0_1),
    TRef.binary (TRef.of (T := ⟨S100000x128, .f32⟩) main_v139) (TRef.of (T := ⟨S100000x128, .f32⟩) main_call7_v4) (TRef.of (T := ⟨S100000x128, .f32⟩) main_call7_v5) subf,
    TRef.binary (TRef.of (T := ⟨S100000x128, .f32⟩) main_call7_v5) (TRef.of (T := ⟨S100000x128, .f32⟩) main_call7_v5) (TRef.of (T := ⟨S100000x128, .f32⟩) main_call7_v6) mulf,
    TRef.unary (TRef.of (T := ⟨S_, .i32⟩) main_c_18) (TRef.of (T := ⟨S_, .f32⟩) main_call7_v7) (sitofp .f32),
    TRef.nullary (TRef.of (T := ⟨S_, .f32⟩) main_call7_cst_1) (constant S_ .f32 0x47C35000#32),
    TRef.binary (TRef.of (T := ⟨S_, .f32⟩) main_call7_cst_1) (TRef.of (T := ⟨S_, .f32⟩) main_call7_v7) (TRef.of (T := ⟨S_, .f32⟩) main_call7_v8) subf,
    TRef.nullary (TRef.of (T := ⟨S_, .f32⟩) main_call7_cst_2) (constant S_ .f32 0x00000000#32),
    TRef.binary (TRef.of (T := ⟨S100000x128, .f32⟩) main_call7_v6) (TRef.of (T := ⟨S_, .f32⟩) main_call7_cst_2) (TRef.of (T := ⟨S128, .f32⟩) main_call7_v9) (fun x v => Host.reduceAdd x v reducesTo_S100000x128_S128_d0 h_S_),
    TRef.unary (TRef.of (T := ⟨S_, .f32⟩) main_call7_v8) (TRef.of (T := ⟨S128, .f32⟩) main_call7_v10) (broadcastInDim S128 ![] bcast_S_S128),
    TRef.binary (TRef.of (T := ⟨S128, .f32⟩) main_call7_v9) (TRef.of (T := ⟨S128, .f32⟩) main_call7_v10) (TRef.of (T := ⟨S128, .f32⟩) main_call7_v11) Host.divf,
    TRef.nullary (TRef.of (T := ⟨S_, .f32⟩) main_call7_cst_3) (constant S_ .f32 0x00000000#32),
    TRef.binary (TRef.of (T := ⟨S_, .f32⟩) main_call7_v8) (TRef.of (T := ⟨S_, .f32⟩) main_call7_cst_3) (TRef.of (T := ⟨S_, .i1⟩) main_call7_v12) (cmpf .ogt),
    TRef.nullary (TRef.of (T := ⟨S_, .f32⟩) main_call7_cst_4) (constant S_ .f32 0x7FC00000#32),
    TRef.unary (TRef.of (T := ⟨S_, .f32⟩) main_call7_cst_4) (TRef.of (T := ⟨S_, .f32⟩) main_call7_call0_v0) id,
    TRef.unary (TRef.of (T := ⟨S_, .f32⟩) main_call7_call0_v0) (TRef.of (T := ⟨S128, .f32⟩) main_call7_call0_v1) (broadcastInDim S128 ![] bcast_S_S128),
    TRef.ternary (TRef.of (T := ⟨S_, .i1⟩) main_call7_v12) (TRef.of (T := ⟨S128, .f32⟩) main_call7_v11) (TRef.of (T := ⟨S128, .f32⟩) main_call7_call0_v1) (TRef.of (T := ⟨S128, .f32⟩) main_v147) (fun p a b => select (broadcastInDim S128 ![] bcast_S_S128 p) a b) ]
/-- The buffers they write. -/
abbrev L1_V2_W : List (Ref sig .tc) := [main_c_18, main_call7_cst, main_call7_v0, main_call7_v1, main_call7_cst_0, main_call7_v2, main_call7_v3, main_call7_v4, main_call7_v5, main_call7_v6, main_call7_v7, main_call7_cst_1, main_call7_v8, main_call7_cst_2, main_call7_v9, main_call7_v10, main_call7_v11, main_call7_cst_3, main_call7_v12, main_call7_cst_4, main_call7_call0_v0, main_call7_call0_v1, main_v147]
set_option maxRecDepth 16384 in
theorem L1_V2_writes : WritesIn (L1_V2 : List (HloOp τ sig (Elt F))) L1_V2_W := by
  simp only [WritesIn, List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

set_option maxRecDepth 16384 in
set_option maxHeartbeats 2000000 in
/-- After these operations, from any contents `W`, `main_v147` holds this stage of the contents before them. -/
theorem L1_V2_var2 (W : Valuation τ sig (Elt Ideal)) :
    after (L1_V2 (F := Ideal)) W (Proc.devRef .tc main_v147) = varStage (W (Proc.devRef .tc main_v139)) := by
  simp only [L1_V2]
  after_results_simp <;> rfl

/-- @main's operations 262 … 272 of 562. -/
abbrev L1_B2_a : List (HloOp τ sig (Elt F)) :=
  [ unary main_v146 main_v148 (broadcastInDim S1x128 ![1] bcast_S128_S1x128_1 : (⟨S128, .f32⟩ : BufTy).Contents (Elt F) → (⟨S1x128, .f32⟩ : BufTy).Contents (Elt F)),
    unary main_v148 main_v149 (broadcastInDim S100000x128 ![0, 1] bcast_S1x128_S100000x128_0_1 : (⟨S1x128, .f32⟩ : BufTy).Contents (Elt F) → (⟨S100000x128, .f32⟩ : BufTy).Contents (Elt F)),
    binary main_v139 main_v149 main_v150 (subf : (⟨S100000x128, .f32⟩ : BufTy).Contents (Elt F) → (⟨S100000x128, .f32⟩ : BufTy).Contents (Elt F) → (⟨S100000x128, .f32⟩ : BufTy).Contents (Elt F)),
    unary main_v141 main_v151 (broadcastInDim S1x128 ![1] bcast_S128_S1x128_1 : (⟨S128, .f32⟩ : BufTy).Contents (Elt F) → (⟨S1x128, .f32⟩ : BufTy).Contents (Elt F)),
    unary main_v151 main_v152 (broadcastInDim S100000x128 ![0, 1] bcast_S1x128_S100000x128_0_1 : (⟨S1x128, .f32⟩ : BufTy).Contents (Elt F) → (⟨S100000x128, .f32⟩ : BufTy).Contents (Elt F)),
    binary main_v152 main_v150 main_v153 (mulf : (⟨S100000x128, .f32⟩ : BufTy).Contents (Elt F) → (⟨S100000x128, .f32⟩ : BufTy).Contents (Elt F) → (⟨S100000x128, .f32⟩ : BufTy).Contents (Elt F)),
    nullary main_cst_19 (constant S_ .f32 0x3727C5AC#32),
    unary main_cst_19 main_v154 (broadcastInDim S128 ![] bcast_S_S128 : (⟨S_, .f32⟩ : BufTy).Contents (Elt F) → (⟨S128, .f32⟩ : BufTy).Contents (Elt F)),
    binary main_v147 main_v154 main_v155 (addf : (⟨S128, .f32⟩ : BufTy).Contents (Elt F) → (⟨S128, .f32⟩ : BufTy).Contents (Elt F) → (⟨S128, .f32⟩ : BufTy).Contents (Elt F)),
    unary main_v155 main_v156 (Host.rsqrt : (⟨S128, .f32⟩ : BufTy).Contents (Elt F) → (⟨S128, .f32⟩ : BufTy).Contents (Elt F)),
    unary main_v156 main_v157 (broadcastInDim S1x128 ![1] bcast_S128_S1x128_1 : (⟨S128, .f32⟩ : BufTy).Contents (Elt F) → (⟨S1x128, .f32⟩ : BufTy).Contents (Elt F)) ]
/-- The buffers they write. -/
abbrev L1_B2_a_W : List (Ref sig .tc) := [main_v148, main_v149, main_v150, main_v151, main_v152, main_v153, main_cst_19, main_v154, main_v155, main_v156, main_v157]
set_option maxRecDepth 16384 in
theorem L1_B2_a_writes : WritesIn (L1_B2_a : List (HloOp τ sig (Elt F))) L1_B2_a_W := by
  simp only [WritesIn, List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- @main's operations 273 … 277 of 562. -/
abbrev L1_B2_b : List (HloOp τ sig (Elt F)) :=
  [ unary main_v157 main_v158 (broadcastInDim S100000x128 ![0, 1] bcast_S1x128_S100000x128_0_1 : (⟨S1x128, .f32⟩ : BufTy).Contents (Elt F) → (⟨S100000x128, .f32⟩ : BufTy).Contents (Elt F)),
    binary main_v153 main_v158 main_v159 (mulf : (⟨S100000x128, .f32⟩ : BufTy).Contents (Elt F) → (⟨S100000x128, .f32⟩ : BufTy).Contents (Elt F) → (⟨S100000x128, .f32⟩ : BufTy).Contents (Elt F)),
    unary main_v143 main_v160 (broadcastInDim S1x128 ![1] bcast_S128_S1x128_1 : (⟨S128, .f32⟩ : BufTy).Contents (Elt F) → (⟨S1x128, .f32⟩ : BufTy).Contents (Elt F)),
    unary main_v160 main_v161 (broadcastInDim S100000x128 ![0, 1] bcast_S1x128_S100000x128_0_1 : (⟨S1x128, .f32⟩ : BufTy).Contents (Elt F) → (⟨S100000x128, .f32⟩ : BufTy).Contents (Elt F)),
    binary main_v159 main_v161 main_v162 (addf : (⟨S100000x128, .f32⟩ : BufTy).Contents (Elt F) → (⟨S100000x128, .f32⟩ : BufTy).Contents (Elt F) → (⟨S100000x128, .f32⟩ : BufTy).Contents (Elt F)) ]
/-- The buffers they write. -/
abbrev L1_B2_b_W : List (Ref sig .tc) := [main_v158, main_v159, main_v160, main_v161, main_v162]
set_option maxRecDepth 16384 in
theorem L1_B2_b_writes : WritesIn (L1_B2_b : List (HloOp τ sig (Elt F))) L1_B2_b_W := by
  simp only [WritesIn, List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- One stage's operations, 262 … 277 of 562: the two runs of them in a row. -/
abbrev L1_B2 : List (HloOp τ sig (Elt F)) := L1_B2_a ++ L1_B2_b
abbrev L1_B2_W : List (Ref sig .tc) := L1_B2_a_W ++ L1_B2_b_W
theorem L1_B2_writes : WritesIn (L1_B2 : List (HloOp τ sig (Elt F))) L1_B2_W :=
  writesIn_append L1_B2_a_writes L1_B2_b_writes

set_option maxRecDepth 16384 in
set_option maxHeartbeats 2000000 in
/-- After these operations, from any contents `W`, `main_v162` holds this stage of the contents before them. -/
theorem L1_B2_bn2 (W : Valuation τ sig (Elt Ideal)) :
    after (L1_B2 (F := Ideal)) W (Proc.devRef .tc main_v162) = bnOf (W (Proc.devRef .tc main_v139)) (W (Proc.devRef .tc main_v146)) (W (Proc.devRef .tc main_v147)) (W (Proc.devRef .tc main_v141)) (W (Proc.devRef .tc main_v143)) := by
  simp only [L1_B2, L1_B2_a, L1_B2_b, List.cons_append, List.nil_append]
  after_results_simp <;> rfl

/-- @main's operations 278 … 280 of 562. -/
abbrev L1_R2 : List (HloOp τ sig (Elt F)) :=
  [ TRef.nullary (TRef.of (T := ⟨S_, .f32⟩) main_call8_cst) (constant S_ .f32 0x00000000#32),
    TRef.unary (TRef.of (T := ⟨S_, .f32⟩) main_call8_cst) (TRef.of (T := ⟨S100000x128, .f32⟩) main_call8_v0) (broadcastInDim S100000x128 ![] bcast_S_S100000x128),
    TRef.binary (TRef.of (T := ⟨S100000x128, .f32⟩) main_v162) (TRef.of (T := ⟨S100000x128, .f32⟩) main_call8_v0) (TRef.of (T := ⟨S100000x128, .f32⟩) main_v163) maximumf ]
/-- The buffers they write. -/
abbrev L1_R2_W : List (Ref sig .tc) := [main_call8_cst, main_call8_v0, main_v163]
set_option maxRecDepth 16384 in
theorem L1_R2_writes : WritesIn (L1_R2 : List (HloOp τ sig (Elt F))) L1_R2_W := by
  simp only [WritesIn, List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

set_option maxRecDepth 16384 in
set_option maxHeartbeats 2000000 in
/-- After these operations, from any contents `W`, `main_v163` holds this stage of the contents before them. -/
theorem L1_R2_out (W : Valuation τ sig (Elt Ideal)) :
    after (L1_R2 (F := Ideal)) W (Proc.devRef .tc main_v163) = reluStage (W (Proc.devRef .tc main_v162)) := by
  simp only [L1_R2]
  after_results_simp <;> rfl

end Cert.ReferenceIdeal.HandRun

end
-- ==== Proof.RefSegL2.lean ====
/- Layer 2 of the reference program, stage by stage: the operations of each stage as a list (a stage that @main's
   printed windows cut in two is two lists in a row), the buffers the list writes, and what the stage's result buffer
   holds after the list, from any contents before it, as the stage's pure function of the buffers it reads: the
   aggregation, the node's own row added, then twice the linear map, the column sums and means, the column variances,
   the normalisation and the rectifier. -/
import proofs.«119304_j10247791968545_2_alg».proof.Proof.RefStages
import proofs.«119304_j10247791968545_2_alg».proof.Proof.LibAfterSplit
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo
open Cert.Lib.AfterSplit

variable {F : FTy → Type} [FloatOps F]

/-- @main's operations 281 … 293 of 562. -/
abbrev L2_A : List (HloOp τ sig (Elt F)) :=
  [ nullary main_c_20 (constantI S_ 32 0#32),
    unary main_c_20 main_v164 (broadcastInDim S625000 ![] bcast_S_S625000 : (⟨S_, .i32⟩ : BufTy).Contents (Elt F) → (⟨S625000, .i32⟩ : BufTy).Contents (Elt F)),
    binary main_v1 main_v164 main_v165 (cmpi .slt : (⟨S625000, .i32⟩ : BufTy).Contents (Elt F) → (⟨S625000, .i32⟩ : BufTy).Contents (Elt F) → (⟨S625000, .i1⟩ : BufTy).Contents (Elt F)),
    nullary main_c_21 (constantI S_ 32 100000#32),
    unary main_c_21 main_v166 (broadcastInDim S625000 ![] bcast_S_S625000 : (⟨S_, .i32⟩ : BufTy).Contents (Elt F) → (⟨S625000, .i32⟩ : BufTy).Contents (Elt F)),
    binary main_v1 main_v166 main_v167 (addi : (⟨S625000, .i32⟩ : BufTy).Contents (Elt F) → (⟨S625000, .i32⟩ : BufTy).Contents (Elt F) → (⟨S625000, .i32⟩ : BufTy).Contents (Elt F)),
    ternary main_v165 main_v167 main_v1 main_v168 (select : (⟨S625000, .i1⟩ : BufTy).Contents (Elt F) → (⟨S625000, .i32⟩ : BufTy).Contents (Elt F) → (⟨S625000, .i32⟩ : BufTy).Contents (Elt F) → (⟨S625000, .i32⟩ : BufTy).Contents (Elt F)),
    unary main_v168 main_v169 (broadcastInDim S625000x1 ![0] bcast_S625000_S625000x1_0 : (⟨S625000, .i32⟩ : BufTy).Contents (Elt F) → (⟨S625000x1, .i32⟩ : BufTy).Contents (Elt F)),
    binary main_v163 main_v169 main_v170 ((fun x i => Host.gather gather_S100000x128_S625000x1_S625000x128_1_0_n_n_0_1_1128 x i) : (⟨S100000x128, .f32⟩ : BufTy).Contents (Elt F) → (⟨S625000x1, .i32⟩ : BufTy).Contents (Elt F) → (⟨S625000x128, .f32⟩ : BufTy).Contents (Elt F)),
    nullary main_cst_22 (constant S_ .f32 0x00000000#32),
    unary main_cst_22 main_v171 (broadcastInDim S100000x128 ![] bcast_S_S100000x128 : (⟨S_, .f32⟩ : BufTy).Contents (Elt F) → (⟨S100000x128, .f32⟩ : BufTy).Contents (Elt F)),
    unary main_v3 main_v172 (broadcastInDim S625000x1 ![0] bcast_S625000_S625000x1_0 : (⟨S625000, .i32⟩ : BufTy).Contents (Elt F) → (⟨S625000x1, .i32⟩ : BufTy).Contents (Elt F)),
    ternary main_v171 main_v172 main_v170 main_v173 ((fun x i u => Host.scatterAdd scatter_S100000x128_S625000x1_S625000x128_1_0_0_1 x i u) : (⟨S100000x128, .f32⟩ : BufTy).Contents (Elt F) → (⟨S625000x1, .i32⟩ : BufTy).Contents (Elt F) → (⟨S625000x128, .f32⟩ : BufTy).Contents (Elt F) → (⟨S100000x128, .f32⟩ : BufTy).Contents (Elt F)) ]
/-- The buffers they write. -/
abbrev L2_A_W : List (Ref sig .tc) := [main_c_20, main_v164, main_v165, main_c_21, main_v166, main_v167, main_v168, main_v169, main_v170, main_cst_22, main_v171, main_v172, main_v173]
set_option maxRecDepth 16384 in
theorem L2_A_writes : WritesIn (L2_A : List (HloOp τ sig (Elt F))) L2_A_W := by
  simp only [WritesIn, List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

set_option maxRecDepth 16384 in
set_option maxHeartbeats 2000000 in
/-- After these operations, from any contents `W`, `main_v173` holds this stage of the contents before them. -/
theorem L2_A_agg (W : Valuation τ sig (Elt Ideal)) :
    after (L2_A (F := Ideal)) W (Proc.devRef .tc main_v173) = aggOf (W (Proc.devRef .tc main_v163)) (W (Proc.devRef .tc main_v1)) (W (Proc.devRef .tc main_v3)) := by
  simp only [L2_A]
  after_results_simp <;> rfl

/-- @main's operations 294 … 294 of 562. -/
abbrev L2_H : List (HloOp τ sig (Elt F)) :=
  [ binary main_v163 main_v173 main_v174 (addf : (⟨S100000x128, .f32⟩ : BufTy).Contents (Elt F) → (⟨S100000x128, .f32⟩ : BufTy).Contents (Elt F) → (⟨S100000x128, .f32⟩ : BufTy).Contents (Elt F)) ]
/-- The buffers they write. -/
abbrev L2_H_W : List (Ref sig .tc) := [main_v174]
set_option maxRecDepth 16384 in
theorem L2_H_writes : WritesIn (L2_H : List (HloOp τ sig (Elt F))) L2_H_W := by
  simp only [WritesIn, List.Forall]
  exact (by simp only [nullary_writes, unary_writes, binary_writes, ternary_writes, quaternary_writes, reshape_writes, Finset.singleton_subset_iff, List.mem_toFinset]; exact List.mem_map_of_mem (by decide))

set_option maxRecDepth 16384 in
set_option maxHeartbeats 2000000 in
/-- After these operations, from any contents `W`, `main_v174` holds this stage of the contents before them. -/
theorem L2_H_h (W : Valuation τ sig (Elt Ideal)) :
    after (L2_H (F := Ideal)) W (Proc.devRef .tc main_v174) = (addf ((W (Proc.devRef .tc main_v163)) : TNode) (W (Proc.devRef .tc main_v173)) : TNode) := by
  simp only [L2_H]
  after_results_simp <;> rfl

/-- @main's operations 295 … 303 of 562. -/
abbrev L2_L1 : List (HloOp τ sig (Elt F)) :=
  [ unary main_arg5 main_v175 ((extractStridedSlice S1x128x128 ![2, 0, 0] · slices_S4x128x128_S1x128x128_2_0_0) : (⟨S4x128x128, .f32⟩ : BufTy).Contents (Elt F) → (⟨S1x128x128, .f32⟩ : BufTy).Contents (Elt F)),
    reshape main_v175 main_v176 rfl shapeCasts_S1x128x128_S128x128,
    unary main_v176 main_v177 ((transpose S128x128 [1, 0] · transposes_S128x128_S128x128_1_0) : (⟨S128x128, .f32⟩ : BufTy).Contents (Elt F) → (⟨S128x128, .f32⟩ : BufTy).Contents (Elt F)),
    binary main_v174 main_v177 main_v178 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg6 main_v179 ((extractStridedSlice S1x128 ![2, 0] · slices_S4x128_S1x128_2_0) : (⟨S4x128, .f32⟩ : BufTy).Contents (Elt F) → (⟨S1x128, .f32⟩ : BufTy).Contents (Elt F)),
    reshape main_v179 main_v180 rfl shapeCasts_S1x128_S128,
    unary main_v180 main_v181 (broadcastInDim S1x128 ![1] bcast_S128_S1x128_1 : (⟨S128, .f32⟩ : BufTy).Contents (Elt F) → (⟨S1x128, .f32⟩ : BufTy).Contents (Elt F)),
    unary main_v181 main_v182 (broadcastInDim S100000x128 ![0, 1] bcast_S1x128_S100000x128_0_1 : (⟨S1x128, .f32⟩ : BufTy).Contents (Elt F) → (⟨S100000x128, .f32⟩ : BufTy).Contents (Elt F)),
    binary main_v178 main_v182 main_v183 (addf : (⟨S100000x128, .f32⟩ : BufTy).Contents (Elt F) → (⟨S100000x128, .f32⟩ : BufTy).Contents (Elt F) → (⟨S100000x128, .f32⟩ : BufTy).Contents (Elt F)) ]
/-- The buffers they write. -/
abbrev L2_L1_W : List (Ref sig .tc) := [main_v175, main_v176, main_v177, main_v178, main_v179, main_v180, main_v181, main_v182, main_v183]
set_option maxRecDepth 16384 in
theorem L2_L1_writes : WritesIn (L2_L1 : List (HloOp τ sig (Elt F))) L2_L1_W := by
  simp only [WritesIn, List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

set_option maxRecDepth 16384 in
set_option maxHeartbeats 2000000 in
/-- After these operations, from any contents `W`, `main_v183` holds this stage of the contents before them. -/
theorem L2_L1_y1 (W : Valuation τ sig (Elt Ideal)) :
    after (L2_L1 (F := Ideal)) W (Proc.devRef .tc main_v183) = linStage (W (Proc.devRef .tc main_v174)) (matAt2 (W (Proc.devRef .tc main_arg5))) (rowAt2 (W (Proc.devRef .tc main_arg6))) := by
  simp only [L2_L1]
  after_results_simp <;> rfl

/-- @main's operations 304 … 307 of 562. -/
abbrev L2_P1 : List (HloOp τ sig (Elt F)) :=
  [ unary main_arg7 main_v184 ((extractStridedSlice S1x128 ![2, 0] · slices_S4x128_S1x128_2_0) : (⟨S4x128, .f32⟩ : BufTy).Contents (Elt F) → (⟨S1x128, .f32⟩ : BufTy).Contents (Elt F)),
    reshape main_v184 main_v185 rfl shapeCasts_S1x128_S128,
    unary main_arg8 main_v186 ((extractStridedSlice S1x128 ![2, 0] · slices_S4x128_S1x128_2_0) : (⟨S4x128, .f32⟩ : BufTy).Contents (Elt F) → (⟨S1x128, .f32⟩ : BufTy).Contents (Elt F)),
    reshape main_v186 main_v187 rfl shapeCasts_S1x128_S128 ]
/-- The buffers they write. -/
abbrev L2_P1_W : List (Ref sig .tc) := [main_v184, main_v185, main_v186, main_v187]
set_option maxRecDepth 16384 in
theorem L2_P1_writes : WritesIn (L2_P1 : List (HloOp τ sig (Elt F))) L2_P1_W := by
  simp only [WritesIn, List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

set_option maxRecDepth 16384 in
set_option maxHeartbeats 2000000 in
/-- After these operations, from any contents `W`, `main_v185` holds this stage of the contents before them. -/
theorem L2_P1_g1 (W : Valuation τ sig (Elt Ideal)) :
    after (L2_P1 (F := Ideal)) W (Proc.devRef .tc main_v185) = rowAt2 (W (Proc.devRef .tc main_arg7)) := by
  simp only [L2_P1]
  after_results_simp <;> rfl

set_option maxRecDepth 16384 in
set_option maxHeartbeats 2000000 in
/-- After these operations, from any contents `W`, `main_v187` holds this stage of the contents before them. -/
theorem L2_P1_be1 (W : Valuation τ sig (Elt Ideal)) :
    after (L2_P1 (F := Ideal)) W (Proc.devRef .tc main_v187) = rowAt2 (W (Proc.devRef .tc main_arg8)) := by
  simp only [L2_P1]
  after_results_simp <;> rfl

/-- @main's operations 308 … 312 of 562. -/
abbrev L2_M1 : List (HloOp τ sig (Elt F)) :=
  [ nullary main_cst_23 (constant S_ .f32 0x00000000#32),
    binary main_v183 main_cst_23 main_v188 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_24 (constant S_ .f32 0x47C35000#32),
    unary main_cst_24 main_v189 (broadcastInDim S128 ![] bcast_S_S128 : (⟨S_, .f32⟩ : BufTy).Contents (Elt F) → (⟨S128, .f32⟩ : BufTy).Contents (Elt F)),
    binary main_v188 main_v189 main_v190 (Host.divf : (⟨S128, .f32⟩ : BufTy).Contents (Elt F) → (⟨S128, .f32⟩ : BufTy).Contents (Elt F) → (⟨S128, .f32⟩ : BufTy).Contents (Elt F)) ]
/-- The buffers they write. -/
abbrev L2_M1_W : List (Ref sig .tc) := [main_cst_23, main_v188, main_cst_24, main_v189, main_v190]
set_option maxRecDepth 16384 in
theorem L2_M1_writes : WritesIn (L2_M1 : List (HloOp τ sig (Elt F))) L2_M1_W := by
  simp only [WritesIn, List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

set_option maxRecDepth 16384 in
set_option maxHeartbeats 2000000 in
/-- After these operations, from any contents `W`, `main_v188` holds this stage of the contents before them. -/
theorem L2_M1_sum1 (W : Valuation τ sig (Elt Ideal)) :
    after (L2_M1 (F := Ideal)) W (Proc.devRef .tc main_v188) = colSum (W (Proc.devRef .tc main_v183)) := by
  simp only [L2_M1]
  after_results_simp <;> rfl

set_option maxRecDepth 16384 in
set_option maxHeartbeats 2000000 in
/-- After these operations, from any contents `W`, `main_v190` holds this stage of the contents before them. -/
theorem L2_M1_mean1 (W : Valuation τ sig (Elt Ideal)) :
    after (L2_M1 (F := Ideal)) W (Proc.devRef .tc main_v190) = meanStage (W (Proc.devRef .tc main_v183)) := by
  simp only [L2_M1]
  after_results_simp <;> rfl

/-- @main's operations 313 … 335 of 562. -/
abbrev L2_V1 : List (HloOp τ sig (Elt F)) :=
  [ nullary main_c_25 (constantI S_ 32 0#32),
    TRef.nullary (TRef.of (T := ⟨S_, .f32⟩) main_call9_cst) (constant S_ .f32 0x00000000#32),
    TRef.binary (TRef.of (T := ⟨S100000x128, .f32⟩) main_v183) (TRef.of (T := ⟨S_, .f32⟩) main_call9_cst) (TRef.of (T := ⟨S128, .f32⟩) main_call9_v0) (fun x v => Host.reduceAdd x v reducesTo_S100000x128_S128_d0 h_S_),
    TRef.unary (TRef.of (T := ⟨S128, .f32⟩) main_call9_v0) (TRef.of (T := ⟨S1x128, .f32⟩) main_call9_v1) (broadcastInDim S1x128 ![1] bcast_S128_S1x128_1),
    TRef.nullary (TRef.of (T := ⟨S_, .f32⟩) main_call9_cst_0) (constant S_ .f32 0x47C35000#32),
    TRef.unary (TRef.of (T := ⟨S_, .f32⟩) main_call9_cst_0) (TRef.of (T := ⟨S1x128, .f32⟩) main_call9_v2) (broadcastInDim S1x128 ![] bcast_S_S1x128),
    TRef.binary (TRef.of (T := ⟨S1x128, .f32⟩) main_call9_v1) (TRef.of (T := ⟨S1x128, .f32⟩) main_call9_v2) (TRef.of (T := ⟨S1x128, .f32⟩) main_call9_v3) Host.divf,
    TRef.unary (TRef.of (T := ⟨S1x128, .f32⟩) main_call9_v3) (TRef.of (T := ⟨S100000x128, .f32⟩) main_call9_v4) (broadcastInDim S100000x128 ![0, 1] bcast_S1x128_S100000x128_0_1),
    TRef.binary (TRef.of (T := ⟨S100000x128, .f32⟩) main_v183) (TRef.of (T := ⟨S100000x128, .f32⟩) main_call9_v4) (TRef.of (T := ⟨S100000x128, .f32⟩) main_call9_v5) subf,
    TRef.binary (TRef.of (T := ⟨S100000x128, .f32⟩) main_call9_v5) (TRef.of (T := ⟨S100000x128, .f32⟩) main_call9_v5) (TRef.of (T := ⟨S100000x128, .f32⟩) main_call9_v6) mulf,
    TRef.unary (TRef.of (T := ⟨S_, .i32⟩) main_c_25) (TRef.of (T := ⟨S_, .f32⟩) main_call9_v7) (sitofp .f32),
    TRef.nullary (TRef.of (T := ⟨S_, .f32⟩) main_call9_cst_1) (constant S_ .f32 0x47C35000#32),
    TRef.binary (TRef.of (T := ⟨S_, .f32⟩) main_call9_cst_1) (TRef.of (T := ⟨S_, .f32⟩) main_call9_v7) (TRef.of (T := ⟨S_, .f32⟩) main_call9_v8) subf,
    TRef.nullary (TRef.of (T := ⟨S_, .f32⟩) main_call9_cst_2) (constant S_ .f32 0x00000000#32),
    TRef.binary (TRef.of (T := ⟨S100000x128, .f32⟩) main_call9_v6) (TRef.of (T := ⟨S_, .f32⟩) main_call9_cst_2) (TRef.of (T := ⟨S128, .f32⟩) main_call9_v9) (fun x v => Host.reduceAdd x v reducesTo_S100000x128_S128_d0 h_S_),
    TRef.unary (TRef.of (T := ⟨S_, .f32⟩) main_call9_v8) (TRef.of (T := ⟨S128, .f32⟩) main_call9_v10) (broadcastInDim S128 ![] bcast_S_S128),
    TRef.binary (TRef.of (T := ⟨S128, .f32⟩) main_call9_v9) (TRef.of (T := ⟨S128, .f32⟩) main_call9_v10) (TRef.of (T := ⟨S128, .f32⟩) main_call9_v11) Host.divf,
    TRef.nullary (TRef.of (T := ⟨S_, .f32⟩) main_call9_cst_3) (constant S_ .f32 0x00000000#32),
    TRef.binary (TRef.of (T := ⟨S_, .f32⟩) main_call9_v8) (TRef.of (T := ⟨S_, .f32⟩) main_call9_cst_3) (TRef.of (T := ⟨S_, .i1⟩) main_call9_v12) (cmpf .ogt),
    TRef.nullary (TRef.of (T := ⟨S_, .f32⟩) main_call9_cst_4) (constant S_ .f32 0x7FC00000#32),
    TRef.unary (TRef.of (T := ⟨S_, .f32⟩) main_call9_cst_4) (TRef.of (T := ⟨S_, .f32⟩) main_call9_call0_v0) id,
    TRef.unary (TRef.of (T := ⟨S_, .f32⟩) main_call9_call0_v0) (TRef.of (T := ⟨S128, .f32⟩) main_call9_call0_v1) (broadcastInDim S128 ![] bcast_S_S128),
    TRef.ternary (TRef.of (T := ⟨S_, .i1⟩) main_call9_v12) (TRef.of (T := ⟨S128, .f32⟩) main_call9_v11) (TRef.of (T := ⟨S128, .f32⟩) main_call9_call0_v1) (TRef.of (T := ⟨S128, .f32⟩) main_v191) (fun p a b => select (broadcastInDim S128 ![] bcast_S_S128 p) a b) ]
/-- The buffers they write. -/
abbrev L2_V1_W : List (Ref sig .tc) := [main_c_25, main_call9_cst, main_call9_v0, main_call9_v1, main_call9_cst_0, main_call9_v2, main_call9_v3, main_call9_v4, main_call9_v5, main_call9_v6, main_call9_v7, main_call9_cst_1, main_call9_v8, main_call9_cst_2, main_call9_v9, main_call9_v10, main_call9_v11, main_call9_cst_3, main_call9_v12, main_call9_cst_4, main_call9_call0_v0, main_call9_call0_v1, main_v191]
set_option maxRecDepth 16384 in
theorem L2_V1_writes : WritesIn (L2_V1 : List (HloOp τ sig (Elt F))) L2_V1_W := by
  simp only [WritesIn, List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

set_option maxRecDepth 16384 in
set_option maxHeartbeats 2000000 in
/-- After these operations, from any contents `W`, `main_v191` holds this stage of the contents before them. -/
theorem L2_V1_var1 (W : Valuation τ sig (Elt Ideal)) :
    after (L2_V1 (F := Ideal)) W (Proc.devRef .tc main_v191) = varStage (W (Proc.devRef .tc main_v183)) := by
  simp only [L2_V1]
  after_results_simp <;> rfl

/-- @main's operations 336 … 351 of 562. -/
abbrev L2_B1 : List (HloOp τ sig (Elt F)) :=
  [ unary main_v190 main_v192 (broadcastInDim S1x128 ![1] bcast_S128_S1x128_1 : (⟨S128, .f32⟩ : BufTy).Contents (Elt F) → (⟨S1x128, .f32⟩ : BufTy).Contents (Elt F)),
    unary main_v192 main_v193 (broadcastInDim S100000x128 ![0, 1] bcast_S1x128_S100000x128_0_1 : (⟨S1x128, .f32⟩ : BufTy).Contents (Elt F) → (⟨S100000x128, .f32⟩ : BufTy).Contents (Elt F)),
    binary main_v183 main_v193 main_v194 (subf : (⟨S100000x128, .f32⟩ : BufTy).Contents (Elt F) → (⟨S100000x128, .f32⟩ : BufTy).Contents (Elt F) → (⟨S100000x128, .f32⟩ : BufTy).Contents (Elt F)),
    unary main_v185 main_v195 (broadcastInDim S1x128 ![1] bcast_S128_S1x128_1 : (⟨S128, .f32⟩ : BufTy).Contents (Elt F) → (⟨S1x128, .f32⟩ : BufTy).Contents (Elt F)),
    unary main_v195 main_v196 (broadcastInDim S100000x128 ![0, 1] bcast_S1x128_S100000x128_0_1 : (⟨S1x128, .f32⟩ : BufTy).Contents (Elt F) → (⟨S100000x128, .f32⟩ : BufTy).Contents (Elt F)),
    binary main_v196 main_v194 main_v197 (mulf : (⟨S100000x128, .f32⟩ : BufTy).Contents (Elt F) → (⟨S100000x128, .f32⟩ : BufTy).Contents (Elt F) → (⟨S100000x128, .f32⟩ : BufTy).Contents (Elt F)),
    nullary main_cst_26 (constant S_ .f32 0x3727C5AC#32),
    unary main_cst_26 main_v198 (broadcastInDim S128 ![] bcast_S_S128 : (⟨S_, .f32⟩ : BufTy).Contents (Elt F) → (⟨S128, .f32⟩ : BufTy).Contents (Elt F)),
    binary main_v191 main_v198 main_v199 (addf : (⟨S128, .f32⟩ : BufTy).Contents (Elt F) → (⟨S128, .f32⟩ : BufTy).Contents (Elt F) → (⟨S128, .f32⟩ : BufTy).Contents (Elt F)),
    unary main_v199 main_v200 (Host.rsqrt : (⟨S128, .f32⟩ : BufTy).Contents (Elt F) → (⟨S128, .f32⟩ : BufTy).Contents (Elt F)),
    unary main_v200 main_v201 (broadcastInDim S1x128 ![1] bcast_S128_S1x128_1 : (⟨S128, .f32⟩ : BufTy).Contents (Elt F) → (⟨S1x128, .f32⟩ : BufTy).Contents (Elt F)),
    unary main_v201 main_v202 (broadcastInDim S100000x128 ![0, 1] bcast_S1x128_S100000x128_0_1 : (⟨S1x128, .f32⟩ : BufTy).Contents (Elt F) → (⟨S100000x128, .f32⟩ : BufTy).Contents (Elt F)),
    binary main_v197 main_v202 main_v203 (mulf : (⟨S100000x128, .f32⟩ : BufTy).Contents (Elt F) → (⟨S100000x128, .f32⟩ : BufTy).Contents (Elt F) → (⟨S100000x128, .f32⟩ : BufTy).Contents (Elt F)),
    unary main_v187 main_v204 (broadcastInDim S1x128 ![1] bcast_S128_S1x128_1 : (⟨S128, .f32⟩ : BufTy).Contents (Elt F) → (⟨S1x128, .f32⟩ : BufTy).Contents (Elt F)),
    unary main_v204 main_v205 (broadcastInDim S100000x128 ![0, 1] bcast_S1x128_S100000x128_0_1 : (⟨S1x128, .f32⟩ : BufTy).Contents (Elt F) → (⟨S100000x128, .f32⟩ : BufTy).Contents (Elt F)),
    binary main_v203 main_v205 main_v206 (addf : (⟨S100000x128, .f32⟩ : BufTy).Contents (Elt F) → (⟨S100000x128, .f32⟩ : BufTy).Contents (Elt F) → (⟨S100000x128, .f32⟩ : BufTy).Contents (Elt F)) ]
/-- The buffers they write. -/
abbrev L2_B1_W : List (Ref sig .tc) := [main_v192, main_v193, main_v194, main_v195, main_v196, main_v197, main_cst_26, main_v198, main_v199, main_v200, main_v201, main_v202, main_v203, main_v204, main_v205, main_v206]
set_option maxRecDepth 16384 in
theorem L2_B1_writes : WritesIn (L2_B1 : List (HloOp τ sig (Elt F))) L2_B1_W := by
  simp only [WritesIn, List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

set_option maxRecDepth 16384 in
set_option maxHeartbeats 2000000 in
/-- After these operations, from any contents `W`, `main_v206` holds this stage of the contents before them. -/
theorem L2_B1_bn1 (W : Valuation τ sig (Elt Ideal)) :
    after (L2_B1 (F := Ideal)) W (Proc.devRef .tc main_v206) = bnOf (W (Proc.devRef .tc main_v183)) (W (Proc.devRef .tc main_v190)) (W (Proc.devRef .tc main_v191)) (W (Proc.devRef .tc main_v185)) (W (Proc.devRef .tc main_v187)) := by
  simp only [L2_B1]
  after_results_simp <;> rfl

/-- @main's operations 352 … 354 of 562. -/
abbrev L2_R1 : List (HloOp τ sig (Elt F)) :=
  [ TRef.nullary (TRef.of (T := ⟨S_, .f32⟩) main_call10_cst) (constant S_ .f32 0x00000000#32),
    TRef.unary (TRef.of (T := ⟨S_, .f32⟩) main_call10_cst) (TRef.of (T := ⟨S100000x128, .f32⟩) main_call10_v0) (broadcastInDim S100000x128 ![] bcast_S_S100000x128),
    TRef.binary (TRef.of (T := ⟨S100000x128, .f32⟩) main_v206) (TRef.of (T := ⟨S100000x128, .f32⟩) main_call10_v0) (TRef.of (T := ⟨S100000x128, .f32⟩) main_v207) maximumf ]
/-- The buffers they write. -/
abbrev L2_R1_W : List (Ref sig .tc) := [main_call10_cst, main_call10_v0, main_v207]
set_option maxRecDepth 16384 in
theorem L2_R1_writes : WritesIn (L2_R1 : List (HloOp τ sig (Elt F))) L2_R1_W := by
  simp only [WritesIn, List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

set_option maxRecDepth 16384 in
set_option maxHeartbeats 2000000 in
/-- After these operations, from any contents `W`, `main_v207` holds this stage of the contents before them. -/
theorem L2_R1_z (W : Valuation τ sig (Elt Ideal)) :
    after (L2_R1 (F := Ideal)) W (Proc.devRef .tc main_v207) = reluStage (W (Proc.devRef .tc main_v206)) := by
  simp only [L2_R1]
  after_results_simp <;> rfl

/-- @main's operations 355 … 357 of 562. -/
abbrev L2_L2_a : List (HloOp τ sig (Elt F)) :=
  [ unary main_arg9 main_v208 ((extractStridedSlice S1x128x128 ![2, 0, 0] · slices_S4x128x128_S1x128x128_2_0_0) : (⟨S4x128x128, .f32⟩ : BufTy).Contents (Elt F) → (⟨S1x128x128, .f32⟩ : BufTy).Contents (Elt F)),
    reshape main_v208 main_v209 rfl shapeCasts_S1x128x128_S128x128,
    unary main_v209 main_v210 ((transpose S128x128 [1, 0] · transposes_S128x128_S128x128_1_0) : (⟨S128x128, .f32⟩ : BufTy).Contents (Elt F) → (⟨S128x128, .f32⟩ : BufTy).Contents (Elt F)) ]
/-- The buffers they write. -/
abbrev L2_L2_a_W : List (Ref sig .tc) := [main_v208, main_v209, main_v210]
set_option maxRecDepth 16384 in
theorem L2_L2_a_writes : WritesIn (L2_L2_a : List (HloOp τ sig (Elt F))) L2_L2_a_W := by
  simp only [WritesIn, List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- @main's operations 358 … 363 of 562. -/
abbrev L2_L2_b : List (HloOp τ sig (Elt F)) :=
  [ binary main_v207 main_v210 main_v211 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg10 main_v212 ((extractStridedSlice S1x128 ![2, 0] · slices_S4x128_S1x128_2_0) : (⟨S4x128, .f32⟩ : BufTy).Contents (Elt F) → (⟨S1x128, .f32⟩ : BufTy).Contents (Elt F)),
    reshape main_v212 main_v213 rfl shapeCasts_S1x128_S128,
    unary main_v213 main_v214 (broadcastInDim S1x128 ![1] bcast_S128_S1x128_1 : (⟨S128, .f32⟩ : BufTy).Contents (Elt F) → (⟨S1x128, .f32⟩ : BufTy).Contents (Elt F)),
    unary main_v214 main_v215 (broadcastInDim S100000x128 ![0, 1] bcast_S1x128_S100000x128_0_1 : (⟨S1x128, .f32⟩ : BufTy).Contents (Elt F) → (⟨S100000x128, .f32⟩ : BufTy).Contents (Elt F)),
    binary main_v211 main_v215 main_v216 (addf : (⟨S100000x128, .f32⟩ : BufTy).Contents (Elt F) → (⟨S100000x128, .f32⟩ : BufTy).Contents (Elt F) → (⟨S100000x128, .f32⟩ : BufTy).Contents (Elt F)) ]
/-- The buffers they write. -/
abbrev L2_L2_b_W : List (Ref sig .tc) := [main_v211, main_v212, main_v213, main_v214, main_v215, main_v216]
set_option maxRecDepth 16384 in
theorem L2_L2_b_writes : WritesIn (L2_L2_b : List (HloOp τ sig (Elt F))) L2_L2_b_W := by
  simp only [WritesIn, List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- One stage's operations, 355 … 363 of 562: the two runs of them in a row. -/
abbrev L2_L2 : List (HloOp τ sig (Elt F)) := L2_L2_a ++ L2_L2_b
abbrev L2_L2_W : List (Ref sig .tc) := L2_L2_a_W ++ L2_L2_b_W
theorem L2_L2_writes : WritesIn (L2_L2 : List (HloOp τ sig (Elt F))) L2_L2_W :=
  writesIn_append L2_L2_a_writes L2_L2_b_writes

set_option maxRecDepth 16384 in
set_option maxHeartbeats 2000000 in
/-- After these operations, from any contents `W`, `main_v216` holds this stage of the contents before them. -/
theorem L2_L2_y2 (W : Valuation τ sig (Elt Ideal)) :
    after (L2_L2 (F := Ideal)) W (Proc.devRef .tc main_v216) = linStage (W (Proc.devRef .tc main_v207)) (matAt2 (W (Proc.devRef .tc main_arg9))) (rowAt2 (W (Proc.devRef .tc main_arg10))) := by
  simp only [L2_L2, L2_L2_a, L2_L2_b, List.cons_append, List.nil_append]
  after_results_simp <;> rfl

/-- @main's operations 364 … 367 of 562. -/
abbrev L2_P2 : List (HloOp τ sig (Elt F)) :=
  [ unary main_arg11 main_v217 ((extractStridedSlice S1x128 ![2, 0] · slices_S4x128_S1x128_2_0) : (⟨S4x128, .f32⟩ : BufTy).Contents (Elt F) → (⟨S1x128, .f32⟩ : BufTy).Contents (Elt F)),
    reshape main_v217 main_v218 rfl shapeCasts_S1x128_S128,
    unary main_arg12 main_v219 ((extractStridedSlice S1x128 ![2, 0] · slices_S4x128_S1x128_2_0) : (⟨S4x128, .f32⟩ : BufTy).Contents (Elt F) → (⟨S1x128, .f32⟩ : BufTy).Contents (Elt F)),
    reshape main_v219 main_v220 rfl shapeCasts_S1x128_S128 ]
/-- The buffers they write. -/
abbrev L2_P2_W : List (Ref sig .tc) := [main_v217, main_v218, main_v219, main_v220]
set_option maxRecDepth 16384 in
theorem L2_P2_writes : WritesIn (L2_P2 : List (HloOp τ sig (Elt F))) L2_P2_W := by
  simp only [WritesIn, List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

set_option maxRecDepth 16384 in
set_option maxHeartbeats 2000000 in
/-- After these operations, from any contents `W`, `main_v218` holds this stage of the contents before them. -/
theorem L2_P2_g2 (W : Valuation τ sig (Elt Ideal)) :
    after (L2_P2 (F := Ideal)) W (Proc.devRef .tc main_v218) = rowAt2 (W (Proc.devRef .tc main_arg11)) := by
  simp only [L2_P2]
  after_results_simp <;> rfl

set_option maxRecDepth 16384 in
set_option maxHeartbeats 2000000 in
/-- After these operations, from any contents `W`, `main_v220` holds this stage of the contents before them. -/
theorem L2_P2_be2 (W : Valuation τ sig (Elt Ideal)) :
    after (L2_P2 (F := Ideal)) W (Proc.devRef .tc main_v220) = rowAt2 (W (Proc.devRef .tc main_arg12)) := by
  simp only [L2_P2]
  after_results_simp <;> rfl

/-- @main's operations 368 … 372 of 562. -/
abbrev L2_M2 : List (HloOp τ sig (Elt F)) :=
  [ nullary main_cst_27 (constant S_ .f32 0x00000000#32),
    binary main_v216 main_cst_27 main_v221 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_28 (constant S_ .f32 0x47C35000#32),
    unary main_cst_28 main_v222 (broadcastInDim S128 ![] bcast_S_S128 : (⟨S_, .f32⟩ : BufTy).Contents (Elt F) → (⟨S128, .f32⟩ : BufTy).Contents (Elt F)),
    binary main_v221 main_v222 main_v223 (Host.divf : (⟨S128, .f32⟩ : BufTy).Contents (Elt F) → (⟨S128, .f32⟩ : BufTy).Contents (Elt F) → (⟨S128, .f32⟩ : BufTy).Contents (Elt F)) ]
/-- The buffers they write. -/
abbrev L2_M2_W : List (Ref sig .tc) := [main_cst_27, main_v221, main_cst_28, main_v222, main_v223]
set_option maxRecDepth 16384 in
theorem L2_M2_writes : WritesIn (L2_M2 : List (HloOp τ sig (Elt F))) L2_M2_W := by
  simp only [WritesIn, List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

set_option maxRecDepth 16384 in
set_option maxHeartbeats 2000000 in
/-- After these operations, from any contents `W`, `main_v221` holds this stage of the contents before them. -/
theorem L2_M2_sum2 (W : Valuation τ sig (Elt Ideal)) :
    after (L2_M2 (F := Ideal)) W (Proc.devRef .tc main_v221) = colSum (W (Proc.devRef .tc main_v216)) := by
  simp only [L2_M2]
  after_results_simp <;> rfl

set_option maxRecDepth 16384 in
set_option maxHeartbeats 2000000 in
/-- After these operations, from any contents `W`, `main_v223` holds this stage of the contents before them. -/
theorem L2_M2_mean2 (W : Valuation τ sig (Elt Ideal)) :
    after (L2_M2 (F := Ideal)) W (Proc.devRef .tc main_v223) = meanStage (W (Proc.devRef .tc main_v216)) := by
  simp only [L2_M2]
  after_results_simp <;> rfl

/-- @main's operations 373 … 395 of 562. -/
abbrev L2_V2 : List (HloOp τ sig (Elt F)) :=
  [ nullary main_c_29 (constantI S_ 32 0#32),
    TRef.nullary (TRef.of (T := ⟨S_, .f32⟩) main_call11_cst) (constant S_ .f32 0x00000000#32),
    TRef.binary (TRef.of (T := ⟨S100000x128, .f32⟩) main_v216) (TRef.of (T := ⟨S_, .f32⟩) main_call11_cst) (TRef.of (T := ⟨S128, .f32⟩) main_call11_v0) (fun x v => Host.reduceAdd x v reducesTo_S100000x128_S128_d0 h_S_),
    TRef.unary (TRef.of (T := ⟨S128, .f32⟩) main_call11_v0) (TRef.of (T := ⟨S1x128, .f32⟩) main_call11_v1) (broadcastInDim S1x128 ![1] bcast_S128_S1x128_1),
    TRef.nullary (TRef.of (T := ⟨S_, .f32⟩) main_call11_cst_0) (constant S_ .f32 0x47C35000#32),
    TRef.unary (TRef.of (T := ⟨S_, .f32⟩) main_call11_cst_0) (TRef.of (T := ⟨S1x128, .f32⟩) main_call11_v2) (broadcastInDim S1x128 ![] bcast_S_S1x128),
    TRef.binary (TRef.of (T := ⟨S1x128, .f32⟩) main_call11_v1) (TRef.of (T := ⟨S1x128, .f32⟩) main_call11_v2) (TRef.of (T := ⟨S1x128, .f32⟩) main_call11_v3) Host.divf,
    TRef.unary (TRef.of (T := ⟨S1x128, .f32⟩) main_call11_v3) (TRef.of (T := ⟨S100000x128, .f32⟩) main_call11_v4) (broadcastInDim S100000x128 ![0, 1] bcast_S1x128_S100000x128_0_1),
    TRef.binary (TRef.of (T := ⟨S100000x128, .f32⟩) main_v216) (TRef.of (T := ⟨S100000x128, .f32⟩) main_call11_v4) (TRef.of (T := ⟨S100000x128, .f32⟩) main_call11_v5) subf,
    TRef.binary (TRef.of (T := ⟨S100000x128, .f32⟩) main_call11_v5) (TRef.of (T := ⟨S100000x128, .f32⟩) main_call11_v5) (TRef.of (T := ⟨S100000x128, .f32⟩) main_call11_v6) mulf,
    TRef.unary (TRef.of (T := ⟨S_, .i32⟩) main_c_29) (TRef.of (T := ⟨S_, .f32⟩) main_call11_v7) (sitofp .f32),
    TRef.nullary (TRef.of (T := ⟨S_, .f32⟩) main_call11_cst_1) (constant S_ .f32 0x47C35000#32),
    TRef.binary (TRef.of (T := ⟨S_, .f32⟩) main_call11_cst_1) (TRef.of (T := ⟨S_, .f32⟩) main_call11_v7) (TRef.of (T := ⟨S_, .f32⟩) main_call11_v8) subf,
    TRef.nullary (TRef.of (T := ⟨S_, .f32⟩) main_call11_cst_2) (constant S_ .f32 0x00000000#32),
    TRef.binary (TRef.of (T := ⟨S100000x128, .f32⟩) main_call11_v6) (TRef.of (T := ⟨S_, .f32⟩) main_call11_cst_2) (TRef.of (T := ⟨S128, .f32⟩) main_call11_v9) (fun x v => Host.reduceAdd x v reducesTo_S100000x128_S128_d0 h_S_),
    TRef.unary (TRef.of (T := ⟨S_, .f32⟩) main_call11_v8) (TRef.of (T := ⟨S128, .f32⟩) main_call11_v10) (broadcastInDim S128 ![] bcast_S_S128),
    TRef.binary (TRef.of (T := ⟨S128, .f32⟩) main_call11_v9) (TRef.of (T := ⟨S128, .f32⟩) main_call11_v10) (TRef.of (T := ⟨S128, .f32⟩) main_call11_v11) Host.divf,
    TRef.nullary (TRef.of (T := ⟨S_, .f32⟩) main_call11_cst_3) (constant S_ .f32 0x00000000#32),
    TRef.binary (TRef.of (T := ⟨S_, .f32⟩) main_call11_v8) (TRef.of (T := ⟨S_, .f32⟩) main_call11_cst_3) (TRef.of (T := ⟨S_, .i1⟩) main_call11_v12) (cmpf .ogt),
    TRef.nullary (TRef.of (T := ⟨S_, .f32⟩) main_call11_cst_4) (constant S_ .f32 0x7FC00000#32),
    TRef.unary (TRef.of (T := ⟨S_, .f32⟩) main_call11_cst_4) (TRef.of (T := ⟨S_, .f32⟩) main_call11_call0_v0) id,
    TRef.unary (TRef.of (T := ⟨S_, .f32⟩) main_call11_call0_v0) (TRef.of (T := ⟨S128, .f32⟩) main_call11_call0_v1) (broadcastInDim S128 ![] bcast_S_S128),
    TRef.ternary (TRef.of (T := ⟨S_, .i1⟩) main_call11_v12) (TRef.of (T := ⟨S128, .f32⟩) main_call11_v11) (TRef.of (T := ⟨S128, .f32⟩) main_call11_call0_v1) (TRef.of (T := ⟨S128, .f32⟩) main_v224) (fun p a b => select (broadcastInDim S128 ![] bcast_S_S128 p) a b) ]
/-- The buffers they write. -/
abbrev L2_V2_W : List (Ref sig .tc) := [main_c_29, main_call11_cst, main_call11_v0, main_call11_v1, main_call11_cst_0, main_call11_v2, main_call11_v3, main_call11_v4, main_call11_v5, main_call11_v6, main_call11_v7, main_call11_cst_1, main_call11_v8, main_call11_cst_2, main_call11_v9, main_call11_v10, main_call11_v11, main_call11_cst_3, main_call11_v12, main_call11_cst_4, main_call11_call0_v0, main_call11_call0_v1, main_v224]
set_option maxRecDepth 16384 in
theorem L2_V2_writes : WritesIn (L2_V2 : List (HloOp τ sig (Elt F))) L2_V2_W := by
  simp only [WritesIn, List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

set_option maxRecDepth 16384 in
set_option maxHeartbeats 2000000 in
/-- After these operations, from any contents `W`, `main_v224` holds this stage of the contents before them. -/
theorem L2_V2_var2 (W : Valuation τ sig (Elt Ideal)) :
    after (L2_V2 (F := Ideal)) W (Proc.devRef .tc main_v224) = varStage (W (Proc.devRef .tc main_v216)) := by
  simp only [L2_V2]
  after_results_simp <;> rfl

/-- @main's operations 396 … 411 of 562. -/
abbrev L2_B2 : List (HloOp τ sig (Elt F)) :=
  [ unary main_v223 main_v225 (broadcastInDim S1x128 ![1] bcast_S128_S1x128_1 : (⟨S128, .f32⟩ : BufTy).Contents (Elt F) → (⟨S1x128, .f32⟩ : BufTy).Contents (Elt F)),
    unary main_v225 main_v226 (broadcastInDim S100000x128 ![0, 1] bcast_S1x128_S100000x128_0_1 : (⟨S1x128, .f32⟩ : BufTy).Contents (Elt F) → (⟨S100000x128, .f32⟩ : BufTy).Contents (Elt F)),
    binary main_v216 main_v226 main_v227 (subf : (⟨S100000x128, .f32⟩ : BufTy).Contents (Elt F) → (⟨S100000x128, .f32⟩ : BufTy).Contents (Elt F) → (⟨S100000x128, .f32⟩ : BufTy).Contents (Elt F)),
    unary main_v218 main_v228 (broadcastInDim S1x128 ![1] bcast_S128_S1x128_1 : (⟨S128, .f32⟩ : BufTy).Contents (Elt F) → (⟨S1x128, .f32⟩ : BufTy).Contents (Elt F)),
    unary main_v228 main_v229 (broadcastInDim S100000x128 ![0, 1] bcast_S1x128_S100000x128_0_1 : (⟨S1x128, .f32⟩ : BufTy).Contents (Elt F) → (⟨S100000x128, .f32⟩ : BufTy).Contents (Elt F)),
    binary main_v229 main_v227 main_v230 (mulf : (⟨S100000x128, .f32⟩ : BufTy).Contents (Elt F) → (⟨S100000x128, .f32⟩ : BufTy).Contents (Elt F) → (⟨S100000x128, .f32⟩ : BufTy).Contents (Elt F)),
    nullary main_cst_30 (constant S_ .f32 0x3727C5AC#32),
    unary main_cst_30 main_v231 (broadcastInDim S128 ![] bcast_S_S128 : (⟨S_, .f32⟩ : BufTy).Contents (Elt F) → (⟨S128, .f32⟩ : BufTy).Contents (Elt F)),
    binary main_v224 main_v231 main_v232 (addf : (⟨S128, .f32⟩ : BufTy).Contents (Elt F) → (⟨S128, .f32⟩ : BufTy).Contents (Elt F) → (⟨S128, .f32⟩ : BufTy).Contents (Elt F)),
    unary main_v232 main_v233 (Host.rsqrt : (⟨S128, .f32⟩ : BufTy).Contents (Elt F) → (⟨S128, .f32⟩ : BufTy).Contents (Elt F)),
    unary main_v233 main_v234 (broadcastInDim S1x128 ![1] bcast_S128_S1x128_1 : (⟨S128, .f32⟩ : BufTy).Contents (Elt F) → (⟨S1x128, .f32⟩ : BufTy).Contents (Elt F)),
    unary main_v234 main_v235 (broadcastInDim S100000x128 ![0, 1] bcast_S1x128_S100000x128_0_1 : (⟨S1x128, .f32⟩ : BufTy).Contents (Elt F) → (⟨S100000x128, .f32⟩ : BufTy).Contents (Elt F)),
    binary main_v230 main_v235 main_v236 (mulf : (⟨S100000x128, .f32⟩ : BufTy).Contents (Elt F) → (⟨S100000x128, .f32⟩ : BufTy).Contents (Elt F) → (⟨S100000x128, .f32⟩ : BufTy).Contents (Elt F)),
    unary main_v220 main_v237 (broadcastInDim S1x128 ![1] bcast_S128_S1x128_1 : (⟨S128, .f32⟩ : BufTy).Contents (Elt F) → (⟨S1x128, .f32⟩ : BufTy).Contents (Elt F)),
    unary main_v237 main_v238 (broadcastInDim S100000x128 ![0, 1] bcast_S1x128_S100000x128_0_1 : (⟨S1x128, .f32⟩ : BufTy).Contents (Elt F) → (⟨S100000x128, .f32⟩ : BufTy).Contents (Elt F)),
    binary main_v236 main_v238 main_v239 (addf : (⟨S100000x128, .f32⟩ : BufTy).Contents (Elt F) → (⟨S100000x128, .f32⟩ : BufTy).Contents (Elt F) → (⟨S100000x128, .f32⟩ : BufTy).Contents (Elt F)) ]
/-- The buffers they write. -/
abbrev L2_B2_W : List (Ref sig .tc) := [main_v225, main_v226, main_v227, main_v228, main_v229, main_v230, main_cst_30, main_v231, main_v232, main_v233, main_v234, main_v235, main_v236, main_v237, main_v238, main_v239]
set_option maxRecDepth 16384 in
theorem L2_B2_writes : WritesIn (L2_B2 : List (HloOp τ sig (Elt F))) L2_B2_W := by
  simp only [WritesIn, List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

set_option maxRecDepth 16384 in
set_option maxHeartbeats 2000000 in
/-- After these operations, from any contents `W`, `main_v239` holds this stage of the contents before them. -/
theorem L2_B2_bn2 (W : Valuation τ sig (Elt Ideal)) :
    after (L2_B2 (F := Ideal)) W (Proc.devRef .tc main_v239) = bnOf (W (Proc.devRef .tc main_v216)) (W (Proc.devRef .tc main_v223)) (W (Proc.devRef .tc main_v224)) (W (Proc.devRef .tc main_v218)) (W (Proc.devRef .tc main_v220)) := by
  simp only [L2_B2]
  after_results_simp <;> rfl

/-- @main's operations 412 … 414 of 562. -/
abbrev L2_R2 : List (HloOp τ sig (Elt F)) :=
  [ TRef.nullary (TRef.of (T := ⟨S_, .f32⟩) main_call12_cst) (constant S_ .f32 0x00000000#32),
    TRef.unary (TRef.of (T := ⟨S_, .f32⟩) main_call12_cst) (TRef.of (T := ⟨S100000x128, .f32⟩) main_call12_v0) (broadcastInDim S100000x128 ![] bcast_S_S100000x128),
    TRef.binary (TRef.of (T := ⟨S100000x128, .f32⟩) main_v239) (TRef.of (T := ⟨S100000x128, .f32⟩) main_call12_v0) (TRef.of (T := ⟨S100000x128, .f32⟩) main_v240) maximumf ]
/-- The buffers they write. -/
abbrev L2_R2_W : List (Ref sig .tc) := [main_call12_cst, main_call12_v0, main_v240]
set_option maxRecDepth 16384 in
theorem L2_R2_writes : WritesIn (L2_R2 : List (HloOp τ sig (Elt F))) L2_R2_W := by
  simp only [WritesIn, List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

set_option maxRecDepth 16384 in
set_option maxHeartbeats 2000000 in
/-- After these operations, from any contents `W`, `main_v240` holds this stage of the contents before them. -/
theorem L2_R2_out (W : Valuation τ sig (Elt Ideal)) :
    after (L2_R2 (F := Ideal)) W (Proc.devRef .tc main_v240) = reluStage (W (Proc.devRef .tc main_v239)) := by
  simp only [L2_R2]
  after_results_simp <;> rfl

end Cert.ReferenceIdeal.HandRun

end
-- ==== Proof.RefSegL3.lean ====
/- Layer 3 of the reference program, stage by stage: the operations of each stage as a list (a stage that @main's
   printed windows cut in two is two lists in a row), the buffers the list writes, and what the stage's result buffer
   holds after the list, from any contents before it, as the stage's pure function of the buffers it reads: the
   aggregation, the node's own row added, then twice the linear map, the column sums and means, the column variances,
   the normalisation and the rectifier. -/
import proofs.«119304_j10247791968545_2_alg».proof.Proof.RefStages
import proofs.«119304_j10247791968545_2_alg».proof.Proof.LibAfterSplit
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo
open Cert.Lib.AfterSplit

variable {F : FTy → Type} [FloatOps F]

/-- @main's operations 415 … 427 of 562. -/
abbrev L3_A : List (HloOp τ sig (Elt F)) :=
  [ nullary main_c_31 (constantI S_ 32 0#32),
    unary main_c_31 main_v241 (broadcastInDim S625000 ![] bcast_S_S625000 : (⟨S_, .i32⟩ : BufTy).Contents (Elt F) → (⟨S625000, .i32⟩ : BufTy).Contents (Elt F)),
    binary main_v1 main_v241 main_v242 (cmpi .slt : (⟨S625000, .i32⟩ : BufTy).Contents (Elt F) → (⟨S625000, .i32⟩ : BufTy).Contents (Elt F) → (⟨S625000, .i1⟩ : BufTy).Contents (Elt F)),
    nullary main_c_32 (constantI S_ 32 100000#32),
    unary main_c_32 main_v243 (broadcastInDim S625000 ![] bcast_S_S625000 : (⟨S_, .i32⟩ : BufTy).Contents (Elt F) → (⟨S625000, .i32⟩ : BufTy).Contents (Elt F)),
    binary main_v1 main_v243 main_v244 (addi : (⟨S625000, .i32⟩ : BufTy).Contents (Elt F) → (⟨S625000, .i32⟩ : BufTy).Contents (Elt F) → (⟨S625000, .i32⟩ : BufTy).Contents (Elt F)),
    ternary main_v242 main_v244 main_v1 main_v245 (select : (⟨S625000, .i1⟩ : BufTy).Contents (Elt F) → (⟨S625000, .i32⟩ : BufTy).Contents (Elt F) → (⟨S625000, .i32⟩ : BufTy).Contents (Elt F) → (⟨S625000, .i32⟩ : BufTy).Contents (Elt F)),
    unary main_v245 main_v246 (broadcastInDim S625000x1 ![0] bcast_S625000_S625000x1_0 : (⟨S625000, .i32⟩ : BufTy).Contents (Elt F) → (⟨S625000x1, .i32⟩ : BufTy).Contents (Elt F)),
    binary main_v240 main_v246 main_v247 ((fun x i => Host.gather gather_S100000x128_S625000x1_S625000x128_1_0_n_n_0_1_1128 x i) : (⟨S100000x128, .f32⟩ : BufTy).Contents (Elt F) → (⟨S625000x1, .i32⟩ : BufTy).Contents (Elt F) → (⟨S625000x128, .f32⟩ : BufTy).Contents (Elt F)),
    nullary main_cst_33 (constant S_ .f32 0x00000000#32),
    unary main_cst_33 main_v248 (broadcastInDim S100000x128 ![] bcast_S_S100000x128 : (⟨S_, .f32⟩ : BufTy).Contents (Elt F) → (⟨S100000x128, .f32⟩ : BufTy).Contents (Elt F)),
    unary main_v3 main_v249 (broadcastInDim S625000x1 ![0] bcast_S625000_S625000x1_0 : (⟨S625000, .i32⟩ : BufTy).Contents (Elt F) → (⟨S625000x1, .i32⟩ : BufTy).Contents (Elt F)),
    ternary main_v248 main_v249 main_v247 main_v250 ((fun x i u => Host.scatterAdd scatter_S100000x128_S625000x1_S625000x128_1_0_0_1 x i u) : (⟨S100000x128, .f32⟩ : BufTy).Contents (Elt F) → (⟨S625000x1, .i32⟩ : BufTy).Contents (Elt F) → (⟨S625000x128, .f32⟩ : BufTy).Contents (Elt F) → (⟨S100000x128, .f32⟩ : BufTy).Contents (Elt F)) ]
/-- The buffers they write. -/
abbrev L3_A_W : List (Ref sig .tc) := [main_c_31, main_v241, main_v242, main_c_32, main_v243, main_v244, main_v245, main_v246, main_v247, main_cst_33, main_v248, main_v249, main_v250]
set_option maxRecDepth 16384 in
theorem L3_A_writes : WritesIn (L3_A : List (HloOp τ sig (Elt F))) L3_A_W := by
  simp only [WritesIn, List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

set_option maxRecDepth 16384 in
set_option maxHeartbeats 2000000 in
/-- After these operations, from any contents `W`, `main_v250` holds this stage of the contents before them. -/
theorem L3_A_agg (W : Valuation τ sig (Elt Ideal)) :
    after (L3_A (F := Ideal)) W (Proc.devRef .tc main_v250) = aggOf (W (Proc.devRef .tc main_v240)) (W (Proc.devRef .tc main_v1)) (W (Proc.devRef .tc main_v3)) := by
  simp only [L3_A]
  after_results_simp <;> rfl

/-- @main's operations 428 … 428 of 562. -/
abbrev L3_H : List (HloOp τ sig (Elt F)) :=
  [ binary main_v240 main_v250 main_v251 (addf : (⟨S100000x128, .f32⟩ : BufTy).Contents (Elt F) → (⟨S100000x128, .f32⟩ : BufTy).Contents (Elt F) → (⟨S100000x128, .f32⟩ : BufTy).Contents (Elt F)) ]
/-- The buffers they write. -/
abbrev L3_H_W : List (Ref sig .tc) := [main_v251]
set_option maxRecDepth 16384 in
theorem L3_H_writes : WritesIn (L3_H : List (HloOp τ sig (Elt F))) L3_H_W := by
  simp only [WritesIn, List.Forall]
  exact (by simp only [nullary_writes, unary_writes, binary_writes, ternary_writes, quaternary_writes, reshape_writes, Finset.singleton_subset_iff, List.mem_toFinset]; exact List.mem_map_of_mem (by decide))

set_option maxRecDepth 16384 in
set_option maxHeartbeats 2000000 in
/-- After these operations, from any contents `W`, `main_v251` holds this stage of the contents before them. -/
theorem L3_H_h (W : Valuation τ sig (Elt Ideal)) :
    after (L3_H (F := Ideal)) W (Proc.devRef .tc main_v251) = (addf ((W (Proc.devRef .tc main_v240)) : TNode) (W (Proc.devRef .tc main_v250)) : TNode) := by
  simp only [L3_H]
  after_results_simp <;> rfl

/-- @main's operations 429 … 437 of 562. -/
abbrev L3_L1 : List (HloOp τ sig (Elt F)) :=
  [ unary main_arg5 main_v252 ((extractStridedSlice S1x128x128 ![3, 0, 0] · slices_S4x128x128_S1x128x128_3_0_0) : (⟨S4x128x128, .f32⟩ : BufTy).Contents (Elt F) → (⟨S1x128x128, .f32⟩ : BufTy).Contents (Elt F)),
    reshape main_v252 main_v253 rfl shapeCasts_S1x128x128_S128x128,
    unary main_v253 main_v254 ((transpose S128x128 [1, 0] · transposes_S128x128_S128x128_1_0) : (⟨S128x128, .f32⟩ : BufTy).Contents (Elt F) → (⟨S128x128, .f32⟩ : BufTy).Contents (Elt F)),
    binary main_v251 main_v254 main_v255 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg6 main_v256 ((extractStridedSlice S1x128 ![3, 0] · slices_S4x128_S1x128_3_0) : (⟨S4x128, .f32⟩ : BufTy).Contents (Elt F) → (⟨S1x128, .f32⟩ : BufTy).Contents (Elt F)),
    reshape main_v256 main_v257 rfl shapeCasts_S1x128_S128,
    unary main_v257 main_v258 (broadcastInDim S1x128 ![1] bcast_S128_S1x128_1 : (⟨S128, .f32⟩ : BufTy).Contents (Elt F) → (⟨S1x128, .f32⟩ : BufTy).Contents (Elt F)),
    unary main_v258 main_v259 (broadcastInDim S100000x128 ![0, 1] bcast_S1x128_S100000x128_0_1 : (⟨S1x128, .f32⟩ : BufTy).Contents (Elt F) → (⟨S100000x128, .f32⟩ : BufTy).Contents (Elt F)),
    binary main_v255 main_v259 main_v260 (addf : (⟨S100000x128, .f32⟩ : BufTy).Contents (Elt F) → (⟨S100000x128, .f32⟩ : BufTy).Contents (Elt F) → (⟨S100000x128, .f32⟩ : BufTy).Contents (Elt F)) ]
/-- The buffers they write. -/
abbrev L3_L1_W : List (Ref sig .tc) := [main_v252, main_v253, main_v254, main_v255, main_v256, main_v257, main_v258, main_v259, main_v260]
set_option maxRecDepth 16384 in
theorem L3_L1_writes : WritesIn (L3_L1 : List (HloOp τ sig (Elt F))) L3_L1_W := by
  simp only [WritesIn, List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

set_option maxRecDepth 16384 in
set_option maxHeartbeats 2000000 in
/-- After these operations, from any contents `W`, `main_v260` holds this stage of the contents before them. -/
theorem L3_L1_y1 (W : Valuation τ sig (Elt Ideal)) :
    after (L3_L1 (F := Ideal)) W (Proc.devRef .tc main_v260) = linStage (W (Proc.devRef .tc main_v251)) (matAt3 (W (Proc.devRef .tc main_arg5))) (rowAt3 (W (Proc.devRef .tc main_arg6))) := by
  simp only [L3_L1]
  after_results_simp <;> rfl

/-- @main's operations 438 … 440 of 562. -/
abbrev L3_P1_a : List (HloOp τ sig (Elt F)) :=
  [ unary main_arg7 main_v261 ((extractStridedSlice S1x128 ![3, 0] · slices_S4x128_S1x128_3_0) : (⟨S4x128, .f32⟩ : BufTy).Contents (Elt F) → (⟨S1x128, .f32⟩ : BufTy).Contents (Elt F)),
    reshape main_v261 main_v262 rfl shapeCasts_S1x128_S128,
    unary main_arg8 main_v263 ((extractStridedSlice S1x128 ![3, 0] · slices_S4x128_S1x128_3_0) : (⟨S4x128, .f32⟩ : BufTy).Contents (Elt F) → (⟨S1x128, .f32⟩ : BufTy).Contents (Elt F)) ]
/-- The buffers they write. -/
abbrev L3_P1_a_W : List (Ref sig .tc) := [main_v261, main_v262, main_v263]
set_option maxRecDepth 16384 in
theorem L3_P1_a_writes : WritesIn (L3_P1_a : List (HloOp τ sig (Elt F))) L3_P1_a_W := by
  simp only [WritesIn, List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- @main's operations 441 … 441 of 562. -/
abbrev L3_P1_b : List (HloOp τ sig (Elt F)) :=
  [ reshape main_v263 main_v264 rfl shapeCasts_S1x128_S128 ]
/-- The buffers they write. -/
abbrev L3_P1_b_W : List (Ref sig .tc) := [main_v264]
set_option maxRecDepth 16384 in
theorem L3_P1_b_writes : WritesIn (L3_P1_b : List (HloOp τ sig (Elt F))) L3_P1_b_W := by
  simp only [WritesIn, List.Forall]
  exact (by simp only [nullary_writes, unary_writes, binary_writes, ternary_writes, quaternary_writes, reshape_writes, Finset.singleton_subset_iff, List.mem_toFinset]; exact List.mem_map_of_mem (by decide))

/-- One stage's operations, 438 … 441 of 562: the two runs of them in a row. -/
abbrev L3_P1 : List (HloOp τ sig (Elt F)) := L3_P1_a ++ L3_P1_b
abbrev L3_P1_W : List (Ref sig .tc) := L3_P1_a_W ++ L3_P1_b_W
theorem L3_P1_writes : WritesIn (L3_P1 : List (HloOp τ sig (Elt F))) L3_P1_W :=
  writesIn_append L3_P1_a_writes L3_P1_b_writes

set_option maxRecDepth 16384 in
set_option maxHeartbeats 2000000 in
/-- After these operations, from any contents `W`, `main_v262` holds this stage of the contents before them. -/
theorem L3_P1_g1 (W : Valuation τ sig (Elt Ideal)) :
    after (L3_P1 (F := Ideal)) W (Proc.devRef .tc main_v262) = rowAt3 (W (Proc.devRef .tc main_arg7)) := by
  simp only [L3_P1, L3_P1_a, L3_P1_b, List.cons_append, List.nil_append]
  after_results_simp <;> rfl

set_option maxRecDepth 16384 in
set_option maxHeartbeats 2000000 in
/-- After these operations, from any contents `W`, `main_v264` holds this stage of the contents before them. -/
theorem L3_P1_be1 (W : Valuation τ sig (Elt Ideal)) :
    after (L3_P1 (F := Ideal)) W (Proc.devRef .tc main_v264) = rowAt3 (W (Proc.devRef .tc main_arg8)) := by
  simp only [L3_P1, L3_P1_a, L3_P1_b, List.cons_append, List.nil_append]
  after_results_simp <;> rfl

/-- @main's operations 442 … 446 of 562. -/
abbrev L3_M1 : List (HloOp τ sig (Elt F)) :=
  [ nullary main_cst_34 (constant S_ .f32 0x00000000#32),
    binary main_v260 main_cst_34 main_v265 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_35 (constant S_ .f32 0x47C35000#32),
    unary main_cst_35 main_v266 (broadcastInDim S128 ![] bcast_S_S128 : (⟨S_, .f32⟩ : BufTy).Contents (Elt F) → (⟨S128, .f32⟩ : BufTy).Contents (Elt F)),
    binary main_v265 main_v266 main_v267 (Host.divf : (⟨S128, .f32⟩ : BufTy).Contents (Elt F) → (⟨S128, .f32⟩ : BufTy).Contents (Elt F) → (⟨S128, .f32⟩ : BufTy).Contents (Elt F)) ]
/-- The buffers they write. -/
abbrev L3_M1_W : List (Ref sig .tc) := [main_cst_34, main_v265, main_cst_35, main_v266, main_v267]
set_option maxRecDepth 16384 in
theorem L3_M1_writes : WritesIn (L3_M1 : List (HloOp τ sig (Elt F))) L3_M1_W := by
  simp only [WritesIn, List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

set_option maxRecDepth 16384 in
set_option maxHeartbeats 2000000 in
/-- After these operations, from any contents `W`, `main_v265` holds this stage of the contents before them. -/
theorem L3_M1_sum1 (W : Valuation τ sig (Elt Ideal)) :
    after (L3_M1 (F := Ideal)) W (Proc.devRef .tc main_v265) = colSum (W (Proc.devRef .tc main_v260)) := by
  simp only [L3_M1]
  after_results_simp <;> rfl

set_option maxRecDepth 16384 in
set_option maxHeartbeats 2000000 in
/-- After these operations, from any contents `W`, `main_v267` holds this stage of the contents before them. -/
theorem L3_M1_mean1 (W : Valuation τ sig (Elt Ideal)) :
    after (L3_M1 (F := Ideal)) W (Proc.devRef .tc main_v267) = meanStage (W (Proc.devRef .tc main_v260)) := by
  simp only [L3_M1]
  after_results_simp <;> rfl

/-- @main's operations 447 … 469 of 562. -/
abbrev L3_V1 : List (HloOp τ sig (Elt F)) :=
  [ nullary main_c_36 (constantI S_ 32 0#32),
    TRef.nullary (TRef.of (T := ⟨S_, .f32⟩) main_call13_cst) (constant S_ .f32 0x00000000#32),
    TRef.binary (TRef.of (T := ⟨S100000x128, .f32⟩) main_v260) (TRef.of (T := ⟨S_, .f32⟩) main_call13_cst) (TRef.of (T := ⟨S128, .f32⟩) main_call13_v0) (fun x v => Host.reduceAdd x v reducesTo_S100000x128_S128_d0 h_S_),
    TRef.unary (TRef.of (T := ⟨S128, .f32⟩) main_call13_v0) (TRef.of (T := ⟨S1x128, .f32⟩) main_call13_v1) (broadcastInDim S1x128 ![1] bcast_S128_S1x128_1),
    TRef.nullary (TRef.of (T := ⟨S_, .f32⟩) main_call13_cst_0) (constant S_ .f32 0x47C35000#32),
    TRef.unary (TRef.of (T := ⟨S_, .f32⟩) main_call13_cst_0) (TRef.of (T := ⟨S1x128, .f32⟩) main_call13_v2) (broadcastInDim S1x128 ![] bcast_S_S1x128),
    TRef.binary (TRef.of (T := ⟨S1x128, .f32⟩) main_call13_v1) (TRef.of (T := ⟨S1x128, .f32⟩) main_call13_v2) (TRef.of (T := ⟨S1x128, .f32⟩) main_call13_v3) Host.divf,
    TRef.unary (TRef.of (T := ⟨S1x128, .f32⟩) main_call13_v3) (TRef.of (T := ⟨S100000x128, .f32⟩) main_call13_v4) (broadcastInDim S100000x128 ![0, 1] bcast_S1x128_S100000x128_0_1),
    TRef.binary (TRef.of (T := ⟨S100000x128, .f32⟩) main_v260) (TRef.of (T := ⟨S100000x128, .f32⟩) main_call13_v4) (TRef.of (T := ⟨S100000x128, .f32⟩) main_call13_v5) subf,
    TRef.binary (TRef.of (T := ⟨S100000x128, .f32⟩) main_call13_v5) (TRef.of (T := ⟨S100000x128, .f32⟩) main_call13_v5) (TRef.of (T := ⟨S100000x128, .f32⟩) main_call13_v6) mulf,
    TRef.unary (TRef.of (T := ⟨S_, .i32⟩) main_c_36) (TRef.of (T := ⟨S_, .f32⟩) main_call13_v7) (sitofp .f32),
    TRef.nullary (TRef.of (T := ⟨S_, .f32⟩) main_call13_cst_1) (constant S_ .f32 0x47C35000#32),
    TRef.binary (TRef.of (T := ⟨S_, .f32⟩) main_call13_cst_1) (TRef.of (T := ⟨S_, .f32⟩) main_call13_v7) (TRef.of (T := ⟨S_, .f32⟩) main_call13_v8) subf,
    TRef.nullary (TRef.of (T := ⟨S_, .f32⟩) main_call13_cst_2) (constant S_ .f32 0x00000000#32),
    TRef.binary (TRef.of (T := ⟨S100000x128, .f32⟩) main_call13_v6) (TRef.of (T := ⟨S_, .f32⟩) main_call13_cst_2) (TRef.of (T := ⟨S128, .f32⟩) main_call13_v9) (fun x v => Host.reduceAdd x v reducesTo_S100000x128_S128_d0 h_S_),
    TRef.unary (TRef.of (T := ⟨S_, .f32⟩) main_call13_v8) (TRef.of (T := ⟨S128, .f32⟩) main_call13_v10) (broadcastInDim S128 ![] bcast_S_S128),
    TRef.binary (TRef.of (T := ⟨S128, .f32⟩) main_call13_v9) (TRef.of (T := ⟨S128, .f32⟩) main_call13_v10) (TRef.of (T := ⟨S128, .f32⟩) main_call13_v11) Host.divf,
    TRef.nullary (TRef.of (T := ⟨S_, .f32⟩) main_call13_cst_3) (constant S_ .f32 0x00000000#32),
    TRef.binary (TRef.of (T := ⟨S_, .f32⟩) main_call13_v8) (TRef.of (T := ⟨S_, .f32⟩) main_call13_cst_3) (TRef.of (T := ⟨S_, .i1⟩) main_call13_v12) (cmpf .ogt),
    TRef.nullary (TRef.of (T := ⟨S_, .f32⟩) main_call13_cst_4) (constant S_ .f32 0x7FC00000#32),
    TRef.unary (TRef.of (T := ⟨S_, .f32⟩) main_call13_cst_4) (TRef.of (T := ⟨S_, .f32⟩) main_call13_call0_v0) id,
    TRef.unary (TRef.of (T := ⟨S_, .f32⟩) main_call13_call0_v0) (TRef.of (T := ⟨S128, .f32⟩) main_call13_call0_v1) (broadcastInDim S128 ![] bcast_S_S128),
    TRef.ternary (TRef.of (T := ⟨S_, .i1⟩) main_call13_v12) (TRef.of (T := ⟨S128, .f32⟩) main_call13_v11) (TRef.of (T := ⟨S128, .f32⟩) main_call13_call0_v1) (TRef.of (T := ⟨S128, .f32⟩) main_v268) (fun p a b => select (broadcastInDim S128 ![] bcast_S_S128 p) a b) ]
/-- The buffers they write. -/
abbrev L3_V1_W : List (Ref sig .tc) := [main_c_36, main_call13_cst, main_call13_v0, main_call13_v1, main_call13_cst_0, main_call13_v2, main_call13_v3, main_call13_v4, main_call13_v5, main_call13_v6, main_call13_v7, main_call13_cst_1, main_call13_v8, main_call13_cst_2, main_call13_v9, main_call13_v10, main_call13_v11, main_call13_cst_3, main_call13_v12, main_call13_cst_4, main_call13_call0_v0, main_call13_call0_v1, main_v268]
set_option maxRecDepth 16384 in
theorem L3_V1_writes : WritesIn (L3_V1 : List (HloOp τ sig (Elt F))) L3_V1_W := by
  simp only [WritesIn, List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

set_option maxRecDepth 16384 in
set_option maxHeartbeats 2000000 in
/-- After these operations, from any contents `W`, `main_v268` holds this stage of the contents before them. -/
theorem L3_V1_var1 (W : Valuation τ sig (Elt Ideal)) :
    after (L3_V1 (F := Ideal)) W (Proc.devRef .tc main_v268) = varStage (W (Proc.devRef .tc main_v260)) := by
  simp only [L3_V1]
  after_results_simp <;> rfl

/-- @main's operations 470 … 485 of 562. -/
abbrev L3_B1 : List (HloOp τ sig (Elt F)) :=
  [ unary main_v267 main_v269 (broadcastInDim S1x128 ![1] bcast_S128_S1x128_1 : (⟨S128, .f32⟩ : BufTy).Contents (Elt F) → (⟨S1x128, .f32⟩ : BufTy).Contents (Elt F)),
    unary main_v269 main_v270 (broadcastInDim S100000x128 ![0, 1] bcast_S1x128_S100000x128_0_1 : (⟨S1x128, .f32⟩ : BufTy).Contents (Elt F) → (⟨S100000x128, .f32⟩ : BufTy).Contents (Elt F)),
    binary main_v260 main_v270 main_v271 (subf : (⟨S100000x128, .f32⟩ : BufTy).Contents (Elt F) → (⟨S100000x128, .f32⟩ : BufTy).Contents (Elt F) → (⟨S100000x128, .f32⟩ : BufTy).Contents (Elt F)),
    unary main_v262 main_v272 (broadcastInDim S1x128 ![1] bcast_S128_S1x128_1 : (⟨S128, .f32⟩ : BufTy).Contents (Elt F) → (⟨S1x128, .f32⟩ : BufTy).Contents (Elt F)),
    unary main_v272 main_v273 (broadcastInDim S100000x128 ![0, 1] bcast_S1x128_S100000x128_0_1 : (⟨S1x128, .f32⟩ : BufTy).Contents (Elt F) → (⟨S100000x128, .f32⟩ : BufTy).Contents (Elt F)),
    binary main_v273 main_v271 main_v274 (mulf : (⟨S100000x128, .f32⟩ : BufTy).Contents (Elt F) → (⟨S100000x128, .f32⟩ : BufTy).Contents (Elt F) → (⟨S100000x128, .f32⟩ : BufTy).Contents (Elt F)),
    nullary main_cst_37 (constant S_ .f32 0x3727C5AC#32),
    unary main_cst_37 main_v275 (broadcastInDim S128 ![] bcast_S_S128 : (⟨S_, .f32⟩ : BufTy).Contents (Elt F) → (⟨S128, .f32⟩ : BufTy).Contents (Elt F)),
    binary main_v268 main_v275 main_v276 (addf : (⟨S128, .f32⟩ : BufTy).Contents (Elt F) → (⟨S128, .f32⟩ : BufTy).Contents (Elt F) → (⟨S128, .f32⟩ : BufTy).Contents (Elt F)),
    unary main_v276 main_v277 (Host.rsqrt : (⟨S128, .f32⟩ : BufTy).Contents (Elt F) → (⟨S128, .f32⟩ : BufTy).Contents (Elt F)),
    unary main_v277 main_v278 (broadcastInDim S1x128 ![1] bcast_S128_S1x128_1 : (⟨S128, .f32⟩ : BufTy).Contents (Elt F) → (⟨S1x128, .f32⟩ : BufTy).Contents (Elt F)),
    unary main_v278 main_v279 (broadcastInDim S100000x128 ![0, 1] bcast_S1x128_S100000x128_0_1 : (⟨S1x128, .f32⟩ : BufTy).Contents (Elt F) → (⟨S100000x128, .f32⟩ : BufTy).Contents (Elt F)),
    binary main_v274 main_v279 main_v280 (mulf : (⟨S100000x128, .f32⟩ : BufTy).Contents (Elt F) → (⟨S100000x128, .f32⟩ : BufTy).Contents (Elt F) → (⟨S100000x128, .f32⟩ : BufTy).Contents (Elt F)),
    unary main_v264 main_v281 (broadcastInDim S1x128 ![1] bcast_S128_S1x128_1 : (⟨S128, .f32⟩ : BufTy).Contents (Elt F) → (⟨S1x128, .f32⟩ : BufTy).Contents (Elt F)),
    unary main_v281 main_v282 (broadcastInDim S100000x128 ![0, 1] bcast_S1x128_S100000x128_0_1 : (⟨S1x128, .f32⟩ : BufTy).Contents (Elt F) → (⟨S100000x128, .f32⟩ : BufTy).Contents (Elt F)),
    binary main_v280 main_v282 main_v283 (addf : (⟨S100000x128, .f32⟩ : BufTy).Contents (Elt F) → (⟨S100000x128, .f32⟩ : BufTy).Contents (Elt F) → (⟨S100000x128, .f32⟩ : BufTy).Contents (Elt F)) ]
/-- The buffers they write. -/
abbrev L3_B1_W : List (Ref sig .tc) := [main_v269, main_v270, main_v271, main_v272, main_v273, main_v274, main_cst_37, main_v275, main_v276, main_v277, main_v278, main_v279, main_v280, main_v281, main_v282, main_v283]
set_option maxRecDepth 16384 in
theorem L3_B1_writes : WritesIn (L3_B1 : List (HloOp τ sig (Elt F))) L3_B1_W := by
  simp only [WritesIn, List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

set_option maxRecDepth 16384 in
set_option maxHeartbeats 2000000 in
/-- After these operations, from any contents `W`, `main_v283` holds this stage of the contents before them. -/
theorem L3_B1_bn1 (W : Valuation τ sig (Elt Ideal)) :
    after (L3_B1 (F := Ideal)) W (Proc.devRef .tc main_v283) = bnOf (W (Proc.devRef .tc main_v260)) (W (Proc.devRef .tc main_v267)) (W (Proc.devRef .tc main_v268)) (W (Proc.devRef .tc main_v262)) (W (Proc.devRef .tc main_v264)) := by
  simp only [L3_B1]
  after_results_simp <;> rfl

/-- @main's operations 486 … 488 of 562. -/
abbrev L3_R1 : List (HloOp τ sig (Elt F)) :=
  [ TRef.nullary (TRef.of (T := ⟨S_, .f32⟩) main_call14_cst) (constant S_ .f32 0x00000000#32),
    TRef.unary (TRef.of (T := ⟨S_, .f32⟩) main_call14_cst) (TRef.of (T := ⟨S100000x128, .f32⟩) main_call14_v0) (broadcastInDim S100000x128 ![] bcast_S_S100000x128),
    TRef.binary (TRef.of (T := ⟨S100000x128, .f32⟩) main_v283) (TRef.of (T := ⟨S100000x128, .f32⟩) main_call14_v0) (TRef.of (T := ⟨S100000x128, .f32⟩) main_v284) maximumf ]
/-- The buffers they write. -/
abbrev L3_R1_W : List (Ref sig .tc) := [main_call14_cst, main_call14_v0, main_v284]
set_option maxRecDepth 16384 in
theorem L3_R1_writes : WritesIn (L3_R1 : List (HloOp τ sig (Elt F))) L3_R1_W := by
  simp only [WritesIn, List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

set_option maxRecDepth 16384 in
set_option maxHeartbeats 2000000 in
/-- After these operations, from any contents `W`, `main_v284` holds this stage of the contents before them. -/
theorem L3_R1_z (W : Valuation τ sig (Elt Ideal)) :
    after (L3_R1 (F := Ideal)) W (Proc.devRef .tc main_v284) = reluStage (W (Proc.devRef .tc main_v283)) := by
  simp only [L3_R1]
  after_results_simp <;> rfl

/-- @main's operations 489 … 497 of 562. -/
abbrev L3_L2 : List (HloOp τ sig (Elt F)) :=
  [ unary main_arg9 main_v285 ((extractStridedSlice S1x128x128 ![3, 0, 0] · slices_S4x128x128_S1x128x128_3_0_0) : (⟨S4x128x128, .f32⟩ : BufTy).Contents (Elt F) → (⟨S1x128x128, .f32⟩ : BufTy).Contents (Elt F)),
    reshape main_v285 main_v286 rfl shapeCasts_S1x128x128_S128x128,
    unary main_v286 main_v287 ((transpose S128x128 [1, 0] · transposes_S128x128_S128x128_1_0) : (⟨S128x128, .f32⟩ : BufTy).Contents (Elt F) → (⟨S128x128, .f32⟩ : BufTy).Contents (Elt F)),
    binary main_v284 main_v287 main_v288 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg10 main_v289 ((extractStridedSlice S1x128 ![3, 0] · slices_S4x128_S1x128_3_0) : (⟨S4x128, .f32⟩ : BufTy).Contents (Elt F) → (⟨S1x128, .f32⟩ : BufTy).Contents (Elt F)),
    reshape main_v289 main_v290 rfl shapeCasts_S1x128_S128,
    unary main_v290 main_v291 (broadcastInDim S1x128 ![1] bcast_S128_S1x128_1 : (⟨S128, .f32⟩ : BufTy).Contents (Elt F) → (⟨S1x128, .f32⟩ : BufTy).Contents (Elt F)),
    unary main_v291 main_v292 (broadcastInDim S100000x128 ![0, 1] bcast_S1x128_S100000x128_0_1 : (⟨S1x128, .f32⟩ : BufTy).Contents (Elt F) → (⟨S100000x128, .f32⟩ : BufTy).Contents (Elt F)),
    binary main_v288 main_v292 main_v293 (addf : (⟨S100000x128, .f32⟩ : BufTy).Contents (Elt F) → (⟨S100000x128, .f32⟩ : BufTy).Contents (Elt F) → (⟨S100000x128, .f32⟩ : BufTy).Contents (Elt F)) ]
/-- The buffers they write. -/
abbrev L3_L2_W : List (Ref sig .tc) := [main_v285, main_v286, main_v287, main_v288, main_v289, main_v290, main_v291, main_v292, main_v293]
set_option maxRecDepth 16384 in
theorem L3_L2_writes : WritesIn (L3_L2 : List (HloOp τ sig (Elt F))) L3_L2_W := by
  simp only [WritesIn, List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

set_option maxRecDepth 16384 in
set_option maxHeartbeats 2000000 in
/-- After these operations, from any contents `W`, `main_v293` holds this stage of the contents before them. -/
theorem L3_L2_y2 (W : Valuation τ sig (Elt Ideal)) :
    after (L3_L2 (F := Ideal)) W (Proc.devRef .tc main_v293) = linStage (W (Proc.devRef .tc main_v284)) (matAt3 (W (Proc.devRef .tc main_arg9))) (rowAt3 (W (Proc.devRef .tc main_arg10))) := by
  simp only [L3_L2]
  after_results_simp <;> rfl

/-- @main's operations 498 … 501 of 562. -/
abbrev L3_P2 : List (HloOp τ sig (Elt F)) :=
  [ unary main_arg11 main_v294 ((extractStridedSlice S1x128 ![3, 0] · slices_S4x128_S1x128_3_0) : (⟨S4x128, .f32⟩ : BufTy).Contents (Elt F) → (⟨S1x128, .f32⟩ : BufTy).Contents (Elt F)),
    reshape main_v294 main_v295 rfl shapeCasts_S1x128_S128,
    unary main_arg12 main_v296 ((extractStridedSlice S1x128 ![3, 0] · slices_S4x128_S1x128_3_0) : (⟨S4x128, .f32⟩ : BufTy).Contents (Elt F) → (⟨S1x128, .f32⟩ : BufTy).Contents (Elt F)),
    reshape main_v296 main_v297 rfl shapeCasts_S1x128_S128 ]
/-- The buffers they write. -/
abbrev L3_P2_W : List (Ref sig .tc) := [main_v294, main_v295, main_v296, main_v297]
set_option maxRecDepth 16384 in
theorem L3_P2_writes : WritesIn (L3_P2 : List (HloOp τ sig (Elt F))) L3_P2_W := by
  simp only [WritesIn, List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

set_option maxRecDepth 16384 in
set_option maxHeartbeats 2000000 in
/-- After these operations, from any contents `W`, `main_v295` holds this stage of the contents before them. -/
theorem L3_P2_g2 (W : Valuation τ sig (Elt Ideal)) :
    after (L3_P2 (F := Ideal)) W (Proc.devRef .tc main_v295) = rowAt3 (W (Proc.devRef .tc main_arg11)) := by
  simp only [L3_P2]
  after_results_simp <;> rfl

set_option maxRecDepth 16384 in
set_option maxHeartbeats 2000000 in
/-- After these operations, from any contents `W`, `main_v297` holds this stage of the contents before them. -/
theorem L3_P2_be2 (W : Valuation τ sig (Elt Ideal)) :
    after (L3_P2 (F := Ideal)) W (Proc.devRef .tc main_v297) = rowAt3 (W (Proc.devRef .tc main_arg12)) := by
  simp only [L3_P2]
  after_results_simp <;> rfl

/-- @main's operations 502 … 506 of 562. -/
abbrev L3_M2 : List (HloOp τ sig (Elt F)) :=
  [ nullary main_cst_38 (constant S_ .f32 0x00000000#32),
    binary main_v293 main_cst_38 main_v298 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_39 (constant S_ .f32 0x47C35000#32),
    unary main_cst_39 main_v299 (broadcastInDim S128 ![] bcast_S_S128 : (⟨S_, .f32⟩ : BufTy).Contents (Elt F) → (⟨S128, .f32⟩ : BufTy).Contents (Elt F)),
    binary main_v298 main_v299 main_v300 (Host.divf : (⟨S128, .f32⟩ : BufTy).Contents (Elt F) → (⟨S128, .f32⟩ : BufTy).Contents (Elt F) → (⟨S128, .f32⟩ : BufTy).Contents (Elt F)) ]
/-- The buffers they write. -/
abbrev L3_M2_W : List (Ref sig .tc) := [main_cst_38, main_v298, main_cst_39, main_v299, main_v300]
set_option maxRecDepth 16384 in
theorem L3_M2_writes : WritesIn (L3_M2 : List (HloOp τ sig (Elt F))) L3_M2_W := by
  simp only [WritesIn, List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

set_option maxRecDepth 16384 in
set_option maxHeartbeats 2000000 in
/-- After these operations, from any contents `W`, `main_v298` holds this stage of the contents before them. -/
theorem L3_M2_sum2 (W : Valuation τ sig (Elt Ideal)) :
    after (L3_M2 (F := Ideal)) W (Proc.devRef .tc main_v298) = colSum (W (Proc.devRef .tc main_v293)) := by
  simp only [L3_M2]
  after_results_simp <;> rfl

set_option maxRecDepth 16384 in
set_option maxHeartbeats 2000000 in
/-- After these operations, from any contents `W`, `main_v300` holds this stage of the contents before them. -/
theorem L3_M2_mean2 (W : Valuation τ sig (Elt Ideal)) :
    after (L3_M2 (F := Ideal)) W (Proc.devRef .tc main_v300) = meanStage (W (Proc.devRef .tc main_v293)) := by
  simp only [L3_M2]
  after_results_simp <;> rfl

/-- @main's operations 507 … 529 of 562. -/
abbrev L3_V2 : List (HloOp τ sig (Elt F)) :=
  [ nullary main_c_40 (constantI S_ 32 0#32),
    TRef.nullary (TRef.of (T := ⟨S_, .f32⟩) main_call15_cst) (constant S_ .f32 0x00000000#32),
    TRef.binary (TRef.of (T := ⟨S100000x128, .f32⟩) main_v293) (TRef.of (T := ⟨S_, .f32⟩) main_call15_cst) (TRef.of (T := ⟨S128, .f32⟩) main_call15_v0) (fun x v => Host.reduceAdd x v reducesTo_S100000x128_S128_d0 h_S_),
    TRef.unary (TRef.of (T := ⟨S128, .f32⟩) main_call15_v0) (TRef.of (T := ⟨S1x128, .f32⟩) main_call15_v1) (broadcastInDim S1x128 ![1] bcast_S128_S1x128_1),
    TRef.nullary (TRef.of (T := ⟨S_, .f32⟩) main_call15_cst_0) (constant S_ .f32 0x47C35000#32),
    TRef.unary (TRef.of (T := ⟨S_, .f32⟩) main_call15_cst_0) (TRef.of (T := ⟨S1x128, .f32⟩) main_call15_v2) (broadcastInDim S1x128 ![] bcast_S_S1x128),
    TRef.binary (TRef.of (T := ⟨S1x128, .f32⟩) main_call15_v1) (TRef.of (T := ⟨S1x128, .f32⟩) main_call15_v2) (TRef.of (T := ⟨S1x128, .f32⟩) main_call15_v3) Host.divf,
    TRef.unary (TRef.of (T := ⟨S1x128, .f32⟩) main_call15_v3) (TRef.of (T := ⟨S100000x128, .f32⟩) main_call15_v4) (broadcastInDim S100000x128 ![0, 1] bcast_S1x128_S100000x128_0_1),
    TRef.binary (TRef.of (T := ⟨S100000x128, .f32⟩) main_v293) (TRef.of (T := ⟨S100000x128, .f32⟩) main_call15_v4) (TRef.of (T := ⟨S100000x128, .f32⟩) main_call15_v5) subf,
    TRef.binary (TRef.of (T := ⟨S100000x128, .f32⟩) main_call15_v5) (TRef.of (T := ⟨S100000x128, .f32⟩) main_call15_v5) (TRef.of (T := ⟨S100000x128, .f32⟩) main_call15_v6) mulf,
    TRef.unary (TRef.of (T := ⟨S_, .i32⟩) main_c_40) (TRef.of (T := ⟨S_, .f32⟩) main_call15_v7) (sitofp .f32),
    TRef.nullary (TRef.of (T := ⟨S_, .f32⟩) main_call15_cst_1) (constant S_ .f32 0x47C35000#32),
    TRef.binary (TRef.of (T := ⟨S_, .f32⟩) main_call15_cst_1) (TRef.of (T := ⟨S_, .f32⟩) main_call15_v7) (TRef.of (T := ⟨S_, .f32⟩) main_call15_v8) subf,
    TRef.nullary (TRef.of (T := ⟨S_, .f32⟩) main_call15_cst_2) (constant S_ .f32 0x00000000#32),
    TRef.binary (TRef.of (T := ⟨S100000x128, .f32⟩) main_call15_v6) (TRef.of (T := ⟨S_, .f32⟩) main_call15_cst_2) (TRef.of (T := ⟨S128, .f32⟩) main_call15_v9) (fun x v => Host.reduceAdd x v reducesTo_S100000x128_S128_d0 h_S_),
    TRef.unary (TRef.of (T := ⟨S_, .f32⟩) main_call15_v8) (TRef.of (T := ⟨S128, .f32⟩) main_call15_v10) (broadcastInDim S128 ![] bcast_S_S128),
    TRef.binary (TRef.of (T := ⟨S128, .f32⟩) main_call15_v9) (TRef.of (T := ⟨S128, .f32⟩) main_call15_v10) (TRef.of (T := ⟨S128, .f32⟩) main_call15_v11) Host.divf,
    TRef.nullary (TRef.of (T := ⟨S_, .f32⟩) main_call15_cst_3) (constant S_ .f32 0x00000000#32),
    TRef.binary (TRef.of (T := ⟨S_, .f32⟩) main_call15_v8) (TRef.of (T := ⟨S_, .f32⟩) main_call15_cst_3) (TRef.of (T := ⟨S_, .i1⟩) main_call15_v12) (cmpf .ogt),
    TRef.nullary (TRef.of (T := ⟨S_, .f32⟩) main_call15_cst_4) (constant S_ .f32 0x7FC00000#32),
    TRef.unary (TRef.of (T := ⟨S_, .f32⟩) main_call15_cst_4) (TRef.of (T := ⟨S_, .f32⟩) main_call15_call0_v0) id,
    TRef.unary (TRef.of (T := ⟨S_, .f32⟩) main_call15_call0_v0) (TRef.of (T := ⟨S128, .f32⟩) main_call15_call0_v1) (broadcastInDim S128 ![] bcast_S_S128),
    TRef.ternary (TRef.of (T := ⟨S_, .i1⟩) main_call15_v12) (TRef.of (T := ⟨S128, .f32⟩) main_call15_v11) (TRef.of (T := ⟨S128, .f32⟩) main_call15_call0_v1) (TRef.of (T := ⟨S128, .f32⟩) main_v301) (fun p a b => select (broadcastInDim S128 ![] bcast_S_S128 p) a b) ]
/-- The buffers they write. -/
abbrev L3_V2_W : List (Ref sig .tc) := [main_c_40, main_call15_cst, main_call15_v0, main_call15_v1, main_call15_cst_0, main_call15_v2, main_call15_v3, main_call15_v4, main_call15_v5, main_call15_v6, main_call15_v7, main_call15_cst_1, main_call15_v8, main_call15_cst_2, main_call15_v9, main_call15_v10, main_call15_v11, main_call15_cst_3, main_call15_v12, main_call15_cst_4, main_call15_call0_v0, main_call15_call0_v1, main_v301]
set_option maxRecDepth 16384 in
theorem L3_V2_writes : WritesIn (L3_V2 : List (HloOp τ sig (Elt F))) L3_V2_W := by
  simp only [WritesIn, List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

set_option maxRecDepth 16384 in
set_option maxHeartbeats 2000000 in
/-- After these operations, from any contents `W`, `main_v301` holds this stage of the contents before them. -/
theorem L3_V2_var2 (W : Valuation τ sig (Elt Ideal)) :
    after (L3_V2 (F := Ideal)) W (Proc.devRef .tc main_v301) = varStage (W (Proc.devRef .tc main_v293)) := by
  simp only [L3_V2]
  after_results_simp <;> rfl

/-- @main's operations 530 … 544 of 562. -/
abbrev L3_B2_a : List (HloOp τ sig (Elt F)) :=
  [ unary main_v300 main_v302 (broadcastInDim S1x128 ![1] bcast_S128_S1x128_1 : (⟨S128, .f32⟩ : BufTy).Contents (Elt F) → (⟨S1x128, .f32⟩ : BufTy).Contents (Elt F)),
    unary main_v302 main_v303 (broadcastInDim S100000x128 ![0, 1] bcast_S1x128_S100000x128_0_1 : (⟨S1x128, .f32⟩ : BufTy).Contents (Elt F) → (⟨S100000x128, .f32⟩ : BufTy).Contents (Elt F)),
    binary main_v293 main_v303 main_v304 (subf : (⟨S100000x128, .f32⟩ : BufTy).Contents (Elt F) → (⟨S100000x128, .f32⟩ : BufTy).Contents (Elt F) → (⟨S100000x128, .f32⟩ : BufTy).Contents (Elt F)),
    unary main_v295 main_v305 (broadcastInDim S1x128 ![1] bcast_S128_S1x128_1 : (⟨S128, .f32⟩ : BufTy).Contents (Elt F) → (⟨S1x128, .f32⟩ : BufTy).Contents (Elt F)),
    unary main_v305 main_v306 (broadcastInDim S100000x128 ![0, 1] bcast_S1x128_S100000x128_0_1 : (⟨S1x128, .f32⟩ : BufTy).Contents (Elt F) → (⟨S100000x128, .f32⟩ : BufTy).Contents (Elt F)),
    binary main_v306 main_v304 main_v307 (mulf : (⟨S100000x128, .f32⟩ : BufTy).Contents (Elt F) → (⟨S100000x128, .f32⟩ : BufTy).Contents (Elt F) → (⟨S100000x128, .f32⟩ : BufTy).Contents (Elt F)),
    nullary main_cst_41 (constant S_ .f32 0x3727C5AC#32),
    unary main_cst_41 main_v308 (broadcastInDim S128 ![] bcast_S_S128 : (⟨S_, .f32⟩ : BufTy).Contents (Elt F) → (⟨S128, .f32⟩ : BufTy).Contents (Elt F)),
    binary main_v301 main_v308 main_v309 (addf : (⟨S128, .f32⟩ : BufTy).Contents (Elt F) → (⟨S128, .f32⟩ : BufTy).Contents (Elt F) → (⟨S128, .f32⟩ : BufTy).Contents (Elt F)),
    unary main_v309 main_v310 (Host.rsqrt : (⟨S128, .f32⟩ : BufTy).Contents (Elt F) → (⟨S128, .f32⟩ : BufTy).Contents (Elt F)),
    unary main_v310 main_v311 (broadcastInDim S1x128 ![1] bcast_S128_S1x128_1 : (⟨S128, .f32⟩ : BufTy).Contents (Elt F) → (⟨S1x128, .f32⟩ : BufTy).Contents (Elt F)),
    unary main_v311 main_v312 (broadcastInDim S100000x128 ![0, 1] bcast_S1x128_S100000x128_0_1 : (⟨S1x128, .f32⟩ : BufTy).Contents (Elt F) → (⟨S100000x128, .f32⟩ : BufTy).Contents (Elt F)),
    binary main_v307 main_v312 main_v313 (mulf : (⟨S100000x128, .f32⟩ : BufTy).Contents (Elt F) → (⟨S100000x128, .f32⟩ : BufTy).Contents (Elt F) → (⟨S100000x128, .f32⟩ : BufTy).Contents (Elt F)),
    unary main_v297 main_v314 (broadcastInDim S1x128 ![1] bcast_S128_S1x128_1 : (⟨S128, .f32⟩ : BufTy).Contents (Elt F) → (⟨S1x128, .f32⟩ : BufTy).Contents (Elt F)),
    unary main_v314 main_v315 (broadcastInDim S100000x128 ![0, 1] bcast_S1x128_S100000x128_0_1 : (⟨S1x128, .f32⟩ : BufTy).Contents (Elt F) → (⟨S100000x128, .f32⟩ : BufTy).Contents (Elt F)) ]
/-- The buffers they write. -/
abbrev L3_B2_a_W : List (Ref sig .tc) := [main_v302, main_v303, main_v304, main_v305, main_v306, main_v307, main_cst_41, main_v308, main_v309, main_v310, main_v311, main_v312, main_v313, main_v314, main_v315]
set_option maxRecDepth 16384 in
theorem L3_B2_a_writes : WritesIn (L3_B2_a : List (HloOp τ sig (Elt F))) L3_B2_a_W := by
  simp only [WritesIn, List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- @main's operations 545 … 545 of 562. -/
abbrev L3_B2_b : List (HloOp τ sig (Elt F)) :=
  [ binary main_v313 main_v315 main_v316 (addf : (⟨S100000x128, .f32⟩ : BufTy).Contents (Elt F) → (⟨S100000x128, .f32⟩ : BufTy).Contents (Elt F) → (⟨S100000x128, .f32⟩ : BufTy).Contents (Elt F)) ]
/-- The buffers they write. -/
abbrev L3_B2_b_W : List (Ref sig .tc) := [main_v316]
set_option maxRecDepth 16384 in
theorem L3_B2_b_writes : WritesIn (L3_B2_b : List (HloOp τ sig (Elt F))) L3_B2_b_W := by
  simp only [WritesIn, List.Forall]
  exact (by simp only [nullary_writes, unary_writes, binary_writes, ternary_writes, quaternary_writes, reshape_writes, Finset.singleton_subset_iff, List.mem_toFinset]; exact List.mem_map_of_mem (by decide))

/-- One stage's operations, 530 … 545 of 562: the two runs of them in a row. -/
abbrev L3_B2 : List (HloOp τ sig (Elt F)) := L3_B2_a ++ L3_B2_b
abbrev L3_B2_W : List (Ref sig .tc) := L3_B2_a_W ++ L3_B2_b_W
theorem L3_B2_writes : WritesIn (L3_B2 : List (HloOp τ sig (Elt F))) L3_B2_W :=
  writesIn_append L3_B2_a_writes L3_B2_b_writes

set_option maxRecDepth 16384 in
set_option maxHeartbeats 2000000 in
/-- After these operations, from any contents `W`, `main_v316` holds this stage of the contents before them. -/
theorem L3_B2_bn2 (W : Valuation τ sig (Elt Ideal)) :
    after (L3_B2 (F := Ideal)) W (Proc.devRef .tc main_v316) = bnOf (W (Proc.devRef .tc main_v293)) (W (Proc.devRef .tc main_v300)) (W (Proc.devRef .tc main_v301)) (W (Proc.devRef .tc main_v295)) (W (Proc.devRef .tc main_v297)) := by
  simp only [L3_B2, L3_B2_a, L3_B2_b, List.cons_append, List.nil_append]
  after_results_simp <;> rfl

/-- @main's operations 546 … 548 of 562. -/
abbrev L3_R2 : List (HloOp τ sig (Elt F)) :=
  [ TRef.nullary (TRef.of (T := ⟨S_, .f32⟩) main_call16_cst) (constant S_ .f32 0x00000000#32),
    TRef.unary (TRef.of (T := ⟨S_, .f32⟩) main_call16_cst) (TRef.of (T := ⟨S100000x128, .f32⟩) main_call16_v0) (broadcastInDim S100000x128 ![] bcast_S_S100000x128),
    TRef.binary (TRef.of (T := ⟨S100000x128, .f32⟩) main_v316) (TRef.of (T := ⟨S100000x128, .f32⟩) main_call16_v0) (TRef.of (T := ⟨S100000x128, .f32⟩) main_v317) maximumf ]
/-- The buffers they write. -/
abbrev L3_R2_W : List (Ref sig .tc) := [main_call16_cst, main_call16_v0, main_v317]
set_option maxRecDepth 16384 in
theorem L3_R2_writes : WritesIn (L3_R2 : List (HloOp τ sig (Elt F))) L3_R2_W := by
  simp only [WritesIn, List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

set_option maxRecDepth 16384 in
set_option maxHeartbeats 2000000 in
/-- After these operations, from any contents `W`, `main_v317` holds this stage of the contents before them. -/
theorem L3_R2_out (W : Valuation τ sig (Elt Ideal)) :
    after (L3_R2 (F := Ideal)) W (Proc.devRef .tc main_v317) = reluStage (W (Proc.devRef .tc main_v316)) := by
  simp only [L3_R2]
  after_results_simp <;> rfl

end Cert.ReferenceIdeal.HandRun

end
-- ==== Proof.RefSegIT.lean ====
/- The reference program outside its four layers, stage by stage: the edge list's two rows and the input's linear
   map before them, the masked rows through the output linear map after them. Per stage: its operations as a list,
   the buffers the list writes, and what the stage's result buffer holds after the list as the stage's pure function
   of the buffers it reads. -/
import proofs.«119304_j10247791968545_2_alg».proof.Proof.RefStages
import proofs.«119304_j10247791968545_2_alg».proof.Proof.LibAfterSplit
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo
open Cert.Lib.AfterSplit

variable {F : FTy → Type} [FloatOps F]

/-- @main's operations 1 … 4 of 562. -/
abbrev I_E : List (HloOp τ sig (Elt F)) :=
  [ unary main_arg1 main_v0 ((extractStridedSlice S1x625000 ![0, 0] · slices_S2x625000_S1x625000_0_0) : (⟨S2x625000, .i32⟩ : BufTy).Contents (Elt F) → (⟨S1x625000, .i32⟩ : BufTy).Contents (Elt F)),
    reshape main_v0 main_v1 rfl shapeCasts_S1x625000_S625000,
    unary main_arg1 main_v2 ((extractStridedSlice S1x625000 ![1, 0] · slices_S2x625000_S1x625000_1_0) : (⟨S2x625000, .i32⟩ : BufTy).Contents (Elt F) → (⟨S1x625000, .i32⟩ : BufTy).Contents (Elt F)),
    reshape main_v2 main_v3 rfl shapeCasts_S1x625000_S625000 ]
/-- The buffers they write. -/
abbrev I_E_W : List (Ref sig .tc) := [main_v0, main_v1, main_v2, main_v3]
set_option maxRecDepth 16384 in
theorem I_E_writes : WritesIn (I_E : List (HloOp τ sig (Elt F))) I_E_W := by
  simp only [WritesIn, List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

set_option maxRecDepth 16384 in
set_option maxHeartbeats 2000000 in
/-- After these operations, from any contents `W`, `main_v1` holds this stage of the contents before them. -/
theorem I_E_src (W : Valuation τ sig (Elt Ideal)) :
    after (I_E (F := Ideal)) W (Proc.devRef .tc main_v1) = srcRow (W (Proc.devRef .tc main_arg1)) := by
  simp only [I_E]
  after_results_simp <;> rfl

set_option maxRecDepth 16384 in
set_option maxHeartbeats 2000000 in
/-- After these operations, from any contents `W`, `main_v3` holds this stage of the contents before them. -/
theorem I_E_dst (W : Valuation τ sig (Elt Ideal)) :
    after (I_E (F := Ideal)) W (Proc.devRef .tc main_v3) = dstRow (W (Proc.devRef .tc main_arg1)) := by
  simp only [I_E]
  after_results_simp <;> rfl

/-- @main's operations 5 … 9 of 562. -/
abbrev I_I : List (HloOp τ sig (Elt F)) :=
  [ unary main_arg3 main_v4 ((transpose S128x128 [1, 0] · transposes_S128x128_S128x128_1_0) : (⟨S128x128, .f32⟩ : BufTy).Contents (Elt F) → (⟨S128x128, .f32⟩ : BufTy).Contents (Elt F)),
    binary main_arg0 main_v4 main_v5 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg4 main_v6 (broadcastInDim S1x128 ![1] bcast_S128_S1x128_1 : (⟨S128, .f32⟩ : BufTy).Contents (Elt F) → (⟨S1x128, .f32⟩ : BufTy).Contents (Elt F)),
    unary main_v6 main_v7 (broadcastInDim S100000x128 ![0, 1] bcast_S1x128_S100000x128_0_1 : (⟨S1x128, .f32⟩ : BufTy).Contents (Elt F) → (⟨S100000x128, .f32⟩ : BufTy).Contents (Elt F)),
    binary main_v5 main_v7 main_v8 (addf : (⟨S100000x128, .f32⟩ : BufTy).Contents (Elt F) → (⟨S100000x128, .f32⟩ : BufTy).Contents (Elt F) → (⟨S100000x128, .f32⟩ : BufTy).Contents (Elt F)) ]
/-- The buffers they write. -/
abbrev I_I_W : List (Ref sig .tc) := [main_v4, main_v5, main_v6, main_v7, main_v8]
set_option maxRecDepth 16384 in
theorem I_I_writes : WritesIn (I_I : List (HloOp τ sig (Elt F))) I_I_W := by
  simp only [WritesIn, List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

set_option maxRecDepth 16384 in
set_option maxHeartbeats 2000000 in
/-- After these operations, from any contents `W`, `main_v8` holds this stage of the contents before them. -/
theorem I_I_x0 (W : Valuation τ sig (Elt Ideal)) :
    after (I_I (F := Ideal)) W (Proc.devRef .tc main_v8) = linStage (W (Proc.devRef .tc main_arg0)) (W (Proc.devRef .tc main_arg3)) (W (Proc.devRef .tc main_arg4)) := by
  simp only [I_I]
  after_results_simp <;> rfl

/-- @main's operations 549 … 562 of 562. -/
abbrev T_T : List (HloOp τ sig (Elt F)) :=
  [ nullary main_c_42 (constantI S_ 32 0#32),
    unary main_c_42 main_v318 (broadcastInDim S10000 ![] bcast_S_S10000 : (⟨S_, .i32⟩ : BufTy).Contents (Elt F) → (⟨S10000, .i32⟩ : BufTy).Contents (Elt F)),
    binary main_arg2 main_v318 main_v319 (cmpi .slt : (⟨S10000, .i32⟩ : BufTy).Contents (Elt F) → (⟨S10000, .i32⟩ : BufTy).Contents (Elt F) → (⟨S10000, .i1⟩ : BufTy).Contents (Elt F)),
    nullary main_c_43 (constantI S_ 32 100000#32),
    unary main_c_43 main_v320 (broadcastInDim S10000 ![] bcast_S_S10000 : (⟨S_, .i32⟩ : BufTy).Contents (Elt F) → (⟨S10000, .i32⟩ : BufTy).Contents (Elt F)),
    binary main_arg2 main_v320 main_v321 (addi : (⟨S10000, .i32⟩ : BufTy).Contents (Elt F) → (⟨S10000, .i32⟩ : BufTy).Contents (Elt F) → (⟨S10000, .i32⟩ : BufTy).Contents (Elt F)),
    ternary main_v319 main_v321 main_arg2 main_v322 (select : (⟨S10000, .i1⟩ : BufTy).Contents (Elt F) → (⟨S10000, .i32⟩ : BufTy).Contents (Elt F) → (⟨S10000, .i32⟩ : BufTy).Contents (Elt F) → (⟨S10000, .i32⟩ : BufTy).Contents (Elt F)),
    unary main_v322 main_v323 (broadcastInDim S10000x1 ![0] bcast_S10000_S10000x1_0 : (⟨S10000, .i32⟩ : BufTy).Contents (Elt F) → (⟨S10000x1, .i32⟩ : BufTy).Contents (Elt F)),
    binary main_v317 main_v323 main_v324 ((fun x i => Host.gather gather_S100000x128_S10000x1_S10000x128_1_0_n_n_0_1_1128 x i) : (⟨S100000x128, .f32⟩ : BufTy).Contents (Elt F) → (⟨S10000x1, .i32⟩ : BufTy).Contents (Elt F) → (⟨S10000x128, .f32⟩ : BufTy).Contents (Elt F)),
    unary main_arg13 main_v325 ((transpose S128x10 [1, 0] · transposes_S10x128_S128x10_1_0) : (⟨S10x128, .f32⟩ : BufTy).Contents (Elt F) → (⟨S128x10, .f32⟩ : BufTy).Contents (Elt F)),
    binary main_v324 main_v325 main_v326 ((fun l r => Host.dotGeneral dot_S10000x128_S128x10_S10000x10_1_0_0_1_n_n none l r) : (⟨S10000x128, .f32⟩ : BufTy).Contents (Elt F) → (⟨S128x10, .f32⟩ : BufTy).Contents (Elt F) → (⟨S10000x10, .f32⟩ : BufTy).Contents (Elt F)),
    unary main_arg14 main_v327 (broadcastInDim S1x10 ![1] bcast_S10_S1x10_1 : (⟨S10, .f32⟩ : BufTy).Contents (Elt F) → (⟨S1x10, .f32⟩ : BufTy).Contents (Elt F)),
    unary main_v327 main_v328 (broadcastInDim S10000x10 ![0, 1] bcast_S1x10_S10000x10_0_1 : (⟨S1x10, .f32⟩ : BufTy).Contents (Elt F) → (⟨S10000x10, .f32⟩ : BufTy).Contents (Elt F)),
    binary main_v326 main_v328 main_v329 (addf : (⟨S10000x10, .f32⟩ : BufTy).Contents (Elt F) → (⟨S10000x10, .f32⟩ : BufTy).Contents (Elt F) → (⟨S10000x10, .f32⟩ : BufTy).Contents (Elt F)) ]
/-- The buffers they write. -/
abbrev T_T_W : List (Ref sig .tc) := [main_c_42, main_v318, main_v319, main_c_43, main_v320, main_v321, main_v322, main_v323, main_v324, main_v325, main_v326, main_v327, main_v328, main_v329]
set_option maxRecDepth 16384 in
theorem T_T_writes : WritesIn (T_T : List (HloOp τ sig (Elt F))) T_T_W := by
  simp only [WritesIn, List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

set_option maxRecDepth 16384 in
set_option maxHeartbeats 2000000 in
/-- After these operations, from any contents `W`, `main_v329` holds this stage of the contents before them. -/
theorem T_T_result (W : Valuation τ sig (Elt Ideal)) :
    after (T_T (F := Ideal)) W (Proc.devRef .tc main_v329) = tailStage (W (Proc.devRef .tc main_v317)) (W (Proc.devRef .tc main_arg2)) (W (Proc.devRef .tc main_arg13)) (W (Proc.devRef .tc main_arg14)) := by
  simp only [T_T]
  after_results_simp <;> rfl

end Cert.ReferenceIdeal.HandRun

end
-- ==== Proof.RefOut.lean ====
/- The reference's result as one function of its fifteen arguments: the node array after the input's linear map,
   after each of the four layers (the first followed by a second rectifier), and the masked rows of the last through
   the output linear map. Argument k of the program is `a‹k›` (1 the edge list `ei`, 2 the mask `mk`). -/
import proofs.«119304_j10247791968545_2_alg».proof.Proof.RefStages

noncomputable section

namespace Cert.ReferenceIdeal.HandRun

open Cert.ReferenceIdeal Cert.ReferenceIdeal.Gen Idealize.ShloMosaic

/-- The node array after the input's linear map. -/
def refX0 (a0 : TNode) (a3 : TSq) (a4 : TVec) : TNode :=
  linStage a0 a3 a4

/-- The node array after layer 0 and the rectifier that follows it. -/
def refX1 (a0 : TNode) (ei : TEdges) (a3 : TSq) (a4 : TVec) (a5 : TSq4) (a6 a7 a8 : TVec4) (a9 : TSq4) (a10 a11 a12 : TVec4) : TNode :=
  reluStage (layerStage (refX0 a0 a3 a4) ei (matAt0 a5) (rowAt0 a6) (rowAt0 a7) (rowAt0 a8) (matAt0 a9) (rowAt0 a10) (rowAt0 a11) (rowAt0 a12))

/-- The node array after layer 1. -/
def refX2 (a0 : TNode) (ei : TEdges) (a3 : TSq) (a4 : TVec) (a5 : TSq4) (a6 a7 a8 : TVec4) (a9 : TSq4) (a10 a11 a12 : TVec4) : TNode :=
  layerStage (refX1 a0 ei a3 a4 a5 a6 a7 a8 a9 a10 a11 a12) ei (matAt1 a5) (rowAt1 a6) (rowAt1 a7) (rowAt1 a8) (matAt1 a9) (rowAt1 a10) (rowAt1 a11) (rowAt1 a12)

/-- The node array after layer 2. -/
def refX3 (a0 : TNode) (ei : TEdges) (a3 : TSq) (a4 : TVec) (a5 : TSq4) (a6 a7 a8 : TVec4) (a9 : TSq4) (a10 a11 a12 : TVec4) : TNode :=
  layerStage (refX2 a0 ei a3 a4 a5 a6 a7 a8 a9 a10 a11 a12) ei (matAt2 a5) (rowAt2 a6) (rowAt2 a7) (rowAt2 a8) (matAt2 a9) (rowAt2 a10) (rowAt2 a11) (rowAt2 a12)

/-- The node array after layer 3. -/
def refX4 (a0 : TNode) (ei : TEdges) (a3 : TSq) (a4 : TVec) (a5 : TSq4) (a6 a7 a8 : TVec4) (a9 : TSq4) (a10 a11 a12 : TVec4) : TNode :=
  layerStage (refX3 a0 ei a3 a4 a5 a6 a7 a8 a9 a10 a11 a12) ei (matAt3 a5) (rowAt3 a6) (rowAt3 a7) (rowAt3 a8) (matAt3 a9) (rowAt3 a10) (rowAt3 a11) (rowAt3 a12)

/-- The reference's result: the masked rows of the last node array through the output linear map. -/
def refOut (a0 : TNode) (ei : TEdges) (mk : TMask) (a3 : TSq) (a4 : TVec) (a5 : TSq4) (a6 a7 a8 : TVec4) (a9 : TSq4)
    (a10 a11 a12 : TVec4) (a13 : TWout) (a14 : TBout) : TOut :=
  tailStage (refX4 a0 ei a3 a4 a5 a6 a7 a8 a9 a10 a11 a12) mk a13 a14

end Cert.ReferenceIdeal.HandRun

end
-- ==== Proof.RefRead.lean ====
/- The reference program's line read back as pure functions. The 562 operations are the stages' lists in a row (each
   window of @main is, and lists in a row re-associate), so the line is `pre ++ (S ++ post)` for every stage `S`. What
   a stage's result buffer holds at the end of the line is then what it holds after `S`, since no later operation writes
   it; that is the stage's function of what the buffers it reads hold just before `S`; and each of those holds there
   what it holds at the end, since neither `S` nor anything later writes it (an argument: what it held at the start).
   Substituting the stages into one another gives each layer, and the result, as one function of the arguments. -/
import proofs.«119304_j10247791968545_2_alg».proof.Proof.RefRun
import proofs.«119304_j10247791968545_2_alg».proof.Proof.RefSegL0
import proofs.«119304_j10247791968545_2_alg».proof.Proof.RefSegL1
import proofs.«119304_j10247791968545_2_alg».proof.Proof.RefSegL2
import proofs.«119304_j10247791968545_2_alg».proof.Proof.RefSegL3
import proofs.«119304_j10247791968545_2_alg».proof.Proof.RefSegIT
import proofs.«119304_j10247791968545_2_alg».proof.Proof.RefOut

noncomputable section

namespace Cert.ReferenceIdeal.HandRun

open Cert.ReferenceIdeal Cert.ReferenceIdeal.Gen Idealize.ShloMosaic Idealize.ShloMosaic.TcCoe Idealize.SL.Sem Idealize.ShloMosaic.StableHlo
open Cert.Lib.AfterSplit

variable {F : FTy → Type} [FloatOps F]

/-! ## Each window is its stages in a row -/

set_option maxRecDepth 16384 in
set_option maxHeartbeats 4000000 in
/-- Window 0's operations are these stages' in a row: the same operations, in the same order. -/
theorem ops0_split : (ops0 : List (HloOp τ sig (Elt F))) = I_E ++ (I_I ++ (L0_A ++ (L0_H ++ (L0_L1 ++ (L0_P1 ++ (L0_M1 ++ (L0_V1 ++ (L0_B1 ++ (L0_R1))))))))) := rfl

set_option maxRecDepth 16384 in
set_option maxHeartbeats 4000000 in
/-- Window 1's operations are these stages' in a row: the same operations, in the same order. -/
theorem ops1_split : (ops1 : List (HloOp τ sig (Elt F))) = L0_L2 ++ (L0_P2 ++ (L0_M2 ++ (L0_V2 ++ (L0_B2 ++ (L0_R2 ++ (L0_R3 ++ (L1_A ++ (L1_H ++ (L1_L1_a))))))))) := rfl

set_option maxRecDepth 16384 in
set_option maxHeartbeats 4000000 in
/-- Window 2's operations are these stages' in a row: the same operations, in the same order. -/
theorem ops2_split : (ops2 : List (HloOp τ sig (Elt F))) = L1_L1_b ++ (L1_P1 ++ (L1_M1 ++ (L1_V1 ++ (L1_B1 ++ (L1_R1 ++ (L1_L2 ++ (L1_P2 ++ (L1_M2 ++ (L1_V2 ++ (L1_B2_a)))))))))) := rfl

set_option maxRecDepth 16384 in
set_option maxHeartbeats 4000000 in
/-- Window 3's operations are these stages' in a row: the same operations, in the same order. -/
theorem ops3_split : (ops3 : List (HloOp τ sig (Elt F))) = L1_B2_b ++ (L1_R2 ++ (L2_A ++ (L2_H ++ (L2_L1 ++ (L2_P1 ++ (L2_M1 ++ (L2_V1 ++ (L2_B1 ++ (L2_R1 ++ (L2_L2_a)))))))))) := rfl

set_option maxRecDepth 16384 in
set_option maxHeartbeats 4000000 in
/-- Window 4's operations are these stages' in a row: the same operations, in the same order. -/
theorem ops4_split : (ops4 : List (HloOp τ sig (Elt F))) = L2_L2_b ++ (L2_P2 ++ (L2_M2 ++ (L2_V2 ++ (L2_B2 ++ (L2_R2 ++ (L3_A ++ (L3_H ++ (L3_L1 ++ (L3_P1_a))))))))) := rfl

set_option maxRecDepth 16384 in
set_option maxHeartbeats 4000000 in
/-- Window 5's operations are these stages' in a row: the same operations, in the same order. -/
theorem ops5_split : (ops5 : List (HloOp τ sig (Elt F))) = L3_P1_b ++ (L3_M1 ++ (L3_V1 ++ (L3_B1 ++ (L3_R1 ++ (L3_L2 ++ (L3_P2 ++ (L3_M2 ++ (L3_V2 ++ (L3_B2_a))))))))) := rfl

set_option maxRecDepth 16384 in
set_option maxHeartbeats 4000000 in
/-- Window 6's operations are these stages' in a row: the same operations, in the same order. -/
theorem ops6_split : (ops6 : List (HloOp τ sig (Elt F))) = L3_B2_b ++ (L3_R2 ++ (T_T)) := rfl

/-! ## The line as stages in a row

`post‹j›` is what follows stage `j`, `pre‹j›` what precedes it: `ops = pre‹j› ++ (S‹j› ++ post‹j›)` for every `j`, by
re-association alone. -/

abbrev post59 : List (HloOp τ sig (Elt F)) := []
abbrev post59_W : List (Ref sig .tc) := []
theorem post59_writes : WritesIn (post59 : List (HloOp τ sig (Elt F))) post59_W := writesIn_nil
abbrev post58 : List (HloOp τ sig (Elt F)) := T_T ++ post59
abbrev post58_W : List (Ref sig .tc) := T_T_W ++ post59_W
theorem post58_writes : WritesIn (post58 : List (HloOp τ sig (Elt F))) post58_W := writesIn_append T_T_writes post59_writes
abbrev post57 : List (HloOp τ sig (Elt F)) := L3_R2 ++ post58
abbrev post57_W : List (Ref sig .tc) := L3_R2_W ++ post58_W
theorem post57_writes : WritesIn (post57 : List (HloOp τ sig (Elt F))) post57_W := writesIn_append L3_R2_writes post58_writes
abbrev post56 : List (HloOp τ sig (Elt F)) := L3_B2 ++ post57
abbrev post56_W : List (Ref sig .tc) := L3_B2_W ++ post57_W
theorem post56_writes : WritesIn (post56 : List (HloOp τ sig (Elt F))) post56_W := writesIn_append L3_B2_writes post57_writes
abbrev post55 : List (HloOp τ sig (Elt F)) := L3_V2 ++ post56
abbrev post55_W : List (Ref sig .tc) := L3_V2_W ++ post56_W
theorem post55_writes : WritesIn (post55 : List (HloOp τ sig (Elt F))) post55_W := writesIn_append L3_V2_writes post56_writes
abbrev post54 : List (HloOp τ sig (Elt F)) := L3_M2 ++ post55
abbrev post54_W : List (Ref sig .tc) := L3_M2_W ++ post55_W
theorem post54_writes : WritesIn (post54 : List (HloOp τ sig (Elt F))) post54_W := writesIn_append L3_M2_writes post55_writes
abbrev post53 : List (HloOp τ sig (Elt F)) := L3_P2 ++ post54
abbrev post53_W : List (Ref sig .tc) := L3_P2_W ++ post54_W
theorem post53_writes : WritesIn (post53 : List (HloOp τ sig (Elt F))) post53_W := writesIn_append L3_P2_writes post54_writes
abbrev post52 : List (HloOp τ sig (Elt F)) := L3_L2 ++ post53
abbrev post52_W : List (Ref sig .tc) := L3_L2_W ++ post53_W
theorem post52_writes : WritesIn (post52 : List (HloOp τ sig (Elt F))) post52_W := writesIn_append L3_L2_writes post53_writes
abbrev post51 : List (HloOp τ sig (Elt F)) := L3_R1 ++ post52
abbrev post51_W : List (Ref sig .tc) := L3_R1_W ++ post52_W
theorem post51_writes : WritesIn (post51 : List (HloOp τ sig (Elt F))) post51_W := writesIn_append L3_R1_writes post52_writes
abbrev post50 : List (HloOp τ sig (Elt F)) := L3_B1 ++ post51
abbrev post50_W : List (Ref sig .tc) := L3_B1_W ++ post51_W
theorem post50_writes : WritesIn (post50 : List (HloOp τ sig (Elt F))) post50_W := writesIn_append L3_B1_writes post51_writes
abbrev post49 : List (HloOp τ sig (Elt F)) := L3_V1 ++ post50
abbrev post49_W : List (Ref sig .tc) := L3_V1_W ++ post50_W
theorem post49_writes : WritesIn (post49 : List (HloOp τ sig (Elt F))) post49_W := writesIn_append L3_V1_writes post50_writes
abbrev post48 : List (HloOp τ sig (Elt F)) := L3_M1 ++ post49
abbrev post48_W : List (Ref sig .tc) := L3_M1_W ++ post49_W
theorem post48_writes : WritesIn (post48 : List (HloOp τ sig (Elt F))) post48_W := writesIn_append L3_M1_writes post49_writes
abbrev post47 : List (HloOp τ sig (Elt F)) := L3_P1 ++ post48
abbrev post47_W : List (Ref sig .tc) := L3_P1_W ++ post48_W
theorem post47_writes : WritesIn (post47 : List (HloOp τ sig (Elt F))) post47_W := writesIn_append L3_P1_writes post48_writes
abbrev post46 : List (HloOp τ sig (Elt F)) := L3_L1 ++ post47
abbrev post46_W : List (Ref sig .tc) := L3_L1_W ++ post47_W
theorem post46_writes : WritesIn (post46 : List (HloOp τ sig (Elt F))) post46_W := writesIn_append L3_L1_writes post47_writes
abbrev post45 : List (HloOp τ sig (Elt F)) := L3_H ++ post46
abbrev post45_W : List (Ref sig .tc) := L3_H_W ++ post46_W
theorem post45_writes : WritesIn (post45 : List (HloOp τ sig (Elt F))) post45_W := writesIn_append L3_H_writes post46_writes
abbrev post44 : List (HloOp τ sig (Elt F)) := L3_A ++ post45
abbrev post44_W : List (Ref sig .tc) := L3_A_W ++ post45_W
theorem post44_writes : WritesIn (post44 : List (HloOp τ sig (Elt F))) post44_W := writesIn_append L3_A_writes post45_writes
abbrev post43 : List (HloOp τ sig (Elt F)) := L2_R2 ++ post44
abbrev post43_W : List (Ref sig .tc) := L2_R2_W ++ post44_W
theorem post43_writes : WritesIn (post43 : List (HloOp τ sig (Elt F))) post43_W := writesIn_append L2_R2_writes post44_writes
abbrev post42 : List (HloOp τ sig (Elt F)) := L2_B2 ++ post43
abbrev post42_W : List (Ref sig .tc) := L2_B2_W ++ post43_W
theorem post42_writes : WritesIn (post42 : List (HloOp τ sig (Elt F))) post42_W := writesIn_append L2_B2_writes post43_writes
abbrev post41 : List (HloOp τ sig (Elt F)) := L2_V2 ++ post42
abbrev post41_W : List (Ref sig .tc) := L2_V2_W ++ post42_W
theorem post41_writes : WritesIn (post41 : List (HloOp τ sig (Elt F))) post41_W := writesIn_append L2_V2_writes post42_writes
abbrev post40 : List (HloOp τ sig (Elt F)) := L2_M2 ++ post41
abbrev post40_W : List (Ref sig .tc) := L2_M2_W ++ post41_W
theorem post40_writes : WritesIn (post40 : List (HloOp τ sig (Elt F))) post40_W := writesIn_append L2_M2_writes post41_writes
abbrev post39 : List (HloOp τ sig (Elt F)) := L2_P2 ++ post40
abbrev post39_W : List (Ref sig .tc) := L2_P2_W ++ post40_W
theorem post39_writes : WritesIn (post39 : List (HloOp τ sig (Elt F))) post39_W := writesIn_append L2_P2_writes post40_writes
abbrev post38 : List (HloOp τ sig (Elt F)) := L2_L2 ++ post39
abbrev post38_W : List (Ref sig .tc) := L2_L2_W ++ post39_W
theorem post38_writes : WritesIn (post38 : List (HloOp τ sig (Elt F))) post38_W := writesIn_append L2_L2_writes post39_writes
abbrev post37 : List (HloOp τ sig (Elt F)) := L2_R1 ++ post38
abbrev post37_W : List (Ref sig .tc) := L2_R1_W ++ post38_W
theorem post37_writes : WritesIn (post37 : List (HloOp τ sig (Elt F))) post37_W := writesIn_append L2_R1_writes post38_writes
abbrev post36 : List (HloOp τ sig (Elt F)) := L2_B1 ++ post37
abbrev post36_W : List (Ref sig .tc) := L2_B1_W ++ post37_W
theorem post36_writes : WritesIn (post36 : List (HloOp τ sig (Elt F))) post36_W := writesIn_append L2_B1_writes post37_writes
abbrev post35 : List (HloOp τ sig (Elt F)) := L2_V1 ++ post36
abbrev post35_W : List (Ref sig .tc) := L2_V1_W ++ post36_W
theorem post35_writes : WritesIn (post35 : List (HloOp τ sig (Elt F))) post35_W := writesIn_append L2_V1_writes post36_writes
abbrev post34 : List (HloOp τ sig (Elt F)) := L2_M1 ++ post35
abbrev post34_W : List (Ref sig .tc) := L2_M1_W ++ post35_W
theorem post34_writes : WritesIn (post34 : List (HloOp τ sig (Elt F))) post34_W := writesIn_append L2_M1_writes post35_writes
abbrev post33 : List (HloOp τ sig (Elt F)) := L2_P1 ++ post34
abbrev post33_W : List (Ref sig .tc) := L2_P1_W ++ post34_W
theorem post33_writes : WritesIn (post33 : List (HloOp τ sig (Elt F))) post33_W := writesIn_append L2_P1_writes post34_writes
abbrev post32 : List (HloOp τ sig (Elt F)) := L2_L1 ++ post33
abbrev post32_W : List (Ref sig .tc) := L2_L1_W ++ post33_W
theorem post32_writes : WritesIn (post32 : List (HloOp τ sig (Elt F))) post32_W := writesIn_append L2_L1_writes post33_writes
abbrev post31 : List (HloOp τ sig (Elt F)) := L2_H ++ post32
abbrev post31_W : List (Ref sig .tc) := L2_H_W ++ post32_W
theorem post31_writes : WritesIn (post31 : List (HloOp τ sig (Elt F))) post31_W := writesIn_append L2_H_writes post32_writes
abbrev post30 : List (HloOp τ sig (Elt F)) := L2_A ++ post31
abbrev post30_W : List (Ref sig .tc) := L2_A_W ++ post31_W
theorem post30_writes : WritesIn (post30 : List (HloOp τ sig (Elt F))) post30_W := writesIn_append L2_A_writes post31_writes
abbrev post29 : List (HloOp τ sig (Elt F)) := L1_R2 ++ post30
abbrev post29_W : List (Ref sig .tc) := L1_R2_W ++ post30_W
theorem post29_writes : WritesIn (post29 : List (HloOp τ sig (Elt F))) post29_W := writesIn_append L1_R2_writes post30_writes
abbrev post28 : List (HloOp τ sig (Elt F)) := L1_B2 ++ post29
abbrev post28_W : List (Ref sig .tc) := L1_B2_W ++ post29_W
theorem post28_writes : WritesIn (post28 : List (HloOp τ sig (Elt F))) post28_W := writesIn_append L1_B2_writes post29_writes
abbrev post27 : List (HloOp τ sig (Elt F)) := L1_V2 ++ post28
abbrev post27_W : List (Ref sig .tc) := L1_V2_W ++ post28_W
theorem post27_writes : WritesIn (post27 : List (HloOp τ sig (Elt F))) post27_W := writesIn_append L1_V2_writes post28_writes
abbrev post26 : List (HloOp τ sig (Elt F)) := L1_M2 ++ post27
abbrev post26_W : List (Ref sig .tc) := L1_M2_W ++ post27_W
theorem post26_writes : WritesIn (post26 : List (HloOp τ sig (Elt F))) post26_W := writesIn_append L1_M2_writes post27_writes
abbrev post25 : List (HloOp τ sig (Elt F)) := L1_P2 ++ post26
abbrev post25_W : List (Ref sig .tc) := L1_P2_W ++ post26_W
theorem post25_writes : WritesIn (post25 : List (HloOp τ sig (Elt F))) post25_W := writesIn_append L1_P2_writes post26_writes
abbrev post24 : List (HloOp τ sig (Elt F)) := L1_L2 ++ post25
abbrev post24_W : List (Ref sig .tc) := L1_L2_W ++ post25_W
theorem post24_writes : WritesIn (post24 : List (HloOp τ sig (Elt F))) post24_W := writesIn_append L1_L2_writes post25_writes
abbrev post23 : List (HloOp τ sig (Elt F)) := L1_R1 ++ post24
abbrev post23_W : List (Ref sig .tc) := L1_R1_W ++ post24_W
theorem post23_writes : WritesIn (post23 : List (HloOp τ sig (Elt F))) post23_W := writesIn_append L1_R1_writes post24_writes
abbrev post22 : List (HloOp τ sig (Elt F)) := L1_B1 ++ post23
abbrev post22_W : List (Ref sig .tc) := L1_B1_W ++ post23_W
theorem post22_writes : WritesIn (post22 : List (HloOp τ sig (Elt F))) post22_W := writesIn_append L1_B1_writes post23_writes
abbrev post21 : List (HloOp τ sig (Elt F)) := L1_V1 ++ post22
abbrev post21_W : List (Ref sig .tc) := L1_V1_W ++ post22_W
theorem post21_writes : WritesIn (post21 : List (HloOp τ sig (Elt F))) post21_W := writesIn_append L1_V1_writes post22_writes
abbrev post20 : List (HloOp τ sig (Elt F)) := L1_M1 ++ post21
abbrev post20_W : List (Ref sig .tc) := L1_M1_W ++ post21_W
theorem post20_writes : WritesIn (post20 : List (HloOp τ sig (Elt F))) post20_W := writesIn_append L1_M1_writes post21_writes
abbrev post19 : List (HloOp τ sig (Elt F)) := L1_P1 ++ post20
abbrev post19_W : List (Ref sig .tc) := L1_P1_W ++ post20_W
theorem post19_writes : WritesIn (post19 : List (HloOp τ sig (Elt F))) post19_W := writesIn_append L1_P1_writes post20_writes
abbrev post18 : List (HloOp τ sig (Elt F)) := L1_L1 ++ post19
abbrev post18_W : List (Ref sig .tc) := L1_L1_W ++ post19_W
theorem post18_writes : WritesIn (post18 : List (HloOp τ sig (Elt F))) post18_W := writesIn_append L1_L1_writes post19_writes
abbrev post17 : List (HloOp τ sig (Elt F)) := L1_H ++ post18
abbrev post17_W : List (Ref sig .tc) := L1_H_W ++ post18_W
theorem post17_writes : WritesIn (post17 : List (HloOp τ sig (Elt F))) post17_W := writesIn_append L1_H_writes post18_writes
abbrev post16 : List (HloOp τ sig (Elt F)) := L1_A ++ post17
abbrev post16_W : List (Ref sig .tc) := L1_A_W ++ post17_W
theorem post16_writes : WritesIn (post16 : List (HloOp τ sig (Elt F))) post16_W := writesIn_append L1_A_writes post17_writes
abbrev post15 : List (HloOp τ sig (Elt F)) := L0_R3 ++ post16
abbrev post15_W : List (Ref sig .tc) := L0_R3_W ++ post16_W
theorem post15_writes : WritesIn (post15 : List (HloOp τ sig (Elt F))) post15_W := writesIn_append L0_R3_writes post16_writes
abbrev post14 : List (HloOp τ sig (Elt F)) := L0_R2 ++ post15
abbrev post14_W : List (Ref sig .tc) := L0_R2_W ++ post15_W
theorem post14_writes : WritesIn (post14 : List (HloOp τ sig (Elt F))) post14_W := writesIn_append L0_R2_writes post15_writes
abbrev post13 : List (HloOp τ sig (Elt F)) := L0_B2 ++ post14
abbrev post13_W : List (Ref sig .tc) := L0_B2_W ++ post14_W
theorem post13_writes : WritesIn (post13 : List (HloOp τ sig (Elt F))) post13_W := writesIn_append L0_B2_writes post14_writes
abbrev post12 : List (HloOp τ sig (Elt F)) := L0_V2 ++ post13
abbrev post12_W : List (Ref sig .tc) := L0_V2_W ++ post13_W
theorem post12_writes : WritesIn (post12 : List (HloOp τ sig (Elt F))) post12_W := writesIn_append L0_V2_writes post13_writes
abbrev post11 : List (HloOp τ sig (Elt F)) := L0_M2 ++ post12
abbrev post11_W : List (Ref sig .tc) := L0_M2_W ++ post12_W
theorem post11_writes : WritesIn (post11 : List (HloOp τ sig (Elt F))) post11_W := writesIn_append L0_M2_writes post12_writes
abbrev post10 : List (HloOp τ sig (Elt F)) := L0_P2 ++ post11
abbrev post10_W : List (Ref sig .tc) := L0_P2_W ++ post11_W
theorem post10_writes : WritesIn (post10 : List (HloOp τ sig (Elt F))) post10_W := writesIn_append L0_P2_writes post11_writes
abbrev post9 : List (HloOp τ sig (Elt F)) := L0_L2 ++ post10
abbrev post9_W : List (Ref sig .tc) := L0_L2_W ++ post10_W
theorem post9_writes : WritesIn (post9 : List (HloOp τ sig (Elt F))) post9_W := writesIn_append L0_L2_writes post10_writes
abbrev post8 : List (HloOp τ sig (Elt F)) := L0_R1 ++ post9
abbrev post8_W : List (Ref sig .tc) := L0_R1_W ++ post9_W
theorem post8_writes : WritesIn (post8 : List (HloOp τ sig (Elt F))) post8_W := writesIn_append L0_R1_writes post9_writes
abbrev post7 : List (HloOp τ sig (Elt F)) := L0_B1 ++ post8
abbrev post7_W : List (Ref sig .tc) := L0_B1_W ++ post8_W
theorem post7_writes : WritesIn (post7 : List (HloOp τ sig (Elt F))) post7_W := writesIn_append L0_B1_writes post8_writes
abbrev post6 : List (HloOp τ sig (Elt F)) := L0_V1 ++ post7
abbrev post6_W : List (Ref sig .tc) := L0_V1_W ++ post7_W
theorem post6_writes : WritesIn (post6 : List (HloOp τ sig (Elt F))) post6_W := writesIn_append L0_V1_writes post7_writes
abbrev post5 : List (HloOp τ sig (Elt F)) := L0_M1 ++ post6
abbrev post5_W : List (Ref sig .tc) := L0_M1_W ++ post6_W
theorem post5_writes : WritesIn (post5 : List (HloOp τ sig (Elt F))) post5_W := writesIn_append L0_M1_writes post6_writes
abbrev post4 : List (HloOp τ sig (Elt F)) := L0_P1 ++ post5
abbrev post4_W : List (Ref sig .tc) := L0_P1_W ++ post5_W
theorem post4_writes : WritesIn (post4 : List (HloOp τ sig (Elt F))) post4_W := writesIn_append L0_P1_writes post5_writes
abbrev post3 : List (HloOp τ sig (Elt F)) := L0_L1 ++ post4
abbrev post3_W : List (Ref sig .tc) := L0_L1_W ++ post4_W
theorem post3_writes : WritesIn (post3 : List (HloOp τ sig (Elt F))) post3_W := writesIn_append L0_L1_writes post4_writes
abbrev post2 : List (HloOp τ sig (Elt F)) := L0_H ++ post3
abbrev post2_W : List (Ref sig .tc) := L0_H_W ++ post3_W
theorem post2_writes : WritesIn (post2 : List (HloOp τ sig (Elt F))) post2_W := writesIn_append L0_H_writes post3_writes
abbrev post1 : List (HloOp τ sig (Elt F)) := L0_A ++ post2
abbrev post1_W : List (Ref sig .tc) := L0_A_W ++ post2_W
theorem post1_writes : WritesIn (post1 : List (HloOp τ sig (Elt F))) post1_W := writesIn_append L0_A_writes post2_writes
abbrev post0 : List (HloOp τ sig (Elt F)) := I_I ++ post1
abbrev post0_W : List (Ref sig .tc) := I_I_W ++ post1_W
theorem post0_writes : WritesIn (post0 : List (HloOp τ sig (Elt F))) post0_W := writesIn_append I_I_writes post1_writes

abbrev pre0 : List (HloOp τ sig (Elt F)) := []
abbrev pre1 : List (HloOp τ sig (Elt F)) := pre0 ++ I_E
abbrev pre2 : List (HloOp τ sig (Elt F)) := pre1 ++ I_I
abbrev pre3 : List (HloOp τ sig (Elt F)) := pre2 ++ L0_A
abbrev pre4 : List (HloOp τ sig (Elt F)) := pre3 ++ L0_H
abbrev pre5 : List (HloOp τ sig (Elt F)) := pre4 ++ L0_L1
abbrev pre6 : List (HloOp τ sig (Elt F)) := pre5 ++ L0_P1
abbrev pre7 : List (HloOp τ sig (Elt F)) := pre6 ++ L0_M1
abbrev pre8 : List (HloOp τ sig (Elt F)) := pre7 ++ L0_V1
abbrev pre9 : List (HloOp τ sig (Elt F)) := pre8 ++ L0_B1
abbrev pre10 : List (HloOp τ sig (Elt F)) := pre9 ++ L0_R1
abbrev pre11 : List (HloOp τ sig (Elt F)) := pre10 ++ L0_L2
abbrev pre12 : List (HloOp τ sig (Elt F)) := pre11 ++ L0_P2
abbrev pre13 : List (HloOp τ sig (Elt F)) := pre12 ++ L0_M2
abbrev pre14 : List (HloOp τ sig (Elt F)) := pre13 ++ L0_V2
abbrev pre15 : List (HloOp τ sig (Elt F)) := pre14 ++ L0_B2
abbrev pre16 : List (HloOp τ sig (Elt F)) := pre15 ++ L0_R2
abbrev pre17 : List (HloOp τ sig (Elt F)) := pre16 ++ L0_R3
abbrev pre18 : List (HloOp τ sig (Elt F)) := pre17 ++ L1_A
abbrev pre19 : List (HloOp τ sig (Elt F)) := pre18 ++ L1_H
abbrev pre20 : List (HloOp τ sig (Elt F)) := pre19 ++ L1_L1
abbrev pre21 : List (HloOp τ sig (Elt F)) := pre20 ++ L1_P1
abbrev pre22 : List (HloOp τ sig (Elt F)) := pre21 ++ L1_M1
abbrev pre23 : List (HloOp τ sig (Elt F)) := pre22 ++ L1_V1
abbrev pre24 : List (HloOp τ sig (Elt F)) := pre23 ++ L1_B1
abbrev pre25 : List (HloOp τ sig (Elt F)) := pre24 ++ L1_R1
abbrev pre26 : List (HloOp τ sig (Elt F)) := pre25 ++ L1_L2
abbrev pre27 : List (HloOp τ sig (Elt F)) := pre26 ++ L1_P2
abbrev pre28 : List (HloOp τ sig (Elt F)) := pre27 ++ L1_M2
abbrev pre29 : List (HloOp τ sig (Elt F)) := pre28 ++ L1_V2
abbrev pre30 : List (HloOp τ sig (Elt F)) := pre29 ++ L1_B2
abbrev pre31 : List (HloOp τ sig (Elt F)) := pre30 ++ L1_R2
abbrev pre32 : List (HloOp τ sig (Elt F)) := pre31 ++ L2_A
abbrev pre33 : List (HloOp τ sig (Elt F)) := pre32 ++ L2_H
abbrev pre34 : List (HloOp τ sig (Elt F)) := pre33 ++ L2_L1
abbrev pre35 : List (HloOp τ sig (Elt F)) := pre34 ++ L2_P1
abbrev pre36 : List (HloOp τ sig (Elt F)) := pre35 ++ L2_M1
abbrev pre37 : List (HloOp τ sig (Elt F)) := pre36 ++ L2_V1
abbrev pre38 : List (HloOp τ sig (Elt F)) := pre37 ++ L2_B1
abbrev pre39 : List (HloOp τ sig (Elt F)) := pre38 ++ L2_R1
abbrev pre40 : List (HloOp τ sig (Elt F)) := pre39 ++ L2_L2
abbrev pre41 : List (HloOp τ sig (Elt F)) := pre40 ++ L2_P2
abbrev pre42 : List (HloOp τ sig (Elt F)) := pre41 ++ L2_M2
abbrev pre43 : List (HloOp τ sig (Elt F)) := pre42 ++ L2_V2
abbrev pre44 : List (HloOp τ sig (Elt F)) := pre43 ++ L2_B2
abbrev pre45 : List (HloOp τ sig (Elt F)) := pre44 ++ L2_R2
abbrev pre46 : List (HloOp τ sig (Elt F)) := pre45 ++ L3_A
abbrev pre47 : List (HloOp τ sig (Elt F)) := pre46 ++ L3_H
abbrev pre48 : List (HloOp τ sig (Elt F)) := pre47 ++ L3_L1
abbrev pre49 : List (HloOp τ sig (Elt F)) := pre48 ++ L3_P1
abbrev pre50 : List (HloOp τ sig (Elt F)) := pre49 ++ L3_M1
abbrev pre51 : List (HloOp τ sig (Elt F)) := pre50 ++ L3_V1
abbrev pre52 : List (HloOp τ sig (Elt F)) := pre51 ++ L3_B1
abbrev pre53 : List (HloOp τ sig (Elt F)) := pre52 ++ L3_R1
abbrev pre54 : List (HloOp τ sig (Elt F)) := pre53 ++ L3_L2
abbrev pre55 : List (HloOp τ sig (Elt F)) := pre54 ++ L3_P2
abbrev pre56 : List (HloOp τ sig (Elt F)) := pre55 ++ L3_M2
abbrev pre57 : List (HloOp τ sig (Elt F)) := pre56 ++ L3_V2
abbrev pre58 : List (HloOp τ sig (Elt F)) := pre57 ++ L3_B2
abbrev pre59 : List (HloOp τ sig (Elt F)) := pre58 ++ L3_R2

set_option maxRecDepth 16384 in
set_option maxHeartbeats 4000000 in
/-- The whole line is its stages in a row: each window is (`ops‹K›_split`), and lists in a row re-associate. -/
theorem ops_segs : (ops : List (HloOp τ sig (Elt F))) =
    I_E ++ (I_I ++ (L0_A ++ (L0_H ++ (L0_L1 ++ (L0_P1 ++ (L0_M1 ++ (L0_V1 ++ (L0_B1 ++ (L0_R1 ++ (L0_L2 ++ (L0_P2 ++ (L0_M2 ++ (L0_V2 ++ (L0_B2 ++ (L0_R2 ++ (L0_R3 ++ (L1_A ++ (L1_H ++ (L1_L1 ++ (L1_P1 ++ (L1_M1 ++ (L1_V1 ++ (L1_B1 ++ (L1_R1 ++ (L1_L2 ++ (L1_P2 ++ (L1_M2 ++ (L1_V2 ++ (L1_B2 ++ (L1_R2 ++ (L2_A ++ (L2_H ++ (L2_L1 ++ (L2_P1 ++ (L2_M1 ++ (L2_V1 ++ (L2_B1 ++ (L2_R1 ++ (L2_L2 ++ (L2_P2 ++ (L2_M2 ++ (L2_V2 ++ (L2_B2 ++ (L2_R2 ++ (L3_A ++ (L3_H ++ (L3_L1 ++ (L3_P1 ++ (L3_M1 ++ (L3_V1 ++ (L3_B1 ++ (L3_R1 ++ (L3_L2 ++ (L3_P2 ++ (L3_M2 ++ (L3_V2 ++ (L3_B2 ++ (L3_R2 ++ (T_T ++ []))))))))))))))))))))))))))))))))))))))))))))))))))))))))))) := by
  show ops0 ++ (ops1 ++ (ops2 ++ (ops3 ++ (ops4 ++ (ops5 ++ ops6))))) = _
  rw [ops0_split, ops1_split, ops2_split, ops3_split, ops4_split, ops5_split, ops6_split]
  simp only [L1_L1, L1_B2, L2_L2, L3_P1, L3_B2, List.append_assoc, List.append_nil]

theorem ops_eq0 : (ops : List (HloOp τ sig (Elt F))) = pre0 ++ (I_E ++ post0) := ops_segs.trans (List.nil_append _).symm
theorem ops_eq1 : (ops : List (HloOp τ sig (Elt F))) = pre1 ++ (I_I ++ post1) := ops_eq0.trans (List.append_assoc pre0 I_E post0).symm
theorem ops_eq2 : (ops : List (HloOp τ sig (Elt F))) = pre2 ++ (L0_A ++ post2) := ops_eq1.trans (List.append_assoc pre1 I_I post1).symm
theorem ops_eq3 : (ops : List (HloOp τ sig (Elt F))) = pre3 ++ (L0_H ++ post3) := ops_eq2.trans (List.append_assoc pre2 L0_A post2).symm
theorem ops_eq4 : (ops : List (HloOp τ sig (Elt F))) = pre4 ++ (L0_L1 ++ post4) := ops_eq3.trans (List.append_assoc pre3 L0_H post3).symm
theorem ops_eq5 : (ops : List (HloOp τ sig (Elt F))) = pre5 ++ (L0_P1 ++ post5) := ops_eq4.trans (List.append_assoc pre4 L0_L1 post4).symm
theorem ops_eq6 : (ops : List (HloOp τ sig (Elt F))) = pre6 ++ (L0_M1 ++ post6) := ops_eq5.trans (List.append_assoc pre5 L0_P1 post5).symm
theorem ops_eq7 : (ops : List (HloOp τ sig (Elt F))) = pre7 ++ (L0_V1 ++ post7) := ops_eq6.trans (List.append_assoc pre6 L0_M1 post6).symm
theorem ops_eq8 : (ops : List (HloOp τ sig (Elt F))) = pre8 ++ (L0_B1 ++ post8) := ops_eq7.trans (List.append_assoc pre7 L0_V1 post7).symm
theorem ops_eq9 : (ops : List (HloOp τ sig (Elt F))) = pre9 ++ (L0_R1 ++ post9) := ops_eq8.trans (List.append_assoc pre8 L0_B1 post8).symm
theorem ops_eq10 : (ops : List (HloOp τ sig (Elt F))) = pre10 ++ (L0_L2 ++ post10) := ops_eq9.trans (List.append_assoc pre9 L0_R1 post9).symm
theorem ops_eq11 : (ops : List (HloOp τ sig (Elt F))) = pre11 ++ (L0_P2 ++ post11) := ops_eq10.trans (List.append_assoc pre10 L0_L2 post10).symm
theorem ops_eq12 : (ops : List (HloOp τ sig (Elt F))) = pre12 ++ (L0_M2 ++ post12) := ops_eq11.trans (List.append_assoc pre11 L0_P2 post11).symm
theorem ops_eq13 : (ops : List (HloOp τ sig (Elt F))) = pre13 ++ (L0_V2 ++ post13) := ops_eq12.trans (List.append_assoc pre12 L0_M2 post12).symm
theorem ops_eq14 : (ops : List (HloOp τ sig (Elt F))) = pre14 ++ (L0_B2 ++ post14) := ops_eq13.trans (List.append_assoc pre13 L0_V2 post13).symm
theorem ops_eq15 : (ops : List (HloOp τ sig (Elt F))) = pre15 ++ (L0_R2 ++ post15) := ops_eq14.trans (List.append_assoc pre14 L0_B2 post14).symm
theorem ops_eq16 : (ops : List (HloOp τ sig (Elt F))) = pre16 ++ (L0_R3 ++ post16) := ops_eq15.trans (List.append_assoc pre15 L0_R2 post15).symm
theorem ops_eq17 : (ops : List (HloOp τ sig (Elt F))) = pre17 ++ (L1_A ++ post17) := ops_eq16.trans (List.append_assoc pre16 L0_R3 post16).symm
theorem ops_eq18 : (ops : List (HloOp τ sig (Elt F))) = pre18 ++ (L1_H ++ post18) := ops_eq17.trans (List.append_assoc pre17 L1_A post17).symm
theorem ops_eq19 : (ops : List (HloOp τ sig (Elt F))) = pre19 ++ (L1_L1 ++ post19) := ops_eq18.trans (List.append_assoc pre18 L1_H post18).symm
theorem ops_eq20 : (ops : List (HloOp τ sig (Elt F))) = pre20 ++ (L1_P1 ++ post20) := ops_eq19.trans (List.append_assoc pre19 L1_L1 post19).symm
theorem ops_eq21 : (ops : List (HloOp τ sig (Elt F))) = pre21 ++ (L1_M1 ++ post21) := ops_eq20.trans (List.append_assoc pre20 L1_P1 post20).symm
theorem ops_eq22 : (ops : List (HloOp τ sig (Elt F))) = pre22 ++ (L1_V1 ++ post22) := ops_eq21.trans (List.append_assoc pre21 L1_M1 post21).symm
theorem ops_eq23 : (ops : List (HloOp τ sig (Elt F))) = pre23 ++ (L1_B1 ++ post23) := ops_eq22.trans (List.append_assoc pre22 L1_V1 post22).symm
theorem ops_eq24 : (ops : List (HloOp τ sig (Elt F))) = pre24 ++ (L1_R1 ++ post24) := ops_eq23.trans (List.append_assoc pre23 L1_B1 post23).symm
theorem ops_eq25 : (ops : List (HloOp τ sig (Elt F))) = pre25 ++ (L1_L2 ++ post25) := ops_eq24.trans (List.append_assoc pre24 L1_R1 post24).symm
theorem ops_eq26 : (ops : List (HloOp τ sig (Elt F))) = pre26 ++ (L1_P2 ++ post26) := ops_eq25.trans (List.append_assoc pre25 L1_L2 post25).symm
theorem ops_eq27 : (ops : List (HloOp τ sig (Elt F))) = pre27 ++ (L1_M2 ++ post27) := ops_eq26.trans (List.append_assoc pre26 L1_P2 post26).symm
theorem ops_eq28 : (ops : List (HloOp τ sig (Elt F))) = pre28 ++ (L1_V2 ++ post28) := ops_eq27.trans (List.append_assoc pre27 L1_M2 post27).symm
theorem ops_eq29 : (ops : List (HloOp τ sig (Elt F))) = pre29 ++ (L1_B2 ++ post29) := ops_eq28.trans (List.append_assoc pre28 L1_V2 post28).symm
theorem ops_eq30 : (ops : List (HloOp τ sig (Elt F))) = pre30 ++ (L1_R2 ++ post30) := ops_eq29.trans (List.append_assoc pre29 L1_B2 post29).symm
theorem ops_eq31 : (ops : List (HloOp τ sig (Elt F))) = pre31 ++ (L2_A ++ post31) := ops_eq30.trans (List.append_assoc pre30 L1_R2 post30).symm
theorem ops_eq32 : (ops : List (HloOp τ sig (Elt F))) = pre32 ++ (L2_H ++ post32) := ops_eq31.trans (List.append_assoc pre31 L2_A post31).symm
theorem ops_eq33 : (ops : List (HloOp τ sig (Elt F))) = pre33 ++ (L2_L1 ++ post33) := ops_eq32.trans (List.append_assoc pre32 L2_H post32).symm
theorem ops_eq34 : (ops : List (HloOp τ sig (Elt F))) = pre34 ++ (L2_P1 ++ post34) := ops_eq33.trans (List.append_assoc pre33 L2_L1 post33).symm
theorem ops_eq35 : (ops : List (HloOp τ sig (Elt F))) = pre35 ++ (L2_M1 ++ post35) := ops_eq34.trans (List.append_assoc pre34 L2_P1 post34).symm
theorem ops_eq36 : (ops : List (HloOp τ sig (Elt F))) = pre36 ++ (L2_V1 ++ post36) := ops_eq35.trans (List.append_assoc pre35 L2_M1 post35).symm
theorem ops_eq37 : (ops : List (HloOp τ sig (Elt F))) = pre37 ++ (L2_B1 ++ post37) := ops_eq36.trans (List.append_assoc pre36 L2_V1 post36).symm
theorem ops_eq38 : (ops : List (HloOp τ sig (Elt F))) = pre38 ++ (L2_R1 ++ post38) := ops_eq37.trans (List.append_assoc pre37 L2_B1 post37).symm
theorem ops_eq39 : (ops : List (HloOp τ sig (Elt F))) = pre39 ++ (L2_L2 ++ post39) := ops_eq38.trans (List.append_assoc pre38 L2_R1 post38).symm
theorem ops_eq40 : (ops : List (HloOp τ sig (Elt F))) = pre40 ++ (L2_P2 ++ post40) := ops_eq39.trans (List.append_assoc pre39 L2_L2 post39).symm
theorem ops_eq41 : (ops : List (HloOp τ sig (Elt F))) = pre41 ++ (L2_M2 ++ post41) := ops_eq40.trans (List.append_assoc pre40 L2_P2 post40).symm
theorem ops_eq42 : (ops : List (HloOp τ sig (Elt F))) = pre42 ++ (L2_V2 ++ post42) := ops_eq41.trans (List.append_assoc pre41 L2_M2 post41).symm
theorem ops_eq43 : (ops : List (HloOp τ sig (Elt F))) = pre43 ++ (L2_B2 ++ post43) := ops_eq42.trans (List.append_assoc pre42 L2_V2 post42).symm
theorem ops_eq44 : (ops : List (HloOp τ sig (Elt F))) = pre44 ++ (L2_R2 ++ post44) := ops_eq43.trans (List.append_assoc pre43 L2_B2 post43).symm
theorem ops_eq45 : (ops : List (HloOp τ sig (Elt F))) = pre45 ++ (L3_A ++ post45) := ops_eq44.trans (List.append_assoc pre44 L2_R2 post44).symm
theorem ops_eq46 : (ops : List (HloOp τ sig (Elt F))) = pre46 ++ (L3_H ++ post46) := ops_eq45.trans (List.append_assoc pre45 L3_A post45).symm
theorem ops_eq47 : (ops : List (HloOp τ sig (Elt F))) = pre47 ++ (L3_L1 ++ post47) := ops_eq46.trans (List.append_assoc pre46 L3_H post46).symm
theorem ops_eq48 : (ops : List (HloOp τ sig (Elt F))) = pre48 ++ (L3_P1 ++ post48) := ops_eq47.trans (List.append_assoc pre47 L3_L1 post47).symm
theorem ops_eq49 : (ops : List (HloOp τ sig (Elt F))) = pre49 ++ (L3_M1 ++ post49) := ops_eq48.trans (List.append_assoc pre48 L3_P1 post48).symm
theorem ops_eq50 : (ops : List (HloOp τ sig (Elt F))) = pre50 ++ (L3_V1 ++ post50) := ops_eq49.trans (List.append_assoc pre49 L3_M1 post49).symm
theorem ops_eq51 : (ops : List (HloOp τ sig (Elt F))) = pre51 ++ (L3_B1 ++ post51) := ops_eq50.trans (List.append_assoc pre50 L3_V1 post50).symm
theorem ops_eq52 : (ops : List (HloOp τ sig (Elt F))) = pre52 ++ (L3_R1 ++ post52) := ops_eq51.trans (List.append_assoc pre51 L3_B1 post51).symm
theorem ops_eq53 : (ops : List (HloOp τ sig (Elt F))) = pre53 ++ (L3_L2 ++ post53) := ops_eq52.trans (List.append_assoc pre52 L3_R1 post52).symm
theorem ops_eq54 : (ops : List (HloOp τ sig (Elt F))) = pre54 ++ (L3_P2 ++ post54) := ops_eq53.trans (List.append_assoc pre53 L3_L2 post53).symm
theorem ops_eq55 : (ops : List (HloOp τ sig (Elt F))) = pre55 ++ (L3_M2 ++ post55) := ops_eq54.trans (List.append_assoc pre54 L3_P2 post54).symm
theorem ops_eq56 : (ops : List (HloOp τ sig (Elt F))) = pre56 ++ (L3_V2 ++ post56) := ops_eq55.trans (List.append_assoc pre55 L3_M2 post55).symm
theorem ops_eq57 : (ops : List (HloOp τ sig (Elt F))) = pre57 ++ (L3_B2 ++ post57) := ops_eq56.trans (List.append_assoc pre56 L3_V2 post56).symm
theorem ops_eq58 : (ops : List (HloOp τ sig (Elt F))) = pre58 ++ (L3_R2 ++ post58) := ops_eq57.trans (List.append_assoc pre57 L3_B2 post57).symm
theorem ops_eq59 : (ops : List (HloOp τ sig (Elt F))) = pre59 ++ (T_T ++ post59) := ops_eq58.trans (List.append_assoc pre58 L3_R2 post58).symm

/-! ## Each stage's result buffer at the end of the line -/

set_option maxRecDepth 16384 in
set_option maxHeartbeats 1000000 in
theorem read_I_E_src (V : Valuation τ sig (Elt Ideal)) :
    after ops V (Proc.devRef .tc main_v1) = srcRow (V (Proc.devRef .tc main_arg1)) := by
  have hb : after ops V (Proc.devRef .tc main_v1) = after I_E (after pre0 V) (Proc.devRef .tc main_v1) :=
    (congrArg (fun l => after l V (Proc.devRef .tc main_v1)) ops_eq0).trans (after_mid pre0 I_E post0 post0_writes V (by decide))
  have h0 : after pre0 V (Proc.devRef .tc main_arg1) = (V (Proc.devRef .tc main_arg1)) :=
    ((congrArg (fun l => after l V (Proc.devRef .tc main_arg1)) ops_eq0).trans (after_pre pre0 (I_E ++ post0) (writesIn_append I_E_writes post0_writes) V (by decide))).symm.trans (keep V main_arg1 (by decide) (by decide) (by decide) (by decide) (by decide) (by decide) (by decide))
  rw [hb, I_E_src, h0]

set_option maxRecDepth 16384 in
set_option maxHeartbeats 1000000 in
theorem read_I_E_dst (V : Valuation τ sig (Elt Ideal)) :
    after ops V (Proc.devRef .tc main_v3) = dstRow (V (Proc.devRef .tc main_arg1)) := by
  have hb : after ops V (Proc.devRef .tc main_v3) = after I_E (after pre0 V) (Proc.devRef .tc main_v3) :=
    (congrArg (fun l => after l V (Proc.devRef .tc main_v3)) ops_eq0).trans (after_mid pre0 I_E post0 post0_writes V (by decide))
  have h0 : after pre0 V (Proc.devRef .tc main_arg1) = (V (Proc.devRef .tc main_arg1)) :=
    ((congrArg (fun l => after l V (Proc.devRef .tc main_arg1)) ops_eq0).trans (after_pre pre0 (I_E ++ post0) (writesIn_append I_E_writes post0_writes) V (by decide))).symm.trans (keep V main_arg1 (by decide) (by decide) (by decide) (by decide) (by decide) (by decide) (by decide))
  rw [hb, I_E_dst, h0]

set_option maxRecDepth 16384 in
set_option maxHeartbeats 1000000 in
theorem read_I_I_x0 (V : Valuation τ sig (Elt Ideal)) :
    after ops V (Proc.devRef .tc main_v8) = linStage (V (Proc.devRef .tc main_arg0)) (V (Proc.devRef .tc main_arg3)) (V (Proc.devRef .tc main_arg4)) := by
  have hb : after ops V (Proc.devRef .tc main_v8) = after I_I (after pre1 V) (Proc.devRef .tc main_v8) :=
    (congrArg (fun l => after l V (Proc.devRef .tc main_v8)) ops_eq1).trans (after_mid pre1 I_I post1 post1_writes V (by decide))
  have h0 : after pre1 V (Proc.devRef .tc main_arg0) = (V (Proc.devRef .tc main_arg0)) :=
    ((congrArg (fun l => after l V (Proc.devRef .tc main_arg0)) ops_eq1).trans (after_pre pre1 (I_I ++ post1) (writesIn_append I_I_writes post1_writes) V (by decide))).symm.trans (keep V main_arg0 (by decide) (by decide) (by decide) (by decide) (by decide) (by decide) (by decide))
  have h1 : after pre1 V (Proc.devRef .tc main_arg3) = (V (Proc.devRef .tc main_arg3)) :=
    ((congrArg (fun l => after l V (Proc.devRef .tc main_arg3)) ops_eq1).trans (after_pre pre1 (I_I ++ post1) (writesIn_append I_I_writes post1_writes) V (by decide))).symm.trans (keep V main_arg3 (by decide) (by decide) (by decide) (by decide) (by decide) (by decide) (by decide))
  have h2 : after pre1 V (Proc.devRef .tc main_arg4) = (V (Proc.devRef .tc main_arg4)) :=
    ((congrArg (fun l => after l V (Proc.devRef .tc main_arg4)) ops_eq1).trans (after_pre pre1 (I_I ++ post1) (writesIn_append I_I_writes post1_writes) V (by decide))).symm.trans (keep V main_arg4 (by decide) (by decide) (by decide) (by decide) (by decide) (by decide) (by decide))
  rw [hb, I_I_x0, h0, h1, h2]

set_option maxRecDepth 16384 in
set_option maxHeartbeats 1000000 in
theorem read_L0_A_agg (V : Valuation τ sig (Elt Ideal)) :
    after ops V (Proc.devRef .tc main_v18) = aggOf (after ops V (Proc.devRef .tc main_v8)) (after ops V (Proc.devRef .tc main_v1)) (after ops V (Proc.devRef .tc main_v3)) := by
  have hb : after ops V (Proc.devRef .tc main_v18) = after L0_A (after pre2 V) (Proc.devRef .tc main_v18) :=
    (congrArg (fun l => after l V (Proc.devRef .tc main_v18)) ops_eq2).trans (after_mid pre2 L0_A post2 post2_writes V (by decide))
  have h0 : after pre2 V (Proc.devRef .tc main_v8) = (after ops V (Proc.devRef .tc main_v8)) :=
    ((congrArg (fun l => after l V (Proc.devRef .tc main_v8)) ops_eq2).trans (after_pre pre2 (L0_A ++ post2) (writesIn_append L0_A_writes post2_writes) V (by decide))).symm
  have h1 : after pre2 V (Proc.devRef .tc main_v1) = (after ops V (Proc.devRef .tc main_v1)) :=
    ((congrArg (fun l => after l V (Proc.devRef .tc main_v1)) ops_eq2).trans (after_pre pre2 (L0_A ++ post2) (writesIn_append L0_A_writes post2_writes) V (by decide))).symm
  have h2 : after pre2 V (Proc.devRef .tc main_v3) = (after ops V (Proc.devRef .tc main_v3)) :=
    ((congrArg (fun l => after l V (Proc.devRef .tc main_v3)) ops_eq2).trans (after_pre pre2 (L0_A ++ post2) (writesIn_append L0_A_writes post2_writes) V (by decide))).symm
  rw [hb, L0_A_agg, h0, h1, h2]

set_option maxRecDepth 16384 in
set_option maxHeartbeats 1000000 in
theorem read_L0_H_h (V : Valuation τ sig (Elt Ideal)) :
    after ops V (Proc.devRef .tc main_v19) = (addf ((after ops V (Proc.devRef .tc main_v8)) : TNode) (after ops V (Proc.devRef .tc main_v18)) : TNode) := by
  have hb : after ops V (Proc.devRef .tc main_v19) = after L0_H (after pre3 V) (Proc.devRef .tc main_v19) :=
    (congrArg (fun l => after l V (Proc.devRef .tc main_v19)) ops_eq3).trans (after_mid pre3 L0_H post3 post3_writes V (by decide))
  have h0 : after pre3 V (Proc.devRef .tc main_v8) = (after ops V (Proc.devRef .tc main_v8)) :=
    ((congrArg (fun l => after l V (Proc.devRef .tc main_v8)) ops_eq3).trans (after_pre pre3 (L0_H ++ post3) (writesIn_append L0_H_writes post3_writes) V (by decide))).symm
  have h1 : after pre3 V (Proc.devRef .tc main_v18) = (after ops V (Proc.devRef .tc main_v18)) :=
    ((congrArg (fun l => after l V (Proc.devRef .tc main_v18)) ops_eq3).trans (after_pre pre3 (L0_H ++ post3) (writesIn_append L0_H_writes post3_writes) V (by decide))).symm
  rw [hb, L0_H_h, h0, h1]

set_option maxRecDepth 16384 in
set_option maxHeartbeats 1000000 in
theorem read_L0_L1_y1 (V : Valuation τ sig (Elt Ideal)) :
    after ops V (Proc.devRef .tc main_v28) = linStage (after ops V (Proc.devRef .tc main_v19)) (matAt0 (V (Proc.devRef .tc main_arg5))) (rowAt0 (V (Proc.devRef .tc main_arg6))) := by
  have hb : after ops V (Proc.devRef .tc main_v28) = after L0_L1 (after pre4 V) (Proc.devRef .tc main_v28) :=
    (congrArg (fun l => after l V (Proc.devRef .tc main_v28)) ops_eq4).trans (after_mid pre4 L0_L1 post4 post4_writes V (by decide))
  have h0 : after pre4 V (Proc.devRef .tc main_v19) = (after ops V (Proc.devRef .tc main_v19)) :=
    ((congrArg (fun l => after l V (Proc.devRef .tc main_v19)) ops_eq4).trans (after_pre pre4 (L0_L1 ++ post4) (writesIn_append L0_L1_writes post4_writes) V (by decide))).symm
  have h1 : after pre4 V (Proc.devRef .tc main_arg5) = (V (Proc.devRef .tc main_arg5)) :=
    ((congrArg (fun l => after l V (Proc.devRef .tc main_arg5)) ops_eq4).trans (after_pre pre4 (L0_L1 ++ post4) (writesIn_append L0_L1_writes post4_writes) V (by decide))).symm.trans (keep V main_arg5 (by decide) (by decide) (by decide) (by decide) (by decide) (by decide) (by decide))
  have h2 : after pre4 V (Proc.devRef .tc main_arg6) = (V (Proc.devRef .tc main_arg6)) :=
    ((congrArg (fun l => after l V (Proc.devRef .tc main_arg6)) ops_eq4).trans (after_pre pre4 (L0_L1 ++ post4) (writesIn_append L0_L1_writes post4_writes) V (by decide))).symm.trans (keep V main_arg6 (by decide) (by decide) (by decide) (by decide) (by decide) (by decide) (by decide))
  rw [hb, L0_L1_y1, h0, h1, h2]

set_option maxRecDepth 16384 in
set_option maxHeartbeats 1000000 in
theorem read_L0_P1_g1 (V : Valuation τ sig (Elt Ideal)) :
    after ops V (Proc.devRef .tc main_v30) = rowAt0 (V (Proc.devRef .tc main_arg7)) := by
  have hb : after ops V (Proc.devRef .tc main_v30) = after L0_P1 (after pre5 V) (Proc.devRef .tc main_v30) :=
    (congrArg (fun l => after l V (Proc.devRef .tc main_v30)) ops_eq5).trans (after_mid pre5 L0_P1 post5 post5_writes V (by decide))
  have h0 : after pre5 V (Proc.devRef .tc main_arg7) = (V (Proc.devRef .tc main_arg7)) :=
    ((congrArg (fun l => after l V (Proc.devRef .tc main_arg7)) ops_eq5).trans (after_pre pre5 (L0_P1 ++ post5) (writesIn_append L0_P1_writes post5_writes) V (by decide))).symm.trans (keep V main_arg7 (by decide) (by decide) (by decide) (by decide) (by decide) (by decide) (by decide))
  rw [hb, L0_P1_g1, h0]

set_option maxRecDepth 16384 in
set_option maxHeartbeats 1000000 in
theorem read_L0_P1_be1 (V : Valuation τ sig (Elt Ideal)) :
    after ops V (Proc.devRef .tc main_v32) = rowAt0 (V (Proc.devRef .tc main_arg8)) := by
  have hb : after ops V (Proc.devRef .tc main_v32) = after L0_P1 (after pre5 V) (Proc.devRef .tc main_v32) :=
    (congrArg (fun l => after l V (Proc.devRef .tc main_v32)) ops_eq5).trans (after_mid pre5 L0_P1 post5 post5_writes V (by decide))
  have h0 : after pre5 V (Proc.devRef .tc main_arg8) = (V (Proc.devRef .tc main_arg8)) :=
    ((congrArg (fun l => after l V (Proc.devRef .tc main_arg8)) ops_eq5).trans (after_pre pre5 (L0_P1 ++ post5) (writesIn_append L0_P1_writes post5_writes) V (by decide))).symm.trans (keep V main_arg8 (by decide) (by decide) (by decide) (by decide) (by decide) (by decide) (by decide))
  rw [hb, L0_P1_be1, h0]

set_option maxRecDepth 16384 in
set_option maxHeartbeats 1000000 in
theorem read_L0_M1_sum1 (V : Valuation τ sig (Elt Ideal)) :
    after ops V (Proc.devRef .tc main_v33) = colSum (after ops V (Proc.devRef .tc main_v28)) := by
  have hb : after ops V (Proc.devRef .tc main_v33) = after L0_M1 (after pre6 V) (Proc.devRef .tc main_v33) :=
    (congrArg (fun l => after l V (Proc.devRef .tc main_v33)) ops_eq6).trans (after_mid pre6 L0_M1 post6 post6_writes V (by decide))
  have h0 : after pre6 V (Proc.devRef .tc main_v28) = (after ops V (Proc.devRef .tc main_v28)) :=
    ((congrArg (fun l => after l V (Proc.devRef .tc main_v28)) ops_eq6).trans (after_pre pre6 (L0_M1 ++ post6) (writesIn_append L0_M1_writes post6_writes) V (by decide))).symm
  rw [hb, L0_M1_sum1, h0]

set_option maxRecDepth 16384 in
set_option maxHeartbeats 1000000 in
theorem read_L0_M1_mean1 (V : Valuation τ sig (Elt Ideal)) :
    after ops V (Proc.devRef .tc main_v35) = meanStage (after ops V (Proc.devRef .tc main_v28)) := by
  have hb : after ops V (Proc.devRef .tc main_v35) = after L0_M1 (after pre6 V) (Proc.devRef .tc main_v35) :=
    (congrArg (fun l => after l V (Proc.devRef .tc main_v35)) ops_eq6).trans (after_mid pre6 L0_M1 post6 post6_writes V (by decide))
  have h0 : after pre6 V (Proc.devRef .tc main_v28) = (after ops V (Proc.devRef .tc main_v28)) :=
    ((congrArg (fun l => after l V (Proc.devRef .tc main_v28)) ops_eq6).trans (after_pre pre6 (L0_M1 ++ post6) (writesIn_append L0_M1_writes post6_writes) V (by decide))).symm
  rw [hb, L0_M1_mean1, h0]

set_option maxRecDepth 16384 in
set_option maxHeartbeats 1000000 in
theorem read_L0_V1_var1 (V : Valuation τ sig (Elt Ideal)) :
    after ops V (Proc.devRef .tc main_v36) = varStage (after ops V (Proc.devRef .tc main_v28)) := by
  have hb : after ops V (Proc.devRef .tc main_v36) = after L0_V1 (after pre7 V) (Proc.devRef .tc main_v36) :=
    (congrArg (fun l => after l V (Proc.devRef .tc main_v36)) ops_eq7).trans (after_mid pre7 L0_V1 post7 post7_writes V (by decide))
  have h0 : after pre7 V (Proc.devRef .tc main_v28) = (after ops V (Proc.devRef .tc main_v28)) :=
    ((congrArg (fun l => after l V (Proc.devRef .tc main_v28)) ops_eq7).trans (after_pre pre7 (L0_V1 ++ post7) (writesIn_append L0_V1_writes post7_writes) V (by decide))).symm
  rw [hb, L0_V1_var1, h0]

set_option maxRecDepth 16384 in
set_option maxHeartbeats 1000000 in
theorem read_L0_B1_bn1 (V : Valuation τ sig (Elt Ideal)) :
    after ops V (Proc.devRef .tc main_v51) = bnOf (after ops V (Proc.devRef .tc main_v28)) (after ops V (Proc.devRef .tc main_v35)) (after ops V (Proc.devRef .tc main_v36)) (after ops V (Proc.devRef .tc main_v30)) (after ops V (Proc.devRef .tc main_v32)) := by
  have hb : after ops V (Proc.devRef .tc main_v51) = after L0_B1 (after pre8 V) (Proc.devRef .tc main_v51) :=
    (congrArg (fun l => after l V (Proc.devRef .tc main_v51)) ops_eq8).trans (after_mid pre8 L0_B1 post8 post8_writes V (by decide))
  have h0 : after pre8 V (Proc.devRef .tc main_v28) = (after ops V (Proc.devRef .tc main_v28)) :=
    ((congrArg (fun l => after l V (Proc.devRef .tc main_v28)) ops_eq8).trans (after_pre pre8 (L0_B1 ++ post8) (writesIn_append L0_B1_writes post8_writes) V (by decide))).symm
  have h1 : after pre8 V (Proc.devRef .tc main_v35) = (after ops V (Proc.devRef .tc main_v35)) :=
    ((congrArg (fun l => after l V (Proc.devRef .tc main_v35)) ops_eq8).trans (after_pre pre8 (L0_B1 ++ post8) (writesIn_append L0_B1_writes post8_writes) V (by decide))).symm
  have h2 : after pre8 V (Proc.devRef .tc main_v36) = (after ops V (Proc.devRef .tc main_v36)) :=
    ((congrArg (fun l => after l V (Proc.devRef .tc main_v36)) ops_eq8).trans (after_pre pre8 (L0_B1 ++ post8) (writesIn_append L0_B1_writes post8_writes) V (by decide))).symm
  have h3 : after pre8 V (Proc.devRef .tc main_v30) = (after ops V (Proc.devRef .tc main_v30)) :=
    ((congrArg (fun l => after l V (Proc.devRef .tc main_v30)) ops_eq8).trans (after_pre pre8 (L0_B1 ++ post8) (writesIn_append L0_B1_writes post8_writes) V (by decide))).symm
  have h4 : after pre8 V (Proc.devRef .tc main_v32) = (after ops V (Proc.devRef .tc main_v32)) :=
    ((congrArg (fun l => after l V (Proc.devRef .tc main_v32)) ops_eq8).trans (after_pre pre8 (L0_B1 ++ post8) (writesIn_append L0_B1_writes post8_writes) V (by decide))).symm
  rw [hb, L0_B1_bn1, h0, h1, h2, h3, h4]

set_option maxRecDepth 16384 in
set_option maxHeartbeats 1000000 in
theorem read_L0_R1_z (V : Valuation τ sig (Elt Ideal)) :
    after ops V (Proc.devRef .tc main_v52) = reluStage (after ops V (Proc.devRef .tc main_v51)) := by
  have hb : after ops V (Proc.devRef .tc main_v52) = after L0_R1 (after pre9 V) (Proc.devRef .tc main_v52) :=
    (congrArg (fun l => after l V (Proc.devRef .tc main_v52)) ops_eq9).trans (after_mid pre9 L0_R1 post9 post9_writes V (by decide))
  have h0 : after pre9 V (Proc.devRef .tc main_v51) = (after ops V (Proc.devRef .tc main_v51)) :=
    ((congrArg (fun l => after l V (Proc.devRef .tc main_v51)) ops_eq9).trans (after_pre pre9 (L0_R1 ++ post9) (writesIn_append L0_R1_writes post9_writes) V (by decide))).symm
  rw [hb, L0_R1_z, h0]

set_option maxRecDepth 16384 in
set_option maxHeartbeats 1000000 in
theorem read_L0_L2_y2 (V : Valuation τ sig (Elt Ideal)) :
    after ops V (Proc.devRef .tc main_v61) = linStage (after ops V (Proc.devRef .tc main_v52)) (matAt0 (V (Proc.devRef .tc main_arg9))) (rowAt0 (V (Proc.devRef .tc main_arg10))) := by
  have hb : after ops V (Proc.devRef .tc main_v61) = after L0_L2 (after pre10 V) (Proc.devRef .tc main_v61) :=
    (congrArg (fun l => after l V (Proc.devRef .tc main_v61)) ops_eq10).trans (after_mid pre10 L0_L2 post10 post10_writes V (by decide))
  have h0 : after pre10 V (Proc.devRef .tc main_v52) = (after ops V (Proc.devRef .tc main_v52)) :=
    ((congrArg (fun l => after l V (Proc.devRef .tc main_v52)) ops_eq10).trans (after_pre pre10 (L0_L2 ++ post10) (writesIn_append L0_L2_writes post10_writes) V (by decide))).symm
  have h1 : after pre10 V (Proc.devRef .tc main_arg9) = (V (Proc.devRef .tc main_arg9)) :=
    ((congrArg (fun l => after l V (Proc.devRef .tc main_arg9)) ops_eq10).trans (after_pre pre10 (L0_L2 ++ post10) (writesIn_append L0_L2_writes post10_writes) V (by decide))).symm.trans (keep V main_arg9 (by decide) (by decide) (by decide) (by decide) (by decide) (by decide) (by decide))
  have h2 : after pre10 V (Proc.devRef .tc main_arg10) = (V (Proc.devRef .tc main_arg10)) :=
    ((congrArg (fun l => after l V (Proc.devRef .tc main_arg10)) ops_eq10).trans (after_pre pre10 (L0_L2 ++ post10) (writesIn_append L0_L2_writes post10_writes) V (by decide))).symm.trans (keep V main_arg10 (by decide) (by decide) (by decide) (by decide) (by decide) (by decide) (by decide))
  rw [hb, L0_L2_y2, h0, h1, h2]

set_option maxRecDepth 16384 in
set_option maxHeartbeats 1000000 in
theorem read_L0_P2_g2 (V : Valuation τ sig (Elt Ideal)) :
    after ops V (Proc.devRef .tc main_v63) = rowAt0 (V (Proc.devRef .tc main_arg11)) := by
  have hb : after ops V (Proc.devRef .tc main_v63) = after L0_P2 (after pre11 V) (Proc.devRef .tc main_v63) :=
    (congrArg (fun l => after l V (Proc.devRef .tc main_v63)) ops_eq11).trans (after_mid pre11 L0_P2 post11 post11_writes V (by decide))
  have h0 : after pre11 V (Proc.devRef .tc main_arg11) = (V (Proc.devRef .tc main_arg11)) :=
    ((congrArg (fun l => after l V (Proc.devRef .tc main_arg11)) ops_eq11).trans (after_pre pre11 (L0_P2 ++ post11) (writesIn_append L0_P2_writes post11_writes) V (by decide))).symm.trans (keep V main_arg11 (by decide) (by decide) (by decide) (by decide) (by decide) (by decide) (by decide))
  rw [hb, L0_P2_g2, h0]

set_option maxRecDepth 16384 in
set_option maxHeartbeats 1000000 in
theorem read_L0_P2_be2 (V : Valuation τ sig (Elt Ideal)) :
    after ops V (Proc.devRef .tc main_v65) = rowAt0 (V (Proc.devRef .tc main_arg12)) := by
  have hb : after ops V (Proc.devRef .tc main_v65) = after L0_P2 (after pre11 V) (Proc.devRef .tc main_v65) :=
    (congrArg (fun l => after l V (Proc.devRef .tc main_v65)) ops_eq11).trans (after_mid pre11 L0_P2 post11 post11_writes V (by decide))
  have h0 : after pre11 V (Proc.devRef .tc main_arg12) = (V (Proc.devRef .tc main_arg12)) :=
    ((congrArg (fun l => after l V (Proc.devRef .tc main_arg12)) ops_eq11).trans (after_pre pre11 (L0_P2 ++ post11) (writesIn_append L0_P2_writes post11_writes) V (by decide))).symm.trans (keep V main_arg12 (by decide) (by decide) (by decide) (by decide) (by decide) (by decide) (by decide))
  rw [hb, L0_P2_be2, h0]

set_option maxRecDepth 16384 in
set_option maxHeartbeats 1000000 in
theorem read_L0_M2_sum2 (V : Valuation τ sig (Elt Ideal)) :
    after ops V (Proc.devRef .tc main_v66) = colSum (after ops V (Proc.devRef .tc main_v61)) := by
  have hb : after ops V (Proc.devRef .tc main_v66) = after L0_M2 (after pre12 V) (Proc.devRef .tc main_v66) :=
    (congrArg (fun l => after l V (Proc.devRef .tc main_v66)) ops_eq12).trans (after_mid pre12 L0_M2 post12 post12_writes V (by decide))
  have h0 : after pre12 V (Proc.devRef .tc main_v61) = (after ops V (Proc.devRef .tc main_v61)) :=
    ((congrArg (fun l => after l V (Proc.devRef .tc main_v61)) ops_eq12).trans (after_pre pre12 (L0_M2 ++ post12) (writesIn_append L0_M2_writes post12_writes) V (by decide))).symm
  rw [hb, L0_M2_sum2, h0]

set_option maxRecDepth 16384 in
set_option maxHeartbeats 1000000 in
theorem read_L0_M2_mean2 (V : Valuation τ sig (Elt Ideal)) :
    after ops V (Proc.devRef .tc main_v68) = meanStage (after ops V (Proc.devRef .tc main_v61)) := by
  have hb : after ops V (Proc.devRef .tc main_v68) = after L0_M2 (after pre12 V) (Proc.devRef .tc main_v68) :=
    (congrArg (fun l => after l V (Proc.devRef .tc main_v68)) ops_eq12).trans (after_mid pre12 L0_M2 post12 post12_writes V (by decide))
  have h0 : after pre12 V (Proc.devRef .tc main_v61) = (after ops V (Proc.devRef .tc main_v61)) :=
    ((congrArg (fun l => after l V (Proc.devRef .tc main_v61)) ops_eq12).trans (after_pre pre12 (L0_M2 ++ post12) (writesIn_append L0_M2_writes post12_writes) V (by decide))).symm
  rw [hb, L0_M2_mean2, h0]

set_option maxRecDepth 16384 in
set_option maxHeartbeats 1000000 in
theorem read_L0_V2_var2 (V : Valuation τ sig (Elt Ideal)) :
    after ops V (Proc.devRef .tc main_v69) = varStage (after ops V (Proc.devRef .tc main_v61)) := by
  have hb : after ops V (Proc.devRef .tc main_v69) = after L0_V2 (after pre13 V) (Proc.devRef .tc main_v69) :=
    (congrArg (fun l => after l V (Proc.devRef .tc main_v69)) ops_eq13).trans (after_mid pre13 L0_V2 post13 post13_writes V (by decide))
  have h0 : after pre13 V (Proc.devRef .tc main_v61) = (after ops V (Proc.devRef .tc main_v61)) :=
    ((congrArg (fun l => after l V (Proc.devRef .tc main_v61)) ops_eq13).trans (after_pre pre13 (L0_V2 ++ post13) (writesIn_append L0_V2_writes post13_writes) V (by decide))).symm
  rw [hb, L0_V2_var2, h0]

set_option maxRecDepth 16384 in
set_option maxHeartbeats 1000000 in
theorem read_L0_B2_bn2 (V : Valuation τ sig (Elt Ideal)) :
    after ops V (Proc.devRef .tc main_v84) = bnOf (after ops V (Proc.devRef .tc main_v61)) (after ops V (Proc.devRef .tc main_v68)) (after ops V (Proc.devRef .tc main_v69)) (after ops V (Proc.devRef .tc main_v63)) (after ops V (Proc.devRef .tc main_v65)) := by
  have hb : after ops V (Proc.devRef .tc main_v84) = after L0_B2 (after pre14 V) (Proc.devRef .tc main_v84) :=
    (congrArg (fun l => after l V (Proc.devRef .tc main_v84)) ops_eq14).trans (after_mid pre14 L0_B2 post14 post14_writes V (by decide))
  have h0 : after pre14 V (Proc.devRef .tc main_v61) = (after ops V (Proc.devRef .tc main_v61)) :=
    ((congrArg (fun l => after l V (Proc.devRef .tc main_v61)) ops_eq14).trans (after_pre pre14 (L0_B2 ++ post14) (writesIn_append L0_B2_writes post14_writes) V (by decide))).symm
  have h1 : after pre14 V (Proc.devRef .tc main_v68) = (after ops V (Proc.devRef .tc main_v68)) :=
    ((congrArg (fun l => after l V (Proc.devRef .tc main_v68)) ops_eq14).trans (after_pre pre14 (L0_B2 ++ post14) (writesIn_append L0_B2_writes post14_writes) V (by decide))).symm
  have h2 : after pre14 V (Proc.devRef .tc main_v69) = (after ops V (Proc.devRef .tc main_v69)) :=
    ((congrArg (fun l => after l V (Proc.devRef .tc main_v69)) ops_eq14).trans (after_pre pre14 (L0_B2 ++ post14) (writesIn_append L0_B2_writes post14_writes) V (by decide))).symm
  have h3 : after pre14 V (Proc.devRef .tc main_v63) = (after ops V (Proc.devRef .tc main_v63)) :=
    ((congrArg (fun l => after l V (Proc.devRef .tc main_v63)) ops_eq14).trans (after_pre pre14 (L0_B2 ++ post14) (writesIn_append L0_B2_writes post14_writes) V (by decide))).symm
  have h4 : after pre14 V (Proc.devRef .tc main_v65) = (after ops V (Proc.devRef .tc main_v65)) :=
    ((congrArg (fun l => after l V (Proc.devRef .tc main_v65)) ops_eq14).trans (after_pre pre14 (L0_B2 ++ post14) (writesIn_append L0_B2_writes post14_writes) V (by decide))).symm
  rw [hb, L0_B2_bn2, h0, h1, h2, h3, h4]

set_option maxRecDepth 16384 in
set_option maxHeartbeats 1000000 in
theorem read_L0_R2_out (V : Valuation τ sig (Elt Ideal)) :
    after ops V (Proc.devRef .tc main_v85) = reluStage (after ops V (Proc.devRef .tc main_v84)) := by
  have hb : after ops V (Proc.devRef .tc main_v85) = after L0_R2 (after pre15 V) (Proc.devRef .tc main_v85) :=
    (congrArg (fun l => after l V (Proc.devRef .tc main_v85)) ops_eq15).trans (after_mid pre15 L0_R2 post15 post15_writes V (by decide))
  have h0 : after pre15 V (Proc.devRef .tc main_v84) = (after ops V (Proc.devRef .tc main_v84)) :=
    ((congrArg (fun l => after l V (Proc.devRef .tc main_v84)) ops_eq15).trans (after_pre pre15 (L0_R2 ++ post15) (writesIn_append L0_R2_writes post15_writes) V (by decide))).symm
  rw [hb, L0_R2_out, h0]

set_option maxRecDepth 16384 in
set_option maxHeartbeats 1000000 in
theorem read_L0_R3_out2 (V : Valuation τ sig (Elt Ideal)) :
    after ops V (Proc.devRef .tc main_v86) = reluStage (after ops V (Proc.devRef .tc main_v85)) := by
  have hb : after ops V (Proc.devRef .tc main_v86) = after L0_R3 (after pre16 V) (Proc.devRef .tc main_v86) :=
    (congrArg (fun l => after l V (Proc.devRef .tc main_v86)) ops_eq16).trans (after_mid pre16 L0_R3 post16 post16_writes V (by decide))
  have h0 : after pre16 V (Proc.devRef .tc main_v85) = (after ops V (Proc.devRef .tc main_v85)) :=
    ((congrArg (fun l => after l V (Proc.devRef .tc main_v85)) ops_eq16).trans (after_pre pre16 (L0_R3 ++ post16) (writesIn_append L0_R3_writes post16_writes) V (by decide))).symm
  rw [hb, L0_R3_out2, h0]

set_option maxRecDepth 16384 in
set_option maxHeartbeats 1000000 in
theorem read_L1_A_agg (V : Valuation τ sig (Elt Ideal)) :
    after ops V (Proc.devRef .tc main_v96) = aggOf (after ops V (Proc.devRef .tc main_v86)) (after ops V (Proc.devRef .tc main_v1)) (after ops V (Proc.devRef .tc main_v3)) := by
  have hb : after ops V (Proc.devRef .tc main_v96) = after L1_A (after pre17 V) (Proc.devRef .tc main_v96) :=
    (congrArg (fun l => after l V (Proc.devRef .tc main_v96)) ops_eq17).trans (after_mid pre17 L1_A post17 post17_writes V (by decide))
  have h0 : after pre17 V (Proc.devRef .tc main_v86) = (after ops V (Proc.devRef .tc main_v86)) :=
    ((congrArg (fun l => after l V (Proc.devRef .tc main_v86)) ops_eq17).trans (after_pre pre17 (L1_A ++ post17) (writesIn_append L1_A_writes post17_writes) V (by decide))).symm
  have h1 : after pre17 V (Proc.devRef .tc main_v1) = (after ops V (Proc.devRef .tc main_v1)) :=
    ((congrArg (fun l => after l V (Proc.devRef .tc main_v1)) ops_eq17).trans (after_pre pre17 (L1_A ++ post17) (writesIn_append L1_A_writes post17_writes) V (by decide))).symm
  have h2 : after pre17 V (Proc.devRef .tc main_v3) = (after ops V (Proc.devRef .tc main_v3)) :=
    ((congrArg (fun l => after l V (Proc.devRef .tc main_v3)) ops_eq17).trans (after_pre pre17 (L1_A ++ post17) (writesIn_append L1_A_writes post17_writes) V (by decide))).symm
  rw [hb, L1_A_agg, h0, h1, h2]

set_option maxRecDepth 16384 in
set_option maxHeartbeats 1000000 in
theorem read_L1_H_h (V : Valuation τ sig (Elt Ideal)) :
    after ops V (Proc.devRef .tc main_v97) = (addf ((after ops V (Proc.devRef .tc main_v86)) : TNode) (after ops V (Proc.devRef .tc main_v96)) : TNode) := by
  have hb : after ops V (Proc.devRef .tc main_v97) = after L1_H (after pre18 V) (Proc.devRef .tc main_v97) :=
    (congrArg (fun l => after l V (Proc.devRef .tc main_v97)) ops_eq18).trans (after_mid pre18 L1_H post18 post18_writes V (by decide))
  have h0 : after pre18 V (Proc.devRef .tc main_v86) = (after ops V (Proc.devRef .tc main_v86)) :=
    ((congrArg (fun l => after l V (Proc.devRef .tc main_v86)) ops_eq18).trans (after_pre pre18 (L1_H ++ post18) (writesIn_append L1_H_writes post18_writes) V (by decide))).symm
  have h1 : after pre18 V (Proc.devRef .tc main_v96) = (after ops V (Proc.devRef .tc main_v96)) :=
    ((congrArg (fun l => after l V (Proc.devRef .tc main_v96)) ops_eq18).trans (after_pre pre18 (L1_H ++ post18) (writesIn_append L1_H_writes post18_writes) V (by decide))).symm
  rw [hb, L1_H_h, h0, h1]

set_option maxRecDepth 16384 in
set_option maxHeartbeats 1000000 in
theorem read_L1_L1_y1 (V : Valuation τ sig (Elt Ideal)) :
    after ops V (Proc.devRef .tc main_v106) = linStage (after ops V (Proc.devRef .tc main_v97)) (matAt1 (V (Proc.devRef .tc main_arg5))) (rowAt1 (V (Proc.devRef .tc main_arg6))) := by
  have hb : after ops V (Proc.devRef .tc main_v106) = after L1_L1 (after pre19 V) (Proc.devRef .tc main_v106) :=
    (congrArg (fun l => after l V (Proc.devRef .tc main_v106)) ops_eq19).trans (after_mid pre19 L1_L1 post19 post19_writes V (by decide))
  have h0 : after pre19 V (Proc.devRef .tc main_v97) = (after ops V (Proc.devRef .tc main_v97)) :=
    ((congrArg (fun l => after l V (Proc.devRef .tc main_v97)) ops_eq19).trans (after_pre pre19 (L1_L1 ++ post19) (writesIn_append L1_L1_writes post19_writes) V (by decide))).symm
  have h1 : after pre19 V (Proc.devRef .tc main_arg5) = (V (Proc.devRef .tc main_arg5)) :=
    ((congrArg (fun l => after l V (Proc.devRef .tc main_arg5)) ops_eq19).trans (after_pre pre19 (L1_L1 ++ post19) (writesIn_append L1_L1_writes post19_writes) V (by decide))).symm.trans (keep V main_arg5 (by decide) (by decide) (by decide) (by decide) (by decide) (by decide) (by decide))
  have h2 : after pre19 V (Proc.devRef .tc main_arg6) = (V (Proc.devRef .tc main_arg6)) :=
    ((congrArg (fun l => after l V (Proc.devRef .tc main_arg6)) ops_eq19).trans (after_pre pre19 (L1_L1 ++ post19) (writesIn_append L1_L1_writes post19_writes) V (by decide))).symm.trans (keep V main_arg6 (by decide) (by decide) (by decide) (by decide) (by decide) (by decide) (by decide))
  rw [hb, L1_L1_y1, h0, h1, h2]

set_option maxRecDepth 16384 in
set_option maxHeartbeats 1000000 in
theorem read_L1_P1_g1 (V : Valuation τ sig (Elt Ideal)) :
    after ops V (Proc.devRef .tc main_v108) = rowAt1 (V (Proc.devRef .tc main_arg7)) := by
  have hb : after ops V (Proc.devRef .tc main_v108) = after L1_P1 (after pre20 V) (Proc.devRef .tc main_v108) :=
    (congrArg (fun l => after l V (Proc.devRef .tc main_v108)) ops_eq20).trans (after_mid pre20 L1_P1 post20 post20_writes V (by decide))
  have h0 : after pre20 V (Proc.devRef .tc main_arg7) = (V (Proc.devRef .tc main_arg7)) :=
    ((congrArg (fun l => after l V (Proc.devRef .tc main_arg7)) ops_eq20).trans (after_pre pre20 (L1_P1 ++ post20) (writesIn_append L1_P1_writes post20_writes) V (by decide))).symm.trans (keep V main_arg7 (by decide) (by decide) (by decide) (by decide) (by decide) (by decide) (by decide))
  rw [hb, L1_P1_g1, h0]

set_option maxRecDepth 16384 in
set_option maxHeartbeats 1000000 in
theorem read_L1_P1_be1 (V : Valuation τ sig (Elt Ideal)) :
    after ops V (Proc.devRef .tc main_v110) = rowAt1 (V (Proc.devRef .tc main_arg8)) := by
  have hb : after ops V (Proc.devRef .tc main_v110) = after L1_P1 (after pre20 V) (Proc.devRef .tc main_v110) :=
    (congrArg (fun l => after l V (Proc.devRef .tc main_v110)) ops_eq20).trans (after_mid pre20 L1_P1 post20 post20_writes V (by decide))
  have h0 : after pre20 V (Proc.devRef .tc main_arg8) = (V (Proc.devRef .tc main_arg8)) :=
    ((congrArg (fun l => after l V (Proc.devRef .tc main_arg8)) ops_eq20).trans (after_pre pre20 (L1_P1 ++ post20) (writesIn_append L1_P1_writes post20_writes) V (by decide))).symm.trans (keep V main_arg8 (by decide) (by decide) (by decide) (by decide) (by decide) (by decide) (by decide))
  rw [hb, L1_P1_be1, h0]

set_option maxRecDepth 16384 in
set_option maxHeartbeats 1000000 in
theorem read_L1_M1_sum1 (V : Valuation τ sig (Elt Ideal)) :
    after ops V (Proc.devRef .tc main_v111) = colSum (after ops V (Proc.devRef .tc main_v106)) := by
  have hb : after ops V (Proc.devRef .tc main_v111) = after L1_M1 (after pre21 V) (Proc.devRef .tc main_v111) :=
    (congrArg (fun l => after l V (Proc.devRef .tc main_v111)) ops_eq21).trans (after_mid pre21 L1_M1 post21 post21_writes V (by decide))
  have h0 : after pre21 V (Proc.devRef .tc main_v106) = (after ops V (Proc.devRef .tc main_v106)) :=
    ((congrArg (fun l => after l V (Proc.devRef .tc main_v106)) ops_eq21).trans (after_pre pre21 (L1_M1 ++ post21) (writesIn_append L1_M1_writes post21_writes) V (by decide))).symm
  rw [hb, L1_M1_sum1, h0]

set_option maxRecDepth 16384 in
set_option maxHeartbeats 1000000 in
theorem read_L1_M1_mean1 (V : Valuation τ sig (Elt Ideal)) :
    after ops V (Proc.devRef .tc main_v113) = meanStage (after ops V (Proc.devRef .tc main_v106)) := by
  have hb : after ops V (Proc.devRef .tc main_v113) = after L1_M1 (after pre21 V) (Proc.devRef .tc main_v113) :=
    (congrArg (fun l => after l V (Proc.devRef .tc main_v113)) ops_eq21).trans (after_mid pre21 L1_M1 post21 post21_writes V (by decide))
  have h0 : after pre21 V (Proc.devRef .tc main_v106) = (after ops V (Proc.devRef .tc main_v106)) :=
    ((congrArg (fun l => after l V (Proc.devRef .tc main_v106)) ops_eq21).trans (after_pre pre21 (L1_M1 ++ post21) (writesIn_append L1_M1_writes post21_writes) V (by decide))).symm
  rw [hb, L1_M1_mean1, h0]

set_option maxRecDepth 16384 in
set_option maxHeartbeats 1000000 in
theorem read_L1_V1_var1 (V : Valuation τ sig (Elt Ideal)) :
    after ops V (Proc.devRef .tc main_v114) = varStage (after ops V (Proc.devRef .tc main_v106)) := by
  have hb : after ops V (Proc.devRef .tc main_v114) = after L1_V1 (after pre22 V) (Proc.devRef .tc main_v114) :=
    (congrArg (fun l => after l V (Proc.devRef .tc main_v114)) ops_eq22).trans (after_mid pre22 L1_V1 post22 post22_writes V (by decide))
  have h0 : after pre22 V (Proc.devRef .tc main_v106) = (after ops V (Proc.devRef .tc main_v106)) :=
    ((congrArg (fun l => after l V (Proc.devRef .tc main_v106)) ops_eq22).trans (after_pre pre22 (L1_V1 ++ post22) (writesIn_append L1_V1_writes post22_writes) V (by decide))).symm
  rw [hb, L1_V1_var1, h0]

set_option maxRecDepth 16384 in
set_option maxHeartbeats 1000000 in
theorem read_L1_B1_bn1 (V : Valuation τ sig (Elt Ideal)) :
    after ops V (Proc.devRef .tc main_v129) = bnOf (after ops V (Proc.devRef .tc main_v106)) (after ops V (Proc.devRef .tc main_v113)) (after ops V (Proc.devRef .tc main_v114)) (after ops V (Proc.devRef .tc main_v108)) (after ops V (Proc.devRef .tc main_v110)) := by
  have hb : after ops V (Proc.devRef .tc main_v129) = after L1_B1 (after pre23 V) (Proc.devRef .tc main_v129) :=
    (congrArg (fun l => after l V (Proc.devRef .tc main_v129)) ops_eq23).trans (after_mid pre23 L1_B1 post23 post23_writes V (by decide))
  have h0 : after pre23 V (Proc.devRef .tc main_v106) = (after ops V (Proc.devRef .tc main_v106)) :=
    ((congrArg (fun l => after l V (Proc.devRef .tc main_v106)) ops_eq23).trans (after_pre pre23 (L1_B1 ++ post23) (writesIn_append L1_B1_writes post23_writes) V (by decide))).symm
  have h1 : after pre23 V (Proc.devRef .tc main_v113) = (after ops V (Proc.devRef .tc main_v113)) :=
    ((congrArg (fun l => after l V (Proc.devRef .tc main_v113)) ops_eq23).trans (after_pre pre23 (L1_B1 ++ post23) (writesIn_append L1_B1_writes post23_writes) V (by decide))).symm
  have h2 : after pre23 V (Proc.devRef .tc main_v114) = (after ops V (Proc.devRef .tc main_v114)) :=
    ((congrArg (fun l => after l V (Proc.devRef .tc main_v114)) ops_eq23).trans (after_pre pre23 (L1_B1 ++ post23) (writesIn_append L1_B1_writes post23_writes) V (by decide))).symm
  have h3 : after pre23 V (Proc.devRef .tc main_v108) = (after ops V (Proc.devRef .tc main_v108)) :=
    ((congrArg (fun l => after l V (Proc.devRef .tc main_v108)) ops_eq23).trans (after_pre pre23 (L1_B1 ++ post23) (writesIn_append L1_B1_writes post23_writes) V (by decide))).symm
  have h4 : after pre23 V (Proc.devRef .tc main_v110) = (after ops V (Proc.devRef .tc main_v110)) :=
    ((congrArg (fun l => after l V (Proc.devRef .tc main_v110)) ops_eq23).trans (after_pre pre23 (L1_B1 ++ post23) (writesIn_append L1_B1_writes post23_writes) V (by decide))).symm
  rw [hb, L1_B1_bn1, h0, h1, h2, h3, h4]

set_option maxRecDepth 16384 in
set_option maxHeartbeats 1000000 in
theorem read_L1_R1_z (V : Valuation τ sig (Elt Ideal)) :
    after ops V (Proc.devRef .tc main_v130) = reluStage (after ops V (Proc.devRef .tc main_v129)) := by
  have hb : after ops V (Proc.devRef .tc main_v130) = after L1_R1 (after pre24 V) (Proc.devRef .tc main_v130) :=
    (congrArg (fun l => after l V (Proc.devRef .tc main_v130)) ops_eq24).trans (after_mid pre24 L1_R1 post24 post24_writes V (by decide))
  have h0 : after pre24 V (Proc.devRef .tc main_v129) = (after ops V (Proc.devRef .tc main_v129)) :=
    ((congrArg (fun l => after l V (Proc.devRef .tc main_v129)) ops_eq24).trans (after_pre pre24 (L1_R1 ++ post24) (writesIn_append L1_R1_writes post24_writes) V (by decide))).symm
  rw [hb, L1_R1_z, h0]

set_option maxRecDepth 16384 in
set_option maxHeartbeats 1000000 in
theorem read_L1_L2_y2 (V : Valuation τ sig (Elt Ideal)) :
    after ops V (Proc.devRef .tc main_v139) = linStage (after ops V (Proc.devRef .tc main_v130)) (matAt1 (V (Proc.devRef .tc main_arg9))) (rowAt1 (V (Proc.devRef .tc main_arg10))) := by
  have hb : after ops V (Proc.devRef .tc main_v139) = after L1_L2 (after pre25 V) (Proc.devRef .tc main_v139) :=
    (congrArg (fun l => after l V (Proc.devRef .tc main_v139)) ops_eq25).trans (after_mid pre25 L1_L2 post25 post25_writes V (by decide))
  have h0 : after pre25 V (Proc.devRef .tc main_v130) = (after ops V (Proc.devRef .tc main_v130)) :=
    ((congrArg (fun l => after l V (Proc.devRef .tc main_v130)) ops_eq25).trans (after_pre pre25 (L1_L2 ++ post25) (writesIn_append L1_L2_writes post25_writes) V (by decide))).symm
  have h1 : after pre25 V (Proc.devRef .tc main_arg9) = (V (Proc.devRef .tc main_arg9)) :=
    ((congrArg (fun l => after l V (Proc.devRef .tc main_arg9)) ops_eq25).trans (after_pre pre25 (L1_L2 ++ post25) (writesIn_append L1_L2_writes post25_writes) V (by decide))).symm.trans (keep V main_arg9 (by decide) (by decide) (by decide) (by decide) (by decide) (by decide) (by decide))
  have h2 : after pre25 V (Proc.devRef .tc main_arg10) = (V (Proc.devRef .tc main_arg10)) :=
    ((congrArg (fun l => after l V (Proc.devRef .tc main_arg10)) ops_eq25).trans (after_pre pre25 (L1_L2 ++ post25) (writesIn_append L1_L2_writes post25_writes) V (by decide))).symm.trans (keep V main_arg10 (by decide) (by decide) (by decide) (by decide) (by decide) (by decide) (by decide))
  rw [hb, L1_L2_y2, h0, h1, h2]

set_option maxRecDepth 16384 in
set_option maxHeartbeats 1000000 in
theorem read_L1_P2_g2 (V : Valuation τ sig (Elt Ideal)) :
    after ops V (Proc.devRef .tc main_v141) = rowAt1 (V (Proc.devRef .tc main_arg11)) := by
  have hb : after ops V (Proc.devRef .tc main_v141) = after L1_P2 (after pre26 V) (Proc.devRef .tc main_v141) :=
    (congrArg (fun l => after l V (Proc.devRef .tc main_v141)) ops_eq26).trans (after_mid pre26 L1_P2 post26 post26_writes V (by decide))
  have h0 : after pre26 V (Proc.devRef .tc main_arg11) = (V (Proc.devRef .tc main_arg11)) :=
    ((congrArg (fun l => after l V (Proc.devRef .tc main_arg11)) ops_eq26).trans (after_pre pre26 (L1_P2 ++ post26) (writesIn_append L1_P2_writes post26_writes) V (by decide))).symm.trans (keep V main_arg11 (by decide) (by decide) (by decide) (by decide) (by decide) (by decide) (by decide))
  rw [hb, L1_P2_g2, h0]

set_option maxRecDepth 16384 in
set_option maxHeartbeats 1000000 in
theorem read_L1_P2_be2 (V : Valuation τ sig (Elt Ideal)) :
    after ops V (Proc.devRef .tc main_v143) = rowAt1 (V (Proc.devRef .tc main_arg12)) := by
  have hb : after ops V (Proc.devRef .tc main_v143) = after L1_P2 (after pre26 V) (Proc.devRef .tc main_v143) :=
    (congrArg (fun l => after l V (Proc.devRef .tc main_v143)) ops_eq26).trans (after_mid pre26 L1_P2 post26 post26_writes V (by decide))
  have h0 : after pre26 V (Proc.devRef .tc main_arg12) = (V (Proc.devRef .tc main_arg12)) :=
    ((congrArg (fun l => after l V (Proc.devRef .tc main_arg12)) ops_eq26).trans (after_pre pre26 (L1_P2 ++ post26) (writesIn_append L1_P2_writes post26_writes) V (by decide))).symm.trans (keep V main_arg12 (by decide) (by decide) (by decide) (by decide) (by decide) (by decide) (by decide))
  rw [hb, L1_P2_be2, h0]

set_option maxRecDepth 16384 in
set_option maxHeartbeats 1000000 in
theorem read_L1_M2_sum2 (V : Valuation τ sig (Elt Ideal)) :
    after ops V (Proc.devRef .tc main_v144) = colSum (after ops V (Proc.devRef .tc main_v139)) := by
  have hb : after ops V (Proc.devRef .tc main_v144) = after L1_M2 (after pre27 V) (Proc.devRef .tc main_v144) :=
    (congrArg (fun l => after l V (Proc.devRef .tc main_v144)) ops_eq27).trans (after_mid pre27 L1_M2 post27 post27_writes V (by decide))
  have h0 : after pre27 V (Proc.devRef .tc main_v139) = (after ops V (Proc.devRef .tc main_v139)) :=
    ((congrArg (fun l => after l V (Proc.devRef .tc main_v139)) ops_eq27).trans (after_pre pre27 (L1_M2 ++ post27) (writesIn_append L1_M2_writes post27_writes) V (by decide))).symm
  rw [hb, L1_M2_sum2, h0]

set_option maxRecDepth 16384 in
set_option maxHeartbeats 1000000 in
theorem read_L1_M2_mean2 (V : Valuation τ sig (Elt Ideal)) :
    after ops V (Proc.devRef .tc main_v146) = meanStage (after ops V (Proc.devRef .tc main_v139)) := by
  have hb : after ops V (Proc.devRef .tc main_v146) = after L1_M2 (after pre27 V) (Proc.devRef .tc main_v146) :=
    (congrArg (fun l => after l V (Proc.devRef .tc main_v146)) ops_eq27).trans (after_mid pre27 L1_M2 post27 post27_writes V (by decide))
  have h0 : after pre27 V (Proc.devRef .tc main_v139) = (after ops V (Proc.devRef .tc main_v139)) :=
    ((congrArg (fun l => after l V (Proc.devRef .tc main_v139)) ops_eq27).trans (after_pre pre27 (L1_M2 ++ post27) (writesIn_append L1_M2_writes post27_writes) V (by decide))).symm
  rw [hb, L1_M2_mean2, h0]

set_option maxRecDepth 16384 in
set_option maxHeartbeats 1000000 in
theorem read_L1_V2_var2 (V : Valuation τ sig (Elt Ideal)) :
    after ops V (Proc.devRef .tc main_v147) = varStage (after ops V (Proc.devRef .tc main_v139)) := by
  have hb : after ops V (Proc.devRef .tc main_v147) = after L1_V2 (after pre28 V) (Proc.devRef .tc main_v147) :=
    (congrArg (fun l => after l V (Proc.devRef .tc main_v147)) ops_eq28).trans (after_mid pre28 L1_V2 post28 post28_writes V (by decide))
  have h0 : after pre28 V (Proc.devRef .tc main_v139) = (after ops V (Proc.devRef .tc main_v139)) :=
    ((congrArg (fun l => after l V (Proc.devRef .tc main_v139)) ops_eq28).trans (after_pre pre28 (L1_V2 ++ post28) (writesIn_append L1_V2_writes post28_writes) V (by decide))).symm
  rw [hb, L1_V2_var2, h0]

set_option maxRecDepth 16384 in
set_option maxHeartbeats 1000000 in
theorem read_L1_B2_bn2 (V : Valuation τ sig (Elt Ideal)) :
    after ops V (Proc.devRef .tc main_v162) = bnOf (after ops V (Proc.devRef .tc main_v139)) (after ops V (Proc.devRef .tc main_v146)) (after ops V (Proc.devRef .tc main_v147)) (after ops V (Proc.devRef .tc main_v141)) (after ops V (Proc.devRef .tc main_v143)) := by
  have hb : after ops V (Proc.devRef .tc main_v162) = after L1_B2 (after pre29 V) (Proc.devRef .tc main_v162) :=
    (congrArg (fun l => after l V (Proc.devRef .tc main_v162)) ops_eq29).trans (after_mid pre29 L1_B2 post29 post29_writes V (by decide))
  have h0 : after pre29 V (Proc.devRef .tc main_v139) = (after ops V (Proc.devRef .tc main_v139)) :=
    ((congrArg (fun l => after l V (Proc.devRef .tc main_v139)) ops_eq29).trans (after_pre pre29 (L1_B2 ++ post29) (writesIn_append L1_B2_writes post29_writes) V (by decide))).symm
  have h1 : after pre29 V (Proc.devRef .tc main_v146) = (after ops V (Proc.devRef .tc main_v146)) :=
    ((congrArg (fun l => after l V (Proc.devRef .tc main_v146)) ops_eq29).trans (after_pre pre29 (L1_B2 ++ post29) (writesIn_append L1_B2_writes post29_writes) V (by decide))).symm
  have h2 : after pre29 V (Proc.devRef .tc main_v147) = (after ops V (Proc.devRef .tc main_v147)) :=
    ((congrArg (fun l => after l V (Proc.devRef .tc main_v147)) ops_eq29).trans (after_pre pre29 (L1_B2 ++ post29) (writesIn_append L1_B2_writes post29_writes) V (by decide))).symm
  have h3 : after pre29 V (Proc.devRef .tc main_v141) = (after ops V (Proc.devRef .tc main_v141)) :=
    ((congrArg (fun l => after l V (Proc.devRef .tc main_v141)) ops_eq29).trans (after_pre pre29 (L1_B2 ++ post29) (writesIn_append L1_B2_writes post29_writes) V (by decide))).symm
  have h4 : after pre29 V (Proc.devRef .tc main_v143) = (after ops V (Proc.devRef .tc main_v143)) :=
    ((congrArg (fun l => after l V (Proc.devRef .tc main_v143)) ops_eq29).trans (after_pre pre29 (L1_B2 ++ post29) (writesIn_append L1_B2_writes post29_writes) V (by decide))).symm
  rw [hb, L1_B2_bn2, h0, h1, h2, h3, h4]

set_option maxRecDepth 16384 in
set_option maxHeartbeats 1000000 in
theorem read_L1_R2_out (V : Valuation τ sig (Elt Ideal)) :
    after ops V (Proc.devRef .tc main_v163) = reluStage (after ops V (Proc.devRef .tc main_v162)) := by
  have hb : after ops V (Proc.devRef .tc main_v163) = after L1_R2 (after pre30 V) (Proc.devRef .tc main_v163) :=
    (congrArg (fun l => after l V (Proc.devRef .tc main_v163)) ops_eq30).trans (after_mid pre30 L1_R2 post30 post30_writes V (by decide))
  have h0 : after pre30 V (Proc.devRef .tc main_v162) = (after ops V (Proc.devRef .tc main_v162)) :=
    ((congrArg (fun l => after l V (Proc.devRef .tc main_v162)) ops_eq30).trans (after_pre pre30 (L1_R2 ++ post30) (writesIn_append L1_R2_writes post30_writes) V (by decide))).symm
  rw [hb, L1_R2_out, h0]

set_option maxRecDepth 16384 in
set_option maxHeartbeats 1000000 in
theorem read_L2_A_agg (V : Valuation τ sig (Elt Ideal)) :
    after ops V (Proc.devRef .tc main_v173) = aggOf (after ops V (Proc.devRef .tc main_v163)) (after ops V (Proc.devRef .tc main_v1)) (after ops V (Proc.devRef .tc main_v3)) := by
  have hb : after ops V (Proc.devRef .tc main_v173) = after L2_A (after pre31 V) (Proc.devRef .tc main_v173) :=
    (congrArg (fun l => after l V (Proc.devRef .tc main_v173)) ops_eq31).trans (after_mid pre31 L2_A post31 post31_writes V (by decide))
  have h0 : after pre31 V (Proc.devRef .tc main_v163) = (after ops V (Proc.devRef .tc main_v163)) :=
    ((congrArg (fun l => after l V (Proc.devRef .tc main_v163)) ops_eq31).trans (after_pre pre31 (L2_A ++ post31) (writesIn_append L2_A_writes post31_writes) V (by decide))).symm
  have h1 : after pre31 V (Proc.devRef .tc main_v1) = (after ops V (Proc.devRef .tc main_v1)) :=
    ((congrArg (fun l => after l V (Proc.devRef .tc main_v1)) ops_eq31).trans (after_pre pre31 (L2_A ++ post31) (writesIn_append L2_A_writes post31_writes) V (by decide))).symm
  have h2 : after pre31 V (Proc.devRef .tc main_v3) = (after ops V (Proc.devRef .tc main_v3)) :=
    ((congrArg (fun l => after l V (Proc.devRef .tc main_v3)) ops_eq31).trans (after_pre pre31 (L2_A ++ post31) (writesIn_append L2_A_writes post31_writes) V (by decide))).symm
  rw [hb, L2_A_agg, h0, h1, h2]

set_option maxRecDepth 16384 in
set_option maxHeartbeats 1000000 in
theorem read_L2_H_h (V : Valuation τ sig (Elt Ideal)) :
    after ops V (Proc.devRef .tc main_v174) = (addf ((after ops V (Proc.devRef .tc main_v163)) : TNode) (after ops V (Proc.devRef .tc main_v173)) : TNode) := by
  have hb : after ops V (Proc.devRef .tc main_v174) = after L2_H (after pre32 V) (Proc.devRef .tc main_v174) :=
    (congrArg (fun l => after l V (Proc.devRef .tc main_v174)) ops_eq32).trans (after_mid pre32 L2_H post32 post32_writes V (by decide))
  have h0 : after pre32 V (Proc.devRef .tc main_v163) = (after ops V (Proc.devRef .tc main_v163)) :=
    ((congrArg (fun l => after l V (Proc.devRef .tc main_v163)) ops_eq32).trans (after_pre pre32 (L2_H ++ post32) (writesIn_append L2_H_writes post32_writes) V (by decide))).symm
  have h1 : after pre32 V (Proc.devRef .tc main_v173) = (after ops V (Proc.devRef .tc main_v173)) :=
    ((congrArg (fun l => after l V (Proc.devRef .tc main_v173)) ops_eq32).trans (after_pre pre32 (L2_H ++ post32) (writesIn_append L2_H_writes post32_writes) V (by decide))).symm
  rw [hb, L2_H_h, h0, h1]

set_option maxRecDepth 16384 in
set_option maxHeartbeats 1000000 in
theorem read_L2_L1_y1 (V : Valuation τ sig (Elt Ideal)) :
    after ops V (Proc.devRef .tc main_v183) = linStage (after ops V (Proc.devRef .tc main_v174)) (matAt2 (V (Proc.devRef .tc main_arg5))) (rowAt2 (V (Proc.devRef .tc main_arg6))) := by
  have hb : after ops V (Proc.devRef .tc main_v183) = after L2_L1 (after pre33 V) (Proc.devRef .tc main_v183) :=
    (congrArg (fun l => after l V (Proc.devRef .tc main_v183)) ops_eq33).trans (after_mid pre33 L2_L1 post33 post33_writes V (by decide))
  have h0 : after pre33 V (Proc.devRef .tc main_v174) = (after ops V (Proc.devRef .tc main_v174)) :=
    ((congrArg (fun l => after l V (Proc.devRef .tc main_v174)) ops_eq33).trans (after_pre pre33 (L2_L1 ++ post33) (writesIn_append L2_L1_writes post33_writes) V (by decide))).symm
  have h1 : after pre33 V (Proc.devRef .tc main_arg5) = (V (Proc.devRef .tc main_arg5)) :=
    ((congrArg (fun l => after l V (Proc.devRef .tc main_arg5)) ops_eq33).trans (after_pre pre33 (L2_L1 ++ post33) (writesIn_append L2_L1_writes post33_writes) V (by decide))).symm.trans (keep V main_arg5 (by decide) (by decide) (by decide) (by decide) (by decide) (by decide) (by decide))
  have h2 : after pre33 V (Proc.devRef .tc main_arg6) = (V (Proc.devRef .tc main_arg6)) :=
    ((congrArg (fun l => after l V (Proc.devRef .tc main_arg6)) ops_eq33).trans (after_pre pre33 (L2_L1 ++ post33) (writesIn_append L2_L1_writes post33_writes) V (by decide))).symm.trans (keep V main_arg6 (by decide) (by decide) (by decide) (by decide) (by decide) (by decide) (by decide))
  rw [hb, L2_L1_y1, h0, h1, h2]

set_option maxRecDepth 16384 in
set_option maxHeartbeats 1000000 in
theorem read_L2_P1_g1 (V : Valuation τ sig (Elt Ideal)) :
    after ops V (Proc.devRef .tc main_v185) = rowAt2 (V (Proc.devRef .tc main_arg7)) := by
  have hb : after ops V (Proc.devRef .tc main_v185) = after L2_P1 (after pre34 V) (Proc.devRef .tc main_v185) :=
    (congrArg (fun l => after l V (Proc.devRef .tc main_v185)) ops_eq34).trans (after_mid pre34 L2_P1 post34 post34_writes V (by decide))
  have h0 : after pre34 V (Proc.devRef .tc main_arg7) = (V (Proc.devRef .tc main_arg7)) :=
    ((congrArg (fun l => after l V (Proc.devRef .tc main_arg7)) ops_eq34).trans (after_pre pre34 (L2_P1 ++ post34) (writesIn_append L2_P1_writes post34_writes) V (by decide))).symm.trans (keep V main_arg7 (by decide) (by decide) (by decide) (by decide) (by decide) (by decide) (by decide))
  rw [hb, L2_P1_g1, h0]

set_option maxRecDepth 16384 in
set_option maxHeartbeats 1000000 in
theorem read_L2_P1_be1 (V : Valuation τ sig (Elt Ideal)) :
    after ops V (Proc.devRef .tc main_v187) = rowAt2 (V (Proc.devRef .tc main_arg8)) := by
  have hb : after ops V (Proc.devRef .tc main_v187) = after L2_P1 (after pre34 V) (Proc.devRef .tc main_v187) :=
    (congrArg (fun l => after l V (Proc.devRef .tc main_v187)) ops_eq34).trans (after_mid pre34 L2_P1 post34 post34_writes V (by decide))
  have h0 : after pre34 V (Proc.devRef .tc main_arg8) = (V (Proc.devRef .tc main_arg8)) :=
    ((congrArg (fun l => after l V (Proc.devRef .tc main_arg8)) ops_eq34).trans (after_pre pre34 (L2_P1 ++ post34) (writesIn_append L2_P1_writes post34_writes) V (by decide))).symm.trans (keep V main_arg8 (by decide) (by decide) (by decide) (by decide) (by decide) (by decide) (by decide))
  rw [hb, L2_P1_be1, h0]

set_option maxRecDepth 16384 in
set_option maxHeartbeats 1000000 in
theorem read_L2_M1_sum1 (V : Valuation τ sig (Elt Ideal)) :
    after ops V (Proc.devRef .tc main_v188) = colSum (after ops V (Proc.devRef .tc main_v183)) := by
  have hb : after ops V (Proc.devRef .tc main_v188) = after L2_M1 (after pre35 V) (Proc.devRef .tc main_v188) :=
    (congrArg (fun l => after l V (Proc.devRef .tc main_v188)) ops_eq35).trans (after_mid pre35 L2_M1 post35 post35_writes V (by decide))
  have h0 : after pre35 V (Proc.devRef .tc main_v183) = (after ops V (Proc.devRef .tc main_v183)) :=
    ((congrArg (fun l => after l V (Proc.devRef .tc main_v183)) ops_eq35).trans (after_pre pre35 (L2_M1 ++ post35) (writesIn_append L2_M1_writes post35_writes) V (by decide))).symm
  rw [hb, L2_M1_sum1, h0]

set_option maxRecDepth 16384 in
set_option maxHeartbeats 1000000 in
theorem read_L2_M1_mean1 (V : Valuation τ sig (Elt Ideal)) :
    after ops V (Proc.devRef .tc main_v190) = meanStage (after ops V (Proc.devRef .tc main_v183)) := by
  have hb : after ops V (Proc.devRef .tc main_v190) = after L2_M1 (after pre35 V) (Proc.devRef .tc main_v190) :=
    (congrArg (fun l => after l V (Proc.devRef .tc main_v190)) ops_eq35).trans (after_mid pre35 L2_M1 post35 post35_writes V (by decide))
  have h0 : after pre35 V (Proc.devRef .tc main_v183) = (after ops V (Proc.devRef .tc main_v183)) :=
    ((congrArg (fun l => after l V (Proc.devRef .tc main_v183)) ops_eq35).trans (after_pre pre35 (L2_M1 ++ post35) (writesIn_append L2_M1_writes post35_writes) V (by decide))).symm
  rw [hb, L2_M1_mean1, h0]

set_option maxRecDepth 16384 in
set_option maxHeartbeats 1000000 in
theorem read_L2_V1_var1 (V : Valuation τ sig (Elt Ideal)) :
    after ops V (Proc.devRef .tc main_v191) = varStage (after ops V (Proc.devRef .tc main_v183)) := by
  have hb : after ops V (Proc.devRef .tc main_v191) = after L2_V1 (after pre36 V) (Proc.devRef .tc main_v191) :=
    (congrArg (fun l => after l V (Proc.devRef .tc main_v191)) ops_eq36).trans (after_mid pre36 L2_V1 post36 post36_writes V (by decide))
  have h0 : after pre36 V (Proc.devRef .tc main_v183) = (after ops V (Proc.devRef .tc main_v183)) :=
    ((congrArg (fun l => after l V (Proc.devRef .tc main_v183)) ops_eq36).trans (after_pre pre36 (L2_V1 ++ post36) (writesIn_append L2_V1_writes post36_writes) V (by decide))).symm
  rw [hb, L2_V1_var1, h0]

set_option maxRecDepth 16384 in
set_option maxHeartbeats 1000000 in
theorem read_L2_B1_bn1 (V : Valuation τ sig (Elt Ideal)) :
    after ops V (Proc.devRef .tc main_v206) = bnOf (after ops V (Proc.devRef .tc main_v183)) (after ops V (Proc.devRef .tc main_v190)) (after ops V (Proc.devRef .tc main_v191)) (after ops V (Proc.devRef .tc main_v185)) (after ops V (Proc.devRef .tc main_v187)) := by
  have hb : after ops V (Proc.devRef .tc main_v206) = after L2_B1 (after pre37 V) (Proc.devRef .tc main_v206) :=
    (congrArg (fun l => after l V (Proc.devRef .tc main_v206)) ops_eq37).trans (after_mid pre37 L2_B1 post37 post37_writes V (by decide))
  have h0 : after pre37 V (Proc.devRef .tc main_v183) = (after ops V (Proc.devRef .tc main_v183)) :=
    ((congrArg (fun l => after l V (Proc.devRef .tc main_v183)) ops_eq37).trans (after_pre pre37 (L2_B1 ++ post37) (writesIn_append L2_B1_writes post37_writes) V (by decide))).symm
  have h1 : after pre37 V (Proc.devRef .tc main_v190) = (after ops V (Proc.devRef .tc main_v190)) :=
    ((congrArg (fun l => after l V (Proc.devRef .tc main_v190)) ops_eq37).trans (after_pre pre37 (L2_B1 ++ post37) (writesIn_append L2_B1_writes post37_writes) V (by decide))).symm
  have h2 : after pre37 V (Proc.devRef .tc main_v191) = (after ops V (Proc.devRef .tc main_v191)) :=
    ((congrArg (fun l => after l V (Proc.devRef .tc main_v191)) ops_eq37).trans (after_pre pre37 (L2_B1 ++ post37) (writesIn_append L2_B1_writes post37_writes) V (by decide))).symm
  have h3 : after pre37 V (Proc.devRef .tc main_v185) = (after ops V (Proc.devRef .tc main_v185)) :=
    ((congrArg (fun l => after l V (Proc.devRef .tc main_v185)) ops_eq37).trans (after_pre pre37 (L2_B1 ++ post37) (writesIn_append L2_B1_writes post37_writes) V (by decide))).symm
  have h4 : after pre37 V (Proc.devRef .tc main_v187) = (after ops V (Proc.devRef .tc main_v187)) :=
    ((congrArg (fun l => after l V (Proc.devRef .tc main_v187)) ops_eq37).trans (after_pre pre37 (L2_B1 ++ post37) (writesIn_append L2_B1_writes post37_writes) V (by decide))).symm
  rw [hb, L2_B1_bn1, h0, h1, h2, h3, h4]

set_option maxRecDepth 16384 in
set_option maxHeartbeats 1000000 in
theorem read_L2_R1_z (V : Valuation τ sig (Elt Ideal)) :
    after ops V (Proc.devRef .tc main_v207) = reluStage (after ops V (Proc.devRef .tc main_v206)) := by
  have hb : after ops V (Proc.devRef .tc main_v207) = after L2_R1 (after pre38 V) (Proc.devRef .tc main_v207) :=
    (congrArg (fun l => after l V (Proc.devRef .tc main_v207)) ops_eq38).trans (after_mid pre38 L2_R1 post38 post38_writes V (by decide))
  have h0 : after pre38 V (Proc.devRef .tc main_v206) = (after ops V (Proc.devRef .tc main_v206)) :=
    ((congrArg (fun l => after l V (Proc.devRef .tc main_v206)) ops_eq38).trans (after_pre pre38 (L2_R1 ++ post38) (writesIn_append L2_R1_writes post38_writes) V (by decide))).symm
  rw [hb, L2_R1_z, h0]

set_option maxRecDepth 16384 in
set_option maxHeartbeats 1000000 in
theorem read_L2_L2_y2 (V : Valuation τ sig (Elt Ideal)) :
    after ops V (Proc.devRef .tc main_v216) = linStage (after ops V (Proc.devRef .tc main_v207)) (matAt2 (V (Proc.devRef .tc main_arg9))) (rowAt2 (V (Proc.devRef .tc main_arg10))) := by
  have hb : after ops V (Proc.devRef .tc main_v216) = after L2_L2 (after pre39 V) (Proc.devRef .tc main_v216) :=
    (congrArg (fun l => after l V (Proc.devRef .tc main_v216)) ops_eq39).trans (after_mid pre39 L2_L2 post39 post39_writes V (by decide))
  have h0 : after pre39 V (Proc.devRef .tc main_v207) = (after ops V (Proc.devRef .tc main_v207)) :=
    ((congrArg (fun l => after l V (Proc.devRef .tc main_v207)) ops_eq39).trans (after_pre pre39 (L2_L2 ++ post39) (writesIn_append L2_L2_writes post39_writes) V (by decide))).symm
  have h1 : after pre39 V (Proc.devRef .tc main_arg9) = (V (Proc.devRef .tc main_arg9)) :=
    ((congrArg (fun l => after l V (Proc.devRef .tc main_arg9)) ops_eq39).trans (after_pre pre39 (L2_L2 ++ post39) (writesIn_append L2_L2_writes post39_writes) V (by decide))).symm.trans (keep V main_arg9 (by decide) (by decide) (by decide) (by decide) (by decide) (by decide) (by decide))
  have h2 : after pre39 V (Proc.devRef .tc main_arg10) = (V (Proc.devRef .tc main_arg10)) :=
    ((congrArg (fun l => after l V (Proc.devRef .tc main_arg10)) ops_eq39).trans (after_pre pre39 (L2_L2 ++ post39) (writesIn_append L2_L2_writes post39_writes) V (by decide))).symm.trans (keep V main_arg10 (by decide) (by decide) (by decide) (by decide) (by decide) (by decide) (by decide))
  rw [hb, L2_L2_y2, h0, h1, h2]

set_option maxRecDepth 16384 in
set_option maxHeartbeats 1000000 in
theorem read_L2_P2_g2 (V : Valuation τ sig (Elt Ideal)) :
    after ops V (Proc.devRef .tc main_v218) = rowAt2 (V (Proc.devRef .tc main_arg11)) := by
  have hb : after ops V (Proc.devRef .tc main_v218) = after L2_P2 (after pre40 V) (Proc.devRef .tc main_v218) :=
    (congrArg (fun l => after l V (Proc.devRef .tc main_v218)) ops_eq40).trans (after_mid pre40 L2_P2 post40 post40_writes V (by decide))
  have h0 : after pre40 V (Proc.devRef .tc main_arg11) = (V (Proc.devRef .tc main_arg11)) :=
    ((congrArg (fun l => after l V (Proc.devRef .tc main_arg11)) ops_eq40).trans (after_pre pre40 (L2_P2 ++ post40) (writesIn_append L2_P2_writes post40_writes) V (by decide))).symm.trans (keep V main_arg11 (by decide) (by decide) (by decide) (by decide) (by decide) (by decide) (by decide))
  rw [hb, L2_P2_g2, h0]

set_option maxRecDepth 16384 in
set_option maxHeartbeats 1000000 in
theorem read_L2_P2_be2 (V : Valuation τ sig (Elt Ideal)) :
    after ops V (Proc.devRef .tc main_v220) = rowAt2 (V (Proc.devRef .tc main_arg12)) := by
  have hb : after ops V (Proc.devRef .tc main_v220) = after L2_P2 (after pre40 V) (Proc.devRef .tc main_v220) :=
    (congrArg (fun l => after l V (Proc.devRef .tc main_v220)) ops_eq40).trans (after_mid pre40 L2_P2 post40 post40_writes V (by decide))
  have h0 : after pre40 V (Proc.devRef .tc main_arg12) = (V (Proc.devRef .tc main_arg12)) :=
    ((congrArg (fun l => after l V (Proc.devRef .tc main_arg12)) ops_eq40).trans (after_pre pre40 (L2_P2 ++ post40) (writesIn_append L2_P2_writes post40_writes) V (by decide))).symm.trans (keep V main_arg12 (by decide) (by decide) (by decide) (by decide) (by decide) (by decide) (by decide))
  rw [hb, L2_P2_be2, h0]

set_option maxRecDepth 16384 in
set_option maxHeartbeats 1000000 in
theorem read_L2_M2_sum2 (V : Valuation τ sig (Elt Ideal)) :
    after ops V (Proc.devRef .tc main_v221) = colSum (after ops V (Proc.devRef .tc main_v216)) := by
  have hb : after ops V (Proc.devRef .tc main_v221) = after L2_M2 (after pre41 V) (Proc.devRef .tc main_v221) :=
    (congrArg (fun l => after l V (Proc.devRef .tc main_v221)) ops_eq41).trans (after_mid pre41 L2_M2 post41 post41_writes V (by decide))
  have h0 : after pre41 V (Proc.devRef .tc main_v216) = (after ops V (Proc.devRef .tc main_v216)) :=
    ((congrArg (fun l => after l V (Proc.devRef .tc main_v216)) ops_eq41).trans (after_pre pre41 (L2_M2 ++ post41) (writesIn_append L2_M2_writes post41_writes) V (by decide))).symm
  rw [hb, L2_M2_sum2, h0]

set_option maxRecDepth 16384 in
set_option maxHeartbeats 1000000 in
theorem read_L2_M2_mean2 (V : Valuation τ sig (Elt Ideal)) :
    after ops V (Proc.devRef .tc main_v223) = meanStage (after ops V (Proc.devRef .tc main_v216)) := by
  have hb : after ops V (Proc.devRef .tc main_v223) = after L2_M2 (after pre41 V) (Proc.devRef .tc main_v223) :=
    (congrArg (fun l => after l V (Proc.devRef .tc main_v223)) ops_eq41).trans (after_mid pre41 L2_M2 post41 post41_writes V (by decide))
  have h0 : after pre41 V (Proc.devRef .tc main_v216) = (after ops V (Proc.devRef .tc main_v216)) :=
    ((congrArg (fun l => after l V (Proc.devRef .tc main_v216)) ops_eq41).trans (after_pre pre41 (L2_M2 ++ post41) (writesIn_append L2_M2_writes post41_writes) V (by decide))).symm
  rw [hb, L2_M2_mean2, h0]

set_option maxRecDepth 16384 in
set_option maxHeartbeats 1000000 in
theorem read_L2_V2_var2 (V : Valuation τ sig (Elt Ideal)) :
    after ops V (Proc.devRef .tc main_v224) = varStage (after ops V (Proc.devRef .tc main_v216)) := by
  have hb : after ops V (Proc.devRef .tc main_v224) = after L2_V2 (after pre42 V) (Proc.devRef .tc main_v224) :=
    (congrArg (fun l => after l V (Proc.devRef .tc main_v224)) ops_eq42).trans (after_mid pre42 L2_V2 post42 post42_writes V (by decide))
  have h0 : after pre42 V (Proc.devRef .tc main_v216) = (after ops V (Proc.devRef .tc main_v216)) :=
    ((congrArg (fun l => after l V (Proc.devRef .tc main_v216)) ops_eq42).trans (after_pre pre42 (L2_V2 ++ post42) (writesIn_append L2_V2_writes post42_writes) V (by decide))).symm
  rw [hb, L2_V2_var2, h0]

set_option maxRecDepth 16384 in
set_option maxHeartbeats 1000000 in
theorem read_L2_B2_bn2 (V : Valuation τ sig (Elt Ideal)) :
    after ops V (Proc.devRef .tc main_v239) = bnOf (after ops V (Proc.devRef .tc main_v216)) (after ops V (Proc.devRef .tc main_v223)) (after ops V (Proc.devRef .tc main_v224)) (after ops V (Proc.devRef .tc main_v218)) (after ops V (Proc.devRef .tc main_v220)) := by
  have hb : after ops V (Proc.devRef .tc main_v239) = after L2_B2 (after pre43 V) (Proc.devRef .tc main_v239) :=
    (congrArg (fun l => after l V (Proc.devRef .tc main_v239)) ops_eq43).trans (after_mid pre43 L2_B2 post43 post43_writes V (by decide))
  have h0 : after pre43 V (Proc.devRef .tc main_v216) = (after ops V (Proc.devRef .tc main_v216)) :=
    ((congrArg (fun l => after l V (Proc.devRef .tc main_v216)) ops_eq43).trans (after_pre pre43 (L2_B2 ++ post43) (writesIn_append L2_B2_writes post43_writes) V (by decide))).symm
  have h1 : after pre43 V (Proc.devRef .tc main_v223) = (after ops V (Proc.devRef .tc main_v223)) :=
    ((congrArg (fun l => after l V (Proc.devRef .tc main_v223)) ops_eq43).trans (after_pre pre43 (L2_B2 ++ post43) (writesIn_append L2_B2_writes post43_writes) V (by decide))).symm
  have h2 : after pre43 V (Proc.devRef .tc main_v224) = (after ops V (Proc.devRef .tc main_v224)) :=
    ((congrArg (fun l => after l V (Proc.devRef .tc main_v224)) ops_eq43).trans (after_pre pre43 (L2_B2 ++ post43) (writesIn_append L2_B2_writes post43_writes) V (by decide))).symm
  have h3 : after pre43 V (Proc.devRef .tc main_v218) = (after ops V (Proc.devRef .tc main_v218)) :=
    ((congrArg (fun l => after l V (Proc.devRef .tc main_v218)) ops_eq43).trans (after_pre pre43 (L2_B2 ++ post43) (writesIn_append L2_B2_writes post43_writes) V (by decide))).symm
  have h4 : after pre43 V (Proc.devRef .tc main_v220) = (after ops V (Proc.devRef .tc main_v220)) :=
    ((congrArg (fun l => after l V (Proc.devRef .tc main_v220)) ops_eq43).trans (after_pre pre43 (L2_B2 ++ post43) (writesIn_append L2_B2_writes post43_writes) V (by decide))).symm
  rw [hb, L2_B2_bn2, h0, h1, h2, h3, h4]

set_option maxRecDepth 16384 in
set_option maxHeartbeats 1000000 in
theorem read_L2_R2_out (V : Valuation τ sig (Elt Ideal)) :
    after ops V (Proc.devRef .tc main_v240) = reluStage (after ops V (Proc.devRef .tc main_v239)) := by
  have hb : after ops V (Proc.devRef .tc main_v240) = after L2_R2 (after pre44 V) (Proc.devRef .tc main_v240) :=
    (congrArg (fun l => after l V (Proc.devRef .tc main_v240)) ops_eq44).trans (after_mid pre44 L2_R2 post44 post44_writes V (by decide))
  have h0 : after pre44 V (Proc.devRef .tc main_v239) = (after ops V (Proc.devRef .tc main_v239)) :=
    ((congrArg (fun l => after l V (Proc.devRef .tc main_v239)) ops_eq44).trans (after_pre pre44 (L2_R2 ++ post44) (writesIn_append L2_R2_writes post44_writes) V (by decide))).symm
  rw [hb, L2_R2_out, h0]

set_option maxRecDepth 16384 in
set_option maxHeartbeats 1000000 in
theorem read_L3_A_agg (V : Valuation τ sig (Elt Ideal)) :
    after ops V (Proc.devRef .tc main_v250) = aggOf (after ops V (Proc.devRef .tc main_v240)) (after ops V (Proc.devRef .tc main_v1)) (after ops V (Proc.devRef .tc main_v3)) := by
  have hb : after ops V (Proc.devRef .tc main_v250) = after L3_A (after pre45 V) (Proc.devRef .tc main_v250) :=
    (congrArg (fun l => after l V (Proc.devRef .tc main_v250)) ops_eq45).trans (after_mid pre45 L3_A post45 post45_writes V (by decide))
  have h0 : after pre45 V (Proc.devRef .tc main_v240) = (after ops V (Proc.devRef .tc main_v240)) :=
    ((congrArg (fun l => after l V (Proc.devRef .tc main_v240)) ops_eq45).trans (after_pre pre45 (L3_A ++ post45) (writesIn_append L3_A_writes post45_writes) V (by decide))).symm
  have h1 : after pre45 V (Proc.devRef .tc main_v1) = (after ops V (Proc.devRef .tc main_v1)) :=
    ((congrArg (fun l => after l V (Proc.devRef .tc main_v1)) ops_eq45).trans (after_pre pre45 (L3_A ++ post45) (writesIn_append L3_A_writes post45_writes) V (by decide))).symm
  have h2 : after pre45 V (Proc.devRef .tc main_v3) = (after ops V (Proc.devRef .tc main_v3)) :=
    ((congrArg (fun l => after l V (Proc.devRef .tc main_v3)) ops_eq45).trans (after_pre pre45 (L3_A ++ post45) (writesIn_append L3_A_writes post45_writes) V (by decide))).symm
  rw [hb, L3_A_agg, h0, h1, h2]

set_option maxRecDepth 16384 in
set_option maxHeartbeats 1000000 in
theorem read_L3_H_h (V : Valuation τ sig (Elt Ideal)) :
    after ops V (Proc.devRef .tc main_v251) = (addf ((after ops V (Proc.devRef .tc main_v240)) : TNode) (after ops V (Proc.devRef .tc main_v250)) : TNode) := by
  have hb : after ops V (Proc.devRef .tc main_v251) = after L3_H (after pre46 V) (Proc.devRef .tc main_v251) :=
    (congrArg (fun l => after l V (Proc.devRef .tc main_v251)) ops_eq46).trans (after_mid pre46 L3_H post46 post46_writes V (by decide))
  have h0 : after pre46 V (Proc.devRef .tc main_v240) = (after ops V (Proc.devRef .tc main_v240)) :=
    ((congrArg (fun l => after l V (Proc.devRef .tc main_v240)) ops_eq46).trans (after_pre pre46 (L3_H ++ post46) (writesIn_append L3_H_writes post46_writes) V (by decide))).symm
  have h1 : after pre46 V (Proc.devRef .tc main_v250) = (after ops V (Proc.devRef .tc main_v250)) :=
    ((congrArg (fun l => after l V (Proc.devRef .tc main_v250)) ops_eq46).trans (after_pre pre46 (L3_H ++ post46) (writesIn_append L3_H_writes post46_writes) V (by decide))).symm
  rw [hb, L3_H_h, h0, h1]

set_option maxRecDepth 16384 in
set_option maxHeartbeats 1000000 in
theorem read_L3_L1_y1 (V : Valuation τ sig (Elt Ideal)) :
    after ops V (Proc.devRef .tc main_v260) = linStage (after ops V (Proc.devRef .tc main_v251)) (matAt3 (V (Proc.devRef .tc main_arg5))) (rowAt3 (V (Proc.devRef .tc main_arg6))) := by
  have hb : after ops V (Proc.devRef .tc main_v260) = after L3_L1 (after pre47 V) (Proc.devRef .tc main_v260) :=
    (congrArg (fun l => after l V (Proc.devRef .tc main_v260)) ops_eq47).trans (after_mid pre47 L3_L1 post47 post47_writes V (by decide))
  have h0 : after pre47 V (Proc.devRef .tc main_v251) = (after ops V (Proc.devRef .tc main_v251)) :=
    ((congrArg (fun l => after l V (Proc.devRef .tc main_v251)) ops_eq47).trans (after_pre pre47 (L3_L1 ++ post47) (writesIn_append L3_L1_writes post47_writes) V (by decide))).symm
  have h1 : after pre47 V (Proc.devRef .tc main_arg5) = (V (Proc.devRef .tc main_arg5)) :=
    ((congrArg (fun l => after l V (Proc.devRef .tc main_arg5)) ops_eq47).trans (after_pre pre47 (L3_L1 ++ post47) (writesIn_append L3_L1_writes post47_writes) V (by decide))).symm.trans (keep V main_arg5 (by decide) (by decide) (by decide) (by decide) (by decide) (by decide) (by decide))
  have h2 : after pre47 V (Proc.devRef .tc main_arg6) = (V (Proc.devRef .tc main_arg6)) :=
    ((congrArg (fun l => after l V (Proc.devRef .tc main_arg6)) ops_eq47).trans (after_pre pre47 (L3_L1 ++ post47) (writesIn_append L3_L1_writes post47_writes) V (by decide))).symm.trans (keep V main_arg6 (by decide) (by decide) (by decide) (by decide) (by decide) (by decide) (by decide))
  rw [hb, L3_L1_y1, h0, h1, h2]

set_option maxRecDepth 16384 in
set_option maxHeartbeats 1000000 in
theorem read_L3_P1_g1 (V : Valuation τ sig (Elt Ideal)) :
    after ops V (Proc.devRef .tc main_v262) = rowAt3 (V (Proc.devRef .tc main_arg7)) := by
  have hb : after ops V (Proc.devRef .tc main_v262) = after L3_P1 (after pre48 V) (Proc.devRef .tc main_v262) :=
    (congrArg (fun l => after l V (Proc.devRef .tc main_v262)) ops_eq48).trans (after_mid pre48 L3_P1 post48 post48_writes V (by decide))
  have h0 : after pre48 V (Proc.devRef .tc main_arg7) = (V (Proc.devRef .tc main_arg7)) :=
    ((congrArg (fun l => after l V (Proc.devRef .tc main_arg7)) ops_eq48).trans (after_pre pre48 (L3_P1 ++ post48) (writesIn_append L3_P1_writes post48_writes) V (by decide))).symm.trans (keep V main_arg7 (by decide) (by decide) (by decide) (by decide) (by decide) (by decide) (by decide))
  rw [hb, L3_P1_g1, h0]

set_option maxRecDepth 16384 in
set_option maxHeartbeats 1000000 in
theorem read_L3_P1_be1 (V : Valuation τ sig (Elt Ideal)) :
    after ops V (Proc.devRef .tc main_v264) = rowAt3 (V (Proc.devRef .tc main_arg8)) := by
  have hb : after ops V (Proc.devRef .tc main_v264) = after L3_P1 (after pre48 V) (Proc.devRef .tc main_v264) :=
    (congrArg (fun l => after l V (Proc.devRef .tc main_v264)) ops_eq48).trans (after_mid pre48 L3_P1 post48 post48_writes V (by decide))
  have h0 : after pre48 V (Proc.devRef .tc main_arg8) = (V (Proc.devRef .tc main_arg8)) :=
    ((congrArg (fun l => after l V (Proc.devRef .tc main_arg8)) ops_eq48).trans (after_pre pre48 (L3_P1 ++ post48) (writesIn_append L3_P1_writes post48_writes) V (by decide))).symm.trans (keep V main_arg8 (by decide) (by decide) (by decide) (by decide) (by decide) (by decide) (by decide))
  rw [hb, L3_P1_be1, h0]

set_option maxRecDepth 16384 in
set_option maxHeartbeats 1000000 in
theorem read_L3_M1_sum1 (V : Valuation τ sig (Elt Ideal)) :
    after ops V (Proc.devRef .tc main_v265) = colSum (after ops V (Proc.devRef .tc main_v260)) := by
  have hb : after ops V (Proc.devRef .tc main_v265) = after L3_M1 (after pre49 V) (Proc.devRef .tc main_v265) :=
    (congrArg (fun l => after l V (Proc.devRef .tc main_v265)) ops_eq49).trans (after_mid pre49 L3_M1 post49 post49_writes V (by decide))
  have h0 : after pre49 V (Proc.devRef .tc main_v260) = (after ops V (Proc.devRef .tc main_v260)) :=
    ((congrArg (fun l => after l V (Proc.devRef .tc main_v260)) ops_eq49).trans (after_pre pre49 (L3_M1 ++ post49) (writesIn_append L3_M1_writes post49_writes) V (by decide))).symm
  rw [hb, L3_M1_sum1, h0]

set_option maxRecDepth 16384 in
set_option maxHeartbeats 1000000 in
theorem read_L3_M1_mean1 (V : Valuation τ sig (Elt Ideal)) :
    after ops V (Proc.devRef .tc main_v267) = meanStage (after ops V (Proc.devRef .tc main_v260)) := by
  have hb : after ops V (Proc.devRef .tc main_v267) = after L3_M1 (after pre49 V) (Proc.devRef .tc main_v267) :=
    (congrArg (fun l => after l V (Proc.devRef .tc main_v267)) ops_eq49).trans (after_mid pre49 L3_M1 post49 post49_writes V (by decide))
  have h0 : after pre49 V (Proc.devRef .tc main_v260) = (after ops V (Proc.devRef .tc main_v260)) :=
    ((congrArg (fun l => after l V (Proc.devRef .tc main_v260)) ops_eq49).trans (after_pre pre49 (L3_M1 ++ post49) (writesIn_append L3_M1_writes post49_writes) V (by decide))).symm
  rw [hb, L3_M1_mean1, h0]

set_option maxRecDepth 16384 in
set_option maxHeartbeats 1000000 in
theorem read_L3_V1_var1 (V : Valuation τ sig (Elt Ideal)) :
    after ops V (Proc.devRef .tc main_v268) = varStage (after ops V (Proc.devRef .tc main_v260)) := by
  have hb : after ops V (Proc.devRef .tc main_v268) = after L3_V1 (after pre50 V) (Proc.devRef .tc main_v268) :=
    (congrArg (fun l => after l V (Proc.devRef .tc main_v268)) ops_eq50).trans (after_mid pre50 L3_V1 post50 post50_writes V (by decide))
  have h0 : after pre50 V (Proc.devRef .tc main_v260) = (after ops V (Proc.devRef .tc main_v260)) :=
    ((congrArg (fun l => after l V (Proc.devRef .tc main_v260)) ops_eq50).trans (after_pre pre50 (L3_V1 ++ post50) (writesIn_append L3_V1_writes post50_writes) V (by decide))).symm
  rw [hb, L3_V1_var1, h0]

set_option maxRecDepth 16384 in
set_option maxHeartbeats 1000000 in
theorem read_L3_B1_bn1 (V : Valuation τ sig (Elt Ideal)) :
    after ops V (Proc.devRef .tc main_v283) = bnOf (after ops V (Proc.devRef .tc main_v260)) (after ops V (Proc.devRef .tc main_v267)) (after ops V (Proc.devRef .tc main_v268)) (after ops V (Proc.devRef .tc main_v262)) (after ops V (Proc.devRef .tc main_v264)) := by
  have hb : after ops V (Proc.devRef .tc main_v283) = after L3_B1 (after pre51 V) (Proc.devRef .tc main_v283) :=
    (congrArg (fun l => after l V (Proc.devRef .tc main_v283)) ops_eq51).trans (after_mid pre51 L3_B1 post51 post51_writes V (by decide))
  have h0 : after pre51 V (Proc.devRef .tc main_v260) = (after ops V (Proc.devRef .tc main_v260)) :=
    ((congrArg (fun l => after l V (Proc.devRef .tc main_v260)) ops_eq51).trans (after_pre pre51 (L3_B1 ++ post51) (writesIn_append L3_B1_writes post51_writes) V (by decide))).symm
  have h1 : after pre51 V (Proc.devRef .tc main_v267) = (after ops V (Proc.devRef .tc main_v267)) :=
    ((congrArg (fun l => after l V (Proc.devRef .tc main_v267)) ops_eq51).trans (after_pre pre51 (L3_B1 ++ post51) (writesIn_append L3_B1_writes post51_writes) V (by decide))).symm
  have h2 : after pre51 V (Proc.devRef .tc main_v268) = (after ops V (Proc.devRef .tc main_v268)) :=
    ((congrArg (fun l => after l V (Proc.devRef .tc main_v268)) ops_eq51).trans (after_pre pre51 (L3_B1 ++ post51) (writesIn_append L3_B1_writes post51_writes) V (by decide))).symm
  have h3 : after pre51 V (Proc.devRef .tc main_v262) = (after ops V (Proc.devRef .tc main_v262)) :=
    ((congrArg (fun l => after l V (Proc.devRef .tc main_v262)) ops_eq51).trans (after_pre pre51 (L3_B1 ++ post51) (writesIn_append L3_B1_writes post51_writes) V (by decide))).symm
  have h4 : after pre51 V (Proc.devRef .tc main_v264) = (after ops V (Proc.devRef .tc main_v264)) :=
    ((congrArg (fun l => after l V (Proc.devRef .tc main_v264)) ops_eq51).trans (after_pre pre51 (L3_B1 ++ post51) (writesIn_append L3_B1_writes post51_writes) V (by decide))).symm
  rw [hb, L3_B1_bn1, h0, h1, h2, h3, h4]

set_option maxRecDepth 16384 in
set_option maxHeartbeats 1000000 in
theorem read_L3_R1_z (V : Valuation τ sig (Elt Ideal)) :
    after ops V (Proc.devRef .tc main_v284) = reluStage (after ops V (Proc.devRef .tc main_v283)) := by
  have hb : after ops V (Proc.devRef .tc main_v284) = after L3_R1 (after pre52 V) (Proc.devRef .tc main_v284) :=
    (congrArg (fun l => after l V (Proc.devRef .tc main_v284)) ops_eq52).trans (after_mid pre52 L3_R1 post52 post52_writes V (by decide))
  have h0 : after pre52 V (Proc.devRef .tc main_v283) = (after ops V (Proc.devRef .tc main_v283)) :=
    ((congrArg (fun l => after l V (Proc.devRef .tc main_v283)) ops_eq52).trans (after_pre pre52 (L3_R1 ++ post52) (writesIn_append L3_R1_writes post52_writes) V (by decide))).symm
  rw [hb, L3_R1_z, h0]

set_option maxRecDepth 16384 in
set_option maxHeartbeats 1000000 in
theorem read_L3_L2_y2 (V : Valuation τ sig (Elt Ideal)) :
    after ops V (Proc.devRef .tc main_v293) = linStage (after ops V (Proc.devRef .tc main_v284)) (matAt3 (V (Proc.devRef .tc main_arg9))) (rowAt3 (V (Proc.devRef .tc main_arg10))) := by
  have hb : after ops V (Proc.devRef .tc main_v293) = after L3_L2 (after pre53 V) (Proc.devRef .tc main_v293) :=
    (congrArg (fun l => after l V (Proc.devRef .tc main_v293)) ops_eq53).trans (after_mid pre53 L3_L2 post53 post53_writes V (by decide))
  have h0 : after pre53 V (Proc.devRef .tc main_v284) = (after ops V (Proc.devRef .tc main_v284)) :=
    ((congrArg (fun l => after l V (Proc.devRef .tc main_v284)) ops_eq53).trans (after_pre pre53 (L3_L2 ++ post53) (writesIn_append L3_L2_writes post53_writes) V (by decide))).symm
  have h1 : after pre53 V (Proc.devRef .tc main_arg9) = (V (Proc.devRef .tc main_arg9)) :=
    ((congrArg (fun l => after l V (Proc.devRef .tc main_arg9)) ops_eq53).trans (after_pre pre53 (L3_L2 ++ post53) (writesIn_append L3_L2_writes post53_writes) V (by decide))).symm.trans (keep V main_arg9 (by decide) (by decide) (by decide) (by decide) (by decide) (by decide) (by decide))
  have h2 : after pre53 V (Proc.devRef .tc main_arg10) = (V (Proc.devRef .tc main_arg10)) :=
    ((congrArg (fun l => after l V (Proc.devRef .tc main_arg10)) ops_eq53).trans (after_pre pre53 (L3_L2 ++ post53) (writesIn_append L3_L2_writes post53_writes) V (by decide))).symm.trans (keep V main_arg10 (by decide) (by decide) (by decide) (by decide) (by decide) (by decide) (by decide))
  rw [hb, L3_L2_y2, h0, h1, h2]

set_option maxRecDepth 16384 in
set_option maxHeartbeats 1000000 in
theorem read_L3_P2_g2 (V : Valuation τ sig (Elt Ideal)) :
    after ops V (Proc.devRef .tc main_v295) = rowAt3 (V (Proc.devRef .tc main_arg11)) := by
  have hb : after ops V (Proc.devRef .tc main_v295) = after L3_P2 (after pre54 V) (Proc.devRef .tc main_v295) :=
    (congrArg (fun l => after l V (Proc.devRef .tc main_v295)) ops_eq54).trans (after_mid pre54 L3_P2 post54 post54_writes V (by decide))
  have h0 : after pre54 V (Proc.devRef .tc main_arg11) = (V (Proc.devRef .tc main_arg11)) :=
    ((congrArg (fun l => after l V (Proc.devRef .tc main_arg11)) ops_eq54).trans (after_pre pre54 (L3_P2 ++ post54) (writesIn_append L3_P2_writes post54_writes) V (by decide))).symm.trans (keep V main_arg11 (by decide) (by decide) (by decide) (by decide) (by decide) (by decide) (by decide))
  rw [hb, L3_P2_g2, h0]

set_option maxRecDepth 16384 in
set_option maxHeartbeats 1000000 in
theorem read_L3_P2_be2 (V : Valuation τ sig (Elt Ideal)) :
    after ops V (Proc.devRef .tc main_v297) = rowAt3 (V (Proc.devRef .tc main_arg12)) := by
  have hb : after ops V (Proc.devRef .tc main_v297) = after L3_P2 (after pre54 V) (Proc.devRef .tc main_v297) :=
    (congrArg (fun l => after l V (Proc.devRef .tc main_v297)) ops_eq54).trans (after_mid pre54 L3_P2 post54 post54_writes V (by decide))
  have h0 : after pre54 V (Proc.devRef .tc main_arg12) = (V (Proc.devRef .tc main_arg12)) :=
    ((congrArg (fun l => after l V (Proc.devRef .tc main_arg12)) ops_eq54).trans (after_pre pre54 (L3_P2 ++ post54) (writesIn_append L3_P2_writes post54_writes) V (by decide))).symm.trans (keep V main_arg12 (by decide) (by decide) (by decide) (by decide) (by decide) (by decide) (by decide))
  rw [hb, L3_P2_be2, h0]

set_option maxRecDepth 16384 in
set_option maxHeartbeats 1000000 in
theorem read_L3_M2_sum2 (V : Valuation τ sig (Elt Ideal)) :
    after ops V (Proc.devRef .tc main_v298) = colSum (after ops V (Proc.devRef .tc main_v293)) := by
  have hb : after ops V (Proc.devRef .tc main_v298) = after L3_M2 (after pre55 V) (Proc.devRef .tc main_v298) :=
    (congrArg (fun l => after l V (Proc.devRef .tc main_v298)) ops_eq55).trans (after_mid pre55 L3_M2 post55 post55_writes V (by decide))
  have h0 : after pre55 V (Proc.devRef .tc main_v293) = (after ops V (Proc.devRef .tc main_v293)) :=
    ((congrArg (fun l => after l V (Proc.devRef .tc main_v293)) ops_eq55).trans (after_pre pre55 (L3_M2 ++ post55) (writesIn_append L3_M2_writes post55_writes) V (by decide))).symm
  rw [hb, L3_M2_sum2, h0]

set_option maxRecDepth 16384 in
set_option maxHeartbeats 1000000 in
theorem read_L3_M2_mean2 (V : Valuation τ sig (Elt Ideal)) :
    after ops V (Proc.devRef .tc main_v300) = meanStage (after ops V (Proc.devRef .tc main_v293)) := by
  have hb : after ops V (Proc.devRef .tc main_v300) = after L3_M2 (after pre55 V) (Proc.devRef .tc main_v300) :=
    (congrArg (fun l => after l V (Proc.devRef .tc main_v300)) ops_eq55).trans (after_mid pre55 L3_M2 post55 post55_writes V (by decide))
  have h0 : after pre55 V (Proc.devRef .tc main_v293) = (after ops V (Proc.devRef .tc main_v293)) :=
    ((congrArg (fun l => after l V (Proc.devRef .tc main_v293)) ops_eq55).trans (after_pre pre55 (L3_M2 ++ post55) (writesIn_append L3_M2_writes post55_writes) V (by decide))).symm
  rw [hb, L3_M2_mean2, h0]

set_option maxRecDepth 16384 in
set_option maxHeartbeats 1000000 in
theorem read_L3_V2_var2 (V : Valuation τ sig (Elt Ideal)) :
    after ops V (Proc.devRef .tc main_v301) = varStage (after ops V (Proc.devRef .tc main_v293)) := by
  have hb : after ops V (Proc.devRef .tc main_v301) = after L3_V2 (after pre56 V) (Proc.devRef .tc main_v301) :=
    (congrArg (fun l => after l V (Proc.devRef .tc main_v301)) ops_eq56).trans (after_mid pre56 L3_V2 post56 post56_writes V (by decide))
  have h0 : after pre56 V (Proc.devRef .tc main_v293) = (after ops V (Proc.devRef .tc main_v293)) :=
    ((congrArg (fun l => after l V (Proc.devRef .tc main_v293)) ops_eq56).trans (after_pre pre56 (L3_V2 ++ post56) (writesIn_append L3_V2_writes post56_writes) V (by decide))).symm
  rw [hb, L3_V2_var2, h0]

set_option maxRecDepth 16384 in
set_option maxHeartbeats 1000000 in
theorem read_L3_B2_bn2 (V : Valuation τ sig (Elt Ideal)) :
    after ops V (Proc.devRef .tc main_v316) = bnOf (after ops V (Proc.devRef .tc main_v293)) (after ops V (Proc.devRef .tc main_v300)) (after ops V (Proc.devRef .tc main_v301)) (after ops V (Proc.devRef .tc main_v295)) (after ops V (Proc.devRef .tc main_v297)) := by
  have hb : after ops V (Proc.devRef .tc main_v316) = after L3_B2 (after pre57 V) (Proc.devRef .tc main_v316) :=
    (congrArg (fun l => after l V (Proc.devRef .tc main_v316)) ops_eq57).trans (after_mid pre57 L3_B2 post57 post57_writes V (by decide))
  have h0 : after pre57 V (Proc.devRef .tc main_v293) = (after ops V (Proc.devRef .tc main_v293)) :=
    ((congrArg (fun l => after l V (Proc.devRef .tc main_v293)) ops_eq57).trans (after_pre pre57 (L3_B2 ++ post57) (writesIn_append L3_B2_writes post57_writes) V (by decide))).symm
  have h1 : after pre57 V (Proc.devRef .tc main_v300) = (after ops V (Proc.devRef .tc main_v300)) :=
    ((congrArg (fun l => after l V (Proc.devRef .tc main_v300)) ops_eq57).trans (after_pre pre57 (L3_B2 ++ post57) (writesIn_append L3_B2_writes post57_writes) V (by decide))).symm
  have h2 : after pre57 V (Proc.devRef .tc main_v301) = (after ops V (Proc.devRef .tc main_v301)) :=
    ((congrArg (fun l => after l V (Proc.devRef .tc main_v301)) ops_eq57).trans (after_pre pre57 (L3_B2 ++ post57) (writesIn_append L3_B2_writes post57_writes) V (by decide))).symm
  have h3 : after pre57 V (Proc.devRef .tc main_v295) = (after ops V (Proc.devRef .tc main_v295)) :=
    ((congrArg (fun l => after l V (Proc.devRef .tc main_v295)) ops_eq57).trans (after_pre pre57 (L3_B2 ++ post57) (writesIn_append L3_B2_writes post57_writes) V (by decide))).symm
  have h4 : after pre57 V (Proc.devRef .tc main_v297) = (after ops V (Proc.devRef .tc main_v297)) :=
    ((congrArg (fun l => after l V (Proc.devRef .tc main_v297)) ops_eq57).trans (after_pre pre57 (L3_B2 ++ post57) (writesIn_append L3_B2_writes post57_writes) V (by decide))).symm
  rw [hb, L3_B2_bn2, h0, h1, h2, h3, h4]

set_option maxRecDepth 16384 in
set_option maxHeartbeats 1000000 in
theorem read_L3_R2_out (V : Valuation τ sig (Elt Ideal)) :
    after ops V (Proc.devRef .tc main_v317) = reluStage (after ops V (Proc.devRef .tc main_v316)) := by
  have hb : after ops V (Proc.devRef .tc main_v317) = after L3_R2 (after pre58 V) (Proc.devRef .tc main_v317) :=
    (congrArg (fun l => after l V (Proc.devRef .tc main_v317)) ops_eq58).trans (after_mid pre58 L3_R2 post58 post58_writes V (by decide))
  have h0 : after pre58 V (Proc.devRef .tc main_v316) = (after ops V (Proc.devRef .tc main_v316)) :=
    ((congrArg (fun l => after l V (Proc.devRef .tc main_v316)) ops_eq58).trans (after_pre pre58 (L3_R2 ++ post58) (writesIn_append L3_R2_writes post58_writes) V (by decide))).symm
  rw [hb, L3_R2_out, h0]

set_option maxRecDepth 16384 in
set_option maxHeartbeats 1000000 in
theorem read_T_T_result (V : Valuation τ sig (Elt Ideal)) :
    after ops V (Proc.devRef .tc main_v329) = tailStage (after ops V (Proc.devRef .tc main_v317)) (V (Proc.devRef .tc main_arg2)) (V (Proc.devRef .tc main_arg13)) (V (Proc.devRef .tc main_arg14)) := by
  have hb : after ops V (Proc.devRef .tc main_v329) = after T_T (after pre59 V) (Proc.devRef .tc main_v329) :=
    (congrArg (fun l => after l V (Proc.devRef .tc main_v329)) ops_eq59).trans (after_mid pre59 T_T post59 post59_writes V (by decide))
  have h0 : after pre59 V (Proc.devRef .tc main_v317) = (after ops V (Proc.devRef .tc main_v317)) :=
    ((congrArg (fun l => after l V (Proc.devRef .tc main_v317)) ops_eq59).trans (after_pre pre59 (T_T ++ post59) (writesIn_append T_T_writes post59_writes) V (by decide))).symm
  have h1 : after pre59 V (Proc.devRef .tc main_arg2) = (V (Proc.devRef .tc main_arg2)) :=
    ((congrArg (fun l => after l V (Proc.devRef .tc main_arg2)) ops_eq59).trans (after_pre pre59 (T_T ++ post59) (writesIn_append T_T_writes post59_writes) V (by decide))).symm.trans (keep V main_arg2 (by decide) (by decide) (by decide) (by decide) (by decide) (by decide) (by decide))
  have h2 : after pre59 V (Proc.devRef .tc main_arg13) = (V (Proc.devRef .tc main_arg13)) :=
    ((congrArg (fun l => after l V (Proc.devRef .tc main_arg13)) ops_eq59).trans (after_pre pre59 (T_T ++ post59) (writesIn_append T_T_writes post59_writes) V (by decide))).symm.trans (keep V main_arg13 (by decide) (by decide) (by decide) (by decide) (by decide) (by decide) (by decide))
  have h3 : after pre59 V (Proc.devRef .tc main_arg14) = (V (Proc.devRef .tc main_arg14)) :=
    ((congrArg (fun l => after l V (Proc.devRef .tc main_arg14)) ops_eq59).trans (after_pre pre59 (T_T ++ post59) (writesIn_append T_T_writes post59_writes) V (by decide))).symm.trans (keep V main_arg14 (by decide) (by decide) (by decide) (by decide) (by decide) (by decide) (by decide))
  rw [hb, T_T_result, h0, h1, h2, h3]

/-! ## The layers and the result -/

set_option maxRecDepth 16384 in
set_option maxHeartbeats 2000000 in
/-- Layer 0 as a whole: its output buffer holds the layer's function of what its input buffer holds and of row 0 of the
    stacked parameters — the stage equations substituted into one another, output first. -/
theorem layer0 (V : Valuation τ sig (Elt Ideal)) :
    after ops V (Proc.devRef .tc main_v85) = layerStage (after ops V (Proc.devRef .tc main_v8)) (V (Proc.devRef .tc main_arg1)) (matAt0 (V (Proc.devRef .tc main_arg5))) (rowAt0 (V (Proc.devRef .tc main_arg6))) (rowAt0 (V (Proc.devRef .tc main_arg7))) (rowAt0 (V (Proc.devRef .tc main_arg8))) (matAt0 (V (Proc.devRef .tc main_arg9))) (rowAt0 (V (Proc.devRef .tc main_arg10))) (rowAt0 (V (Proc.devRef .tc main_arg11))) (rowAt0 (V (Proc.devRef .tc main_arg12))) := by
  rw [read_L0_R2_out, read_L0_B2_bn2, read_L0_M2_mean2, read_L0_V2_var2, read_L0_P2_g2, read_L0_P2_be2, read_L0_L2_y2, read_L0_R1_z, read_L0_B1_bn1, read_L0_M1_mean1, read_L0_V1_var1, read_L0_P1_g1, read_L0_P1_be1, read_L0_L1_y1, read_L0_H_h, read_L0_A_agg, read_I_E_src, read_I_E_dst]
  rfl

set_option maxRecDepth 16384 in
set_option maxHeartbeats 2000000 in
/-- Layer 1 as a whole: its output buffer holds the layer's function of what its input buffer holds and of row 1 of the
    stacked parameters — the stage equations substituted into one another, output first. -/
theorem layer1 (V : Valuation τ sig (Elt Ideal)) :
    after ops V (Proc.devRef .tc main_v163) = layerStage (after ops V (Proc.devRef .tc main_v86)) (V (Proc.devRef .tc main_arg1)) (matAt1 (V (Proc.devRef .tc main_arg5))) (rowAt1 (V (Proc.devRef .tc main_arg6))) (rowAt1 (V (Proc.devRef .tc main_arg7))) (rowAt1 (V (Proc.devRef .tc main_arg8))) (matAt1 (V (Proc.devRef .tc main_arg9))) (rowAt1 (V (Proc.devRef .tc main_arg10))) (rowAt1 (V (Proc.devRef .tc main_arg11))) (rowAt1 (V (Proc.devRef .tc main_arg12))) := by
  rw [read_L1_R2_out, read_L1_B2_bn2, read_L1_M2_mean2, read_L1_V2_var2, read_L1_P2_g2, read_L1_P2_be2, read_L1_L2_y2, read_L1_R1_z, read_L1_B1_bn1, read_L1_M1_mean1, read_L1_V1_var1, read_L1_P1_g1, read_L1_P1_be1, read_L1_L1_y1, read_L1_H_h, read_L1_A_agg, read_I_E_src, read_I_E_dst]
  rfl

set_option maxRecDepth 16384 in
set_option maxHeartbeats 2000000 in
/-- Layer 2 as a whole: its output buffer holds the layer's function of what its input buffer holds and of row 2 of the
    stacked parameters — the stage equations substituted into one another, output first. -/
theorem layer2 (V : Valuation τ sig (Elt Ideal)) :
    after ops V (Proc.devRef .tc main_v240) = layerStage (after ops V (Proc.devRef .tc main_v163)) (V (Proc.devRef .tc main_arg1)) (matAt2 (V (Proc.devRef .tc main_arg5))) (rowAt2 (V (Proc.devRef .tc main_arg6))) (rowAt2 (V (Proc.devRef .tc main_arg7))) (rowAt2 (V (Proc.devRef .tc main_arg8))) (matAt2 (V (Proc.devRef .tc main_arg9))) (rowAt2 (V (Proc.devRef .tc main_arg10))) (rowAt2 (V (Proc.devRef .tc main_arg11))) (rowAt2 (V (Proc.devRef .tc main_arg12))) := by
  rw [read_L2_R2_out, read_L2_B2_bn2, read_L2_M2_mean2, read_L2_V2_var2, read_L2_P2_g2, read_L2_P2_be2, read_L2_L2_y2, read_L2_R1_z, read_L2_B1_bn1, read_L2_M1_mean1, read_L2_V1_var1, read_L2_P1_g1, read_L2_P1_be1, read_L2_L1_y1, read_L2_H_h, read_L2_A_agg, read_I_E_src, read_I_E_dst]
  rfl

set_option maxRecDepth 16384 in
set_option maxHeartbeats 2000000 in
/-- Layer 3 as a whole: its output buffer holds the layer's function of what its input buffer holds and of row 3 of the
    stacked parameters — the stage equations substituted into one another, output first. -/
theorem layer3 (V : Valuation τ sig (Elt Ideal)) :
    after ops V (Proc.devRef .tc main_v317) = layerStage (after ops V (Proc.devRef .tc main_v240)) (V (Proc.devRef .tc main_arg1)) (matAt3 (V (Proc.devRef .tc main_arg5))) (rowAt3 (V (Proc.devRef .tc main_arg6))) (rowAt3 (V (Proc.devRef .tc main_arg7))) (rowAt3 (V (Proc.devRef .tc main_arg8))) (matAt3 (V (Proc.devRef .tc main_arg9))) (rowAt3 (V (Proc.devRef .tc main_arg10))) (rowAt3 (V (Proc.devRef .tc main_arg11))) (rowAt3 (V (Proc.devRef .tc main_arg12))) := by
  rw [read_L3_R2_out, read_L3_B2_bn2, read_L3_M2_mean2, read_L3_V2_var2, read_L3_P2_g2, read_L3_P2_be2, read_L3_L2_y2, read_L3_R1_z, read_L3_B1_bn1, read_L3_M1_mean1, read_L3_V1_var1, read_L3_P1_g1, read_L3_P1_be1, read_L3_L1_y1, read_L3_H_h, read_L3_A_agg, read_I_E_src, read_I_E_dst]
  rfl

set_option maxRecDepth 16384 in
set_option maxHeartbeats 2000000 in
/-- After the whole line, from any contents `V`, the result buffer holds the reference's function of the contents of
    the fifteen argument buffers. -/
theorem read_result (V : Valuation τ sig (Elt Ideal)) :
    after ops V (Proc.devRef .tc main_v329)
      = refOut (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) := by
  rw [read_T_T_result, layer3, layer2, layer1, read_L0_R3_out2, layer0, read_I_I_x0]
  rfl

end Cert.ReferenceIdeal.HandRun

end
-- ==== Proof.LibDotEntry.lean ====
/-
  A matrix product read at an entry, on the host and on the TensorCore. At exact arithmetic the host's `dot_general` of an m×K matrix by a K×n
  matrix, whose dimension numbers contract the left factor's columns against the right factor's rows, has at entry
  (p, q) the sum over k of left (p, k) · right (k, q) — the same sum a TensorCore matrix product into a zero
  accumulator has there. Stated for any dimension record of these three shapes, given where it sends an output index
  and a contraction index.
-/
import Idealize.ShloMosaic.Lib.ValueIdx
import Idealize.ShloMosaic.PureOps.Ideal.Laws

noncomputable section

namespace Cert.Lib.DotEntry

open Idealize.ShloMosaic Idealize.ShloMosaic.TcCoe Idealize.SL.Sem Idealize.ShloMosaic.ValueIdx

/-- The host's product of an m×K by a K×n matrix, read at entry (p, q), is the sum over the one contracted axis of
    the products of row p of the left factor with column q of the right factor. The four hypotheses say where the
    product's dimension numbers send an output index and a contraction index: to (row, k) on the left and
    (k, column) on the right. -/
theorem dotGeneral_ix2 {m K n : Nat} (D : DotDims ⟨2, ![m, K]⟩ ⟨2, ![K, n]⟩ ⟨2, ![m, n]⟩)
    (hr : D.contr.rank = 1) (hs : D.contr.size ⟨0, by omega⟩ = K)
    (hl0 : ∀ (i : (⟨2, ![m, n]⟩ : Shape).Idx) (c : D.contr.Idx), (D.lhsIdx i c 0).val = (i 0).val)
    (hl1 : ∀ (i : (⟨2, ![m, n]⟩ : Shape).Idx) (c : D.contr.Idx), (D.lhsIdx i c 1).val = (c ⟨0, by omega⟩).val)
    (hr0 : ∀ (i : (⟨2, ![m, n]⟩ : Shape).Idx) (c : D.contr.Idx), (D.rhsIdx i c 0).val = (c ⟨0, by omega⟩).val)
    (hr1 : ∀ (i : (⟨2, ![m, n]⟩ : Shape).Idx) (c : D.contr.Idx), (D.rhsIdx i c 1).val = (i 1).val)
    (lhs : FVec Ideal ⟨2, ![m, K]⟩ .f32) (rhs : FVec Ideal ⟨2, ![K, n]⟩ .f32) (p : Fin m) (q : Fin n) :
    Host.dotGeneral (F := Ideal) D none lhs rhs (ix2 p q) = ∑ k : Fin K, lhs (ix2 p k) * rhs (ix2 k q) := by
  simp only [Host.dotGeneral]
  rw [Ideal.dotGeneral_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

/-- A TensorCore product of an m×K by a K×n matrix (of any two float formats: at exact arithmetic a format is only a
    label) into a zero accumulator, read at entry (p, q), is the same sum. -/
theorem matmul_zero_ix2 {m K n : Nat} {φ₁ φ₂ : FTy} (D : DotDims ⟨2, ![m, K]⟩ ⟨2, ![K, n]⟩ ⟨2, ![m, n]⟩)
    (hr : D.contr.rank = 1) (hs : D.contr.size ⟨0, by omega⟩ = K)
    (hl0 : ∀ (i : (⟨2, ![m, n]⟩ : Shape).Idx) (c : D.contr.Idx), (D.lhsIdx i c 0).val = (i 0).val)
    (hl1 : ∀ (i : (⟨2, ![m, n]⟩ : Shape).Idx) (c : D.contr.Idx), (D.lhsIdx i c 1).val = (c ⟨0, by omega⟩).val)
    (hr0 : ∀ (i : (⟨2, ![m, n]⟩ : Shape).Idx) (c : D.contr.Idx), (D.rhsIdx i c 0).val = (c ⟨0, by omega⟩).val)
    (hr1 : ∀ (i : (⟨2, ![m, n]⟩ : Shape).Idx) (c : D.contr.Idx), (D.rhsIdx i c 1).val = (i 1).val)
    (lhs : FVec Ideal ⟨2, ![m, K]⟩ φ₁) (rhs : FVec Ideal ⟨2, ![K, n]⟩ φ₂) (p : Fin m) (q : Fin n) :
    matmul D none lhs rhs (constant (F := Ideal) ⟨2, ![m, n]⟩ .f32 0x00000000#32) (ix2 p q)
      = ∑ k : Fin K, lhs (ix2 p k) * rhs (ix2 k q) := by
  refine (Ideal.matmul_constant_zero_apply D none lhs rhs (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

end Cert.Lib.DotEntry

end
-- ==== Proof.KPay.lean ====
/-
  The arithmetic of the kernel bodies, read at one entry. Every body of the thirteen regions is built from three
  pieces: an affine map of rows (a 10000×128 block times a 128×128 matrix into a zero accumulator, plus a bias row),
  a normalisation followed by a rectifier (entrywise, with four one-row blocks of per-column coefficients), and the
  column sums of a 10000×128 block. Each piece is read at an entry over arbitrary blocks, then set against the
  whole-array function of which the block's result is one block: for a block of rows T·10000 … T·10000 + 9999 of a
  100000×128 array, the body's result at (r, q) is the whole-array function at (T·10000 + r, q), and a column sum is the
  whole-array block sum at (T, 0, q).
-/
import proofs.«119304_j10247791968545_2_alg».proof.Proof.Gen.KernelIdeal.Skeleton
import proofs.«119304_j10247791968545_2_alg».proof.Proof.LibDotEntry
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionValue

open Idealize.ShloMosaic Idealize.ShloMosaic.TcCoe Idealize.SL.Sem Idealize.ShloMosaic.ValueIdx
open Cert.KernelIdeal Cert.KernelIdeal.Gen

/-! ## The bodies' arithmetic at an entry

Every body of the thirteen regions is built from three pieces: an affine map of rows (a 10000×128 block times a 128×128
matrix into a zero accumulator, plus a bias row), a normalisation followed by a rectifier (entrywise, with four rows of
per-column coefficients), and a column sum of a 10000×128 block. Each is read here at one entry, over arbitrary blocks. -/

/-- The matrix product of a 10000×128 block by a 128×128 matrix into a zero accumulator, at an entry: row times column. -/
theorem mm_apply (lhs : FVec Ideal S10000x128 .f32) (rhs : FVec Ideal S128x128 .f32) (r : Fin 10000) (q : Fin 128) :
    matmul dot_S10000x128_S128x128_S10000x128_1_0_0_1_n_n none lhs rhs (constant (F := Ideal) S10000x128 .f32 0x00000000#32) (ix2 r q)
      = ∑ k : Fin 128, lhs (ix2 r k) * rhs (ix2 k q) :=
  Cert.Lib.DotEntry.matmul_zero_ix2 dot_S10000x128_S128x128_S10000x128_1_0_0_1_n_n rfl rfl
    (fun i c => rfl)
    (fun i c => DotDims.lhsIdx_val_of_single dot_S10000x128_S128x128_S10000x128_1_0_0_1_n_n (cl := 1) rfl i c)
    (fun i c => DotDims.rhsIdx_val_of_single dot_S10000x128_S128x128_S10000x128_1_0_0_1_n_n (cr := 0) rfl i c)
    (fun i c => rfl) lhs rhs r q

/-- The affine map of rows at an entry: (x · w) (r, q) + b (0, q). -/
theorem lin_apply (x : FVec Ideal S10000x128 .f32) (w : FVec Ideal S128x128 .f32) (b : FVec Ideal S1x128 .f32)
    (hw : S128x128.ShapeCasts S128x128) (hb : S1x128.ShapeCasts S1x128) (hbc : S1x128.Broadcasts S10000x128)
    (r : Fin 10000) (q : Fin 128) :
    addf (matmul dot_S10000x128_S128x128_S10000x128_1_0_0_1_n_n none x (shapeCast S128x128 w hw)
            (constant (F := Ideal) S10000x128 .f32 0x00000000#32))
         (broadcastTo S10000x128 (shapeCast S1x128 b hb) hbc) (ix2 r q)
      = (∑ k : Fin 128, x (ix2 r k) * w (ix2 k q)) + b (ix2 0 q) := by
  rw [addf_apply, mm_apply, shapeCast_self, shapeCast_self, broadcastTo_1b_ab_apply]

/-- The normalised and rectified entry: max (g·(y − mean)·rsqrt (var + ε) + β) 0, the coefficients read in row 0 of
    their one-row blocks at the entry's column; ε is the single-precision word 0x3727C5AC. -/
theorem bn_apply (y : FVec Ideal S10000x128 .f32) (var g mean be : FVec Ideal S1x128 .f32)
    (h1 : S10000x128.ShapeCasts S10000x128) (h2 : S1x128.ShapeCasts S1x128) (hbc : S1x128.Broadcasts S10000x128)
    (r : Fin 10000) (q : Fin 128) :
    maximumf (addf (mulf (mulf (broadcastTo S10000x128 (shapeCast S1x128 g h2) hbc)
                               (subf (shapeCast S10000x128 y h1) (broadcastTo S10000x128 (shapeCast S1x128 mean h2) hbc)))
                         (broadcastTo S10000x128 (rsqrt (addf (shapeCast S1x128 var h2)
                            (broadcast S1x128 (Scalar.ofBits (F := Ideal) .f32 0x3727C5AC#32)))) hbc))
                   (broadcastTo S10000x128 (shapeCast S1x128 be h2) hbc))
             (broadcast S10000x128 (Scalar.ofBits (F := Ideal) .f32 0x00000000#32)) (ix2 r q)
      = max ((g (ix2 0 q) * (y (ix2 r q) - mean (ix2 0 q))) * Ideal.rsqrt (var (ix2 0 q) + Ideal.ofBits .f32 0x3727C5AC#32)
              + be (ix2 0 q)) 0 := by
  rw [maximumf_apply, addf_apply, mulf_apply, mulf_apply, subf_apply, broadcastTo_1b_ab_apply, broadcastTo_1b_ab_apply,
    broadcastTo_1b_ab_apply, broadcastTo_1b_ab_apply, shapeCast_self, shapeCast_self, shapeCast_self, shapeCast_self, shapeCast_self,
    broadcast_apply]
  show max (_ * Ideal.rsqrt (var (ix2 0 q) + Ideal.ofBits .f32 0x3727C5AC#32) + _) (Ideal.ofBits .f32 0x00000000#32) = _
  rw [Ideal.ofBits_zero_f32]

/-- The column sum of a 10000×128 block, stored as a 1×1×128 block, at an entry: the sum of the column. -/
theorem colsum_apply (y : FVec Ideal S10000x128 .f32) (hr : S10000x128.Reduces [0] S128) (hφ : FKind.Formats .f32)
    (hacc : (0x00000000#32 : BitVec 32) = FKind.add.neutral .f32 hφ)
    (h1 : S128.ShapeCasts S1x128) (h2 : S1x128.ShapeCasts S1x1x128) (u v : Fin 1) (q : Fin 128) :
    shapeCast S1x1x128 (shapeCast S1x128 (multiReduction .add [0] S128 y 0x00000000#32 hr hφ hacc) h1) h2 (ix3 u v q)
      = ∑ r : Fin 10000, y (ix2 r q) := by
  rw [shapeCast_ab_1ab_apply, shapeCast_a_1a_apply]
  refine (Ideal.multiReduction_add_single y _ hr hφ hacc (ix1 q)).trans ?_
  exact Finset.sum_congr rfl fun k _ => congrArg y (funext fun a => Fin.ext (by
    match a with
    | ⟨0, _⟩ => rfl
    | ⟨1, _⟩ => rfl))

/-! ## The whole-array functions -/

/-- Rows times a matrix plus a bias row: entry (p, q) is Σₖ X (p, k) · W (k, q) + B (0, q). -/
def linG (X : FVec Ideal S100000x128 .f32) (W : FVec Ideal S128x128 .f32) (B : FVec Ideal S1x128 .f32) :
    FVec Ideal S100000x128 .f32 :=
  fun i => (∑ k : Fin 128, X (ix2 (i 0) k) * W (ix2 k (i 1))) + B (ix2 0 (i 1))

/-- Normalise and rectify: entry (p, q) is max (G (0, q) · (Y (p, q) − M (0, q)) · rsqrt (Vr (0, q) + ε) + Be (0, q)) 0,
    ε the single-precision word 0x3727C5AC. -/
def bnG (Y : FVec Ideal S100000x128 .f32) (M Vr G Be : FVec Ideal S1x128 .f32) : FVec Ideal S100000x128 .f32 :=
  fun i => max ((G (ix2 0 (i 1)) * (Y i - M (ix2 0 (i 1)))) * Ideal.rsqrt (Vr (ix2 0 (i 1)) + Ideal.ofBits .f32 0x3727C5AC#32)
    + Be (ix2 0 (i 1))) 0

/-- Column sums over blocks of 10000 rows: entry (b, 0, q) is the sum over r < 10000 of Y (b · 10000 + r, q). -/
def sumG (Y : FVec Ideal S100000x128 .f32) : FVec Ideal S10x1x128 .f32 :=
  fun i => ∑ r : Fin 10000, Y (ix2 (⟨(i 0).val * 10000 + r.val, by
    have h : (i 0).val < 10 := (i 0).isLt
    have := r.isLt
    omega⟩ : Fin 100000) (i 2))

/-- The entrywise sum of two arrays. -/
def addG (X0 X1 : FVec Ideal S100000x128 .f32) : FVec Ideal S100000x128 .f32 := fun i => X0 i + X1 i

/-- The entrywise square of an array. -/
def sqG (Y : FVec Ideal S100000x128 .f32) : FVec Ideal S100000x128 .f32 := fun i => Y i * Y i

theorem addG_apply (X0 X1 : FVec Ideal S100000x128 .f32) (i : S100000x128.Idx) : addG X0 X1 i = X0 i + X1 i := rfl

theorem sqG_apply (Y : FVec Ideal S100000x128 .f32) (i : S100000x128.Idx) : sqG Y i = Y i * Y i := rfl

theorem linG_apply (X : FVec Ideal S100000x128 .f32) (W : FVec Ideal S128x128 .f32) (B : FVec Ideal S1x128 .f32)
    (p : Fin 100000) (q : Fin 128) :
    linG X W B (ix2 p q) = (∑ k : Fin 128, X (ix2 p k) * W (ix2 k q)) + B (ix2 0 q) := rfl

theorem bnG_apply (Y : FVec Ideal S100000x128 .f32) (M Vr G Be : FVec Ideal S1x128 .f32) (p : Fin 100000) (q : Fin 128) :
    bnG Y M Vr G Be (ix2 p q) = max ((G (ix2 0 q) * (Y (ix2 p q) - M (ix2 0 q)))
      * Ideal.rsqrt (Vr (ix2 0 q) + Ideal.ofBits .f32 0x3727C5AC#32) + Be (ix2 0 q)) 0 := rfl

theorem sumG_apply (Y : FVec Ideal S100000x128 .f32) (b : Fin 10) (u : Fin 1) (q : Fin 128) :
    sumG Y (ix3 b u q) = ∑ r : Fin 10000, Y (ix2 (⟨b.val * 10000 + r.val, by have := b.isLt; have := r.isLt; omega⟩ : Fin 100000) q) := rfl

/-! ## A block's result is a block of the whole-array function -/

/-- An index of a 10000×128 block and the index of the 100000×128 array it sits at in block row T. -/
def At (T : Nat) (j : S10000x128.Idx) (i : S100000x128.Idx) : Prop :=
  (i 0).val = T * 10000 + (j 0).val ∧ (i 1).val = (j 1).val

/-- The block x holds rows T·10000 … of the array X. -/
def IsBlock (T : Nat) (x : FVec Ideal S10000x128 .f32) (X : FVec Ideal S100000x128 .f32) : Prop :=
  ∀ (j : S10000x128.Idx) (i : S100000x128.Idx), At T j i → x j = X i

theorem At.row {T : Nat} {r : Fin 10000} {q : Fin 128} {i : S100000x128.Idx} (h : At T (ix2 r q) i) (k : Fin 128) :
    At T (ix2 r k) (ix2 (i 0) k) := ⟨h.1, rfl⟩

theorem At.col {T : Nat} {r : Fin 10000} {q : Fin 128} {i : S100000x128.Idx} (h : At T (ix2 r q) i) : i 1 = q :=
  Fin.ext h.2

/-- The affine map of the block of rows is the block of the affine map. -/
theorem lin_block (x : FVec Ideal S10000x128 .f32) (w : FVec Ideal S128x128 .f32) (b : FVec Ideal S1x128 .f32)
    (X : FVec Ideal S100000x128 .f32) (T : Nat) (hx : IsBlock T x X)
    (hw : S128x128.ShapeCasts S128x128) (hb : S1x128.ShapeCasts S1x128) (hbc : S1x128.Broadcasts S10000x128) :
    IsBlock T (addf (matmul dot_S10000x128_S128x128_S10000x128_1_0_0_1_n_n none x (shapeCast S128x128 w hw)
            (constant (F := Ideal) S10000x128 .f32 0x00000000#32))
         (broadcastTo S10000x128 (shapeCast S1x128 b hb) hbc)) (linG X w b) := by
  intro j i hji
  obtain ⟨r, q, rfl⟩ : ∃ (r : Fin 10000) (q : Fin 128), j = ix2 r q := ⟨j 0, j 1, eq_ix2 j⟩
  rw [lin_apply]
  unfold linG
  rw [hji.col]
  exact congrArg (· + b (ix2 0 q)) (Finset.sum_congr rfl fun k _ => congrArg (· * w (ix2 k q)) (hx _ _ (hji.row k)))

/-- The sum of two blocks of rows is the block of the sum. -/
theorem add_block (x0 x1 : FVec Ideal S10000x128 .f32) (X0 X1 : FVec Ideal S100000x128 .f32) (T : Nat)
    (h0 : IsBlock T x0 X0) (h1 : IsBlock T x1 X1) (hc : S10000x128.ShapeCasts S10000x128) :
    IsBlock T (addf (shapeCast S10000x128 x0 hc) (shapeCast S10000x128 x1 hc)) (addG X0 X1) := by
  intro j i hji
  rw [addf_apply, shapeCast_self, shapeCast_self, h0 j i hji, h1 j i hji, addG_apply]

/-- The normalised, rectified block of rows is the block of the normalised, rectified array. -/
theorem bn_block (y : FVec Ideal S10000x128 .f32) (var g mean be : FVec Ideal S1x128 .f32)
    (Y : FVec Ideal S100000x128 .f32) (T : Nat) (hy : IsBlock T y Y)
    (h1 : S10000x128.ShapeCasts S10000x128) (h2 : S1x128.ShapeCasts S1x128) (hbc : S1x128.Broadcasts S10000x128) :
    IsBlock T (maximumf (addf (mulf (mulf (broadcastTo S10000x128 (shapeCast S1x128 g h2) hbc)
                               (subf (shapeCast S10000x128 y h1) (broadcastTo S10000x128 (shapeCast S1x128 mean h2) hbc)))
                         (broadcastTo S10000x128 (rsqrt (addf (shapeCast S1x128 var h2)
                            (broadcast S1x128 (Scalar.ofBits (F := Ideal) .f32 0x3727C5AC#32)))) hbc))
                   (broadcastTo S10000x128 (shapeCast S1x128 be h2) hbc))
             (broadcast S10000x128 (Scalar.ofBits (F := Ideal) .f32 0x00000000#32))) (bnG Y mean var g be) := by
  intro j i hji
  obtain ⟨r, q, rfl⟩ : ∃ (r : Fin 10000) (q : Fin 128), j = ix2 r q := ⟨j 0, j 1, eq_ix2 j⟩
  rw [bn_apply]
  unfold bnG
  rw [hji.col, hy _ _ hji]

/-- The entrywise square of a block of rows is the block of the entrywise square. -/
theorem sq_block (y : FVec Ideal S10000x128 .f32) (Y : FVec Ideal S100000x128 .f32) (T : Nat) (hy : IsBlock T y Y) :
    IsBlock T (mulf y y) (sqG Y) := by
  intro j i hji
  rw [mulf_apply, hy j i hji, sqG_apply]

/-- The column sums of block row T, stored as a 1×1×128 block, are entry (T, 0, ·) of the block sums. -/
theorem colsum_block (y : FVec Ideal S10000x128 .f32) (Y : FVec Ideal S100000x128 .f32) (T : Nat) (hy : IsBlock T y Y)
    (hr : S10000x128.Reduces [0] S128) (hφ : FKind.Formats .f32)
    (hacc : (0x00000000#32 : BitVec 32) = FKind.add.neutral .f32 hφ)
    (h1 : S128.ShapeCasts S1x128) (h2 : S1x128.ShapeCasts S1x1x128)
    (j : S1x1x128.Idx) (i : S10x1x128.Idx) (hi0 : (i 0).val = T) (hi2 : (i 2).val = (j 2).val) :
    shapeCast S1x1x128 (shapeCast S1x128 (multiReduction .add [0] S128 y 0x00000000#32 hr hφ hacc) h1) h2 j = sumG Y i := by
  obtain ⟨u, v, q, rfl⟩ : ∃ (u v : Fin 1) (q : Fin 128), j = ix3 u v q := ⟨j 0, j 1, j 2, eq_ix3 j⟩
  rw [colsum_apply]
  unfold sumG
  refine Finset.sum_congr rfl fun r _ => hy _ _ ⟨?_, ?_⟩
  · show (i 0).val * 10000 + r.val = T * 10000 + r.val
    rw [hi0]
  · exact hi2

theorem hz2 : (![0, 0] : Fin 2 → Nat) = fun _ => 0 := funext fun a => by fin_cases a <;> rfl
theorem hz3 : (![0, 0, 0] : Fin 3 → Nat) = fun _ => 0 := funext fun a => by fin_cases a <;> rfl

/-! ## An array that is one of these functions, read at an entry -/

theorem linG_entry {A X : FVec Ideal S100000x128 .f32} {W : FVec Ideal S128x128 .f32} {B : FVec Ideal S1x128 .f32}
    (h : A = linG X W B) (p : Fin 100000) (q : Fin 128) :
    A (ix2 p q) = (∑ k : Fin 128, X (ix2 p k) * W (ix2 k q)) + B (ix2 0 q) := by
  subst h; rfl

theorem bnG_entry {A Y : FVec Ideal S100000x128 .f32} {M Vr G Be : FVec Ideal S1x128 .f32}
    (h : A = bnG Y M Vr G Be) (p : Fin 100000) (q : Fin 128) :
    A (ix2 p q) = max ((G (ix2 0 q) * (Y (ix2 p q) - M (ix2 0 q)))
      * Ideal.rsqrt (Vr (ix2 0 q) + Ideal.ofBits .f32 0x3727C5AC#32) + Be (ix2 0 q)) 0 := by
  subst h; rfl

theorem sumG_entry {A : FVec Ideal S10x1x128 .f32} {Y : FVec Ideal S100000x128 .f32}
    (h : A = sumG Y) (b : Fin 10) (u : Fin 1) (q : Fin 128) :
    A (ix3 b u q) = ∑ r : Fin 10000, Y (ix2 (⟨b.val * 10000 + r.val, by have := b.isLt; have := r.isLt; omega⟩ : Fin 100000) q) := by
  subst h; rfl

end Cert.KernelIdeal.RegionValue
end
-- ==== Proof.Algebra.lean ====
/-
  The arithmetic that joins the two programs, free of either of them.

  * A finite sum of reals is a real, as an extended real (the coercion passes through a finite sum).
  * A sum over n = a·b rows taken block by block — a blocks of b consecutive rows — is the sum over all rows:
    addition of extended reals is commutative and associative, so no finiteness is needed.
  * The batch statistics of real numbers y_0 … y_{n-1}. With μ = (Σ y)/n,
        (Σ (y − μ)²)/n  =  (Σ y²)/n − μ²  ≥ 0,
    so clamping the one-pass form at zero from below changes nothing and the two ways of computing a variance agree.
    This uses that every y is real: on the extended reals ∞ − ∞ is not 0.
  * Being a real is preserved by sums, products, differences, maxima, division by a nonzero real, and the
    reciprocal square root of a positive real.
-/
import Idealize.ShloMosaic.PureOps.Ideal.Laws

noncomputable section

namespace Cert.Gin.Algebra

open Idealize.ShloMosaic

/-- An extended real that is a real number. -/
def IsReal (x : EReal) : Prop := ∃ r : ℝ, x = (r : EReal)

theorem isReal_coe (r : ℝ) : IsReal (r : EReal) := ⟨r, rfl⟩
theorem isReal_zero : IsReal (0 : EReal) := ⟨0, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.max {x y : EReal} (hx : IsReal x) (hy : IsReal y) : IsReal (max x y) := by
  rcases le_total x y with h | h
  · rwa [max_eq_right h]
  · rwa [max_eq_left h]

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of reals is a real. -/
theorem isReal_sum {ι : Type*} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- Division by a nonzero real keeps a real a real. -/
theorem IsReal.div_coe {x : EReal} (hx : IsReal x) {c : ℝ} (hc : c ≠ 0) : IsReal (Ideal.div x (c : EReal)) := by
  rw [Ideal.div_coe hc]; exact hx.mul (isReal_coe _)

/-- The reciprocal square root of a positive real is a real. -/
theorem isReal_rsqrt {x : EReal} (hx : IsReal x) (hpos : 0 < x) : IsReal (Ideal.rsqrt x) := by
  obtain ⟨a, rfl⟩ := hx
  have ha : 0 < a := by exact_mod_cast hpos
  rw [Ideal.rsqrt_coe, if_neg (not_lt.mpr ha.le), if_neg ha.ne']
  exact isReal_coe _

/-- A sum over n = a·b rows, taken as a blocks of b consecutive rows each, is the sum over all rows. -/
theorem sum_blocks {a b n : ℕ} (h : a * b = n) (f : Fin n → EReal)
    (hb : ∀ (i : Fin a) (j : Fin b), i.val * b + j.val < n) :
    ∑ i : Fin a, ∑ j : Fin b, f ⟨i.val * b + j.val, hb i j⟩ = ∑ p : Fin n, f p := by
  subst h
  rw [← Equiv.sum_comp finProdFinEquiv f, Fintype.sum_prod_type]
  refine Finset.sum_congr rfl fun i _ => Finset.sum_congr rfl fun j _ => congrArg f (Fin.ext ?_)
  show i.val * b + j.val = j.val + b * i.val
  rw [Nat.mul_comm, Nat.add_comm]

/-- The real identity behind the two variances: with μ = (Σ y)·(1/n), (Σ (y − μ)²)·(1/n) = (Σ y²)·(1/n) − μ². -/
theorem var_real {n : ℕ} (hn : 0 < n) (y : Fin n → ℝ) :
    (∑ p, (y p - (∑ p, y p) * (1 / (n : ℝ))) * (y p - (∑ p, y p) * (1 / (n : ℝ)))) * (1 / (n : ℝ))
      = (∑ p, y p * y p) * (1 / (n : ℝ)) - ((∑ p, y p) * (1 / (n : ℝ))) * ((∑ p, y p) * (1 / (n : ℝ))) := by
  have hn' : (n : ℝ) ≠ 0 := by exact_mod_cast hn.ne'
  set S := ∑ p, y p with hS
  set μ := S * (1 / (n : ℝ)) with hμ
  have e : ∑ p, (y p - μ) * (y p - μ) = (∑ p, y p * y p) - 2 * μ * S + (n : ℝ) * (μ * μ) := by
    have : ∀ p, (y p - μ) * (y p - μ) = y p * y p - 2 * μ * y p + μ * μ := fun p => by ring
    simp only [this, Finset.sum_add_distrib, Finset.sum_sub_distrib, ← Finset.mul_sum, Finset.sum_const,
      Finset.card_univ, Fintype.card_fin, nsmul_eq_mul, ← hS]
    ring
  rw [e, hμ]
  field_simp
  ring

/-- The one-pass variance of real numbers, clamped at zero from below, is their two-pass variance. -/
theorem var_law {n : ℕ} (hn : 0 < n) (y : Fin n → ℝ) :
    max (Ideal.div (∑ p, (y p : EReal) * (y p : EReal)) ((n : ℝ) : EReal)
          - Ideal.div (∑ p, (y p : EReal)) ((n : ℝ) : EReal) * Ideal.div (∑ p, (y p : EReal)) ((n : ℝ) : EReal)) 0
      = Ideal.div (∑ p, ((y p : EReal) - Ideal.div (∑ p, (y p : EReal)) ((n : ℝ) : EReal))
                        * ((y p : EReal) - Ideal.div (∑ p, (y p : EReal)) ((n : ℝ) : EReal))) ((n : ℝ) : EReal) := by
  have hn' : (n : ℝ) ≠ 0 := by exact_mod_cast hn.ne'
  have hs : (∑ p, (y p : EReal)) = ((∑ p, y p : ℝ) : EReal) := (coe_sum _ _).symm
  have hq : (∑ p, (y p : EReal) * (y p : EReal)) = ((∑ p, y p * y p : ℝ) : EReal) := by
    rw [coe_sum]; exact Finset.sum_congr rfl fun p _ => (EReal.coe_mul _ _).symm
  rw [hs, hq]
  simp only [Ideal.div_coe hn', ← EReal.coe_mul, ← EReal.coe_sub]
  rw [← coe_sum, ← EReal.coe_mul, var_real hn y]
  refine max_eq_left ?_
  rw [← var_real hn y]
  have : (0 : ℝ) ≤ (∑ p, (y p - (∑ p, y p) * (1 / (n : ℝ))) * (y p - (∑ p, y p) * (1 / (n : ℝ)))) * (1 / (n : ℝ)) :=
    mul_nonneg (Finset.sum_nonneg fun p _ => mul_self_nonneg _) (by positivity)
  exact_mod_cast this

/-- The two-pass variance of reals is a nonnegative real. -/
theorem var_isReal_nonneg {n : ℕ} (hn : 0 < n) (y : Fin n → ℝ) :
    ∃ v : ℝ, 0 ≤ v ∧ Ideal.div (∑ p, ((y p : EReal) - Ideal.div (∑ p, (y p : EReal)) ((n : ℝ) : EReal))
                        * ((y p : EReal) - Ideal.div (∑ p, (y p : EReal)) ((n : ℝ) : EReal))) ((n : ℝ) : EReal) = (v : EReal) := by
  have hn' : (n : ℝ) ≠ 0 := by exact_mod_cast hn.ne'
  have hs : (∑ p, (y p : EReal)) = ((∑ p, y p : ℝ) : EReal) := (coe_sum _ _).symm
  refine ⟨(∑ p, (y p - (∑ p, y p) * (1 / (n : ℝ))) * (y p - (∑ p, y p) * (1 / (n : ℝ)))) * (1 / (n : ℝ)),
    mul_nonneg (Finset.sum_nonneg fun p _ => mul_self_nonneg _) (by positivity), ?_⟩
  rw [hs]
  simp only [Ideal.div_coe hn', ← EReal.coe_mul, ← EReal.coe_sub]
  rw [← coe_sum, ← EReal.coe_mul]

end Cert.Gin.Algebra

end
-- ==== Proof.Layer.lean ====
/-
  One layer of the network as functions of matrices, free of either program, in the two forms the programs compute it.

  A matrix here is a function of a row p < 100000 and a column q < 128 into the extended reals.
  * An affine map: (X·Wt + b)(p, q) = Σ_k X(p, k)·Wt(k, q) + b(q). A real result when every entry is real.
  * The column sums of Y taken over ten blocks of 10000 consecutive rows and then over the blocks are the column
    sums over all rows.
  * The batch mean μ(q) = (Σ_p Y(p, q))/n; the variance in its one-pass form max((Σ_p Y²)/n − μ², 0) and in its
    two-pass form (Σ_p (Y − μ)²)/n. On real matrices the two agree, and the variance is a nonnegative real.
  * The normalisation followed by the positive part: max(((g·(Y − μ))·(v + ε)^(−1/2)) + β, 0), real when every
    ingredient is real, v ≥ 0 and ε > 0; applying the positive part twice is applying it once.
-/
import proofs.«119304_j10247791968545_2_alg».proof.Proof.Algebra

noncomputable section

namespace Cert.Gin.Layer

open Idealize.ShloMosaic Cert.Gin.Algebra

/-- The number of rows (nodes). -/
abbrev N : ℕ := 100000
/-- The number of columns (features). -/
abbrev D : ℕ := 128
/-- A matrix of n rows and d columns of extended reals. -/
abbrev Mat (n d : ℕ) := Fin n → Fin d → EReal

/-- X·Wt + b. -/
def lin {n : ℕ} (X : Mat n D) (Wt : Mat D D) (b : Fin D → EReal) : Mat n D :=
  fun p q => (∑ k : Fin D, X p k * Wt k q) + b q

theorem lin_isReal {n : ℕ} {X : Mat n D} {Wt : Mat D D} {b : Fin D → EReal} (hX : ∀ p k, IsReal (X p k))
    (hW : ∀ k q, IsReal (Wt k q)) (hb : ∀ q, IsReal (b q)) (p : Fin n) (q : Fin D) : IsReal (lin X Wt b p q) :=
  (isReal_sum _ _ fun k _ => (hX p k).mul (hW k q)).add (hb q)

/-- Row r of block i, among ten blocks of 10000 rows. -/
def row (i : Fin 10) (r : Fin 10000) : Fin N :=
  ⟨i.val * 10000 + r.val, by have := i.isLt; have := r.isLt; show i.val * 10000 + r.val < 100000; omega⟩

/-- The column sums over the blocks' column sums are the column sums over all rows. -/
theorem sum_rows (f : Fin N → EReal) : ∑ i : Fin 10, ∑ r : Fin 10000, f (row i r) = ∑ p : Fin N, f p :=
  sum_blocks (a := 10) (b := 10000) (n := N) rfl f fun i r => (row i r).isLt

/-- The batch mean of column q, for the divisor c. -/
def mean (c : EReal) (Y : Mat N D) (q : Fin D) : EReal := Ideal.div (∑ p : Fin N, Y p q) c

/-- The one-pass variance of column q, clamped at zero from below. -/
def var1 (c : EReal) (Y : Mat N D) (q : Fin D) : EReal :=
  max (Ideal.div (∑ p : Fin N, Y p q * Y p q) c - mean c Y q * mean c Y q) 0

/-- The two-pass variance of column q. -/
def var2 (c : EReal) (Y : Mat N D) (q : Fin D) : EReal :=
  Ideal.div (∑ p : Fin N, (Y p q - mean c Y q) * (Y p q - mean c Y q)) c

/-- The batch size as an extended real. -/
def cN : EReal := ((100000 : ℝ) : EReal)

theorem cN_eq : cN = (((N : ℕ) : ℝ) : EReal) := by
  unfold cN N; norm_num

/-- On a real matrix the two variances agree. -/
theorem var1_eq_var2 {Y : Mat N D} (hY : ∀ p q, IsReal (Y p q)) (q : Fin D) : var1 cN Y q = var2 cN Y q := by
  choose y hy using hY
  have e : (fun p => Y p q) = fun p => ((y p q : ℝ) : EReal) := funext fun p => hy p q
  unfold var1 var2 mean
  simp only [show ∀ p, Y p q = ((y p q : ℝ) : EReal) from fun p => hy p q, cN_eq]
  exact var_law (n := N) (by norm_num) (fun p => y p q)

/-- On a real matrix the batch mean is real. -/
theorem mean_isReal {Y : Mat N D} (hY : ∀ p q, IsReal (Y p q)) (q : Fin D) : IsReal (mean cN Y q) :=
  (isReal_sum _ _ fun p _ => hY p q).div_coe (by norm_num)

/-- On a real matrix the variance is a nonnegative real. -/
theorem var2_nonneg {Y : Mat N D} (hY : ∀ p q, IsReal (Y p q)) (q : Fin D) :
    ∃ v : ℝ, 0 ≤ v ∧ var2 cN Y q = (v : EReal) := by
  choose y hy using hY
  unfold var2 mean
  simp only [show ∀ p, Y p q = ((y p q : ℝ) : EReal) from fun p => hy p q, cN_eq]
  exact var_isReal_nonneg (n := N) (by norm_num) (fun p => y p q)

/-- The normalisation with scale g and shift β, followed by the positive part. -/
def bn (g be mu v : Fin D → EReal) (eps : EReal) (Y : Mat N D) : Mat N D :=
  fun p q => max ((g q * (Y p q - mu q)) * Ideal.rsqrt (v q + eps) + be q) 0

theorem bn_isReal {g be mu v : Fin D → EReal} {eps : EReal} {Y : Mat N D} (hg : ∀ q, IsReal (g q))
    (hbe : ∀ q, IsReal (be q)) (hmu : ∀ q, IsReal (mu q)) (hv : ∀ q, ∃ r : ℝ, 0 ≤ r ∧ v q = (r : EReal))
    (heps : ∃ e : ℝ, 0 < e ∧ eps = (e : EReal)) (hY : ∀ p q, IsReal (Y p q)) (p : Fin N) (q : Fin D) :
    IsReal (bn g be mu v eps Y p q) := by
  obtain ⟨r, hr, hvq⟩ := hv q
  obtain ⟨e, he, rfl⟩ := heps
  have hpos : (0 : EReal) < v q + (e : EReal) := by
    rw [hvq, ← EReal.coe_add]; exact_mod_cast add_pos_of_nonneg_of_pos hr he
  have hre : IsReal (v q + (e : EReal)) := by rw [hvq]; exact (isReal_coe r).add (isReal_coe e)
  exact ((((hg q).mul ((hY p q).sub (hmu q))).mul (isReal_rsqrt hre hpos)).add (hbe q)).max isReal_zero

/-- The positive part applied twice is the positive part. -/
theorem max_zero_idem (x : EReal) : max (max x 0) 0 = max x 0 := by
  rw [max_eq_left (le_max_right x 0)]

/-! ## One whole layer -/

/-- One layer: y₁ = (X + A)·W₁ᵗ + b₁ (A the neighbours' sum), normalised with its own batch statistics and cut at
    zero, then y₂ = (·)·W₂ᵗ + b₂, normalised with its batch statistics and cut at zero; `post` is applied to every
    entry at the end. The variance formula `var` is a parameter: the two programs differ in it. -/
def layer (var : EReal → Mat N D → Fin D → EReal) (post : EReal → EReal) (eps : EReal) (X A : Mat N D)
    (W1t : Mat D D) (b1 g1 be1 : Fin D → EReal) (W2t : Mat D D) (b2 g2 be2 : Fin D → EReal) : Mat N D :=
  fun p q =>
    post (bn g2 be2
      (mean cN (lin (bn g1 be1 (mean cN (lin (fun p k => X p k + A p k) W1t b1))
          (var cN (lin (fun p k => X p k + A p k) W1t b1)) eps (lin (fun p k => X p k + A p k) W1t b1)) W2t b2))
      (var cN (lin (bn g1 be1 (mean cN (lin (fun p k => X p k + A p k) W1t b1))
          (var cN (lin (fun p k => X p k + A p k) W1t b1)) eps (lin (fun p k => X p k + A p k) W1t b1)) W2t b2))
      eps
      (lin (bn g1 be1 (mean cN (lin (fun p k => X p k + A p k) W1t b1))
          (var cN (lin (fun p k => X p k + A p k) W1t b1)) eps (lin (fun p k => X p k + A p k) W1t b1)) W2t b2) p q)

section Agree

variable {eps : EReal} {X A : Mat N D} {W1t W2t : Mat D D} {b1 g1 be1 b2 g2 be2 : Fin D → EReal}

/-- With real ingredients the layer in its two-pass form is real entry by entry. -/
theorem layer_isReal (heps : ∃ e : ℝ, 0 < e ∧ eps = (e : EReal)) (hX : ∀ p q, IsReal (X p q)) (hA : ∀ p q, IsReal (A p q))
    (hW1 : ∀ k q, IsReal (W1t k q)) (hb1 : ∀ q, IsReal (b1 q)) (hg1 : ∀ q, IsReal (g1 q)) (hbe1 : ∀ q, IsReal (be1 q))
    (hW2 : ∀ k q, IsReal (W2t k q)) (hb2 : ∀ q, IsReal (b2 q)) (hg2 : ∀ q, IsReal (g2 q)) (hbe2 : ∀ q, IsReal (be2 q))
    (p : Fin N) (q : Fin D) : IsReal (layer var2 id eps X A W1t b1 g1 be1 W2t b2 g2 be2 p q) := by
  have hy1 : ∀ p q, IsReal (lin (fun p k => X p k + A p k) W1t b1 p q) :=
    fun p q => lin_isReal (fun p k => (hX p k).add (hA p k)) hW1 hb1 p q
  have hz1 := fun p q => bn_isReal hg1 hbe1 (mean_isReal hy1) (var2_nonneg hy1) heps hy1 p q
  have hy2 := fun p q => lin_isReal (X := bn g1 be1 (mean cN (lin (fun p k => X p k + A p k) W1t b1))
      (var2 cN (lin (fun p k => X p k + A p k) W1t b1)) eps (lin (fun p k => X p k + A p k) W1t b1)) hz1 hW2 hb2 p q
  exact bn_isReal hg2 hbe2 (mean_isReal hy2) (var2_nonneg hy2) heps hy2 p q

/-- With real ingredients the layer computed with the clamped one-pass variance is the layer computed with the
    two-pass variance, and a further positive part at the end changes nothing. -/
theorem layer_agree (heps : ∃ e : ℝ, 0 < e ∧ eps = (e : EReal)) (hX : ∀ p q, IsReal (X p q)) (hA : ∀ p q, IsReal (A p q))
    (hW1 : ∀ k q, IsReal (W1t k q)) (hb1 : ∀ q, IsReal (b1 q)) (hg1 : ∀ q, IsReal (g1 q)) (hbe1 : ∀ q, IsReal (be1 q))
    (hW2 : ∀ k q, IsReal (W2t k q)) (hb2 : ∀ q, IsReal (b2 q)) :
    layer var1 id eps X A W1t b1 g1 be1 W2t b2 g2 be2 = layer var2 id eps X A W1t b1 g1 be1 W2t b2 g2 be2
    ∧ layer var1 id eps X A W1t b1 g1 be1 W2t b2 g2 be2
        = layer var2 (fun x => max x 0) eps X A W1t b1 g1 be1 W2t b2 g2 be2 := by
  have hy1 : ∀ p q, IsReal (lin (fun p k => X p k + A p k) W1t b1 p q) :=
    fun p q => lin_isReal (fun p k => (hX p k).add (hA p k)) hW1 hb1 p q
  have ev1 : var1 cN (lin (fun p k => X p k + A p k) W1t b1) = var2 cN (lin (fun p k => X p k + A p k) W1t b1) :=
    funext fun q => var1_eq_var2 hy1 q
  have hz1 := fun p q => bn_isReal hg1 hbe1 (mean_isReal hy1) (var2_nonneg hy1) heps hy1 p q
  have hy2 := fun p q => lin_isReal (X := bn g1 be1 (mean cN (lin (fun p k => X p k + A p k) W1t b1))
      (var2 cN (lin (fun p k => X p k + A p k) W1t b1)) eps (lin (fun p k => X p k + A p k) W1t b1)) hz1 hW2 hb2 p q
  have ev2 := funext fun q => var1_eq_var2 hy2 q
  have e1 : layer var1 id eps X A W1t b1 g1 be1 W2t b2 g2 be2 = layer var2 id eps X A W1t b1 g1 be1 W2t b2 g2 be2 := by
    unfold layer; rw [ev1, ev2]
  refine ⟨e1, e1.trans ?_⟩
  funext p q
  unfold layer
  show bn _ _ _ _ _ _ p q = max (bn _ _ _ _ _ _ p q) 0
  unfold bn
  exact (max_zero_idem _).symm

end Agree

end Cert.Gin.Layer

end
-- ==== Proof.Bridge.lean ====
/-
  The step of the induction over the layers, free of either program.

  A node array is a function of the index (row, column) of a 100000 × 128 array; read at (p, q) it is a matrix.
  Suppose the two programs hold the same real array X before a layer, that the first computes its next array as the
  layer with the clamped one-pass variance, and that the second computes its next array as the layer with the
  two-pass variance, possibly followed by one more positive part. The neighbours' sum A is the same function of X on
  both sides and is real on real arrays. Then the two next arrays are equal, and real.
-/
import proofs.«119304_j10247791968545_2_alg».proof.Proof.Layer
import Idealize.ShloMosaic.Lib.ValueIdx

noncomputable section

namespace Cert.Gin.Bridge

open Idealize.ShloMosaic Idealize.ShloMosaic.ValueIdx Cert.Gin.Algebra Cert.Gin.Layer

/-- The shape of a node array. -/
abbrev SN : Shape := ⟨2, ![100000, 128]⟩

/-- A node array read as a matrix. -/
def mat (X : SN.Idx → EReal) : Mat N D := fun p q => X (ix2 p q)

/-- Two node arrays that are the same matrix are equal. -/
theorem ext_mat {X Y : SN.Idx → EReal} (h : mat X = mat Y) : X = Y := by
  funext i
  rw [eq_ix2 i]
  exact congrFun (congrFun h (i 0)) (i 1)

/-- A node array is real when its matrix is. -/
theorem real_of_mat {X : SN.Idx → EReal} (h : ∀ p q, IsReal (mat X p q)) (i : SN.Idx) : IsReal (X i) := by
  rw [eq_ix2 i]; exact h (i 0) (i 1)

/-- A further positive part on top of a layer, entry by entry. -/
theorem layer_post (eps : EReal) (X A : Mat N D) (W1t : Mat D D) (b1 g1 be1 : Fin D → EReal) (W2t : Mat D D)
    (b2 g2 be2 : Fin D → EReal) (p : Fin N) (q : Fin D) :
    layer var2 (fun x => max x 0) eps X A W1t b1 g1 be1 W2t b2 g2 be2 p q
      = max (layer var2 id eps X A W1t b1 g1 be1 W2t b2 g2 be2 p q) 0 := rfl

/-- One step: equal real arrays before the layer give equal real arrays after it. -/
theorem step (agg : (SN.Idx → EReal) → (SN.Idx → EReal))
    (hagg : ∀ X, (∀ i, IsReal (X i)) → ∀ i, IsReal (agg X i))
    {KX KX' RX RX' : SN.Idx → EReal} {post : EReal → EReal} {eps : EReal} {W1t W2t : Mat D D}
    {b1 g1 be1 b2 g2 be2 : Fin D → EReal}
    (hK : mat KX' = layer var1 id eps (mat KX) (mat (agg KX)) W1t b1 g1 be1 W2t b2 g2 be2)
    (hR : mat RX' = layer var2 post eps (mat RX) (mat (agg RX)) W1t b1 g1 be1 W2t b2 g2 be2)
    (hpost : post = id ∨ post = fun x => max x 0)
    (IH : KX = RX) (hreal : ∀ i, IsReal (RX i))
    (heps : ∃ e : ℝ, 0 < e ∧ eps = (e : EReal))
    (hW1 : ∀ k q, IsReal (W1t k q)) (hb1 : ∀ q, IsReal (b1 q)) (hg1 : ∀ q, IsReal (g1 q)) (hbe1 : ∀ q, IsReal (be1 q))
    (hW2 : ∀ k q, IsReal (W2t k q)) (hb2 : ∀ q, IsReal (b2 q)) (hg2 : ∀ q, IsReal (g2 q)) (hbe2 : ∀ q, IsReal (be2 q)) :
    KX' = RX' ∧ ∀ i, IsReal (RX' i) := by
  subst IH
  have hX : ∀ p q, IsReal (mat KX p q) := fun p q => hreal _
  have hA : ∀ p q, IsReal (mat (agg KX) p q) := fun p q => hagg KX hreal _
  obtain ⟨e1, e2⟩ := layer_agree (g2 := g2) (be2 := be2) heps hX hA hW1 hb1 hg1 hbe1 hW2 hb2
  have hr := layer_isReal heps hX hA hW1 hb1 hg1 hbe1 hW2 hb2 hg2 hbe2
  rcases hpost with rfl | rfl
  · exact ⟨ext_mat (hK.trans (e1.trans hR.symm)), real_of_mat fun p q => by rw [hR]; exact hr p q⟩
  · refine ⟨ext_mat (hK.trans (e2.trans hR.symm)), real_of_mat fun p q => ?_⟩
    rw [hR, layer_post]
    exact (hr p q).max isReal_zero

end Cert.Gin.Bridge

end
-- ==== Proof.KLayer.lean ====
/-
  One layer of the kernel program from its pieces. If y₁ is the affine map of X + A, the two statistics rows are the
  batch mean and the one-pass variance of y₁, y₂ is the affine map of y₁ normalised and cut at zero, the next two rows
  are the statistics of y₂, and the layer's result is y₂ normalised and cut at zero, then the result, read as a matrix,
  is the layer function with the clamped one-pass variance. Nothing is computed here: each hypothesis is substituted
  where the layer function names the same quantity.
-/
import proofs.«119304_j10247791968545_2_alg».proof.Proof.KPay
import proofs.«119304_j10247791968545_2_alg».proof.Proof.Bridge

set_option maxRecDepth 16384

noncomputable section

namespace Cert.KernelIdeal.LayerOf

open Idealize.ShloMosaic Idealize.ShloMosaic.TcCoe Idealize.SL.Sem Idealize.ShloMosaic.ValueIdx
open Cert.KernelIdeal Cert.KernelIdeal.RegionValue Cert.Gin Cert.Gin.Layer Cert.Gin.Bridge

/-- A 128 × 128 array read as a matrix. -/
def matW (W : FVec Ideal S128x128 .f32) : Mat D D := fun k q => W (ix2 k q)
/-- A one-row array read as a row. -/
def rowOf (b : FVec Ideal S1x128 .f32) : Fin D → EReal := fun q => b (ix2 0 q)

/-- The affine map of the whole array, read as a matrix. -/
theorem mat_linG (X : FVec Ideal S100000x128 .f32) (W : FVec Ideal S128x128 .f32) (B : FVec Ideal S1x128 .f32) :
    mat (linG X W B) = lin (mat X) (matW W) (rowOf B) := rfl

/-- The normalisation of the whole array, read as a matrix. -/
theorem mat_bnG (Y : FVec Ideal S100000x128 .f32) (M Vr G Be : FVec Ideal S1x128 .f32) :
    mat (bnG Y M Vr G Be) = bn (rowOf G) (rowOf Be) (rowOf M) (rowOf Vr) (Ideal.ofBits .f32 0x3727C5AC#32) (mat Y) := rfl

/-- One layer from its pieces. -/
theorem layer_of {X A XA y1 y2 X' : FVec Ideal S100000x128 .f32} {W1t W2t : FVec Ideal S128x128 .f32}
    {b1 g1 be1 b2 g2 be2 m1 v1 m2 v2 : FVec Ideal S1x128 .f32}
    (hXA : ∀ i, XA i = X i + A i)
    (hy1 : y1 = linG XA W1t b1)
    (hm1 : ∀ q, m1 (ix2 0 q) = mean cN (mat y1) q) (hv1 : ∀ q, v1 (ix2 0 q) = var1 cN (mat y1) q)
    (hy2 : y2 = linG (bnG y1 m1 v1 g1 be1) W2t b2)
    (hm2 : ∀ q, m2 (ix2 0 q) = mean cN (mat y2) q) (hv2 : ∀ q, v2 (ix2 0 q) = var1 cN (mat y2) q)
    (hX' : X' = bnG y2 m2 v2 g2 be2) :
    mat X' = layer var1 id (Ideal.ofBits .f32 0x3727C5AC#32) (mat X) (mat A) (matW W1t) (rowOf b1) (rowOf g1) (rowOf be1)
      (matW W2t) (rowOf b2) (rowOf g2) (rowOf be2) := by
  have eXA : mat XA = fun p k => mat X p k + mat A p k := funext fun p => funext fun k => hXA _
  have e1 : mat y1 = lin (fun p k => mat X p k + mat A p k) (matW W1t) (rowOf b1) := by
    rw [hy1, mat_linG, eXA]
  have em1 : rowOf m1 = mean cN (mat y1) := funext hm1
  have ev1 : rowOf v1 = var1 cN (mat y1) := funext hv1
  have e2 : mat y2 = lin (bn (rowOf g1) (rowOf be1) (mean cN (mat y1)) (var1 cN (mat y1)) (Ideal.ofBits .f32 0x3727C5AC#32) (mat y1))
      (matW W2t) (rowOf b2) := by
    rw [hy2, mat_linG, mat_bnG, em1, ev1]
  have em2 : rowOf m2 = mean cN (mat y2) := funext hm2
  have ev2 : rowOf v2 = var1 cN (mat y2) := funext hv2
  rw [hX', mat_bnG, em2, ev2, e2, e1]
  rfl

end Cert.KernelIdeal.LayerOf

end
-- ==== Proof.Consts.lean ====
/-
  The three float constants the two programs spell, as the extended reals their patterns denote: the zero a sum
  starts from, the batch size 100000 the statistics divide by, and the positive number added to a variance before its
  reciprocal square root is taken (the pattern nearest to 10⁻⁵: 10995116 · 2⁻⁴⁰).
-/
import Idealize.ShloMosaic.PureOps.Ideal.Laws

noncomputable section

namespace Cert.Gin.Consts

open Idealize.ShloMosaic

/-- The batch size: the pattern denotes the real 100000. -/
theorem ofBits_batch : Ideal.ofBits .f32 0x47C35000#32 = ((100000 : ℝ) : EReal) := by
  simp [Ideal.ofBits, Ideal.ieee, -EReal.coe_mul]; norm_num

/-- The number added to a variance: a positive real. -/
theorem ofBits_eps : ∃ e : ℝ, 0 < e ∧ Ideal.ofBits .f32 0x3727C5AC#32 = (e : EReal) := by
  refine ⟨10995116 * (2 : ℝ) ^ (-40 : ℤ), by positivity, ?_⟩
  simp [Ideal.ofBits, Ideal.ieee, -EReal.coe_mul]

end Cert.Gin.Consts

end
-- ==== Proof.RIdx.lean ====
/-
  The reference's stages read entry by entry.

  * The affine stage: (x·Wᵗ + b)(p, q) = Σ_k x(p, k)·W(q, k) + b(q).
  * The column sums from zero are the sums over all rows; the means are those over the batch size; the biased variance is
    the column sum of the squared centered entries over the batch size less zero (a positive number, so the guard on
    the divisor picks the quotient).
  * The normalisation and the positive part, entry by entry.
  So the multi-layer-perceptron stage of a layer, read as a matrix, is the layer function with the two-pass variance.
-/
import proofs.«119304_j10247791968545_2_alg».proof.Proof.RefStages
import proofs.«119304_j10247791968545_2_alg».proof.Proof.LibDotEntry
import proofs.«119304_j10247791968545_2_alg».proof.Proof.Bridge
import proofs.«119304_j10247791968545_2_alg».proof.Proof.Consts
import Idealize.ShloMosaic.Lib.IdealHost
import Idealize.ShloMosaic.Lib.Pipeline.Value
import Idealize.ShloMosaic.Lib.ValueLayout
import Idealize.ShloMosaic.PureOps.Ideal.Laws

set_option maxRecDepth 16384

noncomputable section

namespace Cert.ReferenceIdeal.Idx

open Idealize.ShloMosaic Idealize.ShloMosaic.TcCoe Idealize.SL.Sem Idealize.ShloMosaic.ValueIdx
open Cert.ReferenceIdeal Cert.ReferenceIdeal.HandRun Cert.Gin Cert.Gin.Layer Cert.Gin.Bridge

/-- A vector repeated along the rows, at an entry. -/
theorem rowsOf_apply (v : TVec) (p : Fin 100000) (q : Fin 128) : rowsOf v (ix2 p q) = v (ix1 q) := by
  unfold rowsOf
  rw [broadcastInDim_apply _ _ _ _ (ix2 (0 : Fin 1) q) (by intro a; match a with | ⟨0, _⟩ => rfl | ⟨1, _⟩ => rfl)]
  exact broadcastInDim_apply _ _ _ _ (ix1 q) (by intro a; match a with | ⟨0, _⟩ => rfl)

/-- The affine stage at an entry. -/
theorem linStage_apply (x : TNode) (W : TSq) (b : TVec) (p : Fin 100000) (q : Fin 128) :
    linStage x W b (ix2 p q) = (∑ k : Fin 128, x (ix2 p k) * W (ix2 q k)) + b (ix1 q) := by
  unfold linStage
  rw [addf_apply, rowsOf_apply]
  rw [Cert.Lib.DotEntry.dotGeneral_ix2 dot_S100000x128_S128x128_S100000x128_1_0_0_1_n_n rfl rfl
    (fun i c => rfl)
    (fun i c => DotDims.lhsIdx_val_of_single dot_S100000x128_S128x128_S100000x128_1_0_0_1_n_n (cl := 1) rfl i c)
    (fun i c => DotDims.rhsIdx_val_of_single dot_S100000x128_S128x128_S100000x128_1_0_0_1_n_n (cr := 0) rfl i c)
    (fun i c => rfl)]
  exact congrArg (· + b (ix1 q)) (Finset.sum_congr rfl fun k _ => congrArg (x (ix2 p k) * ·) (transpose_ix2_apply (a := 128) (b := 128) W _ k q))

/-- The column sums from zero, at a column: the sum over all rows. -/
theorem red : S100000x128.Reduces [0] S128 := by decide

/-- The row index inserted over a column index. -/
theorem lift_eq (q : Fin 128) (k : Fin (S100000x128.size 0)) :
    red.lift (ix1 q) k = (ix2 (n0 := 100000) k q : S100000x128.Idx) := by
  funext c
  match c with
  | ⟨0, _⟩ => rfl
  | ⟨1, _⟩ => rfl

theorem colSum_apply (y : TNode) (q : Fin 128) : colSum y (ix1 q) = ∑ p : Fin 100000, y (ix2 p q) := by
  unfold colSum
  rw [hostReduceAdd_apply, Ideal.hostReduceAdd_single _ red]
  have hz : ∀ hu, constant (F := Ideal) S_ .f32 (0x00000000#32) (Shape.Idx.first hu) = (0 : EReal) := fun _ => Ideal.ofBits_zero_f32
  rw [hz, zero_add]
  exact Finset.sum_congr rfl fun k _ => congrArg y (lift_eq q k)

/-- The column means at a column. -/
theorem meanStage_apply (y : TNode) (q : Fin 128) : meanStage y (ix1 q) = mean cN (mat y) q := by
  unfold meanStage
  rw [hostDivf_apply, colSum_apply, broadcastInDim_scalar_apply]
  show Ideal.div _ (Ideal.ofBits .f32 0x47C35000#32) = _
  rw [Consts.ofBits_batch]
  rfl

/-- The variance's divisor is the batch size. -/
theorem varCount_eq : varCount ix0 = cN := by
  unfold varCount
  show Ideal.ofBits .f32 0x47C35000#32 - (((0#32 : BitVec 32).toInt : ℝ) : EReal) = _
  rw [Consts.ofBits_batch]
  simp [cN]

/-- An entry less its column's mean. -/
theorem centered_apply (y : TNode) (p : Fin 100000) (q : Fin 128) :
    centered y (ix2 p q) = y (ix2 p q) - mean cN (mat y) q := by
  unfold centered
  rw [subf_apply]
  rw [broadcastInDim_apply _ _ _ _ (ix2 (0 : Fin 1) q) (by intro a; match a with | ⟨0, _⟩ => rfl | ⟨1, _⟩ => rfl)]
  rw [hostDivf_apply, broadcastInDim_scalar_apply]
  rw [broadcastInDim_apply _ _ _ _ (ix1 q) (by intro a; match a with | ⟨0, _⟩ => rfl)]
  rw [colSum_apply]
  show _ - Ideal.div _ (Ideal.ofBits .f32 0x47C35000#32) = _
  rw [Consts.ofBits_batch]
  rfl

/-- The biased variance at a column is the two-pass variance. -/
theorem varStage_apply (y : TNode) (q : Fin 128) : varStage y (ix1 q) = var2 cN (mat y) q := by
  unfold varStage
  rw [select_apply, broadcastInDim_scalar_apply, hostDivf_apply, broadcastInDim_scalar_apply, colSum_apply, varCount_eq]
  have hc : cmpf (F := Ideal) .ogt varCount (constant (F := Ideal) S_ .f32 0x00000000#32) ix0 = 1#1 := by
    show Ideal.cmp .ogt (varCount ix0) (Ideal.ofBits .f32 0x00000000#32) = 1#1
    rw [varCount_eq, Ideal.ofBits_zero_f32]
    have : (0 : EReal) < cN := by unfold cN; exact_mod_cast (by norm_num : (0 : ℝ) < 100000)
    simp [Ideal.cmp, this]
  rw [hc]
  show Ideal.div (∑ p : Fin 100000, mulf (centered y) (centered y) (ix2 p q)) cN = _
  simp only [mulf_apply, centered_apply]
  rfl

/-- A vector of 128 read as a row. -/
def vec (v : TVec) : Fin D → EReal := fun q => v (ix1 q)
/-- A weight matrix read transposed: the stage multiplies by the transposed matrix. -/
def matT (W : TSq) : Mat D D := fun k q => W (ix2 q k)

/-- The affine stage as a matrix. -/
theorem mat_linStage (x : TNode) (W : TSq) (b : TVec) : mat (linStage x W b) = lin (mat x) (matT W) (vec b) :=
  funext fun p => funext fun q => linStage_apply x W b p q

/-- The normalisation with the array's own statistics, then the positive part, as a matrix. -/
theorem mat_relu_bn (y : TNode) (g be : TVec) :
    mat (reluStage (bnStage y g be))
      = bn (vec g) (vec be) (mean cN (mat y)) (var2 cN (mat y)) (Ideal.ofBits .f32 0x3727C5AC#32) (mat y) := by
  funext p q
  show reluStage (bnStage y g be) (ix2 p q) = _
  unfold reluStage bnStage bnOf
  rw [maximumf_apply, broadcastInDim_scalar_apply, addf_apply, mulf_apply, mulf_apply, subf_apply,
    rowsOf_apply, rowsOf_apply, rowsOf_apply, rowsOf_apply, meanStage_apply]
  show max ((g (ix1 q) * (y (ix2 p q) - mean cN (mat y) q))
      * Ideal.rsqrt (varStage y (ix1 q) + broadcastInDim S128 ![] _ (constant (F := Ideal) S_ .f32 0x3727C5AC#32) (ix1 q)) + be (ix1 q))
      (Ideal.ofBits .f32 0x00000000#32) = _
  rw [varStage_apply, broadcastInDim_scalar_apply, Ideal.ofBits_zero_f32]
  rfl

/-- The sum of a node's row and its neighbours' rows, as a matrix. -/
theorem mat_hStage (x : TNode) (ei : TEdges) : mat (hStage x ei) = fun p k => mat x p k + mat (aggStage x ei) p k := rfl

/-- One layer of the reference, read as a matrix, is the layer function with the two-pass variance. -/
theorem mat_layerStage (x : TNode) (ei : TEdges) (W1 : TSq) (b1 g1 be1 : TVec) (W2 : TSq) (b2 g2 be2 : TVec) :
    mat (layerStage x ei W1 b1 g1 be1 W2 b2 g2 be2)
      = layer var2 id (Ideal.ofBits .f32 0x3727C5AC#32) (mat x) (mat (aggStage x ei)) (matT W1) (vec b1) (vec g1) (vec be1)
          (matT W2) (vec b2) (vec g2) (vec be2) := by
  unfold layerStage mlpStage
  rw [mat_relu_bn, mat_linStage, mat_relu_bn, mat_linStage, mat_hStage]
  rfl

/-- One more positive part on top, as a matrix. -/
theorem mat_reluStage (z : TNode) : mat (reluStage z) = fun p q => max (mat z p q) 0 := by
  funext p q
  show reluStage z (ix2 p q) = _
  unfold reluStage
  rw [maximumf_apply, broadcastInDim_scalar_apply]
  show max _ (Ideal.ofBits .f32 0x00000000#32) = _
  rw [Ideal.ofBits_zero_f32]
  rfl

/-- The first layer of the reference, with its further positive part. -/
theorem mat_relu_layerStage (x : TNode) (ei : TEdges) (W1 : TSq) (b1 g1 be1 : TVec) (W2 : TSq) (b2 g2 be2 : TVec) :
    mat (reluStage (layerStage x ei W1 b1 g1 be1 W2 b2 g2 be2))
      = layer var2 (fun x => max x 0) (Ideal.ofBits .f32 0x3727C5AC#32) (mat x) (mat (aggStage x ei)) (matT W1) (vec b1)
          (vec g1) (vec be1) (matT W2) (vec b2) (vec g2) (vec be2) := by
  rw [mat_reluStage, mat_layerStage]
  rfl

end Cert.ReferenceIdeal.Idx

end
-- ==== Proof.KParams.lean ====
/-
  The per-layer coefficients as both programs read them. The kernel program hands a region the transposed slice of a
  stacked weight array and a one-row copy of a slice of a stacked bias array; the reference multiplies by the same
  transposed slice and repeats the same slice along the rows. Read entry by entry these are one matrix and one row.
-/
import proofs.«119304_j10247791968545_2_alg».proof.Proof.KLayer
import proofs.«119304_j10247791968545_2_alg».proof.Proof.RIdx
import Idealize.ShloMosaic.Lib.ValueLayout

set_option maxRecDepth 16384

noncomputable section

namespace Cert.Gin.Params

open Idealize.ShloMosaic Idealize.ShloMosaic.ValueIdx
open Cert.Gin.Layer Cert.KernelIdeal.LayerOf Cert.ReferenceIdeal.HandRun Cert.ReferenceIdeal.Idx

/-- A transposed 128 × 128 array read as a matrix is the array read transposed. -/
theorem matW_transpose (W : TSq) (h : (⟨2, ![128, 128]⟩ : Shape).Transposes [1, 0] ⟨2, ![128, 128]⟩) :
    matW (transpose ⟨2, ![128, 128]⟩ [1, 0] W h) = matT W :=
  funext fun k => funext fun q => transpose_ix2_apply (a := 128) (b := 128) W h k q

/-- A vector of 128 stored as a one-row array, read as a row, is the vector. -/
theorem rowOf_shapeCast (v : TVec) (h : (⟨1, ![128]⟩ : Shape).ShapeCasts ⟨2, ![1, 128]⟩) :
    rowOf (shapeCast ⟨2, ![1, 128]⟩ v h) = vec v :=
  funext fun q => shapeCast_a_1a_apply (a := 128) v h 0 q

end Cert.Gin.Params

end
-- ==== Proof.Agg.lean ====
/-
  The neighbours' sum. Each row of the result is the zero row plus the sum of those gathered rows whose
  destination is that row; a gathered row is a row of the operand picked by an edge's source. Entry by entry the result is
  therefore a finite sum of entries of the operand, and is real when every entry of the operand is real.
-/
import proofs.«119304_j10247791968545_2_alg».proof.Proof.Algebra
import Idealize.ShloMosaic.PureOps.Ideal.Laws

noncomputable section

namespace Cert.Gin.Agg

open Idealize.ShloMosaic Cert.Gin.Algebra

/-- A gather of a real array is real: every entry of the result is an entry of the operand. -/
theorem gather_isReal {s si t : Shape} {w : Nat} (d : GatherDims s si t) (x : FVec Ideal s .f32) (idx : IVec si w)
    (h : ∀ i, IsReal (x i)) (j : t.Idx) : IsReal (Host.gather d x idx j) := h _

/-- An accumulating scatter of real updates onto a real array is real: each entry is the operand's entry plus a
    finite sum of updates. -/
theorem scatterAdd_isReal {s si su : Shape} {w : Nat} (d : ScatterDims s si su) (x : FVec Ideal s .f32) (idx : IVec si w)
    (upd : FVec Ideal su .f32) (hx : ∀ i, IsReal (x i)) (hu : ∀ j, IsReal (upd j)) (i : s.Idx) :
    IsReal (Host.scatterAdd d x idx upd i) := by
  show IsReal (Ideal.hostScatterAdd d x idx upd i)
  unfold Ideal.hostScatterAdd
  exact (hx i).add (isReal_sum _ _ fun j _ => hu j)

end Cert.Gin.Agg

end
-- ==== Proof.Final.lean ====
/-
  The induction over the layers. Given, for the kernel program, that the first region's array is the affine map of the
  input and that each layer's last array is the layer function (clamped one-pass variance) of the layer's first array,
  of its neighbours' sum and of the layer's coefficients, the array the kernel program holds before its tail is the
  array the reference's stages compose to, provided every float argument is real: layer by layer the two arrays are
  equal and real (the step lemma), starting from the affine map of a real input.
-/
import proofs.«119304_j10247791968545_2_alg».proof.Proof.KParams
import proofs.«119304_j10247791968545_2_alg».proof.Proof.Agg
import proofs.«119304_j10247791968545_2_alg».proof.Proof.Consts
import Idealize.ShloMosaic.Lib.IdealHost

set_option maxRecDepth 16384

noncomputable section

namespace Cert.Gin.Chain

open Idealize.ShloMosaic Idealize.ShloMosaic.TcCoe Idealize.SL.Sem Idealize.ShloMosaic.ValueIdx
open Cert.Gin.Algebra Cert.Gin.Layer Cert.Gin.Bridge Cert.ReferenceIdeal.HandRun Cert.ReferenceIdeal.Idx

/-- The positive number under the reciprocal square root. -/
abbrev eps : EReal := Ideal.ofBits .f32 0x3727C5AC#32

/-- The neighbours' sum of a real array is real. -/
theorem agg_isReal (ei : TEdges) (X : TNode) (hX : ∀ i, IsReal (X i)) (i : SN.Idx) : IsReal (aggStage X ei i) := by
  unfold aggStage aggOf
  refine Cert.Gin.Agg.scatterAdd_isReal _ _ _ _ (fun i => ?_) (fun j => Cert.Gin.Agg.gather_isReal _ _ _ hX j) i
  rw [broadcastInDim_scalar_apply]
  show IsReal (Ideal.ofBits .f32 0x00000000#32)
  rw [Ideal.ofBits_zero_f32]; exact isReal_zero

/-- What the kernel program's regions and stretches establish, layer by layer, as matrices. -/
structure KFacts (a0 : TNode) (ei : TEdges) (a3 : TSq) (a4 : TVec) (a5 : TSq4) (a6 a7 a8 : TVec4) (a9 : TSq4)
    (a10 a11 a12 : TVec4) (KX0 KX1 KX2 KX3 KX4 : TNode) : Prop where
  init : mat KX0 = lin (mat a0) (matT a3) (vec a4)
  l0 : mat KX1 = layer var1 id eps (mat KX0) (mat (aggStage KX0 ei)) (matT (matAt0 a5)) (vec (rowAt0 a6)) (vec (rowAt0 a7))
        (vec (rowAt0 a8)) (matT (matAt0 a9)) (vec (rowAt0 a10)) (vec (rowAt0 a11)) (vec (rowAt0 a12))
  l1 : mat KX2 = layer var1 id eps (mat KX1) (mat (aggStage KX1 ei)) (matT (matAt1 a5)) (vec (rowAt1 a6)) (vec (rowAt1 a7))
        (vec (rowAt1 a8)) (matT (matAt1 a9)) (vec (rowAt1 a10)) (vec (rowAt1 a11)) (vec (rowAt1 a12))
  l2 : mat KX3 = layer var1 id eps (mat KX2) (mat (aggStage KX2 ei)) (matT (matAt2 a5)) (vec (rowAt2 a6)) (vec (rowAt2 a7))
        (vec (rowAt2 a8)) (matT (matAt2 a9)) (vec (rowAt2 a10)) (vec (rowAt2 a11)) (vec (rowAt2 a12))
  l3 : mat KX4 = layer var1 id eps (mat KX3) (mat (aggStage KX3 ei)) (matT (matAt3 a5)) (vec (rowAt3 a6)) (vec (rowAt3 a7))
        (vec (rowAt3 a8)) (matT (matAt3 a9)) (vec (rowAt3 a10)) (vec (rowAt3 a11)) (vec (rowAt3 a12))

/-- The last array before the tail, as the reference composes it. -/
def refX4 (a0 : TNode) (ei : TEdges) (a3 : TSq) (a4 : TVec) (a5 : TSq4) (a6 a7 a8 : TVec4) (a9 : TSq4) (a10 a11 a12 : TVec4) : TNode :=
  layerStage (layerStage (layerStage (reluStage (layerStage (linStage a0 a3 a4) ei (matAt0 a5) (rowAt0 a6) (rowAt0 a7) (rowAt0 a8)
    (matAt0 a9) (rowAt0 a10) (rowAt0 a11) (rowAt0 a12))) ei (matAt1 a5) (rowAt1 a6) (rowAt1 a7) (rowAt1 a8) (matAt1 a9) (rowAt1 a10)
    (rowAt1 a11) (rowAt1 a12)) ei (matAt2 a5) (rowAt2 a6) (rowAt2 a7) (rowAt2 a8) (matAt2 a9) (rowAt2 a10) (rowAt2 a11) (rowAt2 a12))
    ei (matAt3 a5) (rowAt3 a6) (rowAt3 a7) (rowAt3 a8) (matAt3 a9) (rowAt3 a10) (rowAt3 a11) (rowAt3 a12)

section

variable {a0 : TNode} {ei : TEdges} {a3 : TSq} {a4 : TVec} {a5 : TSq4} {a6 a7 a8 : TVec4} {a9 : TSq4} {a10 a11 a12 : TVec4}
  {KX0 KX1 KX2 KX3 KX4 : TNode}

/-- A slice of a real stacked array is real (every entry of a slice is an entry of the stack). -/
theorem real_of_forall {S : Shape} {x : FVec Ideal S .f32} (h : ∀ i, IsReal (x i)) (i : S.Idx) : IsReal (x i) := h i

/-- Under real arguments the kernel program's last array before the tail is the reference's. -/
theorem chain (K : KFacts a0 ei a3 a4 a5 a6 a7 a8 a9 a10 a11 a12 KX0 KX1 KX2 KX3 KX4)
    (h0 : ∀ i, IsReal (a0 i)) (h3 : ∀ i, IsReal (a3 i)) (h4 : ∀ i, IsReal (a4 i))
    (hm5 : ∀ (M : TSq), M ∈ [matAt0 a5, matAt1 a5, matAt2 a5, matAt3 a5, matAt0 a9, matAt1 a9, matAt2 a9, matAt3 a9] → ∀ i, IsReal (M i))
    (hr : ∀ (v : TVec), v ∈ [rowAt0 a6, rowAt1 a6, rowAt2 a6, rowAt3 a6, rowAt0 a7, rowAt1 a7, rowAt2 a7, rowAt3 a7,
        rowAt0 a8, rowAt1 a8, rowAt2 a8, rowAt3 a8, rowAt0 a10, rowAt1 a10, rowAt2 a10, rowAt3 a10,
        rowAt0 a11, rowAt1 a11, rowAt2 a11, rowAt3 a11, rowAt0 a12, rowAt1 a12, rowAt2 a12, rowAt3 a12] → ∀ i, IsReal (v i)) :
    KX4 = refX4 a0 ei a3 a4 a5 a6 a7 a8 a9 a10 a11 a12 := by
  have hM : ∀ M : TSq, (∀ i, IsReal (M i)) → ∀ k q, IsReal (matT M k q) := fun M h k q => h _
  have hV : ∀ v : TVec, (∀ i, IsReal (v i)) → ∀ q, IsReal (vec v q) := fun v h q => h _
  have hagg := agg_isReal ei
  -- the affine map of the input
  have e0 : KX0 = linStage a0 a3 a4 := ext_mat (K.init.trans (mat_linStage a0 a3 a4).symm)
  have r0 : ∀ i, IsReal (linStage a0 a3 a4 i) := real_of_mat fun p q => by
    rw [mat_linStage]; exact lin_isReal (fun p k => h0 _) (hM a3 h3) (hV a4 h4) p q
  -- four layers
  obtain ⟨e1, r1⟩ := step (fun X => aggStage X ei) hagg K.l0 (mat_relu_layerStage _ ei _ _ _ _ _ _ _ _) (Or.inr rfl) e0 r0
    Consts.ofBits_eps (hM _ (hm5 _ (by simp))) (hV _ (hr _ (by simp))) (hV _ (hr _ (by simp))) (hV _ (hr _ (by simp)))
    (hM _ (hm5 _ (by simp))) (hV _ (hr _ (by simp))) (hV _ (hr _ (by simp))) (hV _ (hr _ (by simp)))
  obtain ⟨e2, r2⟩ := step (fun X => aggStage X ei) hagg K.l1 (mat_layerStage _ ei _ _ _ _ _ _ _ _) (Or.inl rfl) e1 r1
    Consts.ofBits_eps (hM _ (hm5 _ (by simp))) (hV _ (hr _ (by simp))) (hV _ (hr _ (by simp))) (hV _ (hr _ (by simp)))
    (hM _ (hm5 _ (by simp))) (hV _ (hr _ (by simp))) (hV _ (hr _ (by simp))) (hV _ (hr _ (by simp)))
  obtain ⟨e3, r3⟩ := step (fun X => aggStage X ei) hagg K.l2 (mat_layerStage _ ei _ _ _ _ _ _ _ _) (Or.inl rfl) e2 r2
    Consts.ofBits_eps (hM _ (hm5 _ (by simp))) (hV _ (hr _ (by simp))) (hV _ (hr _ (by simp))) (hV _ (hr _ (by simp)))
    (hM _ (hm5 _ (by simp))) (hV _ (hr _ (by simp))) (hV _ (hr _ (by simp))) (hV _ (hr _ (by simp)))
  obtain ⟨e4, _⟩ := step (fun X => aggStage X ei) hagg K.l3 (mat_layerStage _ ei _ _ _ _ _ _ _ _) (Or.inl rfl) e3 r3
    Consts.ofBits_eps (hM _ (hm5 _ (by simp))) (hV _ (hr _ (by simp))) (hV _ (hr _ (by simp))) (hV _ (hr _ (by simp)))
    (hM _ (hm5 _ (by simp))) (hV _ (hr _ (by simp))) (hV _ (hr _ (by simp))) (hV _ (hr _ (by simp)))
  exact e4

end

end Cert.Gin.Chain

end
-- ==== Proof.Finite.lean ====
/-
  What the precondition says, entry by entry. The precondition is the conjunction, over the thirteen float arguments,
  of "every entry a of the array has |a| < +∞". On the extended reals |a| = max(a, −a) is below +∞ exactly when a is
  neither +∞ nor −∞, that is, when a is a real number. So under the precondition every entry of every float
  argument is real; the two integer arguments (the edge list and the selected rows) are not constrained.
-/
import proofs.«119304_j10247791968545_2_alg».proof.Pre_finite_inputs
import proofs.«119304_j10247791968545_2_alg».proof.Proof.Algebra
import Idealize.ShloMosaic.Lib.ReduceAll
import Idealize.ShloMosaic.Lib.ValueIdx
import Idealize.ShloMosaic.PureOps.Ideal.Laws

noncomputable section
namespace Cert.Gin.Finite
open Idealize.ShloMosaic Idealize.ShloMosaic.ValueIdx Cert.Gin.Algebra

/-- The pattern of +∞. -/
theorem top_bits : Ideal.ofBits .f32 0x7F800000#32 = ⊤ := by simp [Ideal.ofBits, Ideal.ieee]

/-- An extended real whose absolute value is below +∞ is a real. -/
theorem real_of_lt (x : EReal) (h : FloatOps.cmpf (F := Ideal) (φ := .f32) .olt (FloatOps.absf (F := Ideal) (φ := .f32) x) (⊤ : EReal) = 1#1) : IsReal x := by
  change Ideal.cmp .olt (max x (-x)) ⊤ = 1#1 at h
  have hlt : max x (-x) < ⊤ := by
    by_contra hn
    simp [Ideal.cmp, hn] at h
  induction x using EReal.rec with
  | bot => simp at hlt
  | coe r => exact ⟨r, rfl⟩
  | top => simp at hlt

/-- The scalar shape has one index. -/
instance : Subsingleton (⟨0, ![]⟩ : Shape).Idx := ⟨fun a b => funext fun d => d.elim0⟩

/-- If "all entries have absolute value below +∞" evaluates to true, every entry is real. -/
theorem all_real {s : Shape} {axes : List (Fin s.rank)} (a : FVec Ideal s .f32)
    (hb : (⟨0, ![]⟩ : Shape).BroadcastsInDim s ![]) (hr : s.ReducesTo axes ⟨0, ![]⟩) (hu : 0 < (⟨0, ![]⟩ : Shape).numel)
    (e : Host.reduce IntOp.andi (cmpf .olt (Host.absf a) (broadcastInDim s ![] hb (constant (F := Ideal) ⟨0, ![]⟩ .f32 0x7F800000#32)))
          (constantI ⟨0, ![]⟩ 1 1#1) hr hu ix0 = 1#1) (i : s.Idx) : IsReal (a i) := by
  have h := Host.reduce_andi_all _ _ hr hu ix0 e i
  refine real_of_lt (a i) ?_
  simpa [cmpf, Host.absf, broadcastInDim, constant, top_bits] using h

open Cert.Pre_finite_inputs in
/-- Under the precondition every entry of every float argument is a real number. -/
theorem args_real [Cert.Pre_finite_inputs.Facts] (a0 : FVec Ideal S100000x128 .f32) (a1 : IVec S2x625000 32) (a2 : IVec S10000 32) (a3 : FVec Ideal S128x128 .f32) (a4 : FVec Ideal S128 .f32)
    (a5 : FVec Ideal S4x128x128 .f32) (a6 a7 a8 : FVec Ideal S4x128 .f32) (a9 : FVec Ideal S4x128x128 .f32) (a10 a11 a12 : FVec Ideal S4x128 .f32)
    (a13 : FVec Ideal S10x128 .f32) (a14 : FVec Ideal S10 .f32)
    (h : fn (F := Ideal) a0 a1 a2 a3 a4 a5 a6 a7 a8 a9 a10 a11 a12 a13 a14 = fun _ => 1#1) :
    (∀ i, IsReal (a0 i)) ∧ (∀ i, IsReal (a3 i)) ∧ (∀ i, IsReal (a4 i)) ∧ (∀ i, IsReal (a5 i)) ∧ (∀ i, IsReal (a6 i))
    ∧ (∀ i, IsReal (a7 i)) ∧ (∀ i, IsReal (a8 i)) ∧ (∀ i, IsReal (a9 i)) ∧ (∀ i, IsReal (a10 i)) ∧ (∀ i, IsReal (a11 i))
    ∧ (∀ i, IsReal (a12 i)) ∧ (∀ i, IsReal (a13 i)) ∧ (∀ i, IsReal (a14 i)) := by
  have h0 := congrFun h ix0
  dsimp only [fn, fn_part1, fn_part2, fn_part3] at h0
  simp only [andi, IntOp.andi_eq_one] at h0
  obtain ⟨⟨⟨⟨⟨⟨⟨⟨⟨⟨⟨⟨e0, e3⟩, e4⟩, e5⟩, e6⟩, e7⟩, e8⟩, e9⟩, e10⟩, e11⟩, e12⟩, e13⟩, e14⟩ := h0
  exact ⟨all_real a0 _ _ _ e0, all_real a3 _ _ _ e3, all_real a4 _ _ _ e4, all_real a5 _ _ _ e5, all_real a6 _ _ _ e6,
    all_real a7 _ _ _ e7, all_real a8 _ _ _ e8, all_real a9 _ _ _ e9, all_real a10 _ _ _ e10, all_real a11 _ _ _ e11,
    all_real a12 _ _ _ e12, all_real a13 _ _ _ e13, all_real a14 _ _ _ e14⟩

end Cert.Gin.Finite
end
-- ==== Proof.KRegion0.lean ====
/-
  Region 0 of the kernel program (the initial affine map of the node features): each output array after the region as a function of the arrays the
  region finds, entry by entry. The grid has ten points; point t reads rows t·10000 … t·10000 + 9999 of each
  100000×128 input, all of each small input, and writes the same rows of each 100000×128 output and entry (t, 0, ·) of
  each 10×1×128 output. What a point writes is the body's arithmetic of its blocks, which is the matching block of one
  function of the whole arrays; the points' blocks cover each output array, so the array ends at that function.
-/
import proofs.«119304_j10247791968545_2_alg».proof.Proof.Gen.KernelIdeal.Frame
import proofs.«119304_j10247791968545_2_alg».proof.Proof.KPay
import Idealize.ShloMosaic.Lib.Pipeline.Value

set_option maxRecDepth 16384

noncomputable section

namespace Cert.KernelIdeal.RegionValue

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-! ## The arrays the region finds, under their literal types -/

/-- Input window 0's array as the region finds it. -/
abbrev a0_0 (c : Dev nD) : FVec Ideal S100000x128 .f32 := V c (Pipeline.arrRef spec0 0)
/-- Input window 1's array as the region finds it. -/
abbrev a0_1 (c : Dev nD) : FVec Ideal S128x128 .f32 := V c (Pipeline.arrRef spec0 1)
/-- Input window 2's array as the region finds it. -/
abbrev a0_2 (c : Dev nD) : FVec Ideal S1x128 .f32 := V c (Pipeline.arrRef spec0 2)

/-! ## Where the block index maps send a grid point -/

theorem idx0_0 : ∀ t : Fin cfg0.N, win0_0.index t (0 : Fin 2) = t.val ∧ win0_0.index t (1 : Fin 2) = 0 :=
  (by decide +kernel : ∀ t : Fin grid0.N, _)
theorem idx0_1 : ∀ t : Fin cfg0.N, win0_1.index t (0 : Fin 2) = 0 ∧ win0_1.index t (1 : Fin 2) = 0 :=
  (by decide +kernel : ∀ t : Fin grid0.N, _)
theorem idx0_2 : ∀ t : Fin cfg0.N, win0_2.index t (0 : Fin 2) = 0 ∧ win0_2.index t (1 : Fin 2) = 0 :=
  (by decide +kernel : ∀ t : Fin grid0.N, _)
theorem idx0_3 : ∀ t : Fin cfg0.N, win0_3.index t (0 : Fin 2) = t.val ∧ win0_3.index t (1 : Fin 2) = 0 :=
  (by decide +kernel : ∀ t : Fin grid0.N, _)

/-! ## The input windows' blocks, read off the arrays -/

/-- Point t's block of input window 0 is rows t·10000 … of the window's array. -/
theorem blk0_0 (c : Dev nD) (t : Fin cfg0.N) : IsBlock t.val (iblk0 V c 0 t) (a0_0 V c) := by
  intro j i hji
  obtain ⟨e0, e1⟩ := idx0_0 t
  have h0 := hji.1
  have h1 := hji.2
  show (a0_0 V c) (((cfg0.win 0).blk t).view.emb j) = (a0_0 V c) i
  refine congrArg (a0_0 V c) (funext fun a => Fin.ext ?_)
  match a with
  | ⟨0, _⟩ => show win0_0.index t (0 : Fin 2) * 10000 + 1 * (j 0).val = (i 0).val; rw [e0]; omega
  | ⟨1, _⟩ => show win0_0.index t (1 : Fin 2) * 128 + 1 * (j 1).val = (i 1).val; rw [e1]; omega

/-- Input window 1's block at every point is its whole array. -/
theorem whole0_1 (c : Dev nD) (t : Fin cfg0.N) : iblk0 V c 1 t = (a0_1 V c) := by
  funext y
  obtain ⟨e0, e1⟩ := idx0_1 t
  show (a0_1 V c) (((cfg0.win 1).blk t).view.emb y) = (a0_1 V c) y
  refine congrArg (a0_1 V c) (funext fun a => Fin.ext ?_)
  match a with
  | ⟨0, _⟩ => show win0_1.index t (0 : Fin 2) * 128 + 1 * (y 0).val = (y 0).val; rw [e0]; omega
  | ⟨1, _⟩ => show win0_1.index t (1 : Fin 2) * 128 + 1 * (y 1).val = (y 1).val; rw [e1]; omega

/-- Input window 2's block at every point is its whole array. -/
theorem whole0_2 (c : Dev nD) (t : Fin cfg0.N) : iblk0 V c 2 t = (a0_2 V c) := by
  funext y
  obtain ⟨e0, e1⟩ := idx0_2 t
  show (a0_2 V c) (((cfg0.win 2).blk t).view.emb y) = (a0_2 V c) y
  refine congrArg (a0_2 V c) (funext fun a => Fin.ext ?_)
  match a with
  | ⟨0, _⟩ => show win0_2.index t (0 : Fin 2) * 1 + 1 * (y 0).val = (y 0).val; rw [e0]; omega
  | ⟨1, _⟩ => show win0_2.index t (1 : Fin 2) * 128 + 1 * (y 1).val = (y 1).val; rw [e1]; omega

/-! ## The body's stores, over arbitrary blocks: a block of rows of the array it was read from, the small blocks equal to
    their arrays -/

theorem k0_pay1_block (x0 : Vec Ideal S10000x128 .f32) (x1 : Vec Ideal S128x128 .f32) (x2 : Vec Ideal S1x128 .f32)
    (X : FVec Ideal S100000x128 .f32) (W : FVec Ideal S128x128 .f32) (B : FVec Ideal S1x128 .f32) (T : Nat)
    (h0 : IsBlock T x0 X) (e1 : x1 = W) (e2 : x2 = B) : IsBlock T (k0_pay1 x0 x1 x2) (linG X W B) := by
  subst e1 e2
  unfold k0_pay1
  exact lin_block x0 x1 x2 X T h0 _ _ _

/-! ## The output windows: where a block sits, which points cover the array, what each point writes, the array after the region -/

theorem at0_3 (t : Fin cfg0.N) (j : S10000x128.Idx) : At t.val j (((cfg0.win 3).blk t).view.emb j) := by
  obtain ⟨e0, e1⟩ := idx0_3 t
  constructor
  · show win0_3.index t (0 : Fin 2) * 10000 + 1 * (j 0).val = _; rw [e0]; omega
  · show win0_3.index t (1 : Fin 2) * 128 + 1 * (j 1).val = _; rw [e1]; omega

theorem mem0_3 (t : Fin cfg0.N) (i : S100000x128.Idx) :
    i ∈ ((cfg0.win 3).blk t).view.set ↔ ∀ a : Fin 2, win0_3.index t a * S10000x128.size a ≤ (i a).val
      ∧ (i a).val < win0_3.index t a * S10000x128.size a + S10000x128.size a := by
  show i ∈ ((View.whole main_v6).slice (win0_3.rect t)).set ↔ _
  rw [View.set_slice_whole, Rect.mem_set_unit]
  exact Iff.rfl

/-- Row p is in the block of point p / 10000. -/
theorem cover0_3 (i : S100000x128.Idx) :
    ∃ t : Fin cfg0.N, (cfg0.win 3).flush t = true ∧ i ∈ ((cfg0.win 3).blk t).view.set := by
  have h0 : (i 0).val < 100000 := (i 0).isLt
  have h1 : (i 1).val < 128 := (i 1).isLt
  have hN : cfg0.N = 10 := N_0
  refine ⟨⟨(i 0).val / 10000, by rw [hN]; omega⟩, flush0_3 _, ?_⟩
  rw [mem0_3]
  obtain ⟨e0, e1⟩ := idx0_3 ⟨(i 0).val / 10000, by rw [hN]; omega⟩
  intro a
  match a with
  | ⟨0, _⟩ =>
    show win0_3.index _ (0 : Fin 2) * 10000 ≤ (i 0).val ∧ (i 0).val < win0_3.index _ (0 : Fin 2) * 10000 + 10000
    rw [e0]
    show (i 0).val / 10000 * 10000 ≤ (i 0).val ∧ (i 0).val < (i 0).val / 10000 * 10000 + 10000
    omega
  | ⟨1, _⟩ =>
    show win0_3.index _ (1 : Fin 2) * 128 ≤ (i 1).val ∧ (i 1).val < win0_3.index _ (1 : Fin 2) * 128 + 128
    rw [e1]
    omega

/-- What point t writes back to window 3's array is its block of the whole-array function. -/
theorem flushed0_3 (c : Dev nD) (t : Fin cfg0.N) :
    (dat0 V c).flushed 3 t = ((cfg0.win 3).blk t).view.read (Elt Ideal) (linG (a0_0 V c) (a0_1 V c) (a0_2 V c)) := by
  show (cfg0.win 3).cut (grid0.coords t) ((dat0 V c).after 3 t) = _
  rw [after0_3]
  unfold out0_3
  rw [View.canon_unit_zero hz2]
  simp only [View.ld_unit_zero (S := S10000x128) hz2, View.ld_unit_zero (S := S128x128) hz2, View.ld_unit_zero (S := S1x128) hz2]
  funext j
  show k0_pay1 (iblk0 V c 0 t) (iblk0 V c 1 t) (iblk0 V c 2 t) j = (linG (a0_0 V c) (a0_1 V c) (a0_2 V c)) (((cfg0.win 3).blk t).view.emb j)
  exact k0_pay1_block (iblk0 V c 0 t) (iblk0 V c 1 t) (iblk0 V c 2 t) (a0_0 V c) (a0_1 V c) (a0_2 V c) t.val (blk0_0 V c t) (whole0_1 V c t) (whole0_2 V c t) j (((cfg0.win 3).blk t).view.emb j) (at0_3 t j)

/-- Window 3's array after the region. -/
theorem arr0_3 (c : Dev nD) : (dat0 V c).arrAt 3 cfg0.N = linG (a0_0 V c) (a0_1 V c) (a0_2 V c) :=
  (dat0 V c).arrAt_eq_of_cover 3 _ (fun t _ => flushed0_3 V c t) cover0_3

/-- The same, with the arrays spelt as the region's proof data spells them. -/
theorem final0_3 (c : Dev nD) : (dat0 V c).arrAt 3 cfg0.N = linG (V c (Pipeline.arrRef spec0 0)) (V c (Pipeline.arrRef spec0 1)) (V c (Pipeline.arrRef spec0 2)) :=
  arr0_3 V c

end Cert.KernelIdeal.RegionValue

end
-- ==== Proof.KHost0.lean ====
import proofs.«119304_j10247791968545_2_alg».proof.Proof.Gen.KernelIdeal.Frame

/-!
# The kernel program's host side: what the host operations of the first layer and of the tail leave

For each stretch of host operations of @main and each buffer it writes that a later region or stretch reads, the
buffer after the stretch as the operations' pure term over the buffers before it: the two rows of edge indices,
the transposed initial weight and the bias row (before region 0); the neighbour sum, the layer's transposed first
weight and its bias row (before region 1); the batch statistics — column sums of the ten per-block partial sums,
mean = sum / N, variance = max (sum of squares / N − mean², 0) — and the scale, shift, second weight and bias rows
(before regions 2 and 3); and the classifier applied to the selected rows (after region 12).  Each is stated once for
an arbitrary valuation and once at the boundaries `W`.
-/

set_option maxRecDepth 16384

noncomputable section

namespace Cert.KernelIdeal.HostSide

open Idealize.ShloMosaic Idealize.ShloMosaic.TcCoe
open Cert.KernelIdeal Cert.KernelIdeal.Gen

variable {F : FTy → Type} [FloatOps F]
variable (m : (ℓ : Loc nD τ sig) → Buf (Elt F) ℓ) (ρ : Dev nD → PrngReg)

/-! ## The host operations between boundaries 0 and 1 -/

theorem hostOps0_main_v1 (V : Valuation τ sig (Elt F)) :
    StableHlo.after hostOps0 V (Proc.devRef .tc main_v1) =
      (shapeCast S625000 (extractStridedSlice S1x625000 ![0, 0] (V (Proc.devRef .tc main_arg1)) slices_S2x625000_S1x625000_0_0) shapeCasts_S1x625000_S625000) := by
  after_results <;> rfl
theorem W1_main_v1 (c : Dev nD) :
    W1 m ρ c (Proc.devRef .tc main_v1) =
      (shapeCast S625000 (extractStridedSlice S1x625000 ![0, 0] (W0 m ρ c (Proc.devRef .tc main_arg1)) slices_S2x625000_S1x625000_0_0) shapeCasts_S1x625000_S625000) :=
  hostOps0_main_v1 _

theorem hostOps0_main_v3 (V : Valuation τ sig (Elt F)) :
    StableHlo.after hostOps0 V (Proc.devRef .tc main_v3) =
      (shapeCast S625000 (extractStridedSlice S1x625000 ![1, 0] (V (Proc.devRef .tc main_arg1)) slices_S2x625000_S1x625000_1_0) shapeCasts_S1x625000_S625000) := by
  after_results <;> rfl
theorem W1_main_v3 (c : Dev nD) :
    W1 m ρ c (Proc.devRef .tc main_v3) =
      (shapeCast S625000 (extractStridedSlice S1x625000 ![1, 0] (W0 m ρ c (Proc.devRef .tc main_arg1)) slices_S2x625000_S1x625000_1_0) shapeCasts_S1x625000_S625000) :=
  hostOps0_main_v3 _

theorem hostOps0_main_v4 (V : Valuation τ sig (Elt F)) :
    StableHlo.after hostOps0 V (Proc.devRef .tc main_v4) =
      ((transpose S128x128 [1, 0] (V (Proc.devRef .tc main_arg3)) transposes_S128x128_S128x128_1_0) : (⟨S128x128, .f32⟩ : BufTy).Contents (Elt F)) := by
  after_results <;> rfl
theorem W1_main_v4 (c : Dev nD) :
    W1 m ρ c (Proc.devRef .tc main_v4) =
      ((transpose S128x128 [1, 0] (W0 m ρ c (Proc.devRef .tc main_arg3)) transposes_S128x128_S128x128_1_0) : (⟨S128x128, .f32⟩ : BufTy).Contents (Elt F)) :=
  hostOps0_main_v4 _

theorem hostOps0_main_v5 (V : Valuation τ sig (Elt F)) :
    StableHlo.after hostOps0 V (Proc.devRef .tc main_v5) =
      (shapeCast S1x128 (V (Proc.devRef .tc main_arg4)) shapeCasts_S128_S1x128) := by
  after_results <;> rfl
theorem W1_main_v5 (c : Dev nD) :
    W1 m ρ c (Proc.devRef .tc main_v5) =
      (shapeCast S1x128 (W0 m ρ c (Proc.devRef .tc main_arg4)) shapeCasts_S128_S1x128) :=
  hostOps0_main_v5 _

/-! ## The host operations between boundaries 2 and 3 -/

theorem hostOps1_main_v16 (V : Valuation τ sig (Elt F)) :
    StableHlo.after hostOps1 V (Proc.devRef .tc main_v16) =
      ((Host.scatterAdd (F := F) scatter_S100000x128_S625000x1_S625000x128_1_0_0_1 (broadcastInDim S100000x128 ![] bcast_S_S100000x128 (constant (F := F) S_ .f32 0x00000000#32)) (broadcastInDim S625000x1 ![0] bcast_S625000_S625000x1_0 (V (Proc.devRef .tc main_v3))) (Host.gather gather_S100000x128_S625000x1_S625000x128_1_0_n_n_0_1_1128 (V (Proc.devRef .tc main_v6)) (broadcastInDim S625000x1 ![0] bcast_S625000_S625000x1_0 (select (cmpi .slt (V (Proc.devRef .tc main_v1)) (broadcastInDim S625000 ![] bcast_S_S625000 (constantI S_ 32 0#32))) (addi (V (Proc.devRef .tc main_v1)) (broadcastInDim S625000 ![] bcast_S_S625000 (constantI S_ 32 100000#32))) (V (Proc.devRef .tc main_v1)))))) : (⟨S100000x128, .f32⟩ : BufTy).Contents (Elt F)) := by
  after_results <;> rfl
theorem W3_main_v16 (c : Dev nD) :
    W3 m ρ c (Proc.devRef .tc main_v16) =
      ((Host.scatterAdd (F := F) scatter_S100000x128_S625000x1_S625000x128_1_0_0_1 (broadcastInDim S100000x128 ![] bcast_S_S100000x128 (constant (F := F) S_ .f32 0x00000000#32)) (broadcastInDim S625000x1 ![0] bcast_S625000_S625000x1_0 (W2 m ρ c (Proc.devRef .tc main_v3))) (Host.gather gather_S100000x128_S625000x1_S625000x128_1_0_n_n_0_1_1128 (W2 m ρ c (Proc.devRef .tc main_v6)) (broadcastInDim S625000x1 ![0] bcast_S625000_S625000x1_0 (select (cmpi .slt (W2 m ρ c (Proc.devRef .tc main_v1)) (broadcastInDim S625000 ![] bcast_S_S625000 (constantI S_ 32 0#32))) (addi (W2 m ρ c (Proc.devRef .tc main_v1)) (broadcastInDim S625000 ![] bcast_S_S625000 (constantI S_ 32 100000#32))) (W2 m ρ c (Proc.devRef .tc main_v1)))))) : (⟨S100000x128, .f32⟩ : BufTy).Contents (Elt F)) :=
  hostOps1_main_v16 _

theorem hostOps1_main_v21 (V : Valuation τ sig (Elt F)) :
    StableHlo.after hostOps1 V (Proc.devRef .tc main_v21) =
      ((transpose S128x128 [1, 0] (shapeCast S128x128 (extractStridedSlice S1x128x128 ![0, 0, 0] (V (Proc.devRef .tc main_arg5)) slices_S4x128x128_S1x128x128_0_0_0) shapeCasts_S1x128x128_S128x128) transposes_S128x128_S128x128_1_0) : (⟨S128x128, .f32⟩ : BufTy).Contents (Elt F)) := by
  after_results <;> rfl
theorem W3_main_v21 (c : Dev nD) :
    W3 m ρ c (Proc.devRef .tc main_v21) =
      ((transpose S128x128 [1, 0] (shapeCast S128x128 (extractStridedSlice S1x128x128 ![0, 0, 0] (W2 m ρ c (Proc.devRef .tc main_arg5)) slices_S4x128x128_S1x128x128_0_0_0) shapeCasts_S1x128x128_S128x128) transposes_S128x128_S128x128_1_0) : (⟨S128x128, .f32⟩ : BufTy).Contents (Elt F)) :=
  hostOps1_main_v21 _

theorem hostOps1_main_v22 (V : Valuation τ sig (Elt F)) :
    StableHlo.after hostOps1 V (Proc.devRef .tc main_v22) =
      (shapeCast S1x128 (shapeCast S128 (extractStridedSlice S1x128 ![0, 0] (V (Proc.devRef .tc main_arg6)) slices_S4x128_S1x128_0_0) shapeCasts_S1x128_S128) shapeCasts_S128_S1x128) := by
  after_results <;> rfl
theorem W3_main_v22 (c : Dev nD) :
    W3 m ρ c (Proc.devRef .tc main_v22) =
      (shapeCast S1x128 (shapeCast S128 (extractStridedSlice S1x128 ![0, 0] (W2 m ρ c (Proc.devRef .tc main_arg6)) slices_S4x128_S1x128_0_0) shapeCasts_S1x128_S128) shapeCasts_S128_S1x128) :=
  hostOps1_main_v22 _

/-! ## The host operations between boundaries 4 and 5 -/

theorem hostOps2_main_v27 (V : Valuation τ sig (Elt F)) :
    StableHlo.after hostOps2 V (Proc.devRef .tc main_v27) =
      ((Host.divf (F := F) (Host.reduceAdd (F := F) (V (Proc.devRef .tc main_v23_1)) (constant (F := F) S_ .f32 0x00000000#32) reducesTo_S10x1x128_S1x128_d0 h_S_) (broadcastInDim S1x128 ![] bcast_S_S1x128 (constant (F := F) S_ .f32 0x47C35000#32))) : (⟨S1x128, .f32⟩ : BufTy).Contents (Elt F)) := by
  after_results <;> rfl
theorem W5_main_v27 (c : Dev nD) :
    W5 m ρ c (Proc.devRef .tc main_v27) =
      ((Host.divf (F := F) (Host.reduceAdd (F := F) (W4 m ρ c (Proc.devRef .tc main_v23_1)) (constant (F := F) S_ .f32 0x00000000#32) reducesTo_S10x1x128_S1x128_d0 h_S_) (broadcastInDim S1x128 ![] bcast_S_S1x128 (constant (F := F) S_ .f32 0x47C35000#32))) : (⟨S1x128, .f32⟩ : BufTy).Contents (Elt F)) :=
  hostOps2_main_v27 _

theorem hostOps2_main_v33 (V : Valuation τ sig (Elt F)) :
    StableHlo.after hostOps2 V (Proc.devRef .tc main_v33) =
      ((maximumf (F := F) (subf (F := F) (Host.divf (F := F) (Host.reduceAdd (F := F) (V (Proc.devRef .tc main_v23_2)) (constant (F := F) S_ .f32 0x00000000#32) reducesTo_S10x1x128_S1x128_d0 h_S_) (broadcastInDim S1x128 ![] bcast_S_S1x128 (constant (F := F) S_ .f32 0x47C35000#32))) (mulf (F := F) (Host.divf (F := F) (Host.reduceAdd (F := F) (V (Proc.devRef .tc main_v23_1)) (constant (F := F) S_ .f32 0x00000000#32) reducesTo_S10x1x128_S1x128_d0 h_S_) (broadcastInDim S1x128 ![] bcast_S_S1x128 (constant (F := F) S_ .f32 0x47C35000#32))) (Host.divf (F := F) (Host.reduceAdd (F := F) (V (Proc.devRef .tc main_v23_1)) (constant (F := F) S_ .f32 0x00000000#32) reducesTo_S10x1x128_S1x128_d0 h_S_) (broadcastInDim S1x128 ![] bcast_S_S1x128 (constant (F := F) S_ .f32 0x47C35000#32))))) (broadcastInDim S1x128 ![] bcast_S_S1x128 (constant (F := F) S_ .f32 0x00000000#32))) : (⟨S1x128, .f32⟩ : BufTy).Contents (Elt F)) := by
  after_results <;> rfl
theorem W5_main_v33 (c : Dev nD) :
    W5 m ρ c (Proc.devRef .tc main_v33) =
      ((maximumf (F := F) (subf (F := F) (Host.divf (F := F) (Host.reduceAdd (F := F) (W4 m ρ c (Proc.devRef .tc main_v23_2)) (constant (F := F) S_ .f32 0x00000000#32) reducesTo_S10x1x128_S1x128_d0 h_S_) (broadcastInDim S1x128 ![] bcast_S_S1x128 (constant (F := F) S_ .f32 0x47C35000#32))) (mulf (F := F) (Host.divf (F := F) (Host.reduceAdd (F := F) (W4 m ρ c (Proc.devRef .tc main_v23_1)) (constant (F := F) S_ .f32 0x00000000#32) reducesTo_S10x1x128_S1x128_d0 h_S_) (broadcastInDim S1x128 ![] bcast_S_S1x128 (constant (F := F) S_ .f32 0x47C35000#32))) (Host.divf (F := F) (Host.reduceAdd (F := F) (W4 m ρ c (Proc.devRef .tc main_v23_1)) (constant (F := F) S_ .f32 0x00000000#32) reducesTo_S10x1x128_S1x128_d0 h_S_) (broadcastInDim S1x128 ![] bcast_S_S1x128 (constant (F := F) S_ .f32 0x47C35000#32))))) (broadcastInDim S1x128 ![] bcast_S_S1x128 (constant (F := F) S_ .f32 0x00000000#32))) : (⟨S1x128, .f32⟩ : BufTy).Contents (Elt F)) :=
  hostOps2_main_v33 _

theorem hostOps2_main_v43 (V : Valuation τ sig (Elt F)) :
    StableHlo.after hostOps2 V (Proc.devRef .tc main_v43) =
      (shapeCast S1x128 (shapeCast S128 (extractStridedSlice S1x128 ![0, 0] (V (Proc.devRef .tc main_arg7)) slices_S4x128_S1x128_0_0) shapeCasts_S1x128_S128) shapeCasts_S128_S1x128) := by
  after_results <;> rfl
theorem W5_main_v43 (c : Dev nD) :
    W5 m ρ c (Proc.devRef .tc main_v43) =
      (shapeCast S1x128 (shapeCast S128 (extractStridedSlice S1x128 ![0, 0] (W4 m ρ c (Proc.devRef .tc main_arg7)) slices_S4x128_S1x128_0_0) shapeCasts_S1x128_S128) shapeCasts_S128_S1x128) :=
  hostOps2_main_v43 _

theorem hostOps2_main_v44 (V : Valuation τ sig (Elt F)) :
    StableHlo.after hostOps2 V (Proc.devRef .tc main_v44) =
      (shapeCast S1x128 (shapeCast S128 (extractStridedSlice S1x128 ![0, 0] (V (Proc.devRef .tc main_arg8)) slices_S4x128_S1x128_0_0) shapeCasts_S1x128_S128) shapeCasts_S128_S1x128) := by
  after_results <;> rfl
theorem W5_main_v44 (c : Dev nD) :
    W5 m ρ c (Proc.devRef .tc main_v44) =
      (shapeCast S1x128 (shapeCast S128 (extractStridedSlice S1x128 ![0, 0] (W4 m ρ c (Proc.devRef .tc main_arg8)) slices_S4x128_S1x128_0_0) shapeCasts_S1x128_S128) shapeCasts_S128_S1x128) :=
  hostOps2_main_v44 _

theorem hostOps2_main_v42 (V : Valuation τ sig (Elt F)) :
    StableHlo.after hostOps2 V (Proc.devRef .tc main_v42) =
      ((transpose S128x128 [1, 0] (shapeCast S128x128 (extractStridedSlice S1x128x128 ![0, 0, 0] (V (Proc.devRef .tc main_arg9)) slices_S4x128x128_S1x128x128_0_0_0) shapeCasts_S1x128x128_S128x128) transposes_S128x128_S128x128_1_0) : (⟨S128x128, .f32⟩ : BufTy).Contents (Elt F)) := by
  after_results <;> rfl
theorem W5_main_v42 (c : Dev nD) :
    W5 m ρ c (Proc.devRef .tc main_v42) =
      ((transpose S128x128 [1, 0] (shapeCast S128x128 (extractStridedSlice S1x128x128 ![0, 0, 0] (W4 m ρ c (Proc.devRef .tc main_arg9)) slices_S4x128x128_S1x128x128_0_0_0) shapeCasts_S1x128x128_S128x128) transposes_S128x128_S128x128_1_0) : (⟨S128x128, .f32⟩ : BufTy).Contents (Elt F)) :=
  hostOps2_main_v42 _

theorem hostOps2_main_v45 (V : Valuation τ sig (Elt F)) :
    StableHlo.after hostOps2 V (Proc.devRef .tc main_v45) =
      (shapeCast S1x128 (shapeCast S128 (extractStridedSlice S1x128 ![0, 0] (V (Proc.devRef .tc main_arg10)) slices_S4x128_S1x128_0_0) shapeCasts_S1x128_S128) shapeCasts_S128_S1x128) := by
  after_results <;> rfl
theorem W5_main_v45 (c : Dev nD) :
    W5 m ρ c (Proc.devRef .tc main_v45) =
      (shapeCast S1x128 (shapeCast S128 (extractStridedSlice S1x128 ![0, 0] (W4 m ρ c (Proc.devRef .tc main_arg10)) slices_S4x128_S1x128_0_0) shapeCasts_S1x128_S128) shapeCasts_S128_S1x128) :=
  hostOps2_main_v45 _

/-! ## The host operations between boundaries 6 and 7 -/

theorem hostOps3_main_v50 (V : Valuation τ sig (Elt F)) :
    StableHlo.after hostOps3 V (Proc.devRef .tc main_v50) =
      ((Host.divf (F := F) (Host.reduceAdd (F := F) (V (Proc.devRef .tc main_v46_1)) (constant (F := F) S_ .f32 0x00000000#32) reducesTo_S10x1x128_S1x128_d0 h_S_) (broadcastInDim S1x128 ![] bcast_S_S1x128 (constant (F := F) S_ .f32 0x47C35000#32))) : (⟨S1x128, .f32⟩ : BufTy).Contents (Elt F)) := by
  after_results <;> rfl
theorem W7_main_v50 (c : Dev nD) :
    W7 m ρ c (Proc.devRef .tc main_v50) =
      ((Host.divf (F := F) (Host.reduceAdd (F := F) (W6 m ρ c (Proc.devRef .tc main_v46_1)) (constant (F := F) S_ .f32 0x00000000#32) reducesTo_S10x1x128_S1x128_d0 h_S_) (broadcastInDim S1x128 ![] bcast_S_S1x128 (constant (F := F) S_ .f32 0x47C35000#32))) : (⟨S1x128, .f32⟩ : BufTy).Contents (Elt F)) :=
  hostOps3_main_v50 _

theorem hostOps3_main_v56 (V : Valuation τ sig (Elt F)) :
    StableHlo.after hostOps3 V (Proc.devRef .tc main_v56) =
      ((maximumf (F := F) (subf (F := F) (Host.divf (F := F) (Host.reduceAdd (F := F) (V (Proc.devRef .tc main_v46_2)) (constant (F := F) S_ .f32 0x00000000#32) reducesTo_S10x1x128_S1x128_d0 h_S_) (broadcastInDim S1x128 ![] bcast_S_S1x128 (constant (F := F) S_ .f32 0x47C35000#32))) (mulf (F := F) (Host.divf (F := F) (Host.reduceAdd (F := F) (V (Proc.devRef .tc main_v46_1)) (constant (F := F) S_ .f32 0x00000000#32) reducesTo_S10x1x128_S1x128_d0 h_S_) (broadcastInDim S1x128 ![] bcast_S_S1x128 (constant (F := F) S_ .f32 0x47C35000#32))) (Host.divf (F := F) (Host.reduceAdd (F := F) (V (Proc.devRef .tc main_v46_1)) (constant (F := F) S_ .f32 0x00000000#32) reducesTo_S10x1x128_S1x128_d0 h_S_) (broadcastInDim S1x128 ![] bcast_S_S1x128 (constant (F := F) S_ .f32 0x47C35000#32))))) (broadcastInDim S1x128 ![] bcast_S_S1x128 (constant (F := F) S_ .f32 0x00000000#32))) : (⟨S1x128, .f32⟩ : BufTy).Contents (Elt F)) := by
  after_results <;> rfl
theorem W7_main_v56 (c : Dev nD) :
    W7 m ρ c (Proc.devRef .tc main_v56) =
      ((maximumf (F := F) (subf (F := F) (Host.divf (F := F) (Host.reduceAdd (F := F) (W6 m ρ c (Proc.devRef .tc main_v46_2)) (constant (F := F) S_ .f32 0x00000000#32) reducesTo_S10x1x128_S1x128_d0 h_S_) (broadcastInDim S1x128 ![] bcast_S_S1x128 (constant (F := F) S_ .f32 0x47C35000#32))) (mulf (F := F) (Host.divf (F := F) (Host.reduceAdd (F := F) (W6 m ρ c (Proc.devRef .tc main_v46_1)) (constant (F := F) S_ .f32 0x00000000#32) reducesTo_S10x1x128_S1x128_d0 h_S_) (broadcastInDim S1x128 ![] bcast_S_S1x128 (constant (F := F) S_ .f32 0x47C35000#32))) (Host.divf (F := F) (Host.reduceAdd (F := F) (W6 m ρ c (Proc.devRef .tc main_v46_1)) (constant (F := F) S_ .f32 0x00000000#32) reducesTo_S10x1x128_S1x128_d0 h_S_) (broadcastInDim S1x128 ![] bcast_S_S1x128 (constant (F := F) S_ .f32 0x47C35000#32))))) (broadcastInDim S1x128 ![] bcast_S_S1x128 (constant (F := F) S_ .f32 0x00000000#32))) : (⟨S1x128, .f32⟩ : BufTy).Contents (Elt F)) :=
  hostOps3_main_v56 _

theorem hostOps3_main_v61 (V : Valuation τ sig (Elt F)) :
    StableHlo.after hostOps3 V (Proc.devRef .tc main_v61) =
      (shapeCast S1x128 (shapeCast S128 (extractStridedSlice S1x128 ![0, 0] (V (Proc.devRef .tc main_arg11)) slices_S4x128_S1x128_0_0) shapeCasts_S1x128_S128) shapeCasts_S128_S1x128) := by
  after_results <;> rfl
theorem W7_main_v61 (c : Dev nD) :
    W7 m ρ c (Proc.devRef .tc main_v61) =
      (shapeCast S1x128 (shapeCast S128 (extractStridedSlice S1x128 ![0, 0] (W6 m ρ c (Proc.devRef .tc main_arg11)) slices_S4x128_S1x128_0_0) shapeCasts_S1x128_S128) shapeCasts_S128_S1x128) :=
  hostOps3_main_v61 _

theorem hostOps3_main_v62 (V : Valuation τ sig (Elt F)) :
    StableHlo.after hostOps3 V (Proc.devRef .tc main_v62) =
      (shapeCast S1x128 (shapeCast S128 (extractStridedSlice S1x128 ![0, 0] (V (Proc.devRef .tc main_arg12)) slices_S4x128_S1x128_0_0) shapeCasts_S1x128_S128) shapeCasts_S128_S1x128) := by
  after_results <;> rfl
theorem W7_main_v62 (c : Dev nD) :
    W7 m ρ c (Proc.devRef .tc main_v62) =
      (shapeCast S1x128 (shapeCast S128 (extractStridedSlice S1x128 ![0, 0] (W6 m ρ c (Proc.devRef .tc main_arg12)) slices_S4x128_S1x128_0_0) shapeCasts_S1x128_S128) shapeCasts_S128_S1x128) :=
  hostOps3_main_v62 _

/-! ## The host operations between boundaries 26 and 27 -/

theorem hostOps13_main_v246 (V : Valuation τ sig (Elt F)) :
    StableHlo.after hostOps13 V (Proc.devRef .tc main_v246) =
      ((addf (F := F) (Host.dotGeneral (F := F) dot_S10000x128_S128x10_S10000x10_1_0_0_1_n_n none (Host.gather gather_S100000x128_S10000x1_S10000x128_1_0_n_n_0_1_1128 (V (Proc.devRef .tc main_v234)) (broadcastInDim S10000x1 ![0] bcast_S10000_S10000x1_0 (select (cmpi .slt (V (Proc.devRef .tc main_arg2)) (broadcastInDim S10000 ![] bcast_S_S10000 (constantI S_ 32 0#32))) (addi (V (Proc.devRef .tc main_arg2)) (broadcastInDim S10000 ![] bcast_S_S10000 (constantI S_ 32 100000#32))) (V (Proc.devRef .tc main_arg2))))) (transpose S128x10 [1, 0] (V (Proc.devRef .tc main_arg13)) transposes_S10x128_S128x10_1_0)) (broadcastInDim S10000x10 ![0, 1] bcast_S1x10_S10000x10_0_1 (broadcastInDim S1x10 ![1] bcast_S10_S1x10_1 (V (Proc.devRef .tc main_arg14))))) : (⟨S10000x10, .f32⟩ : BufTy).Contents (Elt F)) := by
  after_results <;> rfl
theorem W27_main_v246 (c : Dev nD) :
    W27 m ρ c (Proc.devRef .tc main_v246) =
      ((addf (F := F) (Host.dotGeneral (F := F) dot_S10000x128_S128x10_S10000x10_1_0_0_1_n_n none (Host.gather gather_S100000x128_S10000x1_S10000x128_1_0_n_n_0_1_1128 (W26 m ρ c (Proc.devRef .tc main_v234)) (broadcastInDim S10000x1 ![0] bcast_S10000_S10000x1_0 (select (cmpi .slt (W26 m ρ c (Proc.devRef .tc main_arg2)) (broadcastInDim S10000 ![] bcast_S_S10000 (constantI S_ 32 0#32))) (addi (W26 m ρ c (Proc.devRef .tc main_arg2)) (broadcastInDim S10000 ![] bcast_S_S10000 (constantI S_ 32 100000#32))) (W26 m ρ c (Proc.devRef .tc main_arg2))))) (transpose S128x10 [1, 0] (W26 m ρ c (Proc.devRef .tc main_arg13)) transposes_S10x128_S128x10_1_0)) (broadcastInDim S10000x10 ![0, 1] bcast_S1x10_S10000x10_0_1 (broadcastInDim S1x10 ![1] bcast_S10_S1x10_1 (W26 m ρ c (Proc.devRef .tc main_arg14))))) : (⟨S10000x10, .f32⟩ : BufTy).Contents (Elt F)) :=
  hostOps13_main_v246 _

end Cert.KernelIdeal.HostSide

end
-- ==== Proof.KKeep.lean ====
import proofs.«119304_j10247791968545_2_alg».proof.Proof.Gen.KernelIdeal.Frame

/-!
# The kernel program's host side: what each step of @main's fold leaves alone

`W0 … W27` are the buffer contents at the boundaries of @main (launch, then alternately a stretch of host
operations and a pallas region).  Every buffer of @main is written exactly once (by one host operation or as
one region's output window), so a buffer read long after it was written is carried unchanged through every
step in between.  This module states that, step by step:

* a stretch of host operations changes only the buffers in its list `wrK` (`W(2k+1)_keep`);
* a region changes only its output windows: a buffer that is none of its windows is kept (`W(2k+2)_of_ne`, from
  the imported module), and so is an input window's array (`W(2k+2)_in`);

and from these the pull-backs that the value proof uses: every argument at every boundary is the launch
memory, the two edge-index rows hold from boundary 1 on what the first stretch wrote, and each region's
output survives the following stretch.
-/

set_option maxRecDepth 16384

noncomputable section

namespace Cert.KernelIdeal.HostSide

open Idealize.ShloMosaic Idealize.ShloMosaic.TcCoe
open Cert.KernelIdeal Cert.KernelIdeal.Gen

variable {F : FTy → Type} [FloatOps F]
variable (m : (ℓ : Loc nD τ sig) → Buf (Elt F) ℓ) (ρ : Dev nD → PrngReg)

/-- One operation's written buffer is in the stretch's list. -/
local macro "wr_one" : tactic =>
  `(tactic| (simp only [StableHlo.nullary_writes, StableHlo.unary_writes, StableHlo.binary_writes, StableHlo.ternary_writes, StableHlo.reshape_writes, Finset.singleton_subset_iff, List.mem_toFinset]; exact List.mem_map_of_mem (by decide)))

/-! ## The stretches of host operations -/

/-- The buffers the host operations between boundaries 0 and 1 write. -/
abbrev wr0 : List (Ref sig .tc) := [main_v0, main_v1, main_v2, main_v3, main_v4, main_v5]
theorem hostOps0_wr : (hostOps0 : List (HloOp τ sig (Elt F))).Forall fun op => op.writes ⊆ (wr0.map (Proc.devRef (τ := τ) .tc)).toFinset := by
  simp only [List.Forall]; refine ⟨?_, ?_, ?_, ?_, ?_, ?_⟩ <;> wr_one
/-- Any other buffer is as it was. -/
theorem W1_keep (c : Dev nD) (r : Ref sig .tc) (h : r ∉ wr0) :
    W1 m ρ c (Proc.devRef .tc r) = W0 m ρ c (Proc.devRef .tc r) :=
  StableHlo.after_of_writes_sub hostOps0 _ hostOps0_wr h

/-- The buffers the host operations between boundaries 2 and 3 write. -/
abbrev wr1 : List (Ref sig .tc) := [main_c, main_v7, main_v8, main_c_0, main_v9, main_v10, main_v11, main_v12, main_v13, main_cst, main_v14, main_v15, main_v16, main_v17, main_v18, main_v19, main_v20, main_v21, main_v22]
theorem hostOps1_wr : (hostOps1 : List (HloOp τ sig (Elt F))).Forall fun op => op.writes ⊆ (wr1.map (Proc.devRef (τ := τ) .tc)).toFinset := by
  simp only [List.Forall]; refine ⟨?_, ?_, ?_, ?_, ?_, ?_, ?_, ?_, ?_, ?_, ?_, ?_, ?_, ?_, ?_, ?_, ?_, ?_, ?_⟩ <;> wr_one
/-- Any other buffer is as it was. -/
theorem W3_keep (c : Dev nD) (r : Ref sig .tc) (h : r ∉ wr1) :
    W3 m ρ c (Proc.devRef .tc r) = W2 m ρ c (Proc.devRef .tc r) :=
  StableHlo.after_of_writes_sub hostOps1 _ hostOps1_wr h

/-- The buffers the host operations between boundaries 4 and 5 write. -/
abbrev wr2 : List (Ref sig .tc) := [main_cst_1, main_v24, main_cst_2, main_v25, main_cst_3, main_v26, main_v27, main_cst_4, main_v28, main_v29, main_v30, main_v31, main_cst_5, main_v32, main_v33, main_v34, main_v35, main_v36, main_v37, main_v38, main_v39, main_v40, main_v41, main_v42, main_v43, main_v44, main_v45]
theorem hostOps2_wr : (hostOps2 : List (HloOp τ sig (Elt F))).Forall fun op => op.writes ⊆ (wr2.map (Proc.devRef (τ := τ) .tc)).toFinset := by
  simp only [List.Forall]; refine ⟨?_, ?_, ?_, ?_, ?_, ?_, ?_, ?_, ?_, ?_, ?_, ?_, ?_, ?_, ?_, ?_, ?_, ?_, ?_, ?_, ?_, ?_, ?_, ?_, ?_, ?_, ?_⟩ <;> wr_one
/-- Any other buffer is as it was. -/
theorem W5_keep (c : Dev nD) (r : Ref sig .tc) (h : r ∉ wr2) :
    W5 m ρ c (Proc.devRef .tc r) = W4 m ρ c (Proc.devRef .tc r) :=
  StableHlo.after_of_writes_sub hostOps2 _ hostOps2_wr h

/-- The buffers the host operations between boundaries 6 and 7 write. -/
abbrev wr3 : List (Ref sig .tc) := [main_cst_6, main_v47, main_cst_7, main_v48, main_cst_8, main_v49, main_v50, main_cst_9, main_v51, main_v52, main_v53, main_v54, main_cst_10, main_v55, main_v56, main_v57, main_v58, main_v59, main_v60, main_v61, main_v62]
theorem hostOps3_wr : (hostOps3 : List (HloOp τ sig (Elt F))).Forall fun op => op.writes ⊆ (wr3.map (Proc.devRef (τ := τ) .tc)).toFinset := by
  simp only [List.Forall]; refine ⟨?_, ?_, ?_, ?_, ?_, ?_, ?_, ?_, ?_, ?_, ?_, ?_, ?_, ?_, ?_, ?_, ?_, ?_, ?_, ?_, ?_⟩ <;> wr_one
/-- Any other buffer is as it was. -/
theorem W7_keep (c : Dev nD) (r : Ref sig .tc) (h : r ∉ wr3) :
    W7 m ρ c (Proc.devRef .tc r) = W6 m ρ c (Proc.devRef .tc r) :=
  StableHlo.after_of_writes_sub hostOps3 _ hostOps3_wr h

/-- The buffers the host operations between boundaries 8 and 9 write. -/
abbrev wr4 : List (Ref sig .tc) := [main_c_11, main_v64, main_v65, main_c_12, main_v66, main_v67, main_v68, main_v69, main_v70, main_cst_13, main_v71, main_v72, main_v73, main_v74, main_v75, main_v76, main_v77, main_v78, main_v79]
theorem hostOps4_wr : (hostOps4 : List (HloOp τ sig (Elt F))).Forall fun op => op.writes ⊆ (wr4.map (Proc.devRef (τ := τ) .tc)).toFinset := by
  simp only [List.Forall]; refine ⟨?_, ?_, ?_, ?_, ?_, ?_, ?_, ?_, ?_, ?_, ?_, ?_, ?_, ?_, ?_, ?_, ?_, ?_, ?_⟩ <;> wr_one
/-- Any other buffer is as it was. -/
theorem W9_keep (c : Dev nD) (r : Ref sig .tc) (h : r ∉ wr4) :
    W9 m ρ c (Proc.devRef .tc r) = W8 m ρ c (Proc.devRef .tc r) :=
  StableHlo.after_of_writes_sub hostOps4 _ hostOps4_wr h

/-- The buffers the host operations between boundaries 10 and 11 write. -/
abbrev wr5 : List (Ref sig .tc) := [main_cst_14, main_v81, main_cst_15, main_v82, main_cst_16, main_v83, main_v84, main_cst_17, main_v85, main_v86, main_v87, main_v88, main_cst_18, main_v89, main_v90, main_v91, main_v92, main_v93, main_v94, main_v95, main_v96, main_v97, main_v98, main_v99, main_v100, main_v101, main_v102]
theorem hostOps5_wr : (hostOps5 : List (HloOp τ sig (Elt F))).Forall fun op => op.writes ⊆ (wr5.map (Proc.devRef (τ := τ) .tc)).toFinset := by
  simp only [List.Forall]; refine ⟨?_, ?_, ?_, ?_, ?_, ?_, ?_, ?_, ?_, ?_, ?_, ?_, ?_, ?_, ?_, ?_, ?_, ?_, ?_, ?_, ?_, ?_, ?_, ?_, ?_, ?_, ?_⟩ <;> wr_one
/-- Any other buffer is as it was. -/
theorem W11_keep (c : Dev nD) (r : Ref sig .tc) (h : r ∉ wr5) :
    W11 m ρ c (Proc.devRef .tc r) = W10 m ρ c (Proc.devRef .tc r) :=
  StableHlo.after_of_writes_sub hostOps5 _ hostOps5_wr h

/-- The buffers the host operations between boundaries 12 and 13 write. -/
abbrev wr6 : List (Ref sig .tc) := [main_cst_19, main_v104, main_cst_20, main_v105, main_cst_21, main_v106, main_v107, main_cst_22, main_v108, main_v109, main_v110, main_v111, main_cst_23, main_v112, main_v113, main_v114, main_v115, main_v116, main_v117, main_v118, main_v119]
theorem hostOps6_wr : (hostOps6 : List (HloOp τ sig (Elt F))).Forall fun op => op.writes ⊆ (wr6.map (Proc.devRef (τ := τ) .tc)).toFinset := by
  simp only [List.Forall]; refine ⟨?_, ?_, ?_, ?_, ?_, ?_, ?_, ?_, ?_, ?_, ?_, ?_, ?_, ?_, ?_, ?_, ?_, ?_, ?_, ?_, ?_⟩ <;> wr_one
/-- Any other buffer is as it was. -/
theorem W13_keep (c : Dev nD) (r : Ref sig .tc) (h : r ∉ wr6) :
    W13 m ρ c (Proc.devRef .tc r) = W12 m ρ c (Proc.devRef .tc r) :=
  StableHlo.after_of_writes_sub hostOps6 _ hostOps6_wr h

/-- The buffers the host operations between boundaries 14 and 15 write. -/
abbrev wr7 : List (Ref sig .tc) := [main_c_24, main_v121, main_v122, main_c_25, main_v123, main_v124, main_v125, main_v126, main_v127, main_cst_26, main_v128, main_v129, main_v130, main_v131, main_v132, main_v133, main_v134, main_v135, main_v136]
theorem hostOps7_wr : (hostOps7 : List (HloOp τ sig (Elt F))).Forall fun op => op.writes ⊆ (wr7.map (Proc.devRef (τ := τ) .tc)).toFinset := by
  simp only [List.Forall]; refine ⟨?_, ?_, ?_, ?_, ?_, ?_, ?_, ?_, ?_, ?_, ?_, ?_, ?_, ?_, ?_, ?_, ?_, ?_, ?_⟩ <;> wr_one
/-- Any other buffer is as it was. -/
theorem W15_keep (c : Dev nD) (r : Ref sig .tc) (h : r ∉ wr7) :
    W15 m ρ c (Proc.devRef .tc r) = W14 m ρ c (Proc.devRef .tc r) :=
  StableHlo.after_of_writes_sub hostOps7 _ hostOps7_wr h

/-- The buffers the host operations between boundaries 16 and 17 write. -/
abbrev wr8 : List (Ref sig .tc) := [main_cst_27, main_v138, main_cst_28, main_v139, main_cst_29, main_v140, main_v141, main_cst_30, main_v142, main_v143, main_v144, main_v145, main_cst_31, main_v146, main_v147, main_v148, main_v149, main_v150, main_v151, main_v152, main_v153, main_v154, main_v155, main_v156, main_v157, main_v158, main_v159]
theorem hostOps8_wr : (hostOps8 : List (HloOp τ sig (Elt F))).Forall fun op => op.writes ⊆ (wr8.map (Proc.devRef (τ := τ) .tc)).toFinset := by
  simp only [List.Forall]; refine ⟨?_, ?_, ?_, ?_, ?_, ?_, ?_, ?_, ?_, ?_, ?_, ?_, ?_, ?_, ?_, ?_, ?_, ?_, ?_, ?_, ?_, ?_, ?_, ?_, ?_, ?_, ?_⟩ <;> wr_one
/-- Any other buffer is as it was. -/
theorem W17_keep (c : Dev nD) (r : Ref sig .tc) (h : r ∉ wr8) :
    W17 m ρ c (Proc.devRef .tc r) = W16 m ρ c (Proc.devRef .tc r) :=
  StableHlo.after_of_writes_sub hostOps8 _ hostOps8_wr h

/-- The buffers the host operations between boundaries 18 and 19 write. -/
abbrev wr9 : List (Ref sig .tc) := [main_cst_32, main_v161, main_cst_33, main_v162, main_cst_34, main_v163, main_v164, main_cst_35, main_v165, main_v166, main_v167, main_v168, main_cst_36, main_v169, main_v170, main_v171, main_v172, main_v173, main_v174, main_v175, main_v176]
theorem hostOps9_wr : (hostOps9 : List (HloOp τ sig (Elt F))).Forall fun op => op.writes ⊆ (wr9.map (Proc.devRef (τ := τ) .tc)).toFinset := by
  simp only [List.Forall]; refine ⟨?_, ?_, ?_, ?_, ?_, ?_, ?_, ?_, ?_, ?_, ?_, ?_, ?_, ?_, ?_, ?_, ?_, ?_, ?_, ?_, ?_⟩ <;> wr_one
/-- Any other buffer is as it was. -/
theorem W19_keep (c : Dev nD) (r : Ref sig .tc) (h : r ∉ wr9) :
    W19 m ρ c (Proc.devRef .tc r) = W18 m ρ c (Proc.devRef .tc r) :=
  StableHlo.after_of_writes_sub hostOps9 _ hostOps9_wr h

/-- The buffers the host operations between boundaries 20 and 21 write. -/
abbrev wr10 : List (Ref sig .tc) := [main_c_37, main_v178, main_v179, main_c_38, main_v180, main_v181, main_v182, main_v183, main_v184, main_cst_39, main_v185, main_v186, main_v187, main_v188, main_v189, main_v190, main_v191, main_v192, main_v193]
theorem hostOps10_wr : (hostOps10 : List (HloOp τ sig (Elt F))).Forall fun op => op.writes ⊆ (wr10.map (Proc.devRef (τ := τ) .tc)).toFinset := by
  simp only [List.Forall]; refine ⟨?_, ?_, ?_, ?_, ?_, ?_, ?_, ?_, ?_, ?_, ?_, ?_, ?_, ?_, ?_, ?_, ?_, ?_, ?_⟩ <;> wr_one
/-- Any other buffer is as it was. -/
theorem W21_keep (c : Dev nD) (r : Ref sig .tc) (h : r ∉ wr10) :
    W21 m ρ c (Proc.devRef .tc r) = W20 m ρ c (Proc.devRef .tc r) :=
  StableHlo.after_of_writes_sub hostOps10 _ hostOps10_wr h

/-- The buffers the host operations between boundaries 22 and 23 write. -/
abbrev wr11 : List (Ref sig .tc) := [main_cst_40, main_v195, main_cst_41, main_v196, main_cst_42, main_v197, main_v198, main_cst_43, main_v199, main_v200, main_v201, main_v202, main_cst_44, main_v203, main_v204, main_v205, main_v206, main_v207, main_v208, main_v209, main_v210, main_v211, main_v212, main_v213, main_v214, main_v215, main_v216]
theorem hostOps11_wr : (hostOps11 : List (HloOp τ sig (Elt F))).Forall fun op => op.writes ⊆ (wr11.map (Proc.devRef (τ := τ) .tc)).toFinset := by
  simp only [List.Forall]; refine ⟨?_, ?_, ?_, ?_, ?_, ?_, ?_, ?_, ?_, ?_, ?_, ?_, ?_, ?_, ?_, ?_, ?_, ?_, ?_, ?_, ?_, ?_, ?_, ?_, ?_, ?_, ?_⟩ <;> wr_one
/-- Any other buffer is as it was. -/
theorem W23_keep (c : Dev nD) (r : Ref sig .tc) (h : r ∉ wr11) :
    W23 m ρ c (Proc.devRef .tc r) = W22 m ρ c (Proc.devRef .tc r) :=
  StableHlo.after_of_writes_sub hostOps11 _ hostOps11_wr h

/-- The buffers the host operations between boundaries 24 and 25 write. -/
abbrev wr12 : List (Ref sig .tc) := [main_cst_45, main_v218, main_cst_46, main_v219, main_cst_47, main_v220, main_v221, main_cst_48, main_v222, main_v223, main_v224, main_v225, main_cst_49, main_v226, main_v227, main_v228, main_v229, main_v230, main_v231, main_v232, main_v233]
theorem hostOps12_wr : (hostOps12 : List (HloOp τ sig (Elt F))).Forall fun op => op.writes ⊆ (wr12.map (Proc.devRef (τ := τ) .tc)).toFinset := by
  simp only [List.Forall]; refine ⟨?_, ?_, ?_, ?_, ?_, ?_, ?_, ?_, ?_, ?_, ?_, ?_, ?_, ?_, ?_, ?_, ?_, ?_, ?_, ?_, ?_⟩ <;> wr_one
/-- Any other buffer is as it was. -/
theorem W25_keep (c : Dev nD) (r : Ref sig .tc) (h : r ∉ wr12) :
    W25 m ρ c (Proc.devRef .tc r) = W24 m ρ c (Proc.devRef .tc r) :=
  StableHlo.after_of_writes_sub hostOps12 _ hostOps12_wr h

/-- The buffers the host operations between boundaries 26 and 27 write. -/
abbrev wr13 : List (Ref sig .tc) := [main_c_50, main_v235, main_v236, main_c_51, main_v237, main_v238, main_v239, main_v240, main_v241, main_v242, main_v243, main_v244, main_v245, main_v246]
theorem hostOps13_wr : (hostOps13 : List (HloOp τ sig (Elt F))).Forall fun op => op.writes ⊆ (wr13.map (Proc.devRef (τ := τ) .tc)).toFinset := by
  simp only [List.Forall]; refine ⟨?_, ?_, ?_, ?_, ?_, ?_, ?_, ?_, ?_, ?_, ?_, ?_, ?_, ?_⟩ <;> wr_one
/-- Any other buffer is as it was. -/
theorem W27_keep (c : Dev nD) (r : Ref sig .tc) (h : r ∉ wr13) :
    W27 m ρ c (Proc.devRef .tc r) = W26 m ρ c (Proc.devRef .tc r) :=
  StableHlo.after_of_writes_sub hostOps13 _ hostOps13_wr h

/-! ## The regions: an input window's array is not written -/

theorem W2_in (c : Dev nD) (w : Fin cfg0.W) (hin : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hin _).trans (A_eq0 (V1 m ρ) c w))

theorem W4_in (c : Dev nD) (w : Fin cfg1.W) (hin : (cfg1.win w).isOut = false) :
    W4 m ρ c (Proc.devRef .tc (Pipeline.arrRef spec1 w)) = W3 m ρ c (Proc.devRef .tc (Pipeline.arrRef spec1 w)) :=
  (W4_arr m ρ c w).trans (((dat1 (V3 m ρ) c).arrAt_in w hin _).trans (A_eq1 (V3 m ρ) c w))

theorem W6_in (c : Dev nD) (w : Fin cfg2.W) (hin : (cfg2.win w).isOut = false) :
    W6 m ρ c (Proc.devRef .tc (Pipeline.arrRef spec2 w)) = W5 m ρ c (Proc.devRef .tc (Pipeline.arrRef spec2 w)) :=
  (W6_arr m ρ c w).trans (((dat2 (V5 m ρ) c).arrAt_in w hin _).trans (A_eq2 (V5 m ρ) c w))

theorem W8_in (c : Dev nD) (w : Fin cfg3.W) (hin : (cfg3.win w).isOut = false) :
    W8 m ρ c (Proc.devRef .tc (Pipeline.arrRef spec3 w)) = W7 m ρ c (Proc.devRef .tc (Pipeline.arrRef spec3 w)) :=
  (W8_arr m ρ c w).trans (((dat3 (V7 m ρ) c).arrAt_in w hin _).trans (A_eq3 (V7 m ρ) c w))

theorem W10_in (c : Dev nD) (w : Fin cfg4.W) (hin : (cfg4.win w).isOut = false) :
    W10 m ρ c (Proc.devRef .tc (Pipeline.arrRef spec4 w)) = W9 m ρ c (Proc.devRef .tc (Pipeline.arrRef spec4 w)) :=
  (W10_arr m ρ c w).trans (((dat4 (V9 m ρ) c).arrAt_in w hin _).trans (A_eq4 (V9 m ρ) c w))

theorem W12_in (c : Dev nD) (w : Fin cfg5.W) (hin : (cfg5.win w).isOut = false) :
    W12 m ρ c (Proc.devRef .tc (Pipeline.arrRef spec5 w)) = W11 m ρ c (Proc.devRef .tc (Pipeline.arrRef spec5 w)) :=
  (W12_arr m ρ c w).trans (((dat5 (V11 m ρ) c).arrAt_in w hin _).trans (A_eq5 (V11 m ρ) c w))

theorem W14_in (c : Dev nD) (w : Fin cfg6.W) (hin : (cfg6.win w).isOut = false) :
    W14 m ρ c (Proc.devRef .tc (Pipeline.arrRef spec6 w)) = W13 m ρ c (Proc.devRef .tc (Pipeline.arrRef spec6 w)) :=
  (W14_arr m ρ c w).trans (((dat6 (V13 m ρ) c).arrAt_in w hin _).trans (A_eq6 (V13 m ρ) c w))

theorem W16_in (c : Dev nD) (w : Fin cfg7.W) (hin : (cfg7.win w).isOut = false) :
    W16 m ρ c (Proc.devRef .tc (Pipeline.arrRef spec7 w)) = W15 m ρ c (Proc.devRef .tc (Pipeline.arrRef spec7 w)) :=
  (W16_arr m ρ c w).trans (((dat7 (V15 m ρ) c).arrAt_in w hin _).trans (A_eq7 (V15 m ρ) c w))

theorem W18_in (c : Dev nD) (w : Fin cfg8.W) (hin : (cfg8.win w).isOut = false) :
    W18 m ρ c (Proc.devRef .tc (Pipeline.arrRef spec8 w)) = W17 m ρ c (Proc.devRef .tc (Pipeline.arrRef spec8 w)) :=
  (W18_arr m ρ c w).trans (((dat8 (V17 m ρ) c).arrAt_in w hin _).trans (A_eq8 (V17 m ρ) c w))

theorem W20_in (c : Dev nD) (w : Fin cfg9.W) (hin : (cfg9.win w).isOut = false) :
    W20 m ρ c (Proc.devRef .tc (Pipeline.arrRef spec9 w)) = W19 m ρ c (Proc.devRef .tc (Pipeline.arrRef spec9 w)) :=
  (W20_arr m ρ c w).trans (((dat9 (V19 m ρ) c).arrAt_in w hin _).trans (A_eq9 (V19 m ρ) c w))

theorem W22_in (c : Dev nD) (w : Fin cfg10.W) (hin : (cfg10.win w).isOut = false) :
    W22 m ρ c (Proc.devRef .tc (Pipeline.arrRef spec10 w)) = W21 m ρ c (Proc.devRef .tc (Pipeline.arrRef spec10 w)) :=
  (W22_arr m ρ c w).trans (((dat10 (V21 m ρ) c).arrAt_in w hin _).trans (A_eq10 (V21 m ρ) c w))

theorem W24_in (c : Dev nD) (w : Fin cfg11.W) (hin : (cfg11.win w).isOut = false) :
    W24 m ρ c (Proc.devRef .tc (Pipeline.arrRef spec11 w)) = W23 m ρ c (Proc.devRef .tc (Pipeline.arrRef spec11 w)) :=
  (W24_arr m ρ c w).trans (((dat11 (V23 m ρ) c).arrAt_in w hin _).trans (A_eq11 (V23 m ρ) c w))

theorem W26_in (c : Dev nD) (w : Fin cfg12.W) (hin : (cfg12.win w).isOut = false) :
    W26 m ρ c (Proc.devRef .tc (Pipeline.arrRef spec12 w)) = W25 m ρ c (Proc.devRef .tc (Pipeline.arrRef spec12 w)) :=
  (W26_arr m ρ c w).trans (((dat12 (V25 m ρ) c).arrAt_in w hin _).trans (A_eq12 (V25 m ρ) c w))

/-! ## The buffers followed through the whole program

`argL`: the arguments other than the node features (argument 0 is region 0's first input window and is followed
on its own below).  `trackL`: those and the two rows of edge indices, which the first stretch writes and the four
aggregation stretches read. -/

abbrev argL : List (Ref sig .tc) := [main_arg1, main_arg2, main_arg3, main_arg4, main_arg5, main_arg6, main_arg7, main_arg8, main_arg9, main_arg10, main_arg11, main_arg12, main_arg13, main_arg14]
abbrev trackL : List (Ref sig .tc) := [main_arg1, main_arg2, main_arg3, main_arg4, main_arg5, main_arg6, main_arg7, main_arg8, main_arg9, main_arg10, main_arg11, main_arg12, main_arg13, main_arg14, main_v1, main_v3]

theorem argL_wr0 : ∀ r ∈ argL, r ∉ wr0 := by decide
theorem W1_args (c : Dev nD) (r : Ref sig .tc) (hr : r ∈ argL) :
    W1 m ρ c (Proc.devRef .tc r) = W0 m ρ c (Proc.devRef .tc r) :=
  W1_keep m ρ c r (argL_wr0 r hr)

theorem trackL_spec0 : ∀ r ∈ trackL, ∀ w, Pipeline.arrRef spec0 w ≠ r := by decide
theorem W2_track (c : Dev nD) (r : Ref sig .tc) (hr : r ∈ trackL) :
    W2 m ρ c (Proc.devRef .tc r) = W1 m ρ c (Proc.devRef .tc r) :=
  W2_of_ne m ρ c r (trackL_spec0 r hr)

theorem trackL_wr1 : ∀ r ∈ trackL, r ∉ wr1 := by decide
theorem W3_track (c : Dev nD) (r : Ref sig .tc) (hr : r ∈ trackL) :
    W3 m ρ c (Proc.devRef .tc r) = W1 m ρ c (Proc.devRef .tc r) :=
  (W3_keep m ρ c r (trackL_wr1 r hr)).trans (W2_track m ρ c r hr)

theorem trackL_spec1 : ∀ r ∈ trackL, ∀ w, Pipeline.arrRef spec1 w ≠ r := by decide
theorem W4_track (c : Dev nD) (r : Ref sig .tc) (hr : r ∈ trackL) :
    W4 m ρ c (Proc.devRef .tc r) = W1 m ρ c (Proc.devRef .tc r) :=
  (W4_of_ne m ρ c r (trackL_spec1 r hr)).trans (W3_track m ρ c r hr)

theorem trackL_wr2 : ∀ r ∈ trackL, r ∉ wr2 := by decide
theorem W5_track (c : Dev nD) (r : Ref sig .tc) (hr : r ∈ trackL) :
    W5 m ρ c (Proc.devRef .tc r) = W1 m ρ c (Proc.devRef .tc r) :=
  (W5_keep m ρ c r (trackL_wr2 r hr)).trans (W4_track m ρ c r hr)

theorem trackL_spec2 : ∀ r ∈ trackL, ∀ w, Pipeline.arrRef spec2 w ≠ r := by decide
theorem W6_track (c : Dev nD) (r : Ref sig .tc) (hr : r ∈ trackL) :
    W6 m ρ c (Proc.devRef .tc r) = W1 m ρ c (Proc.devRef .tc r) :=
  (W6_of_ne m ρ c r (trackL_spec2 r hr)).trans (W5_track m ρ c r hr)

theorem trackL_wr3 : ∀ r ∈ trackL, r ∉ wr3 := by decide
theorem W7_track (c : Dev nD) (r : Ref sig .tc) (hr : r ∈ trackL) :
    W7 m ρ c (Proc.devRef .tc r) = W1 m ρ c (Proc.devRef .tc r) :=
  (W7_keep m ρ c r (trackL_wr3 r hr)).trans (W6_track m ρ c r hr)

theorem trackL_spec3 : ∀ r ∈ trackL, ∀ w, Pipeline.arrRef spec3 w ≠ r := by decide
theorem W8_track (c : Dev nD) (r : Ref sig .tc) (hr : r ∈ trackL) :
    W8 m ρ c (Proc.devRef .tc r) = W1 m ρ c (Proc.devRef .tc r) :=
  (W8_of_ne m ρ c r (trackL_spec3 r hr)).trans (W7_track m ρ c r hr)

theorem trackL_wr4 : ∀ r ∈ trackL, r ∉ wr4 := by decide
theorem W9_track (c : Dev nD) (r : Ref sig .tc) (hr : r ∈ trackL) :
    W9 m ρ c (Proc.devRef .tc r) = W1 m ρ c (Proc.devRef .tc r) :=
  (W9_keep m ρ c r (trackL_wr4 r hr)).trans (W8_track m ρ c r hr)

theorem trackL_spec4 : ∀ r ∈ trackL, ∀ w, Pipeline.arrRef spec4 w ≠ r := by decide
theorem W10_track (c : Dev nD) (r : Ref sig .tc) (hr : r ∈ trackL) :
    W10 m ρ c (Proc.devRef .tc r) = W1 m ρ c (Proc.devRef .tc r) :=
  (W10_of_ne m ρ c r (trackL_spec4 r hr)).trans (W9_track m ρ c r hr)

theorem trackL_wr5 : ∀ r ∈ trackL, r ∉ wr5 := by decide
theorem W11_track (c : Dev nD) (r : Ref sig .tc) (hr : r ∈ trackL) :
    W11 m ρ c (Proc.devRef .tc r) = W1 m ρ c (Proc.devRef .tc r) :=
  (W11_keep m ρ c r (trackL_wr5 r hr)).trans (W10_track m ρ c r hr)

theorem trackL_spec5 : ∀ r ∈ trackL, ∀ w, Pipeline.arrRef spec5 w ≠ r := by decide
theorem W12_track (c : Dev nD) (r : Ref sig .tc) (hr : r ∈ trackL) :
    W12 m ρ c (Proc.devRef .tc r) = W1 m ρ c (Proc.devRef .tc r) :=
  (W12_of_ne m ρ c r (trackL_spec5 r hr)).trans (W11_track m ρ c r hr)

theorem trackL_wr6 : ∀ r ∈ trackL, r ∉ wr6 := by decide
theorem W13_track (c : Dev nD) (r : Ref sig .tc) (hr : r ∈ trackL) :
    W13 m ρ c (Proc.devRef .tc r) = W1 m ρ c (Proc.devRef .tc r) :=
  (W13_keep m ρ c r (trackL_wr6 r hr)).trans (W12_track m ρ c r hr)

theorem trackL_spec6 : ∀ r ∈ trackL, ∀ w, Pipeline.arrRef spec6 w ≠ r := by decide
theorem W14_track (c : Dev nD) (r : Ref sig .tc) (hr : r ∈ trackL) :
    W14 m ρ c (Proc.devRef .tc r) = W1 m ρ c (Proc.devRef .tc r) :=
  (W14_of_ne m ρ c r (trackL_spec6 r hr)).trans (W13_track m ρ c r hr)

theorem trackL_wr7 : ∀ r ∈ trackL, r ∉ wr7 := by decide
theorem W15_track (c : Dev nD) (r : Ref sig .tc) (hr : r ∈ trackL) :
    W15 m ρ c (Proc.devRef .tc r) = W1 m ρ c (Proc.devRef .tc r) :=
  (W15_keep m ρ c r (trackL_wr7 r hr)).trans (W14_track m ρ c r hr)

theorem trackL_spec7 : ∀ r ∈ trackL, ∀ w, Pipeline.arrRef spec7 w ≠ r := by decide
theorem W16_track (c : Dev nD) (r : Ref sig .tc) (hr : r ∈ trackL) :
    W16 m ρ c (Proc.devRef .tc r) = W1 m ρ c (Proc.devRef .tc r) :=
  (W16_of_ne m ρ c r (trackL_spec7 r hr)).trans (W15_track m ρ c r hr)

theorem trackL_wr8 : ∀ r ∈ trackL, r ∉ wr8 := by decide
theorem W17_track (c : Dev nD) (r : Ref sig .tc) (hr : r ∈ trackL) :
    W17 m ρ c (Proc.devRef .tc r) = W1 m ρ c (Proc.devRef .tc r) :=
  (W17_keep m ρ c r (trackL_wr8 r hr)).trans (W16_track m ρ c r hr)

theorem trackL_spec8 : ∀ r ∈ trackL, ∀ w, Pipeline.arrRef spec8 w ≠ r := by decide
theorem W18_track (c : Dev nD) (r : Ref sig .tc) (hr : r ∈ trackL) :
    W18 m ρ c (Proc.devRef .tc r) = W1 m ρ c (Proc.devRef .tc r) :=
  (W18_of_ne m ρ c r (trackL_spec8 r hr)).trans (W17_track m ρ c r hr)

theorem trackL_wr9 : ∀ r ∈ trackL, r ∉ wr9 := by decide
theorem W19_track (c : Dev nD) (r : Ref sig .tc) (hr : r ∈ trackL) :
    W19 m ρ c (Proc.devRef .tc r) = W1 m ρ c (Proc.devRef .tc r) :=
  (W19_keep m ρ c r (trackL_wr9 r hr)).trans (W18_track m ρ c r hr)

theorem trackL_spec9 : ∀ r ∈ trackL, ∀ w, Pipeline.arrRef spec9 w ≠ r := by decide
theorem W20_track (c : Dev nD) (r : Ref sig .tc) (hr : r ∈ trackL) :
    W20 m ρ c (Proc.devRef .tc r) = W1 m ρ c (Proc.devRef .tc r) :=
  (W20_of_ne m ρ c r (trackL_spec9 r hr)).trans (W19_track m ρ c r hr)

theorem trackL_wr10 : ∀ r ∈ trackL, r ∉ wr10 := by decide
theorem W21_track (c : Dev nD) (r : Ref sig .tc) (hr : r ∈ trackL) :
    W21 m ρ c (Proc.devRef .tc r) = W1 m ρ c (Proc.devRef .tc r) :=
  (W21_keep m ρ c r (trackL_wr10 r hr)).trans (W20_track m ρ c r hr)

theorem trackL_spec10 : ∀ r ∈ trackL, ∀ w, Pipeline.arrRef spec10 w ≠ r := by decide
theorem W22_track (c : Dev nD) (r : Ref sig .tc) (hr : r ∈ trackL) :
    W22 m ρ c (Proc.devRef .tc r) = W1 m ρ c (Proc.devRef .tc r) :=
  (W22_of_ne m ρ c r (trackL_spec10 r hr)).trans (W21_track m ρ c r hr)

theorem trackL_wr11 : ∀ r ∈ trackL, r ∉ wr11 := by decide
theorem W23_track (c : Dev nD) (r : Ref sig .tc) (hr : r ∈ trackL) :
    W23 m ρ c (Proc.devRef .tc r) = W1 m ρ c (Proc.devRef .tc r) :=
  (W23_keep m ρ c r (trackL_wr11 r hr)).trans (W22_track m ρ c r hr)

theorem trackL_spec11 : ∀ r ∈ trackL, ∀ w, Pipeline.arrRef spec11 w ≠ r := by decide
theorem W24_track (c : Dev nD) (r : Ref sig .tc) (hr : r ∈ trackL) :
    W24 m ρ c (Proc.devRef .tc r) = W1 m ρ c (Proc.devRef .tc r) :=
  (W24_of_ne m ρ c r (trackL_spec11 r hr)).trans (W23_track m ρ c r hr)

theorem trackL_wr12 : ∀ r ∈ trackL, r ∉ wr12 := by decide
theorem W25_track (c : Dev nD) (r : Ref sig .tc) (hr : r ∈ trackL) :
    W25 m ρ c (Proc.devRef .tc r) = W1 m ρ c (Proc.devRef .tc r) :=
  (W25_keep m ρ c r (trackL_wr12 r hr)).trans (W24_track m ρ c r hr)

theorem trackL_spec12 : ∀ r ∈ trackL, ∀ w, Pipeline.arrRef spec12 w ≠ r := by decide
theorem W26_track (c : Dev nD) (r : Ref sig .tc) (hr : r ∈ trackL) :
    W26 m ρ c (Proc.devRef .tc r) = W1 m ρ c (Proc.devRef .tc r) :=
  (W26_of_ne m ρ c r (trackL_spec12 r hr)).trans (W25_track m ρ c r hr)

theorem trackL_wr13 : ∀ r ∈ trackL, r ∉ wr13 := by decide
theorem W27_track (c : Dev nD) (r : Ref sig .tc) (hr : r ∈ trackL) :
    W27 m ρ c (Proc.devRef .tc r) = W1 m ρ c (Proc.devRef .tc r) :=
  (W27_keep m ρ c r (trackL_wr13 r hr)).trans (W26_track m ρ c r hr)

/-! ## Argument 0 (the node features): region 0's first input window, touched by nothing else -/

theorem W0_main_arg0 (c : Dev nD) : W0 m ρ c (Proc.devRef .tc main_arg0) = m ((c : Thread nD τ).loc main_arg0) := rfl
theorem W1_main_arg0 (c : Dev nD) : W1 m ρ c (Proc.devRef .tc main_arg0) = m ((c : Thread nD τ).loc main_arg0) :=
  (W1_keep m ρ c main_arg0 (by decide)).trans (W0_main_arg0 m ρ c)
theorem W2_main_arg0 (c : Dev nD) : W2 m ρ c (Proc.devRef .tc main_arg0) = m ((c : Thread nD τ).loc main_arg0) :=
  (W2_in m ρ c 0 rfl).trans (W1_main_arg0 m ρ c)
theorem W3_main_arg0 (c : Dev nD) : W3 m ρ c (Proc.devRef .tc main_arg0) = m ((c : Thread nD τ).loc main_arg0) :=
  (W3_keep m ρ c main_arg0 (by decide)).trans (W2_main_arg0 m ρ c)
theorem W4_main_arg0 (c : Dev nD) : W4 m ρ c (Proc.devRef .tc main_arg0) = m ((c : Thread nD τ).loc main_arg0) :=
  (W4_of_ne m ρ c main_arg0 (by decide)).trans (W3_main_arg0 m ρ c)
theorem W5_main_arg0 (c : Dev nD) : W5 m ρ c (Proc.devRef .tc main_arg0) = m ((c : Thread nD τ).loc main_arg0) :=
  (W5_keep m ρ c main_arg0 (by decide)).trans (W4_main_arg0 m ρ c)
theorem W6_main_arg0 (c : Dev nD) : W6 m ρ c (Proc.devRef .tc main_arg0) = m ((c : Thread nD τ).loc main_arg0) :=
  (W6_of_ne m ρ c main_arg0 (by decide)).trans (W5_main_arg0 m ρ c)
theorem W7_main_arg0 (c : Dev nD) : W7 m ρ c (Proc.devRef .tc main_arg0) = m ((c : Thread nD τ).loc main_arg0) :=
  (W7_keep m ρ c main_arg0 (by decide)).trans (W6_main_arg0 m ρ c)
theorem W8_main_arg0 (c : Dev nD) : W8 m ρ c (Proc.devRef .tc main_arg0) = m ((c : Thread nD τ).loc main_arg0) :=
  (W8_of_ne m ρ c main_arg0 (by decide)).trans (W7_main_arg0 m ρ c)
theorem W9_main_arg0 (c : Dev nD) : W9 m ρ c (Proc.devRef .tc main_arg0) = m ((c : Thread nD τ).loc main_arg0) :=
  (W9_keep m ρ c main_arg0 (by decide)).trans (W8_main_arg0 m ρ c)
theorem W10_main_arg0 (c : Dev nD) : W10 m ρ c (Proc.devRef .tc main_arg0) = m ((c : Thread nD τ).loc main_arg0) :=
  (W10_of_ne m ρ c main_arg0 (by decide)).trans (W9_main_arg0 m ρ c)
theorem W11_main_arg0 (c : Dev nD) : W11 m ρ c (Proc.devRef .tc main_arg0) = m ((c : Thread nD τ).loc main_arg0) :=
  (W11_keep m ρ c main_arg0 (by decide)).trans (W10_main_arg0 m ρ c)
theorem W12_main_arg0 (c : Dev nD) : W12 m ρ c (Proc.devRef .tc main_arg0) = m ((c : Thread nD τ).loc main_arg0) :=
  (W12_of_ne m ρ c main_arg0 (by decide)).trans (W11_main_arg0 m ρ c)
theorem W13_main_arg0 (c : Dev nD) : W13 m ρ c (Proc.devRef .tc main_arg0) = m ((c : Thread nD τ).loc main_arg0) :=
  (W13_keep m ρ c main_arg0 (by decide)).trans (W12_main_arg0 m ρ c)
theorem W14_main_arg0 (c : Dev nD) : W14 m ρ c (Proc.devRef .tc main_arg0) = m ((c : Thread nD τ).loc main_arg0) :=
  (W14_of_ne m ρ c main_arg0 (by decide)).trans (W13_main_arg0 m ρ c)
theorem W15_main_arg0 (c : Dev nD) : W15 m ρ c (Proc.devRef .tc main_arg0) = m ((c : Thread nD τ).loc main_arg0) :=
  (W15_keep m ρ c main_arg0 (by decide)).trans (W14_main_arg0 m ρ c)
theorem W16_main_arg0 (c : Dev nD) : W16 m ρ c (Proc.devRef .tc main_arg0) = m ((c : Thread nD τ).loc main_arg0) :=
  (W16_of_ne m ρ c main_arg0 (by decide)).trans (W15_main_arg0 m ρ c)
theorem W17_main_arg0 (c : Dev nD) : W17 m ρ c (Proc.devRef .tc main_arg0) = m ((c : Thread nD τ).loc main_arg0) :=
  (W17_keep m ρ c main_arg0 (by decide)).trans (W16_main_arg0 m ρ c)
theorem W18_main_arg0 (c : Dev nD) : W18 m ρ c (Proc.devRef .tc main_arg0) = m ((c : Thread nD τ).loc main_arg0) :=
  (W18_of_ne m ρ c main_arg0 (by decide)).trans (W17_main_arg0 m ρ c)
theorem W19_main_arg0 (c : Dev nD) : W19 m ρ c (Proc.devRef .tc main_arg0) = m ((c : Thread nD τ).loc main_arg0) :=
  (W19_keep m ρ c main_arg0 (by decide)).trans (W18_main_arg0 m ρ c)
theorem W20_main_arg0 (c : Dev nD) : W20 m ρ c (Proc.devRef .tc main_arg0) = m ((c : Thread nD τ).loc main_arg0) :=
  (W20_of_ne m ρ c main_arg0 (by decide)).trans (W19_main_arg0 m ρ c)
theorem W21_main_arg0 (c : Dev nD) : W21 m ρ c (Proc.devRef .tc main_arg0) = m ((c : Thread nD τ).loc main_arg0) :=
  (W21_keep m ρ c main_arg0 (by decide)).trans (W20_main_arg0 m ρ c)
theorem W22_main_arg0 (c : Dev nD) : W22 m ρ c (Proc.devRef .tc main_arg0) = m ((c : Thread nD τ).loc main_arg0) :=
  (W22_of_ne m ρ c main_arg0 (by decide)).trans (W21_main_arg0 m ρ c)
theorem W23_main_arg0 (c : Dev nD) : W23 m ρ c (Proc.devRef .tc main_arg0) = m ((c : Thread nD τ).loc main_arg0) :=
  (W23_keep m ρ c main_arg0 (by decide)).trans (W22_main_arg0 m ρ c)
theorem W24_main_arg0 (c : Dev nD) : W24 m ρ c (Proc.devRef .tc main_arg0) = m ((c : Thread nD τ).loc main_arg0) :=
  (W24_of_ne m ρ c main_arg0 (by decide)).trans (W23_main_arg0 m ρ c)
theorem W25_main_arg0 (c : Dev nD) : W25 m ρ c (Proc.devRef .tc main_arg0) = m ((c : Thread nD τ).loc main_arg0) :=
  (W25_keep m ρ c main_arg0 (by decide)).trans (W24_main_arg0 m ρ c)
theorem W26_main_arg0 (c : Dev nD) : W26 m ρ c (Proc.devRef .tc main_arg0) = m ((c : Thread nD τ).loc main_arg0) :=
  (W26_of_ne m ρ c main_arg0 (by decide)).trans (W25_main_arg0 m ρ c)

/-! ## The two rows of edge indices, from boundary 1 on -/

theorem W2_main_v1 (c : Dev nD) : W2 m ρ c (Proc.devRef .tc main_v1) = W1 m ρ c (Proc.devRef .tc main_v1) :=
  W2_track m ρ c main_v1 (by decide)
theorem W3_main_v1 (c : Dev nD) : W3 m ρ c (Proc.devRef .tc main_v1) = W1 m ρ c (Proc.devRef .tc main_v1) :=
  W3_track m ρ c main_v1 (by decide)
theorem W4_main_v1 (c : Dev nD) : W4 m ρ c (Proc.devRef .tc main_v1) = W1 m ρ c (Proc.devRef .tc main_v1) :=
  W4_track m ρ c main_v1 (by decide)
theorem W5_main_v1 (c : Dev nD) : W5 m ρ c (Proc.devRef .tc main_v1) = W1 m ρ c (Proc.devRef .tc main_v1) :=
  W5_track m ρ c main_v1 (by decide)
theorem W6_main_v1 (c : Dev nD) : W6 m ρ c (Proc.devRef .tc main_v1) = W1 m ρ c (Proc.devRef .tc main_v1) :=
  W6_track m ρ c main_v1 (by decide)
theorem W7_main_v1 (c : Dev nD) : W7 m ρ c (Proc.devRef .tc main_v1) = W1 m ρ c (Proc.devRef .tc main_v1) :=
  W7_track m ρ c main_v1 (by decide)
theorem W8_main_v1 (c : Dev nD) : W8 m ρ c (Proc.devRef .tc main_v1) = W1 m ρ c (Proc.devRef .tc main_v1) :=
  W8_track m ρ c main_v1 (by decide)
theorem W9_main_v1 (c : Dev nD) : W9 m ρ c (Proc.devRef .tc main_v1) = W1 m ρ c (Proc.devRef .tc main_v1) :=
  W9_track m ρ c main_v1 (by decide)
theorem W10_main_v1 (c : Dev nD) : W10 m ρ c (Proc.devRef .tc main_v1) = W1 m ρ c (Proc.devRef .tc main_v1) :=
  W10_track m ρ c main_v1 (by decide)
theorem W11_main_v1 (c : Dev nD) : W11 m ρ c (Proc.devRef .tc main_v1) = W1 m ρ c (Proc.devRef .tc main_v1) :=
  W11_track m ρ c main_v1 (by decide)
theorem W12_main_v1 (c : Dev nD) : W12 m ρ c (Proc.devRef .tc main_v1) = W1 m ρ c (Proc.devRef .tc main_v1) :=
  W12_track m ρ c main_v1 (by decide)
theorem W13_main_v1 (c : Dev nD) : W13 m ρ c (Proc.devRef .tc main_v1) = W1 m ρ c (Proc.devRef .tc main_v1) :=
  W13_track m ρ c main_v1 (by decide)
theorem W14_main_v1 (c : Dev nD) : W14 m ρ c (Proc.devRef .tc main_v1) = W1 m ρ c (Proc.devRef .tc main_v1) :=
  W14_track m ρ c main_v1 (by decide)
theorem W15_main_v1 (c : Dev nD) : W15 m ρ c (Proc.devRef .tc main_v1) = W1 m ρ c (Proc.devRef .tc main_v1) :=
  W15_track m ρ c main_v1 (by decide)
theorem W16_main_v1 (c : Dev nD) : W16 m ρ c (Proc.devRef .tc main_v1) = W1 m ρ c (Proc.devRef .tc main_v1) :=
  W16_track m ρ c main_v1 (by decide)
theorem W17_main_v1 (c : Dev nD) : W17 m ρ c (Proc.devRef .tc main_v1) = W1 m ρ c (Proc.devRef .tc main_v1) :=
  W17_track m ρ c main_v1 (by decide)
theorem W18_main_v1 (c : Dev nD) : W18 m ρ c (Proc.devRef .tc main_v1) = W1 m ρ c (Proc.devRef .tc main_v1) :=
  W18_track m ρ c main_v1 (by decide)
theorem W19_main_v1 (c : Dev nD) : W19 m ρ c (Proc.devRef .tc main_v1) = W1 m ρ c (Proc.devRef .tc main_v1) :=
  W19_track m ρ c main_v1 (by decide)
theorem W20_main_v1 (c : Dev nD) : W20 m ρ c (Proc.devRef .tc main_v1) = W1 m ρ c (Proc.devRef .tc main_v1) :=
  W20_track m ρ c main_v1 (by decide)
theorem W21_main_v1 (c : Dev nD) : W21 m ρ c (Proc.devRef .tc main_v1) = W1 m ρ c (Proc.devRef .tc main_v1) :=
  W21_track m ρ c main_v1 (by decide)
theorem W22_main_v1 (c : Dev nD) : W22 m ρ c (Proc.devRef .tc main_v1) = W1 m ρ c (Proc.devRef .tc main_v1) :=
  W22_track m ρ c main_v1 (by decide)
theorem W23_main_v1 (c : Dev nD) : W23 m ρ c (Proc.devRef .tc main_v1) = W1 m ρ c (Proc.devRef .tc main_v1) :=
  W23_track m ρ c main_v1 (by decide)
theorem W24_main_v1 (c : Dev nD) : W24 m ρ c (Proc.devRef .tc main_v1) = W1 m ρ c (Proc.devRef .tc main_v1) :=
  W24_track m ρ c main_v1 (by decide)
theorem W25_main_v1 (c : Dev nD) : W25 m ρ c (Proc.devRef .tc main_v1) = W1 m ρ c (Proc.devRef .tc main_v1) :=
  W25_track m ρ c main_v1 (by decide)
theorem W26_main_v1 (c : Dev nD) : W26 m ρ c (Proc.devRef .tc main_v1) = W1 m ρ c (Proc.devRef .tc main_v1) :=
  W26_track m ρ c main_v1 (by decide)
theorem W27_main_v1 (c : Dev nD) : W27 m ρ c (Proc.devRef .tc main_v1) = W1 m ρ c (Proc.devRef .tc main_v1) :=
  W27_track m ρ c main_v1 (by decide)
theorem W2_main_v3 (c : Dev nD) : W2 m ρ c (Proc.devRef .tc main_v3) = W1 m ρ c (Proc.devRef .tc main_v3) :=
  W2_track m ρ c main_v3 (by decide)
theorem W3_main_v3 (c : Dev nD) : W3 m ρ c (Proc.devRef .tc main_v3) = W1 m ρ c (Proc.devRef .tc main_v3) :=
  W3_track m ρ c main_v3 (by decide)
theorem W4_main_v3 (c : Dev nD) : W4 m ρ c (Proc.devRef .tc main_v3) = W1 m ρ c (Proc.devRef .tc main_v3) :=
  W4_track m ρ c main_v3 (by decide)
theorem W5_main_v3 (c : Dev nD) : W5 m ρ c (Proc.devRef .tc main_v3) = W1 m ρ c (Proc.devRef .tc main_v3) :=
  W5_track m ρ c main_v3 (by decide)
theorem W6_main_v3 (c : Dev nD) : W6 m ρ c (Proc.devRef .tc main_v3) = W1 m ρ c (Proc.devRef .tc main_v3) :=
  W6_track m ρ c main_v3 (by decide)
theorem W7_main_v3 (c : Dev nD) : W7 m ρ c (Proc.devRef .tc main_v3) = W1 m ρ c (Proc.devRef .tc main_v3) :=
  W7_track m ρ c main_v3 (by decide)
theorem W8_main_v3 (c : Dev nD) : W8 m ρ c (Proc.devRef .tc main_v3) = W1 m ρ c (Proc.devRef .tc main_v3) :=
  W8_track m ρ c main_v3 (by decide)
theorem W9_main_v3 (c : Dev nD) : W9 m ρ c (Proc.devRef .tc main_v3) = W1 m ρ c (Proc.devRef .tc main_v3) :=
  W9_track m ρ c main_v3 (by decide)
theorem W10_main_v3 (c : Dev nD) : W10 m ρ c (Proc.devRef .tc main_v3) = W1 m ρ c (Proc.devRef .tc main_v3) :=
  W10_track m ρ c main_v3 (by decide)
theorem W11_main_v3 (c : Dev nD) : W11 m ρ c (Proc.devRef .tc main_v3) = W1 m ρ c (Proc.devRef .tc main_v3) :=
  W11_track m ρ c main_v3 (by decide)
theorem W12_main_v3 (c : Dev nD) : W12 m ρ c (Proc.devRef .tc main_v3) = W1 m ρ c (Proc.devRef .tc main_v3) :=
  W12_track m ρ c main_v3 (by decide)
theorem W13_main_v3 (c : Dev nD) : W13 m ρ c (Proc.devRef .tc main_v3) = W1 m ρ c (Proc.devRef .tc main_v3) :=
  W13_track m ρ c main_v3 (by decide)
theorem W14_main_v3 (c : Dev nD) : W14 m ρ c (Proc.devRef .tc main_v3) = W1 m ρ c (Proc.devRef .tc main_v3) :=
  W14_track m ρ c main_v3 (by decide)
theorem W15_main_v3 (c : Dev nD) : W15 m ρ c (Proc.devRef .tc main_v3) = W1 m ρ c (Proc.devRef .tc main_v3) :=
  W15_track m ρ c main_v3 (by decide)
theorem W16_main_v3 (c : Dev nD) : W16 m ρ c (Proc.devRef .tc main_v3) = W1 m ρ c (Proc.devRef .tc main_v3) :=
  W16_track m ρ c main_v3 (by decide)
theorem W17_main_v3 (c : Dev nD) : W17 m ρ c (Proc.devRef .tc main_v3) = W1 m ρ c (Proc.devRef .tc main_v3) :=
  W17_track m ρ c main_v3 (by decide)
theorem W18_main_v3 (c : Dev nD) : W18 m ρ c (Proc.devRef .tc main_v3) = W1 m ρ c (Proc.devRef .tc main_v3) :=
  W18_track m ρ c main_v3 (by decide)
theorem W19_main_v3 (c : Dev nD) : W19 m ρ c (Proc.devRef .tc main_v3) = W1 m ρ c (Proc.devRef .tc main_v3) :=
  W19_track m ρ c main_v3 (by decide)
theorem W20_main_v3 (c : Dev nD) : W20 m ρ c (Proc.devRef .tc main_v3) = W1 m ρ c (Proc.devRef .tc main_v3) :=
  W20_track m ρ c main_v3 (by decide)
theorem W21_main_v3 (c : Dev nD) : W21 m ρ c (Proc.devRef .tc main_v3) = W1 m ρ c (Proc.devRef .tc main_v3) :=
  W21_track m ρ c main_v3 (by decide)
theorem W22_main_v3 (c : Dev nD) : W22 m ρ c (Proc.devRef .tc main_v3) = W1 m ρ c (Proc.devRef .tc main_v3) :=
  W22_track m ρ c main_v3 (by decide)
theorem W23_main_v3 (c : Dev nD) : W23 m ρ c (Proc.devRef .tc main_v3) = W1 m ρ c (Proc.devRef .tc main_v3) :=
  W23_track m ρ c main_v3 (by decide)
theorem W24_main_v3 (c : Dev nD) : W24 m ρ c (Proc.devRef .tc main_v3) = W1 m ρ c (Proc.devRef .tc main_v3) :=
  W24_track m ρ c main_v3 (by decide)
theorem W25_main_v3 (c : Dev nD) : W25 m ρ c (Proc.devRef .tc main_v3) = W1 m ρ c (Proc.devRef .tc main_v3) :=
  W25_track m ρ c main_v3 (by decide)
theorem W26_main_v3 (c : Dev nD) : W26 m ρ c (Proc.devRef .tc main_v3) = W1 m ρ c (Proc.devRef .tc main_v3) :=
  W26_track m ρ c main_v3 (by decide)
theorem W27_main_v3 (c : Dev nD) : W27 m ρ c (Proc.devRef .tc main_v3) = W1 m ρ c (Proc.devRef .tc main_v3) :=
  W27_track m ρ c main_v3 (by decide)

/-! ## Each region's activations survive the stretch that follows it

Region `k` writes its activations (its first output window) at boundary `2k+2`; region `k+1` reads them as its
first input window at boundary `2k+3`, after a stretch that does not write them. -/

theorem W3_main_v6 (c : Dev nD) : W3 m ρ c (Proc.devRef .tc main_v6) = W2 m ρ c (Proc.devRef .tc main_v6) :=
  W3_keep m ρ c main_v6 (by decide)
theorem W5_main_v23_0 (c : Dev nD) : W5 m ρ c (Proc.devRef .tc main_v23_0) = W4 m ρ c (Proc.devRef .tc main_v23_0) :=
  W5_keep m ρ c main_v23_0 (by decide)
theorem W7_main_v46_0 (c : Dev nD) : W7 m ρ c (Proc.devRef .tc main_v46_0) = W6 m ρ c (Proc.devRef .tc main_v46_0) :=
  W7_keep m ρ c main_v46_0 (by decide)
theorem W9_main_v63 (c : Dev nD) : W9 m ρ c (Proc.devRef .tc main_v63) = W8 m ρ c (Proc.devRef .tc main_v63) :=
  W9_keep m ρ c main_v63 (by decide)
theorem W11_main_v80_0 (c : Dev nD) : W11 m ρ c (Proc.devRef .tc main_v80_0) = W10 m ρ c (Proc.devRef .tc main_v80_0) :=
  W11_keep m ρ c main_v80_0 (by decide)
theorem W13_main_v103_0 (c : Dev nD) : W13 m ρ c (Proc.devRef .tc main_v103_0) = W12 m ρ c (Proc.devRef .tc main_v103_0) :=
  W13_keep m ρ c main_v103_0 (by decide)
theorem W15_main_v120 (c : Dev nD) : W15 m ρ c (Proc.devRef .tc main_v120) = W14 m ρ c (Proc.devRef .tc main_v120) :=
  W15_keep m ρ c main_v120 (by decide)
theorem W17_main_v137_0 (c : Dev nD) : W17 m ρ c (Proc.devRef .tc main_v137_0) = W16 m ρ c (Proc.devRef .tc main_v137_0) :=
  W17_keep m ρ c main_v137_0 (by decide)
theorem W19_main_v160_0 (c : Dev nD) : W19 m ρ c (Proc.devRef .tc main_v160_0) = W18 m ρ c (Proc.devRef .tc main_v160_0) :=
  W19_keep m ρ c main_v160_0 (by decide)
theorem W21_main_v177 (c : Dev nD) : W21 m ρ c (Proc.devRef .tc main_v177) = W20 m ρ c (Proc.devRef .tc main_v177) :=
  W21_keep m ρ c main_v177 (by decide)
theorem W23_main_v194_0 (c : Dev nD) : W23 m ρ c (Proc.devRef .tc main_v194_0) = W22 m ρ c (Proc.devRef .tc main_v194_0) :=
  W23_keep m ρ c main_v194_0 (by decide)
theorem W25_main_v217_0 (c : Dev nD) : W25 m ρ c (Proc.devRef .tc main_v217_0) = W24 m ρ c (Proc.devRef .tc main_v217_0) :=
  W25_keep m ρ c main_v217_0 (by decide)

/-! ## The regions' windows

Region `k` is entered at boundary `2k+1` and left at `2k+2`.  Its windows' arrays, in operand order (outputs marked),
with the boundary at which each was last written:
 * region 0: 0 `main_arg0` (launch), 1 `main_v4` (W1), 2 `main_v5` (W1), 3 `main_v6` (out)
 * region 1: 0 `main_v6` (W2), 1 `main_v16` (W3), 2 `main_v21` (W3), 3 `main_v22` (W3), 4 `main_v23_0` (out), 5 `main_v23_1` (out), 6 `main_v23_2` (out)
 * region 2: 0 `main_v23_0` (W4), 1 `main_v27` (W5), 2 `main_v33` (W5), 3 `main_v43` (W5), 4 `main_v44` (W5), 5 `main_v42` (W5), 6 `main_v45` (W5), 7 `main_v46_0` (out), 8 `main_v46_1` (out), 9 `main_v46_2` (out)
 * region 3: 0 `main_v46_0` (W6), 1 `main_v50` (W7), 2 `main_v56` (W7), 3 `main_v61` (W7), 4 `main_v62` (W7), 5 `main_v63` (out)
 * region 4: 0 `main_v63` (W8), 1 `main_v73` (W9), 2 `main_v78` (W9), 3 `main_v79` (W9), 4 `main_v80_0` (out), 5 `main_v80_1` (out), 6 `main_v80_2` (out)
 * region 5: 0 `main_v80_0` (W10), 1 `main_v84` (W11), 2 `main_v90` (W11), 3 `main_v100` (W11), 4 `main_v101` (W11), 5 `main_v99` (W11), 6 `main_v102` (W11), 7 `main_v103_0` (out), 8 `main_v103_1` (out), 9 `main_v103_2` (out)
 * region 6: 0 `main_v103_0` (W12), 1 `main_v107` (W13), 2 `main_v113` (W13), 3 `main_v118` (W13), 4 `main_v119` (W13), 5 `main_v120` (out)
 * region 7: 0 `main_v120` (W14), 1 `main_v130` (W15), 2 `main_v135` (W15), 3 `main_v136` (W15), 4 `main_v137_0` (out), 5 `main_v137_1` (out), 6 `main_v137_2` (out)
 * region 8: 0 `main_v137_0` (W16), 1 `main_v141` (W17), 2 `main_v147` (W17), 3 `main_v157` (W17), 4 `main_v158` (W17), 5 `main_v156` (W17), 6 `main_v159` (W17), 7 `main_v160_0` (out), 8 `main_v160_1` (out), 9 `main_v160_2` (out)
 * region 9: 0 `main_v160_0` (W18), 1 `main_v164` (W19), 2 `main_v170` (W19), 3 `main_v175` (W19), 4 `main_v176` (W19), 5 `main_v177` (out)
 * region 10: 0 `main_v177` (W20), 1 `main_v187` (W21), 2 `main_v192` (W21), 3 `main_v193` (W21), 4 `main_v194_0` (out), 5 `main_v194_1` (out), 6 `main_v194_2` (out)
 * region 11: 0 `main_v194_0` (W22), 1 `main_v198` (W23), 2 `main_v204` (W23), 3 `main_v214` (W23), 4 `main_v215` (W23), 5 `main_v213` (W23), 6 `main_v216` (W23), 7 `main_v217_0` (out), 8 `main_v217_1` (out), 9 `main_v217_2` (out)
 * region 12: 0 `main_v217_0` (W24), 1 `main_v221` (W25), 2 `main_v227` (W25), 3 `main_v232` (W25), 4 `main_v233` (W25), 5 `main_v234` (out)
-/

theorem arr0_0 : Pipeline.arrRef spec0 0 = main_arg0 := rfl
theorem arr0_1 : Pipeline.arrRef spec0 1 = main_v4 := rfl
theorem arr0_2 : Pipeline.arrRef spec0 2 = main_v5 := rfl
theorem arr0_3 : Pipeline.arrRef spec0 3 = main_v6 := rfl
theorem arr1_0 : Pipeline.arrRef spec1 0 = main_v6 := rfl
theorem arr1_1 : Pipeline.arrRef spec1 1 = main_v16 := rfl
theorem arr1_2 : Pipeline.arrRef spec1 2 = main_v21 := rfl
theorem arr1_3 : Pipeline.arrRef spec1 3 = main_v22 := rfl
theorem arr1_4 : Pipeline.arrRef spec1 4 = main_v23_0 := rfl
theorem arr1_5 : Pipeline.arrRef spec1 5 = main_v23_1 := rfl
theorem arr1_6 : Pipeline.arrRef spec1 6 = main_v23_2 := rfl
theorem arr2_0 : Pipeline.arrRef spec2 0 = main_v23_0 := rfl
theorem arr2_1 : Pipeline.arrRef spec2 1 = main_v27 := rfl
theorem arr2_2 : Pipeline.arrRef spec2 2 = main_v33 := rfl
theorem arr2_3 : Pipeline.arrRef spec2 3 = main_v43 := rfl
theorem arr2_4 : Pipeline.arrRef spec2 4 = main_v44 := rfl
theorem arr2_5 : Pipeline.arrRef spec2 5 = main_v42 := rfl
theorem arr2_6 : Pipeline.arrRef spec2 6 = main_v45 := rfl
theorem arr2_7 : Pipeline.arrRef spec2 7 = main_v46_0 := rfl
theorem arr2_8 : Pipeline.arrRef spec2 8 = main_v46_1 := rfl
theorem arr2_9 : Pipeline.arrRef spec2 9 = main_v46_2 := rfl
theorem arr3_0 : Pipeline.arrRef spec3 0 = main_v46_0 := rfl
theorem arr3_1 : Pipeline.arrRef spec3 1 = main_v50 := rfl
theorem arr3_2 : Pipeline.arrRef spec3 2 = main_v56 := rfl
theorem arr3_3 : Pipeline.arrRef spec3 3 = main_v61 := rfl
theorem arr3_4 : Pipeline.arrRef spec3 4 = main_v62 := rfl
theorem arr3_5 : Pipeline.arrRef spec3 5 = main_v63 := rfl
theorem arr4_0 : Pipeline.arrRef spec4 0 = main_v63 := rfl
theorem arr4_1 : Pipeline.arrRef spec4 1 = main_v73 := rfl
theorem arr4_2 : Pipeline.arrRef spec4 2 = main_v78 := rfl
theorem arr4_3 : Pipeline.arrRef spec4 3 = main_v79 := rfl
theorem arr4_4 : Pipeline.arrRef spec4 4 = main_v80_0 := rfl
theorem arr4_5 : Pipeline.arrRef spec4 5 = main_v80_1 := rfl
theorem arr4_6 : Pipeline.arrRef spec4 6 = main_v80_2 := rfl
theorem arr5_0 : Pipeline.arrRef spec5 0 = main_v80_0 := rfl
theorem arr5_1 : Pipeline.arrRef spec5 1 = main_v84 := rfl
theorem arr5_2 : Pipeline.arrRef spec5 2 = main_v90 := rfl
theorem arr5_3 : Pipeline.arrRef spec5 3 = main_v100 := rfl
theorem arr5_4 : Pipeline.arrRef spec5 4 = main_v101 := rfl
theorem arr5_5 : Pipeline.arrRef spec5 5 = main_v99 := rfl
theorem arr5_6 : Pipeline.arrRef spec5 6 = main_v102 := rfl
theorem arr5_7 : Pipeline.arrRef spec5 7 = main_v103_0 := rfl
theorem arr5_8 : Pipeline.arrRef spec5 8 = main_v103_1 := rfl
theorem arr5_9 : Pipeline.arrRef spec5 9 = main_v103_2 := rfl
theorem arr6_0 : Pipeline.arrRef spec6 0 = main_v103_0 := rfl
theorem arr6_1 : Pipeline.arrRef spec6 1 = main_v107 := rfl
theorem arr6_2 : Pipeline.arrRef spec6 2 = main_v113 := rfl
theorem arr6_3 : Pipeline.arrRef spec6 3 = main_v118 := rfl
theorem arr6_4 : Pipeline.arrRef spec6 4 = main_v119 := rfl
theorem arr6_5 : Pipeline.arrRef spec6 5 = main_v120 := rfl
theorem arr7_0 : Pipeline.arrRef spec7 0 = main_v120 := rfl
theorem arr7_1 : Pipeline.arrRef spec7 1 = main_v130 := rfl
theorem arr7_2 : Pipeline.arrRef spec7 2 = main_v135 := rfl
theorem arr7_3 : Pipeline.arrRef spec7 3 = main_v136 := rfl
theorem arr7_4 : Pipeline.arrRef spec7 4 = main_v137_0 := rfl
theorem arr7_5 : Pipeline.arrRef spec7 5 = main_v137_1 := rfl
theorem arr7_6 : Pipeline.arrRef spec7 6 = main_v137_2 := rfl
theorem arr8_0 : Pipeline.arrRef spec8 0 = main_v137_0 := rfl
theorem arr8_1 : Pipeline.arrRef spec8 1 = main_v141 := rfl
theorem arr8_2 : Pipeline.arrRef spec8 2 = main_v147 := rfl
theorem arr8_3 : Pipeline.arrRef spec8 3 = main_v157 := rfl
theorem arr8_4 : Pipeline.arrRef spec8 4 = main_v158 := rfl
theorem arr8_5 : Pipeline.arrRef spec8 5 = main_v156 := rfl
theorem arr8_6 : Pipeline.arrRef spec8 6 = main_v159 := rfl
theorem arr8_7 : Pipeline.arrRef spec8 7 = main_v160_0 := rfl
theorem arr8_8 : Pipeline.arrRef spec8 8 = main_v160_1 := rfl
theorem arr8_9 : Pipeline.arrRef spec8 9 = main_v160_2 := rfl
theorem arr9_0 : Pipeline.arrRef spec9 0 = main_v160_0 := rfl
theorem arr9_1 : Pipeline.arrRef spec9 1 = main_v164 := rfl
theorem arr9_2 : Pipeline.arrRef spec9 2 = main_v170 := rfl
theorem arr9_3 : Pipeline.arrRef spec9 3 = main_v175 := rfl
theorem arr9_4 : Pipeline.arrRef spec9 4 = main_v176 := rfl
theorem arr9_5 : Pipeline.arrRef spec9 5 = main_v177 := rfl
theorem arr10_0 : Pipeline.arrRef spec10 0 = main_v177 := rfl
theorem arr10_1 : Pipeline.arrRef spec10 1 = main_v187 := rfl
theorem arr10_2 : Pipeline.arrRef spec10 2 = main_v192 := rfl
theorem arr10_3 : Pipeline.arrRef spec10 3 = main_v193 := rfl
theorem arr10_4 : Pipeline.arrRef spec10 4 = main_v194_0 := rfl
theorem arr10_5 : Pipeline.arrRef spec10 5 = main_v194_1 := rfl
theorem arr10_6 : Pipeline.arrRef spec10 6 = main_v194_2 := rfl
theorem arr11_0 : Pipeline.arrRef spec11 0 = main_v194_0 := rfl
theorem arr11_1 : Pipeline.arrRef spec11 1 = main_v198 := rfl
theorem arr11_2 : Pipeline.arrRef spec11 2 = main_v204 := rfl
theorem arr11_3 : Pipeline.arrRef spec11 3 = main_v214 := rfl
theorem arr11_4 : Pipeline.arrRef spec11 4 = main_v215 := rfl
theorem arr11_5 : Pipeline.arrRef spec11 5 = main_v213 := rfl
theorem arr11_6 : Pipeline.arrRef spec11 6 = main_v216 := rfl
theorem arr11_7 : Pipeline.arrRef spec11 7 = main_v217_0 := rfl
theorem arr11_8 : Pipeline.arrRef spec11 8 = main_v217_1 := rfl
theorem arr11_9 : Pipeline.arrRef spec11 9 = main_v217_2 := rfl
theorem arr12_0 : Pipeline.arrRef spec12 0 = main_v217_0 := rfl
theorem arr12_1 : Pipeline.arrRef spec12 1 = main_v221 := rfl
theorem arr12_2 : Pipeline.arrRef spec12 2 = main_v227 := rfl
theorem arr12_3 : Pipeline.arrRef spec12 3 = main_v232 := rfl
theorem arr12_4 : Pipeline.arrRef spec12 4 = main_v233 := rfl
theorem arr12_5 : Pipeline.arrRef spec12 5 = main_v234 := rfl

end Cert.KernelIdeal.HostSide

end
-- ==== Proof.KArgs.lean ====
import proofs.«119304_j10247791968545_2_alg».proof.Proof.Gen.KernelIdeal.Frame
import proofs.«119304_j10247791968545_2_alg».proof.Proof.KKeep

/-!
# The kernel program's host side: every argument at every boundary

No host operation and no region writes an argument, so at every boundary of @main's fold an argument's
buffer holds the launch memory.  (Boundary 27, the return, is stated in the imported module.)
-/

set_option maxRecDepth 16384

noncomputable section

namespace Cert.KernelIdeal.HostSide

open Idealize.ShloMosaic Idealize.ShloMosaic.TcCoe
open Cert.KernelIdeal Cert.KernelIdeal.Gen

variable {F : FTy → Type} [FloatOps F]
variable (m : (ℓ : Loc nD τ sig) → Buf (Elt F) ℓ) (ρ : Dev nD → PrngReg)

/-! ## Every other argument at every boundary is the launch memory -/

theorem W0_main_arg1 (c : Dev nD) : W0 m ρ c (Proc.devRef .tc main_arg1) = m ((c : Thread nD τ).loc main_arg1) := rfl
theorem W1_main_arg1 (c : Dev nD) : W1 m ρ c (Proc.devRef .tc main_arg1) = m ((c : Thread nD τ).loc main_arg1) :=
  (W1_args m ρ c main_arg1 (by decide)).trans (W0_main_arg1 m ρ c)
theorem W2_main_arg1 (c : Dev nD) : W2 m ρ c (Proc.devRef .tc main_arg1) = m ((c : Thread nD τ).loc main_arg1) :=
  (W2_track m ρ c main_arg1 (by decide)).trans (W1_main_arg1 m ρ c)
theorem W3_main_arg1 (c : Dev nD) : W3 m ρ c (Proc.devRef .tc main_arg1) = m ((c : Thread nD τ).loc main_arg1) :=
  (W3_track m ρ c main_arg1 (by decide)).trans (W1_main_arg1 m ρ c)
theorem W4_main_arg1 (c : Dev nD) : W4 m ρ c (Proc.devRef .tc main_arg1) = m ((c : Thread nD τ).loc main_arg1) :=
  (W4_track m ρ c main_arg1 (by decide)).trans (W1_main_arg1 m ρ c)
theorem W5_main_arg1 (c : Dev nD) : W5 m ρ c (Proc.devRef .tc main_arg1) = m ((c : Thread nD τ).loc main_arg1) :=
  (W5_track m ρ c main_arg1 (by decide)).trans (W1_main_arg1 m ρ c)
theorem W6_main_arg1 (c : Dev nD) : W6 m ρ c (Proc.devRef .tc main_arg1) = m ((c : Thread nD τ).loc main_arg1) :=
  (W6_track m ρ c main_arg1 (by decide)).trans (W1_main_arg1 m ρ c)
theorem W7_main_arg1 (c : Dev nD) : W7 m ρ c (Proc.devRef .tc main_arg1) = m ((c : Thread nD τ).loc main_arg1) :=
  (W7_track m ρ c main_arg1 (by decide)).trans (W1_main_arg1 m ρ c)
theorem W8_main_arg1 (c : Dev nD) : W8 m ρ c (Proc.devRef .tc main_arg1) = m ((c : Thread nD τ).loc main_arg1) :=
  (W8_track m ρ c main_arg1 (by decide)).trans (W1_main_arg1 m ρ c)
theorem W9_main_arg1 (c : Dev nD) : W9 m ρ c (Proc.devRef .tc main_arg1) = m ((c : Thread nD τ).loc main_arg1) :=
  (W9_track m ρ c main_arg1 (by decide)).trans (W1_main_arg1 m ρ c)
theorem W10_main_arg1 (c : Dev nD) : W10 m ρ c (Proc.devRef .tc main_arg1) = m ((c : Thread nD τ).loc main_arg1) :=
  (W10_track m ρ c main_arg1 (by decide)).trans (W1_main_arg1 m ρ c)
theorem W11_main_arg1 (c : Dev nD) : W11 m ρ c (Proc.devRef .tc main_arg1) = m ((c : Thread nD τ).loc main_arg1) :=
  (W11_track m ρ c main_arg1 (by decide)).trans (W1_main_arg1 m ρ c)
theorem W12_main_arg1 (c : Dev nD) : W12 m ρ c (Proc.devRef .tc main_arg1) = m ((c : Thread nD τ).loc main_arg1) :=
  (W12_track m ρ c main_arg1 (by decide)).trans (W1_main_arg1 m ρ c)
theorem W13_main_arg1 (c : Dev nD) : W13 m ρ c (Proc.devRef .tc main_arg1) = m ((c : Thread nD τ).loc main_arg1) :=
  (W13_track m ρ c main_arg1 (by decide)).trans (W1_main_arg1 m ρ c)
theorem W14_main_arg1 (c : Dev nD) : W14 m ρ c (Proc.devRef .tc main_arg1) = m ((c : Thread nD τ).loc main_arg1) :=
  (W14_track m ρ c main_arg1 (by decide)).trans (W1_main_arg1 m ρ c)
theorem W15_main_arg1 (c : Dev nD) : W15 m ρ c (Proc.devRef .tc main_arg1) = m ((c : Thread nD τ).loc main_arg1) :=
  (W15_track m ρ c main_arg1 (by decide)).trans (W1_main_arg1 m ρ c)
theorem W16_main_arg1 (c : Dev nD) : W16 m ρ c (Proc.devRef .tc main_arg1) = m ((c : Thread nD τ).loc main_arg1) :=
  (W16_track m ρ c main_arg1 (by decide)).trans (W1_main_arg1 m ρ c)
theorem W17_main_arg1 (c : Dev nD) : W17 m ρ c (Proc.devRef .tc main_arg1) = m ((c : Thread nD τ).loc main_arg1) :=
  (W17_track m ρ c main_arg1 (by decide)).trans (W1_main_arg1 m ρ c)
theorem W18_main_arg1 (c : Dev nD) : W18 m ρ c (Proc.devRef .tc main_arg1) = m ((c : Thread nD τ).loc main_arg1) :=
  (W18_track m ρ c main_arg1 (by decide)).trans (W1_main_arg1 m ρ c)
theorem W19_main_arg1 (c : Dev nD) : W19 m ρ c (Proc.devRef .tc main_arg1) = m ((c : Thread nD τ).loc main_arg1) :=
  (W19_track m ρ c main_arg1 (by decide)).trans (W1_main_arg1 m ρ c)
theorem W20_main_arg1 (c : Dev nD) : W20 m ρ c (Proc.devRef .tc main_arg1) = m ((c : Thread nD τ).loc main_arg1) :=
  (W20_track m ρ c main_arg1 (by decide)).trans (W1_main_arg1 m ρ c)
theorem W21_main_arg1 (c : Dev nD) : W21 m ρ c (Proc.devRef .tc main_arg1) = m ((c : Thread nD τ).loc main_arg1) :=
  (W21_track m ρ c main_arg1 (by decide)).trans (W1_main_arg1 m ρ c)
theorem W22_main_arg1 (c : Dev nD) : W22 m ρ c (Proc.devRef .tc main_arg1) = m ((c : Thread nD τ).loc main_arg1) :=
  (W22_track m ρ c main_arg1 (by decide)).trans (W1_main_arg1 m ρ c)
theorem W23_main_arg1 (c : Dev nD) : W23 m ρ c (Proc.devRef .tc main_arg1) = m ((c : Thread nD τ).loc main_arg1) :=
  (W23_track m ρ c main_arg1 (by decide)).trans (W1_main_arg1 m ρ c)
theorem W24_main_arg1 (c : Dev nD) : W24 m ρ c (Proc.devRef .tc main_arg1) = m ((c : Thread nD τ).loc main_arg1) :=
  (W24_track m ρ c main_arg1 (by decide)).trans (W1_main_arg1 m ρ c)
theorem W25_main_arg1 (c : Dev nD) : W25 m ρ c (Proc.devRef .tc main_arg1) = m ((c : Thread nD τ).loc main_arg1) :=
  (W25_track m ρ c main_arg1 (by decide)).trans (W1_main_arg1 m ρ c)
theorem W26_main_arg1 (c : Dev nD) : W26 m ρ c (Proc.devRef .tc main_arg1) = m ((c : Thread nD τ).loc main_arg1) :=
  (W26_track m ρ c main_arg1 (by decide)).trans (W1_main_arg1 m ρ c)
theorem W0_main_arg2 (c : Dev nD) : W0 m ρ c (Proc.devRef .tc main_arg2) = m ((c : Thread nD τ).loc main_arg2) := rfl
theorem W1_main_arg2 (c : Dev nD) : W1 m ρ c (Proc.devRef .tc main_arg2) = m ((c : Thread nD τ).loc main_arg2) :=
  (W1_args m ρ c main_arg2 (by decide)).trans (W0_main_arg2 m ρ c)
theorem W2_main_arg2 (c : Dev nD) : W2 m ρ c (Proc.devRef .tc main_arg2) = m ((c : Thread nD τ).loc main_arg2) :=
  (W2_track m ρ c main_arg2 (by decide)).trans (W1_main_arg2 m ρ c)
theorem W3_main_arg2 (c : Dev nD) : W3 m ρ c (Proc.devRef .tc main_arg2) = m ((c : Thread nD τ).loc main_arg2) :=
  (W3_track m ρ c main_arg2 (by decide)).trans (W1_main_arg2 m ρ c)
theorem W4_main_arg2 (c : Dev nD) : W4 m ρ c (Proc.devRef .tc main_arg2) = m ((c : Thread nD τ).loc main_arg2) :=
  (W4_track m ρ c main_arg2 (by decide)).trans (W1_main_arg2 m ρ c)
theorem W5_main_arg2 (c : Dev nD) : W5 m ρ c (Proc.devRef .tc main_arg2) = m ((c : Thread nD τ).loc main_arg2) :=
  (W5_track m ρ c main_arg2 (by decide)).trans (W1_main_arg2 m ρ c)
theorem W6_main_arg2 (c : Dev nD) : W6 m ρ c (Proc.devRef .tc main_arg2) = m ((c : Thread nD τ).loc main_arg2) :=
  (W6_track m ρ c main_arg2 (by decide)).trans (W1_main_arg2 m ρ c)
theorem W7_main_arg2 (c : Dev nD) : W7 m ρ c (Proc.devRef .tc main_arg2) = m ((c : Thread nD τ).loc main_arg2) :=
  (W7_track m ρ c main_arg2 (by decide)).trans (W1_main_arg2 m ρ c)
theorem W8_main_arg2 (c : Dev nD) : W8 m ρ c (Proc.devRef .tc main_arg2) = m ((c : Thread nD τ).loc main_arg2) :=
  (W8_track m ρ c main_arg2 (by decide)).trans (W1_main_arg2 m ρ c)
theorem W9_main_arg2 (c : Dev nD) : W9 m ρ c (Proc.devRef .tc main_arg2) = m ((c : Thread nD τ).loc main_arg2) :=
  (W9_track m ρ c main_arg2 (by decide)).trans (W1_main_arg2 m ρ c)
theorem W10_main_arg2 (c : Dev nD) : W10 m ρ c (Proc.devRef .tc main_arg2) = m ((c : Thread nD τ).loc main_arg2) :=
  (W10_track m ρ c main_arg2 (by decide)).trans (W1_main_arg2 m ρ c)
theorem W11_main_arg2 (c : Dev nD) : W11 m ρ c (Proc.devRef .tc main_arg2) = m ((c : Thread nD τ).loc main_arg2) :=
  (W11_track m ρ c main_arg2 (by decide)).trans (W1_main_arg2 m ρ c)
theorem W12_main_arg2 (c : Dev nD) : W12 m ρ c (Proc.devRef .tc main_arg2) = m ((c : Thread nD τ).loc main_arg2) :=
  (W12_track m ρ c main_arg2 (by decide)).trans (W1_main_arg2 m ρ c)
theorem W13_main_arg2 (c : Dev nD) : W13 m ρ c (Proc.devRef .tc main_arg2) = m ((c : Thread nD τ).loc main_arg2) :=
  (W13_track m ρ c main_arg2 (by decide)).trans (W1_main_arg2 m ρ c)
theorem W14_main_arg2 (c : Dev nD) : W14 m ρ c (Proc.devRef .tc main_arg2) = m ((c : Thread nD τ).loc main_arg2) :=
  (W14_track m ρ c main_arg2 (by decide)).trans (W1_main_arg2 m ρ c)
theorem W15_main_arg2 (c : Dev nD) : W15 m ρ c (Proc.devRef .tc main_arg2) = m ((c : Thread nD τ).loc main_arg2) :=
  (W15_track m ρ c main_arg2 (by decide)).trans (W1_main_arg2 m ρ c)
theorem W16_main_arg2 (c : Dev nD) : W16 m ρ c (Proc.devRef .tc main_arg2) = m ((c : Thread nD τ).loc main_arg2) :=
  (W16_track m ρ c main_arg2 (by decide)).trans (W1_main_arg2 m ρ c)
theorem W17_main_arg2 (c : Dev nD) : W17 m ρ c (Proc.devRef .tc main_arg2) = m ((c : Thread nD τ).loc main_arg2) :=
  (W17_track m ρ c main_arg2 (by decide)).trans (W1_main_arg2 m ρ c)
theorem W18_main_arg2 (c : Dev nD) : W18 m ρ c (Proc.devRef .tc main_arg2) = m ((c : Thread nD τ).loc main_arg2) :=
  (W18_track m ρ c main_arg2 (by decide)).trans (W1_main_arg2 m ρ c)
theorem W19_main_arg2 (c : Dev nD) : W19 m ρ c (Proc.devRef .tc main_arg2) = m ((c : Thread nD τ).loc main_arg2) :=
  (W19_track m ρ c main_arg2 (by decide)).trans (W1_main_arg2 m ρ c)
theorem W20_main_arg2 (c : Dev nD) : W20 m ρ c (Proc.devRef .tc main_arg2) = m ((c : Thread nD τ).loc main_arg2) :=
  (W20_track m ρ c main_arg2 (by decide)).trans (W1_main_arg2 m ρ c)
theorem W21_main_arg2 (c : Dev nD) : W21 m ρ c (Proc.devRef .tc main_arg2) = m ((c : Thread nD τ).loc main_arg2) :=
  (W21_track m ρ c main_arg2 (by decide)).trans (W1_main_arg2 m ρ c)
theorem W22_main_arg2 (c : Dev nD) : W22 m ρ c (Proc.devRef .tc main_arg2) = m ((c : Thread nD τ).loc main_arg2) :=
  (W22_track m ρ c main_arg2 (by decide)).trans (W1_main_arg2 m ρ c)
theorem W23_main_arg2 (c : Dev nD) : W23 m ρ c (Proc.devRef .tc main_arg2) = m ((c : Thread nD τ).loc main_arg2) :=
  (W23_track m ρ c main_arg2 (by decide)).trans (W1_main_arg2 m ρ c)
theorem W24_main_arg2 (c : Dev nD) : W24 m ρ c (Proc.devRef .tc main_arg2) = m ((c : Thread nD τ).loc main_arg2) :=
  (W24_track m ρ c main_arg2 (by decide)).trans (W1_main_arg2 m ρ c)
theorem W25_main_arg2 (c : Dev nD) : W25 m ρ c (Proc.devRef .tc main_arg2) = m ((c : Thread nD τ).loc main_arg2) :=
  (W25_track m ρ c main_arg2 (by decide)).trans (W1_main_arg2 m ρ c)
theorem W26_main_arg2 (c : Dev nD) : W26 m ρ c (Proc.devRef .tc main_arg2) = m ((c : Thread nD τ).loc main_arg2) :=
  (W26_track m ρ c main_arg2 (by decide)).trans (W1_main_arg2 m ρ c)
theorem W0_main_arg3 (c : Dev nD) : W0 m ρ c (Proc.devRef .tc main_arg3) = m ((c : Thread nD τ).loc main_arg3) := rfl
theorem W1_main_arg3 (c : Dev nD) : W1 m ρ c (Proc.devRef .tc main_arg3) = m ((c : Thread nD τ).loc main_arg3) :=
  (W1_args m ρ c main_arg3 (by decide)).trans (W0_main_arg3 m ρ c)
theorem W2_main_arg3 (c : Dev nD) : W2 m ρ c (Proc.devRef .tc main_arg3) = m ((c : Thread nD τ).loc main_arg3) :=
  (W2_track m ρ c main_arg3 (by decide)).trans (W1_main_arg3 m ρ c)
theorem W3_main_arg3 (c : Dev nD) : W3 m ρ c (Proc.devRef .tc main_arg3) = m ((c : Thread nD τ).loc main_arg3) :=
  (W3_track m ρ c main_arg3 (by decide)).trans (W1_main_arg3 m ρ c)
theorem W4_main_arg3 (c : Dev nD) : W4 m ρ c (Proc.devRef .tc main_arg3) = m ((c : Thread nD τ).loc main_arg3) :=
  (W4_track m ρ c main_arg3 (by decide)).trans (W1_main_arg3 m ρ c)
theorem W5_main_arg3 (c : Dev nD) : W5 m ρ c (Proc.devRef .tc main_arg3) = m ((c : Thread nD τ).loc main_arg3) :=
  (W5_track m ρ c main_arg3 (by decide)).trans (W1_main_arg3 m ρ c)
theorem W6_main_arg3 (c : Dev nD) : W6 m ρ c (Proc.devRef .tc main_arg3) = m ((c : Thread nD τ).loc main_arg3) :=
  (W6_track m ρ c main_arg3 (by decide)).trans (W1_main_arg3 m ρ c)
theorem W7_main_arg3 (c : Dev nD) : W7 m ρ c (Proc.devRef .tc main_arg3) = m ((c : Thread nD τ).loc main_arg3) :=
  (W7_track m ρ c main_arg3 (by decide)).trans (W1_main_arg3 m ρ c)
theorem W8_main_arg3 (c : Dev nD) : W8 m ρ c (Proc.devRef .tc main_arg3) = m ((c : Thread nD τ).loc main_arg3) :=
  (W8_track m ρ c main_arg3 (by decide)).trans (W1_main_arg3 m ρ c)
theorem W9_main_arg3 (c : Dev nD) : W9 m ρ c (Proc.devRef .tc main_arg3) = m ((c : Thread nD τ).loc main_arg3) :=
  (W9_track m ρ c main_arg3 (by decide)).trans (W1_main_arg3 m ρ c)
theorem W10_main_arg3 (c : Dev nD) : W10 m ρ c (Proc.devRef .tc main_arg3) = m ((c : Thread nD τ).loc main_arg3) :=
  (W10_track m ρ c main_arg3 (by decide)).trans (W1_main_arg3 m ρ c)
theorem W11_main_arg3 (c : Dev nD) : W11 m ρ c (Proc.devRef .tc main_arg3) = m ((c : Thread nD τ).loc main_arg3) :=
  (W11_track m ρ c main_arg3 (by decide)).trans (W1_main_arg3 m ρ c)
theorem W12_main_arg3 (c : Dev nD) : W12 m ρ c (Proc.devRef .tc main_arg3) = m ((c : Thread nD τ).loc main_arg3) :=
  (W12_track m ρ c main_arg3 (by decide)).trans (W1_main_arg3 m ρ c)
theorem W13_main_arg3 (c : Dev nD) : W13 m ρ c (Proc.devRef .tc main_arg3) = m ((c : Thread nD τ).loc main_arg3) :=
  (W13_track m ρ c main_arg3 (by decide)).trans (W1_main_arg3 m ρ c)
theorem W14_main_arg3 (c : Dev nD) : W14 m ρ c (Proc.devRef .tc main_arg3) = m ((c : Thread nD τ).loc main_arg3) :=
  (W14_track m ρ c main_arg3 (by decide)).trans (W1_main_arg3 m ρ c)
theorem W15_main_arg3 (c : Dev nD) : W15 m ρ c (Proc.devRef .tc main_arg3) = m ((c : Thread nD τ).loc main_arg3) :=
  (W15_track m ρ c main_arg3 (by decide)).trans (W1_main_arg3 m ρ c)
theorem W16_main_arg3 (c : Dev nD) : W16 m ρ c (Proc.devRef .tc main_arg3) = m ((c : Thread nD τ).loc main_arg3) :=
  (W16_track m ρ c main_arg3 (by decide)).trans (W1_main_arg3 m ρ c)
theorem W17_main_arg3 (c : Dev nD) : W17 m ρ c (Proc.devRef .tc main_arg3) = m ((c : Thread nD τ).loc main_arg3) :=
  (W17_track m ρ c main_arg3 (by decide)).trans (W1_main_arg3 m ρ c)
theorem W18_main_arg3 (c : Dev nD) : W18 m ρ c (Proc.devRef .tc main_arg3) = m ((c : Thread nD τ).loc main_arg3) :=
  (W18_track m ρ c main_arg3 (by decide)).trans (W1_main_arg3 m ρ c)
theorem W19_main_arg3 (c : Dev nD) : W19 m ρ c (Proc.devRef .tc main_arg3) = m ((c : Thread nD τ).loc main_arg3) :=
  (W19_track m ρ c main_arg3 (by decide)).trans (W1_main_arg3 m ρ c)
theorem W20_main_arg3 (c : Dev nD) : W20 m ρ c (Proc.devRef .tc main_arg3) = m ((c : Thread nD τ).loc main_arg3) :=
  (W20_track m ρ c main_arg3 (by decide)).trans (W1_main_arg3 m ρ c)
theorem W21_main_arg3 (c : Dev nD) : W21 m ρ c (Proc.devRef .tc main_arg3) = m ((c : Thread nD τ).loc main_arg3) :=
  (W21_track m ρ c main_arg3 (by decide)).trans (W1_main_arg3 m ρ c)
theorem W22_main_arg3 (c : Dev nD) : W22 m ρ c (Proc.devRef .tc main_arg3) = m ((c : Thread nD τ).loc main_arg3) :=
  (W22_track m ρ c main_arg3 (by decide)).trans (W1_main_arg3 m ρ c)
theorem W23_main_arg3 (c : Dev nD) : W23 m ρ c (Proc.devRef .tc main_arg3) = m ((c : Thread nD τ).loc main_arg3) :=
  (W23_track m ρ c main_arg3 (by decide)).trans (W1_main_arg3 m ρ c)
theorem W24_main_arg3 (c : Dev nD) : W24 m ρ c (Proc.devRef .tc main_arg3) = m ((c : Thread nD τ).loc main_arg3) :=
  (W24_track m ρ c main_arg3 (by decide)).trans (W1_main_arg3 m ρ c)
theorem W25_main_arg3 (c : Dev nD) : W25 m ρ c (Proc.devRef .tc main_arg3) = m ((c : Thread nD τ).loc main_arg3) :=
  (W25_track m ρ c main_arg3 (by decide)).trans (W1_main_arg3 m ρ c)
theorem W26_main_arg3 (c : Dev nD) : W26 m ρ c (Proc.devRef .tc main_arg3) = m ((c : Thread nD τ).loc main_arg3) :=
  (W26_track m ρ c main_arg3 (by decide)).trans (W1_main_arg3 m ρ c)
theorem W0_main_arg4 (c : Dev nD) : W0 m ρ c (Proc.devRef .tc main_arg4) = m ((c : Thread nD τ).loc main_arg4) := rfl
theorem W1_main_arg4 (c : Dev nD) : W1 m ρ c (Proc.devRef .tc main_arg4) = m ((c : Thread nD τ).loc main_arg4) :=
  (W1_args m ρ c main_arg4 (by decide)).trans (W0_main_arg4 m ρ c)
theorem W2_main_arg4 (c : Dev nD) : W2 m ρ c (Proc.devRef .tc main_arg4) = m ((c : Thread nD τ).loc main_arg4) :=
  (W2_track m ρ c main_arg4 (by decide)).trans (W1_main_arg4 m ρ c)
theorem W3_main_arg4 (c : Dev nD) : W3 m ρ c (Proc.devRef .tc main_arg4) = m ((c : Thread nD τ).loc main_arg4) :=
  (W3_track m ρ c main_arg4 (by decide)).trans (W1_main_arg4 m ρ c)
theorem W4_main_arg4 (c : Dev nD) : W4 m ρ c (Proc.devRef .tc main_arg4) = m ((c : Thread nD τ).loc main_arg4) :=
  (W4_track m ρ c main_arg4 (by decide)).trans (W1_main_arg4 m ρ c)
theorem W5_main_arg4 (c : Dev nD) : W5 m ρ c (Proc.devRef .tc main_arg4) = m ((c : Thread nD τ).loc main_arg4) :=
  (W5_track m ρ c main_arg4 (by decide)).trans (W1_main_arg4 m ρ c)
theorem W6_main_arg4 (c : Dev nD) : W6 m ρ c (Proc.devRef .tc main_arg4) = m ((c : Thread nD τ).loc main_arg4) :=
  (W6_track m ρ c main_arg4 (by decide)).trans (W1_main_arg4 m ρ c)
theorem W7_main_arg4 (c : Dev nD) : W7 m ρ c (Proc.devRef .tc main_arg4) = m ((c : Thread nD τ).loc main_arg4) :=
  (W7_track m ρ c main_arg4 (by decide)).trans (W1_main_arg4 m ρ c)
theorem W8_main_arg4 (c : Dev nD) : W8 m ρ c (Proc.devRef .tc main_arg4) = m ((c : Thread nD τ).loc main_arg4) :=
  (W8_track m ρ c main_arg4 (by decide)).trans (W1_main_arg4 m ρ c)
theorem W9_main_arg4 (c : Dev nD) : W9 m ρ c (Proc.devRef .tc main_arg4) = m ((c : Thread nD τ).loc main_arg4) :=
  (W9_track m ρ c main_arg4 (by decide)).trans (W1_main_arg4 m ρ c)
theorem W10_main_arg4 (c : Dev nD) : W10 m ρ c (Proc.devRef .tc main_arg4) = m ((c : Thread nD τ).loc main_arg4) :=
  (W10_track m ρ c main_arg4 (by decide)).trans (W1_main_arg4 m ρ c)
theorem W11_main_arg4 (c : Dev nD) : W11 m ρ c (Proc.devRef .tc main_arg4) = m ((c : Thread nD τ).loc main_arg4) :=
  (W11_track m ρ c main_arg4 (by decide)).trans (W1_main_arg4 m ρ c)
theorem W12_main_arg4 (c : Dev nD) : W12 m ρ c (Proc.devRef .tc main_arg4) = m ((c : Thread nD τ).loc main_arg4) :=
  (W12_track m ρ c main_arg4 (by decide)).trans (W1_main_arg4 m ρ c)
theorem W13_main_arg4 (c : Dev nD) : W13 m ρ c (Proc.devRef .tc main_arg4) = m ((c : Thread nD τ).loc main_arg4) :=
  (W13_track m ρ c main_arg4 (by decide)).trans (W1_main_arg4 m ρ c)
theorem W14_main_arg4 (c : Dev nD) : W14 m ρ c (Proc.devRef .tc main_arg4) = m ((c : Thread nD τ).loc main_arg4) :=
  (W14_track m ρ c main_arg4 (by decide)).trans (W1_main_arg4 m ρ c)
theorem W15_main_arg4 (c : Dev nD) : W15 m ρ c (Proc.devRef .tc main_arg4) = m ((c : Thread nD τ).loc main_arg4) :=
  (W15_track m ρ c main_arg4 (by decide)).trans (W1_main_arg4 m ρ c)
theorem W16_main_arg4 (c : Dev nD) : W16 m ρ c (Proc.devRef .tc main_arg4) = m ((c : Thread nD τ).loc main_arg4) :=
  (W16_track m ρ c main_arg4 (by decide)).trans (W1_main_arg4 m ρ c)
theorem W17_main_arg4 (c : Dev nD) : W17 m ρ c (Proc.devRef .tc main_arg4) = m ((c : Thread nD τ).loc main_arg4) :=
  (W17_track m ρ c main_arg4 (by decide)).trans (W1_main_arg4 m ρ c)
theorem W18_main_arg4 (c : Dev nD) : W18 m ρ c (Proc.devRef .tc main_arg4) = m ((c : Thread nD τ).loc main_arg4) :=
  (W18_track m ρ c main_arg4 (by decide)).trans (W1_main_arg4 m ρ c)
theorem W19_main_arg4 (c : Dev nD) : W19 m ρ c (Proc.devRef .tc main_arg4) = m ((c : Thread nD τ).loc main_arg4) :=
  (W19_track m ρ c main_arg4 (by decide)).trans (W1_main_arg4 m ρ c)
theorem W20_main_arg4 (c : Dev nD) : W20 m ρ c (Proc.devRef .tc main_arg4) = m ((c : Thread nD τ).loc main_arg4) :=
  (W20_track m ρ c main_arg4 (by decide)).trans (W1_main_arg4 m ρ c)
theorem W21_main_arg4 (c : Dev nD) : W21 m ρ c (Proc.devRef .tc main_arg4) = m ((c : Thread nD τ).loc main_arg4) :=
  (W21_track m ρ c main_arg4 (by decide)).trans (W1_main_arg4 m ρ c)
theorem W22_main_arg4 (c : Dev nD) : W22 m ρ c (Proc.devRef .tc main_arg4) = m ((c : Thread nD τ).loc main_arg4) :=
  (W22_track m ρ c main_arg4 (by decide)).trans (W1_main_arg4 m ρ c)
theorem W23_main_arg4 (c : Dev nD) : W23 m ρ c (Proc.devRef .tc main_arg4) = m ((c : Thread nD τ).loc main_arg4) :=
  (W23_track m ρ c main_arg4 (by decide)).trans (W1_main_arg4 m ρ c)
theorem W24_main_arg4 (c : Dev nD) : W24 m ρ c (Proc.devRef .tc main_arg4) = m ((c : Thread nD τ).loc main_arg4) :=
  (W24_track m ρ c main_arg4 (by decide)).trans (W1_main_arg4 m ρ c)
theorem W25_main_arg4 (c : Dev nD) : W25 m ρ c (Proc.devRef .tc main_arg4) = m ((c : Thread nD τ).loc main_arg4) :=
  (W25_track m ρ c main_arg4 (by decide)).trans (W1_main_arg4 m ρ c)
theorem W26_main_arg4 (c : Dev nD) : W26 m ρ c (Proc.devRef .tc main_arg4) = m ((c : Thread nD τ).loc main_arg4) :=
  (W26_track m ρ c main_arg4 (by decide)).trans (W1_main_arg4 m ρ c)
theorem W0_main_arg5 (c : Dev nD) : W0 m ρ c (Proc.devRef .tc main_arg5) = m ((c : Thread nD τ).loc main_arg5) := rfl
theorem W1_main_arg5 (c : Dev nD) : W1 m ρ c (Proc.devRef .tc main_arg5) = m ((c : Thread nD τ).loc main_arg5) :=
  (W1_args m ρ c main_arg5 (by decide)).trans (W0_main_arg5 m ρ c)
theorem W2_main_arg5 (c : Dev nD) : W2 m ρ c (Proc.devRef .tc main_arg5) = m ((c : Thread nD τ).loc main_arg5) :=
  (W2_track m ρ c main_arg5 (by decide)).trans (W1_main_arg5 m ρ c)
theorem W3_main_arg5 (c : Dev nD) : W3 m ρ c (Proc.devRef .tc main_arg5) = m ((c : Thread nD τ).loc main_arg5) :=
  (W3_track m ρ c main_arg5 (by decide)).trans (W1_main_arg5 m ρ c)
theorem W4_main_arg5 (c : Dev nD) : W4 m ρ c (Proc.devRef .tc main_arg5) = m ((c : Thread nD τ).loc main_arg5) :=
  (W4_track m ρ c main_arg5 (by decide)).trans (W1_main_arg5 m ρ c)
theorem W5_main_arg5 (c : Dev nD) : W5 m ρ c (Proc.devRef .tc main_arg5) = m ((c : Thread nD τ).loc main_arg5) :=
  (W5_track m ρ c main_arg5 (by decide)).trans (W1_main_arg5 m ρ c)
theorem W6_main_arg5 (c : Dev nD) : W6 m ρ c (Proc.devRef .tc main_arg5) = m ((c : Thread nD τ).loc main_arg5) :=
  (W6_track m ρ c main_arg5 (by decide)).trans (W1_main_arg5 m ρ c)
theorem W7_main_arg5 (c : Dev nD) : W7 m ρ c (Proc.devRef .tc main_arg5) = m ((c : Thread nD τ).loc main_arg5) :=
  (W7_track m ρ c main_arg5 (by decide)).trans (W1_main_arg5 m ρ c)
theorem W8_main_arg5 (c : Dev nD) : W8 m ρ c (Proc.devRef .tc main_arg5) = m ((c : Thread nD τ).loc main_arg5) :=
  (W8_track m ρ c main_arg5 (by decide)).trans (W1_main_arg5 m ρ c)
theorem W9_main_arg5 (c : Dev nD) : W9 m ρ c (Proc.devRef .tc main_arg5) = m ((c : Thread nD τ).loc main_arg5) :=
  (W9_track m ρ c main_arg5 (by decide)).trans (W1_main_arg5 m ρ c)
theorem W10_main_arg5 (c : Dev nD) : W10 m ρ c (Proc.devRef .tc main_arg5) = m ((c : Thread nD τ).loc main_arg5) :=
  (W10_track m ρ c main_arg5 (by decide)).trans (W1_main_arg5 m ρ c)
theorem W11_main_arg5 (c : Dev nD) : W11 m ρ c (Proc.devRef .tc main_arg5) = m ((c : Thread nD τ).loc main_arg5) :=
  (W11_track m ρ c main_arg5 (by decide)).trans (W1_main_arg5 m ρ c)
theorem W12_main_arg5 (c : Dev nD) : W12 m ρ c (Proc.devRef .tc main_arg5) = m ((c : Thread nD τ).loc main_arg5) :=
  (W12_track m ρ c main_arg5 (by decide)).trans (W1_main_arg5 m ρ c)
theorem W13_main_arg5 (c : Dev nD) : W13 m ρ c (Proc.devRef .tc main_arg5) = m ((c : Thread nD τ).loc main_arg5) :=
  (W13_track m ρ c main_arg5 (by decide)).trans (W1_main_arg5 m ρ c)
theorem W14_main_arg5 (c : Dev nD) : W14 m ρ c (Proc.devRef .tc main_arg5) = m ((c : Thread nD τ).loc main_arg5) :=
  (W14_track m ρ c main_arg5 (by decide)).trans (W1_main_arg5 m ρ c)
theorem W15_main_arg5 (c : Dev nD) : W15 m ρ c (Proc.devRef .tc main_arg5) = m ((c : Thread nD τ).loc main_arg5) :=
  (W15_track m ρ c main_arg5 (by decide)).trans (W1_main_arg5 m ρ c)
theorem W16_main_arg5 (c : Dev nD) : W16 m ρ c (Proc.devRef .tc main_arg5) = m ((c : Thread nD τ).loc main_arg5) :=
  (W16_track m ρ c main_arg5 (by decide)).trans (W1_main_arg5 m ρ c)
theorem W17_main_arg5 (c : Dev nD) : W17 m ρ c (Proc.devRef .tc main_arg5) = m ((c : Thread nD τ).loc main_arg5) :=
  (W17_track m ρ c main_arg5 (by decide)).trans (W1_main_arg5 m ρ c)
theorem W18_main_arg5 (c : Dev nD) : W18 m ρ c (Proc.devRef .tc main_arg5) = m ((c : Thread nD τ).loc main_arg5) :=
  (W18_track m ρ c main_arg5 (by decide)).trans (W1_main_arg5 m ρ c)
theorem W19_main_arg5 (c : Dev nD) : W19 m ρ c (Proc.devRef .tc main_arg5) = m ((c : Thread nD τ).loc main_arg5) :=
  (W19_track m ρ c main_arg5 (by decide)).trans (W1_main_arg5 m ρ c)
theorem W20_main_arg5 (c : Dev nD) : W20 m ρ c (Proc.devRef .tc main_arg5) = m ((c : Thread nD τ).loc main_arg5) :=
  (W20_track m ρ c main_arg5 (by decide)).trans (W1_main_arg5 m ρ c)
theorem W21_main_arg5 (c : Dev nD) : W21 m ρ c (Proc.devRef .tc main_arg5) = m ((c : Thread nD τ).loc main_arg5) :=
  (W21_track m ρ c main_arg5 (by decide)).trans (W1_main_arg5 m ρ c)
theorem W22_main_arg5 (c : Dev nD) : W22 m ρ c (Proc.devRef .tc main_arg5) = m ((c : Thread nD τ).loc main_arg5) :=
  (W22_track m ρ c main_arg5 (by decide)).trans (W1_main_arg5 m ρ c)
theorem W23_main_arg5 (c : Dev nD) : W23 m ρ c (Proc.devRef .tc main_arg5) = m ((c : Thread nD τ).loc main_arg5) :=
  (W23_track m ρ c main_arg5 (by decide)).trans (W1_main_arg5 m ρ c)
theorem W24_main_arg5 (c : Dev nD) : W24 m ρ c (Proc.devRef .tc main_arg5) = m ((c : Thread nD τ).loc main_arg5) :=
  (W24_track m ρ c main_arg5 (by decide)).trans (W1_main_arg5 m ρ c)
theorem W25_main_arg5 (c : Dev nD) : W25 m ρ c (Proc.devRef .tc main_arg5) = m ((c : Thread nD τ).loc main_arg5) :=
  (W25_track m ρ c main_arg5 (by decide)).trans (W1_main_arg5 m ρ c)
theorem W26_main_arg5 (c : Dev nD) : W26 m ρ c (Proc.devRef .tc main_arg5) = m ((c : Thread nD τ).loc main_arg5) :=
  (W26_track m ρ c main_arg5 (by decide)).trans (W1_main_arg5 m ρ c)
theorem W0_main_arg6 (c : Dev nD) : W0 m ρ c (Proc.devRef .tc main_arg6) = m ((c : Thread nD τ).loc main_arg6) := rfl
theorem W1_main_arg6 (c : Dev nD) : W1 m ρ c (Proc.devRef .tc main_arg6) = m ((c : Thread nD τ).loc main_arg6) :=
  (W1_args m ρ c main_arg6 (by decide)).trans (W0_main_arg6 m ρ c)
theorem W2_main_arg6 (c : Dev nD) : W2 m ρ c (Proc.devRef .tc main_arg6) = m ((c : Thread nD τ).loc main_arg6) :=
  (W2_track m ρ c main_arg6 (by decide)).trans (W1_main_arg6 m ρ c)
theorem W3_main_arg6 (c : Dev nD) : W3 m ρ c (Proc.devRef .tc main_arg6) = m ((c : Thread nD τ).loc main_arg6) :=
  (W3_track m ρ c main_arg6 (by decide)).trans (W1_main_arg6 m ρ c)
theorem W4_main_arg6 (c : Dev nD) : W4 m ρ c (Proc.devRef .tc main_arg6) = m ((c : Thread nD τ).loc main_arg6) :=
  (W4_track m ρ c main_arg6 (by decide)).trans (W1_main_arg6 m ρ c)
theorem W5_main_arg6 (c : Dev nD) : W5 m ρ c (Proc.devRef .tc main_arg6) = m ((c : Thread nD τ).loc main_arg6) :=
  (W5_track m ρ c main_arg6 (by decide)).trans (W1_main_arg6 m ρ c)
theorem W6_main_arg6 (c : Dev nD) : W6 m ρ c (Proc.devRef .tc main_arg6) = m ((c : Thread nD τ).loc main_arg6) :=
  (W6_track m ρ c main_arg6 (by decide)).trans (W1_main_arg6 m ρ c)
theorem W7_main_arg6 (c : Dev nD) : W7 m ρ c (Proc.devRef .tc main_arg6) = m ((c : Thread nD τ).loc main_arg6) :=
  (W7_track m ρ c main_arg6 (by decide)).trans (W1_main_arg6 m ρ c)
theorem W8_main_arg6 (c : Dev nD) : W8 m ρ c (Proc.devRef .tc main_arg6) = m ((c : Thread nD τ).loc main_arg6) :=
  (W8_track m ρ c main_arg6 (by decide)).trans (W1_main_arg6 m ρ c)
theorem W9_main_arg6 (c : Dev nD) : W9 m ρ c (Proc.devRef .tc main_arg6) = m ((c : Thread nD τ).loc main_arg6) :=
  (W9_track m ρ c main_arg6 (by decide)).trans (W1_main_arg6 m ρ c)
theorem W10_main_arg6 (c : Dev nD) : W10 m ρ c (Proc.devRef .tc main_arg6) = m ((c : Thread nD τ).loc main_arg6) :=
  (W10_track m ρ c main_arg6 (by decide)).trans (W1_main_arg6 m ρ c)
theorem W11_main_arg6 (c : Dev nD) : W11 m ρ c (Proc.devRef .tc main_arg6) = m ((c : Thread nD τ).loc main_arg6) :=
  (W11_track m ρ c main_arg6 (by decide)).trans (W1_main_arg6 m ρ c)
theorem W12_main_arg6 (c : Dev nD) : W12 m ρ c (Proc.devRef .tc main_arg6) = m ((c : Thread nD τ).loc main_arg6) :=
  (W12_track m ρ c main_arg6 (by decide)).trans (W1_main_arg6 m ρ c)
theorem W13_main_arg6 (c : Dev nD) : W13 m ρ c (Proc.devRef .tc main_arg6) = m ((c : Thread nD τ).loc main_arg6) :=
  (W13_track m ρ c main_arg6 (by decide)).trans (W1_main_arg6 m ρ c)
theorem W14_main_arg6 (c : Dev nD) : W14 m ρ c (Proc.devRef .tc main_arg6) = m ((c : Thread nD τ).loc main_arg6) :=
  (W14_track m ρ c main_arg6 (by decide)).trans (W1_main_arg6 m ρ c)
theorem W15_main_arg6 (c : Dev nD) : W15 m ρ c (Proc.devRef .tc main_arg6) = m ((c : Thread nD τ).loc main_arg6) :=
  (W15_track m ρ c main_arg6 (by decide)).trans (W1_main_arg6 m ρ c)
theorem W16_main_arg6 (c : Dev nD) : W16 m ρ c (Proc.devRef .tc main_arg6) = m ((c : Thread nD τ).loc main_arg6) :=
  (W16_track m ρ c main_arg6 (by decide)).trans (W1_main_arg6 m ρ c)
theorem W17_main_arg6 (c : Dev nD) : W17 m ρ c (Proc.devRef .tc main_arg6) = m ((c : Thread nD τ).loc main_arg6) :=
  (W17_track m ρ c main_arg6 (by decide)).trans (W1_main_arg6 m ρ c)
theorem W18_main_arg6 (c : Dev nD) : W18 m ρ c (Proc.devRef .tc main_arg6) = m ((c : Thread nD τ).loc main_arg6) :=
  (W18_track m ρ c main_arg6 (by decide)).trans (W1_main_arg6 m ρ c)
theorem W19_main_arg6 (c : Dev nD) : W19 m ρ c (Proc.devRef .tc main_arg6) = m ((c : Thread nD τ).loc main_arg6) :=
  (W19_track m ρ c main_arg6 (by decide)).trans (W1_main_arg6 m ρ c)
theorem W20_main_arg6 (c : Dev nD) : W20 m ρ c (Proc.devRef .tc main_arg6) = m ((c : Thread nD τ).loc main_arg6) :=
  (W20_track m ρ c main_arg6 (by decide)).trans (W1_main_arg6 m ρ c)
theorem W21_main_arg6 (c : Dev nD) : W21 m ρ c (Proc.devRef .tc main_arg6) = m ((c : Thread nD τ).loc main_arg6) :=
  (W21_track m ρ c main_arg6 (by decide)).trans (W1_main_arg6 m ρ c)
theorem W22_main_arg6 (c : Dev nD) : W22 m ρ c (Proc.devRef .tc main_arg6) = m ((c : Thread nD τ).loc main_arg6) :=
  (W22_track m ρ c main_arg6 (by decide)).trans (W1_main_arg6 m ρ c)
theorem W23_main_arg6 (c : Dev nD) : W23 m ρ c (Proc.devRef .tc main_arg6) = m ((c : Thread nD τ).loc main_arg6) :=
  (W23_track m ρ c main_arg6 (by decide)).trans (W1_main_arg6 m ρ c)
theorem W24_main_arg6 (c : Dev nD) : W24 m ρ c (Proc.devRef .tc main_arg6) = m ((c : Thread nD τ).loc main_arg6) :=
  (W24_track m ρ c main_arg6 (by decide)).trans (W1_main_arg6 m ρ c)
theorem W25_main_arg6 (c : Dev nD) : W25 m ρ c (Proc.devRef .tc main_arg6) = m ((c : Thread nD τ).loc main_arg6) :=
  (W25_track m ρ c main_arg6 (by decide)).trans (W1_main_arg6 m ρ c)
theorem W26_main_arg6 (c : Dev nD) : W26 m ρ c (Proc.devRef .tc main_arg6) = m ((c : Thread nD τ).loc main_arg6) :=
  (W26_track m ρ c main_arg6 (by decide)).trans (W1_main_arg6 m ρ c)
theorem W0_main_arg7 (c : Dev nD) : W0 m ρ c (Proc.devRef .tc main_arg7) = m ((c : Thread nD τ).loc main_arg7) := rfl
theorem W1_main_arg7 (c : Dev nD) : W1 m ρ c (Proc.devRef .tc main_arg7) = m ((c : Thread nD τ).loc main_arg7) :=
  (W1_args m ρ c main_arg7 (by decide)).trans (W0_main_arg7 m ρ c)
theorem W2_main_arg7 (c : Dev nD) : W2 m ρ c (Proc.devRef .tc main_arg7) = m ((c : Thread nD τ).loc main_arg7) :=
  (W2_track m ρ c main_arg7 (by decide)).trans (W1_main_arg7 m ρ c)
theorem W3_main_arg7 (c : Dev nD) : W3 m ρ c (Proc.devRef .tc main_arg7) = m ((c : Thread nD τ).loc main_arg7) :=
  (W3_track m ρ c main_arg7 (by decide)).trans (W1_main_arg7 m ρ c)
theorem W4_main_arg7 (c : Dev nD) : W4 m ρ c (Proc.devRef .tc main_arg7) = m ((c : Thread nD τ).loc main_arg7) :=
  (W4_track m ρ c main_arg7 (by decide)).trans (W1_main_arg7 m ρ c)
theorem W5_main_arg7 (c : Dev nD) : W5 m ρ c (Proc.devRef .tc main_arg7) = m ((c : Thread nD τ).loc main_arg7) :=
  (W5_track m ρ c main_arg7 (by decide)).trans (W1_main_arg7 m ρ c)
theorem W6_main_arg7 (c : Dev nD) : W6 m ρ c (Proc.devRef .tc main_arg7) = m ((c : Thread nD τ).loc main_arg7) :=
  (W6_track m ρ c main_arg7 (by decide)).trans (W1_main_arg7 m ρ c)
theorem W7_main_arg7 (c : Dev nD) : W7 m ρ c (Proc.devRef .tc main_arg7) = m ((c : Thread nD τ).loc main_arg7) :=
  (W7_track m ρ c main_arg7 (by decide)).trans (W1_main_arg7 m ρ c)
theorem W8_main_arg7 (c : Dev nD) : W8 m ρ c (Proc.devRef .tc main_arg7) = m ((c : Thread nD τ).loc main_arg7) :=
  (W8_track m ρ c main_arg7 (by decide)).trans (W1_main_arg7 m ρ c)
theorem W9_main_arg7 (c : Dev nD) : W9 m ρ c (Proc.devRef .tc main_arg7) = m ((c : Thread nD τ).loc main_arg7) :=
  (W9_track m ρ c main_arg7 (by decide)).trans (W1_main_arg7 m ρ c)
theorem W10_main_arg7 (c : Dev nD) : W10 m ρ c (Proc.devRef .tc main_arg7) = m ((c : Thread nD τ).loc main_arg7) :=
  (W10_track m ρ c main_arg7 (by decide)).trans (W1_main_arg7 m ρ c)
theorem W11_main_arg7 (c : Dev nD) : W11 m ρ c (Proc.devRef .tc main_arg7) = m ((c : Thread nD τ).loc main_arg7) :=
  (W11_track m ρ c main_arg7 (by decide)).trans (W1_main_arg7 m ρ c)
theorem W12_main_arg7 (c : Dev nD) : W12 m ρ c (Proc.devRef .tc main_arg7) = m ((c : Thread nD τ).loc main_arg7) :=
  (W12_track m ρ c main_arg7 (by decide)).trans (W1_main_arg7 m ρ c)
theorem W13_main_arg7 (c : Dev nD) : W13 m ρ c (Proc.devRef .tc main_arg7) = m ((c : Thread nD τ).loc main_arg7) :=
  (W13_track m ρ c main_arg7 (by decide)).trans (W1_main_arg7 m ρ c)
theorem W14_main_arg7 (c : Dev nD) : W14 m ρ c (Proc.devRef .tc main_arg7) = m ((c : Thread nD τ).loc main_arg7) :=
  (W14_track m ρ c main_arg7 (by decide)).trans (W1_main_arg7 m ρ c)
theorem W15_main_arg7 (c : Dev nD) : W15 m ρ c (Proc.devRef .tc main_arg7) = m ((c : Thread nD τ).loc main_arg7) :=
  (W15_track m ρ c main_arg7 (by decide)).trans (W1_main_arg7 m ρ c)
theorem W16_main_arg7 (c : Dev nD) : W16 m ρ c (Proc.devRef .tc main_arg7) = m ((c : Thread nD τ).loc main_arg7) :=
  (W16_track m ρ c main_arg7 (by decide)).trans (W1_main_arg7 m ρ c)
theorem W17_main_arg7 (c : Dev nD) : W17 m ρ c (Proc.devRef .tc main_arg7) = m ((c : Thread nD τ).loc main_arg7) :=
  (W17_track m ρ c main_arg7 (by decide)).trans (W1_main_arg7 m ρ c)
theorem W18_main_arg7 (c : Dev nD) : W18 m ρ c (Proc.devRef .tc main_arg7) = m ((c : Thread nD τ).loc main_arg7) :=
  (W18_track m ρ c main_arg7 (by decide)).trans (W1_main_arg7 m ρ c)
theorem W19_main_arg7 (c : Dev nD) : W19 m ρ c (Proc.devRef .tc main_arg7) = m ((c : Thread nD τ).loc main_arg7) :=
  (W19_track m ρ c main_arg7 (by decide)).trans (W1_main_arg7 m ρ c)
theorem W20_main_arg7 (c : Dev nD) : W20 m ρ c (Proc.devRef .tc main_arg7) = m ((c : Thread nD τ).loc main_arg7) :=
  (W20_track m ρ c main_arg7 (by decide)).trans (W1_main_arg7 m ρ c)
theorem W21_main_arg7 (c : Dev nD) : W21 m ρ c (Proc.devRef .tc main_arg7) = m ((c : Thread nD τ).loc main_arg7) :=
  (W21_track m ρ c main_arg7 (by decide)).trans (W1_main_arg7 m ρ c)
theorem W22_main_arg7 (c : Dev nD) : W22 m ρ c (Proc.devRef .tc main_arg7) = m ((c : Thread nD τ).loc main_arg7) :=
  (W22_track m ρ c main_arg7 (by decide)).trans (W1_main_arg7 m ρ c)
theorem W23_main_arg7 (c : Dev nD) : W23 m ρ c (Proc.devRef .tc main_arg7) = m ((c : Thread nD τ).loc main_arg7) :=
  (W23_track m ρ c main_arg7 (by decide)).trans (W1_main_arg7 m ρ c)
theorem W24_main_arg7 (c : Dev nD) : W24 m ρ c (Proc.devRef .tc main_arg7) = m ((c : Thread nD τ).loc main_arg7) :=
  (W24_track m ρ c main_arg7 (by decide)).trans (W1_main_arg7 m ρ c)
theorem W25_main_arg7 (c : Dev nD) : W25 m ρ c (Proc.devRef .tc main_arg7) = m ((c : Thread nD τ).loc main_arg7) :=
  (W25_track m ρ c main_arg7 (by decide)).trans (W1_main_arg7 m ρ c)
theorem W26_main_arg7 (c : Dev nD) : W26 m ρ c (Proc.devRef .tc main_arg7) = m ((c : Thread nD τ).loc main_arg7) :=
  (W26_track m ρ c main_arg7 (by decide)).trans (W1_main_arg7 m ρ c)
theorem W0_main_arg8 (c : Dev nD) : W0 m ρ c (Proc.devRef .tc main_arg8) = m ((c : Thread nD τ).loc main_arg8) := rfl
theorem W1_main_arg8 (c : Dev nD) : W1 m ρ c (Proc.devRef .tc main_arg8) = m ((c : Thread nD τ).loc main_arg8) :=
  (W1_args m ρ c main_arg8 (by decide)).trans (W0_main_arg8 m ρ c)
theorem W2_main_arg8 (c : Dev nD) : W2 m ρ c (Proc.devRef .tc main_arg8) = m ((c : Thread nD τ).loc main_arg8) :=
  (W2_track m ρ c main_arg8 (by decide)).trans (W1_main_arg8 m ρ c)
theorem W3_main_arg8 (c : Dev nD) : W3 m ρ c (Proc.devRef .tc main_arg8) = m ((c : Thread nD τ).loc main_arg8) :=
  (W3_track m ρ c main_arg8 (by decide)).trans (W1_main_arg8 m ρ c)
theorem W4_main_arg8 (c : Dev nD) : W4 m ρ c (Proc.devRef .tc main_arg8) = m ((c : Thread nD τ).loc main_arg8) :=
  (W4_track m ρ c main_arg8 (by decide)).trans (W1_main_arg8 m ρ c)
theorem W5_main_arg8 (c : Dev nD) : W5 m ρ c (Proc.devRef .tc main_arg8) = m ((c : Thread nD τ).loc main_arg8) :=
  (W5_track m ρ c main_arg8 (by decide)).trans (W1_main_arg8 m ρ c)
theorem W6_main_arg8 (c : Dev nD) : W6 m ρ c (Proc.devRef .tc main_arg8) = m ((c : Thread nD τ).loc main_arg8) :=
  (W6_track m ρ c main_arg8 (by decide)).trans (W1_main_arg8 m ρ c)
theorem W7_main_arg8 (c : Dev nD) : W7 m ρ c (Proc.devRef .tc main_arg8) = m ((c : Thread nD τ).loc main_arg8) :=
  (W7_track m ρ c main_arg8 (by decide)).trans (W1_main_arg8 m ρ c)
theorem W8_main_arg8 (c : Dev nD) : W8 m ρ c (Proc.devRef .tc main_arg8) = m ((c : Thread nD τ).loc main_arg8) :=
  (W8_track m ρ c main_arg8 (by decide)).trans (W1_main_arg8 m ρ c)
theorem W9_main_arg8 (c : Dev nD) : W9 m ρ c (Proc.devRef .tc main_arg8) = m ((c : Thread nD τ).loc main_arg8) :=
  (W9_track m ρ c main_arg8 (by decide)).trans (W1_main_arg8 m ρ c)
theorem W10_main_arg8 (c : Dev nD) : W10 m ρ c (Proc.devRef .tc main_arg8) = m ((c : Thread nD τ).loc main_arg8) :=
  (W10_track m ρ c main_arg8 (by decide)).trans (W1_main_arg8 m ρ c)
theorem W11_main_arg8 (c : Dev nD) : W11 m ρ c (Proc.devRef .tc main_arg8) = m ((c : Thread nD τ).loc main_arg8) :=
  (W11_track m ρ c main_arg8 (by decide)).trans (W1_main_arg8 m ρ c)
theorem W12_main_arg8 (c : Dev nD) : W12 m ρ c (Proc.devRef .tc main_arg8) = m ((c : Thread nD τ).loc main_arg8) :=
  (W12_track m ρ c main_arg8 (by decide)).trans (W1_main_arg8 m ρ c)
theorem W13_main_arg8 (c : Dev nD) : W13 m ρ c (Proc.devRef .tc main_arg8) = m ((c : Thread nD τ).loc main_arg8) :=
  (W13_track m ρ c main_arg8 (by decide)).trans (W1_main_arg8 m ρ c)
theorem W14_main_arg8 (c : Dev nD) : W14 m ρ c (Proc.devRef .tc main_arg8) = m ((c : Thread nD τ).loc main_arg8) :=
  (W14_track m ρ c main_arg8 (by decide)).trans (W1_main_arg8 m ρ c)
theorem W15_main_arg8 (c : Dev nD) : W15 m ρ c (Proc.devRef .tc main_arg8) = m ((c : Thread nD τ).loc main_arg8) :=
  (W15_track m ρ c main_arg8 (by decide)).trans (W1_main_arg8 m ρ c)
theorem W16_main_arg8 (c : Dev nD) : W16 m ρ c (Proc.devRef .tc main_arg8) = m ((c : Thread nD τ).loc main_arg8) :=
  (W16_track m ρ c main_arg8 (by decide)).trans (W1_main_arg8 m ρ c)
theorem W17_main_arg8 (c : Dev nD) : W17 m ρ c (Proc.devRef .tc main_arg8) = m ((c : Thread nD τ).loc main_arg8) :=
  (W17_track m ρ c main_arg8 (by decide)).trans (W1_main_arg8 m ρ c)
theorem W18_main_arg8 (c : Dev nD) : W18 m ρ c (Proc.devRef .tc main_arg8) = m ((c : Thread nD τ).loc main_arg8) :=
  (W18_track m ρ c main_arg8 (by decide)).trans (W1_main_arg8 m ρ c)
theorem W19_main_arg8 (c : Dev nD) : W19 m ρ c (Proc.devRef .tc main_arg8) = m ((c : Thread nD τ).loc main_arg8) :=
  (W19_track m ρ c main_arg8 (by decide)).trans (W1_main_arg8 m ρ c)
theorem W20_main_arg8 (c : Dev nD) : W20 m ρ c (Proc.devRef .tc main_arg8) = m ((c : Thread nD τ).loc main_arg8) :=
  (W20_track m ρ c main_arg8 (by decide)).trans (W1_main_arg8 m ρ c)
theorem W21_main_arg8 (c : Dev nD) : W21 m ρ c (Proc.devRef .tc main_arg8) = m ((c : Thread nD τ).loc main_arg8) :=
  (W21_track m ρ c main_arg8 (by decide)).trans (W1_main_arg8 m ρ c)
theorem W22_main_arg8 (c : Dev nD) : W22 m ρ c (Proc.devRef .tc main_arg8) = m ((c : Thread nD τ).loc main_arg8) :=
  (W22_track m ρ c main_arg8 (by decide)).trans (W1_main_arg8 m ρ c)
theorem W23_main_arg8 (c : Dev nD) : W23 m ρ c (Proc.devRef .tc main_arg8) = m ((c : Thread nD τ).loc main_arg8) :=
  (W23_track m ρ c main_arg8 (by decide)).trans (W1_main_arg8 m ρ c)
theorem W24_main_arg8 (c : Dev nD) : W24 m ρ c (Proc.devRef .tc main_arg8) = m ((c : Thread nD τ).loc main_arg8) :=
  (W24_track m ρ c main_arg8 (by decide)).trans (W1_main_arg8 m ρ c)
theorem W25_main_arg8 (c : Dev nD) : W25 m ρ c (Proc.devRef .tc main_arg8) = m ((c : Thread nD τ).loc main_arg8) :=
  (W25_track m ρ c main_arg8 (by decide)).trans (W1_main_arg8 m ρ c)
theorem W26_main_arg8 (c : Dev nD) : W26 m ρ c (Proc.devRef .tc main_arg8) = m ((c : Thread nD τ).loc main_arg8) :=
  (W26_track m ρ c main_arg8 (by decide)).trans (W1_main_arg8 m ρ c)
theorem W0_main_arg9 (c : Dev nD) : W0 m ρ c (Proc.devRef .tc main_arg9) = m ((c : Thread nD τ).loc main_arg9) := rfl
theorem W1_main_arg9 (c : Dev nD) : W1 m ρ c (Proc.devRef .tc main_arg9) = m ((c : Thread nD τ).loc main_arg9) :=
  (W1_args m ρ c main_arg9 (by decide)).trans (W0_main_arg9 m ρ c)
theorem W2_main_arg9 (c : Dev nD) : W2 m ρ c (Proc.devRef .tc main_arg9) = m ((c : Thread nD τ).loc main_arg9) :=
  (W2_track m ρ c main_arg9 (by decide)).trans (W1_main_arg9 m ρ c)
theorem W3_main_arg9 (c : Dev nD) : W3 m ρ c (Proc.devRef .tc main_arg9) = m ((c : Thread nD τ).loc main_arg9) :=
  (W3_track m ρ c main_arg9 (by decide)).trans (W1_main_arg9 m ρ c)
theorem W4_main_arg9 (c : Dev nD) : W4 m ρ c (Proc.devRef .tc main_arg9) = m ((c : Thread nD τ).loc main_arg9) :=
  (W4_track m ρ c main_arg9 (by decide)).trans (W1_main_arg9 m ρ c)
theorem W5_main_arg9 (c : Dev nD) : W5 m ρ c (Proc.devRef .tc main_arg9) = m ((c : Thread nD τ).loc main_arg9) :=
  (W5_track m ρ c main_arg9 (by decide)).trans (W1_main_arg9 m ρ c)
theorem W6_main_arg9 (c : Dev nD) : W6 m ρ c (Proc.devRef .tc main_arg9) = m ((c : Thread nD τ).loc main_arg9) :=
  (W6_track m ρ c main_arg9 (by decide)).trans (W1_main_arg9 m ρ c)
theorem W7_main_arg9 (c : Dev nD) : W7 m ρ c (Proc.devRef .tc main_arg9) = m ((c : Thread nD τ).loc main_arg9) :=
  (W7_track m ρ c main_arg9 (by decide)).trans (W1_main_arg9 m ρ c)
theorem W8_main_arg9 (c : Dev nD) : W8 m ρ c (Proc.devRef .tc main_arg9) = m ((c : Thread nD τ).loc main_arg9) :=
  (W8_track m ρ c main_arg9 (by decide)).trans (W1_main_arg9 m ρ c)
theorem W9_main_arg9 (c : Dev nD) : W9 m ρ c (Proc.devRef .tc main_arg9) = m ((c : Thread nD τ).loc main_arg9) :=
  (W9_track m ρ c main_arg9 (by decide)).trans (W1_main_arg9 m ρ c)
theorem W10_main_arg9 (c : Dev nD) : W10 m ρ c (Proc.devRef .tc main_arg9) = m ((c : Thread nD τ).loc main_arg9) :=
  (W10_track m ρ c main_arg9 (by decide)).trans (W1_main_arg9 m ρ c)
theorem W11_main_arg9 (c : Dev nD) : W11 m ρ c (Proc.devRef .tc main_arg9) = m ((c : Thread nD τ).loc main_arg9) :=
  (W11_track m ρ c main_arg9 (by decide)).trans (W1_main_arg9 m ρ c)
theorem W12_main_arg9 (c : Dev nD) : W12 m ρ c (Proc.devRef .tc main_arg9) = m ((c : Thread nD τ).loc main_arg9) :=
  (W12_track m ρ c main_arg9 (by decide)).trans (W1_main_arg9 m ρ c)
theorem W13_main_arg9 (c : Dev nD) : W13 m ρ c (Proc.devRef .tc main_arg9) = m ((c : Thread nD τ).loc main_arg9) :=
  (W13_track m ρ c main_arg9 (by decide)).trans (W1_main_arg9 m ρ c)
theorem W14_main_arg9 (c : Dev nD) : W14 m ρ c (Proc.devRef .tc main_arg9) = m ((c : Thread nD τ).loc main_arg9) :=
  (W14_track m ρ c main_arg9 (by decide)).trans (W1_main_arg9 m ρ c)
theorem W15_main_arg9 (c : Dev nD) : W15 m ρ c (Proc.devRef .tc main_arg9) = m ((c : Thread nD τ).loc main_arg9) :=
  (W15_track m ρ c main_arg9 (by decide)).trans (W1_main_arg9 m ρ c)
theorem W16_main_arg9 (c : Dev nD) : W16 m ρ c (Proc.devRef .tc main_arg9) = m ((c : Thread nD τ).loc main_arg9) :=
  (W16_track m ρ c main_arg9 (by decide)).trans (W1_main_arg9 m ρ c)
theorem W17_main_arg9 (c : Dev nD) : W17 m ρ c (Proc.devRef .tc main_arg9) = m ((c : Thread nD τ).loc main_arg9) :=
  (W17_track m ρ c main_arg9 (by decide)).trans (W1_main_arg9 m ρ c)
theorem W18_main_arg9 (c : Dev nD) : W18 m ρ c (Proc.devRef .tc main_arg9) = m ((c : Thread nD τ).loc main_arg9) :=
  (W18_track m ρ c main_arg9 (by decide)).trans (W1_main_arg9 m ρ c)
theorem W19_main_arg9 (c : Dev nD) : W19 m ρ c (Proc.devRef .tc main_arg9) = m ((c : Thread nD τ).loc main_arg9) :=
  (W19_track m ρ c main_arg9 (by decide)).trans (W1_main_arg9 m ρ c)
theorem W20_main_arg9 (c : Dev nD) : W20 m ρ c (Proc.devRef .tc main_arg9) = m ((c : Thread nD τ).loc main_arg9) :=
  (W20_track m ρ c main_arg9 (by decide)).trans (W1_main_arg9 m ρ c)
theorem W21_main_arg9 (c : Dev nD) : W21 m ρ c (Proc.devRef .tc main_arg9) = m ((c : Thread nD τ).loc main_arg9) :=
  (W21_track m ρ c main_arg9 (by decide)).trans (W1_main_arg9 m ρ c)
theorem W22_main_arg9 (c : Dev nD) : W22 m ρ c (Proc.devRef .tc main_arg9) = m ((c : Thread nD τ).loc main_arg9) :=
  (W22_track m ρ c main_arg9 (by decide)).trans (W1_main_arg9 m ρ c)
theorem W23_main_arg9 (c : Dev nD) : W23 m ρ c (Proc.devRef .tc main_arg9) = m ((c : Thread nD τ).loc main_arg9) :=
  (W23_track m ρ c main_arg9 (by decide)).trans (W1_main_arg9 m ρ c)
theorem W24_main_arg9 (c : Dev nD) : W24 m ρ c (Proc.devRef .tc main_arg9) = m ((c : Thread nD τ).loc main_arg9) :=
  (W24_track m ρ c main_arg9 (by decide)).trans (W1_main_arg9 m ρ c)
theorem W25_main_arg9 (c : Dev nD) : W25 m ρ c (Proc.devRef .tc main_arg9) = m ((c : Thread nD τ).loc main_arg9) :=
  (W25_track m ρ c main_arg9 (by decide)).trans (W1_main_arg9 m ρ c)
theorem W26_main_arg9 (c : Dev nD) : W26 m ρ c (Proc.devRef .tc main_arg9) = m ((c : Thread nD τ).loc main_arg9) :=
  (W26_track m ρ c main_arg9 (by decide)).trans (W1_main_arg9 m ρ c)
theorem W0_main_arg10 (c : Dev nD) : W0 m ρ c (Proc.devRef .tc main_arg10) = m ((c : Thread nD τ).loc main_arg10) := rfl
theorem W1_main_arg10 (c : Dev nD) : W1 m ρ c (Proc.devRef .tc main_arg10) = m ((c : Thread nD τ).loc main_arg10) :=
  (W1_args m ρ c main_arg10 (by decide)).trans (W0_main_arg10 m ρ c)
theorem W2_main_arg10 (c : Dev nD) : W2 m ρ c (Proc.devRef .tc main_arg10) = m ((c : Thread nD τ).loc main_arg10) :=
  (W2_track m ρ c main_arg10 (by decide)).trans (W1_main_arg10 m ρ c)
theorem W3_main_arg10 (c : Dev nD) : W3 m ρ c (Proc.devRef .tc main_arg10) = m ((c : Thread nD τ).loc main_arg10) :=
  (W3_track m ρ c main_arg10 (by decide)).trans (W1_main_arg10 m ρ c)
theorem W4_main_arg10 (c : Dev nD) : W4 m ρ c (Proc.devRef .tc main_arg10) = m ((c : Thread nD τ).loc main_arg10) :=
  (W4_track m ρ c main_arg10 (by decide)).trans (W1_main_arg10 m ρ c)
theorem W5_main_arg10 (c : Dev nD) : W5 m ρ c (Proc.devRef .tc main_arg10) = m ((c : Thread nD τ).loc main_arg10) :=
  (W5_track m ρ c main_arg10 (by decide)).trans (W1_main_arg10 m ρ c)
theorem W6_main_arg10 (c : Dev nD) : W6 m ρ c (Proc.devRef .tc main_arg10) = m ((c : Thread nD τ).loc main_arg10) :=
  (W6_track m ρ c main_arg10 (by decide)).trans (W1_main_arg10 m ρ c)
theorem W7_main_arg10 (c : Dev nD) : W7 m ρ c (Proc.devRef .tc main_arg10) = m ((c : Thread nD τ).loc main_arg10) :=
  (W7_track m ρ c main_arg10 (by decide)).trans (W1_main_arg10 m ρ c)
theorem W8_main_arg10 (c : Dev nD) : W8 m ρ c (Proc.devRef .tc main_arg10) = m ((c : Thread nD τ).loc main_arg10) :=
  (W8_track m ρ c main_arg10 (by decide)).trans (W1_main_arg10 m ρ c)
theorem W9_main_arg10 (c : Dev nD) : W9 m ρ c (Proc.devRef .tc main_arg10) = m ((c : Thread nD τ).loc main_arg10) :=
  (W9_track m ρ c main_arg10 (by decide)).trans (W1_main_arg10 m ρ c)
theorem W10_main_arg10 (c : Dev nD) : W10 m ρ c (Proc.devRef .tc main_arg10) = m ((c : Thread nD τ).loc main_arg10) :=
  (W10_track m ρ c main_arg10 (by decide)).trans (W1_main_arg10 m ρ c)
theorem W11_main_arg10 (c : Dev nD) : W11 m ρ c (Proc.devRef .tc main_arg10) = m ((c : Thread nD τ).loc main_arg10) :=
  (W11_track m ρ c main_arg10 (by decide)).trans (W1_main_arg10 m ρ c)
theorem W12_main_arg10 (c : Dev nD) : W12 m ρ c (Proc.devRef .tc main_arg10) = m ((c : Thread nD τ).loc main_arg10) :=
  (W12_track m ρ c main_arg10 (by decide)).trans (W1_main_arg10 m ρ c)
theorem W13_main_arg10 (c : Dev nD) : W13 m ρ c (Proc.devRef .tc main_arg10) = m ((c : Thread nD τ).loc main_arg10) :=
  (W13_track m ρ c main_arg10 (by decide)).trans (W1_main_arg10 m ρ c)
theorem W14_main_arg10 (c : Dev nD) : W14 m ρ c (Proc.devRef .tc main_arg10) = m ((c : Thread nD τ).loc main_arg10) :=
  (W14_track m ρ c main_arg10 (by decide)).trans (W1_main_arg10 m ρ c)
theorem W15_main_arg10 (c : Dev nD) : W15 m ρ c (Proc.devRef .tc main_arg10) = m ((c : Thread nD τ).loc main_arg10) :=
  (W15_track m ρ c main_arg10 (by decide)).trans (W1_main_arg10 m ρ c)
theorem W16_main_arg10 (c : Dev nD) : W16 m ρ c (Proc.devRef .tc main_arg10) = m ((c : Thread nD τ).loc main_arg10) :=
  (W16_track m ρ c main_arg10 (by decide)).trans (W1_main_arg10 m ρ c)
theorem W17_main_arg10 (c : Dev nD) : W17 m ρ c (Proc.devRef .tc main_arg10) = m ((c : Thread nD τ).loc main_arg10) :=
  (W17_track m ρ c main_arg10 (by decide)).trans (W1_main_arg10 m ρ c)
theorem W18_main_arg10 (c : Dev nD) : W18 m ρ c (Proc.devRef .tc main_arg10) = m ((c : Thread nD τ).loc main_arg10) :=
  (W18_track m ρ c main_arg10 (by decide)).trans (W1_main_arg10 m ρ c)
theorem W19_main_arg10 (c : Dev nD) : W19 m ρ c (Proc.devRef .tc main_arg10) = m ((c : Thread nD τ).loc main_arg10) :=
  (W19_track m ρ c main_arg10 (by decide)).trans (W1_main_arg10 m ρ c)
theorem W20_main_arg10 (c : Dev nD) : W20 m ρ c (Proc.devRef .tc main_arg10) = m ((c : Thread nD τ).loc main_arg10) :=
  (W20_track m ρ c main_arg10 (by decide)).trans (W1_main_arg10 m ρ c)
theorem W21_main_arg10 (c : Dev nD) : W21 m ρ c (Proc.devRef .tc main_arg10) = m ((c : Thread nD τ).loc main_arg10) :=
  (W21_track m ρ c main_arg10 (by decide)).trans (W1_main_arg10 m ρ c)
theorem W22_main_arg10 (c : Dev nD) : W22 m ρ c (Proc.devRef .tc main_arg10) = m ((c : Thread nD τ).loc main_arg10) :=
  (W22_track m ρ c main_arg10 (by decide)).trans (W1_main_arg10 m ρ c)
theorem W23_main_arg10 (c : Dev nD) : W23 m ρ c (Proc.devRef .tc main_arg10) = m ((c : Thread nD τ).loc main_arg10) :=
  (W23_track m ρ c main_arg10 (by decide)).trans (W1_main_arg10 m ρ c)
theorem W24_main_arg10 (c : Dev nD) : W24 m ρ c (Proc.devRef .tc main_arg10) = m ((c : Thread nD τ).loc main_arg10) :=
  (W24_track m ρ c main_arg10 (by decide)).trans (W1_main_arg10 m ρ c)
theorem W25_main_arg10 (c : Dev nD) : W25 m ρ c (Proc.devRef .tc main_arg10) = m ((c : Thread nD τ).loc main_arg10) :=
  (W25_track m ρ c main_arg10 (by decide)).trans (W1_main_arg10 m ρ c)
theorem W26_main_arg10 (c : Dev nD) : W26 m ρ c (Proc.devRef .tc main_arg10) = m ((c : Thread nD τ).loc main_arg10) :=
  (W26_track m ρ c main_arg10 (by decide)).trans (W1_main_arg10 m ρ c)
theorem W0_main_arg11 (c : Dev nD) : W0 m ρ c (Proc.devRef .tc main_arg11) = m ((c : Thread nD τ).loc main_arg11) := rfl
theorem W1_main_arg11 (c : Dev nD) : W1 m ρ c (Proc.devRef .tc main_arg11) = m ((c : Thread nD τ).loc main_arg11) :=
  (W1_args m ρ c main_arg11 (by decide)).trans (W0_main_arg11 m ρ c)
theorem W2_main_arg11 (c : Dev nD) : W2 m ρ c (Proc.devRef .tc main_arg11) = m ((c : Thread nD τ).loc main_arg11) :=
  (W2_track m ρ c main_arg11 (by decide)).trans (W1_main_arg11 m ρ c)
theorem W3_main_arg11 (c : Dev nD) : W3 m ρ c (Proc.devRef .tc main_arg11) = m ((c : Thread nD τ).loc main_arg11) :=
  (W3_track m ρ c main_arg11 (by decide)).trans (W1_main_arg11 m ρ c)
theorem W4_main_arg11 (c : Dev nD) : W4 m ρ c (Proc.devRef .tc main_arg11) = m ((c : Thread nD τ).loc main_arg11) :=
  (W4_track m ρ c main_arg11 (by decide)).trans (W1_main_arg11 m ρ c)
theorem W5_main_arg11 (c : Dev nD) : W5 m ρ c (Proc.devRef .tc main_arg11) = m ((c : Thread nD τ).loc main_arg11) :=
  (W5_track m ρ c main_arg11 (by decide)).trans (W1_main_arg11 m ρ c)
theorem W6_main_arg11 (c : Dev nD) : W6 m ρ c (Proc.devRef .tc main_arg11) = m ((c : Thread nD τ).loc main_arg11) :=
  (W6_track m ρ c main_arg11 (by decide)).trans (W1_main_arg11 m ρ c)
theorem W7_main_arg11 (c : Dev nD) : W7 m ρ c (Proc.devRef .tc main_arg11) = m ((c : Thread nD τ).loc main_arg11) :=
  (W7_track m ρ c main_arg11 (by decide)).trans (W1_main_arg11 m ρ c)
theorem W8_main_arg11 (c : Dev nD) : W8 m ρ c (Proc.devRef .tc main_arg11) = m ((c : Thread nD τ).loc main_arg11) :=
  (W8_track m ρ c main_arg11 (by decide)).trans (W1_main_arg11 m ρ c)
theorem W9_main_arg11 (c : Dev nD) : W9 m ρ c (Proc.devRef .tc main_arg11) = m ((c : Thread nD τ).loc main_arg11) :=
  (W9_track m ρ c main_arg11 (by decide)).trans (W1_main_arg11 m ρ c)
theorem W10_main_arg11 (c : Dev nD) : W10 m ρ c (Proc.devRef .tc main_arg11) = m ((c : Thread nD τ).loc main_arg11) :=
  (W10_track m ρ c main_arg11 (by decide)).trans (W1_main_arg11 m ρ c)
theorem W11_main_arg11 (c : Dev nD) : W11 m ρ c (Proc.devRef .tc main_arg11) = m ((c : Thread nD τ).loc main_arg11) :=
  (W11_track m ρ c main_arg11 (by decide)).trans (W1_main_arg11 m ρ c)
theorem W12_main_arg11 (c : Dev nD) : W12 m ρ c (Proc.devRef .tc main_arg11) = m ((c : Thread nD τ).loc main_arg11) :=
  (W12_track m ρ c main_arg11 (by decide)).trans (W1_main_arg11 m ρ c)
theorem W13_main_arg11 (c : Dev nD) : W13 m ρ c (Proc.devRef .tc main_arg11) = m ((c : Thread nD τ).loc main_arg11) :=
  (W13_track m ρ c main_arg11 (by decide)).trans (W1_main_arg11 m ρ c)
theorem W14_main_arg11 (c : Dev nD) : W14 m ρ c (Proc.devRef .tc main_arg11) = m ((c : Thread nD τ).loc main_arg11) :=
  (W14_track m ρ c main_arg11 (by decide)).trans (W1_main_arg11 m ρ c)
theorem W15_main_arg11 (c : Dev nD) : W15 m ρ c (Proc.devRef .tc main_arg11) = m ((c : Thread nD τ).loc main_arg11) :=
  (W15_track m ρ c main_arg11 (by decide)).trans (W1_main_arg11 m ρ c)
theorem W16_main_arg11 (c : Dev nD) : W16 m ρ c (Proc.devRef .tc main_arg11) = m ((c : Thread nD τ).loc main_arg11) :=
  (W16_track m ρ c main_arg11 (by decide)).trans (W1_main_arg11 m ρ c)
theorem W17_main_arg11 (c : Dev nD) : W17 m ρ c (Proc.devRef .tc main_arg11) = m ((c : Thread nD τ).loc main_arg11) :=
  (W17_track m ρ c main_arg11 (by decide)).trans (W1_main_arg11 m ρ c)
theorem W18_main_arg11 (c : Dev nD) : W18 m ρ c (Proc.devRef .tc main_arg11) = m ((c : Thread nD τ).loc main_arg11) :=
  (W18_track m ρ c main_arg11 (by decide)).trans (W1_main_arg11 m ρ c)
theorem W19_main_arg11 (c : Dev nD) : W19 m ρ c (Proc.devRef .tc main_arg11) = m ((c : Thread nD τ).loc main_arg11) :=
  (W19_track m ρ c main_arg11 (by decide)).trans (W1_main_arg11 m ρ c)
theorem W20_main_arg11 (c : Dev nD) : W20 m ρ c (Proc.devRef .tc main_arg11) = m ((c : Thread nD τ).loc main_arg11) :=
  (W20_track m ρ c main_arg11 (by decide)).trans (W1_main_arg11 m ρ c)
theorem W21_main_arg11 (c : Dev nD) : W21 m ρ c (Proc.devRef .tc main_arg11) = m ((c : Thread nD τ).loc main_arg11) :=
  (W21_track m ρ c main_arg11 (by decide)).trans (W1_main_arg11 m ρ c)
theorem W22_main_arg11 (c : Dev nD) : W22 m ρ c (Proc.devRef .tc main_arg11) = m ((c : Thread nD τ).loc main_arg11) :=
  (W22_track m ρ c main_arg11 (by decide)).trans (W1_main_arg11 m ρ c)
theorem W23_main_arg11 (c : Dev nD) : W23 m ρ c (Proc.devRef .tc main_arg11) = m ((c : Thread nD τ).loc main_arg11) :=
  (W23_track m ρ c main_arg11 (by decide)).trans (W1_main_arg11 m ρ c)
theorem W24_main_arg11 (c : Dev nD) : W24 m ρ c (Proc.devRef .tc main_arg11) = m ((c : Thread nD τ).loc main_arg11) :=
  (W24_track m ρ c main_arg11 (by decide)).trans (W1_main_arg11 m ρ c)
theorem W25_main_arg11 (c : Dev nD) : W25 m ρ c (Proc.devRef .tc main_arg11) = m ((c : Thread nD τ).loc main_arg11) :=
  (W25_track m ρ c main_arg11 (by decide)).trans (W1_main_arg11 m ρ c)
theorem W26_main_arg11 (c : Dev nD) : W26 m ρ c (Proc.devRef .tc main_arg11) = m ((c : Thread nD τ).loc main_arg11) :=
  (W26_track m ρ c main_arg11 (by decide)).trans (W1_main_arg11 m ρ c)
theorem W0_main_arg12 (c : Dev nD) : W0 m ρ c (Proc.devRef .tc main_arg12) = m ((c : Thread nD τ).loc main_arg12) := rfl
theorem W1_main_arg12 (c : Dev nD) : W1 m ρ c (Proc.devRef .tc main_arg12) = m ((c : Thread nD τ).loc main_arg12) :=
  (W1_args m ρ c main_arg12 (by decide)).trans (W0_main_arg12 m ρ c)
theorem W2_main_arg12 (c : Dev nD) : W2 m ρ c (Proc.devRef .tc main_arg12) = m ((c : Thread nD τ).loc main_arg12) :=
  (W2_track m ρ c main_arg12 (by decide)).trans (W1_main_arg12 m ρ c)
theorem W3_main_arg12 (c : Dev nD) : W3 m ρ c (Proc.devRef .tc main_arg12) = m ((c : Thread nD τ).loc main_arg12) :=
  (W3_track m ρ c main_arg12 (by decide)).trans (W1_main_arg12 m ρ c)
theorem W4_main_arg12 (c : Dev nD) : W4 m ρ c (Proc.devRef .tc main_arg12) = m ((c : Thread nD τ).loc main_arg12) :=
  (W4_track m ρ c main_arg12 (by decide)).trans (W1_main_arg12 m ρ c)
theorem W5_main_arg12 (c : Dev nD) : W5 m ρ c (Proc.devRef .tc main_arg12) = m ((c : Thread nD τ).loc main_arg12) :=
  (W5_track m ρ c main_arg12 (by decide)).trans (W1_main_arg12 m ρ c)
theorem W6_main_arg12 (c : Dev nD) : W6 m ρ c (Proc.devRef .tc main_arg12) = m ((c : Thread nD τ).loc main_arg12) :=
  (W6_track m ρ c main_arg12 (by decide)).trans (W1_main_arg12 m ρ c)
theorem W7_main_arg12 (c : Dev nD) : W7 m ρ c (Proc.devRef .tc main_arg12) = m ((c : Thread nD τ).loc main_arg12) :=
  (W7_track m ρ c main_arg12 (by decide)).trans (W1_main_arg12 m ρ c)
theorem W8_main_arg12 (c : Dev nD) : W8 m ρ c (Proc.devRef .tc main_arg12) = m ((c : Thread nD τ).loc main_arg12) :=
  (W8_track m ρ c main_arg12 (by decide)).trans (W1_main_arg12 m ρ c)
theorem W9_main_arg12 (c : Dev nD) : W9 m ρ c (Proc.devRef .tc main_arg12) = m ((c : Thread nD τ).loc main_arg12) :=
  (W9_track m ρ c main_arg12 (by decide)).trans (W1_main_arg12 m ρ c)
theorem W10_main_arg12 (c : Dev nD) : W10 m ρ c (Proc.devRef .tc main_arg12) = m ((c : Thread nD τ).loc main_arg12) :=
  (W10_track m ρ c main_arg12 (by decide)).trans (W1_main_arg12 m ρ c)
theorem W11_main_arg12 (c : Dev nD) : W11 m ρ c (Proc.devRef .tc main_arg12) = m ((c : Thread nD τ).loc main_arg12) :=
  (W11_track m ρ c main_arg12 (by decide)).trans (W1_main_arg12 m ρ c)
theorem W12_main_arg12 (c : Dev nD) : W12 m ρ c (Proc.devRef .tc main_arg12) = m ((c : Thread nD τ).loc main_arg12) :=
  (W12_track m ρ c main_arg12 (by decide)).trans (W1_main_arg12 m ρ c)
theorem W13_main_arg12 (c : Dev nD) : W13 m ρ c (Proc.devRef .tc main_arg12) = m ((c : Thread nD τ).loc main_arg12) :=
  (W13_track m ρ c main_arg12 (by decide)).trans (W1_main_arg12 m ρ c)
theorem W14_main_arg12 (c : Dev nD) : W14 m ρ c (Proc.devRef .tc main_arg12) = m ((c : Thread nD τ).loc main_arg12) :=
  (W14_track m ρ c main_arg12 (by decide)).trans (W1_main_arg12 m ρ c)
theorem W15_main_arg12 (c : Dev nD) : W15 m ρ c (Proc.devRef .tc main_arg12) = m ((c : Thread nD τ).loc main_arg12) :=
  (W15_track m ρ c main_arg12 (by decide)).trans (W1_main_arg12 m ρ c)
theorem W16_main_arg12 (c : Dev nD) : W16 m ρ c (Proc.devRef .tc main_arg12) = m ((c : Thread nD τ).loc main_arg12) :=
  (W16_track m ρ c main_arg12 (by decide)).trans (W1_main_arg12 m ρ c)
theorem W17_main_arg12 (c : Dev nD) : W17 m ρ c (Proc.devRef .tc main_arg12) = m ((c : Thread nD τ).loc main_arg12) :=
  (W17_track m ρ c main_arg12 (by decide)).trans (W1_main_arg12 m ρ c)
theorem W18_main_arg12 (c : Dev nD) : W18 m ρ c (Proc.devRef .tc main_arg12) = m ((c : Thread nD τ).loc main_arg12) :=
  (W18_track m ρ c main_arg12 (by decide)).trans (W1_main_arg12 m ρ c)
theorem W19_main_arg12 (c : Dev nD) : W19 m ρ c (Proc.devRef .tc main_arg12) = m ((c : Thread nD τ).loc main_arg12) :=
  (W19_track m ρ c main_arg12 (by decide)).trans (W1_main_arg12 m ρ c)
theorem W20_main_arg12 (c : Dev nD) : W20 m ρ c (Proc.devRef .tc main_arg12) = m ((c : Thread nD τ).loc main_arg12) :=
  (W20_track m ρ c main_arg12 (by decide)).trans (W1_main_arg12 m ρ c)
theorem W21_main_arg12 (c : Dev nD) : W21 m ρ c (Proc.devRef .tc main_arg12) = m ((c : Thread nD τ).loc main_arg12) :=
  (W21_track m ρ c main_arg12 (by decide)).trans (W1_main_arg12 m ρ c)
theorem W22_main_arg12 (c : Dev nD) : W22 m ρ c (Proc.devRef .tc main_arg12) = m ((c : Thread nD τ).loc main_arg12) :=
  (W22_track m ρ c main_arg12 (by decide)).trans (W1_main_arg12 m ρ c)
theorem W23_main_arg12 (c : Dev nD) : W23 m ρ c (Proc.devRef .tc main_arg12) = m ((c : Thread nD τ).loc main_arg12) :=
  (W23_track m ρ c main_arg12 (by decide)).trans (W1_main_arg12 m ρ c)
theorem W24_main_arg12 (c : Dev nD) : W24 m ρ c (Proc.devRef .tc main_arg12) = m ((c : Thread nD τ).loc main_arg12) :=
  (W24_track m ρ c main_arg12 (by decide)).trans (W1_main_arg12 m ρ c)
theorem W25_main_arg12 (c : Dev nD) : W25 m ρ c (Proc.devRef .tc main_arg12) = m ((c : Thread nD τ).loc main_arg12) :=
  (W25_track m ρ c main_arg12 (by decide)).trans (W1_main_arg12 m ρ c)
theorem W26_main_arg12 (c : Dev nD) : W26 m ρ c (Proc.devRef .tc main_arg12) = m ((c : Thread nD τ).loc main_arg12) :=
  (W26_track m ρ c main_arg12 (by decide)).trans (W1_main_arg12 m ρ c)
theorem W0_main_arg13 (c : Dev nD) : W0 m ρ c (Proc.devRef .tc main_arg13) = m ((c : Thread nD τ).loc main_arg13) := rfl
theorem W1_main_arg13 (c : Dev nD) : W1 m ρ c (Proc.devRef .tc main_arg13) = m ((c : Thread nD τ).loc main_arg13) :=
  (W1_args m ρ c main_arg13 (by decide)).trans (W0_main_arg13 m ρ c)
theorem W2_main_arg13 (c : Dev nD) : W2 m ρ c (Proc.devRef .tc main_arg13) = m ((c : Thread nD τ).loc main_arg13) :=
  (W2_track m ρ c main_arg13 (by decide)).trans (W1_main_arg13 m ρ c)
theorem W3_main_arg13 (c : Dev nD) : W3 m ρ c (Proc.devRef .tc main_arg13) = m ((c : Thread nD τ).loc main_arg13) :=
  (W3_track m ρ c main_arg13 (by decide)).trans (W1_main_arg13 m ρ c)
theorem W4_main_arg13 (c : Dev nD) : W4 m ρ c (Proc.devRef .tc main_arg13) = m ((c : Thread nD τ).loc main_arg13) :=
  (W4_track m ρ c main_arg13 (by decide)).trans (W1_main_arg13 m ρ c)
theorem W5_main_arg13 (c : Dev nD) : W5 m ρ c (Proc.devRef .tc main_arg13) = m ((c : Thread nD τ).loc main_arg13) :=
  (W5_track m ρ c main_arg13 (by decide)).trans (W1_main_arg13 m ρ c)
theorem W6_main_arg13 (c : Dev nD) : W6 m ρ c (Proc.devRef .tc main_arg13) = m ((c : Thread nD τ).loc main_arg13) :=
  (W6_track m ρ c main_arg13 (by decide)).trans (W1_main_arg13 m ρ c)
theorem W7_main_arg13 (c : Dev nD) : W7 m ρ c (Proc.devRef .tc main_arg13) = m ((c : Thread nD τ).loc main_arg13) :=
  (W7_track m ρ c main_arg13 (by decide)).trans (W1_main_arg13 m ρ c)
theorem W8_main_arg13 (c : Dev nD) : W8 m ρ c (Proc.devRef .tc main_arg13) = m ((c : Thread nD τ).loc main_arg13) :=
  (W8_track m ρ c main_arg13 (by decide)).trans (W1_main_arg13 m ρ c)
theorem W9_main_arg13 (c : Dev nD) : W9 m ρ c (Proc.devRef .tc main_arg13) = m ((c : Thread nD τ).loc main_arg13) :=
  (W9_track m ρ c main_arg13 (by decide)).trans (W1_main_arg13 m ρ c)
theorem W10_main_arg13 (c : Dev nD) : W10 m ρ c (Proc.devRef .tc main_arg13) = m ((c : Thread nD τ).loc main_arg13) :=
  (W10_track m ρ c main_arg13 (by decide)).trans (W1_main_arg13 m ρ c)
theorem W11_main_arg13 (c : Dev nD) : W11 m ρ c (Proc.devRef .tc main_arg13) = m ((c : Thread nD τ).loc main_arg13) :=
  (W11_track m ρ c main_arg13 (by decide)).trans (W1_main_arg13 m ρ c)
theorem W12_main_arg13 (c : Dev nD) : W12 m ρ c (Proc.devRef .tc main_arg13) = m ((c : Thread nD τ).loc main_arg13) :=
  (W12_track m ρ c main_arg13 (by decide)).trans (W1_main_arg13 m ρ c)
theorem W13_main_arg13 (c : Dev nD) : W13 m ρ c (Proc.devRef .tc main_arg13) = m ((c : Thread nD τ).loc main_arg13) :=
  (W13_track m ρ c main_arg13 (by decide)).trans (W1_main_arg13 m ρ c)
theorem W14_main_arg13 (c : Dev nD) : W14 m ρ c (Proc.devRef .tc main_arg13) = m ((c : Thread nD τ).loc main_arg13) :=
  (W14_track m ρ c main_arg13 (by decide)).trans (W1_main_arg13 m ρ c)
theorem W15_main_arg13 (c : Dev nD) : W15 m ρ c (Proc.devRef .tc main_arg13) = m ((c : Thread nD τ).loc main_arg13) :=
  (W15_track m ρ c main_arg13 (by decide)).trans (W1_main_arg13 m ρ c)
theorem W16_main_arg13 (c : Dev nD) : W16 m ρ c (Proc.devRef .tc main_arg13) = m ((c : Thread nD τ).loc main_arg13) :=
  (W16_track m ρ c main_arg13 (by decide)).trans (W1_main_arg13 m ρ c)
theorem W17_main_arg13 (c : Dev nD) : W17 m ρ c (Proc.devRef .tc main_arg13) = m ((c : Thread nD τ).loc main_arg13) :=
  (W17_track m ρ c main_arg13 (by decide)).trans (W1_main_arg13 m ρ c)
theorem W18_main_arg13 (c : Dev nD) : W18 m ρ c (Proc.devRef .tc main_arg13) = m ((c : Thread nD τ).loc main_arg13) :=
  (W18_track m ρ c main_arg13 (by decide)).trans (W1_main_arg13 m ρ c)
theorem W19_main_arg13 (c : Dev nD) : W19 m ρ c (Proc.devRef .tc main_arg13) = m ((c : Thread nD τ).loc main_arg13) :=
  (W19_track m ρ c main_arg13 (by decide)).trans (W1_main_arg13 m ρ c)
theorem W20_main_arg13 (c : Dev nD) : W20 m ρ c (Proc.devRef .tc main_arg13) = m ((c : Thread nD τ).loc main_arg13) :=
  (W20_track m ρ c main_arg13 (by decide)).trans (W1_main_arg13 m ρ c)
theorem W21_main_arg13 (c : Dev nD) : W21 m ρ c (Proc.devRef .tc main_arg13) = m ((c : Thread nD τ).loc main_arg13) :=
  (W21_track m ρ c main_arg13 (by decide)).trans (W1_main_arg13 m ρ c)
theorem W22_main_arg13 (c : Dev nD) : W22 m ρ c (Proc.devRef .tc main_arg13) = m ((c : Thread nD τ).loc main_arg13) :=
  (W22_track m ρ c main_arg13 (by decide)).trans (W1_main_arg13 m ρ c)
theorem W23_main_arg13 (c : Dev nD) : W23 m ρ c (Proc.devRef .tc main_arg13) = m ((c : Thread nD τ).loc main_arg13) :=
  (W23_track m ρ c main_arg13 (by decide)).trans (W1_main_arg13 m ρ c)
theorem W24_main_arg13 (c : Dev nD) : W24 m ρ c (Proc.devRef .tc main_arg13) = m ((c : Thread nD τ).loc main_arg13) :=
  (W24_track m ρ c main_arg13 (by decide)).trans (W1_main_arg13 m ρ c)
theorem W25_main_arg13 (c : Dev nD) : W25 m ρ c (Proc.devRef .tc main_arg13) = m ((c : Thread nD τ).loc main_arg13) :=
  (W25_track m ρ c main_arg13 (by decide)).trans (W1_main_arg13 m ρ c)
theorem W26_main_arg13 (c : Dev nD) : W26 m ρ c (Proc.devRef .tc main_arg13) = m ((c : Thread nD τ).loc main_arg13) :=
  (W26_track m ρ c main_arg13 (by decide)).trans (W1_main_arg13 m ρ c)
theorem W0_main_arg14 (c : Dev nD) : W0 m ρ c (Proc.devRef .tc main_arg14) = m ((c : Thread nD τ).loc main_arg14) := rfl
theorem W1_main_arg14 (c : Dev nD) : W1 m ρ c (Proc.devRef .tc main_arg14) = m ((c : Thread nD τ).loc main_arg14) :=
  (W1_args m ρ c main_arg14 (by decide)).trans (W0_main_arg14 m ρ c)
theorem W2_main_arg14 (c : Dev nD) : W2 m ρ c (Proc.devRef .tc main_arg14) = m ((c : Thread nD τ).loc main_arg14) :=
  (W2_track m ρ c main_arg14 (by decide)).trans (W1_main_arg14 m ρ c)
theorem W3_main_arg14 (c : Dev nD) : W3 m ρ c (Proc.devRef .tc main_arg14) = m ((c : Thread nD τ).loc main_arg14) :=
  (W3_track m ρ c main_arg14 (by decide)).trans (W1_main_arg14 m ρ c)
theorem W4_main_arg14 (c : Dev nD) : W4 m ρ c (Proc.devRef .tc main_arg14) = m ((c : Thread nD τ).loc main_arg14) :=
  (W4_track m ρ c main_arg14 (by decide)).trans (W1_main_arg14 m ρ c)
theorem W5_main_arg14 (c : Dev nD) : W5 m ρ c (Proc.devRef .tc main_arg14) = m ((c : Thread nD τ).loc main_arg14) :=
  (W5_track m ρ c main_arg14 (by decide)).trans (W1_main_arg14 m ρ c)
theorem W6_main_arg14 (c : Dev nD) : W6 m ρ c (Proc.devRef .tc main_arg14) = m ((c : Thread nD τ).loc main_arg14) :=
  (W6_track m ρ c main_arg14 (by decide)).trans (W1_main_arg14 m ρ c)
theorem W7_main_arg14 (c : Dev nD) : W7 m ρ c (Proc.devRef .tc main_arg14) = m ((c : Thread nD τ).loc main_arg14) :=
  (W7_track m ρ c main_arg14 (by decide)).trans (W1_main_arg14 m ρ c)
theorem W8_main_arg14 (c : Dev nD) : W8 m ρ c (Proc.devRef .tc main_arg14) = m ((c : Thread nD τ).loc main_arg14) :=
  (W8_track m ρ c main_arg14 (by decide)).trans (W1_main_arg14 m ρ c)
theorem W9_main_arg14 (c : Dev nD) : W9 m ρ c (Proc.devRef .tc main_arg14) = m ((c : Thread nD τ).loc main_arg14) :=
  (W9_track m ρ c main_arg14 (by decide)).trans (W1_main_arg14 m ρ c)
theorem W10_main_arg14 (c : Dev nD) : W10 m ρ c (Proc.devRef .tc main_arg14) = m ((c : Thread nD τ).loc main_arg14) :=
  (W10_track m ρ c main_arg14 (by decide)).trans (W1_main_arg14 m ρ c)
theorem W11_main_arg14 (c : Dev nD) : W11 m ρ c (Proc.devRef .tc main_arg14) = m ((c : Thread nD τ).loc main_arg14) :=
  (W11_track m ρ c main_arg14 (by decide)).trans (W1_main_arg14 m ρ c)
theorem W12_main_arg14 (c : Dev nD) : W12 m ρ c (Proc.devRef .tc main_arg14) = m ((c : Thread nD τ).loc main_arg14) :=
  (W12_track m ρ c main_arg14 (by decide)).trans (W1_main_arg14 m ρ c)
theorem W13_main_arg14 (c : Dev nD) : W13 m ρ c (Proc.devRef .tc main_arg14) = m ((c : Thread nD τ).loc main_arg14) :=
  (W13_track m ρ c main_arg14 (by decide)).trans (W1_main_arg14 m ρ c)
theorem W14_main_arg14 (c : Dev nD) : W14 m ρ c (Proc.devRef .tc main_arg14) = m ((c : Thread nD τ).loc main_arg14) :=
  (W14_track m ρ c main_arg14 (by decide)).trans (W1_main_arg14 m ρ c)
theorem W15_main_arg14 (c : Dev nD) : W15 m ρ c (Proc.devRef .tc main_arg14) = m ((c : Thread nD τ).loc main_arg14) :=
  (W15_track m ρ c main_arg14 (by decide)).trans (W1_main_arg14 m ρ c)
theorem W16_main_arg14 (c : Dev nD) : W16 m ρ c (Proc.devRef .tc main_arg14) = m ((c : Thread nD τ).loc main_arg14) :=
  (W16_track m ρ c main_arg14 (by decide)).trans (W1_main_arg14 m ρ c)
theorem W17_main_arg14 (c : Dev nD) : W17 m ρ c (Proc.devRef .tc main_arg14) = m ((c : Thread nD τ).loc main_arg14) :=
  (W17_track m ρ c main_arg14 (by decide)).trans (W1_main_arg14 m ρ c)
theorem W18_main_arg14 (c : Dev nD) : W18 m ρ c (Proc.devRef .tc main_arg14) = m ((c : Thread nD τ).loc main_arg14) :=
  (W18_track m ρ c main_arg14 (by decide)).trans (W1_main_arg14 m ρ c)
theorem W19_main_arg14 (c : Dev nD) : W19 m ρ c (Proc.devRef .tc main_arg14) = m ((c : Thread nD τ).loc main_arg14) :=
  (W19_track m ρ c main_arg14 (by decide)).trans (W1_main_arg14 m ρ c)
theorem W20_main_arg14 (c : Dev nD) : W20 m ρ c (Proc.devRef .tc main_arg14) = m ((c : Thread nD τ).loc main_arg14) :=
  (W20_track m ρ c main_arg14 (by decide)).trans (W1_main_arg14 m ρ c)
theorem W21_main_arg14 (c : Dev nD) : W21 m ρ c (Proc.devRef .tc main_arg14) = m ((c : Thread nD τ).loc main_arg14) :=
  (W21_track m ρ c main_arg14 (by decide)).trans (W1_main_arg14 m ρ c)
theorem W22_main_arg14 (c : Dev nD) : W22 m ρ c (Proc.devRef .tc main_arg14) = m ((c : Thread nD τ).loc main_arg14) :=
  (W22_track m ρ c main_arg14 (by decide)).trans (W1_main_arg14 m ρ c)
theorem W23_main_arg14 (c : Dev nD) : W23 m ρ c (Proc.devRef .tc main_arg14) = m ((c : Thread nD τ).loc main_arg14) :=
  (W23_track m ρ c main_arg14 (by decide)).trans (W1_main_arg14 m ρ c)
theorem W24_main_arg14 (c : Dev nD) : W24 m ρ c (Proc.devRef .tc main_arg14) = m ((c : Thread nD τ).loc main_arg14) :=
  (W24_track m ρ c main_arg14 (by decide)).trans (W1_main_arg14 m ρ c)
theorem W25_main_arg14 (c : Dev nD) : W25 m ρ c (Proc.devRef .tc main_arg14) = m ((c : Thread nD τ).loc main_arg14) :=
  (W25_track m ρ c main_arg14 (by decide)).trans (W1_main_arg14 m ρ c)
theorem W26_main_arg14 (c : Dev nD) : W26 m ρ c (Proc.devRef .tc main_arg14) = m ((c : Thread nD τ).loc main_arg14) :=
  (W26_track m ρ c main_arg14 (by decide)).trans (W1_main_arg14 m ρ c)

end Cert.KernelIdeal.HostSide

end
-- ==== Proof.KAsmInit.lean ====
/-
  The first region of the kernel program: the affine map of the input by the transposed first weight matrix, plus the first
  bias along every row. Read as a matrix its result is the affine map of the input matrix by the weight matrix read
  transposed and the bias read as a row — what the reference's first stage computes.
-/
import proofs.«119304_j10247791968545_2_alg».proof.Proof.Gen.KernelIdeal.Frame
import proofs.«119304_j10247791968545_2_alg».proof.Proof.KRegion0
import proofs.«119304_j10247791968545_2_alg».proof.Proof.KHost0
import proofs.«119304_j10247791968545_2_alg».proof.Proof.KKeep
import proofs.«119304_j10247791968545_2_alg».proof.Proof.KArgs
import proofs.«119304_j10247791968545_2_alg».proof.Proof.KLayer
import proofs.«119304_j10247791968545_2_alg».proof.Proof.KParams

set_option maxRecDepth 16384

noncomputable section

namespace Cert.KernelIdeal.AsmInit

open Idealize.ShloMosaic Idealize.ShloMosaic.TcCoe Idealize.SL.Sem Idealize.ShloMosaic.ValueIdx
open Cert.KernelIdeal Cert.KernelIdeal.Gen Cert.KernelIdeal.HostSide Cert.KernelIdeal.RegionValue
open Cert.KernelIdeal.LayerOf Cert.Gin.Layer Cert.Gin.Bridge Cert.Gin.Params
open Cert.ReferenceIdeal.HandRun Cert.ReferenceIdeal.Idx

variable (m : (ℓ : Loc nD τ sig) → Buf (Elt Ideal) ℓ) (ρ : Dev nD → PrngReg)

/-- The first region's array, as a matrix. -/
theorem init_eq (c : Dev nD) :
    mat (W2 m ρ c (Proc.devRef .tc main_v6))
      = lin (mat (m ((c : Thread nD τ).loc main_arg0))) (matT (m ((c : Thread nD τ).loc main_arg3)))
          (vec (m ((c : Thread nD τ).loc main_arg4))) := by
  have h : (W2 m ρ c (Proc.devRef .tc main_v6) : FVec Ideal S100000x128 .f32)
      = linG (W1 m ρ c (Proc.devRef .tc main_arg0)) (W1 m ρ c (Proc.devRef .tc main_v4)) (W1 m ρ c (Proc.devRef .tc main_v5)) := by
    show W2 m ρ c (Proc.devRef .tc (Pipeline.arrRef spec0 3)) = _
    rw [W2_arr, final0_3 (V1 m ρ) c]
  rw [h, mat_linG, W1_main_arg0, W1_main_v4, W1_main_v5]
  have eW : matW (transpose S128x128 [1, 0] (W0 m ρ c (Proc.devRef .tc main_arg3)) transposes_S128x128_S128x128_1_0)
      = matT (m ((c : Thread nD τ).loc main_arg3)) := matW_transpose _ _
  have eb : rowOf (shapeCast S1x128 (W0 m ρ c (Proc.devRef .tc main_arg4)) shapeCasts_S128_S1x128)
      = vec (m ((c : Thread nD τ).loc main_arg4)) := rowOf_shapeCast _ _
  rw [eW, eb]

end Cert.KernelIdeal.AsmInit

end
-- ==== Proof.KRegion1.lean ====
/-
  Region 1 of the kernel program (a layer's first affine map, of the features plus the aggregated neighbours, with the per-block column sums of the result and of its square): each output array after the region as a function of the arrays the
  region finds, entry by entry. The grid has ten points; point t reads rows t·10000 … t·10000 + 9999 of each
  100000×128 input, all of each small input, and writes the same rows of each 100000×128 output and entry (t, 0, ·) of
  each 10×1×128 output. What a point writes is the body's arithmetic of its blocks, which is the matching block of one
  function of the whole arrays; the points' blocks cover each output array, so the array ends at that function.
-/
import proofs.«119304_j10247791968545_2_alg».proof.Proof.Gen.KernelIdeal.Frame
import proofs.«119304_j10247791968545_2_alg».proof.Proof.KPay
import Idealize.ShloMosaic.Lib.Pipeline.Value

set_option maxRecDepth 16384

noncomputable section

namespace Cert.KernelIdeal.RegionValue

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-! ## The arrays the region finds, under their literal types -/

/-- Input window 0's array as the region finds it. -/
abbrev a1_0 (c : Dev nD) : FVec Ideal S100000x128 .f32 := V c (Pipeline.arrRef spec1 0)
/-- Input window 1's array as the region finds it. -/
abbrev a1_1 (c : Dev nD) : FVec Ideal S100000x128 .f32 := V c (Pipeline.arrRef spec1 1)
/-- Input window 2's array as the region finds it. -/
abbrev a1_2 (c : Dev nD) : FVec Ideal S128x128 .f32 := V c (Pipeline.arrRef spec1 2)
/-- Input window 3's array as the region finds it. -/
abbrev a1_3 (c : Dev nD) : FVec Ideal S1x128 .f32 := V c (Pipeline.arrRef spec1 3)

/-! ## Where the block index maps send a grid point -/

theorem idx1_0 : ∀ t : Fin cfg1.N, win1_0.index t (0 : Fin 2) = t.val ∧ win1_0.index t (1 : Fin 2) = 0 :=
  (by decide +kernel : ∀ t : Fin grid1.N, _)
theorem idx1_1 : ∀ t : Fin cfg1.N, win1_1.index t (0 : Fin 2) = t.val ∧ win1_1.index t (1 : Fin 2) = 0 :=
  (by decide +kernel : ∀ t : Fin grid1.N, _)
theorem idx1_2 : ∀ t : Fin cfg1.N, win1_2.index t (0 : Fin 2) = 0 ∧ win1_2.index t (1 : Fin 2) = 0 :=
  (by decide +kernel : ∀ t : Fin grid1.N, _)
theorem idx1_3 : ∀ t : Fin cfg1.N, win1_3.index t (0 : Fin 2) = 0 ∧ win1_3.index t (1 : Fin 2) = 0 :=
  (by decide +kernel : ∀ t : Fin grid1.N, _)
theorem idx1_4 : ∀ t : Fin cfg1.N, win1_4.index t (0 : Fin 2) = t.val ∧ win1_4.index t (1 : Fin 2) = 0 :=
  (by decide +kernel : ∀ t : Fin grid1.N, _)
theorem idx1_5 : ∀ t : Fin cfg1.N, win1_5.index t (0 : Fin 3) = t.val ∧ win1_5.index t (1 : Fin 3) = 0 ∧ win1_5.index t (2 : Fin 3) = 0 :=
  (by decide +kernel : ∀ t : Fin grid1.N, _)
theorem idx1_6 : ∀ t : Fin cfg1.N, win1_6.index t (0 : Fin 3) = t.val ∧ win1_6.index t (1 : Fin 3) = 0 ∧ win1_6.index t (2 : Fin 3) = 0 :=
  (by decide +kernel : ∀ t : Fin grid1.N, _)

/-! ## The input windows' blocks, read off the arrays -/

/-- Point t's block of input window 0 is rows t·10000 … of the window's array. -/
theorem blk1_0 (c : Dev nD) (t : Fin cfg1.N) : IsBlock t.val (iblk1 V c 0 t) (a1_0 V c) := by
  intro j i hji
  obtain ⟨e0, e1⟩ := idx1_0 t
  have h0 := hji.1
  have h1 := hji.2
  show (a1_0 V c) (((cfg1.win 0).blk t).view.emb j) = (a1_0 V c) i
  refine congrArg (a1_0 V c) (funext fun a => Fin.ext ?_)
  match a with
  | ⟨0, _⟩ => show win1_0.index t (0 : Fin 2) * 10000 + 1 * (j 0).val = (i 0).val; rw [e0]; omega
  | ⟨1, _⟩ => show win1_0.index t (1 : Fin 2) * 128 + 1 * (j 1).val = (i 1).val; rw [e1]; omega

/-- Point t's block of input window 1 is rows t·10000 … of the window's array. -/
theorem blk1_1 (c : Dev nD) (t : Fin cfg1.N) : IsBlock t.val (iblk1 V c 1 t) (a1_1 V c) := by
  intro j i hji
  obtain ⟨e0, e1⟩ := idx1_1 t
  have h0 := hji.1
  have h1 := hji.2
  show (a1_1 V c) (((cfg1.win 1).blk t).view.emb j) = (a1_1 V c) i
  refine congrArg (a1_1 V c) (funext fun a => Fin.ext ?_)
  match a with
  | ⟨0, _⟩ => show win1_1.index t (0 : Fin 2) * 10000 + 1 * (j 0).val = (i 0).val; rw [e0]; omega
  | ⟨1, _⟩ => show win1_1.index t (1 : Fin 2) * 128 + 1 * (j 1).val = (i 1).val; rw [e1]; omega

/-- Input window 2's block at every point is its whole array. -/
theorem whole1_2 (c : Dev nD) (t : Fin cfg1.N) : iblk1 V c 2 t = (a1_2 V c) := by
  funext y
  obtain ⟨e0, e1⟩ := idx1_2 t
  show (a1_2 V c) (((cfg1.win 2).blk t).view.emb y) = (a1_2 V c) y
  refine congrArg (a1_2 V c) (funext fun a => Fin.ext ?_)
  match a with
  | ⟨0, _⟩ => show win1_2.index t (0 : Fin 2) * 128 + 1 * (y 0).val = (y 0).val; rw [e0]; omega
  | ⟨1, _⟩ => show win1_2.index t (1 : Fin 2) * 128 + 1 * (y 1).val = (y 1).val; rw [e1]; omega

/-- Input window 3's block at every point is its whole array. -/
theorem whole1_3 (c : Dev nD) (t : Fin cfg1.N) : iblk1 V c 3 t = (a1_3 V c) := by
  funext y
  obtain ⟨e0, e1⟩ := idx1_3 t
  show (a1_3 V c) (((cfg1.win 3).blk t).view.emb y) = (a1_3 V c) y
  refine congrArg (a1_3 V c) (funext fun a => Fin.ext ?_)
  match a with
  | ⟨0, _⟩ => show win1_3.index t (0 : Fin 2) * 1 + 1 * (y 0).val = (y 0).val; rw [e0]; omega
  | ⟨1, _⟩ => show win1_3.index t (1 : Fin 2) * 128 + 1 * (y 1).val = (y 1).val; rw [e1]; omega

/-! ## The body's stores, over arbitrary blocks: a block of rows of the array it was read from, the small blocks equal to
    their arrays -/

theorem k1_pay1_block (v0 v2 : Vec Ideal S10000x128 .f32) (v5 : Vec Ideal S128x128 .f32) (v8 : Vec Ideal S1x128 .f32)
    (X0 X1 : FVec Ideal S100000x128 .f32) (W : FVec Ideal S128x128 .f32) (B : FVec Ideal S1x128 .f32) (T : Nat)
    (h0 : IsBlock T v0 X0) (h1 : IsBlock T v2 X1) (e5 : v5 = W) (e8 : v8 = B) :
    IsBlock T (k1_pay1 v0 v2 v5 v8) (linG (addG X0 X1) W B) := by
  subst e5 e8
  unfold k1_pay1
  exact lin_block _ v5 v8 _ T (add_block v0 v2 X0 X1 T h0 h1 _) _ _ _

theorem k1_pay2_block (v0 v2 : Vec Ideal S10000x128 .f32) (v5 : Vec Ideal S128x128 .f32) (v8 : Vec Ideal S1x128 .f32)
    (X0 X1 : FVec Ideal S100000x128 .f32) (W : FVec Ideal S128x128 .f32) (B : FVec Ideal S1x128 .f32) (T : Nat)
    (h0 : IsBlock T v0 X0) (h1 : IsBlock T v2 X1) (e5 : v5 = W) (e8 : v8 = B)
    (j : S1x1x128.Idx) (i : S10x1x128.Idx) (hi0 : (i 0).val = T) (hi2 : (i 2).val = (j 2).val) :
    k1_pay2 v0 v2 v5 v8 j = sumG (linG (addG X0 X1) W B) i := by
  unfold k1_pay2
  exact colsum_block _ _ T (k1_pay1_block v0 v2 v5 v8 X0 X1 W B T h0 h1 e5 e8) _ _ _ _ _ j i hi0 hi2

theorem k1_pay3_block (v0 v2 : Vec Ideal S10000x128 .f32) (v5 : Vec Ideal S128x128 .f32) (v8 : Vec Ideal S1x128 .f32)
    (X0 X1 : FVec Ideal S100000x128 .f32) (W : FVec Ideal S128x128 .f32) (B : FVec Ideal S1x128 .f32) (T : Nat)
    (h0 : IsBlock T v0 X0) (h1 : IsBlock T v2 X1) (e5 : v5 = W) (e8 : v8 = B)
    (j : S1x1x128.Idx) (i : S10x1x128.Idx) (hi0 : (i 0).val = T) (hi2 : (i 2).val = (j 2).val) :
    k1_pay3 v0 v2 v5 v8 j = sumG (sqG (linG (addG X0 X1) W B)) i := by
  unfold k1_pay3
  exact colsum_block _ _ T (sq_block _ _ T (k1_pay1_block v0 v2 v5 v8 X0 X1 W B T h0 h1 e5 e8)) _ _ _ _ _ j i hi0 hi2

/-! ## The output windows: where a block sits, which points cover the array, what each point writes, the array after the region -/

theorem at1_4 (t : Fin cfg1.N) (j : S10000x128.Idx) : At t.val j (((cfg1.win 4).blk t).view.emb j) := by
  obtain ⟨e0, e1⟩ := idx1_4 t
  constructor
  · show win1_4.index t (0 : Fin 2) * 10000 + 1 * (j 0).val = _; rw [e0]; omega
  · show win1_4.index t (1 : Fin 2) * 128 + 1 * (j 1).val = _; rw [e1]; omega

theorem mem1_4 (t : Fin cfg1.N) (i : S100000x128.Idx) :
    i ∈ ((cfg1.win 4).blk t).view.set ↔ ∀ a : Fin 2, win1_4.index t a * S10000x128.size a ≤ (i a).val
      ∧ (i a).val < win1_4.index t a * S10000x128.size a + S10000x128.size a := by
  show i ∈ ((View.whole main_v23_0).slice (win1_4.rect t)).set ↔ _
  rw [View.set_slice_whole, Rect.mem_set_unit]
  exact Iff.rfl

/-- Row p is in the block of point p / 10000. -/
theorem cover1_4 (i : S100000x128.Idx) :
    ∃ t : Fin cfg1.N, (cfg1.win 4).flush t = true ∧ i ∈ ((cfg1.win 4).blk t).view.set := by
  have h0 : (i 0).val < 100000 := (i 0).isLt
  have h1 : (i 1).val < 128 := (i 1).isLt
  have hN : cfg1.N = 10 := N_1
  refine ⟨⟨(i 0).val / 10000, by rw [hN]; omega⟩, flush1_4 _, ?_⟩
  rw [mem1_4]
  obtain ⟨e0, e1⟩ := idx1_4 ⟨(i 0).val / 10000, by rw [hN]; omega⟩
  intro a
  match a with
  | ⟨0, _⟩ =>
    show win1_4.index _ (0 : Fin 2) * 10000 ≤ (i 0).val ∧ (i 0).val < win1_4.index _ (0 : Fin 2) * 10000 + 10000
    rw [e0]
    show (i 0).val / 10000 * 10000 ≤ (i 0).val ∧ (i 0).val < (i 0).val / 10000 * 10000 + 10000
    omega
  | ⟨1, _⟩ =>
    show win1_4.index _ (1 : Fin 2) * 128 ≤ (i 1).val ∧ (i 1).val < win1_4.index _ (1 : Fin 2) * 128 + 128
    rw [e1]
    omega

/-- What point t writes back to window 4's array is its block of the whole-array function. -/
theorem flushed1_4 (c : Dev nD) (t : Fin cfg1.N) :
    (dat1 V c).flushed 4 t = ((cfg1.win 4).blk t).view.read (Elt Ideal) (linG (addG (a1_0 V c) (a1_1 V c)) (a1_2 V c) (a1_3 V c)) := by
  show (cfg1.win 4).cut (grid1.coords t) ((dat1 V c).after 4 t) = _
  rw [after1_4]
  unfold out1_4
  rw [View.canon_unit_zero hz2]
  simp only [View.ld_unit_zero (S := S10000x128) hz2, View.ld_unit_zero (S := S128x128) hz2, View.ld_unit_zero (S := S1x128) hz2]
  funext j
  show k1_pay1 (iblk1 V c 0 t) (iblk1 V c 1 t) (iblk1 V c 2 t) (iblk1 V c 3 t) j = (linG (addG (a1_0 V c) (a1_1 V c)) (a1_2 V c) (a1_3 V c)) (((cfg1.win 4).blk t).view.emb j)
  exact k1_pay1_block (iblk1 V c 0 t) (iblk1 V c 1 t) (iblk1 V c 2 t) (iblk1 V c 3 t) (a1_0 V c) (a1_1 V c) (a1_2 V c) (a1_3 V c) t.val (blk1_0 V c t) (blk1_1 V c t) (whole1_2 V c t) (whole1_3 V c t) j (((cfg1.win 4).blk t).view.emb j) (at1_4 t j)

/-- Window 4's array after the region. -/
theorem arr1_4 (c : Dev nD) : (dat1 V c).arrAt 4 cfg1.N = linG (addG (a1_0 V c) (a1_1 V c)) (a1_2 V c) (a1_3 V c) :=
  (dat1 V c).arrAt_eq_of_cover 4 _ (fun t _ => flushed1_4 V c t) cover1_4

/-- The same, with the arrays spelt as the region's proof data spells them. -/
theorem final1_4 (c : Dev nD) : (dat1 V c).arrAt 4 cfg1.N = linG (addG (V c (Pipeline.arrRef spec1 0)) (V c (Pipeline.arrRef spec1 1))) (V c (Pipeline.arrRef spec1 2)) (V c (Pipeline.arrRef spec1 3)) :=
  arr1_4 V c

theorem at1_5 (t : Fin cfg1.N) (j : S1x1x128.Idx) :
    (((cfg1.win 5).blk t).view.emb j 0).val = t.val ∧ (((cfg1.win 5).blk t).view.emb j 2).val = (j 2).val := by
  obtain ⟨e0, e1, e2⟩ := idx1_5 t
  have h0 : (j 0).val < 1 := (j 0).isLt
  constructor
  · show win1_5.index t (0 : Fin 3) * 1 + 1 * (j 0).val = _; rw [e0]; omega
  · show win1_5.index t (2 : Fin 3) * 128 + 1 * (j 2).val = _; rw [e2]; omega

theorem mem1_5 (t : Fin cfg1.N) (i : S10x1x128.Idx) :
    i ∈ ((cfg1.win 5).blk t).view.set ↔ ∀ a : Fin 3, win1_5.index t a * S1x1x128.size a ≤ (i a).val
      ∧ (i a).val < win1_5.index t a * S1x1x128.size a + S1x1x128.size a := by
  show i ∈ ((View.whole main_v23_1).slice (win1_5.rect t)).set ↔ _
  rw [View.set_slice_whole, Rect.mem_set_unit]
  exact Iff.rfl

/-- Entry (b, 0, q) is in the block of point b. -/
theorem cover1_5 (i : S10x1x128.Idx) :
    ∃ t : Fin cfg1.N, (cfg1.win 5).flush t = true ∧ i ∈ ((cfg1.win 5).blk t).view.set := by
  have h0 : (i 0).val < 10 := (i 0).isLt
  have h1 : (i 1).val < 1 := (i 1).isLt
  have h2 : (i 2).val < 128 := (i 2).isLt
  have hN : cfg1.N = 10 := N_1
  refine ⟨⟨(i 0).val, by rw [hN]; omega⟩, flush1_5 _, ?_⟩
  rw [mem1_5]
  obtain ⟨e0, e1, e2⟩ := idx1_5 ⟨(i 0).val, by rw [hN]; omega⟩
  intro a
  match a with
  | ⟨0, _⟩ =>
    show win1_5.index _ (0 : Fin 3) * 1 ≤ (i 0).val ∧ (i 0).val < win1_5.index _ (0 : Fin 3) * 1 + 1
    rw [e0]
    show (i 0).val * 1 ≤ (i 0).val ∧ (i 0).val < (i 0).val * 1 + 1
    omega
  | ⟨1, _⟩ =>
    show win1_5.index _ (1 : Fin 3) * 1 ≤ (i 1).val ∧ (i 1).val < win1_5.index _ (1 : Fin 3) * 1 + 1
    rw [e1]
    omega
  | ⟨2, _⟩ =>
    show win1_5.index _ (2 : Fin 3) * 128 ≤ (i 2).val ∧ (i 2).val < win1_5.index _ (2 : Fin 3) * 128 + 128
    rw [e2]
    omega

/-- What point t writes back to window 5's array is its block of the whole-array function. -/
theorem flushed1_5 (c : Dev nD) (t : Fin cfg1.N) :
    (dat1 V c).flushed 5 t = ((cfg1.win 5).blk t).view.read (Elt Ideal) (sumG (linG (addG (a1_0 V c) (a1_1 V c)) (a1_2 V c) (a1_3 V c))) := by
  show (cfg1.win 5).cut (grid1.coords t) ((dat1 V c).after 5 t) = _
  rw [after1_5]
  unfold out1_5
  rw [View.canon_unit_zero hz3]
  simp only [View.ld_unit_zero (S := S10000x128) hz2, View.ld_unit_zero (S := S128x128) hz2, View.ld_unit_zero (S := S1x128) hz2]
  funext j
  show k1_pay2 (iblk1 V c 0 t) (iblk1 V c 1 t) (iblk1 V c 2 t) (iblk1 V c 3 t) j = (sumG (linG (addG (a1_0 V c) (a1_1 V c)) (a1_2 V c) (a1_3 V c))) (((cfg1.win 5).blk t).view.emb j)
  exact k1_pay2_block (iblk1 V c 0 t) (iblk1 V c 1 t) (iblk1 V c 2 t) (iblk1 V c 3 t) (a1_0 V c) (a1_1 V c) (a1_2 V c) (a1_3 V c) t.val (blk1_0 V c t) (blk1_1 V c t) (whole1_2 V c t) (whole1_3 V c t) j (((cfg1.win 5).blk t).view.emb j) (at1_5 t j).1 (at1_5 t j).2

/-- Window 5's array after the region. -/
theorem arr1_5 (c : Dev nD) : (dat1 V c).arrAt 5 cfg1.N = sumG (linG (addG (a1_0 V c) (a1_1 V c)) (a1_2 V c) (a1_3 V c)) :=
  (dat1 V c).arrAt_eq_of_cover 5 _ (fun t _ => flushed1_5 V c t) cover1_5

/-- The same, with the arrays spelt as the region's proof data spells them. -/
theorem final1_5 (c : Dev nD) : (dat1 V c).arrAt 5 cfg1.N = sumG (linG (addG (V c (Pipeline.arrRef spec1 0)) (V c (Pipeline.arrRef spec1 1))) (V c (Pipeline.arrRef spec1 2)) (V c (Pipeline.arrRef spec1 3))) :=
  arr1_5 V c

theorem at1_6 (t : Fin cfg1.N) (j : S1x1x128.Idx) :
    (((cfg1.win 6).blk t).view.emb j 0).val = t.val ∧ (((cfg1.win 6).blk t).view.emb j 2).val = (j 2).val := by
  obtain ⟨e0, e1, e2⟩ := idx1_6 t
  have h0 : (j 0).val < 1 := (j 0).isLt
  constructor
  · show win1_6.index t (0 : Fin 3) * 1 + 1 * (j 0).val = _; rw [e0]; omega
  · show win1_6.index t (2 : Fin 3) * 128 + 1 * (j 2).val = _; rw [e2]; omega

theorem mem1_6 (t : Fin cfg1.N) (i : S10x1x128.Idx) :
    i ∈ ((cfg1.win 6).blk t).view.set ↔ ∀ a : Fin 3, win1_6.index t a * S1x1x128.size a ≤ (i a).val
      ∧ (i a).val < win1_6.index t a * S1x1x128.size a + S1x1x128.size a := by
  show i ∈ ((View.whole main_v23_2).slice (win1_6.rect t)).set ↔ _
  rw [View.set_slice_whole, Rect.mem_set_unit]
  exact Iff.rfl

/-- Entry (b, 0, q) is in the block of point b. -/
theorem cover1_6 (i : S10x1x128.Idx) :
    ∃ t : Fin cfg1.N, (cfg1.win 6).flush t = true ∧ i ∈ ((cfg1.win 6).blk t).view.set := by
  have h0 : (i 0).val < 10 := (i 0).isLt
  have h1 : (i 1).val < 1 := (i 1).isLt
  have h2 : (i 2).val < 128 := (i 2).isLt
  have hN : cfg1.N = 10 := N_1
  refine ⟨⟨(i 0).val, by rw [hN]; omega⟩, flush1_6 _, ?_⟩
  rw [mem1_6]
  obtain ⟨e0, e1, e2⟩ := idx1_6 ⟨(i 0).val, by rw [hN]; omega⟩
  intro a
  match a with
  | ⟨0, _⟩ =>
    show win1_6.index _ (0 : Fin 3) * 1 ≤ (i 0).val ∧ (i 0).val < win1_6.index _ (0 : Fin 3) * 1 + 1
    rw [e0]
    show (i 0).val * 1 ≤ (i 0).val ∧ (i 0).val < (i 0).val * 1 + 1
    omega
  | ⟨1, _⟩ =>
    show win1_6.index _ (1 : Fin 3) * 1 ≤ (i 1).val ∧ (i 1).val < win1_6.index _ (1 : Fin 3) * 1 + 1
    rw [e1]
    omega
  | ⟨2, _⟩ =>
    show win1_6.index _ (2 : Fin 3) * 128 ≤ (i 2).val ∧ (i 2).val < win1_6.index _ (2 : Fin 3) * 128 + 128
    rw [e2]
    omega

/-- What point t writes back to window 6's array is its block of the whole-array function. -/
theorem flushed1_6 (c : Dev nD) (t : Fin cfg1.N) :
    (dat1 V c).flushed 6 t = ((cfg1.win 6).blk t).view.read (Elt Ideal) (sumG (sqG (linG (addG (a1_0 V c) (a1_1 V c)) (a1_2 V c) (a1_3 V c)))) := by
  show (cfg1.win 6).cut (grid1.coords t) ((dat1 V c).after 6 t) = _
  rw [after1_6]
  unfold out1_6
  rw [View.canon_unit_zero hz3]
  simp only [View.ld_unit_zero (S := S10000x128) hz2, View.ld_unit_zero (S := S128x128) hz2, View.ld_unit_zero (S := S1x128) hz2]
  funext j
  show k1_pay3 (iblk1 V c 0 t) (iblk1 V c 1 t) (iblk1 V c 2 t) (iblk1 V c 3 t) j = (sumG (sqG (linG (addG (a1_0 V c) (a1_1 V c)) (a1_2 V c) (a1_3 V c)))) (((cfg1.win 6).blk t).view.emb j)
  exact k1_pay3_block (iblk1 V c 0 t) (iblk1 V c 1 t) (iblk1 V c 2 t) (iblk1 V c 3 t) (a1_0 V c) (a1_1 V c) (a1_2 V c) (a1_3 V c) t.val (blk1_0 V c t) (blk1_1 V c t) (whole1_2 V c t) (whole1_3 V c t) j (((cfg1.win 6).blk t).view.emb j) (at1_6 t j).1 (at1_6 t j).2

/-- Window 6's array after the region. -/
theorem arr1_6 (c : Dev nD) : (dat1 V c).arrAt 6 cfg1.N = sumG (sqG (linG (addG (a1_0 V c) (a1_1 V c)) (a1_2 V c) (a1_3 V c))) :=
  (dat1 V c).arrAt_eq_of_cover 6 _ (fun t _ => flushed1_6 V c t) cover1_6

/-- The same, with the arrays spelt as the region's proof data spells them. -/
theorem final1_6 (c : Dev nD) : (dat1 V c).arrAt 6 cfg1.N = sumG (sqG (linG (addG (V c (Pipeline.arrRef spec1 0)) (V c (Pipeline.arrRef spec1 1))) (V c (Pipeline.arrRef spec1 2)) (V c (Pipeline.arrRef spec1 3)))) :=
  arr1_6 V c

end Cert.KernelIdeal.RegionValue

end
-- ==== Proof.KRegion2.lean ====
/-
  Region 2 of the kernel program (a layer's first normalisation and rectifier followed by its second affine map, with the per-block column sums of the result and of its square): each output array after the region as a function of the arrays the
  region finds, entry by entry. The grid has ten points; point t reads rows t·10000 … t·10000 + 9999 of each
  100000×128 input, all of each small input, and writes the same rows of each 100000×128 output and entry (t, 0, ·) of
  each 10×1×128 output. What a point writes is the body's arithmetic of its blocks, which is the matching block of one
  function of the whole arrays; the points' blocks cover each output array, so the array ends at that function.
-/
import proofs.«119304_j10247791968545_2_alg».proof.Proof.Gen.KernelIdeal.Frame
import proofs.«119304_j10247791968545_2_alg».proof.Proof.KPay
import Idealize.ShloMosaic.Lib.Pipeline.Value

set_option maxRecDepth 16384

noncomputable section

namespace Cert.KernelIdeal.RegionValue

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-! ## The arrays the region finds, under their literal types -/

/-- Input window 0's array as the region finds it. -/
abbrev a2_0 (c : Dev nD) : FVec Ideal S100000x128 .f32 := V c (Pipeline.arrRef spec2 0)
/-- Input window 1's array as the region finds it. -/
abbrev a2_1 (c : Dev nD) : FVec Ideal S1x128 .f32 := V c (Pipeline.arrRef spec2 1)
/-- Input window 2's array as the region finds it. -/
abbrev a2_2 (c : Dev nD) : FVec Ideal S1x128 .f32 := V c (Pipeline.arrRef spec2 2)
/-- Input window 3's array as the region finds it. -/
abbrev a2_3 (c : Dev nD) : FVec Ideal S1x128 .f32 := V c (Pipeline.arrRef spec2 3)
/-- Input window 4's array as the region finds it. -/
abbrev a2_4 (c : Dev nD) : FVec Ideal S1x128 .f32 := V c (Pipeline.arrRef spec2 4)
/-- Input window 5's array as the region finds it. -/
abbrev a2_5 (c : Dev nD) : FVec Ideal S128x128 .f32 := V c (Pipeline.arrRef spec2 5)
/-- Input window 6's array as the region finds it. -/
abbrev a2_6 (c : Dev nD) : FVec Ideal S1x128 .f32 := V c (Pipeline.arrRef spec2 6)

/-! ## Where the block index maps send a grid point -/

theorem idx2_0 : ∀ t : Fin cfg2.N, win2_0.index t (0 : Fin 2) = t.val ∧ win2_0.index t (1 : Fin 2) = 0 :=
  (by decide +kernel : ∀ t : Fin grid2.N, _)
theorem idx2_1 : ∀ t : Fin cfg2.N, win2_1.index t (0 : Fin 2) = 0 ∧ win2_1.index t (1 : Fin 2) = 0 :=
  (by decide +kernel : ∀ t : Fin grid2.N, _)
theorem idx2_2 : ∀ t : Fin cfg2.N, win2_2.index t (0 : Fin 2) = 0 ∧ win2_2.index t (1 : Fin 2) = 0 :=
  (by decide +kernel : ∀ t : Fin grid2.N, _)
theorem idx2_3 : ∀ t : Fin cfg2.N, win2_3.index t (0 : Fin 2) = 0 ∧ win2_3.index t (1 : Fin 2) = 0 :=
  (by decide +kernel : ∀ t : Fin grid2.N, _)
theorem idx2_4 : ∀ t : Fin cfg2.N, win2_4.index t (0 : Fin 2) = 0 ∧ win2_4.index t (1 : Fin 2) = 0 :=
  (by decide +kernel : ∀ t : Fin grid2.N, _)
theorem idx2_5 : ∀ t : Fin cfg2.N, win2_5.index t (0 : Fin 2) = 0 ∧ win2_5.index t (1 : Fin 2) = 0 :=
  (by decide +kernel : ∀ t : Fin grid2.N, _)
theorem idx2_6 : ∀ t : Fin cfg2.N, win2_6.index t (0 : Fin 2) = 0 ∧ win2_6.index t (1 : Fin 2) = 0 :=
  (by decide +kernel : ∀ t : Fin grid2.N, _)
theorem idx2_7 : ∀ t : Fin cfg2.N, win2_7.index t (0 : Fin 2) = t.val ∧ win2_7.index t (1 : Fin 2) = 0 :=
  (by decide +kernel : ∀ t : Fin grid2.N, _)
theorem idx2_8 : ∀ t : Fin cfg2.N, win2_8.index t (0 : Fin 3) = t.val ∧ win2_8.index t (1 : Fin 3) = 0 ∧ win2_8.index t (2 : Fin 3) = 0 :=
  (by decide +kernel : ∀ t : Fin grid2.N, _)
theorem idx2_9 : ∀ t : Fin cfg2.N, win2_9.index t (0 : Fin 3) = t.val ∧ win2_9.index t (1 : Fin 3) = 0 ∧ win2_9.index t (2 : Fin 3) = 0 :=
  (by decide +kernel : ∀ t : Fin grid2.N, _)

/-! ## The input windows' blocks, read off the arrays -/

/-- Point t's block of input window 0 is rows t·10000 … of the window's array. -/
theorem blk2_0 (c : Dev nD) (t : Fin cfg2.N) : IsBlock t.val (iblk2 V c 0 t) (a2_0 V c) := by
  intro j i hji
  obtain ⟨e0, e1⟩ := idx2_0 t
  have h0 := hji.1
  have h1 := hji.2
  show (a2_0 V c) (((cfg2.win 0).blk t).view.emb j) = (a2_0 V c) i
  refine congrArg (a2_0 V c) (funext fun a => Fin.ext ?_)
  match a with
  | ⟨0, _⟩ => show win2_0.index t (0 : Fin 2) * 10000 + 1 * (j 0).val = (i 0).val; rw [e0]; omega
  | ⟨1, _⟩ => show win2_0.index t (1 : Fin 2) * 128 + 1 * (j 1).val = (i 1).val; rw [e1]; omega

/-- Input window 1's block at every point is its whole array. -/
theorem whole2_1 (c : Dev nD) (t : Fin cfg2.N) : iblk2 V c 1 t = (a2_1 V c) := by
  funext y
  obtain ⟨e0, e1⟩ := idx2_1 t
  show (a2_1 V c) (((cfg2.win 1).blk t).view.emb y) = (a2_1 V c) y
  refine congrArg (a2_1 V c) (funext fun a => Fin.ext ?_)
  match a with
  | ⟨0, _⟩ => show win2_1.index t (0 : Fin 2) * 1 + 1 * (y 0).val = (y 0).val; rw [e0]; omega
  | ⟨1, _⟩ => show win2_1.index t (1 : Fin 2) * 128 + 1 * (y 1).val = (y 1).val; rw [e1]; omega

/-- Input window 2's block at every point is its whole array. -/
theorem whole2_2 (c : Dev nD) (t : Fin cfg2.N) : iblk2 V c 2 t = (a2_2 V c) := by
  funext y
  obtain ⟨e0, e1⟩ := idx2_2 t
  show (a2_2 V c) (((cfg2.win 2).blk t).view.emb y) = (a2_2 V c) y
  refine congrArg (a2_2 V c) (funext fun a => Fin.ext ?_)
  match a with
  | ⟨0, _⟩ => show win2_2.index t (0 : Fin 2) * 1 + 1 * (y 0).val = (y 0).val; rw [e0]; omega
  | ⟨1, _⟩ => show win2_2.index t (1 : Fin 2) * 128 + 1 * (y 1).val = (y 1).val; rw [e1]; omega

/-- Input window 3's block at every point is its whole array. -/
theorem whole2_3 (c : Dev nD) (t : Fin cfg2.N) : iblk2 V c 3 t = (a2_3 V c) := by
  funext y
  obtain ⟨e0, e1⟩ := idx2_3 t
  show (a2_3 V c) (((cfg2.win 3).blk t).view.emb y) = (a2_3 V c) y
  refine congrArg (a2_3 V c) (funext fun a => Fin.ext ?_)
  match a with
  | ⟨0, _⟩ => show win2_3.index t (0 : Fin 2) * 1 + 1 * (y 0).val = (y 0).val; rw [e0]; omega
  | ⟨1, _⟩ => show win2_3.index t (1 : Fin 2) * 128 + 1 * (y 1).val = (y 1).val; rw [e1]; omega

/-- Input window 4's block at every point is its whole array. -/
theorem whole2_4 (c : Dev nD) (t : Fin cfg2.N) : iblk2 V c 4 t = (a2_4 V c) := by
  funext y
  obtain ⟨e0, e1⟩ := idx2_4 t
  show (a2_4 V c) (((cfg2.win 4).blk t).view.emb y) = (a2_4 V c) y
  refine congrArg (a2_4 V c) (funext fun a => Fin.ext ?_)
  match a with
  | ⟨0, _⟩ => show win2_4.index t (0 : Fin 2) * 1 + 1 * (y 0).val = (y 0).val; rw [e0]; omega
  | ⟨1, _⟩ => show win2_4.index t (1 : Fin 2) * 128 + 1 * (y 1).val = (y 1).val; rw [e1]; omega

/-- Input window 5's block at every point is its whole array. -/
theorem whole2_5 (c : Dev nD) (t : Fin cfg2.N) : iblk2 V c 5 t = (a2_5 V c) := by
  funext y
  obtain ⟨e0, e1⟩ := idx2_5 t
  show (a2_5 V c) (((cfg2.win 5).blk t).view.emb y) = (a2_5 V c) y
  refine congrArg (a2_5 V c) (funext fun a => Fin.ext ?_)
  match a with
  | ⟨0, _⟩ => show win2_5.index t (0 : Fin 2) * 128 + 1 * (y 0).val = (y 0).val; rw [e0]; omega
  | ⟨1, _⟩ => show win2_5.index t (1 : Fin 2) * 128 + 1 * (y 1).val = (y 1).val; rw [e1]; omega

/-- Input window 6's block at every point is its whole array. -/
theorem whole2_6 (c : Dev nD) (t : Fin cfg2.N) : iblk2 V c 6 t = (a2_6 V c) := by
  funext y
  obtain ⟨e0, e1⟩ := idx2_6 t
  show (a2_6 V c) (((cfg2.win 6).blk t).view.emb y) = (a2_6 V c) y
  refine congrArg (a2_6 V c) (funext fun a => Fin.ext ?_)
  match a with
  | ⟨0, _⟩ => show win2_6.index t (0 : Fin 2) * 1 + 1 * (y 0).val = (y 0).val; rw [e0]; omega
  | ⟨1, _⟩ => show win2_6.index t (1 : Fin 2) * 128 + 1 * (y 1).val = (y 1).val; rw [e1]; omega

/-! ## The body's stores, over arbitrary blocks: a block of rows of the array it was read from, the small blocks equal to
    their arrays -/

theorem k2_pay2_block (v0 : Vec Ideal S10000x128 .f32) (v2 v7 v9 v17 : Vec Ideal S1x128 .f32) (v23 : Vec Ideal S128x128 .f32)
    (v26 : Vec Ideal S1x128 .f32) (Y : FVec Ideal S100000x128 .f32) (M Vr G Be : FVec Ideal S1x128 .f32)
    (W : FVec Ideal S128x128 .f32) (B : FVec Ideal S1x128 .f32) (T : Nat) (h0 : IsBlock T v0 Y)
    (e2 : v2 = Vr) (e7 : v7 = G) (e9 : v9 = M) (e17 : v17 = Be) (e23 : v23 = W) (e26 : v26 = B) :
    IsBlock T (k2_pay2 v0 v2 v7 v9 v17 v23 v26) (linG (bnG Y M Vr G Be) W B) := by
  subst e2 e7 e9 e17 e23 e26
  unfold k2_pay2
  exact lin_block _ v23 v26 _ T (bn_block v0 v2 v7 v9 v17 Y T h0 _ _ _) _ _ _

theorem k2_pay3_block (v0 : Vec Ideal S10000x128 .f32) (v2 v7 v9 v17 : Vec Ideal S1x128 .f32) (v23 : Vec Ideal S128x128 .f32)
    (v26 : Vec Ideal S1x128 .f32) (Y : FVec Ideal S100000x128 .f32) (M Vr G Be : FVec Ideal S1x128 .f32)
    (W : FVec Ideal S128x128 .f32) (B : FVec Ideal S1x128 .f32) (T : Nat) (h0 : IsBlock T v0 Y)
    (e2 : v2 = Vr) (e7 : v7 = G) (e9 : v9 = M) (e17 : v17 = Be) (e23 : v23 = W) (e26 : v26 = B)
    (j : S1x1x128.Idx) (i : S10x1x128.Idx) (hi0 : (i 0).val = T) (hi2 : (i 2).val = (j 2).val) :
    k2_pay3 v0 v2 v7 v9 v17 v23 v26 j = sumG (linG (bnG Y M Vr G Be) W B) i := by
  unfold k2_pay3
  exact colsum_block _ _ T (k2_pay2_block v0 v2 v7 v9 v17 v23 v26 Y M Vr G Be W B T h0 e2 e7 e9 e17 e23 e26) _ _ _ _ _ j i hi0 hi2

theorem k2_pay1_block (v29 : FVec Ideal S10000x128 .f32) (Z : FVec Ideal S100000x128 .f32) (T : Nat) (h : IsBlock T v29 Z)
    (j : S1x1x128.Idx) (i : S10x1x128.Idx) (hi0 : (i 0).val = T) (hi2 : (i 2).val = (j 2).val) :
    k2_pay1 v29 j = sumG (sqG Z) i := by
  unfold k2_pay1
  exact colsum_block _ _ T (sq_block v29 Z T h) _ _ _ _ _ j i hi0 hi2

/-! ## The output windows: where a block sits, which points cover the array, what each point writes, the array after the region -/

theorem at2_7 (t : Fin cfg2.N) (j : S10000x128.Idx) : At t.val j (((cfg2.win 7).blk t).view.emb j) := by
  obtain ⟨e0, e1⟩ := idx2_7 t
  constructor
  · show win2_7.index t (0 : Fin 2) * 10000 + 1 * (j 0).val = _; rw [e0]; omega
  · show win2_7.index t (1 : Fin 2) * 128 + 1 * (j 1).val = _; rw [e1]; omega

theorem mem2_7 (t : Fin cfg2.N) (i : S100000x128.Idx) :
    i ∈ ((cfg2.win 7).blk t).view.set ↔ ∀ a : Fin 2, win2_7.index t a * S10000x128.size a ≤ (i a).val
      ∧ (i a).val < win2_7.index t a * S10000x128.size a + S10000x128.size a := by
  show i ∈ ((View.whole main_v46_0).slice (win2_7.rect t)).set ↔ _
  rw [View.set_slice_whole, Rect.mem_set_unit]
  exact Iff.rfl

/-- Row p is in the block of point p / 10000. -/
theorem cover2_7 (i : S100000x128.Idx) :
    ∃ t : Fin cfg2.N, (cfg2.win 7).flush t = true ∧ i ∈ ((cfg2.win 7).blk t).view.set := by
  have h0 : (i 0).val < 100000 := (i 0).isLt
  have h1 : (i 1).val < 128 := (i 1).isLt
  have hN : cfg2.N = 10 := N_2
  refine ⟨⟨(i 0).val / 10000, by rw [hN]; omega⟩, flush2_7 _, ?_⟩
  rw [mem2_7]
  obtain ⟨e0, e1⟩ := idx2_7 ⟨(i 0).val / 10000, by rw [hN]; omega⟩
  intro a
  match a with
  | ⟨0, _⟩ =>
    show win2_7.index _ (0 : Fin 2) * 10000 ≤ (i 0).val ∧ (i 0).val < win2_7.index _ (0 : Fin 2) * 10000 + 10000
    rw [e0]
    show (i 0).val / 10000 * 10000 ≤ (i 0).val ∧ (i 0).val < (i 0).val / 10000 * 10000 + 10000
    omega
  | ⟨1, _⟩ =>
    show win2_7.index _ (1 : Fin 2) * 128 ≤ (i 1).val ∧ (i 1).val < win2_7.index _ (1 : Fin 2) * 128 + 128
    rw [e1]
    omega

/-- What point t writes back to window 7's array is its block of the whole-array function. -/
theorem flushed2_7 (c : Dev nD) (t : Fin cfg2.N) :
    (dat2 V c).flushed 7 t = ((cfg2.win 7).blk t).view.read (Elt Ideal) (linG (bnG (a2_0 V c) (a2_1 V c) (a2_2 V c) (a2_3 V c) (a2_4 V c)) (a2_5 V c) (a2_6 V c)) := by
  show (cfg2.win 7).cut (grid2.coords t) ((dat2 V c).after 7 t) = _
  rw [after2_7]
  unfold out2_7
  rw [View.canon_unit_zero hz2]
  simp only [View.ld_unit_zero (S := S10000x128) hz2, View.ld_unit_zero (S := S128x128) hz2, View.ld_unit_zero (S := S1x128) hz2]
  funext j
  show k2_pay2 (iblk2 V c 0 t) (iblk2 V c 2 t) (iblk2 V c 3 t) (iblk2 V c 1 t) (iblk2 V c 4 t) (iblk2 V c 5 t) (iblk2 V c 6 t) j = (linG (bnG (a2_0 V c) (a2_1 V c) (a2_2 V c) (a2_3 V c) (a2_4 V c)) (a2_5 V c) (a2_6 V c)) (((cfg2.win 7).blk t).view.emb j)
  exact k2_pay2_block (iblk2 V c 0 t) (iblk2 V c 2 t) (iblk2 V c 3 t) (iblk2 V c 1 t) (iblk2 V c 4 t) (iblk2 V c 5 t) (iblk2 V c 6 t) (a2_0 V c) (a2_1 V c) (a2_2 V c) (a2_3 V c) (a2_4 V c) (a2_5 V c) (a2_6 V c) t.val (blk2_0 V c t) (whole2_2 V c t) (whole2_3 V c t) (whole2_1 V c t) (whole2_4 V c t) (whole2_5 V c t) (whole2_6 V c t) j (((cfg2.win 7).blk t).view.emb j) (at2_7 t j)

/-- Window 7's array after the region. -/
theorem arr2_7 (c : Dev nD) : (dat2 V c).arrAt 7 cfg2.N = linG (bnG (a2_0 V c) (a2_1 V c) (a2_2 V c) (a2_3 V c) (a2_4 V c)) (a2_5 V c) (a2_6 V c) :=
  (dat2 V c).arrAt_eq_of_cover 7 _ (fun t _ => flushed2_7 V c t) cover2_7

/-- The same, with the arrays spelt as the region's proof data spells them. -/
theorem final2_7 (c : Dev nD) : (dat2 V c).arrAt 7 cfg2.N = linG (bnG (V c (Pipeline.arrRef spec2 0)) (V c (Pipeline.arrRef spec2 1)) (V c (Pipeline.arrRef spec2 2)) (V c (Pipeline.arrRef spec2 3)) (V c (Pipeline.arrRef spec2 4))) (V c (Pipeline.arrRef spec2 5)) (V c (Pipeline.arrRef spec2 6)) :=
  arr2_7 V c

theorem at2_8 (t : Fin cfg2.N) (j : S1x1x128.Idx) :
    (((cfg2.win 8).blk t).view.emb j 0).val = t.val ∧ (((cfg2.win 8).blk t).view.emb j 2).val = (j 2).val := by
  obtain ⟨e0, e1, e2⟩ := idx2_8 t
  have h0 : (j 0).val < 1 := (j 0).isLt
  constructor
  · show win2_8.index t (0 : Fin 3) * 1 + 1 * (j 0).val = _; rw [e0]; omega
  · show win2_8.index t (2 : Fin 3) * 128 + 1 * (j 2).val = _; rw [e2]; omega

theorem mem2_8 (t : Fin cfg2.N) (i : S10x1x128.Idx) :
    i ∈ ((cfg2.win 8).blk t).view.set ↔ ∀ a : Fin 3, win2_8.index t a * S1x1x128.size a ≤ (i a).val
      ∧ (i a).val < win2_8.index t a * S1x1x128.size a + S1x1x128.size a := by
  show i ∈ ((View.whole main_v46_1).slice (win2_8.rect t)).set ↔ _
  rw [View.set_slice_whole, Rect.mem_set_unit]
  exact Iff.rfl

/-- Entry (b, 0, q) is in the block of point b. -/
theorem cover2_8 (i : S10x1x128.Idx) :
    ∃ t : Fin cfg2.N, (cfg2.win 8).flush t = true ∧ i ∈ ((cfg2.win 8).blk t).view.set := by
  have h0 : (i 0).val < 10 := (i 0).isLt
  have h1 : (i 1).val < 1 := (i 1).isLt
  have h2 : (i 2).val < 128 := (i 2).isLt
  have hN : cfg2.N = 10 := N_2
  refine ⟨⟨(i 0).val, by rw [hN]; omega⟩, flush2_8 _, ?_⟩
  rw [mem2_8]
  obtain ⟨e0, e1, e2⟩ := idx2_8 ⟨(i 0).val, by rw [hN]; omega⟩
  intro a
  match a with
  | ⟨0, _⟩ =>
    show win2_8.index _ (0 : Fin 3) * 1 ≤ (i 0).val ∧ (i 0).val < win2_8.index _ (0 : Fin 3) * 1 + 1
    rw [e0]
    show (i 0).val * 1 ≤ (i 0).val ∧ (i 0).val < (i 0).val * 1 + 1
    omega
  | ⟨1, _⟩ =>
    show win2_8.index _ (1 : Fin 3) * 1 ≤ (i 1).val ∧ (i 1).val < win2_8.index _ (1 : Fin 3) * 1 + 1
    rw [e1]
    omega
  | ⟨2, _⟩ =>
    show win2_8.index _ (2 : Fin 3) * 128 ≤ (i 2).val ∧ (i 2).val < win2_8.index _ (2 : Fin 3) * 128 + 128
    rw [e2]
    omega

/-- What point t writes back to window 8's array is its block of the whole-array function. -/
theorem flushed2_8 (c : Dev nD) (t : Fin cfg2.N) :
    (dat2 V c).flushed 8 t = ((cfg2.win 8).blk t).view.read (Elt Ideal) (sumG (linG (bnG (a2_0 V c) (a2_1 V c) (a2_2 V c) (a2_3 V c) (a2_4 V c)) (a2_5 V c) (a2_6 V c))) := by
  show (cfg2.win 8).cut (grid2.coords t) ((dat2 V c).after 8 t) = _
  rw [after2_8]
  unfold out2_8
  rw [View.canon_unit_zero hz3]
  simp only [View.ld_unit_zero (S := S10000x128) hz2, View.ld_unit_zero (S := S128x128) hz2, View.ld_unit_zero (S := S1x128) hz2]
  funext j
  show k2_pay3 (iblk2 V c 0 t) (iblk2 V c 2 t) (iblk2 V c 3 t) (iblk2 V c 1 t) (iblk2 V c 4 t) (iblk2 V c 5 t) (iblk2 V c 6 t) j = (sumG (linG (bnG (a2_0 V c) (a2_1 V c) (a2_2 V c) (a2_3 V c) (a2_4 V c)) (a2_5 V c) (a2_6 V c))) (((cfg2.win 8).blk t).view.emb j)
  exact k2_pay3_block (iblk2 V c 0 t) (iblk2 V c 2 t) (iblk2 V c 3 t) (iblk2 V c 1 t) (iblk2 V c 4 t) (iblk2 V c 5 t) (iblk2 V c 6 t) (a2_0 V c) (a2_1 V c) (a2_2 V c) (a2_3 V c) (a2_4 V c) (a2_5 V c) (a2_6 V c) t.val (blk2_0 V c t) (whole2_2 V c t) (whole2_3 V c t) (whole2_1 V c t) (whole2_4 V c t) (whole2_5 V c t) (whole2_6 V c t) j (((cfg2.win 8).blk t).view.emb j) (at2_8 t j).1 (at2_8 t j).2

/-- Window 8's array after the region. -/
theorem arr2_8 (c : Dev nD) : (dat2 V c).arrAt 8 cfg2.N = sumG (linG (bnG (a2_0 V c) (a2_1 V c) (a2_2 V c) (a2_3 V c) (a2_4 V c)) (a2_5 V c) (a2_6 V c)) :=
  (dat2 V c).arrAt_eq_of_cover 8 _ (fun t _ => flushed2_8 V c t) cover2_8

/-- The same, with the arrays spelt as the region's proof data spells them. -/
theorem final2_8 (c : Dev nD) : (dat2 V c).arrAt 8 cfg2.N = sumG (linG (bnG (V c (Pipeline.arrRef spec2 0)) (V c (Pipeline.arrRef spec2 1)) (V c (Pipeline.arrRef spec2 2)) (V c (Pipeline.arrRef spec2 3)) (V c (Pipeline.arrRef spec2 4))) (V c (Pipeline.arrRef spec2 5)) (V c (Pipeline.arrRef spec2 6))) :=
  arr2_8 V c

theorem at2_9 (t : Fin cfg2.N) (j : S1x1x128.Idx) :
    (((cfg2.win 9).blk t).view.emb j 0).val = t.val ∧ (((cfg2.win 9).blk t).view.emb j 2).val = (j 2).val := by
  obtain ⟨e0, e1, e2⟩ := idx2_9 t
  have h0 : (j 0).val < 1 := (j 0).isLt
  constructor
  · show win2_9.index t (0 : Fin 3) * 1 + 1 * (j 0).val = _; rw [e0]; omega
  · show win2_9.index t (2 : Fin 3) * 128 + 1 * (j 2).val = _; rw [e2]; omega

theorem mem2_9 (t : Fin cfg2.N) (i : S10x1x128.Idx) :
    i ∈ ((cfg2.win 9).blk t).view.set ↔ ∀ a : Fin 3, win2_9.index t a * S1x1x128.size a ≤ (i a).val
      ∧ (i a).val < win2_9.index t a * S1x1x128.size a + S1x1x128.size a := by
  show i ∈ ((View.whole main_v46_2).slice (win2_9.rect t)).set ↔ _
  rw [View.set_slice_whole, Rect.mem_set_unit]
  exact Iff.rfl

/-- Entry (b, 0, q) is in the block of point b. -/
theorem cover2_9 (i : S10x1x128.Idx) :
    ∃ t : Fin cfg2.N, (cfg2.win 9).flush t = true ∧ i ∈ ((cfg2.win 9).blk t).view.set := by
  have h0 : (i 0).val < 10 := (i 0).isLt
  have h1 : (i 1).val < 1 := (i 1).isLt
  have h2 : (i 2).val < 128 := (i 2).isLt
  have hN : cfg2.N = 10 := N_2
  refine ⟨⟨(i 0).val, by rw [hN]; omega⟩, flush2_9 _, ?_⟩
  rw [mem2_9]
  obtain ⟨e0, e1, e2⟩ := idx2_9 ⟨(i 0).val, by rw [hN]; omega⟩
  intro a
  match a with
  | ⟨0, _⟩ =>
    show win2_9.index _ (0 : Fin 3) * 1 ≤ (i 0).val ∧ (i 0).val < win2_9.index _ (0 : Fin 3) * 1 + 1
    rw [e0]
    show (i 0).val * 1 ≤ (i 0).val ∧ (i 0).val < (i 0).val * 1 + 1
    omega
  | ⟨1, _⟩ =>
    show win2_9.index _ (1 : Fin 3) * 1 ≤ (i 1).val ∧ (i 1).val < win2_9.index _ (1 : Fin 3) * 1 + 1
    rw [e1]
    omega
  | ⟨2, _⟩ =>
    show win2_9.index _ (2 : Fin 3) * 128 ≤ (i 2).val ∧ (i 2).val < win2_9.index _ (2 : Fin 3) * 128 + 128
    rw [e2]
    omega

/-- What point t writes back to window 9's array is its block of the whole-array function. -/
theorem flushed2_9 (c : Dev nD) (t : Fin cfg2.N) :
    (dat2 V c).flushed 9 t = ((cfg2.win 9).blk t).view.read (Elt Ideal) (sumG (sqG (linG (bnG (a2_0 V c) (a2_1 V c) (a2_2 V c) (a2_3 V c) (a2_4 V c)) (a2_5 V c) (a2_6 V c)))) := by
  show (cfg2.win 9).cut (grid2.coords t) ((dat2 V c).after 9 t) = _
  rw [after2_9]
  unfold out2_9
  rw [View.canon_unit_zero hz3]
  simp only [View.ld_unit_zero (S := S10000x128) hz2, View.ld_unit_zero (S := S128x128) hz2, View.ld_unit_zero (S := S1x128) hz2]
  funext j
  show k2_pay1 (k2_pay2 (iblk2 V c 0 t) (iblk2 V c 2 t) (iblk2 V c 3 t) (iblk2 V c 1 t) (iblk2 V c 4 t) (iblk2 V c 5 t) (iblk2 V c 6 t)) j = (sumG (sqG (linG (bnG (a2_0 V c) (a2_1 V c) (a2_2 V c) (a2_3 V c) (a2_4 V c)) (a2_5 V c) (a2_6 V c)))) (((cfg2.win 9).blk t).view.emb j)
  exact k2_pay1_block (k2_pay2 (iblk2 V c 0 t) (iblk2 V c 2 t) (iblk2 V c 3 t) (iblk2 V c 1 t) (iblk2 V c 4 t) (iblk2 V c 5 t) (iblk2 V c 6 t)) (linG (bnG (a2_0 V c) (a2_1 V c) (a2_2 V c) (a2_3 V c) (a2_4 V c)) (a2_5 V c) (a2_6 V c)) t.val (k2_pay2_block (iblk2 V c 0 t) (iblk2 V c 2 t) (iblk2 V c 3 t) (iblk2 V c 1 t) (iblk2 V c 4 t) (iblk2 V c 5 t) (iblk2 V c 6 t) (a2_0 V c) (a2_1 V c) (a2_2 V c) (a2_3 V c) (a2_4 V c) (a2_5 V c) (a2_6 V c) t.val (blk2_0 V c t) (whole2_2 V c t) (whole2_3 V c t) (whole2_1 V c t) (whole2_4 V c t) (whole2_5 V c t) (whole2_6 V c t)) j (((cfg2.win 9).blk t).view.emb j) (at2_9 t j).1 (at2_9 t j).2

/-- Window 9's array after the region. -/
theorem arr2_9 (c : Dev nD) : (dat2 V c).arrAt 9 cfg2.N = sumG (sqG (linG (bnG (a2_0 V c) (a2_1 V c) (a2_2 V c) (a2_3 V c) (a2_4 V c)) (a2_5 V c) (a2_6 V c))) :=
  (dat2 V c).arrAt_eq_of_cover 9 _ (fun t _ => flushed2_9 V c t) cover2_9

/-- The same, with the arrays spelt as the region's proof data spells them. -/
theorem final2_9 (c : Dev nD) : (dat2 V c).arrAt 9 cfg2.N = sumG (sqG (linG (bnG (V c (Pipeline.arrRef spec2 0)) (V c (Pipeline.arrRef spec2 1)) (V c (Pipeline.arrRef spec2 2)) (V c (Pipeline.arrRef spec2 3)) (V c (Pipeline.arrRef spec2 4))) (V c (Pipeline.arrRef spec2 5)) (V c (Pipeline.arrRef spec2 6)))) :=
  arr2_9 V c

end Cert.KernelIdeal.RegionValue

end
-- ==== Proof.KRegion3.lean ====
/-
  Region 3 of the kernel program (a layer's second normalisation and rectifier): each output array after the region as a function of the arrays the
  region finds, entry by entry. The grid has ten points; point t reads rows t·10000 … t·10000 + 9999 of each
  100000×128 input, all of each small input, and writes the same rows of each 100000×128 output and entry (t, 0, ·) of
  each 10×1×128 output. What a point writes is the body's arithmetic of its blocks, which is the matching block of one
  function of the whole arrays; the points' blocks cover each output array, so the array ends at that function.
-/
import proofs.«119304_j10247791968545_2_alg».proof.Proof.Gen.KernelIdeal.Frame
import proofs.«119304_j10247791968545_2_alg».proof.Proof.KPay
import Idealize.ShloMosaic.Lib.Pipeline.Value

set_option maxRecDepth 16384

noncomputable section

namespace Cert.KernelIdeal.RegionValue

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-! ## The arrays the region finds, under their literal types -/

/-- Input window 0's array as the region finds it. -/
abbrev a3_0 (c : Dev nD) : FVec Ideal S100000x128 .f32 := V c (Pipeline.arrRef spec3 0)
/-- Input window 1's array as the region finds it. -/
abbrev a3_1 (c : Dev nD) : FVec Ideal S1x128 .f32 := V c (Pipeline.arrRef spec3 1)
/-- Input window 2's array as the region finds it. -/
abbrev a3_2 (c : Dev nD) : FVec Ideal S1x128 .f32 := V c (Pipeline.arrRef spec3 2)
/-- Input window 3's array as the region finds it. -/
abbrev a3_3 (c : Dev nD) : FVec Ideal S1x128 .f32 := V c (Pipeline.arrRef spec3 3)
/-- Input window 4's array as the region finds it. -/
abbrev a3_4 (c : Dev nD) : FVec Ideal S1x128 .f32 := V c (Pipeline.arrRef spec3 4)

/-! ## Where the block index maps send a grid point -/

theorem idx3_0 : ∀ t : Fin cfg3.N, win3_0.index t (0 : Fin 2) = t.val ∧ win3_0.index t (1 : Fin 2) = 0 :=
  (by decide +kernel : ∀ t : Fin grid3.N, _)
theorem idx3_1 : ∀ t : Fin cfg3.N, win3_1.index t (0 : Fin 2) = 0 ∧ win3_1.index t (1 : Fin 2) = 0 :=
  (by decide +kernel : ∀ t : Fin grid3.N, _)
theorem idx3_2 : ∀ t : Fin cfg3.N, win3_2.index t (0 : Fin 2) = 0 ∧ win3_2.index t (1 : Fin 2) = 0 :=
  (by decide +kernel : ∀ t : Fin grid3.N, _)
theorem idx3_3 : ∀ t : Fin cfg3.N, win3_3.index t (0 : Fin 2) = 0 ∧ win3_3.index t (1 : Fin 2) = 0 :=
  (by decide +kernel : ∀ t : Fin grid3.N, _)
theorem idx3_4 : ∀ t : Fin cfg3.N, win3_4.index t (0 : Fin 2) = 0 ∧ win3_4.index t (1 : Fin 2) = 0 :=
  (by decide +kernel : ∀ t : Fin grid3.N, _)
theorem idx3_5 : ∀ t : Fin cfg3.N, win3_5.index t (0 : Fin 2) = t.val ∧ win3_5.index t (1 : Fin 2) = 0 :=
  (by decide +kernel : ∀ t : Fin grid3.N, _)

/-! ## The input windows' blocks, read off the arrays -/

/-- Point t's block of input window 0 is rows t·10000 … of the window's array. -/
theorem blk3_0 (c : Dev nD) (t : Fin cfg3.N) : IsBlock t.val (iblk3 V c 0 t) (a3_0 V c) := by
  intro j i hji
  obtain ⟨e0, e1⟩ := idx3_0 t
  have h0 := hji.1
  have h1 := hji.2
  show (a3_0 V c) (((cfg3.win 0).blk t).view.emb j) = (a3_0 V c) i
  refine congrArg (a3_0 V c) (funext fun a => Fin.ext ?_)
  match a with
  | ⟨0, _⟩ => show win3_0.index t (0 : Fin 2) * 10000 + 1 * (j 0).val = (i 0).val; rw [e0]; omega
  | ⟨1, _⟩ => show win3_0.index t (1 : Fin 2) * 128 + 1 * (j 1).val = (i 1).val; rw [e1]; omega

/-- Input window 1's block at every point is its whole array. -/
theorem whole3_1 (c : Dev nD) (t : Fin cfg3.N) : iblk3 V c 1 t = (a3_1 V c) := by
  funext y
  obtain ⟨e0, e1⟩ := idx3_1 t
  show (a3_1 V c) (((cfg3.win 1).blk t).view.emb y) = (a3_1 V c) y
  refine congrArg (a3_1 V c) (funext fun a => Fin.ext ?_)
  match a with
  | ⟨0, _⟩ => show win3_1.index t (0 : Fin 2) * 1 + 1 * (y 0).val = (y 0).val; rw [e0]; omega
  | ⟨1, _⟩ => show win3_1.index t (1 : Fin 2) * 128 + 1 * (y 1).val = (y 1).val; rw [e1]; omega

/-- Input window 2's block at every point is its whole array. -/
theorem whole3_2 (c : Dev nD) (t : Fin cfg3.N) : iblk3 V c 2 t = (a3_2 V c) := by
  funext y
  obtain ⟨e0, e1⟩ := idx3_2 t
  show (a3_2 V c) (((cfg3.win 2).blk t).view.emb y) = (a3_2 V c) y
  refine congrArg (a3_2 V c) (funext fun a => Fin.ext ?_)
  match a with
  | ⟨0, _⟩ => show win3_2.index t (0 : Fin 2) * 1 + 1 * (y 0).val = (y 0).val; rw [e0]; omega
  | ⟨1, _⟩ => show win3_2.index t (1 : Fin 2) * 128 + 1 * (y 1).val = (y 1).val; rw [e1]; omega

/-- Input window 3's block at every point is its whole array. -/
theorem whole3_3 (c : Dev nD) (t : Fin cfg3.N) : iblk3 V c 3 t = (a3_3 V c) := by
  funext y
  obtain ⟨e0, e1⟩ := idx3_3 t
  show (a3_3 V c) (((cfg3.win 3).blk t).view.emb y) = (a3_3 V c) y
  refine congrArg (a3_3 V c) (funext fun a => Fin.ext ?_)
  match a with
  | ⟨0, _⟩ => show win3_3.index t (0 : Fin 2) * 1 + 1 * (y 0).val = (y 0).val; rw [e0]; omega
  | ⟨1, _⟩ => show win3_3.index t (1 : Fin 2) * 128 + 1 * (y 1).val = (y 1).val; rw [e1]; omega

/-- Input window 4's block at every point is its whole array. -/
theorem whole3_4 (c : Dev nD) (t : Fin cfg3.N) : iblk3 V c 4 t = (a3_4 V c) := by
  funext y
  obtain ⟨e0, e1⟩ := idx3_4 t
  show (a3_4 V c) (((cfg3.win 4).blk t).view.emb y) = (a3_4 V c) y
  refine congrArg (a3_4 V c) (funext fun a => Fin.ext ?_)
  match a with
  | ⟨0, _⟩ => show win3_4.index t (0 : Fin 2) * 1 + 1 * (y 0).val = (y 0).val; rw [e0]; omega
  | ⟨1, _⟩ => show win3_4.index t (1 : Fin 2) * 128 + 1 * (y 1).val = (y 1).val; rw [e1]; omega

/-! ## The body's stores, over arbitrary blocks: a block of rows of the array it was read from, the small blocks equal to
    their arrays -/

theorem k3_pay1_block (v0 : Vec Ideal S10000x128 .f32) (v2 v7 v9 v17 : Vec Ideal S1x128 .f32)
    (Y : FVec Ideal S100000x128 .f32) (M Vr G Be : FVec Ideal S1x128 .f32) (T : Nat) (h0 : IsBlock T v0 Y)
    (e2 : v2 = Vr) (e7 : v7 = G) (e9 : v9 = M) (e17 : v17 = Be) :
    IsBlock T (k3_pay1 v0 v2 v7 v9 v17) (bnG Y M Vr G Be) := by
  subst e2 e7 e9 e17
  unfold k3_pay1
  exact bn_block v0 v2 v7 v9 v17 Y T h0 _ _ _

/-! ## The output windows: where a block sits, which points cover the array, what each point writes, the array after the region -/

theorem at3_5 (t : Fin cfg3.N) (j : S10000x128.Idx) : At t.val j (((cfg3.win 5).blk t).view.emb j) := by
  obtain ⟨e0, e1⟩ := idx3_5 t
  constructor
  · show win3_5.index t (0 : Fin 2) * 10000 + 1 * (j 0).val = _; rw [e0]; omega
  · show win3_5.index t (1 : Fin 2) * 128 + 1 * (j 1).val = _; rw [e1]; omega

theorem mem3_5 (t : Fin cfg3.N) (i : S100000x128.Idx) :
    i ∈ ((cfg3.win 5).blk t).view.set ↔ ∀ a : Fin 2, win3_5.index t a * S10000x128.size a ≤ (i a).val
      ∧ (i a).val < win3_5.index t a * S10000x128.size a + S10000x128.size a := by
  show i ∈ ((View.whole main_v63).slice (win3_5.rect t)).set ↔ _
  rw [View.set_slice_whole, Rect.mem_set_unit]
  exact Iff.rfl

/-- Row p is in the block of point p / 10000. -/
theorem cover3_5 (i : S100000x128.Idx) :
    ∃ t : Fin cfg3.N, (cfg3.win 5).flush t = true ∧ i ∈ ((cfg3.win 5).blk t).view.set := by
  have h0 : (i 0).val < 100000 := (i 0).isLt
  have h1 : (i 1).val < 128 := (i 1).isLt
  have hN : cfg3.N = 10 := N_3
  refine ⟨⟨(i 0).val / 10000, by rw [hN]; omega⟩, flush3_5 _, ?_⟩
  rw [mem3_5]
  obtain ⟨e0, e1⟩ := idx3_5 ⟨(i 0).val / 10000, by rw [hN]; omega⟩
  intro a
  match a with
  | ⟨0, _⟩ =>
    show win3_5.index _ (0 : Fin 2) * 10000 ≤ (i 0).val ∧ (i 0).val < win3_5.index _ (0 : Fin 2) * 10000 + 10000
    rw [e0]
    show (i 0).val / 10000 * 10000 ≤ (i 0).val ∧ (i 0).val < (i 0).val / 10000 * 10000 + 10000
    omega
  | ⟨1, _⟩ =>
    show win3_5.index _ (1 : Fin 2) * 128 ≤ (i 1).val ∧ (i 1).val < win3_5.index _ (1 : Fin 2) * 128 + 128
    rw [e1]
    omega

/-- What point t writes back to window 5's array is its block of the whole-array function. -/
theorem flushed3_5 (c : Dev nD) (t : Fin cfg3.N) :
    (dat3 V c).flushed 5 t = ((cfg3.win 5).blk t).view.read (Elt Ideal) (bnG (a3_0 V c) (a3_1 V c) (a3_2 V c) (a3_3 V c) (a3_4 V c)) := by
  show (cfg3.win 5).cut (grid3.coords t) ((dat3 V c).after 5 t) = _
  rw [after3_5]
  unfold out3_5
  rw [View.canon_unit_zero hz2]
  simp only [View.ld_unit_zero (S := S10000x128) hz2, View.ld_unit_zero (S := S128x128) hz2, View.ld_unit_zero (S := S1x128) hz2]
  funext j
  show k3_pay1 (iblk3 V c 0 t) (iblk3 V c 2 t) (iblk3 V c 3 t) (iblk3 V c 1 t) (iblk3 V c 4 t) j = (bnG (a3_0 V c) (a3_1 V c) (a3_2 V c) (a3_3 V c) (a3_4 V c)) (((cfg3.win 5).blk t).view.emb j)
  exact k3_pay1_block (iblk3 V c 0 t) (iblk3 V c 2 t) (iblk3 V c 3 t) (iblk3 V c 1 t) (iblk3 V c 4 t) (a3_0 V c) (a3_1 V c) (a3_2 V c) (a3_3 V c) (a3_4 V c) t.val (blk3_0 V c t) (whole3_2 V c t) (whole3_3 V c t) (whole3_1 V c t) (whole3_4 V c t) j (((cfg3.win 5).blk t).view.emb j) (at3_5 t j)

/-- Window 5's array after the region. -/
theorem arr3_5 (c : Dev nD) : (dat3 V c).arrAt 5 cfg3.N = bnG (a3_0 V c) (a3_1 V c) (a3_2 V c) (a3_3 V c) (a3_4 V c) :=
  (dat3 V c).arrAt_eq_of_cover 5 _ (fun t _ => flushed3_5 V c t) cover3_5

/-- The same, with the arrays spelt as the region's proof data spells them. -/
theorem final3_5 (c : Dev nD) : (dat3 V c).arrAt 5 cfg3.N = bnG (V c (Pipeline.arrRef spec3 0)) (V c (Pipeline.arrRef spec3 1)) (V c (Pipeline.arrRef spec3 2)) (V c (Pipeline.arrRef spec3 3)) (V c (Pipeline.arrRef spec3 4)) :=
  arr3_5 V c

end Cert.KernelIdeal.RegionValue

end
-- ==== Proof.KStats.lean ====
/-
  The batch statistics as the kernel program computes them, as functions of the whole array.

  A region leaves, per block of 10000 rows, the block's column sums of Y (and of Y·Y). The host then adds the ten
  blocks' rows (starting from zero) and divides by the batch size. Since the sum over the blocks of the blocks'
  column sums is the column sum over all rows, the row of means is the batch mean of Y, and the clamped difference
  of the mean square and the squared mean is the one-pass variance of Y.
-/
import proofs.«119304_j10247791968545_2_alg».proof.Proof.KPay
import proofs.«119304_j10247791968545_2_alg».proof.Proof.Bridge
import proofs.«119304_j10247791968545_2_alg».proof.Proof.Consts
import Idealize.ShloMosaic.Lib.IdealHost
import Idealize.ShloMosaic.PureOps.Ideal.Laws

set_option maxRecDepth 16384

noncomputable section

namespace Cert.KernelIdeal.Stats

open Idealize.ShloMosaic Idealize.ShloMosaic.TcCoe Idealize.SL.Sem Idealize.ShloMosaic.ValueIdx
open Cert.KernelIdeal Cert.KernelIdeal.RegionValue Cert.Gin Cert.Gin.Layer Cert.Gin.Bridge

/-- The host's sum of the ten blocks' column sums, at column q, is the column sum over all rows. -/
theorem reduce_sumG (hr : S10x1x128.ReducesTo [0] S1x128) (hu : 0 < S_.numel) (Y : FVec Ideal S100000x128 .f32) (q : Fin 128) :
    Host.reduceAdd (F := Ideal) (sumG Y) (constant (F := Ideal) S_ .f32 0x00000000#32) hr hu (ix2 0 q)
      = ∑ p : Fin 100000, Y (ix2 p q) := by
  rw [hostReduceAdd_apply, Ideal.hostReduceAdd_single _ (by decide : S10x1x128.Reduces [0] S1x128)]
  have hz : constant (F := Ideal) S_ .f32 (0x00000000#32) (Shape.Idx.first hu) = (0 : EReal) := Ideal.ofBits_zero_f32
  rw [hz, zero_add]
  have e : ∀ k : Fin 10, sumG Y ((by decide : S10x1x128.Reduces [0] S1x128).lift (ix2 0 q) k) = ∑ r : Fin 10000, Y (ix2 (Layer.row k r) q) := by
    intro k
    exact sumG_apply Y k 0 q
  show ∑ k : Fin 10, sumG Y ((by decide : S10x1x128.Reduces [0] S1x128).lift (ix2 0 q) k) = _
  simp only [e]
  exact Layer.sum_rows fun p => Y (ix2 p q)

/-- The row of means the host computes from the blocks' column sums is the batch mean. -/
theorem mean_row (hr : S10x1x128.ReducesTo [0] S1x128) (hu : 0 < S_.numel) (hb : S_.BroadcastsInDim S1x128 ![])
    (Y : FVec Ideal S100000x128 .f32) (q : Fin 128) :
    Host.divf (F := Ideal) (Host.reduceAdd (F := Ideal) (sumG Y) (constant (F := Ideal) S_ .f32 0x00000000#32) hr hu)
        (broadcastInDim S1x128 ![] hb (constant (F := Ideal) S_ .f32 0x47C35000#32)) (ix2 0 q)
      = Layer.mean Layer.cN (mat Y) q := by
  rw [hostDivf_apply, reduce_sumG, broadcastInDim_scalar_apply]
  show Ideal.div _ (Ideal.ofBits .f32 0x47C35000#32) = _
  rw [Consts.ofBits_batch]
  rfl

/-- The row of variances the host computes from the blocks' column sums of Y and of Y·Y is the one-pass variance. -/
theorem var_row (hr : S10x1x128.ReducesTo [0] S1x128) (hu : 0 < S_.numel) (hb : S_.BroadcastsInDim S1x128 ![])
    (Y Y2 : FVec Ideal S100000x128 .f32) (hY2 : ∀ i, Y2 i = Y i * Y i) (q : Fin 128) :
    maximumf (F := Ideal)
        (subf (F := Ideal)
          (Host.divf (F := Ideal) (Host.reduceAdd (F := Ideal) (sumG Y2) (constant (F := Ideal) S_ .f32 0x00000000#32) hr hu)
            (broadcastInDim S1x128 ![] hb (constant (F := Ideal) S_ .f32 0x47C35000#32)))
          (mulf (F := Ideal)
            (Host.divf (F := Ideal) (Host.reduceAdd (F := Ideal) (sumG Y) (constant (F := Ideal) S_ .f32 0x00000000#32) hr hu)
              (broadcastInDim S1x128 ![] hb (constant (F := Ideal) S_ .f32 0x47C35000#32)))
            (Host.divf (F := Ideal) (Host.reduceAdd (F := Ideal) (sumG Y) (constant (F := Ideal) S_ .f32 0x00000000#32) hr hu)
              (broadcastInDim S1x128 ![] hb (constant (F := Ideal) S_ .f32 0x47C35000#32)))))
        (broadcastInDim S1x128 ![] hb (constant (F := Ideal) S_ .f32 0x00000000#32)) (ix2 0 q)
      = Layer.var1 Layer.cN (mat Y) q := by
  show max (Host.divf (F := Ideal) _ _ (ix2 0 q) - Host.divf (F := Ideal) _ _ (ix2 0 q) * Host.divf (F := Ideal) _ _ (ix2 0 q))
      (broadcastInDim S1x128 ![] hb (constant (F := Ideal) S_ .f32 0x00000000#32) (ix2 0 q)) = _
  rw [mean_row hr hu hb Y q, hostDivf_apply, reduce_sumG, broadcastInDim_scalar_apply, broadcastInDim_scalar_apply]
  show max (Ideal.div _ (Ideal.ofBits .f32 0x47C35000#32) - _) (Ideal.ofBits .f32 0x00000000#32) = _
  rw [Consts.ofBits_batch, Ideal.ofBits_zero_f32]
  unfold Layer.var1
  simp only [hY2]
  rfl

end Cert.KernelIdeal.Stats

end
-- ==== Proof.KAsmL0.lean ====
/-
  Layer 0 of the kernel program, assembled. The three regions of the layer leave, as whole arrays: the affine map of the
  layer's input plus the neighbours' sum, with its blocks' column sums and column sums of squares; the affine map of
  that array normalised and cut at zero, with its blocks' sums; and that second array normalised and cut at zero. The
  stretches of host operations between them turn the blocks' sums into the rows of means and clamped one-pass
  variances and cut the layer's coefficients out of the stacked arguments. Threaded together, the layer's last array
  read as a matrix is the layer function of its first array, of the neighbours' sum of that array over the edge list,
  and of the layer's coefficients as the reference slices them.
-/
import proofs.«119304_j10247791968545_2_alg».proof.Proof.Gen.KernelIdeal.Frame
import proofs.«119304_j10247791968545_2_alg».proof.Proof.KRegion1
import proofs.«119304_j10247791968545_2_alg».proof.Proof.KRegion2
import proofs.«119304_j10247791968545_2_alg».proof.Proof.KRegion3
import proofs.«119304_j10247791968545_2_alg».proof.Proof.KHost0
import proofs.«119304_j10247791968545_2_alg».proof.Proof.KKeep
import proofs.«119304_j10247791968545_2_alg».proof.Proof.KArgs
import proofs.«119304_j10247791968545_2_alg».proof.Proof.KStats
import proofs.«119304_j10247791968545_2_alg».proof.Proof.KLayer
import proofs.«119304_j10247791968545_2_alg».proof.Proof.KParams

set_option maxRecDepth 16384

noncomputable section

namespace Cert.KernelIdeal.Asm0

open Idealize.ShloMosaic Idealize.ShloMosaic.TcCoe Idealize.SL.Sem Idealize.ShloMosaic.ValueIdx
open Cert.KernelIdeal Cert.KernelIdeal.Gen Cert.KernelIdeal.HostSide Cert.KernelIdeal.RegionValue
open Cert.KernelIdeal.Stats Cert.KernelIdeal.LayerOf Cert.Gin.Layer Cert.Gin.Bridge Cert.Gin.Params
open Cert.ReferenceIdeal.HandRun Cert.ReferenceIdeal.Idx

variable (m : (ℓ : Loc nD τ sig) → Buf (Elt Ideal) ℓ) (ρ : Dev nD → PrngReg)

/-- The array of affine values of the first map. -/
theorem y1_eq (c : Dev nD) :
    ((W4 m ρ c (Proc.devRef .tc main_v23_0)) : FVec Ideal S100000x128 .f32)
      = linG (addG (W2 m ρ c (Proc.devRef .tc main_v6)) (W3 m ρ c (Proc.devRef .tc main_v16))) (W3 m ρ c (Proc.devRef .tc main_v21)) (W3 m ρ c (Proc.devRef .tc main_v22)) := by
  show W4 m ρ c (Proc.devRef .tc (Pipeline.arrRef spec1 4)) = _
  rw [W4_arr, final1_4 (V3 m ρ) c]
  show linG (addG (W3 m ρ c (Proc.devRef .tc main_v6)) (W3 m ρ c (Proc.devRef .tc main_v16))) (W3 m ρ c (Proc.devRef .tc main_v21)) (W3 m ρ c (Proc.devRef .tc main_v22)) = _
  rw [W3_main_v6]

/-- Its blocks' column sums. -/
theorem s1_eq (c : Dev nD) : ((W4 m ρ c (Proc.devRef .tc main_v23_1)) : FVec Ideal S10x1x128 .f32) = sumG (W4 m ρ c (Proc.devRef .tc main_v23_0)) := by
  show W4 m ρ c (Proc.devRef .tc (Pipeline.arrRef spec1 5)) = _
  rw [W4_arr, final1_5 (V3 m ρ) c]
  show _ = sumG (W4 m ρ c (Proc.devRef .tc (Pipeline.arrRef spec1 4)))
  rw [W4_arr, final1_4 (V3 m ρ) c]

/-- Its blocks' column sums of squares. -/
theorem q1_eq (c : Dev nD) : ((W4 m ρ c (Proc.devRef .tc main_v23_2)) : FVec Ideal S10x1x128 .f32) = sumG (sqG (W4 m ρ c (Proc.devRef .tc main_v23_0))) := by
  show W4 m ρ c (Proc.devRef .tc (Pipeline.arrRef spec1 6)) = _
  rw [W4_arr, final1_6 (V3 m ρ) c]
  show _ = sumG (sqG (W4 m ρ c (Proc.devRef .tc (Pipeline.arrRef spec1 4))))
  rw [W4_arr, final1_4 (V3 m ρ) c]

/-- The row of means of the first normalisation. -/
theorem m1_eq (c : Dev nD) (q : Fin 128) :
    ((W5 m ρ c (Proc.devRef .tc main_v27)) : FVec Ideal S1x128 .f32) (ix2 0 q) = mean cN (mat (W4 m ρ c (Proc.devRef .tc main_v23_0))) q := by
  rw [W5_main_v27, s1_eq]
  exact mean_row _ _ _ _ q

/-- The row of variances of the first normalisation. -/
theorem v1_eq (c : Dev nD) (q : Fin 128) :
    ((W5 m ρ c (Proc.devRef .tc main_v33)) : FVec Ideal S1x128 .f32) (ix2 0 q) = var1 cN (mat (W4 m ρ c (Proc.devRef .tc main_v23_0))) q := by
  rw [W5_main_v33, s1_eq, q1_eq]
  exact var_row _ _ _ _ _ (fun _ => rfl) q

/-- The array of affine values of the second map. -/
theorem y2_eq (c : Dev nD) :
    ((W6 m ρ c (Proc.devRef .tc main_v46_0)) : FVec Ideal S100000x128 .f32)
      = linG (bnG (W4 m ρ c (Proc.devRef .tc main_v23_0)) (W5 m ρ c (Proc.devRef .tc main_v27)) (W5 m ρ c (Proc.devRef .tc main_v33)) (W5 m ρ c (Proc.devRef .tc main_v43)) (W5 m ρ c (Proc.devRef .tc main_v44))) (W5 m ρ c (Proc.devRef .tc main_v42)) (W5 m ρ c (Proc.devRef .tc main_v45)) := by
  show W6 m ρ c (Proc.devRef .tc (Pipeline.arrRef spec2 7)) = _
  rw [W6_arr, final2_7 (V5 m ρ) c]
  show linG (bnG (W5 m ρ c (Proc.devRef .tc main_v23_0)) (W5 m ρ c (Proc.devRef .tc main_v27)) (W5 m ρ c (Proc.devRef .tc main_v33)) (W5 m ρ c (Proc.devRef .tc main_v43)) (W5 m ρ c (Proc.devRef .tc main_v44))) (W5 m ρ c (Proc.devRef .tc main_v42)) (W5 m ρ c (Proc.devRef .tc main_v45)) = _
  rw [W5_main_v23_0]

theorem s2_eq (c : Dev nD) : ((W6 m ρ c (Proc.devRef .tc main_v46_1)) : FVec Ideal S10x1x128 .f32) = sumG (W6 m ρ c (Proc.devRef .tc main_v46_0)) := by
  show W6 m ρ c (Proc.devRef .tc (Pipeline.arrRef spec2 8)) = _
  rw [W6_arr, final2_8 (V5 m ρ) c]
  show _ = sumG (W6 m ρ c (Proc.devRef .tc (Pipeline.arrRef spec2 7)))
  rw [W6_arr, final2_7 (V5 m ρ) c]

theorem q2_eq (c : Dev nD) : ((W6 m ρ c (Proc.devRef .tc main_v46_2)) : FVec Ideal S10x1x128 .f32) = sumG (sqG (W6 m ρ c (Proc.devRef .tc main_v46_0))) := by
  show W6 m ρ c (Proc.devRef .tc (Pipeline.arrRef spec2 9)) = _
  rw [W6_arr, final2_9 (V5 m ρ) c]
  show _ = sumG (sqG (W6 m ρ c (Proc.devRef .tc (Pipeline.arrRef spec2 7))))
  rw [W6_arr, final2_7 (V5 m ρ) c]

/-- The row of means of the second normalisation. -/
theorem m2_eq (c : Dev nD) (q : Fin 128) :
    ((W7 m ρ c (Proc.devRef .tc main_v50)) : FVec Ideal S1x128 .f32) (ix2 0 q) = mean cN (mat (W6 m ρ c (Proc.devRef .tc main_v46_0))) q := by
  rw [W7_main_v50, s2_eq]
  exact mean_row _ _ _ _ q

/-- The row of variances of the second normalisation. -/
theorem v2_eq (c : Dev nD) (q : Fin 128) :
    ((W7 m ρ c (Proc.devRef .tc main_v56)) : FVec Ideal S1x128 .f32) (ix2 0 q) = var1 cN (mat (W6 m ρ c (Proc.devRef .tc main_v46_0))) q := by
  rw [W7_main_v56, s2_eq, q2_eq]
  exact var_row _ _ _ _ _ (fun _ => rfl) q

/-- The layer's last array. -/
theorem xout_eq (c : Dev nD) :
    ((W8 m ρ c (Proc.devRef .tc main_v63)) : FVec Ideal S100000x128 .f32)
      = bnG (W6 m ρ c (Proc.devRef .tc main_v46_0)) (W7 m ρ c (Proc.devRef .tc main_v50)) (W7 m ρ c (Proc.devRef .tc main_v56)) (W7 m ρ c (Proc.devRef .tc main_v61)) (W7 m ρ c (Proc.devRef .tc main_v62)) := by
  show W8 m ρ c (Proc.devRef .tc (Pipeline.arrRef spec3 5)) = _
  rw [W8_arr, final3_5 (V7 m ρ) c]
  show bnG (W7 m ρ c (Proc.devRef .tc main_v46_0)) (W7 m ρ c (Proc.devRef .tc main_v50)) (W7 m ρ c (Proc.devRef .tc main_v56)) (W7 m ρ c (Proc.devRef .tc main_v61)) (W7 m ρ c (Proc.devRef .tc main_v62)) = _
  rw [W7_main_v46_0]

/-- The neighbours' sum the layer reads is the reference's aggregation of the layer's first array over the edge list. -/
theorem agg_eq (c : Dev nD) :
    ((W3 m ρ c (Proc.devRef .tc main_v16)) : FVec Ideal S100000x128 .f32)
      = aggStage (W2 m ρ c (Proc.devRef .tc main_v6)) (m ((c : Thread nD τ).loc main_arg1)) := by
  rw [W3_main_v16, W2_main_v1, W2_main_v3, W1_main_v1, W1_main_v3]
  rfl

/-- The layer, as a matrix. -/
theorem layer_eq (c : Dev nD) :
    mat (W8 m ρ c (Proc.devRef .tc main_v63))
      = layer var1 id (Ideal.ofBits .f32 0x3727C5AC#32) (mat (W2 m ρ c (Proc.devRef .tc main_v6)))
          (mat (aggStage (W2 m ρ c (Proc.devRef .tc main_v6)) (m ((c : Thread nD τ).loc main_arg1))))
          (matT (matAt0 (m ((c : Thread nD τ).loc main_arg5)))) (vec (rowAt0 (m ((c : Thread nD τ).loc main_arg6))))
          (vec (rowAt0 (m ((c : Thread nD τ).loc main_arg7)))) (vec (rowAt0 (m ((c : Thread nD τ).loc main_arg8))))
          (matT (matAt0 (m ((c : Thread nD τ).loc main_arg9)))) (vec (rowAt0 (m ((c : Thread nD τ).loc main_arg10))))
          (vec (rowAt0 (m ((c : Thread nD τ).loc main_arg11)))) (vec (rowAt0 (m ((c : Thread nD τ).loc main_arg12)))) := by
  have h := layer_of (X := (W2 m ρ c (Proc.devRef .tc main_v6))) (A := (W3 m ρ c (Proc.devRef .tc main_v16))) (fun _ => rfl) (y1_eq m ρ c) (m1_eq m ρ c) (v1_eq m ρ c)
    (y2_eq m ρ c) (m2_eq m ρ c) (v2_eq m ρ c) (xout_eq m ρ c)
  rw [h, agg_eq m ρ c]
  have eW1 : matW (W3 m ρ c (Proc.devRef .tc main_v21)) = matT (matAt0 (m ((c : Thread nD τ).loc main_arg5))) := by
    rw [W3_main_v21, W2_main_arg5]; exact matW_transpose _ _
  have eb1 : rowOf (W3 m ρ c (Proc.devRef .tc main_v22)) = vec (rowAt0 (m ((c : Thread nD τ).loc main_arg6))) := by
    rw [W3_main_v22, W2_main_arg6]; exact rowOf_shapeCast _ _
  have eg1 : rowOf (W5 m ρ c (Proc.devRef .tc main_v43)) = vec (rowAt0 (m ((c : Thread nD τ).loc main_arg7))) := by
    rw [W5_main_v43, W4_main_arg7]; exact rowOf_shapeCast _ _
  have ebe1 : rowOf (W5 m ρ c (Proc.devRef .tc main_v44)) = vec (rowAt0 (m ((c : Thread nD τ).loc main_arg8))) := by
    rw [W5_main_v44, W4_main_arg8]; exact rowOf_shapeCast _ _
  have eW2 : matW (W5 m ρ c (Proc.devRef .tc main_v42)) = matT (matAt0 (m ((c : Thread nD τ).loc main_arg9))) := by
    rw [W5_main_v42, W4_main_arg9]; exact matW_transpose _ _
  have eb2 : rowOf (W5 m ρ c (Proc.devRef .tc main_v45)) = vec (rowAt0 (m ((c : Thread nD τ).loc main_arg10))) := by
    rw [W5_main_v45, W4_main_arg10]; exact rowOf_shapeCast _ _
  have eg2 : rowOf (W7 m ρ c (Proc.devRef .tc main_v61)) = vec (rowAt0 (m ((c : Thread nD τ).loc main_arg11))) := by
    rw [W7_main_v61, W6_main_arg11]; exact rowOf_shapeCast _ _
  have ebe2 : rowOf (W7 m ρ c (Proc.devRef .tc main_v62)) = vec (rowAt0 (m ((c : Thread nD τ).loc main_arg12))) := by
    rw [W7_main_v62, W6_main_arg12]; exact rowOf_shapeCast _ _
  rw [eW1, eb1, eg1, ebe1, eW2, eb2, eg2, ebe2]

end Cert.KernelIdeal.Asm0

end
-- ==== Proof.KRegion4.lean ====
/-
  Region 4 of the kernel program (a layer's first affine map, of the features plus the aggregated neighbours, with the per-block column sums of the result and of its square): each output array after the region as a function of the arrays the
  region finds, entry by entry. The grid has ten points; point t reads rows t·10000 … t·10000 + 9999 of each
  100000×128 input, all of each small input, and writes the same rows of each 100000×128 output and entry (t, 0, ·) of
  each 10×1×128 output. What a point writes is the body's arithmetic of its blocks, which is the matching block of one
  function of the whole arrays; the points' blocks cover each output array, so the array ends at that function.
-/
import proofs.«119304_j10247791968545_2_alg».proof.Proof.Gen.KernelIdeal.Frame
import proofs.«119304_j10247791968545_2_alg».proof.Proof.KPay
import Idealize.ShloMosaic.Lib.Pipeline.Value

set_option maxRecDepth 16384

noncomputable section

namespace Cert.KernelIdeal.RegionValue

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-! ## The arrays the region finds, under their literal types -/

/-- Input window 0's array as the region finds it. -/
abbrev a4_0 (c : Dev nD) : FVec Ideal S100000x128 .f32 := V c (Pipeline.arrRef spec4 0)
/-- Input window 1's array as the region finds it. -/
abbrev a4_1 (c : Dev nD) : FVec Ideal S100000x128 .f32 := V c (Pipeline.arrRef spec4 1)
/-- Input window 2's array as the region finds it. -/
abbrev a4_2 (c : Dev nD) : FVec Ideal S128x128 .f32 := V c (Pipeline.arrRef spec4 2)
/-- Input window 3's array as the region finds it. -/
abbrev a4_3 (c : Dev nD) : FVec Ideal S1x128 .f32 := V c (Pipeline.arrRef spec4 3)

/-! ## Where the block index maps send a grid point -/

theorem idx4_0 : ∀ t : Fin cfg4.N, win4_0.index t (0 : Fin 2) = t.val ∧ win4_0.index t (1 : Fin 2) = 0 :=
  (by decide +kernel : ∀ t : Fin grid4.N, _)
theorem idx4_1 : ∀ t : Fin cfg4.N, win4_1.index t (0 : Fin 2) = t.val ∧ win4_1.index t (1 : Fin 2) = 0 :=
  (by decide +kernel : ∀ t : Fin grid4.N, _)
theorem idx4_2 : ∀ t : Fin cfg4.N, win4_2.index t (0 : Fin 2) = 0 ∧ win4_2.index t (1 : Fin 2) = 0 :=
  (by decide +kernel : ∀ t : Fin grid4.N, _)
theorem idx4_3 : ∀ t : Fin cfg4.N, win4_3.index t (0 : Fin 2) = 0 ∧ win4_3.index t (1 : Fin 2) = 0 :=
  (by decide +kernel : ∀ t : Fin grid4.N, _)
theorem idx4_4 : ∀ t : Fin cfg4.N, win4_4.index t (0 : Fin 2) = t.val ∧ win4_4.index t (1 : Fin 2) = 0 :=
  (by decide +kernel : ∀ t : Fin grid4.N, _)
theorem idx4_5 : ∀ t : Fin cfg4.N, win4_5.index t (0 : Fin 3) = t.val ∧ win4_5.index t (1 : Fin 3) = 0 ∧ win4_5.index t (2 : Fin 3) = 0 :=
  (by decide +kernel : ∀ t : Fin grid4.N, _)
theorem idx4_6 : ∀ t : Fin cfg4.N, win4_6.index t (0 : Fin 3) = t.val ∧ win4_6.index t (1 : Fin 3) = 0 ∧ win4_6.index t (2 : Fin 3) = 0 :=
  (by decide +kernel : ∀ t : Fin grid4.N, _)

/-! ## The input windows' blocks, read off the arrays -/

/-- Point t's block of input window 0 is rows t·10000 … of the window's array. -/
theorem blk4_0 (c : Dev nD) (t : Fin cfg4.N) : IsBlock t.val (iblk4 V c 0 t) (a4_0 V c) := by
  intro j i hji
  obtain ⟨e0, e1⟩ := idx4_0 t
  have h0 := hji.1
  have h1 := hji.2
  show (a4_0 V c) (((cfg4.win 0).blk t).view.emb j) = (a4_0 V c) i
  refine congrArg (a4_0 V c) (funext fun a => Fin.ext ?_)
  match a with
  | ⟨0, _⟩ => show win4_0.index t (0 : Fin 2) * 10000 + 1 * (j 0).val = (i 0).val; rw [e0]; omega
  | ⟨1, _⟩ => show win4_0.index t (1 : Fin 2) * 128 + 1 * (j 1).val = (i 1).val; rw [e1]; omega

/-- Point t's block of input window 1 is rows t·10000 … of the window's array. -/
theorem blk4_1 (c : Dev nD) (t : Fin cfg4.N) : IsBlock t.val (iblk4 V c 1 t) (a4_1 V c) := by
  intro j i hji
  obtain ⟨e0, e1⟩ := idx4_1 t
  have h0 := hji.1
  have h1 := hji.2
  show (a4_1 V c) (((cfg4.win 1).blk t).view.emb j) = (a4_1 V c) i
  refine congrArg (a4_1 V c) (funext fun a => Fin.ext ?_)
  match a with
  | ⟨0, _⟩ => show win4_1.index t (0 : Fin 2) * 10000 + 1 * (j 0).val = (i 0).val; rw [e0]; omega
  | ⟨1, _⟩ => show win4_1.index t (1 : Fin 2) * 128 + 1 * (j 1).val = (i 1).val; rw [e1]; omega

/-- Input window 2's block at every point is its whole array. -/
theorem whole4_2 (c : Dev nD) (t : Fin cfg4.N) : iblk4 V c 2 t = (a4_2 V c) := by
  funext y
  obtain ⟨e0, e1⟩ := idx4_2 t
  show (a4_2 V c) (((cfg4.win 2).blk t).view.emb y) = (a4_2 V c) y
  refine congrArg (a4_2 V c) (funext fun a => Fin.ext ?_)
  match a with
  | ⟨0, _⟩ => show win4_2.index t (0 : Fin 2) * 128 + 1 * (y 0).val = (y 0).val; rw [e0]; omega
  | ⟨1, _⟩ => show win4_2.index t (1 : Fin 2) * 128 + 1 * (y 1).val = (y 1).val; rw [e1]; omega

/-- Input window 3's block at every point is its whole array. -/
theorem whole4_3 (c : Dev nD) (t : Fin cfg4.N) : iblk4 V c 3 t = (a4_3 V c) := by
  funext y
  obtain ⟨e0, e1⟩ := idx4_3 t
  show (a4_3 V c) (((cfg4.win 3).blk t).view.emb y) = (a4_3 V c) y
  refine congrArg (a4_3 V c) (funext fun a => Fin.ext ?_)
  match a with
  | ⟨0, _⟩ => show win4_3.index t (0 : Fin 2) * 1 + 1 * (y 0).val = (y 0).val; rw [e0]; omega
  | ⟨1, _⟩ => show win4_3.index t (1 : Fin 2) * 128 + 1 * (y 1).val = (y 1).val; rw [e1]; omega

/-! ## The body's stores, over arbitrary blocks: a block of rows of the array it was read from, the small blocks equal to
    their arrays -/

theorem k4_pay1_block (v0 v2 : Vec Ideal S10000x128 .f32) (v5 : Vec Ideal S128x128 .f32) (v8 : Vec Ideal S1x128 .f32)
    (X0 X1 : FVec Ideal S100000x128 .f32) (W : FVec Ideal S128x128 .f32) (B : FVec Ideal S1x128 .f32) (T : Nat)
    (h0 : IsBlock T v0 X0) (h1 : IsBlock T v2 X1) (e5 : v5 = W) (e8 : v8 = B) :
    IsBlock T (k4_pay1 v0 v2 v5 v8) (linG (addG X0 X1) W B) := by
  subst e5 e8
  unfold k4_pay1
  exact lin_block _ v5 v8 _ T (add_block v0 v2 X0 X1 T h0 h1 _) _ _ _

theorem k4_pay2_block (v0 v2 : Vec Ideal S10000x128 .f32) (v5 : Vec Ideal S128x128 .f32) (v8 : Vec Ideal S1x128 .f32)
    (X0 X1 : FVec Ideal S100000x128 .f32) (W : FVec Ideal S128x128 .f32) (B : FVec Ideal S1x128 .f32) (T : Nat)
    (h0 : IsBlock T v0 X0) (h1 : IsBlock T v2 X1) (e5 : v5 = W) (e8 : v8 = B)
    (j : S1x1x128.Idx) (i : S10x1x128.Idx) (hi0 : (i 0).val = T) (hi2 : (i 2).val = (j 2).val) :
    k4_pay2 v0 v2 v5 v8 j = sumG (linG (addG X0 X1) W B) i := by
  unfold k4_pay2
  exact colsum_block _ _ T (k4_pay1_block v0 v2 v5 v8 X0 X1 W B T h0 h1 e5 e8) _ _ _ _ _ j i hi0 hi2

theorem k4_pay3_block (v0 v2 : Vec Ideal S10000x128 .f32) (v5 : Vec Ideal S128x128 .f32) (v8 : Vec Ideal S1x128 .f32)
    (X0 X1 : FVec Ideal S100000x128 .f32) (W : FVec Ideal S128x128 .f32) (B : FVec Ideal S1x128 .f32) (T : Nat)
    (h0 : IsBlock T v0 X0) (h1 : IsBlock T v2 X1) (e5 : v5 = W) (e8 : v8 = B)
    (j : S1x1x128.Idx) (i : S10x1x128.Idx) (hi0 : (i 0).val = T) (hi2 : (i 2).val = (j 2).val) :
    k4_pay3 v0 v2 v5 v8 j = sumG (sqG (linG (addG X0 X1) W B)) i := by
  unfold k4_pay3
  exact colsum_block _ _ T (sq_block _ _ T (k4_pay1_block v0 v2 v5 v8 X0 X1 W B T h0 h1 e5 e8)) _ _ _ _ _ j i hi0 hi2

/-! ## The output windows: where a block sits, which points cover the array, what each point writes, the array after the region -/

theorem at4_4 (t : Fin cfg4.N) (j : S10000x128.Idx) : At t.val j (((cfg4.win 4).blk t).view.emb j) := by
  obtain ⟨e0, e1⟩ := idx4_4 t
  constructor
  · show win4_4.index t (0 : Fin 2) * 10000 + 1 * (j 0).val = _; rw [e0]; omega
  · show win4_4.index t (1 : Fin 2) * 128 + 1 * (j 1).val = _; rw [e1]; omega

theorem mem4_4 (t : Fin cfg4.N) (i : S100000x128.Idx) :
    i ∈ ((cfg4.win 4).blk t).view.set ↔ ∀ a : Fin 2, win4_4.index t a * S10000x128.size a ≤ (i a).val
      ∧ (i a).val < win4_4.index t a * S10000x128.size a + S10000x128.size a := by
  show i ∈ ((View.whole main_v80_0).slice (win4_4.rect t)).set ↔ _
  rw [View.set_slice_whole, Rect.mem_set_unit]
  exact Iff.rfl

/-- Row p is in the block of point p / 10000. -/
theorem cover4_4 (i : S100000x128.Idx) :
    ∃ t : Fin cfg4.N, (cfg4.win 4).flush t = true ∧ i ∈ ((cfg4.win 4).blk t).view.set := by
  have h0 : (i 0).val < 100000 := (i 0).isLt
  have h1 : (i 1).val < 128 := (i 1).isLt
  have hN : cfg4.N = 10 := N_4
  refine ⟨⟨(i 0).val / 10000, by rw [hN]; omega⟩, flush4_4 _, ?_⟩
  rw [mem4_4]
  obtain ⟨e0, e1⟩ := idx4_4 ⟨(i 0).val / 10000, by rw [hN]; omega⟩
  intro a
  match a with
  | ⟨0, _⟩ =>
    show win4_4.index _ (0 : Fin 2) * 10000 ≤ (i 0).val ∧ (i 0).val < win4_4.index _ (0 : Fin 2) * 10000 + 10000
    rw [e0]
    show (i 0).val / 10000 * 10000 ≤ (i 0).val ∧ (i 0).val < (i 0).val / 10000 * 10000 + 10000
    omega
  | ⟨1, _⟩ =>
    show win4_4.index _ (1 : Fin 2) * 128 ≤ (i 1).val ∧ (i 1).val < win4_4.index _ (1 : Fin 2) * 128 + 128
    rw [e1]
    omega

/-- What point t writes back to window 4's array is its block of the whole-array function. -/
theorem flushed4_4 (c : Dev nD) (t : Fin cfg4.N) :
    (dat4 V c).flushed 4 t = ((cfg4.win 4).blk t).view.read (Elt Ideal) (linG (addG (a4_0 V c) (a4_1 V c)) (a4_2 V c) (a4_3 V c)) := by
  show (cfg4.win 4).cut (grid4.coords t) ((dat4 V c).after 4 t) = _
  rw [after4_4]
  unfold out4_4
  rw [View.canon_unit_zero hz2]
  simp only [View.ld_unit_zero (S := S10000x128) hz2, View.ld_unit_zero (S := S128x128) hz2, View.ld_unit_zero (S := S1x128) hz2]
  funext j
  show k4_pay1 (iblk4 V c 0 t) (iblk4 V c 1 t) (iblk4 V c 2 t) (iblk4 V c 3 t) j = (linG (addG (a4_0 V c) (a4_1 V c)) (a4_2 V c) (a4_3 V c)) (((cfg4.win 4).blk t).view.emb j)
  exact k4_pay1_block (iblk4 V c 0 t) (iblk4 V c 1 t) (iblk4 V c 2 t) (iblk4 V c 3 t) (a4_0 V c) (a4_1 V c) (a4_2 V c) (a4_3 V c) t.val (blk4_0 V c t) (blk4_1 V c t) (whole4_2 V c t) (whole4_3 V c t) j (((cfg4.win 4).blk t).view.emb j) (at4_4 t j)

/-- Window 4's array after the region. -/
theorem arr4_4 (c : Dev nD) : (dat4 V c).arrAt 4 cfg4.N = linG (addG (a4_0 V c) (a4_1 V c)) (a4_2 V c) (a4_3 V c) :=
  (dat4 V c).arrAt_eq_of_cover 4 _ (fun t _ => flushed4_4 V c t) cover4_4

/-- The same, with the arrays spelt as the region's proof data spells them. -/
theorem final4_4 (c : Dev nD) : (dat4 V c).arrAt 4 cfg4.N = linG (addG (V c (Pipeline.arrRef spec4 0)) (V c (Pipeline.arrRef spec4 1))) (V c (Pipeline.arrRef spec4 2)) (V c (Pipeline.arrRef spec4 3)) :=
  arr4_4 V c

theorem at4_5 (t : Fin cfg4.N) (j : S1x1x128.Idx) :
    (((cfg4.win 5).blk t).view.emb j 0).val = t.val ∧ (((cfg4.win 5).blk t).view.emb j 2).val = (j 2).val := by
  obtain ⟨e0, e1, e2⟩ := idx4_5 t
  have h0 : (j 0).val < 1 := (j 0).isLt
  constructor
  · show win4_5.index t (0 : Fin 3) * 1 + 1 * (j 0).val = _; rw [e0]; omega
  · show win4_5.index t (2 : Fin 3) * 128 + 1 * (j 2).val = _; rw [e2]; omega

theorem mem4_5 (t : Fin cfg4.N) (i : S10x1x128.Idx) :
    i ∈ ((cfg4.win 5).blk t).view.set ↔ ∀ a : Fin 3, win4_5.index t a * S1x1x128.size a ≤ (i a).val
      ∧ (i a).val < win4_5.index t a * S1x1x128.size a + S1x1x128.size a := by
  show i ∈ ((View.whole main_v80_1).slice (win4_5.rect t)).set ↔ _
  rw [View.set_slice_whole, Rect.mem_set_unit]
  exact Iff.rfl

/-- Entry (b, 0, q) is in the block of point b. -/
theorem cover4_5 (i : S10x1x128.Idx) :
    ∃ t : Fin cfg4.N, (cfg4.win 5).flush t = true ∧ i ∈ ((cfg4.win 5).blk t).view.set := by
  have h0 : (i 0).val < 10 := (i 0).isLt
  have h1 : (i 1).val < 1 := (i 1).isLt
  have h2 : (i 2).val < 128 := (i 2).isLt
  have hN : cfg4.N = 10 := N_4
  refine ⟨⟨(i 0).val, by rw [hN]; omega⟩, flush4_5 _, ?_⟩
  rw [mem4_5]
  obtain ⟨e0, e1, e2⟩ := idx4_5 ⟨(i 0).val, by rw [hN]; omega⟩
  intro a
  match a with
  | ⟨0, _⟩ =>
    show win4_5.index _ (0 : Fin 3) * 1 ≤ (i 0).val ∧ (i 0).val < win4_5.index _ (0 : Fin 3) * 1 + 1
    rw [e0]
    show (i 0).val * 1 ≤ (i 0).val ∧ (i 0).val < (i 0).val * 1 + 1
    omega
  | ⟨1, _⟩ =>
    show win4_5.index _ (1 : Fin 3) * 1 ≤ (i 1).val ∧ (i 1).val < win4_5.index _ (1 : Fin 3) * 1 + 1
    rw [e1]
    omega
  | ⟨2, _⟩ =>
    show win4_5.index _ (2 : Fin 3) * 128 ≤ (i 2).val ∧ (i 2).val < win4_5.index _ (2 : Fin 3) * 128 + 128
    rw [e2]
    omega

/-- What point t writes back to window 5's array is its block of the whole-array function. -/
theorem flushed4_5 (c : Dev nD) (t : Fin cfg4.N) :
    (dat4 V c).flushed 5 t = ((cfg4.win 5).blk t).view.read (Elt Ideal) (sumG (linG (addG (a4_0 V c) (a4_1 V c)) (a4_2 V c) (a4_3 V c))) := by
  show (cfg4.win 5).cut (grid4.coords t) ((dat4 V c).after 5 t) = _
  rw [after4_5]
  unfold out4_5
  rw [View.canon_unit_zero hz3]
  simp only [View.ld_unit_zero (S := S10000x128) hz2, View.ld_unit_zero (S := S128x128) hz2, View.ld_unit_zero (S := S1x128) hz2]
  funext j
  show k4_pay2 (iblk4 V c 0 t) (iblk4 V c 1 t) (iblk4 V c 2 t) (iblk4 V c 3 t) j = (sumG (linG (addG (a4_0 V c) (a4_1 V c)) (a4_2 V c) (a4_3 V c))) (((cfg4.win 5).blk t).view.emb j)
  exact k4_pay2_block (iblk4 V c 0 t) (iblk4 V c 1 t) (iblk4 V c 2 t) (iblk4 V c 3 t) (a4_0 V c) (a4_1 V c) (a4_2 V c) (a4_3 V c) t.val (blk4_0 V c t) (blk4_1 V c t) (whole4_2 V c t) (whole4_3 V c t) j (((cfg4.win 5).blk t).view.emb j) (at4_5 t j).1 (at4_5 t j).2

/-- Window 5's array after the region. -/
theorem arr4_5 (c : Dev nD) : (dat4 V c).arrAt 5 cfg4.N = sumG (linG (addG (a4_0 V c) (a4_1 V c)) (a4_2 V c) (a4_3 V c)) :=
  (dat4 V c).arrAt_eq_of_cover 5 _ (fun t _ => flushed4_5 V c t) cover4_5

/-- The same, with the arrays spelt as the region's proof data spells them. -/
theorem final4_5 (c : Dev nD) : (dat4 V c).arrAt 5 cfg4.N = sumG (linG (addG (V c (Pipeline.arrRef spec4 0)) (V c (Pipeline.arrRef spec4 1))) (V c (Pipeline.arrRef spec4 2)) (V c (Pipeline.arrRef spec4 3))) :=
  arr4_5 V c

theorem at4_6 (t : Fin cfg4.N) (j : S1x1x128.Idx) :
    (((cfg4.win 6).blk t).view.emb j 0).val = t.val ∧ (((cfg4.win 6).blk t).view.emb j 2).val = (j 2).val := by
  obtain ⟨e0, e1, e2⟩ := idx4_6 t
  have h0 : (j 0).val < 1 := (j 0).isLt
  constructor
  · show win4_6.index t (0 : Fin 3) * 1 + 1 * (j 0).val = _; rw [e0]; omega
  · show win4_6.index t (2 : Fin 3) * 128 + 1 * (j 2).val = _; rw [e2]; omega

theorem mem4_6 (t : Fin cfg4.N) (i : S10x1x128.Idx) :
    i ∈ ((cfg4.win 6).blk t).view.set ↔ ∀ a : Fin 3, win4_6.index t a * S1x1x128.size a ≤ (i a).val
      ∧ (i a).val < win4_6.index t a * S1x1x128.size a + S1x1x128.size a := by
  show i ∈ ((View.whole main_v80_2).slice (win4_6.rect t)).set ↔ _
  rw [View.set_slice_whole, Rect.mem_set_unit]
  exact Iff.rfl

/-- Entry (b, 0, q) is in the block of point b. -/
theorem cover4_6 (i : S10x1x128.Idx) :
    ∃ t : Fin cfg4.N, (cfg4.win 6).flush t = true ∧ i ∈ ((cfg4.win 6).blk t).view.set := by
  have h0 : (i 0).val < 10 := (i 0).isLt
  have h1 : (i 1).val < 1 := (i 1).isLt
  have h2 : (i 2).val < 128 := (i 2).isLt
  have hN : cfg4.N = 10 := N_4
  refine ⟨⟨(i 0).val, by rw [hN]; omega⟩, flush4_6 _, ?_⟩
  rw [mem4_6]
  obtain ⟨e0, e1, e2⟩ := idx4_6 ⟨(i 0).val, by rw [hN]; omega⟩
  intro a
  match a with
  | ⟨0, _⟩ =>
    show win4_6.index _ (0 : Fin 3) * 1 ≤ (i 0).val ∧ (i 0).val < win4_6.index _ (0 : Fin 3) * 1 + 1
    rw [e0]
    show (i 0).val * 1 ≤ (i 0).val ∧ (i 0).val < (i 0).val * 1 + 1
    omega
  | ⟨1, _⟩ =>
    show win4_6.index _ (1 : Fin 3) * 1 ≤ (i 1).val ∧ (i 1).val < win4_6.index _ (1 : Fin 3) * 1 + 1
    rw [e1]
    omega
  | ⟨2, _⟩ =>
    show win4_6.index _ (2 : Fin 3) * 128 ≤ (i 2).val ∧ (i 2).val < win4_6.index _ (2 : Fin 3) * 128 + 128
    rw [e2]
    omega

/-- What point t writes back to window 6's array is its block of the whole-array function. -/
theorem flushed4_6 (c : Dev nD) (t : Fin cfg4.N) :
    (dat4 V c).flushed 6 t = ((cfg4.win 6).blk t).view.read (Elt Ideal) (sumG (sqG (linG (addG (a4_0 V c) (a4_1 V c)) (a4_2 V c) (a4_3 V c)))) := by
  show (cfg4.win 6).cut (grid4.coords t) ((dat4 V c).after 6 t) = _
  rw [after4_6]
  unfold out4_6
  rw [View.canon_unit_zero hz3]
  simp only [View.ld_unit_zero (S := S10000x128) hz2, View.ld_unit_zero (S := S128x128) hz2, View.ld_unit_zero (S := S1x128) hz2]
  funext j
  show k4_pay3 (iblk4 V c 0 t) (iblk4 V c 1 t) (iblk4 V c 2 t) (iblk4 V c 3 t) j = (sumG (sqG (linG (addG (a4_0 V c) (a4_1 V c)) (a4_2 V c) (a4_3 V c)))) (((cfg4.win 6).blk t).view.emb j)
  exact k4_pay3_block (iblk4 V c 0 t) (iblk4 V c 1 t) (iblk4 V c 2 t) (iblk4 V c 3 t) (a4_0 V c) (a4_1 V c) (a4_2 V c) (a4_3 V c) t.val (blk4_0 V c t) (blk4_1 V c t) (whole4_2 V c t) (whole4_3 V c t) j (((cfg4.win 6).blk t).view.emb j) (at4_6 t j).1 (at4_6 t j).2

/-- Window 6's array after the region. -/
theorem arr4_6 (c : Dev nD) : (dat4 V c).arrAt 6 cfg4.N = sumG (sqG (linG (addG (a4_0 V c) (a4_1 V c)) (a4_2 V c) (a4_3 V c))) :=
  (dat4 V c).arrAt_eq_of_cover 6 _ (fun t _ => flushed4_6 V c t) cover4_6

/-- The same, with the arrays spelt as the region's proof data spells them. -/
theorem final4_6 (c : Dev nD) : (dat4 V c).arrAt 6 cfg4.N = sumG (sqG (linG (addG (V c (Pipeline.arrRef spec4 0)) (V c (Pipeline.arrRef spec4 1))) (V c (Pipeline.arrRef spec4 2)) (V c (Pipeline.arrRef spec4 3)))) :=
  arr4_6 V c

end Cert.KernelIdeal.RegionValue

end
-- ==== Proof.KRegion5.lean ====
/-
  Region 5 of the kernel program (a layer's first normalisation and rectifier followed by its second affine map, with the per-block column sums of the result and of its square): each output array after the region as a function of the arrays the
  region finds, entry by entry. The grid has ten points; point t reads rows t·10000 … t·10000 + 9999 of each
  100000×128 input, all of each small input, and writes the same rows of each 100000×128 output and entry (t, 0, ·) of
  each 10×1×128 output. What a point writes is the body's arithmetic of its blocks, which is the matching block of one
  function of the whole arrays; the points' blocks cover each output array, so the array ends at that function.
-/
import proofs.«119304_j10247791968545_2_alg».proof.Proof.Gen.KernelIdeal.Frame
import proofs.«119304_j10247791968545_2_alg».proof.Proof.KPay
import Idealize.ShloMosaic.Lib.Pipeline.Value

set_option maxRecDepth 16384

noncomputable section

namespace Cert.KernelIdeal.RegionValue

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-! ## The arrays the region finds, under their literal types -/

/-- Input window 0's array as the region finds it. -/
abbrev a5_0 (c : Dev nD) : FVec Ideal S100000x128 .f32 := V c (Pipeline.arrRef spec5 0)
/-- Input window 1's array as the region finds it. -/
abbrev a5_1 (c : Dev nD) : FVec Ideal S1x128 .f32 := V c (Pipeline.arrRef spec5 1)
/-- Input window 2's array as the region finds it. -/
abbrev a5_2 (c : Dev nD) : FVec Ideal S1x128 .f32 := V c (Pipeline.arrRef spec5 2)
/-- Input window 3's array as the region finds it. -/
abbrev a5_3 (c : Dev nD) : FVec Ideal S1x128 .f32 := V c (Pipeline.arrRef spec5 3)
/-- Input window 4's array as the region finds it. -/
abbrev a5_4 (c : Dev nD) : FVec Ideal S1x128 .f32 := V c (Pipeline.arrRef spec5 4)
/-- Input window 5's array as the region finds it. -/
abbrev a5_5 (c : Dev nD) : FVec Ideal S128x128 .f32 := V c (Pipeline.arrRef spec5 5)
/-- Input window 6's array as the region finds it. -/
abbrev a5_6 (c : Dev nD) : FVec Ideal S1x128 .f32 := V c (Pipeline.arrRef spec5 6)

/-! ## Where the block index maps send a grid point -/

theorem idx5_0 : ∀ t : Fin cfg5.N, win5_0.index t (0 : Fin 2) = t.val ∧ win5_0.index t (1 : Fin 2) = 0 :=
  (by decide +kernel : ∀ t : Fin grid5.N, _)
theorem idx5_1 : ∀ t : Fin cfg5.N, win5_1.index t (0 : Fin 2) = 0 ∧ win5_1.index t (1 : Fin 2) = 0 :=
  (by decide +kernel : ∀ t : Fin grid5.N, _)
theorem idx5_2 : ∀ t : Fin cfg5.N, win5_2.index t (0 : Fin 2) = 0 ∧ win5_2.index t (1 : Fin 2) = 0 :=
  (by decide +kernel : ∀ t : Fin grid5.N, _)
theorem idx5_3 : ∀ t : Fin cfg5.N, win5_3.index t (0 : Fin 2) = 0 ∧ win5_3.index t (1 : Fin 2) = 0 :=
  (by decide +kernel : ∀ t : Fin grid5.N, _)
theorem idx5_4 : ∀ t : Fin cfg5.N, win5_4.index t (0 : Fin 2) = 0 ∧ win5_4.index t (1 : Fin 2) = 0 :=
  (by decide +kernel : ∀ t : Fin grid5.N, _)
theorem idx5_5 : ∀ t : Fin cfg5.N, win5_5.index t (0 : Fin 2) = 0 ∧ win5_5.index t (1 : Fin 2) = 0 :=
  (by decide +kernel : ∀ t : Fin grid5.N, _)
theorem idx5_6 : ∀ t : Fin cfg5.N, win5_6.index t (0 : Fin 2) = 0 ∧ win5_6.index t (1 : Fin 2) = 0 :=
  (by decide +kernel : ∀ t : Fin grid5.N, _)
theorem idx5_7 : ∀ t : Fin cfg5.N, win5_7.index t (0 : Fin 2) = t.val ∧ win5_7.index t (1 : Fin 2) = 0 :=
  (by decide +kernel : ∀ t : Fin grid5.N, _)
theorem idx5_8 : ∀ t : Fin cfg5.N, win5_8.index t (0 : Fin 3) = t.val ∧ win5_8.index t (1 : Fin 3) = 0 ∧ win5_8.index t (2 : Fin 3) = 0 :=
  (by decide +kernel : ∀ t : Fin grid5.N, _)
theorem idx5_9 : ∀ t : Fin cfg5.N, win5_9.index t (0 : Fin 3) = t.val ∧ win5_9.index t (1 : Fin 3) = 0 ∧ win5_9.index t (2 : Fin 3) = 0 :=
  (by decide +kernel : ∀ t : Fin grid5.N, _)

/-! ## The input windows' blocks, read off the arrays -/

/-- Point t's block of input window 0 is rows t·10000 … of the window's array. -/
theorem blk5_0 (c : Dev nD) (t : Fin cfg5.N) : IsBlock t.val (iblk5 V c 0 t) (a5_0 V c) := by
  intro j i hji
  obtain ⟨e0, e1⟩ := idx5_0 t
  have h0 := hji.1
  have h1 := hji.2
  show (a5_0 V c) (((cfg5.win 0).blk t).view.emb j) = (a5_0 V c) i
  refine congrArg (a5_0 V c) (funext fun a => Fin.ext ?_)
  match a with
  | ⟨0, _⟩ => show win5_0.index t (0 : Fin 2) * 10000 + 1 * (j 0).val = (i 0).val; rw [e0]; omega
  | ⟨1, _⟩ => show win5_0.index t (1 : Fin 2) * 128 + 1 * (j 1).val = (i 1).val; rw [e1]; omega

/-- Input window 1's block at every point is its whole array. -/
theorem whole5_1 (c : Dev nD) (t : Fin cfg5.N) : iblk5 V c 1 t = (a5_1 V c) := by
  funext y
  obtain ⟨e0, e1⟩ := idx5_1 t
  show (a5_1 V c) (((cfg5.win 1).blk t).view.emb y) = (a5_1 V c) y
  refine congrArg (a5_1 V c) (funext fun a => Fin.ext ?_)
  match a with
  | ⟨0, _⟩ => show win5_1.index t (0 : Fin 2) * 1 + 1 * (y 0).val = (y 0).val; rw [e0]; omega
  | ⟨1, _⟩ => show win5_1.index t (1 : Fin 2) * 128 + 1 * (y 1).val = (y 1).val; rw [e1]; omega

/-- Input window 2's block at every point is its whole array. -/
theorem whole5_2 (c : Dev nD) (t : Fin cfg5.N) : iblk5 V c 2 t = (a5_2 V c) := by
  funext y
  obtain ⟨e0, e1⟩ := idx5_2 t
  show (a5_2 V c) (((cfg5.win 2).blk t).view.emb y) = (a5_2 V c) y
  refine congrArg (a5_2 V c) (funext fun a => Fin.ext ?_)
  match a with
  | ⟨0, _⟩ => show win5_2.index t (0 : Fin 2) * 1 + 1 * (y 0).val = (y 0).val; rw [e0]; omega
  | ⟨1, _⟩ => show win5_2.index t (1 : Fin 2) * 128 + 1 * (y 1).val = (y 1).val; rw [e1]; omega

/-- Input window 3's block at every point is its whole array. -/
theorem whole5_3 (c : Dev nD) (t : Fin cfg5.N) : iblk5 V c 3 t = (a5_3 V c) := by
  funext y
  obtain ⟨e0, e1⟩ := idx5_3 t
  show (a5_3 V c) (((cfg5.win 3).blk t).view.emb y) = (a5_3 V c) y
  refine congrArg (a5_3 V c) (funext fun a => Fin.ext ?_)
  match a with
  | ⟨0, _⟩ => show win5_3.index t (0 : Fin 2) * 1 + 1 * (y 0).val = (y 0).val; rw [e0]; omega
  | ⟨1, _⟩ => show win5_3.index t (1 : Fin 2) * 128 + 1 * (y 1).val = (y 1).val; rw [e1]; omega

/-- Input window 4's block at every point is its whole array. -/
theorem whole5_4 (c : Dev nD) (t : Fin cfg5.N) : iblk5 V c 4 t = (a5_4 V c) := by
  funext y
  obtain ⟨e0, e1⟩ := idx5_4 t
  show (a5_4 V c) (((cfg5.win 4).blk t).view.emb y) = (a5_4 V c) y
  refine congrArg (a5_4 V c) (funext fun a => Fin.ext ?_)
  match a with
  | ⟨0, _⟩ => show win5_4.index t (0 : Fin 2) * 1 + 1 * (y 0).val = (y 0).val; rw [e0]; omega
  | ⟨1, _⟩ => show win5_4.index t (1 : Fin 2) * 128 + 1 * (y 1).val = (y 1).val; rw [e1]; omega

/-- Input window 5's block at every point is its whole array. -/
theorem whole5_5 (c : Dev nD) (t : Fin cfg5.N) : iblk5 V c 5 t = (a5_5 V c) := by
  funext y
  obtain ⟨e0, e1⟩ := idx5_5 t
  show (a5_5 V c) (((cfg5.win 5).blk t).view.emb y) = (a5_5 V c) y
  refine congrArg (a5_5 V c) (funext fun a => Fin.ext ?_)
  match a with
  | ⟨0, _⟩ => show win5_5.index t (0 : Fin 2) * 128 + 1 * (y 0).val = (y 0).val; rw [e0]; omega
  | ⟨1, _⟩ => show win5_5.index t (1 : Fin 2) * 128 + 1 * (y 1).val = (y 1).val; rw [e1]; omega

/-- Input window 6's block at every point is its whole array. -/
theorem whole5_6 (c : Dev nD) (t : Fin cfg5.N) : iblk5 V c 6 t = (a5_6 V c) := by
  funext y
  obtain ⟨e0, e1⟩ := idx5_6 t
  show (a5_6 V c) (((cfg5.win 6).blk t).view.emb y) = (a5_6 V c) y
  refine congrArg (a5_6 V c) (funext fun a => Fin.ext ?_)
  match a with
  | ⟨0, _⟩ => show win5_6.index t (0 : Fin 2) * 1 + 1 * (y 0).val = (y 0).val; rw [e0]; omega
  | ⟨1, _⟩ => show win5_6.index t (1 : Fin 2) * 128 + 1 * (y 1).val = (y 1).val; rw [e1]; omega

/-! ## The body's stores, over arbitrary blocks: a block of rows of the array it was read from, the small blocks equal to
    their arrays -/

theorem k5_pay2_block (v0 : Vec Ideal S10000x128 .f32) (v2 v7 v9 v17 : Vec Ideal S1x128 .f32) (v23 : Vec Ideal S128x128 .f32)
    (v26 : Vec Ideal S1x128 .f32) (Y : FVec Ideal S100000x128 .f32) (M Vr G Be : FVec Ideal S1x128 .f32)
    (W : FVec Ideal S128x128 .f32) (B : FVec Ideal S1x128 .f32) (T : Nat) (h0 : IsBlock T v0 Y)
    (e2 : v2 = Vr) (e7 : v7 = G) (e9 : v9 = M) (e17 : v17 = Be) (e23 : v23 = W) (e26 : v26 = B) :
    IsBlock T (k5_pay2 v0 v2 v7 v9 v17 v23 v26) (linG (bnG Y M Vr G Be) W B) := by
  subst e2 e7 e9 e17 e23 e26
  unfold k5_pay2
  exact lin_block _ v23 v26 _ T (bn_block v0 v2 v7 v9 v17 Y T h0 _ _ _) _ _ _

theorem k5_pay3_block (v0 : Vec Ideal S10000x128 .f32) (v2 v7 v9 v17 : Vec Ideal S1x128 .f32) (v23 : Vec Ideal S128x128 .f32)
    (v26 : Vec Ideal S1x128 .f32) (Y : FVec Ideal S100000x128 .f32) (M Vr G Be : FVec Ideal S1x128 .f32)
    (W : FVec Ideal S128x128 .f32) (B : FVec Ideal S1x128 .f32) (T : Nat) (h0 : IsBlock T v0 Y)
    (e2 : v2 = Vr) (e7 : v7 = G) (e9 : v9 = M) (e17 : v17 = Be) (e23 : v23 = W) (e26 : v26 = B)
    (j : S1x1x128.Idx) (i : S10x1x128.Idx) (hi0 : (i 0).val = T) (hi2 : (i 2).val = (j 2).val) :
    k5_pay3 v0 v2 v7 v9 v17 v23 v26 j = sumG (linG (bnG Y M Vr G Be) W B) i := by
  unfold k5_pay3
  exact colsum_block _ _ T (k5_pay2_block v0 v2 v7 v9 v17 v23 v26 Y M Vr G Be W B T h0 e2 e7 e9 e17 e23 e26) _ _ _ _ _ j i hi0 hi2

theorem k5_pay1_block (v29 : FVec Ideal S10000x128 .f32) (Z : FVec Ideal S100000x128 .f32) (T : Nat) (h : IsBlock T v29 Z)
    (j : S1x1x128.Idx) (i : S10x1x128.Idx) (hi0 : (i 0).val = T) (hi2 : (i 2).val = (j 2).val) :
    k5_pay1 v29 j = sumG (sqG Z) i := by
  unfold k5_pay1
  exact colsum_block _ _ T (sq_block v29 Z T h) _ _ _ _ _ j i hi0 hi2

/-! ## The output windows: where a block sits, which points cover the array, what each point writes, the array after the region -/

theorem at5_7 (t : Fin cfg5.N) (j : S10000x128.Idx) : At t.val j (((cfg5.win 7).blk t).view.emb j) := by
  obtain ⟨e0, e1⟩ := idx5_7 t
  constructor
  · show win5_7.index t (0 : Fin 2) * 10000 + 1 * (j 0).val = _; rw [e0]; omega
  · show win5_7.index t (1 : Fin 2) * 128 + 1 * (j 1).val = _; rw [e1]; omega

theorem mem5_7 (t : Fin cfg5.N) (i : S100000x128.Idx) :
    i ∈ ((cfg5.win 7).blk t).view.set ↔ ∀ a : Fin 2, win5_7.index t a * S10000x128.size a ≤ (i a).val
      ∧ (i a).val < win5_7.index t a * S10000x128.size a + S10000x128.size a := by
  show i ∈ ((View.whole main_v103_0).slice (win5_7.rect t)).set ↔ _
  rw [View.set_slice_whole, Rect.mem_set_unit]
  exact Iff.rfl

/-- Row p is in the block of point p / 10000. -/
theorem cover5_7 (i : S100000x128.Idx) :
    ∃ t : Fin cfg5.N, (cfg5.win 7).flush t = true ∧ i ∈ ((cfg5.win 7).blk t).view.set := by
  have h0 : (i 0).val < 100000 := (i 0).isLt
  have h1 : (i 1).val < 128 := (i 1).isLt
  have hN : cfg5.N = 10 := N_5
  refine ⟨⟨(i 0).val / 10000, by rw [hN]; omega⟩, flush5_7 _, ?_⟩
  rw [mem5_7]
  obtain ⟨e0, e1⟩ := idx5_7 ⟨(i 0).val / 10000, by rw [hN]; omega⟩
  intro a
  match a with
  | ⟨0, _⟩ =>
    show win5_7.index _ (0 : Fin 2) * 10000 ≤ (i 0).val ∧ (i 0).val < win5_7.index _ (0 : Fin 2) * 10000 + 10000
    rw [e0]
    show (i 0).val / 10000 * 10000 ≤ (i 0).val ∧ (i 0).val < (i 0).val / 10000 * 10000 + 10000
    omega
  | ⟨1, _⟩ =>
    show win5_7.index _ (1 : Fin 2) * 128 ≤ (i 1).val ∧ (i 1).val < win5_7.index _ (1 : Fin 2) * 128 + 128
    rw [e1]
    omega

/-- What point t writes back to window 7's array is its block of the whole-array function. -/
theorem flushed5_7 (c : Dev nD) (t : Fin cfg5.N) :
    (dat5 V c).flushed 7 t = ((cfg5.win 7).blk t).view.read (Elt Ideal) (linG (bnG (a5_0 V c) (a5_1 V c) (a5_2 V c) (a5_3 V c) (a5_4 V c)) (a5_5 V c) (a5_6 V c)) := by
  show (cfg5.win 7).cut (grid5.coords t) ((dat5 V c).after 7 t) = _
  rw [after5_7]
  unfold out5_7
  rw [View.canon_unit_zero hz2]
  simp only [View.ld_unit_zero (S := S10000x128) hz2, View.ld_unit_zero (S := S128x128) hz2, View.ld_unit_zero (S := S1x128) hz2]
  funext j
  show k5_pay2 (iblk5 V c 0 t) (iblk5 V c 2 t) (iblk5 V c 3 t) (iblk5 V c 1 t) (iblk5 V c 4 t) (iblk5 V c 5 t) (iblk5 V c 6 t) j = (linG (bnG (a5_0 V c) (a5_1 V c) (a5_2 V c) (a5_3 V c) (a5_4 V c)) (a5_5 V c) (a5_6 V c)) (((cfg5.win 7).blk t).view.emb j)
  exact k5_pay2_block (iblk5 V c 0 t) (iblk5 V c 2 t) (iblk5 V c 3 t) (iblk5 V c 1 t) (iblk5 V c 4 t) (iblk5 V c 5 t) (iblk5 V c 6 t) (a5_0 V c) (a5_1 V c) (a5_2 V c) (a5_3 V c) (a5_4 V c) (a5_5 V c) (a5_6 V c) t.val (blk5_0 V c t) (whole5_2 V c t) (whole5_3 V c t) (whole5_1 V c t) (whole5_4 V c t) (whole5_5 V c t) (whole5_6 V c t) j (((cfg5.win 7).blk t).view.emb j) (at5_7 t j)

/-- Window 7's array after the region. -/
theorem arr5_7 (c : Dev nD) : (dat5 V c).arrAt 7 cfg5.N = linG (bnG (a5_0 V c) (a5_1 V c) (a5_2 V c) (a5_3 V c) (a5_4 V c)) (a5_5 V c) (a5_6 V c) :=
  (dat5 V c).arrAt_eq_of_cover 7 _ (fun t _ => flushed5_7 V c t) cover5_7

/-- The same, with the arrays spelt as the region's proof data spells them. -/
theorem final5_7 (c : Dev nD) : (dat5 V c).arrAt 7 cfg5.N = linG (bnG (V c (Pipeline.arrRef spec5 0)) (V c (Pipeline.arrRef spec5 1)) (V c (Pipeline.arrRef spec5 2)) (V c (Pipeline.arrRef spec5 3)) (V c (Pipeline.arrRef spec5 4))) (V c (Pipeline.arrRef spec5 5)) (V c (Pipeline.arrRef spec5 6)) :=
  arr5_7 V c

theorem at5_8 (t : Fin cfg5.N) (j : S1x1x128.Idx) :
    (((cfg5.win 8).blk t).view.emb j 0).val = t.val ∧ (((cfg5.win 8).blk t).view.emb j 2).val = (j 2).val := by
  obtain ⟨e0, e1, e2⟩ := idx5_8 t
  have h0 : (j 0).val < 1 := (j 0).isLt
  constructor
  · show win5_8.index t (0 : Fin 3) * 1 + 1 * (j 0).val = _; rw [e0]; omega
  · show win5_8.index t (2 : Fin 3) * 128 + 1 * (j 2).val = _; rw [e2]; omega

theorem mem5_8 (t : Fin cfg5.N) (i : S10x1x128.Idx) :
    i ∈ ((cfg5.win 8).blk t).view.set ↔ ∀ a : Fin 3, win5_8.index t a * S1x1x128.size a ≤ (i a).val
      ∧ (i a).val < win5_8.index t a * S1x1x128.size a + S1x1x128.size a := by
  show i ∈ ((View.whole main_v103_1).slice (win5_8.rect t)).set ↔ _
  rw [View.set_slice_whole, Rect.mem_set_unit]
  exact Iff.rfl

/-- Entry (b, 0, q) is in the block of point b. -/
theorem cover5_8 (i : S10x1x128.Idx) :
    ∃ t : Fin cfg5.N, (cfg5.win 8).flush t = true ∧ i ∈ ((cfg5.win 8).blk t).view.set := by
  have h0 : (i 0).val < 10 := (i 0).isLt
  have h1 : (i 1).val < 1 := (i 1).isLt
  have h2 : (i 2).val < 128 := (i 2).isLt
  have hN : cfg5.N = 10 := N_5
  refine ⟨⟨(i 0).val, by rw [hN]; omega⟩, flush5_8 _, ?_⟩
  rw [mem5_8]
  obtain ⟨e0, e1, e2⟩ := idx5_8 ⟨(i 0).val, by rw [hN]; omega⟩
  intro a
  match a with
  | ⟨0, _⟩ =>
    show win5_8.index _ (0 : Fin 3) * 1 ≤ (i 0).val ∧ (i 0).val < win5_8.index _ (0 : Fin 3) * 1 + 1
    rw [e0]
    show (i 0).val * 1 ≤ (i 0).val ∧ (i 0).val < (i 0).val * 1 + 1
    omega
  | ⟨1, _⟩ =>
    show win5_8.index _ (1 : Fin 3) * 1 ≤ (i 1).val ∧ (i 1).val < win5_8.index _ (1 : Fin 3) * 1 + 1
    rw [e1]
    omega
  | ⟨2, _⟩ =>
    show win5_8.index _ (2 : Fin 3) * 128 ≤ (i 2).val ∧ (i 2).val < win5_8.index _ (2 : Fin 3) * 128 + 128
    rw [e2]
    omega

/-- What point t writes back to window 8's array is its block of the whole-array function. -/
theorem flushed5_8 (c : Dev nD) (t : Fin cfg5.N) :
    (dat5 V c).flushed 8 t = ((cfg5.win 8).blk t).view.read (Elt Ideal) (sumG (linG (bnG (a5_0 V c) (a5_1 V c) (a5_2 V c) (a5_3 V c) (a5_4 V c)) (a5_5 V c) (a5_6 V c))) := by
  show (cfg5.win 8).cut (grid5.coords t) ((dat5 V c).after 8 t) = _
  rw [after5_8]
  unfold out5_8
  rw [View.canon_unit_zero hz3]
  simp only [View.ld_unit_zero (S := S10000x128) hz2, View.ld_unit_zero (S := S128x128) hz2, View.ld_unit_zero (S := S1x128) hz2]
  funext j
  show k5_pay3 (iblk5 V c 0 t) (iblk5 V c 2 t) (iblk5 V c 3 t) (iblk5 V c 1 t) (iblk5 V c 4 t) (iblk5 V c 5 t) (iblk5 V c 6 t) j = (sumG (linG (bnG (a5_0 V c) (a5_1 V c) (a5_2 V c) (a5_3 V c) (a5_4 V c)) (a5_5 V c) (a5_6 V c))) (((cfg5.win 8).blk t).view.emb j)
  exact k5_pay3_block (iblk5 V c 0 t) (iblk5 V c 2 t) (iblk5 V c 3 t) (iblk5 V c 1 t) (iblk5 V c 4 t) (iblk5 V c 5 t) (iblk5 V c 6 t) (a5_0 V c) (a5_1 V c) (a5_2 V c) (a5_3 V c) (a5_4 V c) (a5_5 V c) (a5_6 V c) t.val (blk5_0 V c t) (whole5_2 V c t) (whole5_3 V c t) (whole5_1 V c t) (whole5_4 V c t) (whole5_5 V c t) (whole5_6 V c t) j (((cfg5.win 8).blk t).view.emb j) (at5_8 t j).1 (at5_8 t j).2

/-- Window 8's array after the region. -/
theorem arr5_8 (c : Dev nD) : (dat5 V c).arrAt 8 cfg5.N = sumG (linG (bnG (a5_0 V c) (a5_1 V c) (a5_2 V c) (a5_3 V c) (a5_4 V c)) (a5_5 V c) (a5_6 V c)) :=
  (dat5 V c).arrAt_eq_of_cover 8 _ (fun t _ => flushed5_8 V c t) cover5_8

/-- The same, with the arrays spelt as the region's proof data spells them. -/
theorem final5_8 (c : Dev nD) : (dat5 V c).arrAt 8 cfg5.N = sumG (linG (bnG (V c (Pipeline.arrRef spec5 0)) (V c (Pipeline.arrRef spec5 1)) (V c (Pipeline.arrRef spec5 2)) (V c (Pipeline.arrRef spec5 3)) (V c (Pipeline.arrRef spec5 4))) (V c (Pipeline.arrRef spec5 5)) (V c (Pipeline.arrRef spec5 6))) :=
  arr5_8 V c

theorem at5_9 (t : Fin cfg5.N) (j : S1x1x128.Idx) :
    (((cfg5.win 9).blk t).view.emb j 0).val = t.val ∧ (((cfg5.win 9).blk t).view.emb j 2).val = (j 2).val := by
  obtain ⟨e0, e1, e2⟩ := idx5_9 t
  have h0 : (j 0).val < 1 := (j 0).isLt
  constructor
  · show win5_9.index t (0 : Fin 3) * 1 + 1 * (j 0).val = _; rw [e0]; omega
  · show win5_9.index t (2 : Fin 3) * 128 + 1 * (j 2).val = _; rw [e2]; omega

theorem mem5_9 (t : Fin cfg5.N) (i : S10x1x128.Idx) :
    i ∈ ((cfg5.win 9).blk t).view.set ↔ ∀ a : Fin 3, win5_9.index t a * S1x1x128.size a ≤ (i a).val
      ∧ (i a).val < win5_9.index t a * S1x1x128.size a + S1x1x128.size a := by
  show i ∈ ((View.whole main_v103_2).slice (win5_9.rect t)).set ↔ _
  rw [View.set_slice_whole, Rect.mem_set_unit]
  exact Iff.rfl

/-- Entry (b, 0, q) is in the block of point b. -/
theorem cover5_9 (i : S10x1x128.Idx) :
    ∃ t : Fin cfg5.N, (cfg5.win 9).flush t = true ∧ i ∈ ((cfg5.win 9).blk t).view.set := by
  have h0 : (i 0).val < 10 := (i 0).isLt
  have h1 : (i 1).val < 1 := (i 1).isLt
  have h2 : (i 2).val < 128 := (i 2).isLt
  have hN : cfg5.N = 10 := N_5
  refine ⟨⟨(i 0).val, by rw [hN]; omega⟩, flush5_9 _, ?_⟩
  rw [mem5_9]
  obtain ⟨e0, e1, e2⟩ := idx5_9 ⟨(i 0).val, by rw [hN]; omega⟩
  intro a
  match a with
  | ⟨0, _⟩ =>
    show win5_9.index _ (0 : Fin 3) * 1 ≤ (i 0).val ∧ (i 0).val < win5_9.index _ (0 : Fin 3) * 1 + 1
    rw [e0]
    show (i 0).val * 1 ≤ (i 0).val ∧ (i 0).val < (i 0).val * 1 + 1
    omega
  | ⟨1, _⟩ =>
    show win5_9.index _ (1 : Fin 3) * 1 ≤ (i 1).val ∧ (i 1).val < win5_9.index _ (1 : Fin 3) * 1 + 1
    rw [e1]
    omega
  | ⟨2, _⟩ =>
    show win5_9.index _ (2 : Fin 3) * 128 ≤ (i 2).val ∧ (i 2).val < win5_9.index _ (2 : Fin 3) * 128 + 128
    rw [e2]
    omega

/-- What point t writes back to window 9's array is its block of the whole-array function. -/
theorem flushed5_9 (c : Dev nD) (t : Fin cfg5.N) :
    (dat5 V c).flushed 9 t = ((cfg5.win 9).blk t).view.read (Elt Ideal) (sumG (sqG (linG (bnG (a5_0 V c) (a5_1 V c) (a5_2 V c) (a5_3 V c) (a5_4 V c)) (a5_5 V c) (a5_6 V c)))) := by
  show (cfg5.win 9).cut (grid5.coords t) ((dat5 V c).after 9 t) = _
  rw [after5_9]
  unfold out5_9
  rw [View.canon_unit_zero hz3]
  simp only [View.ld_unit_zero (S := S10000x128) hz2, View.ld_unit_zero (S := S128x128) hz2, View.ld_unit_zero (S := S1x128) hz2]
  funext j
  show k5_pay1 (k5_pay2 (iblk5 V c 0 t) (iblk5 V c 2 t) (iblk5 V c 3 t) (iblk5 V c 1 t) (iblk5 V c 4 t) (iblk5 V c 5 t) (iblk5 V c 6 t)) j = (sumG (sqG (linG (bnG (a5_0 V c) (a5_1 V c) (a5_2 V c) (a5_3 V c) (a5_4 V c)) (a5_5 V c) (a5_6 V c)))) (((cfg5.win 9).blk t).view.emb j)
  exact k5_pay1_block (k5_pay2 (iblk5 V c 0 t) (iblk5 V c 2 t) (iblk5 V c 3 t) (iblk5 V c 1 t) (iblk5 V c 4 t) (iblk5 V c 5 t) (iblk5 V c 6 t)) (linG (bnG (a5_0 V c) (a5_1 V c) (a5_2 V c) (a5_3 V c) (a5_4 V c)) (a5_5 V c) (a5_6 V c)) t.val (k5_pay2_block (iblk5 V c 0 t) (iblk5 V c 2 t) (iblk5 V c 3 t) (iblk5 V c 1 t) (iblk5 V c 4 t) (iblk5 V c 5 t) (iblk5 V c 6 t) (a5_0 V c) (a5_1 V c) (a5_2 V c) (a5_3 V c) (a5_4 V c) (a5_5 V c) (a5_6 V c) t.val (blk5_0 V c t) (whole5_2 V c t) (whole5_3 V c t) (whole5_1 V c t) (whole5_4 V c t) (whole5_5 V c t) (whole5_6 V c t)) j (((cfg5.win 9).blk t).view.emb j) (at5_9 t j).1 (at5_9 t j).2

/-- Window 9's array after the region. -/
theorem arr5_9 (c : Dev nD) : (dat5 V c).arrAt 9 cfg5.N = sumG (sqG (linG (bnG (a5_0 V c) (a5_1 V c) (a5_2 V c) (a5_3 V c) (a5_4 V c)) (a5_5 V c) (a5_6 V c))) :=
  (dat5 V c).arrAt_eq_of_cover 9 _ (fun t _ => flushed5_9 V c t) cover5_9

/-- The same, with the arrays spelt as the region's proof data spells them. -/
theorem final5_9 (c : Dev nD) : (dat5 V c).arrAt 9 cfg5.N = sumG (sqG (linG (bnG (V c (Pipeline.arrRef spec5 0)) (V c (Pipeline.arrRef spec5 1)) (V c (Pipeline.arrRef spec5 2)) (V c (Pipeline.arrRef spec5 3)) (V c (Pipeline.arrRef spec5 4))) (V c (Pipeline.arrRef spec5 5)) (V c (Pipeline.arrRef spec5 6)))) :=
  arr5_9 V c

end Cert.KernelIdeal.RegionValue

end
-- ==== Proof.KRegion6.lean ====
/-
  Region 6 of the kernel program (a layer's second normalisation and rectifier): each output array after the region as a function of the arrays the
  region finds, entry by entry. The grid has ten points; point t reads rows t·10000 … t·10000 + 9999 of each
  100000×128 input, all of each small input, and writes the same rows of each 100000×128 output and entry (t, 0, ·) of
  each 10×1×128 output. What a point writes is the body's arithmetic of its blocks, which is the matching block of one
  function of the whole arrays; the points' blocks cover each output array, so the array ends at that function.
-/
import proofs.«119304_j10247791968545_2_alg».proof.Proof.Gen.KernelIdeal.Frame
import proofs.«119304_j10247791968545_2_alg».proof.Proof.KPay
import Idealize.ShloMosaic.Lib.Pipeline.Value

set_option maxRecDepth 16384

noncomputable section

namespace Cert.KernelIdeal.RegionValue

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-! ## The arrays the region finds, under their literal types -/

/-- Input window 0's array as the region finds it. -/
abbrev a6_0 (c : Dev nD) : FVec Ideal S100000x128 .f32 := V c (Pipeline.arrRef spec6 0)
/-- Input window 1's array as the region finds it. -/
abbrev a6_1 (c : Dev nD) : FVec Ideal S1x128 .f32 := V c (Pipeline.arrRef spec6 1)
/-- Input window 2's array as the region finds it. -/
abbrev a6_2 (c : Dev nD) : FVec Ideal S1x128 .f32 := V c (Pipeline.arrRef spec6 2)
/-- Input window 3's array as the region finds it. -/
abbrev a6_3 (c : Dev nD) : FVec Ideal S1x128 .f32 := V c (Pipeline.arrRef spec6 3)
/-- Input window 4's array as the region finds it. -/
abbrev a6_4 (c : Dev nD) : FVec Ideal S1x128 .f32 := V c (Pipeline.arrRef spec6 4)

/-! ## Where the block index maps send a grid point -/

theorem idx6_0 : ∀ t : Fin cfg6.N, win6_0.index t (0 : Fin 2) = t.val ∧ win6_0.index t (1 : Fin 2) = 0 :=
  (by decide +kernel : ∀ t : Fin grid6.N, _)
theorem idx6_1 : ∀ t : Fin cfg6.N, win6_1.index t (0 : Fin 2) = 0 ∧ win6_1.index t (1 : Fin 2) = 0 :=
  (by decide +kernel : ∀ t : Fin grid6.N, _)
theorem idx6_2 : ∀ t : Fin cfg6.N, win6_2.index t (0 : Fin 2) = 0 ∧ win6_2.index t (1 : Fin 2) = 0 :=
  (by decide +kernel : ∀ t : Fin grid6.N, _)
theorem idx6_3 : ∀ t : Fin cfg6.N, win6_3.index t (0 : Fin 2) = 0 ∧ win6_3.index t (1 : Fin 2) = 0 :=
  (by decide +kernel : ∀ t : Fin grid6.N, _)
theorem idx6_4 : ∀ t : Fin cfg6.N, win6_4.index t (0 : Fin 2) = 0 ∧ win6_4.index t (1 : Fin 2) = 0 :=
  (by decide +kernel : ∀ t : Fin grid6.N, _)
theorem idx6_5 : ∀ t : Fin cfg6.N, win6_5.index t (0 : Fin 2) = t.val ∧ win6_5.index t (1 : Fin 2) = 0 :=
  (by decide +kernel : ∀ t : Fin grid6.N, _)

/-! ## The input windows' blocks, read off the arrays -/

/-- Point t's block of input window 0 is rows t·10000 … of the window's array. -/
theorem blk6_0 (c : Dev nD) (t : Fin cfg6.N) : IsBlock t.val (iblk6 V c 0 t) (a6_0 V c) := by
  intro j i hji
  obtain ⟨e0, e1⟩ := idx6_0 t
  have h0 := hji.1
  have h1 := hji.2
  show (a6_0 V c) (((cfg6.win 0).blk t).view.emb j) = (a6_0 V c) i
  refine congrArg (a6_0 V c) (funext fun a => Fin.ext ?_)
  match a with
  | ⟨0, _⟩ => show win6_0.index t (0 : Fin 2) * 10000 + 1 * (j 0).val = (i 0).val; rw [e0]; omega
  | ⟨1, _⟩ => show win6_0.index t (1 : Fin 2) * 128 + 1 * (j 1).val = (i 1).val; rw [e1]; omega

/-- Input window 1's block at every point is its whole array. -/
theorem whole6_1 (c : Dev nD) (t : Fin cfg6.N) : iblk6 V c 1 t = (a6_1 V c) := by
  funext y
  obtain ⟨e0, e1⟩ := idx6_1 t
  show (a6_1 V c) (((cfg6.win 1).blk t).view.emb y) = (a6_1 V c) y
  refine congrArg (a6_1 V c) (funext fun a => Fin.ext ?_)
  match a with
  | ⟨0, _⟩ => show win6_1.index t (0 : Fin 2) * 1 + 1 * (y 0).val = (y 0).val; rw [e0]; omega
  | ⟨1, _⟩ => show win6_1.index t (1 : Fin 2) * 128 + 1 * (y 1).val = (y 1).val; rw [e1]; omega

/-- Input window 2's block at every point is its whole array. -/
theorem whole6_2 (c : Dev nD) (t : Fin cfg6.N) : iblk6 V c 2 t = (a6_2 V c) := by
  funext y
  obtain ⟨e0, e1⟩ := idx6_2 t
  show (a6_2 V c) (((cfg6.win 2).blk t).view.emb y) = (a6_2 V c) y
  refine congrArg (a6_2 V c) (funext fun a => Fin.ext ?_)
  match a with
  | ⟨0, _⟩ => show win6_2.index t (0 : Fin 2) * 1 + 1 * (y 0).val = (y 0).val; rw [e0]; omega
  | ⟨1, _⟩ => show win6_2.index t (1 : Fin 2) * 128 + 1 * (y 1).val = (y 1).val; rw [e1]; omega

/-- Input window 3's block at every point is its whole array. -/
theorem whole6_3 (c : Dev nD) (t : Fin cfg6.N) : iblk6 V c 3 t = (a6_3 V c) := by
  funext y
  obtain ⟨e0, e1⟩ := idx6_3 t
  show (a6_3 V c) (((cfg6.win 3).blk t).view.emb y) = (a6_3 V c) y
  refine congrArg (a6_3 V c) (funext fun a => Fin.ext ?_)
  match a with
  | ⟨0, _⟩ => show win6_3.index t (0 : Fin 2) * 1 + 1 * (y 0).val = (y 0).val; rw [e0]; omega
  | ⟨1, _⟩ => show win6_3.index t (1 : Fin 2) * 128 + 1 * (y 1).val = (y 1).val; rw [e1]; omega

/-- Input window 4's block at every point is its whole array. -/
theorem whole6_4 (c : Dev nD) (t : Fin cfg6.N) : iblk6 V c 4 t = (a6_4 V c) := by
  funext y
  obtain ⟨e0, e1⟩ := idx6_4 t
  show (a6_4 V c) (((cfg6.win 4).blk t).view.emb y) = (a6_4 V c) y
  refine congrArg (a6_4 V c) (funext fun a => Fin.ext ?_)
  match a with
  | ⟨0, _⟩ => show win6_4.index t (0 : Fin 2) * 1 + 1 * (y 0).val = (y 0).val; rw [e0]; omega
  | ⟨1, _⟩ => show win6_4.index t (1 : Fin 2) * 128 + 1 * (y 1).val = (y 1).val; rw [e1]; omega

/-! ## The body's stores, over arbitrary blocks: a block of rows of the array it was read from, the small blocks equal to
    their arrays -/

theorem k6_pay1_block (v0 : Vec Ideal S10000x128 .f32) (v2 v7 v9 v17 : Vec Ideal S1x128 .f32)
    (Y : FVec Ideal S100000x128 .f32) (M Vr G Be : FVec Ideal S1x128 .f32) (T : Nat) (h0 : IsBlock T v0 Y)
    (e2 : v2 = Vr) (e7 : v7 = G) (e9 : v9 = M) (e17 : v17 = Be) :
    IsBlock T (k6_pay1 v0 v2 v7 v9 v17) (bnG Y M Vr G Be) := by
  subst e2 e7 e9 e17
  unfold k6_pay1
  exact bn_block v0 v2 v7 v9 v17 Y T h0 _ _ _

/-! ## The output windows: where a block sits, which points cover the array, what each point writes, the array after the region -/

theorem at6_5 (t : Fin cfg6.N) (j : S10000x128.Idx) : At t.val j (((cfg6.win 5).blk t).view.emb j) := by
  obtain ⟨e0, e1⟩ := idx6_5 t
  constructor
  · show win6_5.index t (0 : Fin 2) * 10000 + 1 * (j 0).val = _; rw [e0]; omega
  · show win6_5.index t (1 : Fin 2) * 128 + 1 * (j 1).val = _; rw [e1]; omega

theorem mem6_5 (t : Fin cfg6.N) (i : S100000x128.Idx) :
    i ∈ ((cfg6.win 5).blk t).view.set ↔ ∀ a : Fin 2, win6_5.index t a * S10000x128.size a ≤ (i a).val
      ∧ (i a).val < win6_5.index t a * S10000x128.size a + S10000x128.size a := by
  show i ∈ ((View.whole main_v120).slice (win6_5.rect t)).set ↔ _
  rw [View.set_slice_whole, Rect.mem_set_unit]
  exact Iff.rfl

/-- Row p is in the block of point p / 10000. -/
theorem cover6_5 (i : S100000x128.Idx) :
    ∃ t : Fin cfg6.N, (cfg6.win 5).flush t = true ∧ i ∈ ((cfg6.win 5).blk t).view.set := by
  have h0 : (i 0).val < 100000 := (i 0).isLt
  have h1 : (i 1).val < 128 := (i 1).isLt
  have hN : cfg6.N = 10 := N_6
  refine ⟨⟨(i 0).val / 10000, by rw [hN]; omega⟩, flush6_5 _, ?_⟩
  rw [mem6_5]
  obtain ⟨e0, e1⟩ := idx6_5 ⟨(i 0).val / 10000, by rw [hN]; omega⟩
  intro a
  match a with
  | ⟨0, _⟩ =>
    show win6_5.index _ (0 : Fin 2) * 10000 ≤ (i 0).val ∧ (i 0).val < win6_5.index _ (0 : Fin 2) * 10000 + 10000
    rw [e0]
    show (i 0).val / 10000 * 10000 ≤ (i 0).val ∧ (i 0).val < (i 0).val / 10000 * 10000 + 10000
    omega
  | ⟨1, _⟩ =>
    show win6_5.index _ (1 : Fin 2) * 128 ≤ (i 1).val ∧ (i 1).val < win6_5.index _ (1 : Fin 2) * 128 + 128
    rw [e1]
    omega

/-- What point t writes back to window 5's array is its block of the whole-array function. -/
theorem flushed6_5 (c : Dev nD) (t : Fin cfg6.N) :
    (dat6 V c).flushed 5 t = ((cfg6.win 5).blk t).view.read (Elt Ideal) (bnG (a6_0 V c) (a6_1 V c) (a6_2 V c) (a6_3 V c) (a6_4 V c)) := by
  show (cfg6.win 5).cut (grid6.coords t) ((dat6 V c).after 5 t) = _
  rw [after6_5]
  unfold out6_5
  rw [View.canon_unit_zero hz2]
  simp only [View.ld_unit_zero (S := S10000x128) hz2, View.ld_unit_zero (S := S128x128) hz2, View.ld_unit_zero (S := S1x128) hz2]
  funext j
  show k6_pay1 (iblk6 V c 0 t) (iblk6 V c 2 t) (iblk6 V c 3 t) (iblk6 V c 1 t) (iblk6 V c 4 t) j = (bnG (a6_0 V c) (a6_1 V c) (a6_2 V c) (a6_3 V c) (a6_4 V c)) (((cfg6.win 5).blk t).view.emb j)
  exact k6_pay1_block (iblk6 V c 0 t) (iblk6 V c 2 t) (iblk6 V c 3 t) (iblk6 V c 1 t) (iblk6 V c 4 t) (a6_0 V c) (a6_1 V c) (a6_2 V c) (a6_3 V c) (a6_4 V c) t.val (blk6_0 V c t) (whole6_2 V c t) (whole6_3 V c t) (whole6_1 V c t) (whole6_4 V c t) j (((cfg6.win 5).blk t).view.emb j) (at6_5 t j)

/-- Window 5's array after the region. -/
theorem arr6_5 (c : Dev nD) : (dat6 V c).arrAt 5 cfg6.N = bnG (a6_0 V c) (a6_1 V c) (a6_2 V c) (a6_3 V c) (a6_4 V c) :=
  (dat6 V c).arrAt_eq_of_cover 5 _ (fun t _ => flushed6_5 V c t) cover6_5

/-- The same, with the arrays spelt as the region's proof data spells them. -/
theorem final6_5 (c : Dev nD) : (dat6 V c).arrAt 5 cfg6.N = bnG (V c (Pipeline.arrRef spec6 0)) (V c (Pipeline.arrRef spec6 1)) (V c (Pipeline.arrRef spec6 2)) (V c (Pipeline.arrRef spec6 3)) (V c (Pipeline.arrRef spec6 4)) :=
  arr6_5 V c

end Cert.KernelIdeal.RegionValue

end
-- ==== Proof.KHost1.lean ====
import proofs.«119304_j10247791968545_2_alg».proof.Proof.Gen.KernelIdeal.Frame

/-!
# The kernel program's host side: what the host operations of layer 1 leave

The same three stretches as in the first layer, at this layer's buffers and this layer's rows of the stacked
parameters (offset 1 along the leading axis): the neighbour sum, the transposed first weight and its bias row;
then twice the batch statistics (column sums of the ten per-block partial sums, mean = sum / N,
variance = max (sum of squares / N − mean², 0)) with the scale, shift, second weight and bias rows.
-/

set_option maxRecDepth 16384

noncomputable section

namespace Cert.KernelIdeal.HostSide

open Idealize.ShloMosaic Idealize.ShloMosaic.TcCoe
open Cert.KernelIdeal Cert.KernelIdeal.Gen

variable {F : FTy → Type} [FloatOps F]
variable (m : (ℓ : Loc nD τ sig) → Buf (Elt F) ℓ) (ρ : Dev nD → PrngReg)

/-! ## The host operations between boundaries 8 and 9 -/

theorem hostOps4_main_v73 (V : Valuation τ sig (Elt F)) :
    StableHlo.after hostOps4 V (Proc.devRef .tc main_v73) =
      ((Host.scatterAdd (F := F) scatter_S100000x128_S625000x1_S625000x128_1_0_0_1 (broadcastInDim S100000x128 ![] bcast_S_S100000x128 (constant (F := F) S_ .f32 0x00000000#32)) (broadcastInDim S625000x1 ![0] bcast_S625000_S625000x1_0 (V (Proc.devRef .tc main_v3))) (Host.gather gather_S100000x128_S625000x1_S625000x128_1_0_n_n_0_1_1128 (V (Proc.devRef .tc main_v63)) (broadcastInDim S625000x1 ![0] bcast_S625000_S625000x1_0 (select (cmpi .slt (V (Proc.devRef .tc main_v1)) (broadcastInDim S625000 ![] bcast_S_S625000 (constantI S_ 32 0#32))) (addi (V (Proc.devRef .tc main_v1)) (broadcastInDim S625000 ![] bcast_S_S625000 (constantI S_ 32 100000#32))) (V (Proc.devRef .tc main_v1)))))) : (⟨S100000x128, .f32⟩ : BufTy).Contents (Elt F)) := by
  after_results_simp <;> rfl
theorem W9_main_v73 (c : Dev nD) :
    W9 m ρ c (Proc.devRef .tc main_v73) =
      ((Host.scatterAdd (F := F) scatter_S100000x128_S625000x1_S625000x128_1_0_0_1 (broadcastInDim S100000x128 ![] bcast_S_S100000x128 (constant (F := F) S_ .f32 0x00000000#32)) (broadcastInDim S625000x1 ![0] bcast_S625000_S625000x1_0 (W8 m ρ c (Proc.devRef .tc main_v3))) (Host.gather gather_S100000x128_S625000x1_S625000x128_1_0_n_n_0_1_1128 (W8 m ρ c (Proc.devRef .tc main_v63)) (broadcastInDim S625000x1 ![0] bcast_S625000_S625000x1_0 (select (cmpi .slt (W8 m ρ c (Proc.devRef .tc main_v1)) (broadcastInDim S625000 ![] bcast_S_S625000 (constantI S_ 32 0#32))) (addi (W8 m ρ c (Proc.devRef .tc main_v1)) (broadcastInDim S625000 ![] bcast_S_S625000 (constantI S_ 32 100000#32))) (W8 m ρ c (Proc.devRef .tc main_v1)))))) : (⟨S100000x128, .f32⟩ : BufTy).Contents (Elt F)) :=
  hostOps4_main_v73 _

theorem hostOps4_main_v78 (V : Valuation τ sig (Elt F)) :
    StableHlo.after hostOps4 V (Proc.devRef .tc main_v78) =
      ((transpose S128x128 [1, 0] (shapeCast S128x128 (extractStridedSlice S1x128x128 ![1, 0, 0] (V (Proc.devRef .tc main_arg5)) slices_S4x128x128_S1x128x128_1_0_0) shapeCasts_S1x128x128_S128x128) transposes_S128x128_S128x128_1_0) : (⟨S128x128, .f32⟩ : BufTy).Contents (Elt F)) := by
  after_results_simp <;> rfl
theorem W9_main_v78 (c : Dev nD) :
    W9 m ρ c (Proc.devRef .tc main_v78) =
      ((transpose S128x128 [1, 0] (shapeCast S128x128 (extractStridedSlice S1x128x128 ![1, 0, 0] (W8 m ρ c (Proc.devRef .tc main_arg5)) slices_S4x128x128_S1x128x128_1_0_0) shapeCasts_S1x128x128_S128x128) transposes_S128x128_S128x128_1_0) : (⟨S128x128, .f32⟩ : BufTy).Contents (Elt F)) :=
  hostOps4_main_v78 _

theorem hostOps4_main_v79 (V : Valuation τ sig (Elt F)) :
    StableHlo.after hostOps4 V (Proc.devRef .tc main_v79) =
      (shapeCast S1x128 (shapeCast S128 (extractStridedSlice S1x128 ![1, 0] (V (Proc.devRef .tc main_arg6)) slices_S4x128_S1x128_1_0) shapeCasts_S1x128_S128) shapeCasts_S128_S1x128) := by
  after_results_simp <;> rfl
theorem W9_main_v79 (c : Dev nD) :
    W9 m ρ c (Proc.devRef .tc main_v79) =
      (shapeCast S1x128 (shapeCast S128 (extractStridedSlice S1x128 ![1, 0] (W8 m ρ c (Proc.devRef .tc main_arg6)) slices_S4x128_S1x128_1_0) shapeCasts_S1x128_S128) shapeCasts_S128_S1x128) :=
  hostOps4_main_v79 _

/-! ## The host operations between boundaries 10 and 11 -/

theorem hostOps5_main_v84 (V : Valuation τ sig (Elt F)) :
    StableHlo.after hostOps5 V (Proc.devRef .tc main_v84) =
      ((Host.divf (F := F) (Host.reduceAdd (F := F) (V (Proc.devRef .tc main_v80_1)) (constant (F := F) S_ .f32 0x00000000#32) reducesTo_S10x1x128_S1x128_d0 h_S_) (broadcastInDim S1x128 ![] bcast_S_S1x128 (constant (F := F) S_ .f32 0x47C35000#32))) : (⟨S1x128, .f32⟩ : BufTy).Contents (Elt F)) := by
  after_results_simp <;> rfl
theorem W11_main_v84 (c : Dev nD) :
    W11 m ρ c (Proc.devRef .tc main_v84) =
      ((Host.divf (F := F) (Host.reduceAdd (F := F) (W10 m ρ c (Proc.devRef .tc main_v80_1)) (constant (F := F) S_ .f32 0x00000000#32) reducesTo_S10x1x128_S1x128_d0 h_S_) (broadcastInDim S1x128 ![] bcast_S_S1x128 (constant (F := F) S_ .f32 0x47C35000#32))) : (⟨S1x128, .f32⟩ : BufTy).Contents (Elt F)) :=
  hostOps5_main_v84 _

theorem hostOps5_main_v90 (V : Valuation τ sig (Elt F)) :
    StableHlo.after hostOps5 V (Proc.devRef .tc main_v90) =
      ((maximumf (F := F) (subf (F := F) (Host.divf (F := F) (Host.reduceAdd (F := F) (V (Proc.devRef .tc main_v80_2)) (constant (F := F) S_ .f32 0x00000000#32) reducesTo_S10x1x128_S1x128_d0 h_S_) (broadcastInDim S1x128 ![] bcast_S_S1x128 (constant (F := F) S_ .f32 0x47C35000#32))) (mulf (F := F) (Host.divf (F := F) (Host.reduceAdd (F := F) (V (Proc.devRef .tc main_v80_1)) (constant (F := F) S_ .f32 0x00000000#32) reducesTo_S10x1x128_S1x128_d0 h_S_) (broadcastInDim S1x128 ![] bcast_S_S1x128 (constant (F := F) S_ .f32 0x47C35000#32))) (Host.divf (F := F) (Host.reduceAdd (F := F) (V (Proc.devRef .tc main_v80_1)) (constant (F := F) S_ .f32 0x00000000#32) reducesTo_S10x1x128_S1x128_d0 h_S_) (broadcastInDim S1x128 ![] bcast_S_S1x128 (constant (F := F) S_ .f32 0x47C35000#32))))) (broadcastInDim S1x128 ![] bcast_S_S1x128 (constant (F := F) S_ .f32 0x00000000#32))) : (⟨S1x128, .f32⟩ : BufTy).Contents (Elt F)) := by
  after_results_simp <;> rfl
theorem W11_main_v90 (c : Dev nD) :
    W11 m ρ c (Proc.devRef .tc main_v90) =
      ((maximumf (F := F) (subf (F := F) (Host.divf (F := F) (Host.reduceAdd (F := F) (W10 m ρ c (Proc.devRef .tc main_v80_2)) (constant (F := F) S_ .f32 0x00000000#32) reducesTo_S10x1x128_S1x128_d0 h_S_) (broadcastInDim S1x128 ![] bcast_S_S1x128 (constant (F := F) S_ .f32 0x47C35000#32))) (mulf (F := F) (Host.divf (F := F) (Host.reduceAdd (F := F) (W10 m ρ c (Proc.devRef .tc main_v80_1)) (constant (F := F) S_ .f32 0x00000000#32) reducesTo_S10x1x128_S1x128_d0 h_S_) (broadcastInDim S1x128 ![] bcast_S_S1x128 (constant (F := F) S_ .f32 0x47C35000#32))) (Host.divf (F := F) (Host.reduceAdd (F := F) (W10 m ρ c (Proc.devRef .tc main_v80_1)) (constant (F := F) S_ .f32 0x00000000#32) reducesTo_S10x1x128_S1x128_d0 h_S_) (broadcastInDim S1x128 ![] bcast_S_S1x128 (constant (F := F) S_ .f32 0x47C35000#32))))) (broadcastInDim S1x128 ![] bcast_S_S1x128 (constant (F := F) S_ .f32 0x00000000#32))) : (⟨S1x128, .f32⟩ : BufTy).Contents (Elt F)) :=
  hostOps5_main_v90 _

theorem hostOps5_main_v100 (V : Valuation τ sig (Elt F)) :
    StableHlo.after hostOps5 V (Proc.devRef .tc main_v100) =
      (shapeCast S1x128 (shapeCast S128 (extractStridedSlice S1x128 ![1, 0] (V (Proc.devRef .tc main_arg7)) slices_S4x128_S1x128_1_0) shapeCasts_S1x128_S128) shapeCasts_S128_S1x128) := by
  after_results_simp <;> rfl
theorem W11_main_v100 (c : Dev nD) :
    W11 m ρ c (Proc.devRef .tc main_v100) =
      (shapeCast S1x128 (shapeCast S128 (extractStridedSlice S1x128 ![1, 0] (W10 m ρ c (Proc.devRef .tc main_arg7)) slices_S4x128_S1x128_1_0) shapeCasts_S1x128_S128) shapeCasts_S128_S1x128) :=
  hostOps5_main_v100 _

theorem hostOps5_main_v101 (V : Valuation τ sig (Elt F)) :
    StableHlo.after hostOps5 V (Proc.devRef .tc main_v101) =
      (shapeCast S1x128 (shapeCast S128 (extractStridedSlice S1x128 ![1, 0] (V (Proc.devRef .tc main_arg8)) slices_S4x128_S1x128_1_0) shapeCasts_S1x128_S128) shapeCasts_S128_S1x128) := by
  after_results_simp <;> rfl
theorem W11_main_v101 (c : Dev nD) :
    W11 m ρ c (Proc.devRef .tc main_v101) =
      (shapeCast S1x128 (shapeCast S128 (extractStridedSlice S1x128 ![1, 0] (W10 m ρ c (Proc.devRef .tc main_arg8)) slices_S4x128_S1x128_1_0) shapeCasts_S1x128_S128) shapeCasts_S128_S1x128) :=
  hostOps5_main_v101 _

theorem hostOps5_main_v99 (V : Valuation τ sig (Elt F)) :
    StableHlo.after hostOps5 V (Proc.devRef .tc main_v99) =
      ((transpose S128x128 [1, 0] (shapeCast S128x128 (extractStridedSlice S1x128x128 ![1, 0, 0] (V (Proc.devRef .tc main_arg9)) slices_S4x128x128_S1x128x128_1_0_0) shapeCasts_S1x128x128_S128x128) transposes_S128x128_S128x128_1_0) : (⟨S128x128, .f32⟩ : BufTy).Contents (Elt F)) := by
  after_results_simp <;> rfl
theorem W11_main_v99 (c : Dev nD) :
    W11 m ρ c (Proc.devRef .tc main_v99) =
      ((transpose S128x128 [1, 0] (shapeCast S128x128 (extractStridedSlice S1x128x128 ![1, 0, 0] (W10 m ρ c (Proc.devRef .tc main_arg9)) slices_S4x128x128_S1x128x128_1_0_0) shapeCasts_S1x128x128_S128x128) transposes_S128x128_S128x128_1_0) : (⟨S128x128, .f32⟩ : BufTy).Contents (Elt F)) :=
  hostOps5_main_v99 _

theorem hostOps5_main_v102 (V : Valuation τ sig (Elt F)) :
    StableHlo.after hostOps5 V (Proc.devRef .tc main_v102) =
      (shapeCast S1x128 (shapeCast S128 (extractStridedSlice S1x128 ![1, 0] (V (Proc.devRef .tc main_arg10)) slices_S4x128_S1x128_1_0) shapeCasts_S1x128_S128) shapeCasts_S128_S1x128) := by
  after_results_simp <;> rfl
theorem W11_main_v102 (c : Dev nD) :
    W11 m ρ c (Proc.devRef .tc main_v102) =
      (shapeCast S1x128 (shapeCast S128 (extractStridedSlice S1x128 ![1, 0] (W10 m ρ c (Proc.devRef .tc main_arg10)) slices_S4x128_S1x128_1_0) shapeCasts_S1x128_S128) shapeCasts_S128_S1x128) :=
  hostOps5_main_v102 _

/-! ## The host operations between boundaries 12 and 13 -/

theorem hostOps6_main_v107 (V : Valuation τ sig (Elt F)) :
    StableHlo.after hostOps6 V (Proc.devRef .tc main_v107) =
      ((Host.divf (F := F) (Host.reduceAdd (F := F) (V (Proc.devRef .tc main_v103_1)) (constant (F := F) S_ .f32 0x00000000#32) reducesTo_S10x1x128_S1x128_d0 h_S_) (broadcastInDim S1x128 ![] bcast_S_S1x128 (constant (F := F) S_ .f32 0x47C35000#32))) : (⟨S1x128, .f32⟩ : BufTy).Contents (Elt F)) := by
  after_results_simp <;> rfl
theorem W13_main_v107 (c : Dev nD) :
    W13 m ρ c (Proc.devRef .tc main_v107) =
      ((Host.divf (F := F) (Host.reduceAdd (F := F) (W12 m ρ c (Proc.devRef .tc main_v103_1)) (constant (F := F) S_ .f32 0x00000000#32) reducesTo_S10x1x128_S1x128_d0 h_S_) (broadcastInDim S1x128 ![] bcast_S_S1x128 (constant (F := F) S_ .f32 0x47C35000#32))) : (⟨S1x128, .f32⟩ : BufTy).Contents (Elt F)) :=
  hostOps6_main_v107 _

theorem hostOps6_main_v113 (V : Valuation τ sig (Elt F)) :
    StableHlo.after hostOps6 V (Proc.devRef .tc main_v113) =
      ((maximumf (F := F) (subf (F := F) (Host.divf (F := F) (Host.reduceAdd (F := F) (V (Proc.devRef .tc main_v103_2)) (constant (F := F) S_ .f32 0x00000000#32) reducesTo_S10x1x128_S1x128_d0 h_S_) (broadcastInDim S1x128 ![] bcast_S_S1x128 (constant (F := F) S_ .f32 0x47C35000#32))) (mulf (F := F) (Host.divf (F := F) (Host.reduceAdd (F := F) (V (Proc.devRef .tc main_v103_1)) (constant (F := F) S_ .f32 0x00000000#32) reducesTo_S10x1x128_S1x128_d0 h_S_) (broadcastInDim S1x128 ![] bcast_S_S1x128 (constant (F := F) S_ .f32 0x47C35000#32))) (Host.divf (F := F) (Host.reduceAdd (F := F) (V (Proc.devRef .tc main_v103_1)) (constant (F := F) S_ .f32 0x00000000#32) reducesTo_S10x1x128_S1x128_d0 h_S_) (broadcastInDim S1x128 ![] bcast_S_S1x128 (constant (F := F) S_ .f32 0x47C35000#32))))) (broadcastInDim S1x128 ![] bcast_S_S1x128 (constant (F := F) S_ .f32 0x00000000#32))) : (⟨S1x128, .f32⟩ : BufTy).Contents (Elt F)) := by
  after_results_simp <;> rfl
theorem W13_main_v113 (c : Dev nD) :
    W13 m ρ c (Proc.devRef .tc main_v113) =
      ((maximumf (F := F) (subf (F := F) (Host.divf (F := F) (Host.reduceAdd (F := F) (W12 m ρ c (Proc.devRef .tc main_v103_2)) (constant (F := F) S_ .f32 0x00000000#32) reducesTo_S10x1x128_S1x128_d0 h_S_) (broadcastInDim S1x128 ![] bcast_S_S1x128 (constant (F := F) S_ .f32 0x47C35000#32))) (mulf (F := F) (Host.divf (F := F) (Host.reduceAdd (F := F) (W12 m ρ c (Proc.devRef .tc main_v103_1)) (constant (F := F) S_ .f32 0x00000000#32) reducesTo_S10x1x128_S1x128_d0 h_S_) (broadcastInDim S1x128 ![] bcast_S_S1x128 (constant (F := F) S_ .f32 0x47C35000#32))) (Host.divf (F := F) (Host.reduceAdd (F := F) (W12 m ρ c (Proc.devRef .tc main_v103_1)) (constant (F := F) S_ .f32 0x00000000#32) reducesTo_S10x1x128_S1x128_d0 h_S_) (broadcastInDim S1x128 ![] bcast_S_S1x128 (constant (F := F) S_ .f32 0x47C35000#32))))) (broadcastInDim S1x128 ![] bcast_S_S1x128 (constant (F := F) S_ .f32 0x00000000#32))) : (⟨S1x128, .f32⟩ : BufTy).Contents (Elt F)) :=
  hostOps6_main_v113 _

theorem hostOps6_main_v118 (V : Valuation τ sig (Elt F)) :
    StableHlo.after hostOps6 V (Proc.devRef .tc main_v118) =
      (shapeCast S1x128 (shapeCast S128 (extractStridedSlice S1x128 ![1, 0] (V (Proc.devRef .tc main_arg11)) slices_S4x128_S1x128_1_0) shapeCasts_S1x128_S128) shapeCasts_S128_S1x128) := by
  after_results_simp <;> rfl
theorem W13_main_v118 (c : Dev nD) :
    W13 m ρ c (Proc.devRef .tc main_v118) =
      (shapeCast S1x128 (shapeCast S128 (extractStridedSlice S1x128 ![1, 0] (W12 m ρ c (Proc.devRef .tc main_arg11)) slices_S4x128_S1x128_1_0) shapeCasts_S1x128_S128) shapeCasts_S128_S1x128) :=
  hostOps6_main_v118 _

theorem hostOps6_main_v119 (V : Valuation τ sig (Elt F)) :
    StableHlo.after hostOps6 V (Proc.devRef .tc main_v119) =
      (shapeCast S1x128 (shapeCast S128 (extractStridedSlice S1x128 ![1, 0] (V (Proc.devRef .tc main_arg12)) slices_S4x128_S1x128_1_0) shapeCasts_S1x128_S128) shapeCasts_S128_S1x128) := by
  after_results_simp <;> rfl
theorem W13_main_v119 (c : Dev nD) :
    W13 m ρ c (Proc.devRef .tc main_v119) =
      (shapeCast S1x128 (shapeCast S128 (extractStridedSlice S1x128 ![1, 0] (W12 m ρ c (Proc.devRef .tc main_arg12)) slices_S4x128_S1x128_1_0) shapeCasts_S1x128_S128) shapeCasts_S128_S1x128) :=
  hostOps6_main_v119 _

end Cert.KernelIdeal.HostSide

end
-- ==== Proof.KAsmL1.lean ====
/-
  Layer 1 of the kernel program, assembled. The three regions of the layer leave, as whole arrays: the affine map of the
  layer's input plus the neighbours' sum, with its blocks' column sums and column sums of squares; the affine map of
  that array normalised and cut at zero, with its blocks' sums; and that second array normalised and cut at zero. The
  stretches of host operations between them turn the blocks' sums into the rows of means and clamped one-pass
  variances and cut the layer's coefficients out of the stacked arguments. Threaded together, the layer's last array
  read as a matrix is the layer function of its first array, of the neighbours' sum of that array over the edge list,
  and of the layer's coefficients as the reference slices them.
-/
import proofs.«119304_j10247791968545_2_alg».proof.Proof.Gen.KernelIdeal.Frame
import proofs.«119304_j10247791968545_2_alg».proof.Proof.KRegion4
import proofs.«119304_j10247791968545_2_alg».proof.Proof.KRegion5
import proofs.«119304_j10247791968545_2_alg».proof.Proof.KRegion6
import proofs.«119304_j10247791968545_2_alg».proof.Proof.KHost0
import proofs.«119304_j10247791968545_2_alg».proof.Proof.KHost1
import proofs.«119304_j10247791968545_2_alg».proof.Proof.KKeep
import proofs.«119304_j10247791968545_2_alg».proof.Proof.KArgs
import proofs.«119304_j10247791968545_2_alg».proof.Proof.KStats
import proofs.«119304_j10247791968545_2_alg».proof.Proof.KLayer
import proofs.«119304_j10247791968545_2_alg».proof.Proof.KParams

set_option maxRecDepth 16384

noncomputable section

namespace Cert.KernelIdeal.Asm1

open Idealize.ShloMosaic Idealize.ShloMosaic.TcCoe Idealize.SL.Sem Idealize.ShloMosaic.ValueIdx
open Cert.KernelIdeal Cert.KernelIdeal.Gen Cert.KernelIdeal.HostSide Cert.KernelIdeal.RegionValue
open Cert.KernelIdeal.Stats Cert.KernelIdeal.LayerOf Cert.Gin.Layer Cert.Gin.Bridge Cert.Gin.Params
open Cert.ReferenceIdeal.HandRun Cert.ReferenceIdeal.Idx

variable (m : (ℓ : Loc nD τ sig) → Buf (Elt Ideal) ℓ) (ρ : Dev nD → PrngReg)

/-- The array of affine values of the first map. -/
theorem y1_eq (c : Dev nD) :
    ((W10 m ρ c (Proc.devRef .tc main_v80_0)) : FVec Ideal S100000x128 .f32)
      = linG (addG (W8 m ρ c (Proc.devRef .tc main_v63)) (W9 m ρ c (Proc.devRef .tc main_v73))) (W9 m ρ c (Proc.devRef .tc main_v78)) (W9 m ρ c (Proc.devRef .tc main_v79)) := by
  show W10 m ρ c (Proc.devRef .tc (Pipeline.arrRef spec4 4)) = _
  rw [W10_arr, final4_4 (V9 m ρ) c]
  show linG (addG (W9 m ρ c (Proc.devRef .tc main_v63)) (W9 m ρ c (Proc.devRef .tc main_v73))) (W9 m ρ c (Proc.devRef .tc main_v78)) (W9 m ρ c (Proc.devRef .tc main_v79)) = _
  rw [W9_main_v63]

/-- Its blocks' column sums. -/
theorem s1_eq (c : Dev nD) : ((W10 m ρ c (Proc.devRef .tc main_v80_1)) : FVec Ideal S10x1x128 .f32) = sumG (W10 m ρ c (Proc.devRef .tc main_v80_0)) := by
  show W10 m ρ c (Proc.devRef .tc (Pipeline.arrRef spec4 5)) = _
  rw [W10_arr, final4_5 (V9 m ρ) c]
  show _ = sumG (W10 m ρ c (Proc.devRef .tc (Pipeline.arrRef spec4 4)))
  rw [W10_arr, final4_4 (V9 m ρ) c]

/-- Its blocks' column sums of squares. -/
theorem q1_eq (c : Dev nD) : ((W10 m ρ c (Proc.devRef .tc main_v80_2)) : FVec Ideal S10x1x128 .f32) = sumG (sqG (W10 m ρ c (Proc.devRef .tc main_v80_0))) := by
  show W10 m ρ c (Proc.devRef .tc (Pipeline.arrRef spec4 6)) = _
  rw [W10_arr, final4_6 (V9 m ρ) c]
  show _ = sumG (sqG (W10 m ρ c (Proc.devRef .tc (Pipeline.arrRef spec4 4))))
  rw [W10_arr, final4_4 (V9 m ρ) c]

/-- The row of means of the first normalisation. -/
theorem m1_eq (c : Dev nD) (q : Fin 128) :
    ((W11 m ρ c (Proc.devRef .tc main_v84)) : FVec Ideal S1x128 .f32) (ix2 0 q) = mean cN (mat (W10 m ρ c (Proc.devRef .tc main_v80_0))) q := by
  rw [W11_main_v84, s1_eq]
  exact mean_row _ _ _ _ q

/-- The row of variances of the first normalisation. -/
theorem v1_eq (c : Dev nD) (q : Fin 128) :
    ((W11 m ρ c (Proc.devRef .tc main_v90)) : FVec Ideal S1x128 .f32) (ix2 0 q) = var1 cN (mat (W10 m ρ c (Proc.devRef .tc main_v80_0))) q := by
  rw [W11_main_v90, s1_eq, q1_eq]
  exact var_row _ _ _ _ _ (fun _ => rfl) q

/-- The array of affine values of the second map. -/
theorem y2_eq (c : Dev nD) :
    ((W12 m ρ c (Proc.devRef .tc main_v103_0)) : FVec Ideal S100000x128 .f32)
      = linG (bnG (W10 m ρ c (Proc.devRef .tc main_v80_0)) (W11 m ρ c (Proc.devRef .tc main_v84)) (W11 m ρ c (Proc.devRef .tc main_v90)) (W11 m ρ c (Proc.devRef .tc main_v100)) (W11 m ρ c (Proc.devRef .tc main_v101))) (W11 m ρ c (Proc.devRef .tc main_v99)) (W11 m ρ c (Proc.devRef .tc main_v102)) := by
  show W12 m ρ c (Proc.devRef .tc (Pipeline.arrRef spec5 7)) = _
  rw [W12_arr, final5_7 (V11 m ρ) c]
  show linG (bnG (W11 m ρ c (Proc.devRef .tc main_v80_0)) (W11 m ρ c (Proc.devRef .tc main_v84)) (W11 m ρ c (Proc.devRef .tc main_v90)) (W11 m ρ c (Proc.devRef .tc main_v100)) (W11 m ρ c (Proc.devRef .tc main_v101))) (W11 m ρ c (Proc.devRef .tc main_v99)) (W11 m ρ c (Proc.devRef .tc main_v102)) = _
  rw [W11_main_v80_0]

theorem s2_eq (c : Dev nD) : ((W12 m ρ c (Proc.devRef .tc main_v103_1)) : FVec Ideal S10x1x128 .f32) = sumG (W12 m ρ c (Proc.devRef .tc main_v103_0)) := by
  show W12 m ρ c (Proc.devRef .tc (Pipeline.arrRef spec5 8)) = _
  rw [W12_arr, final5_8 (V11 m ρ) c]
  show _ = sumG (W12 m ρ c (Proc.devRef .tc (Pipeline.arrRef spec5 7)))
  rw [W12_arr, final5_7 (V11 m ρ) c]

theorem q2_eq (c : Dev nD) : ((W12 m ρ c (Proc.devRef .tc main_v103_2)) : FVec Ideal S10x1x128 .f32) = sumG (sqG (W12 m ρ c (Proc.devRef .tc main_v103_0))) := by
  show W12 m ρ c (Proc.devRef .tc (Pipeline.arrRef spec5 9)) = _
  rw [W12_arr, final5_9 (V11 m ρ) c]
  show _ = sumG (sqG (W12 m ρ c (Proc.devRef .tc (Pipeline.arrRef spec5 7))))
  rw [W12_arr, final5_7 (V11 m ρ) c]

/-- The row of means of the second normalisation. -/
theorem m2_eq (c : Dev nD) (q : Fin 128) :
    ((W13 m ρ c (Proc.devRef .tc main_v107)) : FVec Ideal S1x128 .f32) (ix2 0 q) = mean cN (mat (W12 m ρ c (Proc.devRef .tc main_v103_0))) q := by
  rw [W13_main_v107, s2_eq]
  exact mean_row _ _ _ _ q

/-- The row of variances of the second normalisation. -/
theorem v2_eq (c : Dev nD) (q : Fin 128) :
    ((W13 m ρ c (Proc.devRef .tc main_v113)) : FVec Ideal S1x128 .f32) (ix2 0 q) = var1 cN (mat (W12 m ρ c (Proc.devRef .tc main_v103_0))) q := by
  rw [W13_main_v113, s2_eq, q2_eq]
  exact var_row _ _ _ _ _ (fun _ => rfl) q

/-- The layer's last array. -/
theorem xout_eq (c : Dev nD) :
    ((W14 m ρ c (Proc.devRef .tc main_v120)) : FVec Ideal S100000x128 .f32)
      = bnG (W12 m ρ c (Proc.devRef .tc main_v103_0)) (W13 m ρ c (Proc.devRef .tc main_v107)) (W13 m ρ c (Proc.devRef .tc main_v113)) (W13 m ρ c (Proc.devRef .tc main_v118)) (W13 m ρ c (Proc.devRef .tc main_v119)) := by
  show W14 m ρ c (Proc.devRef .tc (Pipeline.arrRef spec6 5)) = _
  rw [W14_arr, final6_5 (V13 m ρ) c]
  show bnG (W13 m ρ c (Proc.devRef .tc main_v103_0)) (W13 m ρ c (Proc.devRef .tc main_v107)) (W13 m ρ c (Proc.devRef .tc main_v113)) (W13 m ρ c (Proc.devRef .tc main_v118)) (W13 m ρ c (Proc.devRef .tc main_v119)) = _
  rw [W13_main_v103_0]

/-- The neighbours' sum the layer reads is the reference's aggregation of the layer's first array over the edge list. -/
theorem agg_eq (c : Dev nD) :
    ((W9 m ρ c (Proc.devRef .tc main_v73)) : FVec Ideal S100000x128 .f32)
      = aggStage (W8 m ρ c (Proc.devRef .tc main_v63)) (m ((c : Thread nD τ).loc main_arg1)) := by
  rw [W9_main_v73, W8_main_v1, W8_main_v3, W1_main_v1, W1_main_v3]
  rfl

/-- The layer, as a matrix. -/
theorem layer_eq (c : Dev nD) :
    mat (W14 m ρ c (Proc.devRef .tc main_v120))
      = layer var1 id (Ideal.ofBits .f32 0x3727C5AC#32) (mat (W8 m ρ c (Proc.devRef .tc main_v63)))
          (mat (aggStage (W8 m ρ c (Proc.devRef .tc main_v63)) (m ((c : Thread nD τ).loc main_arg1))))
          (matT (matAt1 (m ((c : Thread nD τ).loc main_arg5)))) (vec (rowAt1 (m ((c : Thread nD τ).loc main_arg6))))
          (vec (rowAt1 (m ((c : Thread nD τ).loc main_arg7)))) (vec (rowAt1 (m ((c : Thread nD τ).loc main_arg8))))
          (matT (matAt1 (m ((c : Thread nD τ).loc main_arg9)))) (vec (rowAt1 (m ((c : Thread nD τ).loc main_arg10))))
          (vec (rowAt1 (m ((c : Thread nD τ).loc main_arg11)))) (vec (rowAt1 (m ((c : Thread nD τ).loc main_arg12)))) := by
  have h := layer_of (X := (W8 m ρ c (Proc.devRef .tc main_v63))) (A := (W9 m ρ c (Proc.devRef .tc main_v73))) (fun _ => rfl) (y1_eq m ρ c) (m1_eq m ρ c) (v1_eq m ρ c)
    (y2_eq m ρ c) (m2_eq m ρ c) (v2_eq m ρ c) (xout_eq m ρ c)
  rw [h, agg_eq m ρ c]
  have eW1 : matW (W9 m ρ c (Proc.devRef .tc main_v78)) = matT (matAt1 (m ((c : Thread nD τ).loc main_arg5))) := by
    rw [W9_main_v78, W8_main_arg5]; exact matW_transpose _ _
  have eb1 : rowOf (W9 m ρ c (Proc.devRef .tc main_v79)) = vec (rowAt1 (m ((c : Thread nD τ).loc main_arg6))) := by
    rw [W9_main_v79, W8_main_arg6]; exact rowOf_shapeCast _ _
  have eg1 : rowOf (W11 m ρ c (Proc.devRef .tc main_v100)) = vec (rowAt1 (m ((c : Thread nD τ).loc main_arg7))) := by
    rw [W11_main_v100, W10_main_arg7]; exact rowOf_shapeCast _ _
  have ebe1 : rowOf (W11 m ρ c (Proc.devRef .tc main_v101)) = vec (rowAt1 (m ((c : Thread nD τ).loc main_arg8))) := by
    rw [W11_main_v101, W10_main_arg8]; exact rowOf_shapeCast _ _
  have eW2 : matW (W11 m ρ c (Proc.devRef .tc main_v99)) = matT (matAt1 (m ((c : Thread nD τ).loc main_arg9))) := by
    rw [W11_main_v99, W10_main_arg9]; exact matW_transpose _ _
  have eb2 : rowOf (W11 m ρ c (Proc.devRef .tc main_v102)) = vec (rowAt1 (m ((c : Thread nD τ).loc main_arg10))) := by
    rw [W11_main_v102, W10_main_arg10]; exact rowOf_shapeCast _ _
  have eg2 : rowOf (W13 m ρ c (Proc.devRef .tc main_v118)) = vec (rowAt1 (m ((c : Thread nD τ).loc main_arg11))) := by
    rw [W13_main_v118, W12_main_arg11]; exact rowOf_shapeCast _ _
  have ebe2 : rowOf (W13 m ρ c (Proc.devRef .tc main_v119)) = vec (rowAt1 (m ((c : Thread nD τ).loc main_arg12))) := by
    rw [W13_main_v119, W12_main_arg12]; exact rowOf_shapeCast _ _
  rw [eW1, eb1, eg1, ebe1, eW2, eb2, eg2, ebe2]

end Cert.KernelIdeal.Asm1

end
-- ==== Proof.KRegion7.lean ====
/-
  Region 7 of the kernel program (a layer's first affine map, of the features plus the aggregated neighbours, with the per-block column sums of the result and of its square): each output array after the region as a function of the arrays the
  region finds, entry by entry. The grid has ten points; point t reads rows t·10000 … t·10000 + 9999 of each
  100000×128 input, all of each small input, and writes the same rows of each 100000×128 output and entry (t, 0, ·) of
  each 10×1×128 output. What a point writes is the body's arithmetic of its blocks, which is the matching block of one
  function of the whole arrays; the points' blocks cover each output array, so the array ends at that function.
-/
import proofs.«119304_j10247791968545_2_alg».proof.Proof.Gen.KernelIdeal.Frame
import proofs.«119304_j10247791968545_2_alg».proof.Proof.KPay
import Idealize.ShloMosaic.Lib.Pipeline.Value

set_option maxRecDepth 16384

noncomputable section

namespace Cert.KernelIdeal.RegionValue

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-! ## The arrays the region finds, under their literal types -/

/-- Input window 0's array as the region finds it. -/
abbrev a7_0 (c : Dev nD) : FVec Ideal S100000x128 .f32 := V c (Pipeline.arrRef spec7 0)
/-- Input window 1's array as the region finds it. -/
abbrev a7_1 (c : Dev nD) : FVec Ideal S100000x128 .f32 := V c (Pipeline.arrRef spec7 1)
/-- Input window 2's array as the region finds it. -/
abbrev a7_2 (c : Dev nD) : FVec Ideal S128x128 .f32 := V c (Pipeline.arrRef spec7 2)
/-- Input window 3's array as the region finds it. -/
abbrev a7_3 (c : Dev nD) : FVec Ideal S1x128 .f32 := V c (Pipeline.arrRef spec7 3)

/-! ## Where the block index maps send a grid point -/

theorem idx7_0 : ∀ t : Fin cfg7.N, win7_0.index t (0 : Fin 2) = t.val ∧ win7_0.index t (1 : Fin 2) = 0 :=
  (by decide +kernel : ∀ t : Fin grid7.N, _)
theorem idx7_1 : ∀ t : Fin cfg7.N, win7_1.index t (0 : Fin 2) = t.val ∧ win7_1.index t (1 : Fin 2) = 0 :=
  (by decide +kernel : ∀ t : Fin grid7.N, _)
theorem idx7_2 : ∀ t : Fin cfg7.N, win7_2.index t (0 : Fin 2) = 0 ∧ win7_2.index t (1 : Fin 2) = 0 :=
  (by decide +kernel : ∀ t : Fin grid7.N, _)
theorem idx7_3 : ∀ t : Fin cfg7.N, win7_3.index t (0 : Fin 2) = 0 ∧ win7_3.index t (1 : Fin 2) = 0 :=
  (by decide +kernel : ∀ t : Fin grid7.N, _)
theorem idx7_4 : ∀ t : Fin cfg7.N, win7_4.index t (0 : Fin 2) = t.val ∧ win7_4.index t (1 : Fin 2) = 0 :=
  (by decide +kernel : ∀ t : Fin grid7.N, _)
theorem idx7_5 : ∀ t : Fin cfg7.N, win7_5.index t (0 : Fin 3) = t.val ∧ win7_5.index t (1 : Fin 3) = 0 ∧ win7_5.index t (2 : Fin 3) = 0 :=
  (by decide +kernel : ∀ t : Fin grid7.N, _)
theorem idx7_6 : ∀ t : Fin cfg7.N, win7_6.index t (0 : Fin 3) = t.val ∧ win7_6.index t (1 : Fin 3) = 0 ∧ win7_6.index t (2 : Fin 3) = 0 :=
  (by decide +kernel : ∀ t : Fin grid7.N, _)

/-! ## The input windows' blocks, read off the arrays -/

/-- Point t's block of input window 0 is rows t·10000 … of the window's array. -/
theorem blk7_0 (c : Dev nD) (t : Fin cfg7.N) : IsBlock t.val (iblk7 V c 0 t) (a7_0 V c) := by
  intro j i hji
  obtain ⟨e0, e1⟩ := idx7_0 t
  have h0 := hji.1
  have h1 := hji.2
  show (a7_0 V c) (((cfg7.win 0).blk t).view.emb j) = (a7_0 V c) i
  refine congrArg (a7_0 V c) (funext fun a => Fin.ext ?_)
  match a with
  | ⟨0, _⟩ => show win7_0.index t (0 : Fin 2) * 10000 + 1 * (j 0).val = (i 0).val; rw [e0]; omega
  | ⟨1, _⟩ => show win7_0.index t (1 : Fin 2) * 128 + 1 * (j 1).val = (i 1).val; rw [e1]; omega

/-- Point t's block of input window 1 is rows t·10000 … of the window's array. -/
theorem blk7_1 (c : Dev nD) (t : Fin cfg7.N) : IsBlock t.val (iblk7 V c 1 t) (a7_1 V c) := by
  intro j i hji
  obtain ⟨e0, e1⟩ := idx7_1 t
  have h0 := hji.1
  have h1 := hji.2
  show (a7_1 V c) (((cfg7.win 1).blk t).view.emb j) = (a7_1 V c) i
  refine congrArg (a7_1 V c) (funext fun a => Fin.ext ?_)
  match a with
  | ⟨0, _⟩ => show win7_1.index t (0 : Fin 2) * 10000 + 1 * (j 0).val = (i 0).val; rw [e0]; omega
  | ⟨1, _⟩ => show win7_1.index t (1 : Fin 2) * 128 + 1 * (j 1).val = (i 1).val; rw [e1]; omega

/-- Input window 2's block at every point is its whole array. -/
theorem whole7_2 (c : Dev nD) (t : Fin cfg7.N) : iblk7 V c 2 t = (a7_2 V c) := by
  funext y
  obtain ⟨e0, e1⟩ := idx7_2 t
  show (a7_2 V c) (((cfg7.win 2).blk t).view.emb y) = (a7_2 V c) y
  refine congrArg (a7_2 V c) (funext fun a => Fin.ext ?_)
  match a with
  | ⟨0, _⟩ => show win7_2.index t (0 : Fin 2) * 128 + 1 * (y 0).val = (y 0).val; rw [e0]; omega
  | ⟨1, _⟩ => show win7_2.index t (1 : Fin 2) * 128 + 1 * (y 1).val = (y 1).val; rw [e1]; omega

/-- Input window 3's block at every point is its whole array. -/
theorem whole7_3 (c : Dev nD) (t : Fin cfg7.N) : iblk7 V c 3 t = (a7_3 V c) := by
  funext y
  obtain ⟨e0, e1⟩ := idx7_3 t
  show (a7_3 V c) (((cfg7.win 3).blk t).view.emb y) = (a7_3 V c) y
  refine congrArg (a7_3 V c) (funext fun a => Fin.ext ?_)
  match a with
  | ⟨0, _⟩ => show win7_3.index t (0 : Fin 2) * 1 + 1 * (y 0).val = (y 0).val; rw [e0]; omega
  | ⟨1, _⟩ => show win7_3.index t (1 : Fin 2) * 128 + 1 * (y 1).val = (y 1).val; rw [e1]; omega

/-! ## The body's stores, over arbitrary blocks: a block of rows of the array it was read from, the small blocks equal to
    their arrays -/

theorem k7_pay1_block (v0 v2 : Vec Ideal S10000x128 .f32) (v5 : Vec Ideal S128x128 .f32) (v8 : Vec Ideal S1x128 .f32)
    (X0 X1 : FVec Ideal S100000x128 .f32) (W : FVec Ideal S128x128 .f32) (B : FVec Ideal S1x128 .f32) (T : Nat)
    (h0 : IsBlock T v0 X0) (h1 : IsBlock T v2 X1) (e5 : v5 = W) (e8 : v8 = B) :
    IsBlock T (k7_pay1 v0 v2 v5 v8) (linG (addG X0 X1) W B) := by
  subst e5 e8
  unfold k7_pay1
  exact lin_block _ v5 v8 _ T (add_block v0 v2 X0 X1 T h0 h1 _) _ _ _

theorem k7_pay2_block (v0 v2 : Vec Ideal S10000x128 .f32) (v5 : Vec Ideal S128x128 .f32) (v8 : Vec Ideal S1x128 .f32)
    (X0 X1 : FVec Ideal S100000x128 .f32) (W : FVec Ideal S128x128 .f32) (B : FVec Ideal S1x128 .f32) (T : Nat)
    (h0 : IsBlock T v0 X0) (h1 : IsBlock T v2 X1) (e5 : v5 = W) (e8 : v8 = B)
    (j : S1x1x128.Idx) (i : S10x1x128.Idx) (hi0 : (i 0).val = T) (hi2 : (i 2).val = (j 2).val) :
    k7_pay2 v0 v2 v5 v8 j = sumG (linG (addG X0 X1) W B) i := by
  unfold k7_pay2
  exact colsum_block _ _ T (k7_pay1_block v0 v2 v5 v8 X0 X1 W B T h0 h1 e5 e8) _ _ _ _ _ j i hi0 hi2

theorem k7_pay3_block (v0 v2 : Vec Ideal S10000x128 .f32) (v5 : Vec Ideal S128x128 .f32) (v8 : Vec Ideal S1x128 .f32)
    (X0 X1 : FVec Ideal S100000x128 .f32) (W : FVec Ideal S128x128 .f32) (B : FVec Ideal S1x128 .f32) (T : Nat)
    (h0 : IsBlock T v0 X0) (h1 : IsBlock T v2 X1) (e5 : v5 = W) (e8 : v8 = B)
    (j : S1x1x128.Idx) (i : S10x1x128.Idx) (hi0 : (i 0).val = T) (hi2 : (i 2).val = (j 2).val) :
    k7_pay3 v0 v2 v5 v8 j = sumG (sqG (linG (addG X0 X1) W B)) i := by
  unfold k7_pay3
  exact colsum_block _ _ T (sq_block _ _ T (k7_pay1_block v0 v2 v5 v8 X0 X1 W B T h0 h1 e5 e8)) _ _ _ _ _ j i hi0 hi2

/-! ## The output windows: where a block sits, which points cover the array, what each point writes, the array after the region -/

theorem at7_4 (t : Fin cfg7.N) (j : S10000x128.Idx) : At t.val j (((cfg7.win 4).blk t).view.emb j) := by
  obtain ⟨e0, e1⟩ := idx7_4 t
  constructor
  · show win7_4.index t (0 : Fin 2) * 10000 + 1 * (j 0).val = _; rw [e0]; omega
  · show win7_4.index t (1 : Fin 2) * 128 + 1 * (j 1).val = _; rw [e1]; omega

theorem mem7_4 (t : Fin cfg7.N) (i : S100000x128.Idx) :
    i ∈ ((cfg7.win 4).blk t).view.set ↔ ∀ a : Fin 2, win7_4.index t a * S10000x128.size a ≤ (i a).val
      ∧ (i a).val < win7_4.index t a * S10000x128.size a + S10000x128.size a := by
  show i ∈ ((View.whole main_v137_0).slice (win7_4.rect t)).set ↔ _
  rw [View.set_slice_whole, Rect.mem_set_unit]
  exact Iff.rfl

/-- Row p is in the block of point p / 10000. -/
theorem cover7_4 (i : S100000x128.Idx) :
    ∃ t : Fin cfg7.N, (cfg7.win 4).flush t = true ∧ i ∈ ((cfg7.win 4).blk t).view.set := by
  have h0 : (i 0).val < 100000 := (i 0).isLt
  have h1 : (i 1).val < 128 := (i 1).isLt
  have hN : cfg7.N = 10 := N_7
  refine ⟨⟨(i 0).val / 10000, by rw [hN]; omega⟩, flush7_4 _, ?_⟩
  rw [mem7_4]
  obtain ⟨e0, e1⟩ := idx7_4 ⟨(i 0).val / 10000, by rw [hN]; omega⟩
  intro a
  match a with
  | ⟨0, _⟩ =>
    show win7_4.index _ (0 : Fin 2) * 10000 ≤ (i 0).val ∧ (i 0).val < win7_4.index _ (0 : Fin 2) * 10000 + 10000
    rw [e0]
    show (i 0).val / 10000 * 10000 ≤ (i 0).val ∧ (i 0).val < (i 0).val / 10000 * 10000 + 10000
    omega
  | ⟨1, _⟩ =>
    show win7_4.index _ (1 : Fin 2) * 128 ≤ (i 1).val ∧ (i 1).val < win7_4.index _ (1 : Fin 2) * 128 + 128
    rw [e1]
    omega

/-- What point t writes back to window 4's array is its block of the whole-array function. -/
theorem flushed7_4 (c : Dev nD) (t : Fin cfg7.N) :
    (dat7 V c).flushed 4 t = ((cfg7.win 4).blk t).view.read (Elt Ideal) (linG (addG (a7_0 V c) (a7_1 V c)) (a7_2 V c) (a7_3 V c)) := by
  show (cfg7.win 4).cut (grid7.coords t) ((dat7 V c).after 4 t) = _
  rw [after7_4]
  unfold out7_4
  rw [View.canon_unit_zero hz2]
  simp only [View.ld_unit_zero (S := S10000x128) hz2, View.ld_unit_zero (S := S128x128) hz2, View.ld_unit_zero (S := S1x128) hz2]
  funext j
  show k7_pay1 (iblk7 V c 0 t) (iblk7 V c 1 t) (iblk7 V c 2 t) (iblk7 V c 3 t) j = (linG (addG (a7_0 V c) (a7_1 V c)) (a7_2 V c) (a7_3 V c)) (((cfg7.win 4).blk t).view.emb j)
  exact k7_pay1_block (iblk7 V c 0 t) (iblk7 V c 1 t) (iblk7 V c 2 t) (iblk7 V c 3 t) (a7_0 V c) (a7_1 V c) (a7_2 V c) (a7_3 V c) t.val (blk7_0 V c t) (blk7_1 V c t) (whole7_2 V c t) (whole7_3 V c t) j (((cfg7.win 4).blk t).view.emb j) (at7_4 t j)

/-- Window 4's array after the region. -/
theorem arr7_4 (c : Dev nD) : (dat7 V c).arrAt 4 cfg7.N = linG (addG (a7_0 V c) (a7_1 V c)) (a7_2 V c) (a7_3 V c) :=
  (dat7 V c).arrAt_eq_of_cover 4 _ (fun t _ => flushed7_4 V c t) cover7_4

/-- The same, with the arrays spelt as the region's proof data spells them. -/
theorem final7_4 (c : Dev nD) : (dat7 V c).arrAt 4 cfg7.N = linG (addG (V c (Pipeline.arrRef spec7 0)) (V c (Pipeline.arrRef spec7 1))) (V c (Pipeline.arrRef spec7 2)) (V c (Pipeline.arrRef spec7 3)) :=
  arr7_4 V c

theorem at7_5 (t : Fin cfg7.N) (j : S1x1x128.Idx) :
    (((cfg7.win 5).blk t).view.emb j 0).val = t.val ∧ (((cfg7.win 5).blk t).view.emb j 2).val = (j 2).val := by
  obtain ⟨e0, e1, e2⟩ := idx7_5 t
  have h0 : (j 0).val < 1 := (j 0).isLt
  constructor
  · show win7_5.index t (0 : Fin 3) * 1 + 1 * (j 0).val = _; rw [e0]; omega
  · show win7_5.index t (2 : Fin 3) * 128 + 1 * (j 2).val = _; rw [e2]; omega

theorem mem7_5 (t : Fin cfg7.N) (i : S10x1x128.Idx) :
    i ∈ ((cfg7.win 5).blk t).view.set ↔ ∀ a : Fin 3, win7_5.index t a * S1x1x128.size a ≤ (i a).val
      ∧ (i a).val < win7_5.index t a * S1x1x128.size a + S1x1x128.size a := by
  show i ∈ ((View.whole main_v137_1).slice (win7_5.rect t)).set ↔ _
  rw [View.set_slice_whole, Rect.mem_set_unit]
  exact Iff.rfl

/-- Entry (b, 0, q) is in the block of point b. -/
theorem cover7_5 (i : S10x1x128.Idx) :
    ∃ t : Fin cfg7.N, (cfg7.win 5).flush t = true ∧ i ∈ ((cfg7.win 5).blk t).view.set := by
  have h0 : (i 0).val < 10 := (i 0).isLt
  have h1 : (i 1).val < 1 := (i 1).isLt
  have h2 : (i 2).val < 128 := (i 2).isLt
  have hN : cfg7.N = 10 := N_7
  refine ⟨⟨(i 0).val, by rw [hN]; omega⟩, flush7_5 _, ?_⟩
  rw [mem7_5]
  obtain ⟨e0, e1, e2⟩ := idx7_5 ⟨(i 0).val, by rw [hN]; omega⟩
  intro a
  match a with
  | ⟨0, _⟩ =>
    show win7_5.index _ (0 : Fin 3) * 1 ≤ (i 0).val ∧ (i 0).val < win7_5.index _ (0 : Fin 3) * 1 + 1
    rw [e0]
    show (i 0).val * 1 ≤ (i 0).val ∧ (i 0).val < (i 0).val * 1 + 1
    omega
  | ⟨1, _⟩ =>
    show win7_5.index _ (1 : Fin 3) * 1 ≤ (i 1).val ∧ (i 1).val < win7_5.index _ (1 : Fin 3) * 1 + 1
    rw [e1]
    omega
  | ⟨2, _⟩ =>
    show win7_5.index _ (2 : Fin 3) * 128 ≤ (i 2).val ∧ (i 2).val < win7_5.index _ (2 : Fin 3) * 128 + 128
    rw [e2]
    omega

/-- What point t writes back to window 5's array is its block of the whole-array function. -/
theorem flushed7_5 (c : Dev nD) (t : Fin cfg7.N) :
    (dat7 V c).flushed 5 t = ((cfg7.win 5).blk t).view.read (Elt Ideal) (sumG (linG (addG (a7_0 V c) (a7_1 V c)) (a7_2 V c) (a7_3 V c))) := by
  show (cfg7.win 5).cut (grid7.coords t) ((dat7 V c).after 5 t) = _
  rw [after7_5]
  unfold out7_5
  rw [View.canon_unit_zero hz3]
  simp only [View.ld_unit_zero (S := S10000x128) hz2, View.ld_unit_zero (S := S128x128) hz2, View.ld_unit_zero (S := S1x128) hz2]
  funext j
  show k7_pay2 (iblk7 V c 0 t) (iblk7 V c 1 t) (iblk7 V c 2 t) (iblk7 V c 3 t) j = (sumG (linG (addG (a7_0 V c) (a7_1 V c)) (a7_2 V c) (a7_3 V c))) (((cfg7.win 5).blk t).view.emb j)
  exact k7_pay2_block (iblk7 V c 0 t) (iblk7 V c 1 t) (iblk7 V c 2 t) (iblk7 V c 3 t) (a7_0 V c) (a7_1 V c) (a7_2 V c) (a7_3 V c) t.val (blk7_0 V c t) (blk7_1 V c t) (whole7_2 V c t) (whole7_3 V c t) j (((cfg7.win 5).blk t).view.emb j) (at7_5 t j).1 (at7_5 t j).2

/-- Window 5's array after the region. -/
theorem arr7_5 (c : Dev nD) : (dat7 V c).arrAt 5 cfg7.N = sumG (linG (addG (a7_0 V c) (a7_1 V c)) (a7_2 V c) (a7_3 V c)) :=
  (dat7 V c).arrAt_eq_of_cover 5 _ (fun t _ => flushed7_5 V c t) cover7_5

/-- The same, with the arrays spelt as the region's proof data spells them. -/
theorem final7_5 (c : Dev nD) : (dat7 V c).arrAt 5 cfg7.N = sumG (linG (addG (V c (Pipeline.arrRef spec7 0)) (V c (Pipeline.arrRef spec7 1))) (V c (Pipeline.arrRef spec7 2)) (V c (Pipeline.arrRef spec7 3))) :=
  arr7_5 V c

theorem at7_6 (t : Fin cfg7.N) (j : S1x1x128.Idx) :
    (((cfg7.win 6).blk t).view.emb j 0).val = t.val ∧ (((cfg7.win 6).blk t).view.emb j 2).val = (j 2).val := by
  obtain ⟨e0, e1, e2⟩ := idx7_6 t
  have h0 : (j 0).val < 1 := (j 0).isLt
  constructor
  · show win7_6.index t (0 : Fin 3) * 1 + 1 * (j 0).val = _; rw [e0]; omega
  · show win7_6.index t (2 : Fin 3) * 128 + 1 * (j 2).val = _; rw [e2]; omega

theorem mem7_6 (t : Fin cfg7.N) (i : S10x1x128.Idx) :
    i ∈ ((cfg7.win 6).blk t).view.set ↔ ∀ a : Fin 3, win7_6.index t a * S1x1x128.size a ≤ (i a).val
      ∧ (i a).val < win7_6.index t a * S1x1x128.size a + S1x1x128.size a := by
  show i ∈ ((View.whole main_v137_2).slice (win7_6.rect t)).set ↔ _
  rw [View.set_slice_whole, Rect.mem_set_unit]
  exact Iff.rfl

/-- Entry (b, 0, q) is in the block of point b. -/
theorem cover7_6 (i : S10x1x128.Idx) :
    ∃ t : Fin cfg7.N, (cfg7.win 6).flush t = true ∧ i ∈ ((cfg7.win 6).blk t).view.set := by
  have h0 : (i 0).val < 10 := (i 0).isLt
  have h1 : (i 1).val < 1 := (i 1).isLt
  have h2 : (i 2).val < 128 := (i 2).isLt
  have hN : cfg7.N = 10 := N_7
  refine ⟨⟨(i 0).val, by rw [hN]; omega⟩, flush7_6 _, ?_⟩
  rw [mem7_6]
  obtain ⟨e0, e1, e2⟩ := idx7_6 ⟨(i 0).val, by rw [hN]; omega⟩
  intro a
  match a with
  | ⟨0, _⟩ =>
    show win7_6.index _ (0 : Fin 3) * 1 ≤ (i 0).val ∧ (i 0).val < win7_6.index _ (0 : Fin 3) * 1 + 1
    rw [e0]
    show (i 0).val * 1 ≤ (i 0).val ∧ (i 0).val < (i 0).val * 1 + 1
    omega
  | ⟨1, _⟩ =>
    show win7_6.index _ (1 : Fin 3) * 1 ≤ (i 1).val ∧ (i 1).val < win7_6.index _ (1 : Fin 3) * 1 + 1
    rw [e1]
    omega
  | ⟨2, _⟩ =>
    show win7_6.index _ (2 : Fin 3) * 128 ≤ (i 2).val ∧ (i 2).val < win7_6.index _ (2 : Fin 3) * 128 + 128
    rw [e2]
    omega

/-- What point t writes back to window 6's array is its block of the whole-array function. -/
theorem flushed7_6 (c : Dev nD) (t : Fin cfg7.N) :
    (dat7 V c).flushed 6 t = ((cfg7.win 6).blk t).view.read (Elt Ideal) (sumG (sqG (linG (addG (a7_0 V c) (a7_1 V c)) (a7_2 V c) (a7_3 V c)))) := by
  show (cfg7.win 6).cut (grid7.coords t) ((dat7 V c).after 6 t) = _
  rw [after7_6]
  unfold out7_6
  rw [View.canon_unit_zero hz3]
  simp only [View.ld_unit_zero (S := S10000x128) hz2, View.ld_unit_zero (S := S128x128) hz2, View.ld_unit_zero (S := S1x128) hz2]
  funext j
  show k7_pay3 (iblk7 V c 0 t) (iblk7 V c 1 t) (iblk7 V c 2 t) (iblk7 V c 3 t) j = (sumG (sqG (linG (addG (a7_0 V c) (a7_1 V c)) (a7_2 V c) (a7_3 V c)))) (((cfg7.win 6).blk t).view.emb j)
  exact k7_pay3_block (iblk7 V c 0 t) (iblk7 V c 1 t) (iblk7 V c 2 t) (iblk7 V c 3 t) (a7_0 V c) (a7_1 V c) (a7_2 V c) (a7_3 V c) t.val (blk7_0 V c t) (blk7_1 V c t) (whole7_2 V c t) (whole7_3 V c t) j (((cfg7.win 6).blk t).view.emb j) (at7_6 t j).1 (at7_6 t j).2

/-- Window 6's array after the region. -/
theorem arr7_6 (c : Dev nD) : (dat7 V c).arrAt 6 cfg7.N = sumG (sqG (linG (addG (a7_0 V c) (a7_1 V c)) (a7_2 V c) (a7_3 V c))) :=
  (dat7 V c).arrAt_eq_of_cover 6 _ (fun t _ => flushed7_6 V c t) cover7_6

/-- The same, with the arrays spelt as the region's proof data spells them. -/
theorem final7_6 (c : Dev nD) : (dat7 V c).arrAt 6 cfg7.N = sumG (sqG (linG (addG (V c (Pipeline.arrRef spec7 0)) (V c (Pipeline.arrRef spec7 1))) (V c (Pipeline.arrRef spec7 2)) (V c (Pipeline.arrRef spec7 3)))) :=
  arr7_6 V c

end Cert.KernelIdeal.RegionValue

end
-- ==== Proof.KRegion8.lean ====
/-
  Region 8 of the kernel program (a layer's first normalisation and rectifier followed by its second affine map, with the per-block column sums of the result and of its square): each output array after the region as a function of the arrays the
  region finds, entry by entry. The grid has ten points; point t reads rows t·10000 … t·10000 + 9999 of each
  100000×128 input, all of each small input, and writes the same rows of each 100000×128 output and entry (t, 0, ·) of
  each 10×1×128 output. What a point writes is the body's arithmetic of its blocks, which is the matching block of one
  function of the whole arrays; the points' blocks cover each output array, so the array ends at that function.
-/
import proofs.«119304_j10247791968545_2_alg».proof.Proof.Gen.KernelIdeal.Frame
import proofs.«119304_j10247791968545_2_alg».proof.Proof.KPay
import Idealize.ShloMosaic.Lib.Pipeline.Value

set_option maxRecDepth 16384

noncomputable section

namespace Cert.KernelIdeal.RegionValue

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-! ## The arrays the region finds, under their literal types -/

/-- Input window 0's array as the region finds it. -/
abbrev a8_0 (c : Dev nD) : FVec Ideal S100000x128 .f32 := V c (Pipeline.arrRef spec8 0)
/-- Input window 1's array as the region finds it. -/
abbrev a8_1 (c : Dev nD) : FVec Ideal S1x128 .f32 := V c (Pipeline.arrRef spec8 1)
/-- Input window 2's array as the region finds it. -/
abbrev a8_2 (c : Dev nD) : FVec Ideal S1x128 .f32 := V c (Pipeline.arrRef spec8 2)
/-- Input window 3's array as the region finds it. -/
abbrev a8_3 (c : Dev nD) : FVec Ideal S1x128 .f32 := V c (Pipeline.arrRef spec8 3)
/-- Input window 4's array as the region finds it. -/
abbrev a8_4 (c : Dev nD) : FVec Ideal S1x128 .f32 := V c (Pipeline.arrRef spec8 4)
/-- Input window 5's array as the region finds it. -/
abbrev a8_5 (c : Dev nD) : FVec Ideal S128x128 .f32 := V c (Pipeline.arrRef spec8 5)
/-- Input window 6's array as the region finds it. -/
abbrev a8_6 (c : Dev nD) : FVec Ideal S1x128 .f32 := V c (Pipeline.arrRef spec8 6)

/-! ## Where the block index maps send a grid point -/

theorem idx8_0 : ∀ t : Fin cfg8.N, win8_0.index t (0 : Fin 2) = t.val ∧ win8_0.index t (1 : Fin 2) = 0 :=
  (by decide +kernel : ∀ t : Fin grid8.N, _)
theorem idx8_1 : ∀ t : Fin cfg8.N, win8_1.index t (0 : Fin 2) = 0 ∧ win8_1.index t (1 : Fin 2) = 0 :=
  (by decide +kernel : ∀ t : Fin grid8.N, _)
theorem idx8_2 : ∀ t : Fin cfg8.N, win8_2.index t (0 : Fin 2) = 0 ∧ win8_2.index t (1 : Fin 2) = 0 :=
  (by decide +kernel : ∀ t : Fin grid8.N, _)
theorem idx8_3 : ∀ t : Fin cfg8.N, win8_3.index t (0 : Fin 2) = 0 ∧ win8_3.index t (1 : Fin 2) = 0 :=
  (by decide +kernel : ∀ t : Fin grid8.N, _)
theorem idx8_4 : ∀ t : Fin cfg8.N, win8_4.index t (0 : Fin 2) = 0 ∧ win8_4.index t (1 : Fin 2) = 0 :=
  (by decide +kernel : ∀ t : Fin grid8.N, _)
theorem idx8_5 : ∀ t : Fin cfg8.N, win8_5.index t (0 : Fin 2) = 0 ∧ win8_5.index t (1 : Fin 2) = 0 :=
  (by decide +kernel : ∀ t : Fin grid8.N, _)
theorem idx8_6 : ∀ t : Fin cfg8.N, win8_6.index t (0 : Fin 2) = 0 ∧ win8_6.index t (1 : Fin 2) = 0 :=
  (by decide +kernel : ∀ t : Fin grid8.N, _)
theorem idx8_7 : ∀ t : Fin cfg8.N, win8_7.index t (0 : Fin 2) = t.val ∧ win8_7.index t (1 : Fin 2) = 0 :=
  (by decide +kernel : ∀ t : Fin grid8.N, _)
theorem idx8_8 : ∀ t : Fin cfg8.N, win8_8.index t (0 : Fin 3) = t.val ∧ win8_8.index t (1 : Fin 3) = 0 ∧ win8_8.index t (2 : Fin 3) = 0 :=
  (by decide +kernel : ∀ t : Fin grid8.N, _)
theorem idx8_9 : ∀ t : Fin cfg8.N, win8_9.index t (0 : Fin 3) = t.val ∧ win8_9.index t (1 : Fin 3) = 0 ∧ win8_9.index t (2 : Fin 3) = 0 :=
  (by decide +kernel : ∀ t : Fin grid8.N, _)

/-! ## The input windows' blocks, read off the arrays -/

/-- Point t's block of input window 0 is rows t·10000 … of the window's array. -/
theorem blk8_0 (c : Dev nD) (t : Fin cfg8.N) : IsBlock t.val (iblk8 V c 0 t) (a8_0 V c) := by
  intro j i hji
  obtain ⟨e0, e1⟩ := idx8_0 t
  have h0 := hji.1
  have h1 := hji.2
  show (a8_0 V c) (((cfg8.win 0).blk t).view.emb j) = (a8_0 V c) i
  refine congrArg (a8_0 V c) (funext fun a => Fin.ext ?_)
  match a with
  | ⟨0, _⟩ => show win8_0.index t (0 : Fin 2) * 10000 + 1 * (j 0).val = (i 0).val; rw [e0]; omega
  | ⟨1, _⟩ => show win8_0.index t (1 : Fin 2) * 128 + 1 * (j 1).val = (i 1).val; rw [e1]; omega

/-- Input window 1's block at every point is its whole array. -/
theorem whole8_1 (c : Dev nD) (t : Fin cfg8.N) : iblk8 V c 1 t = (a8_1 V c) := by
  funext y
  obtain ⟨e0, e1⟩ := idx8_1 t
  show (a8_1 V c) (((cfg8.win 1).blk t).view.emb y) = (a8_1 V c) y
  refine congrArg (a8_1 V c) (funext fun a => Fin.ext ?_)
  match a with
  | ⟨0, _⟩ => show win8_1.index t (0 : Fin 2) * 1 + 1 * (y 0).val = (y 0).val; rw [e0]; omega
  | ⟨1, _⟩ => show win8_1.index t (1 : Fin 2) * 128 + 1 * (y 1).val = (y 1).val; rw [e1]; omega

/-- Input window 2's block at every point is its whole array. -/
theorem whole8_2 (c : Dev nD) (t : Fin cfg8.N) : iblk8 V c 2 t = (a8_2 V c) := by
  funext y
  obtain ⟨e0, e1⟩ := idx8_2 t
  show (a8_2 V c) (((cfg8.win 2).blk t).view.emb y) = (a8_2 V c) y
  refine congrArg (a8_2 V c) (funext fun a => Fin.ext ?_)
  match a with
  | ⟨0, _⟩ => show win8_2.index t (0 : Fin 2) * 1 + 1 * (y 0).val = (y 0).val; rw [e0]; omega
  | ⟨1, _⟩ => show win8_2.index t (1 : Fin 2) * 128 + 1 * (y 1).val = (y 1).val; rw [e1]; omega

/-- Input window 3's block at every point is its whole array. -/
theorem whole8_3 (c : Dev nD) (t : Fin cfg8.N) : iblk8 V c 3 t = (a8_3 V c) := by
  funext y
  obtain ⟨e0, e1⟩ := idx8_3 t
  show (a8_3 V c) (((cfg8.win 3).blk t).view.emb y) = (a8_3 V c) y
  refine congrArg (a8_3 V c) (funext fun a => Fin.ext ?_)
  match a with
  | ⟨0, _⟩ => show win8_3.index t (0 : Fin 2) * 1 + 1 * (y 0).val = (y 0).val; rw [e0]; omega
  | ⟨1, _⟩ => show win8_3.index t (1 : Fin 2) * 128 + 1 * (y 1).val = (y 1).val; rw [e1]; omega

/-- Input window 4's block at every point is its whole array. -/
theorem whole8_4 (c : Dev nD) (t : Fin cfg8.N) : iblk8 V c 4 t = (a8_4 V c) := by
  funext y
  obtain ⟨e0, e1⟩ := idx8_4 t
  show (a8_4 V c) (((cfg8.win 4).blk t).view.emb y) = (a8_4 V c) y
  refine congrArg (a8_4 V c) (funext fun a => Fin.ext ?_)
  match a with
  | ⟨0, _⟩ => show win8_4.index t (0 : Fin 2) * 1 + 1 * (y 0).val = (y 0).val; rw [e0]; omega
  | ⟨1, _⟩ => show win8_4.index t (1 : Fin 2) * 128 + 1 * (y 1).val = (y 1).val; rw [e1]; omega

/-- Input window 5's block at every point is its whole array. -/
theorem whole8_5 (c : Dev nD) (t : Fin cfg8.N) : iblk8 V c 5 t = (a8_5 V c) := by
  funext y
  obtain ⟨e0, e1⟩ := idx8_5 t
  show (a8_5 V c) (((cfg8.win 5).blk t).view.emb y) = (a8_5 V c) y
  refine congrArg (a8_5 V c) (funext fun a => Fin.ext ?_)
  match a with
  | ⟨0, _⟩ => show win8_5.index t (0 : Fin 2) * 128 + 1 * (y 0).val = (y 0).val; rw [e0]; omega
  | ⟨1, _⟩ => show win8_5.index t (1 : Fin 2) * 128 + 1 * (y 1).val = (y 1).val; rw [e1]; omega

/-- Input window 6's block at every point is its whole array. -/
theorem whole8_6 (c : Dev nD) (t : Fin cfg8.N) : iblk8 V c 6 t = (a8_6 V c) := by
  funext y
  obtain ⟨e0, e1⟩ := idx8_6 t
  show (a8_6 V c) (((cfg8.win 6).blk t).view.emb y) = (a8_6 V c) y
  refine congrArg (a8_6 V c) (funext fun a => Fin.ext ?_)
  match a with
  | ⟨0, _⟩ => show win8_6.index t (0 : Fin 2) * 1 + 1 * (y 0).val = (y 0).val; rw [e0]; omega
  | ⟨1, _⟩ => show win8_6.index t (1 : Fin 2) * 128 + 1 * (y 1).val = (y 1).val; rw [e1]; omega

/-! ## The body's stores, over arbitrary blocks: a block of rows of the array it was read from, the small blocks equal to
    their arrays -/

theorem k8_pay2_block (v0 : Vec Ideal S10000x128 .f32) (v2 v7 v9 v17 : Vec Ideal S1x128 .f32) (v23 : Vec Ideal S128x128 .f32)
    (v26 : Vec Ideal S1x128 .f32) (Y : FVec Ideal S100000x128 .f32) (M Vr G Be : FVec Ideal S1x128 .f32)
    (W : FVec Ideal S128x128 .f32) (B : FVec Ideal S1x128 .f32) (T : Nat) (h0 : IsBlock T v0 Y)
    (e2 : v2 = Vr) (e7 : v7 = G) (e9 : v9 = M) (e17 : v17 = Be) (e23 : v23 = W) (e26 : v26 = B) :
    IsBlock T (k8_pay2 v0 v2 v7 v9 v17 v23 v26) (linG (bnG Y M Vr G Be) W B) := by
  subst e2 e7 e9 e17 e23 e26
  unfold k8_pay2
  exact lin_block _ v23 v26 _ T (bn_block v0 v2 v7 v9 v17 Y T h0 _ _ _) _ _ _

theorem k8_pay3_block (v0 : Vec Ideal S10000x128 .f32) (v2 v7 v9 v17 : Vec Ideal S1x128 .f32) (v23 : Vec Ideal S128x128 .f32)
    (v26 : Vec Ideal S1x128 .f32) (Y : FVec Ideal S100000x128 .f32) (M Vr G Be : FVec Ideal S1x128 .f32)
    (W : FVec Ideal S128x128 .f32) (B : FVec Ideal S1x128 .f32) (T : Nat) (h0 : IsBlock T v0 Y)
    (e2 : v2 = Vr) (e7 : v7 = G) (e9 : v9 = M) (e17 : v17 = Be) (e23 : v23 = W) (e26 : v26 = B)
    (j : S1x1x128.Idx) (i : S10x1x128.Idx) (hi0 : (i 0).val = T) (hi2 : (i 2).val = (j 2).val) :
    k8_pay3 v0 v2 v7 v9 v17 v23 v26 j = sumG (linG (bnG Y M Vr G Be) W B) i := by
  unfold k8_pay3
  exact colsum_block _ _ T (k8_pay2_block v0 v2 v7 v9 v17 v23 v26 Y M Vr G Be W B T h0 e2 e7 e9 e17 e23 e26) _ _ _ _ _ j i hi0 hi2

theorem k8_pay1_block (v29 : FVec Ideal S10000x128 .f32) (Z : FVec Ideal S100000x128 .f32) (T : Nat) (h : IsBlock T v29 Z)
    (j : S1x1x128.Idx) (i : S10x1x128.Idx) (hi0 : (i 0).val = T) (hi2 : (i 2).val = (j 2).val) :
    k8_pay1 v29 j = sumG (sqG Z) i := by
  unfold k8_pay1
  exact colsum_block _ _ T (sq_block v29 Z T h) _ _ _ _ _ j i hi0 hi2

/-! ## The output windows: where a block sits, which points cover the array, what each point writes, the array after the region -/

theorem at8_7 (t : Fin cfg8.N) (j : S10000x128.Idx) : At t.val j (((cfg8.win 7).blk t).view.emb j) := by
  obtain ⟨e0, e1⟩ := idx8_7 t
  constructor
  · show win8_7.index t (0 : Fin 2) * 10000 + 1 * (j 0).val = _; rw [e0]; omega
  · show win8_7.index t (1 : Fin 2) * 128 + 1 * (j 1).val = _; rw [e1]; omega

theorem mem8_7 (t : Fin cfg8.N) (i : S100000x128.Idx) :
    i ∈ ((cfg8.win 7).blk t).view.set ↔ ∀ a : Fin 2, win8_7.index t a * S10000x128.size a ≤ (i a).val
      ∧ (i a).val < win8_7.index t a * S10000x128.size a + S10000x128.size a := by
  show i ∈ ((View.whole main_v160_0).slice (win8_7.rect t)).set ↔ _
  rw [View.set_slice_whole, Rect.mem_set_unit]
  exact Iff.rfl

/-- Row p is in the block of point p / 10000. -/
theorem cover8_7 (i : S100000x128.Idx) :
    ∃ t : Fin cfg8.N, (cfg8.win 7).flush t = true ∧ i ∈ ((cfg8.win 7).blk t).view.set := by
  have h0 : (i 0).val < 100000 := (i 0).isLt
  have h1 : (i 1).val < 128 := (i 1).isLt
  have hN : cfg8.N = 10 := N_8
  refine ⟨⟨(i 0).val / 10000, by rw [hN]; omega⟩, flush8_7 _, ?_⟩
  rw [mem8_7]
  obtain ⟨e0, e1⟩ := idx8_7 ⟨(i 0).val / 10000, by rw [hN]; omega⟩
  intro a
  match a with
  | ⟨0, _⟩ =>
    show win8_7.index _ (0 : Fin 2) * 10000 ≤ (i 0).val ∧ (i 0).val < win8_7.index _ (0 : Fin 2) * 10000 + 10000
    rw [e0]
    show (i 0).val / 10000 * 10000 ≤ (i 0).val ∧ (i 0).val < (i 0).val / 10000 * 10000 + 10000
    omega
  | ⟨1, _⟩ =>
    show win8_7.index _ (1 : Fin 2) * 128 ≤ (i 1).val ∧ (i 1).val < win8_7.index _ (1 : Fin 2) * 128 + 128
    rw [e1]
    omega

/-- What point t writes back to window 7's array is its block of the whole-array function. -/
theorem flushed8_7 (c : Dev nD) (t : Fin cfg8.N) :
    (dat8 V c).flushed 7 t = ((cfg8.win 7).blk t).view.read (Elt Ideal) (linG (bnG (a8_0 V c) (a8_1 V c) (a8_2 V c) (a8_3 V c) (a8_4 V c)) (a8_5 V c) (a8_6 V c)) := by
  show (cfg8.win 7).cut (grid8.coords t) ((dat8 V c).after 7 t) = _
  rw [after8_7]
  unfold out8_7
  rw [View.canon_unit_zero hz2]
  simp only [View.ld_unit_zero (S := S10000x128) hz2, View.ld_unit_zero (S := S128x128) hz2, View.ld_unit_zero (S := S1x128) hz2]
  funext j
  show k8_pay2 (iblk8 V c 0 t) (iblk8 V c 2 t) (iblk8 V c 3 t) (iblk8 V c 1 t) (iblk8 V c 4 t) (iblk8 V c 5 t) (iblk8 V c 6 t) j = (linG (bnG (a8_0 V c) (a8_1 V c) (a8_2 V c) (a8_3 V c) (a8_4 V c)) (a8_5 V c) (a8_6 V c)) (((cfg8.win 7).blk t).view.emb j)
  exact k8_pay2_block (iblk8 V c 0 t) (iblk8 V c 2 t) (iblk8 V c 3 t) (iblk8 V c 1 t) (iblk8 V c 4 t) (iblk8 V c 5 t) (iblk8 V c 6 t) (a8_0 V c) (a8_1 V c) (a8_2 V c) (a8_3 V c) (a8_4 V c) (a8_5 V c) (a8_6 V c) t.val (blk8_0 V c t) (whole8_2 V c t) (whole8_3 V c t) (whole8_1 V c t) (whole8_4 V c t) (whole8_5 V c t) (whole8_6 V c t) j (((cfg8.win 7).blk t).view.emb j) (at8_7 t j)

/-- Window 7's array after the region. -/
theorem arr8_7 (c : Dev nD) : (dat8 V c).arrAt 7 cfg8.N = linG (bnG (a8_0 V c) (a8_1 V c) (a8_2 V c) (a8_3 V c) (a8_4 V c)) (a8_5 V c) (a8_6 V c) :=
  (dat8 V c).arrAt_eq_of_cover 7 _ (fun t _ => flushed8_7 V c t) cover8_7

/-- The same, with the arrays spelt as the region's proof data spells them. -/
theorem final8_7 (c : Dev nD) : (dat8 V c).arrAt 7 cfg8.N = linG (bnG (V c (Pipeline.arrRef spec8 0)) (V c (Pipeline.arrRef spec8 1)) (V c (Pipeline.arrRef spec8 2)) (V c (Pipeline.arrRef spec8 3)) (V c (Pipeline.arrRef spec8 4))) (V c (Pipeline.arrRef spec8 5)) (V c (Pipeline.arrRef spec8 6)) :=
  arr8_7 V c

theorem at8_8 (t : Fin cfg8.N) (j : S1x1x128.Idx) :
    (((cfg8.win 8).blk t).view.emb j 0).val = t.val ∧ (((cfg8.win 8).blk t).view.emb j 2).val = (j 2).val := by
  obtain ⟨e0, e1, e2⟩ := idx8_8 t
  have h0 : (j 0).val < 1 := (j 0).isLt
  constructor
  · show win8_8.index t (0 : Fin 3) * 1 + 1 * (j 0).val = _; rw [e0]; omega
  · show win8_8.index t (2 : Fin 3) * 128 + 1 * (j 2).val = _; rw [e2]; omega

theorem mem8_8 (t : Fin cfg8.N) (i : S10x1x128.Idx) :
    i ∈ ((cfg8.win 8).blk t).view.set ↔ ∀ a : Fin 3, win8_8.index t a * S1x1x128.size a ≤ (i a).val
      ∧ (i a).val < win8_8.index t a * S1x1x128.size a + S1x1x128.size a := by
  show i ∈ ((View.whole main_v160_1).slice (win8_8.rect t)).set ↔ _
  rw [View.set_slice_whole, Rect.mem_set_unit]
  exact Iff.rfl

/-- Entry (b, 0, q) is in the block of point b. -/
theorem cover8_8 (i : S10x1x128.Idx) :
    ∃ t : Fin cfg8.N, (cfg8.win 8).flush t = true ∧ i ∈ ((cfg8.win 8).blk t).view.set := by
  have h0 : (i 0).val < 10 := (i 0).isLt
  have h1 : (i 1).val < 1 := (i 1).isLt
  have h2 : (i 2).val < 128 := (i 2).isLt
  have hN : cfg8.N = 10 := N_8
  refine ⟨⟨(i 0).val, by rw [hN]; omega⟩, flush8_8 _, ?_⟩
  rw [mem8_8]
  obtain ⟨e0, e1, e2⟩ := idx8_8 ⟨(i 0).val, by rw [hN]; omega⟩
  intro a
  match a with
  | ⟨0, _⟩ =>
    show win8_8.index _ (0 : Fin 3) * 1 ≤ (i 0).val ∧ (i 0).val < win8_8.index _ (0 : Fin 3) * 1 + 1
    rw [e0]
    show (i 0).val * 1 ≤ (i 0).val ∧ (i 0).val < (i 0).val * 1 + 1
    omega
  | ⟨1, _⟩ =>
    show win8_8.index _ (1 : Fin 3) * 1 ≤ (i 1).val ∧ (i 1).val < win8_8.index _ (1 : Fin 3) * 1 + 1
    rw [e1]
    omega
  | ⟨2, _⟩ =>
    show win8_8.index _ (2 : Fin 3) * 128 ≤ (i 2).val ∧ (i 2).val < win8_8.index _ (2 : Fin 3) * 128 + 128
    rw [e2]
    omega

/-- What point t writes back to window 8's array is its block of the whole-array function. -/
theorem flushed8_8 (c : Dev nD) (t : Fin cfg8.N) :
    (dat8 V c).flushed 8 t = ((cfg8.win 8).blk t).view.read (Elt Ideal) (sumG (linG (bnG (a8_0 V c) (a8_1 V c) (a8_2 V c) (a8_3 V c) (a8_4 V c)) (a8_5 V c) (a8_6 V c))) := by
  show (cfg8.win 8).cut (grid8.coords t) ((dat8 V c).after 8 t) = _
  rw [after8_8]
  unfold out8_8
  rw [View.canon_unit_zero hz3]
  simp only [View.ld_unit_zero (S := S10000x128) hz2, View.ld_unit_zero (S := S128x128) hz2, View.ld_unit_zero (S := S1x128) hz2]
  funext j
  show k8_pay3 (iblk8 V c 0 t) (iblk8 V c 2 t) (iblk8 V c 3 t) (iblk8 V c 1 t) (iblk8 V c 4 t) (iblk8 V c 5 t) (iblk8 V c 6 t) j = (sumG (linG (bnG (a8_0 V c) (a8_1 V c) (a8_2 V c) (a8_3 V c) (a8_4 V c)) (a8_5 V c) (a8_6 V c))) (((cfg8.win 8).blk t).view.emb j)
  exact k8_pay3_block (iblk8 V c 0 t) (iblk8 V c 2 t) (iblk8 V c 3 t) (iblk8 V c 1 t) (iblk8 V c 4 t) (iblk8 V c 5 t) (iblk8 V c 6 t) (a8_0 V c) (a8_1 V c) (a8_2 V c) (a8_3 V c) (a8_4 V c) (a8_5 V c) (a8_6 V c) t.val (blk8_0 V c t) (whole8_2 V c t) (whole8_3 V c t) (whole8_1 V c t) (whole8_4 V c t) (whole8_5 V c t) (whole8_6 V c t) j (((cfg8.win 8).blk t).view.emb j) (at8_8 t j).1 (at8_8 t j).2

/-- Window 8's array after the region. -/
theorem arr8_8 (c : Dev nD) : (dat8 V c).arrAt 8 cfg8.N = sumG (linG (bnG (a8_0 V c) (a8_1 V c) (a8_2 V c) (a8_3 V c) (a8_4 V c)) (a8_5 V c) (a8_6 V c)) :=
  (dat8 V c).arrAt_eq_of_cover 8 _ (fun t _ => flushed8_8 V c t) cover8_8

/-- The same, with the arrays spelt as the region's proof data spells them. -/
theorem final8_8 (c : Dev nD) : (dat8 V c).arrAt 8 cfg8.N = sumG (linG (bnG (V c (Pipeline.arrRef spec8 0)) (V c (Pipeline.arrRef spec8 1)) (V c (Pipeline.arrRef spec8 2)) (V c (Pipeline.arrRef spec8 3)) (V c (Pipeline.arrRef spec8 4))) (V c (Pipeline.arrRef spec8 5)) (V c (Pipeline.arrRef spec8 6))) :=
  arr8_8 V c

theorem at8_9 (t : Fin cfg8.N) (j : S1x1x128.Idx) :
    (((cfg8.win 9).blk t).view.emb j 0).val = t.val ∧ (((cfg8.win 9).blk t).view.emb j 2).val = (j 2).val := by
  obtain ⟨e0, e1, e2⟩ := idx8_9 t
  have h0 : (j 0).val < 1 := (j 0).isLt
  constructor
  · show win8_9.index t (0 : Fin 3) * 1 + 1 * (j 0).val = _; rw [e0]; omega
  · show win8_9.index t (2 : Fin 3) * 128 + 1 * (j 2).val = _; rw [e2]; omega

theorem mem8_9 (t : Fin cfg8.N) (i : S10x1x128.Idx) :
    i ∈ ((cfg8.win 9).blk t).view.set ↔ ∀ a : Fin 3, win8_9.index t a * S1x1x128.size a ≤ (i a).val
      ∧ (i a).val < win8_9.index t a * S1x1x128.size a + S1x1x128.size a := by
  show i ∈ ((View.whole main_v160_2).slice (win8_9.rect t)).set ↔ _
  rw [View.set_slice_whole, Rect.mem_set_unit]
  exact Iff.rfl

/-- Entry (b, 0, q) is in the block of point b. -/
theorem cover8_9 (i : S10x1x128.Idx) :
    ∃ t : Fin cfg8.N, (cfg8.win 9).flush t = true ∧ i ∈ ((cfg8.win 9).blk t).view.set := by
  have h0 : (i 0).val < 10 := (i 0).isLt
  have h1 : (i 1).val < 1 := (i 1).isLt
  have h2 : (i 2).val < 128 := (i 2).isLt
  have hN : cfg8.N = 10 := N_8
  refine ⟨⟨(i 0).val, by rw [hN]; omega⟩, flush8_9 _, ?_⟩
  rw [mem8_9]
  obtain ⟨e0, e1, e2⟩ := idx8_9 ⟨(i 0).val, by rw [hN]; omega⟩
  intro a
  match a with
  | ⟨0, _⟩ =>
    show win8_9.index _ (0 : Fin 3) * 1 ≤ (i 0).val ∧ (i 0).val < win8_9.index _ (0 : Fin 3) * 1 + 1
    rw [e0]
    show (i 0).val * 1 ≤ (i 0).val ∧ (i 0).val < (i 0).val * 1 + 1
    omega
  | ⟨1, _⟩ =>
    show win8_9.index _ (1 : Fin 3) * 1 ≤ (i 1).val ∧ (i 1).val < win8_9.index _ (1 : Fin 3) * 1 + 1
    rw [e1]
    omega
  | ⟨2, _⟩ =>
    show win8_9.index _ (2 : Fin 3) * 128 ≤ (i 2).val ∧ (i 2).val < win8_9.index _ (2 : Fin 3) * 128 + 128
    rw [e2]
    omega

/-- What point t writes back to window 9's array is its block of the whole-array function. -/
theorem flushed8_9 (c : Dev nD) (t : Fin cfg8.N) :
    (dat8 V c).flushed 9 t = ((cfg8.win 9).blk t).view.read (Elt Ideal) (sumG (sqG (linG (bnG (a8_0 V c) (a8_1 V c) (a8_2 V c) (a8_3 V c) (a8_4 V c)) (a8_5 V c) (a8_6 V c)))) := by
  show (cfg8.win 9).cut (grid8.coords t) ((dat8 V c).after 9 t) = _
  rw [after8_9]
  unfold out8_9
  rw [View.canon_unit_zero hz3]
  simp only [View.ld_unit_zero (S := S10000x128) hz2, View.ld_unit_zero (S := S128x128) hz2, View.ld_unit_zero (S := S1x128) hz2]
  funext j
  show k8_pay1 (k8_pay2 (iblk8 V c 0 t) (iblk8 V c 2 t) (iblk8 V c 3 t) (iblk8 V c 1 t) (iblk8 V c 4 t) (iblk8 V c 5 t) (iblk8 V c 6 t)) j = (sumG (sqG (linG (bnG (a8_0 V c) (a8_1 V c) (a8_2 V c) (a8_3 V c) (a8_4 V c)) (a8_5 V c) (a8_6 V c)))) (((cfg8.win 9).blk t).view.emb j)
  exact k8_pay1_block (k8_pay2 (iblk8 V c 0 t) (iblk8 V c 2 t) (iblk8 V c 3 t) (iblk8 V c 1 t) (iblk8 V c 4 t) (iblk8 V c 5 t) (iblk8 V c 6 t)) (linG (bnG (a8_0 V c) (a8_1 V c) (a8_2 V c) (a8_3 V c) (a8_4 V c)) (a8_5 V c) (a8_6 V c)) t.val (k8_pay2_block (iblk8 V c 0 t) (iblk8 V c 2 t) (iblk8 V c 3 t) (iblk8 V c 1 t) (iblk8 V c 4 t) (iblk8 V c 5 t) (iblk8 V c 6 t) (a8_0 V c) (a8_1 V c) (a8_2 V c) (a8_3 V c) (a8_4 V c) (a8_5 V c) (a8_6 V c) t.val (blk8_0 V c t) (whole8_2 V c t) (whole8_3 V c t) (whole8_1 V c t) (whole8_4 V c t) (whole8_5 V c t) (whole8_6 V c t)) j (((cfg8.win 9).blk t).view.emb j) (at8_9 t j).1 (at8_9 t j).2

/-- Window 9's array after the region. -/
theorem arr8_9 (c : Dev nD) : (dat8 V c).arrAt 9 cfg8.N = sumG (sqG (linG (bnG (a8_0 V c) (a8_1 V c) (a8_2 V c) (a8_3 V c) (a8_4 V c)) (a8_5 V c) (a8_6 V c))) :=
  (dat8 V c).arrAt_eq_of_cover 9 _ (fun t _ => flushed8_9 V c t) cover8_9

/-- The same, with the arrays spelt as the region's proof data spells them. -/
theorem final8_9 (c : Dev nD) : (dat8 V c).arrAt 9 cfg8.N = sumG (sqG (linG (bnG (V c (Pipeline.arrRef spec8 0)) (V c (Pipeline.arrRef spec8 1)) (V c (Pipeline.arrRef spec8 2)) (V c (Pipeline.arrRef spec8 3)) (V c (Pipeline.arrRef spec8 4))) (V c (Pipeline.arrRef spec8 5)) (V c (Pipeline.arrRef spec8 6)))) :=
  arr8_9 V c

end Cert.KernelIdeal.RegionValue

end
-- ==== Proof.KRegion9.lean ====
/-
  Region 9 of the kernel program (a layer's second normalisation and rectifier): each output array after the region as a function of the arrays the
  region finds, entry by entry. The grid has ten points; point t reads rows t·10000 … t·10000 + 9999 of each
  100000×128 input, all of each small input, and writes the same rows of each 100000×128 output and entry (t, 0, ·) of
  each 10×1×128 output. What a point writes is the body's arithmetic of its blocks, which is the matching block of one
  function of the whole arrays; the points' blocks cover each output array, so the array ends at that function.
-/
import proofs.«119304_j10247791968545_2_alg».proof.Proof.Gen.KernelIdeal.Frame
import proofs.«119304_j10247791968545_2_alg».proof.Proof.KPay
import Idealize.ShloMosaic.Lib.Pipeline.Value

set_option maxRecDepth 16384

noncomputable section

namespace Cert.KernelIdeal.RegionValue

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-! ## The arrays the region finds, under their literal types -/

/-- Input window 0's array as the region finds it. -/
abbrev a9_0 (c : Dev nD) : FVec Ideal S100000x128 .f32 := V c (Pipeline.arrRef spec9 0)
/-- Input window 1's array as the region finds it. -/
abbrev a9_1 (c : Dev nD) : FVec Ideal S1x128 .f32 := V c (Pipeline.arrRef spec9 1)
/-- Input window 2's array as the region finds it. -/
abbrev a9_2 (c : Dev nD) : FVec Ideal S1x128 .f32 := V c (Pipeline.arrRef spec9 2)
/-- Input window 3's array as the region finds it. -/
abbrev a9_3 (c : Dev nD) : FVec Ideal S1x128 .f32 := V c (Pipeline.arrRef spec9 3)
/-- Input window 4's array as the region finds it. -/
abbrev a9_4 (c : Dev nD) : FVec Ideal S1x128 .f32 := V c (Pipeline.arrRef spec9 4)

/-! ## Where the block index maps send a grid point -/

theorem idx9_0 : ∀ t : Fin cfg9.N, win9_0.index t (0 : Fin 2) = t.val ∧ win9_0.index t (1 : Fin 2) = 0 :=
  (by decide +kernel : ∀ t : Fin grid9.N, _)
theorem idx9_1 : ∀ t : Fin cfg9.N, win9_1.index t (0 : Fin 2) = 0 ∧ win9_1.index t (1 : Fin 2) = 0 :=
  (by decide +kernel : ∀ t : Fin grid9.N, _)
theorem idx9_2 : ∀ t : Fin cfg9.N, win9_2.index t (0 : Fin 2) = 0 ∧ win9_2.index t (1 : Fin 2) = 0 :=
  (by decide +kernel : ∀ t : Fin grid9.N, _)
theorem idx9_3 : ∀ t : Fin cfg9.N, win9_3.index t (0 : Fin 2) = 0 ∧ win9_3.index t (1 : Fin 2) = 0 :=
  (by decide +kernel : ∀ t : Fin grid9.N, _)
theorem idx9_4 : ∀ t : Fin cfg9.N, win9_4.index t (0 : Fin 2) = 0 ∧ win9_4.index t (1 : Fin 2) = 0 :=
  (by decide +kernel : ∀ t : Fin grid9.N, _)
theorem idx9_5 : ∀ t : Fin cfg9.N, win9_5.index t (0 : Fin 2) = t.val ∧ win9_5.index t (1 : Fin 2) = 0 :=
  (by decide +kernel : ∀ t : Fin grid9.N, _)

/-! ## The input windows' blocks, read off the arrays -/

/-- Point t's block of input window 0 is rows t·10000 … of the window's array. -/
theorem blk9_0 (c : Dev nD) (t : Fin cfg9.N) : IsBlock t.val (iblk9 V c 0 t) (a9_0 V c) := by
  intro j i hji
  obtain ⟨e0, e1⟩ := idx9_0 t
  have h0 := hji.1
  have h1 := hji.2
  show (a9_0 V c) (((cfg9.win 0).blk t).view.emb j) = (a9_0 V c) i
  refine congrArg (a9_0 V c) (funext fun a => Fin.ext ?_)
  match a with
  | ⟨0, _⟩ => show win9_0.index t (0 : Fin 2) * 10000 + 1 * (j 0).val = (i 0).val; rw [e0]; omega
  | ⟨1, _⟩ => show win9_0.index t (1 : Fin 2) * 128 + 1 * (j 1).val = (i 1).val; rw [e1]; omega

/-- Input window 1's block at every point is its whole array. -/
theorem whole9_1 (c : Dev nD) (t : Fin cfg9.N) : iblk9 V c 1 t = (a9_1 V c) := by
  funext y
  obtain ⟨e0, e1⟩ := idx9_1 t
  show (a9_1 V c) (((cfg9.win 1).blk t).view.emb y) = (a9_1 V c) y
  refine congrArg (a9_1 V c) (funext fun a => Fin.ext ?_)
  match a with
  | ⟨0, _⟩ => show win9_1.index t (0 : Fin 2) * 1 + 1 * (y 0).val = (y 0).val; rw [e0]; omega
  | ⟨1, _⟩ => show win9_1.index t (1 : Fin 2) * 128 + 1 * (y 1).val = (y 1).val; rw [e1]; omega

/-- Input window 2's block at every point is its whole array. -/
theorem whole9_2 (c : Dev nD) (t : Fin cfg9.N) : iblk9 V c 2 t = (a9_2 V c) := by
  funext y
  obtain ⟨e0, e1⟩ := idx9_2 t
  show (a9_2 V c) (((cfg9.win 2).blk t).view.emb y) = (a9_2 V c) y
  refine congrArg (a9_2 V c) (funext fun a => Fin.ext ?_)
  match a with
  | ⟨0, _⟩ => show win9_2.index t (0 : Fin 2) * 1 + 1 * (y 0).val = (y 0).val; rw [e0]; omega
  | ⟨1, _⟩ => show win9_2.index t (1 : Fin 2) * 128 + 1 * (y 1).val = (y 1).val; rw [e1]; omega

/-- Input window 3's block at every point is its whole array. -/
theorem whole9_3 (c : Dev nD) (t : Fin cfg9.N) : iblk9 V c 3 t = (a9_3 V c) := by
  funext y
  obtain ⟨e0, e1⟩ := idx9_3 t
  show (a9_3 V c) (((cfg9.win 3).blk t).view.emb y) = (a9_3 V c) y
  refine congrArg (a9_3 V c) (funext fun a => Fin.ext ?_)
  match a with
  | ⟨0, _⟩ => show win9_3.index t (0 : Fin 2) * 1 + 1 * (y 0).val = (y 0).val; rw [e0]; omega
  | ⟨1, _⟩ => show win9_3.index t (1 : Fin 2) * 128 + 1 * (y 1).val = (y 1).val; rw [e1]; omega

/-- Input window 4's block at every point is its whole array. -/
theorem whole9_4 (c : Dev nD) (t : Fin cfg9.N) : iblk9 V c 4 t = (a9_4 V c) := by
  funext y
  obtain ⟨e0, e1⟩ := idx9_4 t
  show (a9_4 V c) (((cfg9.win 4).blk t).view.emb y) = (a9_4 V c) y
  refine congrArg (a9_4 V c) (funext fun a => Fin.ext ?_)
  match a with
  | ⟨0, _⟩ => show win9_4.index t (0 : Fin 2) * 1 + 1 * (y 0).val = (y 0).val; rw [e0]; omega
  | ⟨1, _⟩ => show win9_4.index t (1 : Fin 2) * 128 + 1 * (y 1).val = (y 1).val; rw [e1]; omega

/-! ## The body's stores, over arbitrary blocks: a block of rows of the array it was read from, the small blocks equal to
    their arrays -/

theorem k9_pay1_block (v0 : Vec Ideal S10000x128 .f32) (v2 v7 v9 v17 : Vec Ideal S1x128 .f32)
    (Y : FVec Ideal S100000x128 .f32) (M Vr G Be : FVec Ideal S1x128 .f32) (T : Nat) (h0 : IsBlock T v0 Y)
    (e2 : v2 = Vr) (e7 : v7 = G) (e9 : v9 = M) (e17 : v17 = Be) :
    IsBlock T (k9_pay1 v0 v2 v7 v9 v17) (bnG Y M Vr G Be) := by
  subst e2 e7 e9 e17
  unfold k9_pay1
  exact bn_block v0 v2 v7 v9 v17 Y T h0 _ _ _

/-! ## The output windows: where a block sits, which points cover the array, what each point writes, the array after the region -/

theorem at9_5 (t : Fin cfg9.N) (j : S10000x128.Idx) : At t.val j (((cfg9.win 5).blk t).view.emb j) := by
  obtain ⟨e0, e1⟩ := idx9_5 t
  constructor
  · show win9_5.index t (0 : Fin 2) * 10000 + 1 * (j 0).val = _; rw [e0]; omega
  · show win9_5.index t (1 : Fin 2) * 128 + 1 * (j 1).val = _; rw [e1]; omega

theorem mem9_5 (t : Fin cfg9.N) (i : S100000x128.Idx) :
    i ∈ ((cfg9.win 5).blk t).view.set ↔ ∀ a : Fin 2, win9_5.index t a * S10000x128.size a ≤ (i a).val
      ∧ (i a).val < win9_5.index t a * S10000x128.size a + S10000x128.size a := by
  show i ∈ ((View.whole main_v177).slice (win9_5.rect t)).set ↔ _
  rw [View.set_slice_whole, Rect.mem_set_unit]
  exact Iff.rfl

/-- Row p is in the block of point p / 10000. -/
theorem cover9_5 (i : S100000x128.Idx) :
    ∃ t : Fin cfg9.N, (cfg9.win 5).flush t = true ∧ i ∈ ((cfg9.win 5).blk t).view.set := by
  have h0 : (i 0).val < 100000 := (i 0).isLt
  have h1 : (i 1).val < 128 := (i 1).isLt
  have hN : cfg9.N = 10 := N_9
  refine ⟨⟨(i 0).val / 10000, by rw [hN]; omega⟩, flush9_5 _, ?_⟩
  rw [mem9_5]
  obtain ⟨e0, e1⟩ := idx9_5 ⟨(i 0).val / 10000, by rw [hN]; omega⟩
  intro a
  match a with
  | ⟨0, _⟩ =>
    show win9_5.index _ (0 : Fin 2) * 10000 ≤ (i 0).val ∧ (i 0).val < win9_5.index _ (0 : Fin 2) * 10000 + 10000
    rw [e0]
    show (i 0).val / 10000 * 10000 ≤ (i 0).val ∧ (i 0).val < (i 0).val / 10000 * 10000 + 10000
    omega
  | ⟨1, _⟩ =>
    show win9_5.index _ (1 : Fin 2) * 128 ≤ (i 1).val ∧ (i 1).val < win9_5.index _ (1 : Fin 2) * 128 + 128
    rw [e1]
    omega

/-- What point t writes back to window 5's array is its block of the whole-array function. -/
theorem flushed9_5 (c : Dev nD) (t : Fin cfg9.N) :
    (dat9 V c).flushed 5 t = ((cfg9.win 5).blk t).view.read (Elt Ideal) (bnG (a9_0 V c) (a9_1 V c) (a9_2 V c) (a9_3 V c) (a9_4 V c)) := by
  show (cfg9.win 5).cut (grid9.coords t) ((dat9 V c).after 5 t) = _
  rw [after9_5]
  unfold out9_5
  rw [View.canon_unit_zero hz2]
  simp only [View.ld_unit_zero (S := S10000x128) hz2, View.ld_unit_zero (S := S128x128) hz2, View.ld_unit_zero (S := S1x128) hz2]
  funext j
  show k9_pay1 (iblk9 V c 0 t) (iblk9 V c 2 t) (iblk9 V c 3 t) (iblk9 V c 1 t) (iblk9 V c 4 t) j = (bnG (a9_0 V c) (a9_1 V c) (a9_2 V c) (a9_3 V c) (a9_4 V c)) (((cfg9.win 5).blk t).view.emb j)
  exact k9_pay1_block (iblk9 V c 0 t) (iblk9 V c 2 t) (iblk9 V c 3 t) (iblk9 V c 1 t) (iblk9 V c 4 t) (a9_0 V c) (a9_1 V c) (a9_2 V c) (a9_3 V c) (a9_4 V c) t.val (blk9_0 V c t) (whole9_2 V c t) (whole9_3 V c t) (whole9_1 V c t) (whole9_4 V c t) j (((cfg9.win 5).blk t).view.emb j) (at9_5 t j)

/-- Window 5's array after the region. -/
theorem arr9_5 (c : Dev nD) : (dat9 V c).arrAt 5 cfg9.N = bnG (a9_0 V c) (a9_1 V c) (a9_2 V c) (a9_3 V c) (a9_4 V c) :=
  (dat9 V c).arrAt_eq_of_cover 5 _ (fun t _ => flushed9_5 V c t) cover9_5

/-- The same, with the arrays spelt as the region's proof data spells them. -/
theorem final9_5 (c : Dev nD) : (dat9 V c).arrAt 5 cfg9.N = bnG (V c (Pipeline.arrRef spec9 0)) (V c (Pipeline.arrRef spec9 1)) (V c (Pipeline.arrRef spec9 2)) (V c (Pipeline.arrRef spec9 3)) (V c (Pipeline.arrRef spec9 4)) :=
  arr9_5 V c

end Cert.KernelIdeal.RegionValue

end
-- ==== Proof.KHost2.lean ====
import proofs.«119304_j10247791968545_2_alg».proof.Proof.Gen.KernelIdeal.Frame

/-!
# The kernel program's host side: what the host operations of layer 2 leave

The same three stretches as in the first layer, at this layer's buffers and this layer's rows of the stacked
parameters (offset 2 along the leading axis): the neighbour sum, the transposed first weight and its bias row;
then twice the batch statistics (column sums of the ten per-block partial sums, mean = sum / N,
variance = max (sum of squares / N − mean², 0)) with the scale, shift, second weight and bias rows.
-/

set_option maxRecDepth 16384

noncomputable section

namespace Cert.KernelIdeal.HostSide

open Idealize.ShloMosaic Idealize.ShloMosaic.TcCoe
open Cert.KernelIdeal Cert.KernelIdeal.Gen

variable {F : FTy → Type} [FloatOps F]
variable (m : (ℓ : Loc nD τ sig) → Buf (Elt F) ℓ) (ρ : Dev nD → PrngReg)

/-! ## The host operations between boundaries 14 and 15 -/

theorem hostOps7_main_v130 (V : Valuation τ sig (Elt F)) :
    StableHlo.after hostOps7 V (Proc.devRef .tc main_v130) =
      ((Host.scatterAdd (F := F) scatter_S100000x128_S625000x1_S625000x128_1_0_0_1 (broadcastInDim S100000x128 ![] bcast_S_S100000x128 (constant (F := F) S_ .f32 0x00000000#32)) (broadcastInDim S625000x1 ![0] bcast_S625000_S625000x1_0 (V (Proc.devRef .tc main_v3))) (Host.gather gather_S100000x128_S625000x1_S625000x128_1_0_n_n_0_1_1128 (V (Proc.devRef .tc main_v120)) (broadcastInDim S625000x1 ![0] bcast_S625000_S625000x1_0 (select (cmpi .slt (V (Proc.devRef .tc main_v1)) (broadcastInDim S625000 ![] bcast_S_S625000 (constantI S_ 32 0#32))) (addi (V (Proc.devRef .tc main_v1)) (broadcastInDim S625000 ![] bcast_S_S625000 (constantI S_ 32 100000#32))) (V (Proc.devRef .tc main_v1)))))) : (⟨S100000x128, .f32⟩ : BufTy).Contents (Elt F)) := by
  after_results_simp <;> rfl
theorem W15_main_v130 (c : Dev nD) :
    W15 m ρ c (Proc.devRef .tc main_v130) =
      ((Host.scatterAdd (F := F) scatter_S100000x128_S625000x1_S625000x128_1_0_0_1 (broadcastInDim S100000x128 ![] bcast_S_S100000x128 (constant (F := F) S_ .f32 0x00000000#32)) (broadcastInDim S625000x1 ![0] bcast_S625000_S625000x1_0 (W14 m ρ c (Proc.devRef .tc main_v3))) (Host.gather gather_S100000x128_S625000x1_S625000x128_1_0_n_n_0_1_1128 (W14 m ρ c (Proc.devRef .tc main_v120)) (broadcastInDim S625000x1 ![0] bcast_S625000_S625000x1_0 (select (cmpi .slt (W14 m ρ c (Proc.devRef .tc main_v1)) (broadcastInDim S625000 ![] bcast_S_S625000 (constantI S_ 32 0#32))) (addi (W14 m ρ c (Proc.devRef .tc main_v1)) (broadcastInDim S625000 ![] bcast_S_S625000 (constantI S_ 32 100000#32))) (W14 m ρ c (Proc.devRef .tc main_v1)))))) : (⟨S100000x128, .f32⟩ : BufTy).Contents (Elt F)) :=
  hostOps7_main_v130 _

theorem hostOps7_main_v135 (V : Valuation τ sig (Elt F)) :
    StableHlo.after hostOps7 V (Proc.devRef .tc main_v135) =
      ((transpose S128x128 [1, 0] (shapeCast S128x128 (extractStridedSlice S1x128x128 ![2, 0, 0] (V (Proc.devRef .tc main_arg5)) slices_S4x128x128_S1x128x128_2_0_0) shapeCasts_S1x128x128_S128x128) transposes_S128x128_S128x128_1_0) : (⟨S128x128, .f32⟩ : BufTy).Contents (Elt F)) := by
  after_results_simp <;> rfl
theorem W15_main_v135 (c : Dev nD) :
    W15 m ρ c (Proc.devRef .tc main_v135) =
      ((transpose S128x128 [1, 0] (shapeCast S128x128 (extractStridedSlice S1x128x128 ![2, 0, 0] (W14 m ρ c (Proc.devRef .tc main_arg5)) slices_S4x128x128_S1x128x128_2_0_0) shapeCasts_S1x128x128_S128x128) transposes_S128x128_S128x128_1_0) : (⟨S128x128, .f32⟩ : BufTy).Contents (Elt F)) :=
  hostOps7_main_v135 _

theorem hostOps7_main_v136 (V : Valuation τ sig (Elt F)) :
    StableHlo.after hostOps7 V (Proc.devRef .tc main_v136) =
      (shapeCast S1x128 (shapeCast S128 (extractStridedSlice S1x128 ![2, 0] (V (Proc.devRef .tc main_arg6)) slices_S4x128_S1x128_2_0) shapeCasts_S1x128_S128) shapeCasts_S128_S1x128) := by
  after_results_simp <;> rfl
theorem W15_main_v136 (c : Dev nD) :
    W15 m ρ c (Proc.devRef .tc main_v136) =
      (shapeCast S1x128 (shapeCast S128 (extractStridedSlice S1x128 ![2, 0] (W14 m ρ c (Proc.devRef .tc main_arg6)) slices_S4x128_S1x128_2_0) shapeCasts_S1x128_S128) shapeCasts_S128_S1x128) :=
  hostOps7_main_v136 _

/-! ## The host operations between boundaries 16 and 17 -/

theorem hostOps8_main_v141 (V : Valuation τ sig (Elt F)) :
    StableHlo.after hostOps8 V (Proc.devRef .tc main_v141) =
      ((Host.divf (F := F) (Host.reduceAdd (F := F) (V (Proc.devRef .tc main_v137_1)) (constant (F := F) S_ .f32 0x00000000#32) reducesTo_S10x1x128_S1x128_d0 h_S_) (broadcastInDim S1x128 ![] bcast_S_S1x128 (constant (F := F) S_ .f32 0x47C35000#32))) : (⟨S1x128, .f32⟩ : BufTy).Contents (Elt F)) := by
  after_results_simp <;> rfl
theorem W17_main_v141 (c : Dev nD) :
    W17 m ρ c (Proc.devRef .tc main_v141) =
      ((Host.divf (F := F) (Host.reduceAdd (F := F) (W16 m ρ c (Proc.devRef .tc main_v137_1)) (constant (F := F) S_ .f32 0x00000000#32) reducesTo_S10x1x128_S1x128_d0 h_S_) (broadcastInDim S1x128 ![] bcast_S_S1x128 (constant (F := F) S_ .f32 0x47C35000#32))) : (⟨S1x128, .f32⟩ : BufTy).Contents (Elt F)) :=
  hostOps8_main_v141 _

theorem hostOps8_main_v147 (V : Valuation τ sig (Elt F)) :
    StableHlo.after hostOps8 V (Proc.devRef .tc main_v147) =
      ((maximumf (F := F) (subf (F := F) (Host.divf (F := F) (Host.reduceAdd (F := F) (V (Proc.devRef .tc main_v137_2)) (constant (F := F) S_ .f32 0x00000000#32) reducesTo_S10x1x128_S1x128_d0 h_S_) (broadcastInDim S1x128 ![] bcast_S_S1x128 (constant (F := F) S_ .f32 0x47C35000#32))) (mulf (F := F) (Host.divf (F := F) (Host.reduceAdd (F := F) (V (Proc.devRef .tc main_v137_1)) (constant (F := F) S_ .f32 0x00000000#32) reducesTo_S10x1x128_S1x128_d0 h_S_) (broadcastInDim S1x128 ![] bcast_S_S1x128 (constant (F := F) S_ .f32 0x47C35000#32))) (Host.divf (F := F) (Host.reduceAdd (F := F) (V (Proc.devRef .tc main_v137_1)) (constant (F := F) S_ .f32 0x00000000#32) reducesTo_S10x1x128_S1x128_d0 h_S_) (broadcastInDim S1x128 ![] bcast_S_S1x128 (constant (F := F) S_ .f32 0x47C35000#32))))) (broadcastInDim S1x128 ![] bcast_S_S1x128 (constant (F := F) S_ .f32 0x00000000#32))) : (⟨S1x128, .f32⟩ : BufTy).Contents (Elt F)) := by
  after_results_simp <;> rfl
theorem W17_main_v147 (c : Dev nD) :
    W17 m ρ c (Proc.devRef .tc main_v147) =
      ((maximumf (F := F) (subf (F := F) (Host.divf (F := F) (Host.reduceAdd (F := F) (W16 m ρ c (Proc.devRef .tc main_v137_2)) (constant (F := F) S_ .f32 0x00000000#32) reducesTo_S10x1x128_S1x128_d0 h_S_) (broadcastInDim S1x128 ![] bcast_S_S1x128 (constant (F := F) S_ .f32 0x47C35000#32))) (mulf (F := F) (Host.divf (F := F) (Host.reduceAdd (F := F) (W16 m ρ c (Proc.devRef .tc main_v137_1)) (constant (F := F) S_ .f32 0x00000000#32) reducesTo_S10x1x128_S1x128_d0 h_S_) (broadcastInDim S1x128 ![] bcast_S_S1x128 (constant (F := F) S_ .f32 0x47C35000#32))) (Host.divf (F := F) (Host.reduceAdd (F := F) (W16 m ρ c (Proc.devRef .tc main_v137_1)) (constant (F := F) S_ .f32 0x00000000#32) reducesTo_S10x1x128_S1x128_d0 h_S_) (broadcastInDim S1x128 ![] bcast_S_S1x128 (constant (F := F) S_ .f32 0x47C35000#32))))) (broadcastInDim S1x128 ![] bcast_S_S1x128 (constant (F := F) S_ .f32 0x00000000#32))) : (⟨S1x128, .f32⟩ : BufTy).Contents (Elt F)) :=
  hostOps8_main_v147 _

theorem hostOps8_main_v157 (V : Valuation τ sig (Elt F)) :
    StableHlo.after hostOps8 V (Proc.devRef .tc main_v157) =
      (shapeCast S1x128 (shapeCast S128 (extractStridedSlice S1x128 ![2, 0] (V (Proc.devRef .tc main_arg7)) slices_S4x128_S1x128_2_0) shapeCasts_S1x128_S128) shapeCasts_S128_S1x128) := by
  after_results_simp <;> rfl
theorem W17_main_v157 (c : Dev nD) :
    W17 m ρ c (Proc.devRef .tc main_v157) =
      (shapeCast S1x128 (shapeCast S128 (extractStridedSlice S1x128 ![2, 0] (W16 m ρ c (Proc.devRef .tc main_arg7)) slices_S4x128_S1x128_2_0) shapeCasts_S1x128_S128) shapeCasts_S128_S1x128) :=
  hostOps8_main_v157 _

theorem hostOps8_main_v158 (V : Valuation τ sig (Elt F)) :
    StableHlo.after hostOps8 V (Proc.devRef .tc main_v158) =
      (shapeCast S1x128 (shapeCast S128 (extractStridedSlice S1x128 ![2, 0] (V (Proc.devRef .tc main_arg8)) slices_S4x128_S1x128_2_0) shapeCasts_S1x128_S128) shapeCasts_S128_S1x128) := by
  after_results_simp <;> rfl
theorem W17_main_v158 (c : Dev nD) :
    W17 m ρ c (Proc.devRef .tc main_v158) =
      (shapeCast S1x128 (shapeCast S128 (extractStridedSlice S1x128 ![2, 0] (W16 m ρ c (Proc.devRef .tc main_arg8)) slices_S4x128_S1x128_2_0) shapeCasts_S1x128_S128) shapeCasts_S128_S1x128) :=
  hostOps8_main_v158 _

theorem hostOps8_main_v156 (V : Valuation τ sig (Elt F)) :
    StableHlo.after hostOps8 V (Proc.devRef .tc main_v156) =
      ((transpose S128x128 [1, 0] (shapeCast S128x128 (extractStridedSlice S1x128x128 ![2, 0, 0] (V (Proc.devRef .tc main_arg9)) slices_S4x128x128_S1x128x128_2_0_0) shapeCasts_S1x128x128_S128x128) transposes_S128x128_S128x128_1_0) : (⟨S128x128, .f32⟩ : BufTy).Contents (Elt F)) := by
  after_results_simp <;> rfl
theorem W17_main_v156 (c : Dev nD) :
    W17 m ρ c (Proc.devRef .tc main_v156) =
      ((transpose S128x128 [1, 0] (shapeCast S128x128 (extractStridedSlice S1x128x128 ![2, 0, 0] (W16 m ρ c (Proc.devRef .tc main_arg9)) slices_S4x128x128_S1x128x128_2_0_0) shapeCasts_S1x128x128_S128x128) transposes_S128x128_S128x128_1_0) : (⟨S128x128, .f32⟩ : BufTy).Contents (Elt F)) :=
  hostOps8_main_v156 _

theorem hostOps8_main_v159 (V : Valuation τ sig (Elt F)) :
    StableHlo.after hostOps8 V (Proc.devRef .tc main_v159) =
      (shapeCast S1x128 (shapeCast S128 (extractStridedSlice S1x128 ![2, 0] (V (Proc.devRef .tc main_arg10)) slices_S4x128_S1x128_2_0) shapeCasts_S1x128_S128) shapeCasts_S128_S1x128) := by
  after_results_simp <;> rfl
theorem W17_main_v159 (c : Dev nD) :
    W17 m ρ c (Proc.devRef .tc main_v159) =
      (shapeCast S1x128 (shapeCast S128 (extractStridedSlice S1x128 ![2, 0] (W16 m ρ c (Proc.devRef .tc main_arg10)) slices_S4x128_S1x128_2_0) shapeCasts_S1x128_S128) shapeCasts_S128_S1x128) :=
  hostOps8_main_v159 _

/-! ## The host operations between boundaries 18 and 19 -/

theorem hostOps9_main_v164 (V : Valuation τ sig (Elt F)) :
    StableHlo.after hostOps9 V (Proc.devRef .tc main_v164) =
      ((Host.divf (F := F) (Host.reduceAdd (F := F) (V (Proc.devRef .tc main_v160_1)) (constant (F := F) S_ .f32 0x00000000#32) reducesTo_S10x1x128_S1x128_d0 h_S_) (broadcastInDim S1x128 ![] bcast_S_S1x128 (constant (F := F) S_ .f32 0x47C35000#32))) : (⟨S1x128, .f32⟩ : BufTy).Contents (Elt F)) := by
  after_results_simp <;> rfl
theorem W19_main_v164 (c : Dev nD) :
    W19 m ρ c (Proc.devRef .tc main_v164) =
      ((Host.divf (F := F) (Host.reduceAdd (F := F) (W18 m ρ c (Proc.devRef .tc main_v160_1)) (constant (F := F) S_ .f32 0x00000000#32) reducesTo_S10x1x128_S1x128_d0 h_S_) (broadcastInDim S1x128 ![] bcast_S_S1x128 (constant (F := F) S_ .f32 0x47C35000#32))) : (⟨S1x128, .f32⟩ : BufTy).Contents (Elt F)) :=
  hostOps9_main_v164 _

theorem hostOps9_main_v170 (V : Valuation τ sig (Elt F)) :
    StableHlo.after hostOps9 V (Proc.devRef .tc main_v170) =
      ((maximumf (F := F) (subf (F := F) (Host.divf (F := F) (Host.reduceAdd (F := F) (V (Proc.devRef .tc main_v160_2)) (constant (F := F) S_ .f32 0x00000000#32) reducesTo_S10x1x128_S1x128_d0 h_S_) (broadcastInDim S1x128 ![] bcast_S_S1x128 (constant (F := F) S_ .f32 0x47C35000#32))) (mulf (F := F) (Host.divf (F := F) (Host.reduceAdd (F := F) (V (Proc.devRef .tc main_v160_1)) (constant (F := F) S_ .f32 0x00000000#32) reducesTo_S10x1x128_S1x128_d0 h_S_) (broadcastInDim S1x128 ![] bcast_S_S1x128 (constant (F := F) S_ .f32 0x47C35000#32))) (Host.divf (F := F) (Host.reduceAdd (F := F) (V (Proc.devRef .tc main_v160_1)) (constant (F := F) S_ .f32 0x00000000#32) reducesTo_S10x1x128_S1x128_d0 h_S_) (broadcastInDim S1x128 ![] bcast_S_S1x128 (constant (F := F) S_ .f32 0x47C35000#32))))) (broadcastInDim S1x128 ![] bcast_S_S1x128 (constant (F := F) S_ .f32 0x00000000#32))) : (⟨S1x128, .f32⟩ : BufTy).Contents (Elt F)) := by
  after_results_simp <;> rfl
theorem W19_main_v170 (c : Dev nD) :
    W19 m ρ c (Proc.devRef .tc main_v170) =
      ((maximumf (F := F) (subf (F := F) (Host.divf (F := F) (Host.reduceAdd (F := F) (W18 m ρ c (Proc.devRef .tc main_v160_2)) (constant (F := F) S_ .f32 0x00000000#32) reducesTo_S10x1x128_S1x128_d0 h_S_) (broadcastInDim S1x128 ![] bcast_S_S1x128 (constant (F := F) S_ .f32 0x47C35000#32))) (mulf (F := F) (Host.divf (F := F) (Host.reduceAdd (F := F) (W18 m ρ c (Proc.devRef .tc main_v160_1)) (constant (F := F) S_ .f32 0x00000000#32) reducesTo_S10x1x128_S1x128_d0 h_S_) (broadcastInDim S1x128 ![] bcast_S_S1x128 (constant (F := F) S_ .f32 0x47C35000#32))) (Host.divf (F := F) (Host.reduceAdd (F := F) (W18 m ρ c (Proc.devRef .tc main_v160_1)) (constant (F := F) S_ .f32 0x00000000#32) reducesTo_S10x1x128_S1x128_d0 h_S_) (broadcastInDim S1x128 ![] bcast_S_S1x128 (constant (F := F) S_ .f32 0x47C35000#32))))) (broadcastInDim S1x128 ![] bcast_S_S1x128 (constant (F := F) S_ .f32 0x00000000#32))) : (⟨S1x128, .f32⟩ : BufTy).Contents (Elt F)) :=
  hostOps9_main_v170 _

theorem hostOps9_main_v175 (V : Valuation τ sig (Elt F)) :
    StableHlo.after hostOps9 V (Proc.devRef .tc main_v175) =
      (shapeCast S1x128 (shapeCast S128 (extractStridedSlice S1x128 ![2, 0] (V (Proc.devRef .tc main_arg11)) slices_S4x128_S1x128_2_0) shapeCasts_S1x128_S128) shapeCasts_S128_S1x128) := by
  after_results_simp <;> rfl
theorem W19_main_v175 (c : Dev nD) :
    W19 m ρ c (Proc.devRef .tc main_v175) =
      (shapeCast S1x128 (shapeCast S128 (extractStridedSlice S1x128 ![2, 0] (W18 m ρ c (Proc.devRef .tc main_arg11)) slices_S4x128_S1x128_2_0) shapeCasts_S1x128_S128) shapeCasts_S128_S1x128) :=
  hostOps9_main_v175 _

theorem hostOps9_main_v176 (V : Valuation τ sig (Elt F)) :
    StableHlo.after hostOps9 V (Proc.devRef .tc main_v176) =
      (shapeCast S1x128 (shapeCast S128 (extractStridedSlice S1x128 ![2, 0] (V (Proc.devRef .tc main_arg12)) slices_S4x128_S1x128_2_0) shapeCasts_S1x128_S128) shapeCasts_S128_S1x128) := by
  after_results_simp <;> rfl
theorem W19_main_v176 (c : Dev nD) :
    W19 m ρ c (Proc.devRef .tc main_v176) =
      (shapeCast S1x128 (shapeCast S128 (extractStridedSlice S1x128 ![2, 0] (W18 m ρ c (Proc.devRef .tc main_arg12)) slices_S4x128_S1x128_2_0) shapeCasts_S1x128_S128) shapeCasts_S128_S1x128) :=
  hostOps9_main_v176 _

end Cert.KernelIdeal.HostSide

end
-- ==== Proof.KAsmL2.lean ====
/-
  Layer 2 of the kernel program, assembled. The three regions of the layer leave, as whole arrays: the affine map of the
  layer's input plus the neighbours' sum, with its blocks' column sums and column sums of squares; the affine map of
  that array normalised and cut at zero, with its blocks' sums; and that second array normalised and cut at zero. The
  stretches of host operations between them turn the blocks' sums into the rows of means and clamped one-pass
  variances and cut the layer's coefficients out of the stacked arguments. Threaded together, the layer's last array
  read as a matrix is the layer function of its first array, of the neighbours' sum of that array over the edge list,
  and of the layer's coefficients as the reference slices them.
-/
import proofs.«119304_j10247791968545_2_alg».proof.Proof.Gen.KernelIdeal.Frame
import proofs.«119304_j10247791968545_2_alg».proof.Proof.KRegion7
import proofs.«119304_j10247791968545_2_alg».proof.Proof.KRegion8
import proofs.«119304_j10247791968545_2_alg».proof.Proof.KRegion9
import proofs.«119304_j10247791968545_2_alg».proof.Proof.KHost0
import proofs.«119304_j10247791968545_2_alg».proof.Proof.KHost2
import proofs.«119304_j10247791968545_2_alg».proof.Proof.KKeep
import proofs.«119304_j10247791968545_2_alg».proof.Proof.KArgs
import proofs.«119304_j10247791968545_2_alg».proof.Proof.KStats
import proofs.«119304_j10247791968545_2_alg».proof.Proof.KLayer
import proofs.«119304_j10247791968545_2_alg».proof.Proof.KParams

set_option maxRecDepth 16384

noncomputable section

namespace Cert.KernelIdeal.Asm2

open Idealize.ShloMosaic Idealize.ShloMosaic.TcCoe Idealize.SL.Sem Idealize.ShloMosaic.ValueIdx
open Cert.KernelIdeal Cert.KernelIdeal.Gen Cert.KernelIdeal.HostSide Cert.KernelIdeal.RegionValue
open Cert.KernelIdeal.Stats Cert.KernelIdeal.LayerOf Cert.Gin.Layer Cert.Gin.Bridge Cert.Gin.Params
open Cert.ReferenceIdeal.HandRun Cert.ReferenceIdeal.Idx

variable (m : (ℓ : Loc nD τ sig) → Buf (Elt Ideal) ℓ) (ρ : Dev nD → PrngReg)

/-- The array of affine values of the first map. -/
theorem y1_eq (c : Dev nD) :
    ((W16 m ρ c (Proc.devRef .tc main_v137_0)) : FVec Ideal S100000x128 .f32)
      = linG (addG (W14 m ρ c (Proc.devRef .tc main_v120)) (W15 m ρ c (Proc.devRef .tc main_v130))) (W15 m ρ c (Proc.devRef .tc main_v135)) (W15 m ρ c (Proc.devRef .tc main_v136)) := by
  show W16 m ρ c (Proc.devRef .tc (Pipeline.arrRef spec7 4)) = _
  rw [W16_arr, final7_4 (V15 m ρ) c]
  show linG (addG (W15 m ρ c (Proc.devRef .tc main_v120)) (W15 m ρ c (Proc.devRef .tc main_v130))) (W15 m ρ c (Proc.devRef .tc main_v135)) (W15 m ρ c (Proc.devRef .tc main_v136)) = _
  rw [W15_main_v120]

/-- Its blocks' column sums. -/
theorem s1_eq (c : Dev nD) : ((W16 m ρ c (Proc.devRef .tc main_v137_1)) : FVec Ideal S10x1x128 .f32) = sumG (W16 m ρ c (Proc.devRef .tc main_v137_0)) := by
  show W16 m ρ c (Proc.devRef .tc (Pipeline.arrRef spec7 5)) = _
  rw [W16_arr, final7_5 (V15 m ρ) c]
  show _ = sumG (W16 m ρ c (Proc.devRef .tc (Pipeline.arrRef spec7 4)))
  rw [W16_arr, final7_4 (V15 m ρ) c]

/-- Its blocks' column sums of squares. -/
theorem q1_eq (c : Dev nD) : ((W16 m ρ c (Proc.devRef .tc main_v137_2)) : FVec Ideal S10x1x128 .f32) = sumG (sqG (W16 m ρ c (Proc.devRef .tc main_v137_0))) := by
  show W16 m ρ c (Proc.devRef .tc (Pipeline.arrRef spec7 6)) = _
  rw [W16_arr, final7_6 (V15 m ρ) c]
  show _ = sumG (sqG (W16 m ρ c (Proc.devRef .tc (Pipeline.arrRef spec7 4))))
  rw [W16_arr, final7_4 (V15 m ρ) c]

/-- The row of means of the first normalisation. -/
theorem m1_eq (c : Dev nD) (q : Fin 128) :
    ((W17 m ρ c (Proc.devRef .tc main_v141)) : FVec Ideal S1x128 .f32) (ix2 0 q) = mean cN (mat (W16 m ρ c (Proc.devRef .tc main_v137_0))) q := by
  rw [W17_main_v141, s1_eq]
  exact mean_row _ _ _ _ q

/-- The row of variances of the first normalisation. -/
theorem v1_eq (c : Dev nD) (q : Fin 128) :
    ((W17 m ρ c (Proc.devRef .tc main_v147)) : FVec Ideal S1x128 .f32) (ix2 0 q) = var1 cN (mat (W16 m ρ c (Proc.devRef .tc main_v137_0))) q := by
  rw [W17_main_v147, s1_eq, q1_eq]
  exact var_row _ _ _ _ _ (fun _ => rfl) q

/-- The array of affine values of the second map. -/
theorem y2_eq (c : Dev nD) :
    ((W18 m ρ c (Proc.devRef .tc main_v160_0)) : FVec Ideal S100000x128 .f32)
      = linG (bnG (W16 m ρ c (Proc.devRef .tc main_v137_0)) (W17 m ρ c (Proc.devRef .tc main_v141)) (W17 m ρ c (Proc.devRef .tc main_v147)) (W17 m ρ c (Proc.devRef .tc main_v157)) (W17 m ρ c (Proc.devRef .tc main_v158))) (W17 m ρ c (Proc.devRef .tc main_v156)) (W17 m ρ c (Proc.devRef .tc main_v159)) := by
  show W18 m ρ c (Proc.devRef .tc (Pipeline.arrRef spec8 7)) = _
  rw [W18_arr, final8_7 (V17 m ρ) c]
  show linG (bnG (W17 m ρ c (Proc.devRef .tc main_v137_0)) (W17 m ρ c (Proc.devRef .tc main_v141)) (W17 m ρ c (Proc.devRef .tc main_v147)) (W17 m ρ c (Proc.devRef .tc main_v157)) (W17 m ρ c (Proc.devRef .tc main_v158))) (W17 m ρ c (Proc.devRef .tc main_v156)) (W17 m ρ c (Proc.devRef .tc main_v159)) = _
  rw [W17_main_v137_0]

theorem s2_eq (c : Dev nD) : ((W18 m ρ c (Proc.devRef .tc main_v160_1)) : FVec Ideal S10x1x128 .f32) = sumG (W18 m ρ c (Proc.devRef .tc main_v160_0)) := by
  show W18 m ρ c (Proc.devRef .tc (Pipeline.arrRef spec8 8)) = _
  rw [W18_arr, final8_8 (V17 m ρ) c]
  show _ = sumG (W18 m ρ c (Proc.devRef .tc (Pipeline.arrRef spec8 7)))
  rw [W18_arr, final8_7 (V17 m ρ) c]

theorem q2_eq (c : Dev nD) : ((W18 m ρ c (Proc.devRef .tc main_v160_2)) : FVec Ideal S10x1x128 .f32) = sumG (sqG (W18 m ρ c (Proc.devRef .tc main_v160_0))) := by
  show W18 m ρ c (Proc.devRef .tc (Pipeline.arrRef spec8 9)) = _
  rw [W18_arr, final8_9 (V17 m ρ) c]
  show _ = sumG (sqG (W18 m ρ c (Proc.devRef .tc (Pipeline.arrRef spec8 7))))
  rw [W18_arr, final8_7 (V17 m ρ) c]

/-- The row of means of the second normalisation. -/
theorem m2_eq (c : Dev nD) (q : Fin 128) :
    ((W19 m ρ c (Proc.devRef .tc main_v164)) : FVec Ideal S1x128 .f32) (ix2 0 q) = mean cN (mat (W18 m ρ c (Proc.devRef .tc main_v160_0))) q := by
  rw [W19_main_v164, s2_eq]
  exact mean_row _ _ _ _ q

/-- The row of variances of the second normalisation. -/
theorem v2_eq (c : Dev nD) (q : Fin 128) :
    ((W19 m ρ c (Proc.devRef .tc main_v170)) : FVec Ideal S1x128 .f32) (ix2 0 q) = var1 cN (mat (W18 m ρ c (Proc.devRef .tc main_v160_0))) q := by
  rw [W19_main_v170, s2_eq, q2_eq]
  exact var_row _ _ _ _ _ (fun _ => rfl) q

/-- The layer's last array. -/
theorem xout_eq (c : Dev nD) :
    ((W20 m ρ c (Proc.devRef .tc main_v177)) : FVec Ideal S100000x128 .f32)
      = bnG (W18 m ρ c (Proc.devRef .tc main_v160_0)) (W19 m ρ c (Proc.devRef .tc main_v164)) (W19 m ρ c (Proc.devRef .tc main_v170)) (W19 m ρ c (Proc.devRef .tc main_v175)) (W19 m ρ c (Proc.devRef .tc main_v176)) := by
  show W20 m ρ c (Proc.devRef .tc (Pipeline.arrRef spec9 5)) = _
  rw [W20_arr, final9_5 (V19 m ρ) c]
  show bnG (W19 m ρ c (Proc.devRef .tc main_v160_0)) (W19 m ρ c (Proc.devRef .tc main_v164)) (W19 m ρ c (Proc.devRef .tc main_v170)) (W19 m ρ c (Proc.devRef .tc main_v175)) (W19 m ρ c (Proc.devRef .tc main_v176)) = _
  rw [W19_main_v160_0]

/-- The neighbours' sum the layer reads is the reference's aggregation of the layer's first array over the edge list. -/
theorem agg_eq (c : Dev nD) :
    ((W15 m ρ c (Proc.devRef .tc main_v130)) : FVec Ideal S100000x128 .f32)
      = aggStage (W14 m ρ c (Proc.devRef .tc main_v120)) (m ((c : Thread nD τ).loc main_arg1)) := by
  rw [W15_main_v130, W14_main_v1, W14_main_v3, W1_main_v1, W1_main_v3]
  rfl

/-- The layer, as a matrix. -/
theorem layer_eq (c : Dev nD) :
    mat (W20 m ρ c (Proc.devRef .tc main_v177))
      = layer var1 id (Ideal.ofBits .f32 0x3727C5AC#32) (mat (W14 m ρ c (Proc.devRef .tc main_v120)))
          (mat (aggStage (W14 m ρ c (Proc.devRef .tc main_v120)) (m ((c : Thread nD τ).loc main_arg1))))
          (matT (matAt2 (m ((c : Thread nD τ).loc main_arg5)))) (vec (rowAt2 (m ((c : Thread nD τ).loc main_arg6))))
          (vec (rowAt2 (m ((c : Thread nD τ).loc main_arg7)))) (vec (rowAt2 (m ((c : Thread nD τ).loc main_arg8))))
          (matT (matAt2 (m ((c : Thread nD τ).loc main_arg9)))) (vec (rowAt2 (m ((c : Thread nD τ).loc main_arg10))))
          (vec (rowAt2 (m ((c : Thread nD τ).loc main_arg11)))) (vec (rowAt2 (m ((c : Thread nD τ).loc main_arg12)))) := by
  have h := layer_of (X := (W14 m ρ c (Proc.devRef .tc main_v120))) (A := (W15 m ρ c (Proc.devRef .tc main_v130))) (fun _ => rfl) (y1_eq m ρ c) (m1_eq m ρ c) (v1_eq m ρ c)
    (y2_eq m ρ c) (m2_eq m ρ c) (v2_eq m ρ c) (xout_eq m ρ c)
  rw [h, agg_eq m ρ c]
  have eW1 : matW (W15 m ρ c (Proc.devRef .tc main_v135)) = matT (matAt2 (m ((c : Thread nD τ).loc main_arg5))) := by
    rw [W15_main_v135, W14_main_arg5]; exact matW_transpose _ _
  have eb1 : rowOf (W15 m ρ c (Proc.devRef .tc main_v136)) = vec (rowAt2 (m ((c : Thread nD τ).loc main_arg6))) := by
    rw [W15_main_v136, W14_main_arg6]; exact rowOf_shapeCast _ _
  have eg1 : rowOf (W17 m ρ c (Proc.devRef .tc main_v157)) = vec (rowAt2 (m ((c : Thread nD τ).loc main_arg7))) := by
    rw [W17_main_v157, W16_main_arg7]; exact rowOf_shapeCast _ _
  have ebe1 : rowOf (W17 m ρ c (Proc.devRef .tc main_v158)) = vec (rowAt2 (m ((c : Thread nD τ).loc main_arg8))) := by
    rw [W17_main_v158, W16_main_arg8]; exact rowOf_shapeCast _ _
  have eW2 : matW (W17 m ρ c (Proc.devRef .tc main_v156)) = matT (matAt2 (m ((c : Thread nD τ).loc main_arg9))) := by
    rw [W17_main_v156, W16_main_arg9]; exact matW_transpose _ _
  have eb2 : rowOf (W17 m ρ c (Proc.devRef .tc main_v159)) = vec (rowAt2 (m ((c : Thread nD τ).loc main_arg10))) := by
    rw [W17_main_v159, W16_main_arg10]; exact rowOf_shapeCast _ _
  have eg2 : rowOf (W19 m ρ c (Proc.devRef .tc main_v175)) = vec (rowAt2 (m ((c : Thread nD τ).loc main_arg11))) := by
    rw [W19_main_v175, W18_main_arg11]; exact rowOf_shapeCast _ _
  have ebe2 : rowOf (W19 m ρ c (Proc.devRef .tc main_v176)) = vec (rowAt2 (m ((c : Thread nD τ).loc main_arg12))) := by
    rw [W19_main_v176, W18_main_arg12]; exact rowOf_shapeCast _ _
  rw [eW1, eb1, eg1, ebe1, eW2, eb2, eg2, ebe2]

end Cert.KernelIdeal.Asm2

end
-- ==== Proof.KRegion10.lean ====
/-
  Region 10 of the kernel program (a layer's first affine map, of the features plus the aggregated neighbours, with the per-block column sums of the result and of its square): each output array after the region as a function of the arrays the
  region finds, entry by entry. The grid has ten points; point t reads rows t·10000 … t·10000 + 9999 of each
  100000×128 input, all of each small input, and writes the same rows of each 100000×128 output and entry (t, 0, ·) of
  each 10×1×128 output. What a point writes is the body's arithmetic of its blocks, which is the matching block of one
  function of the whole arrays; the points' blocks cover each output array, so the array ends at that function.
-/
import proofs.«119304_j10247791968545_2_alg».proof.Proof.Gen.KernelIdeal.Frame
import proofs.«119304_j10247791968545_2_alg».proof.Proof.KPay
import Idealize.ShloMosaic.Lib.Pipeline.Value

set_option maxRecDepth 16384

noncomputable section

namespace Cert.KernelIdeal.RegionValue

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-! ## The arrays the region finds, under their literal types -/

/-- Input window 0's array as the region finds it. -/
abbrev a10_0 (c : Dev nD) : FVec Ideal S100000x128 .f32 := V c (Pipeline.arrRef spec10 0)
/-- Input window 1's array as the region finds it. -/
abbrev a10_1 (c : Dev nD) : FVec Ideal S100000x128 .f32 := V c (Pipeline.arrRef spec10 1)
/-- Input window 2's array as the region finds it. -/
abbrev a10_2 (c : Dev nD) : FVec Ideal S128x128 .f32 := V c (Pipeline.arrRef spec10 2)
/-- Input window 3's array as the region finds it. -/
abbrev a10_3 (c : Dev nD) : FVec Ideal S1x128 .f32 := V c (Pipeline.arrRef spec10 3)

/-! ## Where the block index maps send a grid point -/

theorem idx10_0 : ∀ t : Fin cfg10.N, win10_0.index t (0 : Fin 2) = t.val ∧ win10_0.index t (1 : Fin 2) = 0 :=
  (by decide +kernel : ∀ t : Fin grid10.N, _)
theorem idx10_1 : ∀ t : Fin cfg10.N, win10_1.index t (0 : Fin 2) = t.val ∧ win10_1.index t (1 : Fin 2) = 0 :=
  (by decide +kernel : ∀ t : Fin grid10.N, _)
theorem idx10_2 : ∀ t : Fin cfg10.N, win10_2.index t (0 : Fin 2) = 0 ∧ win10_2.index t (1 : Fin 2) = 0 :=
  (by decide +kernel : ∀ t : Fin grid10.N, _)
theorem idx10_3 : ∀ t : Fin cfg10.N, win10_3.index t (0 : Fin 2) = 0 ∧ win10_3.index t (1 : Fin 2) = 0 :=
  (by decide +kernel : ∀ t : Fin grid10.N, _)
theorem idx10_4 : ∀ t : Fin cfg10.N, win10_4.index t (0 : Fin 2) = t.val ∧ win10_4.index t (1 : Fin 2) = 0 :=
  (by decide +kernel : ∀ t : Fin grid10.N, _)
theorem idx10_5 : ∀ t : Fin cfg10.N, win10_5.index t (0 : Fin 3) = t.val ∧ win10_5.index t (1 : Fin 3) = 0 ∧ win10_5.index t (2 : Fin 3) = 0 :=
  (by decide +kernel : ∀ t : Fin grid10.N, _)
theorem idx10_6 : ∀ t : Fin cfg10.N, win10_6.index t (0 : Fin 3) = t.val ∧ win10_6.index t (1 : Fin 3) = 0 ∧ win10_6.index t (2 : Fin 3) = 0 :=
  (by decide +kernel : ∀ t : Fin grid10.N, _)

/-! ## The input windows' blocks, read off the arrays -/

/-- Point t's block of input window 0 is rows t·10000 … of the window's array. -/
theorem blk10_0 (c : Dev nD) (t : Fin cfg10.N) : IsBlock t.val (iblk10 V c 0 t) (a10_0 V c) := by
  intro j i hji
  obtain ⟨e0, e1⟩ := idx10_0 t
  have h0 := hji.1
  have h1 := hji.2
  show (a10_0 V c) (((cfg10.win 0).blk t).view.emb j) = (a10_0 V c) i
  refine congrArg (a10_0 V c) (funext fun a => Fin.ext ?_)
  match a with
  | ⟨0, _⟩ => show win10_0.index t (0 : Fin 2) * 10000 + 1 * (j 0).val = (i 0).val; rw [e0]; omega
  | ⟨1, _⟩ => show win10_0.index t (1 : Fin 2) * 128 + 1 * (j 1).val = (i 1).val; rw [e1]; omega

/-- Point t's block of input window 1 is rows t·10000 … of the window's array. -/
theorem blk10_1 (c : Dev nD) (t : Fin cfg10.N) : IsBlock t.val (iblk10 V c 1 t) (a10_1 V c) := by
  intro j i hji
  obtain ⟨e0, e1⟩ := idx10_1 t
  have h0 := hji.1
  have h1 := hji.2
  show (a10_1 V c) (((cfg10.win 1).blk t).view.emb j) = (a10_1 V c) i
  refine congrArg (a10_1 V c) (funext fun a => Fin.ext ?_)
  match a with
  | ⟨0, _⟩ => show win10_1.index t (0 : Fin 2) * 10000 + 1 * (j 0).val = (i 0).val; rw [e0]; omega
  | ⟨1, _⟩ => show win10_1.index t (1 : Fin 2) * 128 + 1 * (j 1).val = (i 1).val; rw [e1]; omega

/-- Input window 2's block at every point is its whole array. -/
theorem whole10_2 (c : Dev nD) (t : Fin cfg10.N) : iblk10 V c 2 t = (a10_2 V c) := by
  funext y
  obtain ⟨e0, e1⟩ := idx10_2 t
  show (a10_2 V c) (((cfg10.win 2).blk t).view.emb y) = (a10_2 V c) y
  refine congrArg (a10_2 V c) (funext fun a => Fin.ext ?_)
  match a with
  | ⟨0, _⟩ => show win10_2.index t (0 : Fin 2) * 128 + 1 * (y 0).val = (y 0).val; rw [e0]; omega
  | ⟨1, _⟩ => show win10_2.index t (1 : Fin 2) * 128 + 1 * (y 1).val = (y 1).val; rw [e1]; omega

/-- Input window 3's block at every point is its whole array. -/
theorem whole10_3 (c : Dev nD) (t : Fin cfg10.N) : iblk10 V c 3 t = (a10_3 V c) := by
  funext y
  obtain ⟨e0, e1⟩ := idx10_3 t
  show (a10_3 V c) (((cfg10.win 3).blk t).view.emb y) = (a10_3 V c) y
  refine congrArg (a10_3 V c) (funext fun a => Fin.ext ?_)
  match a with
  | ⟨0, _⟩ => show win10_3.index t (0 : Fin 2) * 1 + 1 * (y 0).val = (y 0).val; rw [e0]; omega
  | ⟨1, _⟩ => show win10_3.index t (1 : Fin 2) * 128 + 1 * (y 1).val = (y 1).val; rw [e1]; omega

/-! ## The body's stores, over arbitrary blocks: a block of rows of the array it was read from, the small blocks equal to
    their arrays -/

theorem k10_pay1_block (v0 v2 : Vec Ideal S10000x128 .f32) (v5 : Vec Ideal S128x128 .f32) (v8 : Vec Ideal S1x128 .f32)
    (X0 X1 : FVec Ideal S100000x128 .f32) (W : FVec Ideal S128x128 .f32) (B : FVec Ideal S1x128 .f32) (T : Nat)
    (h0 : IsBlock T v0 X0) (h1 : IsBlock T v2 X1) (e5 : v5 = W) (e8 : v8 = B) :
    IsBlock T (k10_pay1 v0 v2 v5 v8) (linG (addG X0 X1) W B) := by
  subst e5 e8
  unfold k10_pay1
  exact lin_block _ v5 v8 _ T (add_block v0 v2 X0 X1 T h0 h1 _) _ _ _

theorem k10_pay2_block (v0 v2 : Vec Ideal S10000x128 .f32) (v5 : Vec Ideal S128x128 .f32) (v8 : Vec Ideal S1x128 .f32)
    (X0 X1 : FVec Ideal S100000x128 .f32) (W : FVec Ideal S128x128 .f32) (B : FVec Ideal S1x128 .f32) (T : Nat)
    (h0 : IsBlock T v0 X0) (h1 : IsBlock T v2 X1) (e5 : v5 = W) (e8 : v8 = B)
    (j : S1x1x128.Idx) (i : S10x1x128.Idx) (hi0 : (i 0).val = T) (hi2 : (i 2).val = (j 2).val) :
    k10_pay2 v0 v2 v5 v8 j = sumG (linG (addG X0 X1) W B) i := by
  unfold k10_pay2
  exact colsum_block _ _ T (k10_pay1_block v0 v2 v5 v8 X0 X1 W B T h0 h1 e5 e8) _ _ _ _ _ j i hi0 hi2

theorem k10_pay3_block (v0 v2 : Vec Ideal S10000x128 .f32) (v5 : Vec Ideal S128x128 .f32) (v8 : Vec Ideal S1x128 .f32)
    (X0 X1 : FVec Ideal S100000x128 .f32) (W : FVec Ideal S128x128 .f32) (B : FVec Ideal S1x128 .f32) (T : Nat)
    (h0 : IsBlock T v0 X0) (h1 : IsBlock T v2 X1) (e5 : v5 = W) (e8 : v8 = B)
    (j : S1x1x128.Idx) (i : S10x1x128.Idx) (hi0 : (i 0).val = T) (hi2 : (i 2).val = (j 2).val) :
    k10_pay3 v0 v2 v5 v8 j = sumG (sqG (linG (addG X0 X1) W B)) i := by
  unfold k10_pay3
  exact colsum_block _ _ T (sq_block _ _ T (k10_pay1_block v0 v2 v5 v8 X0 X1 W B T h0 h1 e5 e8)) _ _ _ _ _ j i hi0 hi2

/-! ## The output windows: where a block sits, which points cover the array, what each point writes, the array after the region -/

theorem at10_4 (t : Fin cfg10.N) (j : S10000x128.Idx) : At t.val j (((cfg10.win 4).blk t).view.emb j) := by
  obtain ⟨e0, e1⟩ := idx10_4 t
  constructor
  · show win10_4.index t (0 : Fin 2) * 10000 + 1 * (j 0).val = _; rw [e0]; omega
  · show win10_4.index t (1 : Fin 2) * 128 + 1 * (j 1).val = _; rw [e1]; omega

theorem mem10_4 (t : Fin cfg10.N) (i : S100000x128.Idx) :
    i ∈ ((cfg10.win 4).blk t).view.set ↔ ∀ a : Fin 2, win10_4.index t a * S10000x128.size a ≤ (i a).val
      ∧ (i a).val < win10_4.index t a * S10000x128.size a + S10000x128.size a := by
  show i ∈ ((View.whole main_v194_0).slice (win10_4.rect t)).set ↔ _
  rw [View.set_slice_whole, Rect.mem_set_unit]
  exact Iff.rfl

/-- Row p is in the block of point p / 10000. -/
theorem cover10_4 (i : S100000x128.Idx) :
    ∃ t : Fin cfg10.N, (cfg10.win 4).flush t = true ∧ i ∈ ((cfg10.win 4).blk t).view.set := by
  have h0 : (i 0).val < 100000 := (i 0).isLt
  have h1 : (i 1).val < 128 := (i 1).isLt
  have hN : cfg10.N = 10 := N_10
  refine ⟨⟨(i 0).val / 10000, by rw [hN]; omega⟩, flush10_4 _, ?_⟩
  rw [mem10_4]
  obtain ⟨e0, e1⟩ := idx10_4 ⟨(i 0).val / 10000, by rw [hN]; omega⟩
  intro a
  match a with
  | ⟨0, _⟩ =>
    show win10_4.index _ (0 : Fin 2) * 10000 ≤ (i 0).val ∧ (i 0).val < win10_4.index _ (0 : Fin 2) * 10000 + 10000
    rw [e0]
    show (i 0).val / 10000 * 10000 ≤ (i 0).val ∧ (i 0).val < (i 0).val / 10000 * 10000 + 10000
    omega
  | ⟨1, _⟩ =>
    show win10_4.index _ (1 : Fin 2) * 128 ≤ (i 1).val ∧ (i 1).val < win10_4.index _ (1 : Fin 2) * 128 + 128
    rw [e1]
    omega

/-- What point t writes back to window 4's array is its block of the whole-array function. -/
theorem flushed10_4 (c : Dev nD) (t : Fin cfg10.N) :
    (dat10 V c).flushed 4 t = ((cfg10.win 4).blk t).view.read (Elt Ideal) (linG (addG (a10_0 V c) (a10_1 V c)) (a10_2 V c) (a10_3 V c)) := by
  show (cfg10.win 4).cut (grid10.coords t) ((dat10 V c).after 4 t) = _
  rw [after10_4]
  unfold out10_4
  rw [View.canon_unit_zero hz2]
  simp only [View.ld_unit_zero (S := S10000x128) hz2, View.ld_unit_zero (S := S128x128) hz2, View.ld_unit_zero (S := S1x128) hz2]
  funext j
  show k10_pay1 (iblk10 V c 0 t) (iblk10 V c 1 t) (iblk10 V c 2 t) (iblk10 V c 3 t) j = (linG (addG (a10_0 V c) (a10_1 V c)) (a10_2 V c) (a10_3 V c)) (((cfg10.win 4).blk t).view.emb j)
  exact k10_pay1_block (iblk10 V c 0 t) (iblk10 V c 1 t) (iblk10 V c 2 t) (iblk10 V c 3 t) (a10_0 V c) (a10_1 V c) (a10_2 V c) (a10_3 V c) t.val (blk10_0 V c t) (blk10_1 V c t) (whole10_2 V c t) (whole10_3 V c t) j (((cfg10.win 4).blk t).view.emb j) (at10_4 t j)

/-- Window 4's array after the region. -/
theorem arr10_4 (c : Dev nD) : (dat10 V c).arrAt 4 cfg10.N = linG (addG (a10_0 V c) (a10_1 V c)) (a10_2 V c) (a10_3 V c) :=
  (dat10 V c).arrAt_eq_of_cover 4 _ (fun t _ => flushed10_4 V c t) cover10_4

/-- The same, with the arrays spelt as the region's proof data spells them. -/
theorem final10_4 (c : Dev nD) : (dat10 V c).arrAt 4 cfg10.N = linG (addG (V c (Pipeline.arrRef spec10 0)) (V c (Pipeline.arrRef spec10 1))) (V c (Pipeline.arrRef spec10 2)) (V c (Pipeline.arrRef spec10 3)) :=
  arr10_4 V c

theorem at10_5 (t : Fin cfg10.N) (j : S1x1x128.Idx) :
    (((cfg10.win 5).blk t).view.emb j 0).val = t.val ∧ (((cfg10.win 5).blk t).view.emb j 2).val = (j 2).val := by
  obtain ⟨e0, e1, e2⟩ := idx10_5 t
  have h0 : (j 0).val < 1 := (j 0).isLt
  constructor
  · show win10_5.index t (0 : Fin 3) * 1 + 1 * (j 0).val = _; rw [e0]; omega
  · show win10_5.index t (2 : Fin 3) * 128 + 1 * (j 2).val = _; rw [e2]; omega

theorem mem10_5 (t : Fin cfg10.N) (i : S10x1x128.Idx) :
    i ∈ ((cfg10.win 5).blk t).view.set ↔ ∀ a : Fin 3, win10_5.index t a * S1x1x128.size a ≤ (i a).val
      ∧ (i a).val < win10_5.index t a * S1x1x128.size a + S1x1x128.size a := by
  show i ∈ ((View.whole main_v194_1).slice (win10_5.rect t)).set ↔ _
  rw [View.set_slice_whole, Rect.mem_set_unit]
  exact Iff.rfl

/-- Entry (b, 0, q) is in the block of point b. -/
theorem cover10_5 (i : S10x1x128.Idx) :
    ∃ t : Fin cfg10.N, (cfg10.win 5).flush t = true ∧ i ∈ ((cfg10.win 5).blk t).view.set := by
  have h0 : (i 0).val < 10 := (i 0).isLt
  have h1 : (i 1).val < 1 := (i 1).isLt
  have h2 : (i 2).val < 128 := (i 2).isLt
  have hN : cfg10.N = 10 := N_10
  refine ⟨⟨(i 0).val, by rw [hN]; omega⟩, flush10_5 _, ?_⟩
  rw [mem10_5]
  obtain ⟨e0, e1, e2⟩ := idx10_5 ⟨(i 0).val, by rw [hN]; omega⟩
  intro a
  match a with
  | ⟨0, _⟩ =>
    show win10_5.index _ (0 : Fin 3) * 1 ≤ (i 0).val ∧ (i 0).val < win10_5.index _ (0 : Fin 3) * 1 + 1
    rw [e0]
    show (i 0).val * 1 ≤ (i 0).val ∧ (i 0).val < (i 0).val * 1 + 1
    omega
  | ⟨1, _⟩ =>
    show win10_5.index _ (1 : Fin 3) * 1 ≤ (i 1).val ∧ (i 1).val < win10_5.index _ (1 : Fin 3) * 1 + 1
    rw [e1]
    omega
  | ⟨2, _⟩ =>
    show win10_5.index _ (2 : Fin 3) * 128 ≤ (i 2).val ∧ (i 2).val < win10_5.index _ (2 : Fin 3) * 128 + 128
    rw [e2]
    omega

/-- What point t writes back to window 5's array is its block of the whole-array function. -/
theorem flushed10_5 (c : Dev nD) (t : Fin cfg10.N) :
    (dat10 V c).flushed 5 t = ((cfg10.win 5).blk t).view.read (Elt Ideal) (sumG (linG (addG (a10_0 V c) (a10_1 V c)) (a10_2 V c) (a10_3 V c))) := by
  show (cfg10.win 5).cut (grid10.coords t) ((dat10 V c).after 5 t) = _
  rw [after10_5]
  unfold out10_5
  rw [View.canon_unit_zero hz3]
  simp only [View.ld_unit_zero (S := S10000x128) hz2, View.ld_unit_zero (S := S128x128) hz2, View.ld_unit_zero (S := S1x128) hz2]
  funext j
  show k10_pay2 (iblk10 V c 0 t) (iblk10 V c 1 t) (iblk10 V c 2 t) (iblk10 V c 3 t) j = (sumG (linG (addG (a10_0 V c) (a10_1 V c)) (a10_2 V c) (a10_3 V c))) (((cfg10.win 5).blk t).view.emb j)
  exact k10_pay2_block (iblk10 V c 0 t) (iblk10 V c 1 t) (iblk10 V c 2 t) (iblk10 V c 3 t) (a10_0 V c) (a10_1 V c) (a10_2 V c) (a10_3 V c) t.val (blk10_0 V c t) (blk10_1 V c t) (whole10_2 V c t) (whole10_3 V c t) j (((cfg10.win 5).blk t).view.emb j) (at10_5 t j).1 (at10_5 t j).2

/-- Window 5's array after the region. -/
theorem arr10_5 (c : Dev nD) : (dat10 V c).arrAt 5 cfg10.N = sumG (linG (addG (a10_0 V c) (a10_1 V c)) (a10_2 V c) (a10_3 V c)) :=
  (dat10 V c).arrAt_eq_of_cover 5 _ (fun t _ => flushed10_5 V c t) cover10_5

/-- The same, with the arrays spelt as the region's proof data spells them. -/
theorem final10_5 (c : Dev nD) : (dat10 V c).arrAt 5 cfg10.N = sumG (linG (addG (V c (Pipeline.arrRef spec10 0)) (V c (Pipeline.arrRef spec10 1))) (V c (Pipeline.arrRef spec10 2)) (V c (Pipeline.arrRef spec10 3))) :=
  arr10_5 V c

theorem at10_6 (t : Fin cfg10.N) (j : S1x1x128.Idx) :
    (((cfg10.win 6).blk t).view.emb j 0).val = t.val ∧ (((cfg10.win 6).blk t).view.emb j 2).val = (j 2).val := by
  obtain ⟨e0, e1, e2⟩ := idx10_6 t
  have h0 : (j 0).val < 1 := (j 0).isLt
  constructor
  · show win10_6.index t (0 : Fin 3) * 1 + 1 * (j 0).val = _; rw [e0]; omega
  · show win10_6.index t (2 : Fin 3) * 128 + 1 * (j 2).val = _; rw [e2]; omega

theorem mem10_6 (t : Fin cfg10.N) (i : S10x1x128.Idx) :
    i ∈ ((cfg10.win 6).blk t).view.set ↔ ∀ a : Fin 3, win10_6.index t a * S1x1x128.size a ≤ (i a).val
      ∧ (i a).val < win10_6.index t a * S1x1x128.size a + S1x1x128.size a := by
  show i ∈ ((View.whole main_v194_2).slice (win10_6.rect t)).set ↔ _
  rw [View.set_slice_whole, Rect.mem_set_unit]
  exact Iff.rfl

/-- Entry (b, 0, q) is in the block of point b. -/
theorem cover10_6 (i : S10x1x128.Idx) :
    ∃ t : Fin cfg10.N, (cfg10.win 6).flush t = true ∧ i ∈ ((cfg10.win 6).blk t).view.set := by
  have h0 : (i 0).val < 10 := (i 0).isLt
  have h1 : (i 1).val < 1 := (i 1).isLt
  have h2 : (i 2).val < 128 := (i 2).isLt
  have hN : cfg10.N = 10 := N_10
  refine ⟨⟨(i 0).val, by rw [hN]; omega⟩, flush10_6 _, ?_⟩
  rw [mem10_6]
  obtain ⟨e0, e1, e2⟩ := idx10_6 ⟨(i 0).val, by rw [hN]; omega⟩
  intro a
  match a with
  | ⟨0, _⟩ =>
    show win10_6.index _ (0 : Fin 3) * 1 ≤ (i 0).val ∧ (i 0).val < win10_6.index _ (0 : Fin 3) * 1 + 1
    rw [e0]
    show (i 0).val * 1 ≤ (i 0).val ∧ (i 0).val < (i 0).val * 1 + 1
    omega
  | ⟨1, _⟩ =>
    show win10_6.index _ (1 : Fin 3) * 1 ≤ (i 1).val ∧ (i 1).val < win10_6.index _ (1 : Fin 3) * 1 + 1
    rw [e1]
    omega
  | ⟨2, _⟩ =>
    show win10_6.index _ (2 : Fin 3) * 128 ≤ (i 2).val ∧ (i 2).val < win10_6.index _ (2 : Fin 3) * 128 + 128
    rw [e2]
    omega

/-- What point t writes back to window 6's array is its block of the whole-array function. -/
theorem flushed10_6 (c : Dev nD) (t : Fin cfg10.N) :
    (dat10 V c).flushed 6 t = ((cfg10.win 6).blk t).view.read (Elt Ideal) (sumG (sqG (linG (addG (a10_0 V c) (a10_1 V c)) (a10_2 V c) (a10_3 V c)))) := by
  show (cfg10.win 6).cut (grid10.coords t) ((dat10 V c).after 6 t) = _
  rw [after10_6]
  unfold out10_6
  rw [View.canon_unit_zero hz3]
  simp only [View.ld_unit_zero (S := S10000x128) hz2, View.ld_unit_zero (S := S128x128) hz2, View.ld_unit_zero (S := S1x128) hz2]
  funext j
  show k10_pay3 (iblk10 V c 0 t) (iblk10 V c 1 t) (iblk10 V c 2 t) (iblk10 V c 3 t) j = (sumG (sqG (linG (addG (a10_0 V c) (a10_1 V c)) (a10_2 V c) (a10_3 V c)))) (((cfg10.win 6).blk t).view.emb j)
  exact k10_pay3_block (iblk10 V c 0 t) (iblk10 V c 1 t) (iblk10 V c 2 t) (iblk10 V c 3 t) (a10_0 V c) (a10_1 V c) (a10_2 V c) (a10_3 V c) t.val (blk10_0 V c t) (blk10_1 V c t) (whole10_2 V c t) (whole10_3 V c t) j (((cfg10.win 6).blk t).view.emb j) (at10_6 t j).1 (at10_6 t j).2

/-- Window 6's array after the region. -/
theorem arr10_6 (c : Dev nD) : (dat10 V c).arrAt 6 cfg10.N = sumG (sqG (linG (addG (a10_0 V c) (a10_1 V c)) (a10_2 V c) (a10_3 V c))) :=
  (dat10 V c).arrAt_eq_of_cover 6 _ (fun t _ => flushed10_6 V c t) cover10_6

/-- The same, with the arrays spelt as the region's proof data spells them. -/
theorem final10_6 (c : Dev nD) : (dat10 V c).arrAt 6 cfg10.N = sumG (sqG (linG (addG (V c (Pipeline.arrRef spec10 0)) (V c (Pipeline.arrRef spec10 1))) (V c (Pipeline.arrRef spec10 2)) (V c (Pipeline.arrRef spec10 3)))) :=
  arr10_6 V c

end Cert.KernelIdeal.RegionValue

end
-- ==== Proof.KRegion11.lean ====
/-
  Region 11 of the kernel program (a layer's first normalisation and rectifier followed by its second affine map, with the per-block column sums of the result and of its square): each output array after the region as a function of the arrays the
  region finds, entry by entry. The grid has ten points; point t reads rows t·10000 … t·10000 + 9999 of each
  100000×128 input, all of each small input, and writes the same rows of each 100000×128 output and entry (t, 0, ·) of
  each 10×1×128 output. What a point writes is the body's arithmetic of its blocks, which is the matching block of one
  function of the whole arrays; the points' blocks cover each output array, so the array ends at that function.
-/
import proofs.«119304_j10247791968545_2_alg».proof.Proof.Gen.KernelIdeal.Frame
import proofs.«119304_j10247791968545_2_alg».proof.Proof.KPay
import Idealize.ShloMosaic.Lib.Pipeline.Value

set_option maxRecDepth 16384

noncomputable section

namespace Cert.KernelIdeal.RegionValue

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-! ## The arrays the region finds, under their literal types -/

/-- Input window 0's array as the region finds it. -/
abbrev a11_0 (c : Dev nD) : FVec Ideal S100000x128 .f32 := V c (Pipeline.arrRef spec11 0)
/-- Input window 1's array as the region finds it. -/
abbrev a11_1 (c : Dev nD) : FVec Ideal S1x128 .f32 := V c (Pipeline.arrRef spec11 1)
/-- Input window 2's array as the region finds it. -/
abbrev a11_2 (c : Dev nD) : FVec Ideal S1x128 .f32 := V c (Pipeline.arrRef spec11 2)
/-- Input window 3's array as the region finds it. -/
abbrev a11_3 (c : Dev nD) : FVec Ideal S1x128 .f32 := V c (Pipeline.arrRef spec11 3)
/-- Input window 4's array as the region finds it. -/
abbrev a11_4 (c : Dev nD) : FVec Ideal S1x128 .f32 := V c (Pipeline.arrRef spec11 4)
/-- Input window 5's array as the region finds it. -/
abbrev a11_5 (c : Dev nD) : FVec Ideal S128x128 .f32 := V c (Pipeline.arrRef spec11 5)
/-- Input window 6's array as the region finds it. -/
abbrev a11_6 (c : Dev nD) : FVec Ideal S1x128 .f32 := V c (Pipeline.arrRef spec11 6)

/-! ## Where the block index maps send a grid point -/

theorem idx11_0 : ∀ t : Fin cfg11.N, win11_0.index t (0 : Fin 2) = t.val ∧ win11_0.index t (1 : Fin 2) = 0 :=
  (by decide +kernel : ∀ t : Fin grid11.N, _)
theorem idx11_1 : ∀ t : Fin cfg11.N, win11_1.index t (0 : Fin 2) = 0 ∧ win11_1.index t (1 : Fin 2) = 0 :=
  (by decide +kernel : ∀ t : Fin grid11.N, _)
theorem idx11_2 : ∀ t : Fin cfg11.N, win11_2.index t (0 : Fin 2) = 0 ∧ win11_2.index t (1 : Fin 2) = 0 :=
  (by decide +kernel : ∀ t : Fin grid11.N, _)
theorem idx11_3 : ∀ t : Fin cfg11.N, win11_3.index t (0 : Fin 2) = 0 ∧ win11_3.index t (1 : Fin 2) = 0 :=
  (by decide +kernel : ∀ t : Fin grid11.N, _)
theorem idx11_4 : ∀ t : Fin cfg11.N, win11_4.index t (0 : Fin 2) = 0 ∧ win11_4.index t (1 : Fin 2) = 0 :=
  (by decide +kernel : ∀ t : Fin grid11.N, _)
theorem idx11_5 : ∀ t : Fin cfg11.N, win11_5.index t (0 : Fin 2) = 0 ∧ win11_5.index t (1 : Fin 2) = 0 :=
  (by decide +kernel : ∀ t : Fin grid11.N, _)
theorem idx11_6 : ∀ t : Fin cfg11.N, win11_6.index t (0 : Fin 2) = 0 ∧ win11_6.index t (1 : Fin 2) = 0 :=
  (by decide +kernel : ∀ t : Fin grid11.N, _)
theorem idx11_7 : ∀ t : Fin cfg11.N, win11_7.index t (0 : Fin 2) = t.val ∧ win11_7.index t (1 : Fin 2) = 0 :=
  (by decide +kernel : ∀ t : Fin grid11.N, _)
theorem idx11_8 : ∀ t : Fin cfg11.N, win11_8.index t (0 : Fin 3) = t.val ∧ win11_8.index t (1 : Fin 3) = 0 ∧ win11_8.index t (2 : Fin 3) = 0 :=
  (by decide +kernel : ∀ t : Fin grid11.N, _)
theorem idx11_9 : ∀ t : Fin cfg11.N, win11_9.index t (0 : Fin 3) = t.val ∧ win11_9.index t (1 : Fin 3) = 0 ∧ win11_9.index t (2 : Fin 3) = 0 :=
  (by decide +kernel : ∀ t : Fin grid11.N, _)

/-! ## The input windows' blocks, read off the arrays -/

/-- Point t's block of input window 0 is rows t·10000 … of the window's array. -/
theorem blk11_0 (c : Dev nD) (t : Fin cfg11.N) : IsBlock t.val (iblk11 V c 0 t) (a11_0 V c) := by
  intro j i hji
  obtain ⟨e0, e1⟩ := idx11_0 t
  have h0 := hji.1
  have h1 := hji.2
  show (a11_0 V c) (((cfg11.win 0).blk t).view.emb j) = (a11_0 V c) i
  refine congrArg (a11_0 V c) (funext fun a => Fin.ext ?_)
  match a with
  | ⟨0, _⟩ => show win11_0.index t (0 : Fin 2) * 10000 + 1 * (j 0).val = (i 0).val; rw [e0]; omega
  | ⟨1, _⟩ => show win11_0.index t (1 : Fin 2) * 128 + 1 * (j 1).val = (i 1).val; rw [e1]; omega

/-- Input window 1's block at every point is its whole array. -/
theorem whole11_1 (c : Dev nD) (t : Fin cfg11.N) : iblk11 V c 1 t = (a11_1 V c) := by
  funext y
  obtain ⟨e0, e1⟩ := idx11_1 t
  show (a11_1 V c) (((cfg11.win 1).blk t).view.emb y) = (a11_1 V c) y
  refine congrArg (a11_1 V c) (funext fun a => Fin.ext ?_)
  match a with
  | ⟨0, _⟩ => show win11_1.index t (0 : Fin 2) * 1 + 1 * (y 0).val = (y 0).val; rw [e0]; omega
  | ⟨1, _⟩ => show win11_1.index t (1 : Fin 2) * 128 + 1 * (y 1).val = (y 1).val; rw [e1]; omega

/-- Input window 2's block at every point is its whole array. -/
theorem whole11_2 (c : Dev nD) (t : Fin cfg11.N) : iblk11 V c 2 t = (a11_2 V c) := by
  funext y
  obtain ⟨e0, e1⟩ := idx11_2 t
  show (a11_2 V c) (((cfg11.win 2).blk t).view.emb y) = (a11_2 V c) y
  refine congrArg (a11_2 V c) (funext fun a => Fin.ext ?_)
  match a with
  | ⟨0, _⟩ => show win11_2.index t (0 : Fin 2) * 1 + 1 * (y 0).val = (y 0).val; rw [e0]; omega
  | ⟨1, _⟩ => show win11_2.index t (1 : Fin 2) * 128 + 1 * (y 1).val = (y 1).val; rw [e1]; omega

/-- Input window 3's block at every point is its whole array. -/
theorem whole11_3 (c : Dev nD) (t : Fin cfg11.N) : iblk11 V c 3 t = (a11_3 V c) := by
  funext y
  obtain ⟨e0, e1⟩ := idx11_3 t
  show (a11_3 V c) (((cfg11.win 3).blk t).view.emb y) = (a11_3 V c) y
  refine congrArg (a11_3 V c) (funext fun a => Fin.ext ?_)
  match a with
  | ⟨0, _⟩ => show win11_3.index t (0 : Fin 2) * 1 + 1 * (y 0).val = (y 0).val; rw [e0]; omega
  | ⟨1, _⟩ => show win11_3.index t (1 : Fin 2) * 128 + 1 * (y 1).val = (y 1).val; rw [e1]; omega

/-- Input window 4's block at every point is its whole array. -/
theorem whole11_4 (c : Dev nD) (t : Fin cfg11.N) : iblk11 V c 4 t = (a11_4 V c) := by
  funext y
  obtain ⟨e0, e1⟩ := idx11_4 t
  show (a11_4 V c) (((cfg11.win 4).blk t).view.emb y) = (a11_4 V c) y
  refine congrArg (a11_4 V c) (funext fun a => Fin.ext ?_)
  match a with
  | ⟨0, _⟩ => show win11_4.index t (0 : Fin 2) * 1 + 1 * (y 0).val = (y 0).val; rw [e0]; omega
  | ⟨1, _⟩ => show win11_4.index t (1 : Fin 2) * 128 + 1 * (y 1).val = (y 1).val; rw [e1]; omega

/-- Input window 5's block at every point is its whole array. -/
theorem whole11_5 (c : Dev nD) (t : Fin cfg11.N) : iblk11 V c 5 t = (a11_5 V c) := by
  funext y
  obtain ⟨e0, e1⟩ := idx11_5 t
  show (a11_5 V c) (((cfg11.win 5).blk t).view.emb y) = (a11_5 V c) y
  refine congrArg (a11_5 V c) (funext fun a => Fin.ext ?_)
  match a with
  | ⟨0, _⟩ => show win11_5.index t (0 : Fin 2) * 128 + 1 * (y 0).val = (y 0).val; rw [e0]; omega
  | ⟨1, _⟩ => show win11_5.index t (1 : Fin 2) * 128 + 1 * (y 1).val = (y 1).val; rw [e1]; omega

/-- Input window 6's block at every point is its whole array. -/
theorem whole11_6 (c : Dev nD) (t : Fin cfg11.N) : iblk11 V c 6 t = (a11_6 V c) := by
  funext y
  obtain ⟨e0, e1⟩ := idx11_6 t
  show (a11_6 V c) (((cfg11.win 6).blk t).view.emb y) = (a11_6 V c) y
  refine congrArg (a11_6 V c) (funext fun a => Fin.ext ?_)
  match a with
  | ⟨0, _⟩ => show win11_6.index t (0 : Fin 2) * 1 + 1 * (y 0).val = (y 0).val; rw [e0]; omega
  | ⟨1, _⟩ => show win11_6.index t (1 : Fin 2) * 128 + 1 * (y 1).val = (y 1).val; rw [e1]; omega

/-! ## The body's stores, over arbitrary blocks: a block of rows of the array it was read from, the small blocks equal to
    their arrays -/

theorem k11_pay2_block (v0 : Vec Ideal S10000x128 .f32) (v2 v7 v9 v17 : Vec Ideal S1x128 .f32) (v23 : Vec Ideal S128x128 .f32)
    (v26 : Vec Ideal S1x128 .f32) (Y : FVec Ideal S100000x128 .f32) (M Vr G Be : FVec Ideal S1x128 .f32)
    (W : FVec Ideal S128x128 .f32) (B : FVec Ideal S1x128 .f32) (T : Nat) (h0 : IsBlock T v0 Y)
    (e2 : v2 = Vr) (e7 : v7 = G) (e9 : v9 = M) (e17 : v17 = Be) (e23 : v23 = W) (e26 : v26 = B) :
    IsBlock T (k11_pay2 v0 v2 v7 v9 v17 v23 v26) (linG (bnG Y M Vr G Be) W B) := by
  subst e2 e7 e9 e17 e23 e26
  unfold k11_pay2
  exact lin_block _ v23 v26 _ T (bn_block v0 v2 v7 v9 v17 Y T h0 _ _ _) _ _ _

theorem k11_pay3_block (v0 : Vec Ideal S10000x128 .f32) (v2 v7 v9 v17 : Vec Ideal S1x128 .f32) (v23 : Vec Ideal S128x128 .f32)
    (v26 : Vec Ideal S1x128 .f32) (Y : FVec Ideal S100000x128 .f32) (M Vr G Be : FVec Ideal S1x128 .f32)
    (W : FVec Ideal S128x128 .f32) (B : FVec Ideal S1x128 .f32) (T : Nat) (h0 : IsBlock T v0 Y)
    (e2 : v2 = Vr) (e7 : v7 = G) (e9 : v9 = M) (e17 : v17 = Be) (e23 : v23 = W) (e26 : v26 = B)
    (j : S1x1x128.Idx) (i : S10x1x128.Idx) (hi0 : (i 0).val = T) (hi2 : (i 2).val = (j 2).val) :
    k11_pay3 v0 v2 v7 v9 v17 v23 v26 j = sumG (linG (bnG Y M Vr G Be) W B) i := by
  unfold k11_pay3
  exact colsum_block _ _ T (k11_pay2_block v0 v2 v7 v9 v17 v23 v26 Y M Vr G Be W B T h0 e2 e7 e9 e17 e23 e26) _ _ _ _ _ j i hi0 hi2

theorem k11_pay1_block (v29 : FVec Ideal S10000x128 .f32) (Z : FVec Ideal S100000x128 .f32) (T : Nat) (h : IsBlock T v29 Z)
    (j : S1x1x128.Idx) (i : S10x1x128.Idx) (hi0 : (i 0).val = T) (hi2 : (i 2).val = (j 2).val) :
    k11_pay1 v29 j = sumG (sqG Z) i := by
  unfold k11_pay1
  exact colsum_block _ _ T (sq_block v29 Z T h) _ _ _ _ _ j i hi0 hi2

/-! ## The output windows: where a block sits, which points cover the array, what each point writes, the array after the region -/

theorem at11_7 (t : Fin cfg11.N) (j : S10000x128.Idx) : At t.val j (((cfg11.win 7).blk t).view.emb j) := by
  obtain ⟨e0, e1⟩ := idx11_7 t
  constructor
  · show win11_7.index t (0 : Fin 2) * 10000 + 1 * (j 0).val = _; rw [e0]; omega
  · show win11_7.index t (1 : Fin 2) * 128 + 1 * (j 1).val = _; rw [e1]; omega

theorem mem11_7 (t : Fin cfg11.N) (i : S100000x128.Idx) :
    i ∈ ((cfg11.win 7).blk t).view.set ↔ ∀ a : Fin 2, win11_7.index t a * S10000x128.size a ≤ (i a).val
      ∧ (i a).val < win11_7.index t a * S10000x128.size a + S10000x128.size a := by
  show i ∈ ((View.whole main_v217_0).slice (win11_7.rect t)).set ↔ _
  rw [View.set_slice_whole, Rect.mem_set_unit]
  exact Iff.rfl

/-- Row p is in the block of point p / 10000. -/
theorem cover11_7 (i : S100000x128.Idx) :
    ∃ t : Fin cfg11.N, (cfg11.win 7).flush t = true ∧ i ∈ ((cfg11.win 7).blk t).view.set := by
  have h0 : (i 0).val < 100000 := (i 0).isLt
  have h1 : (i 1).val < 128 := (i 1).isLt
  have hN : cfg11.N = 10 := N_11
  refine ⟨⟨(i 0).val / 10000, by rw [hN]; omega⟩, flush11_7 _, ?_⟩
  rw [mem11_7]
  obtain ⟨e0, e1⟩ := idx11_7 ⟨(i 0).val / 10000, by rw [hN]; omega⟩
  intro a
  match a with
  | ⟨0, _⟩ =>
    show win11_7.index _ (0 : Fin 2) * 10000 ≤ (i 0).val ∧ (i 0).val < win11_7.index _ (0 : Fin 2) * 10000 + 10000
    rw [e0]
    show (i 0).val / 10000 * 10000 ≤ (i 0).val ∧ (i 0).val < (i 0).val / 10000 * 10000 + 10000
    omega
  | ⟨1, _⟩ =>
    show win11_7.index _ (1 : Fin 2) * 128 ≤ (i 1).val ∧ (i 1).val < win11_7.index _ (1 : Fin 2) * 128 + 128
    rw [e1]
    omega

/-- What point t writes back to window 7's array is its block of the whole-array function. -/
theorem flushed11_7 (c : Dev nD) (t : Fin cfg11.N) :
    (dat11 V c).flushed 7 t = ((cfg11.win 7).blk t).view.read (Elt Ideal) (linG (bnG (a11_0 V c) (a11_1 V c) (a11_2 V c) (a11_3 V c) (a11_4 V c)) (a11_5 V c) (a11_6 V c)) := by
  show (cfg11.win 7).cut (grid11.coords t) ((dat11 V c).after 7 t) = _
  rw [after11_7]
  unfold out11_7
  rw [View.canon_unit_zero hz2]
  simp only [View.ld_unit_zero (S := S10000x128) hz2, View.ld_unit_zero (S := S128x128) hz2, View.ld_unit_zero (S := S1x128) hz2]
  funext j
  show k11_pay2 (iblk11 V c 0 t) (iblk11 V c 2 t) (iblk11 V c 3 t) (iblk11 V c 1 t) (iblk11 V c 4 t) (iblk11 V c 5 t) (iblk11 V c 6 t) j = (linG (bnG (a11_0 V c) (a11_1 V c) (a11_2 V c) (a11_3 V c) (a11_4 V c)) (a11_5 V c) (a11_6 V c)) (((cfg11.win 7).blk t).view.emb j)
  exact k11_pay2_block (iblk11 V c 0 t) (iblk11 V c 2 t) (iblk11 V c 3 t) (iblk11 V c 1 t) (iblk11 V c 4 t) (iblk11 V c 5 t) (iblk11 V c 6 t) (a11_0 V c) (a11_1 V c) (a11_2 V c) (a11_3 V c) (a11_4 V c) (a11_5 V c) (a11_6 V c) t.val (blk11_0 V c t) (whole11_2 V c t) (whole11_3 V c t) (whole11_1 V c t) (whole11_4 V c t) (whole11_5 V c t) (whole11_6 V c t) j (((cfg11.win 7).blk t).view.emb j) (at11_7 t j)

/-- Window 7's array after the region. -/
theorem arr11_7 (c : Dev nD) : (dat11 V c).arrAt 7 cfg11.N = linG (bnG (a11_0 V c) (a11_1 V c) (a11_2 V c) (a11_3 V c) (a11_4 V c)) (a11_5 V c) (a11_6 V c) :=
  (dat11 V c).arrAt_eq_of_cover 7 _ (fun t _ => flushed11_7 V c t) cover11_7

/-- The same, with the arrays spelt as the region's proof data spells them. -/
theorem final11_7 (c : Dev nD) : (dat11 V c).arrAt 7 cfg11.N = linG (bnG (V c (Pipeline.arrRef spec11 0)) (V c (Pipeline.arrRef spec11 1)) (V c (Pipeline.arrRef spec11 2)) (V c (Pipeline.arrRef spec11 3)) (V c (Pipeline.arrRef spec11 4))) (V c (Pipeline.arrRef spec11 5)) (V c (Pipeline.arrRef spec11 6)) :=
  arr11_7 V c

theorem at11_8 (t : Fin cfg11.N) (j : S1x1x128.Idx) :
    (((cfg11.win 8).blk t).view.emb j 0).val = t.val ∧ (((cfg11.win 8).blk t).view.emb j 2).val = (j 2).val := by
  obtain ⟨e0, e1, e2⟩ := idx11_8 t
  have h0 : (j 0).val < 1 := (j 0).isLt
  constructor
  · show win11_8.index t (0 : Fin 3) * 1 + 1 * (j 0).val = _; rw [e0]; omega
  · show win11_8.index t (2 : Fin 3) * 128 + 1 * (j 2).val = _; rw [e2]; omega

theorem mem11_8 (t : Fin cfg11.N) (i : S10x1x128.Idx) :
    i ∈ ((cfg11.win 8).blk t).view.set ↔ ∀ a : Fin 3, win11_8.index t a * S1x1x128.size a ≤ (i a).val
      ∧ (i a).val < win11_8.index t a * S1x1x128.size a + S1x1x128.size a := by
  show i ∈ ((View.whole main_v217_1).slice (win11_8.rect t)).set ↔ _
  rw [View.set_slice_whole, Rect.mem_set_unit]
  exact Iff.rfl

/-- Entry (b, 0, q) is in the block of point b. -/
theorem cover11_8 (i : S10x1x128.Idx) :
    ∃ t : Fin cfg11.N, (cfg11.win 8).flush t = true ∧ i ∈ ((cfg11.win 8).blk t).view.set := by
  have h0 : (i 0).val < 10 := (i 0).isLt
  have h1 : (i 1).val < 1 := (i 1).isLt
  have h2 : (i 2).val < 128 := (i 2).isLt
  have hN : cfg11.N = 10 := N_11
  refine ⟨⟨(i 0).val, by rw [hN]; omega⟩, flush11_8 _, ?_⟩
  rw [mem11_8]
  obtain ⟨e0, e1, e2⟩ := idx11_8 ⟨(i 0).val, by rw [hN]; omega⟩
  intro a
  match a with
  | ⟨0, _⟩ =>
    show win11_8.index _ (0 : Fin 3) * 1 ≤ (i 0).val ∧ (i 0).val < win11_8.index _ (0 : Fin 3) * 1 + 1
    rw [e0]
    show (i 0).val * 1 ≤ (i 0).val ∧ (i 0).val < (i 0).val * 1 + 1
    omega
  | ⟨1, _⟩ =>
    show win11_8.index _ (1 : Fin 3) * 1 ≤ (i 1).val ∧ (i 1).val < win11_8.index _ (1 : Fin 3) * 1 + 1
    rw [e1]
    omega
  | ⟨2, _⟩ =>
    show win11_8.index _ (2 : Fin 3) * 128 ≤ (i 2).val ∧ (i 2).val < win11_8.index _ (2 : Fin 3) * 128 + 128
    rw [e2]
    omega

/-- What point t writes back to window 8's array is its block of the whole-array function. -/
theorem flushed11_8 (c : Dev nD) (t : Fin cfg11.N) :
    (dat11 V c).flushed 8 t = ((cfg11.win 8).blk t).view.read (Elt Ideal) (sumG (linG (bnG (a11_0 V c) (a11_1 V c) (a11_2 V c) (a11_3 V c) (a11_4 V c)) (a11_5 V c) (a11_6 V c))) := by
  show (cfg11.win 8).cut (grid11.coords t) ((dat11 V c).after 8 t) = _
  rw [after11_8]
  unfold out11_8
  rw [View.canon_unit_zero hz3]
  simp only [View.ld_unit_zero (S := S10000x128) hz2, View.ld_unit_zero (S := S128x128) hz2, View.ld_unit_zero (S := S1x128) hz2]
  funext j
  show k11_pay3 (iblk11 V c 0 t) (iblk11 V c 2 t) (iblk11 V c 3 t) (iblk11 V c 1 t) (iblk11 V c 4 t) (iblk11 V c 5 t) (iblk11 V c 6 t) j = (sumG (linG (bnG (a11_0 V c) (a11_1 V c) (a11_2 V c) (a11_3 V c) (a11_4 V c)) (a11_5 V c) (a11_6 V c))) (((cfg11.win 8).blk t).view.emb j)
  exact k11_pay3_block (iblk11 V c 0 t) (iblk11 V c 2 t) (iblk11 V c 3 t) (iblk11 V c 1 t) (iblk11 V c 4 t) (iblk11 V c 5 t) (iblk11 V c 6 t) (a11_0 V c) (a11_1 V c) (a11_2 V c) (a11_3 V c) (a11_4 V c) (a11_5 V c) (a11_6 V c) t.val (blk11_0 V c t) (whole11_2 V c t) (whole11_3 V c t) (whole11_1 V c t) (whole11_4 V c t) (whole11_5 V c t) (whole11_6 V c t) j (((cfg11.win 8).blk t).view.emb j) (at11_8 t j).1 (at11_8 t j).2

/-- Window 8's array after the region. -/
theorem arr11_8 (c : Dev nD) : (dat11 V c).arrAt 8 cfg11.N = sumG (linG (bnG (a11_0 V c) (a11_1 V c) (a11_2 V c) (a11_3 V c) (a11_4 V c)) (a11_5 V c) (a11_6 V c)) :=
  (dat11 V c).arrAt_eq_of_cover 8 _ (fun t _ => flushed11_8 V c t) cover11_8

/-- The same, with the arrays spelt as the region's proof data spells them. -/
theorem final11_8 (c : Dev nD) : (dat11 V c).arrAt 8 cfg11.N = sumG (linG (bnG (V c (Pipeline.arrRef spec11 0)) (V c (Pipeline.arrRef spec11 1)) (V c (Pipeline.arrRef spec11 2)) (V c (Pipeline.arrRef spec11 3)) (V c (Pipeline.arrRef spec11 4))) (V c (Pipeline.arrRef spec11 5)) (V c (Pipeline.arrRef spec11 6))) :=
  arr11_8 V c

theorem at11_9 (t : Fin cfg11.N) (j : S1x1x128.Idx) :
    (((cfg11.win 9).blk t).view.emb j 0).val = t.val ∧ (((cfg11.win 9).blk t).view.emb j 2).val = (j 2).val := by
  obtain ⟨e0, e1, e2⟩ := idx11_9 t
  have h0 : (j 0).val < 1 := (j 0).isLt
  constructor
  · show win11_9.index t (0 : Fin 3) * 1 + 1 * (j 0).val = _; rw [e0]; omega
  · show win11_9.index t (2 : Fin 3) * 128 + 1 * (j 2).val = _; rw [e2]; omega

theorem mem11_9 (t : Fin cfg11.N) (i : S10x1x128.Idx) :
    i ∈ ((cfg11.win 9).blk t).view.set ↔ ∀ a : Fin 3, win11_9.index t a * S1x1x128.size a ≤ (i a).val
      ∧ (i a).val < win11_9.index t a * S1x1x128.size a + S1x1x128.size a := by
  show i ∈ ((View.whole main_v217_2).slice (win11_9.rect t)).set ↔ _
  rw [View.set_slice_whole, Rect.mem_set_unit]
  exact Iff.rfl

/-- Entry (b, 0, q) is in the block of point b. -/
theorem cover11_9 (i : S10x1x128.Idx) :
    ∃ t : Fin cfg11.N, (cfg11.win 9).flush t = true ∧ i ∈ ((cfg11.win 9).blk t).view.set := by
  have h0 : (i 0).val < 10 := (i 0).isLt
  have h1 : (i 1).val < 1 := (i 1).isLt
  have h2 : (i 2).val < 128 := (i 2).isLt
  have hN : cfg11.N = 10 := N_11
  refine ⟨⟨(i 0).val, by rw [hN]; omega⟩, flush11_9 _, ?_⟩
  rw [mem11_9]
  obtain ⟨e0, e1, e2⟩ := idx11_9 ⟨(i 0).val, by rw [hN]; omega⟩
  intro a
  match a with
  | ⟨0, _⟩ =>
    show win11_9.index _ (0 : Fin 3) * 1 ≤ (i 0).val ∧ (i 0).val < win11_9.index _ (0 : Fin 3) * 1 + 1
    rw [e0]
    show (i 0).val * 1 ≤ (i 0).val ∧ (i 0).val < (i 0).val * 1 + 1
    omega
  | ⟨1, _⟩ =>
    show win11_9.index _ (1 : Fin 3) * 1 ≤ (i 1).val ∧ (i 1).val < win11_9.index _ (1 : Fin 3) * 1 + 1
    rw [e1]
    omega
  | ⟨2, _⟩ =>
    show win11_9.index _ (2 : Fin 3) * 128 ≤ (i 2).val ∧ (i 2).val < win11_9.index _ (2 : Fin 3) * 128 + 128
    rw [e2]
    omega

/-- What point t writes back to window 9's array is its block of the whole-array function. -/
theorem flushed11_9 (c : Dev nD) (t : Fin cfg11.N) :
    (dat11 V c).flushed 9 t = ((cfg11.win 9).blk t).view.read (Elt Ideal) (sumG (sqG (linG (bnG (a11_0 V c) (a11_1 V c) (a11_2 V c) (a11_3 V c) (a11_4 V c)) (a11_5 V c) (a11_6 V c)))) := by
  show (cfg11.win 9).cut (grid11.coords t) ((dat11 V c).after 9 t) = _
  rw [after11_9]
  unfold out11_9
  rw [View.canon_unit_zero hz3]
  simp only [View.ld_unit_zero (S := S10000x128) hz2, View.ld_unit_zero (S := S128x128) hz2, View.ld_unit_zero (S := S1x128) hz2]
  funext j
  show k11_pay1 (k11_pay2 (iblk11 V c 0 t) (iblk11 V c 2 t) (iblk11 V c 3 t) (iblk11 V c 1 t) (iblk11 V c 4 t) (iblk11 V c 5 t) (iblk11 V c 6 t)) j = (sumG (sqG (linG (bnG (a11_0 V c) (a11_1 V c) (a11_2 V c) (a11_3 V c) (a11_4 V c)) (a11_5 V c) (a11_6 V c)))) (((cfg11.win 9).blk t).view.emb j)
  exact k11_pay1_block (k11_pay2 (iblk11 V c 0 t) (iblk11 V c 2 t) (iblk11 V c 3 t) (iblk11 V c 1 t) (iblk11 V c 4 t) (iblk11 V c 5 t) (iblk11 V c 6 t)) (linG (bnG (a11_0 V c) (a11_1 V c) (a11_2 V c) (a11_3 V c) (a11_4 V c)) (a11_5 V c) (a11_6 V c)) t.val (k11_pay2_block (iblk11 V c 0 t) (iblk11 V c 2 t) (iblk11 V c 3 t) (iblk11 V c 1 t) (iblk11 V c 4 t) (iblk11 V c 5 t) (iblk11 V c 6 t) (a11_0 V c) (a11_1 V c) (a11_2 V c) (a11_3 V c) (a11_4 V c) (a11_5 V c) (a11_6 V c) t.val (blk11_0 V c t) (whole11_2 V c t) (whole11_3 V c t) (whole11_1 V c t) (whole11_4 V c t) (whole11_5 V c t) (whole11_6 V c t)) j (((cfg11.win 9).blk t).view.emb j) (at11_9 t j).1 (at11_9 t j).2

/-- Window 9's array after the region. -/
theorem arr11_9 (c : Dev nD) : (dat11 V c).arrAt 9 cfg11.N = sumG (sqG (linG (bnG (a11_0 V c) (a11_1 V c) (a11_2 V c) (a11_3 V c) (a11_4 V c)) (a11_5 V c) (a11_6 V c))) :=
  (dat11 V c).arrAt_eq_of_cover 9 _ (fun t _ => flushed11_9 V c t) cover11_9

/-- The same, with the arrays spelt as the region's proof data spells them. -/
theorem final11_9 (c : Dev nD) : (dat11 V c).arrAt 9 cfg11.N = sumG (sqG (linG (bnG (V c (Pipeline.arrRef spec11 0)) (V c (Pipeline.arrRef spec11 1)) (V c (Pipeline.arrRef spec11 2)) (V c (Pipeline.arrRef spec11 3)) (V c (Pipeline.arrRef spec11 4))) (V c (Pipeline.arrRef spec11 5)) (V c (Pipeline.arrRef spec11 6)))) :=
  arr11_9 V c

end Cert.KernelIdeal.RegionValue

end
-- ==== Proof.KRegion12.lean ====
/-
  Region 12 of the kernel program (a layer's second normalisation and rectifier): each output array after the region as a function of the arrays the
  region finds, entry by entry. The grid has ten points; point t reads rows t·10000 … t·10000 + 9999 of each
  100000×128 input, all of each small input, and writes the same rows of each 100000×128 output and entry (t, 0, ·) of
  each 10×1×128 output. What a point writes is the body's arithmetic of its blocks, which is the matching block of one
  function of the whole arrays; the points' blocks cover each output array, so the array ends at that function.
-/
import proofs.«119304_j10247791968545_2_alg».proof.Proof.Gen.KernelIdeal.Frame
import proofs.«119304_j10247791968545_2_alg».proof.Proof.KPay
import Idealize.ShloMosaic.Lib.Pipeline.Value

set_option maxRecDepth 16384

noncomputable section

namespace Cert.KernelIdeal.RegionValue

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-! ## The arrays the region finds, under their literal types -/

/-- Input window 0's array as the region finds it. -/
abbrev a12_0 (c : Dev nD) : FVec Ideal S100000x128 .f32 := V c (Pipeline.arrRef spec12 0)
/-- Input window 1's array as the region finds it. -/
abbrev a12_1 (c : Dev nD) : FVec Ideal S1x128 .f32 := V c (Pipeline.arrRef spec12 1)
/-- Input window 2's array as the region finds it. -/
abbrev a12_2 (c : Dev nD) : FVec Ideal S1x128 .f32 := V c (Pipeline.arrRef spec12 2)
/-- Input window 3's array as the region finds it. -/
abbrev a12_3 (c : Dev nD) : FVec Ideal S1x128 .f32 := V c (Pipeline.arrRef spec12 3)
/-- Input window 4's array as the region finds it. -/
abbrev a12_4 (c : Dev nD) : FVec Ideal S1x128 .f32 := V c (Pipeline.arrRef spec12 4)

/-! ## Where the block index maps send a grid point -/

theorem idx12_0 : ∀ t : Fin cfg12.N, win12_0.index t (0 : Fin 2) = t.val ∧ win12_0.index t (1 : Fin 2) = 0 :=
  (by decide +kernel : ∀ t : Fin grid12.N, _)
theorem idx12_1 : ∀ t : Fin cfg12.N, win12_1.index t (0 : Fin 2) = 0 ∧ win12_1.index t (1 : Fin 2) = 0 :=
  (by decide +kernel : ∀ t : Fin grid12.N, _)
theorem idx12_2 : ∀ t : Fin cfg12.N, win12_2.index t (0 : Fin 2) = 0 ∧ win12_2.index t (1 : Fin 2) = 0 :=
  (by decide +kernel : ∀ t : Fin grid12.N, _)
theorem idx12_3 : ∀ t : Fin cfg12.N, win12_3.index t (0 : Fin 2) = 0 ∧ win12_3.index t (1 : Fin 2) = 0 :=
  (by decide +kernel : ∀ t : Fin grid12.N, _)
theorem idx12_4 : ∀ t : Fin cfg12.N, win12_4.index t (0 : Fin 2) = 0 ∧ win12_4.index t (1 : Fin 2) = 0 :=
  (by decide +kernel : ∀ t : Fin grid12.N, _)
theorem idx12_5 : ∀ t : Fin cfg12.N, win12_5.index t (0 : Fin 2) = t.val ∧ win12_5.index t (1 : Fin 2) = 0 :=
  (by decide +kernel : ∀ t : Fin grid12.N, _)

/-! ## The input windows' blocks, read off the arrays -/

/-- Point t's block of input window 0 is rows t·10000 … of the window's array. -/
theorem blk12_0 (c : Dev nD) (t : Fin cfg12.N) : IsBlock t.val (iblk12 V c 0 t) (a12_0 V c) := by
  intro j i hji
  obtain ⟨e0, e1⟩ := idx12_0 t
  have h0 := hji.1
  have h1 := hji.2
  show (a12_0 V c) (((cfg12.win 0).blk t).view.emb j) = (a12_0 V c) i
  refine congrArg (a12_0 V c) (funext fun a => Fin.ext ?_)
  match a with
  | ⟨0, _⟩ => show win12_0.index t (0 : Fin 2) * 10000 + 1 * (j 0).val = (i 0).val; rw [e0]; omega
  | ⟨1, _⟩ => show win12_0.index t (1 : Fin 2) * 128 + 1 * (j 1).val = (i 1).val; rw [e1]; omega

/-- Input window 1's block at every point is its whole array. -/
theorem whole12_1 (c : Dev nD) (t : Fin cfg12.N) : iblk12 V c 1 t = (a12_1 V c) := by
  funext y
  obtain ⟨e0, e1⟩ := idx12_1 t
  show (a12_1 V c) (((cfg12.win 1).blk t).view.emb y) = (a12_1 V c) y
  refine congrArg (a12_1 V c) (funext fun a => Fin.ext ?_)
  match a with
  | ⟨0, _⟩ => show win12_1.index t (0 : Fin 2) * 1 + 1 * (y 0).val = (y 0).val; rw [e0]; omega
  | ⟨1, _⟩ => show win12_1.index t (1 : Fin 2) * 128 + 1 * (y 1).val = (y 1).val; rw [e1]; omega

/-- Input window 2's block at every point is its whole array. -/
theorem whole12_2 (c : Dev nD) (t : Fin cfg12.N) : iblk12 V c 2 t = (a12_2 V c) := by
  funext y
  obtain ⟨e0, e1⟩ := idx12_2 t
  show (a12_2 V c) (((cfg12.win 2).blk t).view.emb y) = (a12_2 V c) y
  refine congrArg (a12_2 V c) (funext fun a => Fin.ext ?_)
  match a with
  | ⟨0, _⟩ => show win12_2.index t (0 : Fin 2) * 1 + 1 * (y 0).val = (y 0).val; rw [e0]; omega
  | ⟨1, _⟩ => show win12_2.index t (1 : Fin 2) * 128 + 1 * (y 1).val = (y 1).val; rw [e1]; omega

/-- Input window 3's block at every point is its whole array. -/
theorem whole12_3 (c : Dev nD) (t : Fin cfg12.N) : iblk12 V c 3 t = (a12_3 V c) := by
  funext y
  obtain ⟨e0, e1⟩ := idx12_3 t
  show (a12_3 V c) (((cfg12.win 3).blk t).view.emb y) = (a12_3 V c) y
  refine congrArg (a12_3 V c) (funext fun a => Fin.ext ?_)
  match a with
  | ⟨0, _⟩ => show win12_3.index t (0 : Fin 2) * 1 + 1 * (y 0).val = (y 0).val; rw [e0]; omega
  | ⟨1, _⟩ => show win12_3.index t (1 : Fin 2) * 128 + 1 * (y 1).val = (y 1).val; rw [e1]; omega

/-- Input window 4's block at every point is its whole array. -/
theorem whole12_4 (c : Dev nD) (t : Fin cfg12.N) : iblk12 V c 4 t = (a12_4 V c) := by
  funext y
  obtain ⟨e0, e1⟩ := idx12_4 t
  show (a12_4 V c) (((cfg12.win 4).blk t).view.emb y) = (a12_4 V c) y
  refine congrArg (a12_4 V c) (funext fun a => Fin.ext ?_)
  match a with
  | ⟨0, _⟩ => show win12_4.index t (0 : Fin 2) * 1 + 1 * (y 0).val = (y 0).val; rw [e0]; omega
  | ⟨1, _⟩ => show win12_4.index t (1 : Fin 2) * 128 + 1 * (y 1).val = (y 1).val; rw [e1]; omega

/-! ## The body's stores, over arbitrary blocks: a block of rows of the array it was read from, the small blocks equal to
    their arrays -/

theorem k12_pay1_block (v0 : Vec Ideal S10000x128 .f32) (v2 v7 v9 v17 : Vec Ideal S1x128 .f32)
    (Y : FVec Ideal S100000x128 .f32) (M Vr G Be : FVec Ideal S1x128 .f32) (T : Nat) (h0 : IsBlock T v0 Y)
    (e2 : v2 = Vr) (e7 : v7 = G) (e9 : v9 = M) (e17 : v17 = Be) :
    IsBlock T (k12_pay1 v0 v2 v7 v9 v17) (bnG Y M Vr G Be) := by
  subst e2 e7 e9 e17
  unfold k12_pay1
  exact bn_block v0 v2 v7 v9 v17 Y T h0 _ _ _

/-! ## The output windows: where a block sits, which points cover the array, what each point writes, the array after the region -/

theorem at12_5 (t : Fin cfg12.N) (j : S10000x128.Idx) : At t.val j (((cfg12.win 5).blk t).view.emb j) := by
  obtain ⟨e0, e1⟩ := idx12_5 t
  constructor
  · show win12_5.index t (0 : Fin 2) * 10000 + 1 * (j 0).val = _; rw [e0]; omega
  · show win12_5.index t (1 : Fin 2) * 128 + 1 * (j 1).val = _; rw [e1]; omega

theorem mem12_5 (t : Fin cfg12.N) (i : S100000x128.Idx) :
    i ∈ ((cfg12.win 5).blk t).view.set ↔ ∀ a : Fin 2, win12_5.index t a * S10000x128.size a ≤ (i a).val
      ∧ (i a).val < win12_5.index t a * S10000x128.size a + S10000x128.size a := by
  show i ∈ ((View.whole main_v234).slice (win12_5.rect t)).set ↔ _
  rw [View.set_slice_whole, Rect.mem_set_unit]
  exact Iff.rfl

/-- Row p is in the block of point p / 10000. -/
theorem cover12_5 (i : S100000x128.Idx) :
    ∃ t : Fin cfg12.N, (cfg12.win 5).flush t = true ∧ i ∈ ((cfg12.win 5).blk t).view.set := by
  have h0 : (i 0).val < 100000 := (i 0).isLt
  have h1 : (i 1).val < 128 := (i 1).isLt
  have hN : cfg12.N = 10 := N_12
  refine ⟨⟨(i 0).val / 10000, by rw [hN]; omega⟩, flush12_5 _, ?_⟩
  rw [mem12_5]
  obtain ⟨e0, e1⟩ := idx12_5 ⟨(i 0).val / 10000, by rw [hN]; omega⟩
  intro a
  match a with
  | ⟨0, _⟩ =>
    show win12_5.index _ (0 : Fin 2) * 10000 ≤ (i 0).val ∧ (i 0).val < win12_5.index _ (0 : Fin 2) * 10000 + 10000
    rw [e0]
    show (i 0).val / 10000 * 10000 ≤ (i 0).val ∧ (i 0).val < (i 0).val / 10000 * 10000 + 10000
    omega
  | ⟨1, _⟩ =>
    show win12_5.index _ (1 : Fin 2) * 128 ≤ (i 1).val ∧ (i 1).val < win12_5.index _ (1 : Fin 2) * 128 + 128
    rw [e1]
    omega

/-- What point t writes back to window 5's array is its block of the whole-array function. -/
theorem flushed12_5 (c : Dev nD) (t : Fin cfg12.N) :
    (dat12 V c).flushed 5 t = ((cfg12.win 5).blk t).view.read (Elt Ideal) (bnG (a12_0 V c) (a12_1 V c) (a12_2 V c) (a12_3 V c) (a12_4 V c)) := by
  show (cfg12.win 5).cut (grid12.coords t) ((dat12 V c).after 5 t) = _
  rw [after12_5]
  unfold out12_5
  rw [View.canon_unit_zero hz2]
  simp only [View.ld_unit_zero (S := S10000x128) hz2, View.ld_unit_zero (S := S128x128) hz2, View.ld_unit_zero (S := S1x128) hz2]
  funext j
  show k12_pay1 (iblk12 V c 0 t) (iblk12 V c 2 t) (iblk12 V c 3 t) (iblk12 V c 1 t) (iblk12 V c 4 t) j = (bnG (a12_0 V c) (a12_1 V c) (a12_2 V c) (a12_3 V c) (a12_4 V c)) (((cfg12.win 5).blk t).view.emb j)
  exact k12_pay1_block (iblk12 V c 0 t) (iblk12 V c 2 t) (iblk12 V c 3 t) (iblk12 V c 1 t) (iblk12 V c 4 t) (a12_0 V c) (a12_1 V c) (a12_2 V c) (a12_3 V c) (a12_4 V c) t.val (blk12_0 V c t) (whole12_2 V c t) (whole12_3 V c t) (whole12_1 V c t) (whole12_4 V c t) j (((cfg12.win 5).blk t).view.emb j) (at12_5 t j)

/-- Window 5's array after the region. -/
theorem arr12_5 (c : Dev nD) : (dat12 V c).arrAt 5 cfg12.N = bnG (a12_0 V c) (a12_1 V c) (a12_2 V c) (a12_3 V c) (a12_4 V c) :=
  (dat12 V c).arrAt_eq_of_cover 5 _ (fun t _ => flushed12_5 V c t) cover12_5

/-- The same, with the arrays spelt as the region's proof data spells them. -/
theorem final12_5 (c : Dev nD) : (dat12 V c).arrAt 5 cfg12.N = bnG (V c (Pipeline.arrRef spec12 0)) (V c (Pipeline.arrRef spec12 1)) (V c (Pipeline.arrRef spec12 2)) (V c (Pipeline.arrRef spec12 3)) (V c (Pipeline.arrRef spec12 4)) :=
  arr12_5 V c

end Cert.KernelIdeal.RegionValue

end
-- ==== Proof.KHost3.lean ====
import proofs.«119304_j10247791968545_2_alg».proof.Proof.Gen.KernelIdeal.Frame

/-!
# The kernel program's host side: what the host operations of layer 3 leave

The same three stretches as in the first layer, at this layer's buffers and this layer's rows of the stacked
parameters (offset 3 along the leading axis): the neighbour sum, the transposed first weight and its bias row;
then twice the batch statistics (column sums of the ten per-block partial sums, mean = sum / N,
variance = max (sum of squares / N − mean², 0)) with the scale, shift, second weight and bias rows.
-/

set_option maxRecDepth 16384

noncomputable section

namespace Cert.KernelIdeal.HostSide

open Idealize.ShloMosaic Idealize.ShloMosaic.TcCoe
open Cert.KernelIdeal Cert.KernelIdeal.Gen

variable {F : FTy → Type} [FloatOps F]
variable (m : (ℓ : Loc nD τ sig) → Buf (Elt F) ℓ) (ρ : Dev nD → PrngReg)

/-! ## The host operations between boundaries 20 and 21 -/

theorem hostOps10_main_v187 (V : Valuation τ sig (Elt F)) :
    StableHlo.after hostOps10 V (Proc.devRef .tc main_v187) =
      ((Host.scatterAdd (F := F) scatter_S100000x128_S625000x1_S625000x128_1_0_0_1 (broadcastInDim S100000x128 ![] bcast_S_S100000x128 (constant (F := F) S_ .f32 0x00000000#32)) (broadcastInDim S625000x1 ![0] bcast_S625000_S625000x1_0 (V (Proc.devRef .tc main_v3))) (Host.gather gather_S100000x128_S625000x1_S625000x128_1_0_n_n_0_1_1128 (V (Proc.devRef .tc main_v177)) (broadcastInDim S625000x1 ![0] bcast_S625000_S625000x1_0 (select (cmpi .slt (V (Proc.devRef .tc main_v1)) (broadcastInDim S625000 ![] bcast_S_S625000 (constantI S_ 32 0#32))) (addi (V (Proc.devRef .tc main_v1)) (broadcastInDim S625000 ![] bcast_S_S625000 (constantI S_ 32 100000#32))) (V (Proc.devRef .tc main_v1)))))) : (⟨S100000x128, .f32⟩ : BufTy).Contents (Elt F)) := by
  after_results_simp <;> rfl
theorem W21_main_v187 (c : Dev nD) :
    W21 m ρ c (Proc.devRef .tc main_v187) =
      ((Host.scatterAdd (F := F) scatter_S100000x128_S625000x1_S625000x128_1_0_0_1 (broadcastInDim S100000x128 ![] bcast_S_S100000x128 (constant (F := F) S_ .f32 0x00000000#32)) (broadcastInDim S625000x1 ![0] bcast_S625000_S625000x1_0 (W20 m ρ c (Proc.devRef .tc main_v3))) (Host.gather gather_S100000x128_S625000x1_S625000x128_1_0_n_n_0_1_1128 (W20 m ρ c (Proc.devRef .tc main_v177)) (broadcastInDim S625000x1 ![0] bcast_S625000_S625000x1_0 (select (cmpi .slt (W20 m ρ c (Proc.devRef .tc main_v1)) (broadcastInDim S625000 ![] bcast_S_S625000 (constantI S_ 32 0#32))) (addi (W20 m ρ c (Proc.devRef .tc main_v1)) (broadcastInDim S625000 ![] bcast_S_S625000 (constantI S_ 32 100000#32))) (W20 m ρ c (Proc.devRef .tc main_v1)))))) : (⟨S100000x128, .f32⟩ : BufTy).Contents (Elt F)) :=
  hostOps10_main_v187 _

theorem hostOps10_main_v192 (V : Valuation τ sig (Elt F)) :
    StableHlo.after hostOps10 V (Proc.devRef .tc main_v192) =
      ((transpose S128x128 [1, 0] (shapeCast S128x128 (extractStridedSlice S1x128x128 ![3, 0, 0] (V (Proc.devRef .tc main_arg5)) slices_S4x128x128_S1x128x128_3_0_0) shapeCasts_S1x128x128_S128x128) transposes_S128x128_S128x128_1_0) : (⟨S128x128, .f32⟩ : BufTy).Contents (Elt F)) := by
  after_results_simp <;> rfl
theorem W21_main_v192 (c : Dev nD) :
    W21 m ρ c (Proc.devRef .tc main_v192) =
      ((transpose S128x128 [1, 0] (shapeCast S128x128 (extractStridedSlice S1x128x128 ![3, 0, 0] (W20 m ρ c (Proc.devRef .tc main_arg5)) slices_S4x128x128_S1x128x128_3_0_0) shapeCasts_S1x128x128_S128x128) transposes_S128x128_S128x128_1_0) : (⟨S128x128, .f32⟩ : BufTy).Contents (Elt F)) :=
  hostOps10_main_v192 _

theorem hostOps10_main_v193 (V : Valuation τ sig (Elt F)) :
    StableHlo.after hostOps10 V (Proc.devRef .tc main_v193) =
      (shapeCast S1x128 (shapeCast S128 (extractStridedSlice S1x128 ![3, 0] (V (Proc.devRef .tc main_arg6)) slices_S4x128_S1x128_3_0) shapeCasts_S1x128_S128) shapeCasts_S128_S1x128) := by
  after_results_simp <;> rfl
theorem W21_main_v193 (c : Dev nD) :
    W21 m ρ c (Proc.devRef .tc main_v193) =
      (shapeCast S1x128 (shapeCast S128 (extractStridedSlice S1x128 ![3, 0] (W20 m ρ c (Proc.devRef .tc main_arg6)) slices_S4x128_S1x128_3_0) shapeCasts_S1x128_S128) shapeCasts_S128_S1x128) :=
  hostOps10_main_v193 _

/-! ## The host operations between boundaries 22 and 23 -/

theorem hostOps11_main_v198 (V : Valuation τ sig (Elt F)) :
    StableHlo.after hostOps11 V (Proc.devRef .tc main_v198) =
      ((Host.divf (F := F) (Host.reduceAdd (F := F) (V (Proc.devRef .tc main_v194_1)) (constant (F := F) S_ .f32 0x00000000#32) reducesTo_S10x1x128_S1x128_d0 h_S_) (broadcastInDim S1x128 ![] bcast_S_S1x128 (constant (F := F) S_ .f32 0x47C35000#32))) : (⟨S1x128, .f32⟩ : BufTy).Contents (Elt F)) := by
  after_results_simp <;> rfl
theorem W23_main_v198 (c : Dev nD) :
    W23 m ρ c (Proc.devRef .tc main_v198) =
      ((Host.divf (F := F) (Host.reduceAdd (F := F) (W22 m ρ c (Proc.devRef .tc main_v194_1)) (constant (F := F) S_ .f32 0x00000000#32) reducesTo_S10x1x128_S1x128_d0 h_S_) (broadcastInDim S1x128 ![] bcast_S_S1x128 (constant (F := F) S_ .f32 0x47C35000#32))) : (⟨S1x128, .f32⟩ : BufTy).Contents (Elt F)) :=
  hostOps11_main_v198 _

theorem hostOps11_main_v204 (V : Valuation τ sig (Elt F)) :
    StableHlo.after hostOps11 V (Proc.devRef .tc main_v204) =
      ((maximumf (F := F) (subf (F := F) (Host.divf (F := F) (Host.reduceAdd (F := F) (V (Proc.devRef .tc main_v194_2)) (constant (F := F) S_ .f32 0x00000000#32) reducesTo_S10x1x128_S1x128_d0 h_S_) (broadcastInDim S1x128 ![] bcast_S_S1x128 (constant (F := F) S_ .f32 0x47C35000#32))) (mulf (F := F) (Host.divf (F := F) (Host.reduceAdd (F := F) (V (Proc.devRef .tc main_v194_1)) (constant (F := F) S_ .f32 0x00000000#32) reducesTo_S10x1x128_S1x128_d0 h_S_) (broadcastInDim S1x128 ![] bcast_S_S1x128 (constant (F := F) S_ .f32 0x47C35000#32))) (Host.divf (F := F) (Host.reduceAdd (F := F) (V (Proc.devRef .tc main_v194_1)) (constant (F := F) S_ .f32 0x00000000#32) reducesTo_S10x1x128_S1x128_d0 h_S_) (broadcastInDim S1x128 ![] bcast_S_S1x128 (constant (F := F) S_ .f32 0x47C35000#32))))) (broadcastInDim S1x128 ![] bcast_S_S1x128 (constant (F := F) S_ .f32 0x00000000#32))) : (⟨S1x128, .f32⟩ : BufTy).Contents (Elt F)) := by
  after_results_simp <;> rfl
theorem W23_main_v204 (c : Dev nD) :
    W23 m ρ c (Proc.devRef .tc main_v204) =
      ((maximumf (F := F) (subf (F := F) (Host.divf (F := F) (Host.reduceAdd (F := F) (W22 m ρ c (Proc.devRef .tc main_v194_2)) (constant (F := F) S_ .f32 0x00000000#32) reducesTo_S10x1x128_S1x128_d0 h_S_) (broadcastInDim S1x128 ![] bcast_S_S1x128 (constant (F := F) S_ .f32 0x47C35000#32))) (mulf (F := F) (Host.divf (F := F) (Host.reduceAdd (F := F) (W22 m ρ c (Proc.devRef .tc main_v194_1)) (constant (F := F) S_ .f32 0x00000000#32) reducesTo_S10x1x128_S1x128_d0 h_S_) (broadcastInDim S1x128 ![] bcast_S_S1x128 (constant (F := F) S_ .f32 0x47C35000#32))) (Host.divf (F := F) (Host.reduceAdd (F := F) (W22 m ρ c (Proc.devRef .tc main_v194_1)) (constant (F := F) S_ .f32 0x00000000#32) reducesTo_S10x1x128_S1x128_d0 h_S_) (broadcastInDim S1x128 ![] bcast_S_S1x128 (constant (F := F) S_ .f32 0x47C35000#32))))) (broadcastInDim S1x128 ![] bcast_S_S1x128 (constant (F := F) S_ .f32 0x00000000#32))) : (⟨S1x128, .f32⟩ : BufTy).Contents (Elt F)) :=
  hostOps11_main_v204 _

theorem hostOps11_main_v214 (V : Valuation τ sig (Elt F)) :
    StableHlo.after hostOps11 V (Proc.devRef .tc main_v214) =
      (shapeCast S1x128 (shapeCast S128 (extractStridedSlice S1x128 ![3, 0] (V (Proc.devRef .tc main_arg7)) slices_S4x128_S1x128_3_0) shapeCasts_S1x128_S128) shapeCasts_S128_S1x128) := by
  after_results_simp <;> rfl
theorem W23_main_v214 (c : Dev nD) :
    W23 m ρ c (Proc.devRef .tc main_v214) =
      (shapeCast S1x128 (shapeCast S128 (extractStridedSlice S1x128 ![3, 0] (W22 m ρ c (Proc.devRef .tc main_arg7)) slices_S4x128_S1x128_3_0) shapeCasts_S1x128_S128) shapeCasts_S128_S1x128) :=
  hostOps11_main_v214 _

theorem hostOps11_main_v215 (V : Valuation τ sig (Elt F)) :
    StableHlo.after hostOps11 V (Proc.devRef .tc main_v215) =
      (shapeCast S1x128 (shapeCast S128 (extractStridedSlice S1x128 ![3, 0] (V (Proc.devRef .tc main_arg8)) slices_S4x128_S1x128_3_0) shapeCasts_S1x128_S128) shapeCasts_S128_S1x128) := by
  after_results_simp <;> rfl
theorem W23_main_v215 (c : Dev nD) :
    W23 m ρ c (Proc.devRef .tc main_v215) =
      (shapeCast S1x128 (shapeCast S128 (extractStridedSlice S1x128 ![3, 0] (W22 m ρ c (Proc.devRef .tc main_arg8)) slices_S4x128_S1x128_3_0) shapeCasts_S1x128_S128) shapeCasts_S128_S1x128) :=
  hostOps11_main_v215 _

theorem hostOps11_main_v213 (V : Valuation τ sig (Elt F)) :
    StableHlo.after hostOps11 V (Proc.devRef .tc main_v213) =
      ((transpose S128x128 [1, 0] (shapeCast S128x128 (extractStridedSlice S1x128x128 ![3, 0, 0] (V (Proc.devRef .tc main_arg9)) slices_S4x128x128_S1x128x128_3_0_0) shapeCasts_S1x128x128_S128x128) transposes_S128x128_S128x128_1_0) : (⟨S128x128, .f32⟩ : BufTy).Contents (Elt F)) := by
  after_results_simp <;> rfl
theorem W23_main_v213 (c : Dev nD) :
    W23 m ρ c (Proc.devRef .tc main_v213) =
      ((transpose S128x128 [1, 0] (shapeCast S128x128 (extractStridedSlice S1x128x128 ![3, 0, 0] (W22 m ρ c (Proc.devRef .tc main_arg9)) slices_S4x128x128_S1x128x128_3_0_0) shapeCasts_S1x128x128_S128x128) transposes_S128x128_S128x128_1_0) : (⟨S128x128, .f32⟩ : BufTy).Contents (Elt F)) :=
  hostOps11_main_v213 _

theorem hostOps11_main_v216 (V : Valuation τ sig (Elt F)) :
    StableHlo.after hostOps11 V (Proc.devRef .tc main_v216) =
      (shapeCast S1x128 (shapeCast S128 (extractStridedSlice S1x128 ![3, 0] (V (Proc.devRef .tc main_arg10)) slices_S4x128_S1x128_3_0) shapeCasts_S1x128_S128) shapeCasts_S128_S1x128) := by
  after_results_simp <;> rfl
theorem W23_main_v216 (c : Dev nD) :
    W23 m ρ c (Proc.devRef .tc main_v216) =
      (shapeCast S1x128 (shapeCast S128 (extractStridedSlice S1x128 ![3, 0] (W22 m ρ c (Proc.devRef .tc main_arg10)) slices_S4x128_S1x128_3_0) shapeCasts_S1x128_S128) shapeCasts_S128_S1x128) :=
  hostOps11_main_v216 _

/-! ## The host operations between boundaries 24 and 25 -/

theorem hostOps12_main_v221 (V : Valuation τ sig (Elt F)) :
    StableHlo.after hostOps12 V (Proc.devRef .tc main_v221) =
      ((Host.divf (F := F) (Host.reduceAdd (F := F) (V (Proc.devRef .tc main_v217_1)) (constant (F := F) S_ .f32 0x00000000#32) reducesTo_S10x1x128_S1x128_d0 h_S_) (broadcastInDim S1x128 ![] bcast_S_S1x128 (constant (F := F) S_ .f32 0x47C35000#32))) : (⟨S1x128, .f32⟩ : BufTy).Contents (Elt F)) := by
  after_results_simp <;> rfl
theorem W25_main_v221 (c : Dev nD) :
    W25 m ρ c (Proc.devRef .tc main_v221) =
      ((Host.divf (F := F) (Host.reduceAdd (F := F) (W24 m ρ c (Proc.devRef .tc main_v217_1)) (constant (F := F) S_ .f32 0x00000000#32) reducesTo_S10x1x128_S1x128_d0 h_S_) (broadcastInDim S1x128 ![] bcast_S_S1x128 (constant (F := F) S_ .f32 0x47C35000#32))) : (⟨S1x128, .f32⟩ : BufTy).Contents (Elt F)) :=
  hostOps12_main_v221 _

theorem hostOps12_main_v227 (V : Valuation τ sig (Elt F)) :
    StableHlo.after hostOps12 V (Proc.devRef .tc main_v227) =
      ((maximumf (F := F) (subf (F := F) (Host.divf (F := F) (Host.reduceAdd (F := F) (V (Proc.devRef .tc main_v217_2)) (constant (F := F) S_ .f32 0x00000000#32) reducesTo_S10x1x128_S1x128_d0 h_S_) (broadcastInDim S1x128 ![] bcast_S_S1x128 (constant (F := F) S_ .f32 0x47C35000#32))) (mulf (F := F) (Host.divf (F := F) (Host.reduceAdd (F := F) (V (Proc.devRef .tc main_v217_1)) (constant (F := F) S_ .f32 0x00000000#32) reducesTo_S10x1x128_S1x128_d0 h_S_) (broadcastInDim S1x128 ![] bcast_S_S1x128 (constant (F := F) S_ .f32 0x47C35000#32))) (Host.divf (F := F) (Host.reduceAdd (F := F) (V (Proc.devRef .tc main_v217_1)) (constant (F := F) S_ .f32 0x00000000#32) reducesTo_S10x1x128_S1x128_d0 h_S_) (broadcastInDim S1x128 ![] bcast_S_S1x128 (constant (F := F) S_ .f32 0x47C35000#32))))) (broadcastInDim S1x128 ![] bcast_S_S1x128 (constant (F := F) S_ .f32 0x00000000#32))) : (⟨S1x128, .f32⟩ : BufTy).Contents (Elt F)) := by
  after_results_simp <;> rfl
theorem W25_main_v227 (c : Dev nD) :
    W25 m ρ c (Proc.devRef .tc main_v227) =
      ((maximumf (F := F) (subf (F := F) (Host.divf (F := F) (Host.reduceAdd (F := F) (W24 m ρ c (Proc.devRef .tc main_v217_2)) (constant (F := F) S_ .f32 0x00000000#32) reducesTo_S10x1x128_S1x128_d0 h_S_) (broadcastInDim S1x128 ![] bcast_S_S1x128 (constant (F := F) S_ .f32 0x47C35000#32))) (mulf (F := F) (Host.divf (F := F) (Host.reduceAdd (F := F) (W24 m ρ c (Proc.devRef .tc main_v217_1)) (constant (F := F) S_ .f32 0x00000000#32) reducesTo_S10x1x128_S1x128_d0 h_S_) (broadcastInDim S1x128 ![] bcast_S_S1x128 (constant (F := F) S_ .f32 0x47C35000#32))) (Host.divf (F := F) (Host.reduceAdd (F := F) (W24 m ρ c (Proc.devRef .tc main_v217_1)) (constant (F := F) S_ .f32 0x00000000#32) reducesTo_S10x1x128_S1x128_d0 h_S_) (broadcastInDim S1x128 ![] bcast_S_S1x128 (constant (F := F) S_ .f32 0x47C35000#32))))) (broadcastInDim S1x128 ![] bcast_S_S1x128 (constant (F := F) S_ .f32 0x00000000#32))) : (⟨S1x128, .f32⟩ : BufTy).Contents (Elt F)) :=
  hostOps12_main_v227 _

theorem hostOps12_main_v232 (V : Valuation τ sig (Elt F)) :
    StableHlo.after hostOps12 V (Proc.devRef .tc main_v232) =
      (shapeCast S1x128 (shapeCast S128 (extractStridedSlice S1x128 ![3, 0] (V (Proc.devRef .tc main_arg11)) slices_S4x128_S1x128_3_0) shapeCasts_S1x128_S128) shapeCasts_S128_S1x128) := by
  after_results_simp <;> rfl
theorem W25_main_v232 (c : Dev nD) :
    W25 m ρ c (Proc.devRef .tc main_v232) =
      (shapeCast S1x128 (shapeCast S128 (extractStridedSlice S1x128 ![3, 0] (W24 m ρ c (Proc.devRef .tc main_arg11)) slices_S4x128_S1x128_3_0) shapeCasts_S1x128_S128) shapeCasts_S128_S1x128) :=
  hostOps12_main_v232 _

theorem hostOps12_main_v233 (V : Valuation τ sig (Elt F)) :
    StableHlo.after hostOps12 V (Proc.devRef .tc main_v233) =
      (shapeCast S1x128 (shapeCast S128 (extractStridedSlice S1x128 ![3, 0] (V (Proc.devRef .tc main_arg12)) slices_S4x128_S1x128_3_0) shapeCasts_S1x128_S128) shapeCasts_S128_S1x128) := by
  after_results_simp <;> rfl
theorem W25_main_v233 (c : Dev nD) :
    W25 m ρ c (Proc.devRef .tc main_v233) =
      (shapeCast S1x128 (shapeCast S128 (extractStridedSlice S1x128 ![3, 0] (W24 m ρ c (Proc.devRef .tc main_arg12)) slices_S4x128_S1x128_3_0) shapeCasts_S1x128_S128) shapeCasts_S128_S1x128) :=
  hostOps12_main_v233 _

end Cert.KernelIdeal.HostSide

end
-- ==== Proof.KAsmL3.lean ====
/-
  Layer 3 of the kernel program, assembled. The three regions of the layer leave, as whole arrays: the affine map of the
  layer's input plus the neighbours' sum, with its blocks' column sums and column sums of squares; the affine map of
  that array normalised and cut at zero, with its blocks' sums; and that second array normalised and cut at zero. The
  stretches of host operations between them turn the blocks' sums into the rows of means and clamped one-pass
  variances and cut the layer's coefficients out of the stacked arguments. Threaded together, the layer's last array
  read as a matrix is the layer function of its first array, of the neighbours' sum of that array over the edge list,
  and of the layer's coefficients as the reference slices them.
-/
import proofs.«119304_j10247791968545_2_alg».proof.Proof.Gen.KernelIdeal.Frame
import proofs.«119304_j10247791968545_2_alg».proof.Proof.KRegion10
import proofs.«119304_j10247791968545_2_alg».proof.Proof.KRegion11
import proofs.«119304_j10247791968545_2_alg».proof.Proof.KRegion12
import proofs.«119304_j10247791968545_2_alg».proof.Proof.KHost0
import proofs.«119304_j10247791968545_2_alg».proof.Proof.KHost3
import proofs.«119304_j10247791968545_2_alg».proof.Proof.KKeep
import proofs.«119304_j10247791968545_2_alg».proof.Proof.KArgs
import proofs.«119304_j10247791968545_2_alg».proof.Proof.KStats
import proofs.«119304_j10247791968545_2_alg».proof.Proof.KLayer
import proofs.«119304_j10247791968545_2_alg».proof.Proof.KParams

set_option maxRecDepth 16384

noncomputable section

namespace Cert.KernelIdeal.Asm3

open Idealize.ShloMosaic Idealize.ShloMosaic.TcCoe Idealize.SL.Sem Idealize.ShloMosaic.ValueIdx
open Cert.KernelIdeal Cert.KernelIdeal.Gen Cert.KernelIdeal.HostSide Cert.KernelIdeal.RegionValue
open Cert.KernelIdeal.Stats Cert.KernelIdeal.LayerOf Cert.Gin.Layer Cert.Gin.Bridge Cert.Gin.Params
open Cert.ReferenceIdeal.HandRun Cert.ReferenceIdeal.Idx

variable (m : (ℓ : Loc nD τ sig) → Buf (Elt Ideal) ℓ) (ρ : Dev nD → PrngReg)

/-- The array of affine values of the first map. -/
theorem y1_eq (c : Dev nD) :
    ((W22 m ρ c (Proc.devRef .tc main_v194_0)) : FVec Ideal S100000x128 .f32)
      = linG (addG (W20 m ρ c (Proc.devRef .tc main_v177)) (W21 m ρ c (Proc.devRef .tc main_v187))) (W21 m ρ c (Proc.devRef .tc main_v192)) (W21 m ρ c (Proc.devRef .tc main_v193)) := by
  show W22 m ρ c (Proc.devRef .tc (Pipeline.arrRef spec10 4)) = _
  rw [W22_arr, final10_4 (V21 m ρ) c]
  show linG (addG (W21 m ρ c (Proc.devRef .tc main_v177)) (W21 m ρ c (Proc.devRef .tc main_v187))) (W21 m ρ c (Proc.devRef .tc main_v192)) (W21 m ρ c (Proc.devRef .tc main_v193)) = _
  rw [W21_main_v177]

/-- Its blocks' column sums. -/
theorem s1_eq (c : Dev nD) : ((W22 m ρ c (Proc.devRef .tc main_v194_1)) : FVec Ideal S10x1x128 .f32) = sumG (W22 m ρ c (Proc.devRef .tc main_v194_0)) := by
  show W22 m ρ c (Proc.devRef .tc (Pipeline.arrRef spec10 5)) = _
  rw [W22_arr, final10_5 (V21 m ρ) c]
  show _ = sumG (W22 m ρ c (Proc.devRef .tc (Pipeline.arrRef spec10 4)))
  rw [W22_arr, final10_4 (V21 m ρ) c]

/-- Its blocks' column sums of squares. -/
theorem q1_eq (c : Dev nD) : ((W22 m ρ c (Proc.devRef .tc main_v194_2)) : FVec Ideal S10x1x128 .f32) = sumG (sqG (W22 m ρ c (Proc.devRef .tc main_v194_0))) := by
  show W22 m ρ c (Proc.devRef .tc (Pipeline.arrRef spec10 6)) = _
  rw [W22_arr, final10_6 (V21 m ρ) c]
  show _ = sumG (sqG (W22 m ρ c (Proc.devRef .tc (Pipeline.arrRef spec10 4))))
  rw [W22_arr, final10_4 (V21 m ρ) c]

/-- The row of means of the first normalisation. -/
theorem m1_eq (c : Dev nD) (q : Fin 128) :
    ((W23 m ρ c (Proc.devRef .tc main_v198)) : FVec Ideal S1x128 .f32) (ix2 0 q) = mean cN (mat (W22 m ρ c (Proc.devRef .tc main_v194_0))) q := by
  rw [W23_main_v198, s1_eq]
  exact mean_row _ _ _ _ q

/-- The row of variances of the first normalisation. -/
theorem v1_eq (c : Dev nD) (q : Fin 128) :
    ((W23 m ρ c (Proc.devRef .tc main_v204)) : FVec Ideal S1x128 .f32) (ix2 0 q) = var1 cN (mat (W22 m ρ c (Proc.devRef .tc main_v194_0))) q := by
  rw [W23_main_v204, s1_eq, q1_eq]
  exact var_row _ _ _ _ _ (fun _ => rfl) q

/-- The array of affine values of the second map. -/
theorem y2_eq (c : Dev nD) :
    ((W24 m ρ c (Proc.devRef .tc main_v217_0)) : FVec Ideal S100000x128 .f32)
      = linG (bnG (W22 m ρ c (Proc.devRef .tc main_v194_0)) (W23 m ρ c (Proc.devRef .tc main_v198)) (W23 m ρ c (Proc.devRef .tc main_v204)) (W23 m ρ c (Proc.devRef .tc main_v214)) (W23 m ρ c (Proc.devRef .tc main_v215))) (W23 m ρ c (Proc.devRef .tc main_v213)) (W23 m ρ c (Proc.devRef .tc main_v216)) := by
  show W24 m ρ c (Proc.devRef .tc (Pipeline.arrRef spec11 7)) = _
  rw [W24_arr, final11_7 (V23 m ρ) c]
  show linG (bnG (W23 m ρ c (Proc.devRef .tc main_v194_0)) (W23 m ρ c (Proc.devRef .tc main_v198)) (W23 m ρ c (Proc.devRef .tc main_v204)) (W23 m ρ c (Proc.devRef .tc main_v214)) (W23 m ρ c (Proc.devRef .tc main_v215))) (W23 m ρ c (Proc.devRef .tc main_v213)) (W23 m ρ c (Proc.devRef .tc main_v216)) = _
  rw [W23_main_v194_0]

theorem s2_eq (c : Dev nD) : ((W24 m ρ c (Proc.devRef .tc main_v217_1)) : FVec Ideal S10x1x128 .f32) = sumG (W24 m ρ c (Proc.devRef .tc main_v217_0)) := by
  show W24 m ρ c (Proc.devRef .tc (Pipeline.arrRef spec11 8)) = _
  rw [W24_arr, final11_8 (V23 m ρ) c]
  show _ = sumG (W24 m ρ c (Proc.devRef .tc (Pipeline.arrRef spec11 7)))
  rw [W24_arr, final11_7 (V23 m ρ) c]

theorem q2_eq (c : Dev nD) : ((W24 m ρ c (Proc.devRef .tc main_v217_2)) : FVec Ideal S10x1x128 .f32) = sumG (sqG (W24 m ρ c (Proc.devRef .tc main_v217_0))) := by
  show W24 m ρ c (Proc.devRef .tc (Pipeline.arrRef spec11 9)) = _
  rw [W24_arr, final11_9 (V23 m ρ) c]
  show _ = sumG (sqG (W24 m ρ c (Proc.devRef .tc (Pipeline.arrRef spec11 7))))
  rw [W24_arr, final11_7 (V23 m ρ) c]

/-- The row of means of the second normalisation. -/
theorem m2_eq (c : Dev nD) (q : Fin 128) :
    ((W25 m ρ c (Proc.devRef .tc main_v221)) : FVec Ideal S1x128 .f32) (ix2 0 q) = mean cN (mat (W24 m ρ c (Proc.devRef .tc main_v217_0))) q := by
  rw [W25_main_v221, s2_eq]
  exact mean_row _ _ _ _ q

/-- The row of variances of the second normalisation. -/
theorem v2_eq (c : Dev nD) (q : Fin 128) :
    ((W25 m ρ c (Proc.devRef .tc main_v227)) : FVec Ideal S1x128 .f32) (ix2 0 q) = var1 cN (mat (W24 m ρ c (Proc.devRef .tc main_v217_0))) q := by
  rw [W25_main_v227, s2_eq, q2_eq]
  exact var_row _ _ _ _ _ (fun _ => rfl) q

/-- The layer's last array. -/
theorem xout_eq (c : Dev nD) :
    ((W26 m ρ c (Proc.devRef .tc main_v234)) : FVec Ideal S100000x128 .f32)
      = bnG (W24 m ρ c (Proc.devRef .tc main_v217_0)) (W25 m ρ c (Proc.devRef .tc main_v221)) (W25 m ρ c (Proc.devRef .tc main_v227)) (W25 m ρ c (Proc.devRef .tc main_v232)) (W25 m ρ c (Proc.devRef .tc main_v233)) := by
  show W26 m ρ c (Proc.devRef .tc (Pipeline.arrRef spec12 5)) = _
  rw [W26_arr, final12_5 (V25 m ρ) c]
  show bnG (W25 m ρ c (Proc.devRef .tc main_v217_0)) (W25 m ρ c (Proc.devRef .tc main_v221)) (W25 m ρ c (Proc.devRef .tc main_v227)) (W25 m ρ c (Proc.devRef .tc main_v232)) (W25 m ρ c (Proc.devRef .tc main_v233)) = _
  rw [W25_main_v217_0]

/-- The neighbours' sum the layer reads is the reference's aggregation of the layer's first array over the edge list. -/
theorem agg_eq (c : Dev nD) :
    ((W21 m ρ c (Proc.devRef .tc main_v187)) : FVec Ideal S100000x128 .f32)
      = aggStage (W20 m ρ c (Proc.devRef .tc main_v177)) (m ((c : Thread nD τ).loc main_arg1)) := by
  rw [W21_main_v187, W20_main_v1, W20_main_v3, W1_main_v1, W1_main_v3]
  rfl

/-- The layer, as a matrix. -/
theorem layer_eq (c : Dev nD) :
    mat (W26 m ρ c (Proc.devRef .tc main_v234))
      = layer var1 id (Ideal.ofBits .f32 0x3727C5AC#32) (mat (W20 m ρ c (Proc.devRef .tc main_v177)))
          (mat (aggStage (W20 m ρ c (Proc.devRef .tc main_v177)) (m ((c : Thread nD τ).loc main_arg1))))
          (matT (matAt3 (m ((c : Thread nD τ).loc main_arg5)))) (vec (rowAt3 (m ((c : Thread nD τ).loc main_arg6))))
          (vec (rowAt3 (m ((c : Thread nD τ).loc main_arg7)))) (vec (rowAt3 (m ((c : Thread nD τ).loc main_arg8))))
          (matT (matAt3 (m ((c : Thread nD τ).loc main_arg9)))) (vec (rowAt3 (m ((c : Thread nD τ).loc main_arg10))))
          (vec (rowAt3 (m ((c : Thread nD τ).loc main_arg11)))) (vec (rowAt3 (m ((c : Thread nD τ).loc main_arg12)))) := by
  have h := layer_of (X := (W20 m ρ c (Proc.devRef .tc main_v177))) (A := (W21 m ρ c (Proc.devRef .tc main_v187))) (fun _ => rfl) (y1_eq m ρ c) (m1_eq m ρ c) (v1_eq m ρ c)
    (y2_eq m ρ c) (m2_eq m ρ c) (v2_eq m ρ c) (xout_eq m ρ c)
  rw [h, agg_eq m ρ c]
  have eW1 : matW (W21 m ρ c (Proc.devRef .tc main_v192)) = matT (matAt3 (m ((c : Thread nD τ).loc main_arg5))) := by
    rw [W21_main_v192, W20_main_arg5]; exact matW_transpose _ _
  have eb1 : rowOf (W21 m ρ c (Proc.devRef .tc main_v193)) = vec (rowAt3 (m ((c : Thread nD τ).loc main_arg6))) := by
    rw [W21_main_v193, W20_main_arg6]; exact rowOf_shapeCast _ _
  have eg1 : rowOf (W23 m ρ c (Proc.devRef .tc main_v214)) = vec (rowAt3 (m ((c : Thread nD τ).loc main_arg7))) := by
    rw [W23_main_v214, W22_main_arg7]; exact rowOf_shapeCast _ _
  have ebe1 : rowOf (W23 m ρ c (Proc.devRef .tc main_v215)) = vec (rowAt3 (m ((c : Thread nD τ).loc main_arg8))) := by
    rw [W23_main_v215, W22_main_arg8]; exact rowOf_shapeCast _ _
  have eW2 : matW (W23 m ρ c (Proc.devRef .tc main_v213)) = matT (matAt3 (m ((c : Thread nD τ).loc main_arg9))) := by
    rw [W23_main_v213, W22_main_arg9]; exact matW_transpose _ _
  have eb2 : rowOf (W23 m ρ c (Proc.devRef .tc main_v216)) = vec (rowAt3 (m ((c : Thread nD τ).loc main_arg10))) := by
    rw [W23_main_v216, W22_main_arg10]; exact rowOf_shapeCast _ _
  have eg2 : rowOf (W25 m ρ c (Proc.devRef .tc main_v232)) = vec (rowAt3 (m ((c : Thread nD τ).loc main_arg11))) := by
    rw [W25_main_v232, W24_main_arg11]; exact rowOf_shapeCast _ _
  have ebe2 : rowOf (W25 m ρ c (Proc.devRef .tc main_v233)) = vec (rowAt3 (m ((c : Thread nD τ).loc main_arg12))) := by
    rw [W25_main_v233, W24_main_arg12]; exact rowOf_shapeCast _ _
  rw [eW1, eb1, eg1, ebe1, eW2, eb2, eg2, ebe2]

end Cert.KernelIdeal.Asm3

end
-- ==== Proof.KResult.lean ====
/-
  The last stretch of the kernel program: the rows of the last layer's array picked by the mask, multiplied by the
  transposed output weights, plus the output bias along every row. These are the same three operations, with the same
  index normalisation of the mask, that end the reference; so the kernel program's result is the reference's tail
  function of the last layer's array and of the three arguments it reads.
-/
import proofs.«119304_j10247791968545_2_alg».proof.Proof.Gen.KernelIdeal.Frame
import proofs.«119304_j10247791968545_2_alg».proof.Proof.RefStages
import Idealize.ShloMosaic.Lib.StableHlo.Run
import Idealize.ShloMosaic.PureOps.Ideal

set_option maxRecDepth 16384

noncomputable section

namespace Cert.KernelIdeal.Result

open Idealize.ShloMosaic Idealize.ShloMosaic.TcCoe Idealize.SL.Sem Cert.KernelIdeal Cert.KernelIdeal.Gen

variable (m : (ℓ : Loc nD τ sig) → Buf (Elt Ideal) ℓ) (ρ : Dev nD → PrngReg)

/-- The result buffer at the last boundary is the tail function of what the boundary before it holds. -/
theorem result_eq (c : Dev nD) :
    W27 (F := Ideal) m ρ c (Proc.devRef .tc main_v246)
      = Cert.ReferenceIdeal.HandRun.tailStage (W26 m ρ c (Proc.devRef .tc main_v234)) (W26 m ρ c (Proc.devRef .tc main_arg2))
          (W26 m ρ c (Proc.devRef .tc main_arg13)) (W26 m ρ c (Proc.devRef .tc main_arg14)) := by
  show StableHlo.after hostOps13 (W26 m ρ c) (Proc.devRef .tc main_v246) = _
  after_results
  rfl

end Cert.KernelIdeal.Result

end
-- ==== Proof.RefSlices.lean ====
/- A layer's parameters read at an entry: matrix `l` of four stacked 128 × 128 matrices has at (q, k) the stack's entry
   (l, q, k), and row `l` of four stacked vectors of 128 has at q the stack's entry (l, q) — a slice of one along the
   leading axis from `l`, then the leading unit axis dropped. -/
import proofs.«119304_j10247791968545_2_alg».proof.Proof.RefStages
import Idealize.ShloMosaic.Lib.ValueLayout
import Idealize.ShloMosaic.Lib.Pipeline.Value

noncomputable section

namespace Cert.ReferenceIdeal.HandRun

open Cert.ReferenceIdeal Cert.ReferenceIdeal.Gen Idealize.ShloMosaic Idealize.ShloMosaic.ValueIdx

/-- Matrix 0 of the stack at (q, k) is the stack at (0, q, k). -/
theorem matAt0_apply (Ws : TSq4) (q k : Fin 128) :
    matAt0 Ws (ix2 q k) = Ws (ix3 (⟨0, by omega⟩ : Fin 4) q k) := by
  unfold matAt0
  rw [shapeCast_1ab_ab_apply]
  exact extractStridedSlice_apply _ _ _ _ _ (fun ax => by
    match ax with
    | ⟨0, _⟩ => rfl
    | ⟨1, _⟩ => exact (Nat.zero_add _).symm
    | ⟨2, _⟩ => exact (Nat.zero_add _).symm)

/-- Row 0 of the stack at q is the stack at (0, q). -/
theorem rowAt0_apply (bs : TVec4) (q : Fin 128) :
    rowAt0 bs (ix1 q) = bs (ix2 (⟨0, by omega⟩ : Fin 4) q) := by
  unfold rowAt0
  rw [shapeCast_1a_a_apply]
  exact slice2_axis0_apply 0 bs _ (0 : Fin 1) q ⟨0, by omega⟩ rfl

/-- Matrix 1 of the stack at (q, k) is the stack at (1, q, k). -/
theorem matAt1_apply (Ws : TSq4) (q k : Fin 128) :
    matAt1 Ws (ix2 q k) = Ws (ix3 (⟨1, by omega⟩ : Fin 4) q k) := by
  unfold matAt1
  rw [shapeCast_1ab_ab_apply]
  exact extractStridedSlice_apply _ _ _ _ _ (fun ax => by
    match ax with
    | ⟨0, _⟩ => rfl
    | ⟨1, _⟩ => exact (Nat.zero_add _).symm
    | ⟨2, _⟩ => exact (Nat.zero_add _).symm)

/-- Row 1 of the stack at q is the stack at (1, q). -/
theorem rowAt1_apply (bs : TVec4) (q : Fin 128) :
    rowAt1 bs (ix1 q) = bs (ix2 (⟨1, by omega⟩ : Fin 4) q) := by
  unfold rowAt1
  rw [shapeCast_1a_a_apply]
  exact slice2_axis0_apply 1 bs _ (0 : Fin 1) q ⟨1, by omega⟩ rfl

/-- Matrix 2 of the stack at (q, k) is the stack at (2, q, k). -/
theorem matAt2_apply (Ws : TSq4) (q k : Fin 128) :
    matAt2 Ws (ix2 q k) = Ws (ix3 (⟨2, by omega⟩ : Fin 4) q k) := by
  unfold matAt2
  rw [shapeCast_1ab_ab_apply]
  exact extractStridedSlice_apply _ _ _ _ _ (fun ax => by
    match ax with
    | ⟨0, _⟩ => rfl
    | ⟨1, _⟩ => exact (Nat.zero_add _).symm
    | ⟨2, _⟩ => exact (Nat.zero_add _).symm)

/-- Row 2 of the stack at q is the stack at (2, q). -/
theorem rowAt2_apply (bs : TVec4) (q : Fin 128) :
    rowAt2 bs (ix1 q) = bs (ix2 (⟨2, by omega⟩ : Fin 4) q) := by
  unfold rowAt2
  rw [shapeCast_1a_a_apply]
  exact slice2_axis0_apply 2 bs _ (0 : Fin 1) q ⟨2, by omega⟩ rfl

/-- Matrix 3 of the stack at (q, k) is the stack at (3, q, k). -/
theorem matAt3_apply (Ws : TSq4) (q k : Fin 128) :
    matAt3 Ws (ix2 q k) = Ws (ix3 (⟨3, by omega⟩ : Fin 4) q k) := by
  unfold matAt3
  rw [shapeCast_1ab_ab_apply]
  exact extractStridedSlice_apply _ _ _ _ _ (fun ax => by
    match ax with
    | ⟨0, _⟩ => rfl
    | ⟨1, _⟩ => exact (Nat.zero_add _).symm
    | ⟨2, _⟩ => exact (Nat.zero_add _).symm)

/-- Row 3 of the stack at q is the stack at (3, q). -/
theorem rowAt3_apply (bs : TVec4) (q : Fin 128) :
    rowAt3 bs (ix1 q) = bs (ix2 (⟨3, by omega⟩ : Fin 4) q) := by
  unfold rowAt3
  rw [shapeCast_1a_a_apply]
  exact slice2_axis0_apply 3 bs _ (0 : Fin 1) q ⟨3, by omega⟩ rfl

end Cert.ReferenceIdeal.HandRun

end
-- ==== Proof.Top.lean ====
/-
  The kernel program's result as the reference's output function of the arguments.

  Under the precondition every float argument is real, hence so is every slice of a stacked argument. The first
  region's array is the reference's first stage; layer by layer the kernel program's array is the reference's (the
  induction over the layers); and the last stretch is the reference's tail. So the result buffer at the end of the
  kernel program's run holds the reference's output function of the fifteen argument arrays.
-/
import proofs.«119304_j10247791968545_2_alg».proof.Defs
import proofs.«119304_j10247791968545_2_alg».proof.Proof.Gen.Pre_finite_inputs
import proofs.«119304_j10247791968545_2_alg».proof.Proof.Final
import proofs.«119304_j10247791968545_2_alg».proof.Proof.Finite
import proofs.«119304_j10247791968545_2_alg».proof.Proof.KAsmInit
import proofs.«119304_j10247791968545_2_alg».proof.Proof.KAsmL0
import proofs.«119304_j10247791968545_2_alg».proof.Proof.KAsmL1
import proofs.«119304_j10247791968545_2_alg».proof.Proof.KAsmL2
import proofs.«119304_j10247791968545_2_alg».proof.Proof.KAsmL3
import proofs.«119304_j10247791968545_2_alg».proof.Proof.KResult
import proofs.«119304_j10247791968545_2_alg».proof.Proof.RefOut
import proofs.«119304_j10247791968545_2_alg».proof.Proof.RefSlices

set_option maxRecDepth 16384

noncomputable section

namespace Cert.Gin.Top

open Idealize.ShloMosaic Idealize.ShloMosaic.TcCoe Idealize.SL.Sem Idealize.ShloMosaic.ValueIdx
open Cert.KernelIdeal Cert.KernelIdeal.Gen Cert.KernelIdeal.HostSide
open Cert.Gin.Algebra Cert.Gin.Chain Cert.ReferenceIdeal.HandRun

/-- A stacked array of four matrices is real entry by entry; so is each of its four slices. -/
theorem matAt_real (Ws : TSq4) (h : ∀ i, IsReal (Ws i)) (M : TSq)
    (hM : M ∈ [matAt0 Ws, matAt1 Ws, matAt2 Ws, matAt3 Ws]) (i : Cert.ReferenceIdeal.S128x128.Idx) : IsReal (M i) := by
  obtain ⟨q, k, rfl⟩ : ∃ (q k : Fin 128), i = ix2 q k := ⟨i 0, i 1, eq_ix2 i⟩
  simp only [List.mem_cons, List.mem_nil_iff, or_false] at hM
  rcases hM with rfl | rfl | rfl | rfl
  · rw [matAt0_apply]; exact h _
  · rw [matAt1_apply]; exact h _
  · rw [matAt2_apply]; exact h _
  · rw [matAt3_apply]; exact h _

/-- A stacked array of four rows is real entry by entry; so is each of its four slices. -/
theorem rowAt_real (bs : TVec4) (h : ∀ i, IsReal (bs i)) (v : TVec)
    (hv : v ∈ [rowAt0 bs, rowAt1 bs, rowAt2 bs, rowAt3 bs]) (i : Cert.ReferenceIdeal.S128.Idx) : IsReal (v i) := by
  obtain ⟨q, rfl⟩ : ∃ q : Fin 128, i = ix1 q := ⟨i 0, eq_ix1 i⟩
  simp only [List.mem_cons, List.mem_nil_iff, or_false] at hv
  rcases hv with rfl | rfl | rfl | rfl
  · rw [rowAt0_apply]; exact h _
  · rw [rowAt1_apply]; exact h _
  · rw [rowAt2_apply]; exact h _
  · rw [rowAt3_apply]; exact h _

variable (m : (ℓ : Loc nD τ sig) → Buf (Elt Ideal) ℓ) (ρ : Dev nD → PrngReg)

/-- Under the precondition the kernel program's result buffer holds the reference's output function of the arguments. -/
theorem kernel_value (hpre : Cert.Pre_KernelIdeal m) (c : Dev nD) :
    W27 (F := Ideal) m ρ c (Proc.devRef .tc main_v246)
      = refOut (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) (m ((c : Thread nD τ).loc main_arg11))
          (m ((c : Thread nD τ).loc main_arg12)) (m ((c : Thread nD τ).loc main_arg13)) (m ((c : Thread nD τ).loc main_arg14)) := by
  obtain ⟨r0, r3, r4, r5, r6, r7, r8, r9, r10, r11, r12, -, -⟩ := Cert.Gin.Finite.args_real _ _ _ _ _ _ _ _ _ _ _ _ _ _ _ (hpre c)
  have K : KFacts (m ((c : Thread nD τ).loc main_arg0)) (m ((c : Thread nD τ).loc main_arg1)) (m ((c : Thread nD τ).loc main_arg3))
      (m ((c : Thread nD τ).loc main_arg4)) (m ((c : Thread nD τ).loc main_arg5)) (m ((c : Thread nD τ).loc main_arg6))
      (m ((c : Thread nD τ).loc main_arg7)) (m ((c : Thread nD τ).loc main_arg8)) (m ((c : Thread nD τ).loc main_arg9))
      (m ((c : Thread nD τ).loc main_arg10)) (m ((c : Thread nD τ).loc main_arg11)) (m ((c : Thread nD τ).loc main_arg12))
      (W2 m ρ c (Proc.devRef .tc main_v6)) (W8 m ρ c (Proc.devRef .tc main_v63)) (W14 m ρ c (Proc.devRef .tc main_v120))
      (W20 m ρ c (Proc.devRef .tc main_v177)) (W26 m ρ c (Proc.devRef .tc main_v234)) :=
    ⟨Cert.KernelIdeal.AsmInit.init_eq m ρ c, Cert.KernelIdeal.Asm0.layer_eq m ρ c, Cert.KernelIdeal.Asm1.layer_eq m ρ c,
      Cert.KernelIdeal.Asm2.layer_eq m ρ c, Cert.KernelIdeal.Asm3.layer_eq m ρ c⟩
  have e4 := chain K r0 r3 r4
    (fun M hM => by
      simp only [List.mem_cons, List.mem_nil_iff, or_false] at hM
      rcases hM with h | h | h | h | h | h | h | h
      · exact matAt_real _ r5 M (by simp [h])
      · exact matAt_real _ r5 M (by simp [h])
      · exact matAt_real _ r5 M (by simp [h])
      · exact matAt_real _ r5 M (by simp [h])
      · exact matAt_real _ r9 M (by simp [h])
      · exact matAt_real _ r9 M (by simp [h])
      · exact matAt_real _ r9 M (by simp [h])
      · exact matAt_real _ r9 M (by simp [h]))
    (fun v hv => by
      simp only [List.mem_cons, List.mem_nil_iff, or_false] at hv
      rcases hv with h | h | h | h | h | h | h | h | h | h | h | h | h | h | h | h | h | h | h | h | h | h | h | h
      · exact rowAt_real _ r6 v (by simp [h])
      · exact rowAt_real _ r6 v (by simp [h])
      · exact rowAt_real _ r6 v (by simp [h])
      · exact rowAt_real _ r6 v (by simp [h])
      · exact rowAt_real _ r7 v (by simp [h])
      · exact rowAt_real _ r7 v (by simp [h])
      · exact rowAt_real _ r7 v (by simp [h])
      · exact rowAt_real _ r7 v (by simp [h])
      · exact rowAt_real _ r8 v (by simp [h])
      · exact rowAt_real _ r8 v (by simp [h])
      · exact rowAt_real _ r8 v (by simp [h])
      · exact rowAt_real _ r8 v (by simp [h])
      · exact rowAt_real _ r10 v (by simp [h])
      · exact rowAt_real _ r10 v (by simp [h])
      · exact rowAt_real _ r10 v (by simp [h])
      · exact rowAt_real _ r10 v (by simp [h])
      · exact rowAt_real _ r11 v (by simp [h])
      · exact rowAt_real _ r11 v (by simp [h])
      · exact rowAt_real _ r11 v (by simp [h])
      · exact rowAt_real _ r11 v (by simp [h])
      · exact rowAt_real _ r12 v (by simp [h])
      · exact rowAt_real _ r12 v (by simp [h])
      · exact rowAt_real _ r12 v (by simp [h])
      · exact rowAt_real _ r12 v (by simp [h]))
  rw [Cert.KernelIdeal.Result.result_eq, e4, W26_main_arg2, W26_main_arg13, W26_main_arg14]
  rfl

end Cert.Gin.Top

end
-- ==== Proof.lean ====
/-
  The certificate. The kernel program and its idealization run (terminate, fault-free, arguments unchanged): their frames.
  The reference runs: its operations executed in order, each total. The idealization rewrote nothing, so there is nothing
  to preserve. And at exact arithmetic, from memories that agree on the arguments, both programs end with equal
  results: the kernel program's result buffer holds the reference's output function of the argument arrays (the
  induction over the four layers, under the precondition that every float argument is finite), and the reference's run
  ends with that same function of its own argument arrays, which are the kernel program's.
-/
import proofs.«119304_j10247791968545_2_alg».proof.Defs
import proofs.«119304_j10247791968545_2_alg».proof.Proof.Gen.Kernel
import proofs.«119304_j10247791968545_2_alg».proof.Proof.Gen.Kernel.Frame
import proofs.«119304_j10247791968545_2_alg».proof.Proof.Gen.KernelIdeal
import proofs.«119304_j10247791968545_2_alg».proof.Proof.Gen.KernelIdeal.Frame
import proofs.«119304_j10247791968545_2_alg».proof.Proof.Gen.ReferenceIdeal
import proofs.«119304_j10247791968545_2_alg».proof.Proof.Gen.Pre_finite_inputs
import proofs.«119304_j10247791968545_2_alg».proof.Proof.KRun
import proofs.«119304_j10247791968545_2_alg».proof.Proof.RefRun
import proofs.«119304_j10247791968545_2_alg».proof.Proof.RefRead
import proofs.«119304_j10247791968545_2_alg».proof.Proof.Top

set_option maxRecDepth 16384

noncomputable section

namespace Cert.Proof

open Idealize.ShloMosaic Idealize.ShloMosaic.TcCoe Idealize.SL.Sem

/-- The kernel program runs and leaves its arguments unchanged. -/
theorem frame_kernel : Cert.frame_Kernel := fun m ρ _ => Cert.Kernel.Gen.frame m ρ

/-- Its idealization runs and leaves its arguments unchanged. -/
theorem frame_kernelIdeal : Cert.frame_KernelIdeal := fun m ρ _ => Cert.KernelIdeal.Gen.frame m ρ

/-- The reference runs and leaves its arguments unchanged: its run, with the result forgotten. -/
theorem frame_referenceIdeal : Cert.frame_ReferenceIdeal := fun m ρ _ =>
  (θ_run Cert.ReferenceIdeal.defs _ _).mono (fun _ h c => (h c).2) (Cert.ReferenceIdeal.HandRun.run (F := Ideal) m ρ)

/-- At exact arithmetic the two programs end with equal results. -/
theorem algebraic : Cert.algebraic_KernelIdeal_ReferenceIdeal := by
  intro m ρ m' ρ' hpre hagree
  refine ⟨fun c => Cert.KernelIdeal.Gen.W27 (F := Ideal) m ρ c (Proc.devRef .tc Cert.KernelIdeal.main_v246),
    Cert.KernelIdeal.HandRun.run_value m ρ, ?_⟩
  refine (θ_run Cert.ReferenceIdeal.defs _ _).mono (fun r h c => ⟨(h c).1.trans ?_, (h c).2⟩)
    (Cert.ReferenceIdeal.HandRun.run (F := Ideal) m' ρ')
  refine (Cert.ReferenceIdeal.HandRun.read_result _).trans ?_
  refine Eq.trans ?_ (Cert.Gin.Top.kernel_value m ρ hpre c).symm
  obtain ⟨h0, h1, h2, h3, h4, h5, h6, h7, h8, h9, h10, h11, h12, h13, h14⟩ := hagree c
  show Cert.ReferenceIdeal.HandRun.refOut (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) = _
  rw [h0, h1, h2, h3, h4, h5, h6, h7, h8, h9, h10, h11, h12, h13, h14]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
